-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S4096 : Shape := ⟨1, ![4096]⟩
abbrev S1000000x64 : Shape := ⟨2, ![1000000, 64]⟩
abbrev S128x64 : Shape := ⟨2, ![128, 64]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S4096x200 : S_.BroadcastsInDim S4096x200 (![] : Fin 0 → Fin S4096x200.rank)
  reducesTo_S4096x200_S_d0_1 : S4096x200.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .sle main_arg1 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg0 : IVec S4096x200 32) (main_arg1 : IVec S4096 32) (main_arg6 : FVec F S2 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S4096x200 32 := broadcastInDim S4096x200 ![] bcast_S_S4096x200 main_c_8
  let main_v25 : IVec S4096x200 1 := cmpi .sge main_arg0 main_v24
  let main_c_9 : IVec S_ 32 := constantI S_ 32 999999#32
  let main_v26 : IVec S4096x200 32 := broadcastInDim S4096x200 ![] bcast_S_S4096x200 main_c_9
  let main_v27 : IVec S4096x200 1 := cmpi .sle main_arg0 main_v26
  let main_v28 : IVec S4096x200 1 := andi main_v25 main_v27
  let main_c_10 : IVec S_ 1 := constantI S_ 1 1#1
  let main_v29 : IVec S_ 1 := (fun x v => Host.reduce IntOp.andi x v reducesTo_S4096x200_S_d0_1 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg1 main_v31
  let main_c_12 : IVec S_ 32 := constantI S_ 32 199#32
  fn_part2 (F := F) main_arg1 main_v30 main_v32 main_c_12

def fn {F : FTy → Type} [FloatOps F] (main_arg0 : IVec S4096x200 32) (main_arg1 : IVec S4096 32) (main_arg2 : FVec F S1000000x64 .f32) (main_arg3 : FVec F S128x64 .f32) (main_arg4 : FVec F S128 .f32) (main_arg5 : FVec F S2x128 .f32) (main_arg6 : FVec F S2 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg0 main_arg1 main_arg6 main_v13 main_v16
-- ==== Kernel.lean ====
abbrev S4096x200 : Shape := ⟨2, ![4096, 200]⟩
abbrev S4096 : Shape := ⟨1, ![4096]⟩
abbrev S1000000x64 : Shape := ⟨2, ![1000000, 64]⟩
abbrev S128x64 : Shape := ⟨2, ![128, 64]⟩
abbrev S128 : Shape := ⟨1, ![128]⟩
abbrev S2x128 : Shape := ⟨2, ![2, 128]⟩
abbrev S2 : Shape := ⟨1, ![2]⟩
abbrev S200x4096 : Shape := ⟨2, ![200, 4096]⟩
abbrev S4096x224 : Shape := ⟨2, ![4096, 224]⟩
abbrev S200x1024 : Shape := ⟨2, ![200, 1024]⟩
abbrev S1024x224 : Shape := ⟨2, ![1024, 224]⟩
abbrev S1024x200 : Shape := ⟨2, ![1024, 200]⟩
abbrev S1024x12 : Shape := ⟨2, ![1024, 12]⟩
abbrev S1024x100 : Shape := ⟨2, ![1024, 100]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S32768x64 : Shape := ⟨2, ![32768, 64]⟩
abbrev S16384x64 : Shape := ⟨2, ![16384, 64]⟩
abbrev S4096x64 : Shape := ⟨2, ![4096, 64]⟩
abbrev S128x224 : Shape := ⟨2, ![128, 224]⟩
abbrev S28672 : Shape := ⟨1, ![28672]⟩
abbrev S100x128 : Shape := ⟨2, ![100, 128]⟩
abbrev S64x64 : Shape := ⟨2, ![64, 64]⟩
abbrev S_ : Shape := ⟨0, ![]⟩
abbrev S1x16 : Shape := ⟨2, ![1, 16]⟩
abbrev S16 : Shape := ⟨1, ![16]⟩
abbrev S100 : Shape := ⟨1, ![100]⟩
abbrev S1 : Shape := ⟨1, ![1]⟩
abbrev S64x128 : Shape := ⟨2, ![64, 128]⟩
abbrev S1x128 : Shape := ⟨2, ![1, 128]⟩
abbrev S128x2 : Shape := ⟨2, ![128, 2]⟩
abbrev S1x2 : Shape := ⟨2, ![1, 2]⟩
abbrev S4096x2 : Shape := ⟨2, ![4096, 2]⟩
abbrev S4096x128 : Shape := ⟨2, ![4096, 128]⟩
abbrev S4096x1 : Shape := ⟨2, ![4096, 1]⟩

abbrev nBuf : Table → Nat
  | .hbm => 17
  | .local .tc .vmem => 14
  | .local .scVector .vmem => 7
  | _ => 0

abbrev bufTy : (tb : Table) → Fin (nBuf tb) → BufTy
  | .hbm, ⟨0, _⟩ => ⟨S4096x200, .i32⟩
  | .hbm, ⟨1, _⟩ => ⟨S4096, .i32⟩
  | .hbm, ⟨2, _⟩ => ⟨S1000000x64, .f32⟩
  | .hbm, ⟨3, _⟩ => ⟨S128x64, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S200x4096, .i32⟩
  | .hbm, ⟨8, _⟩ => ⟨S4096x224, .i32⟩
  | .hbm, ⟨9, _⟩ => ⟨S64x1000000, .f32⟩
  | .hbm, ⟨10, _⟩ => ⟨S507904x128, .f32⟩
  | .hbm, ⟨11, _⟩ => ⟨S4096x64, .f32⟩
  | .hbm, ⟨12, _⟩ => ⟨S64x128, .f32⟩
  | .hbm, ⟨13, _⟩ => ⟨S1x128, .f32⟩
  | .hbm, ⟨14, _⟩ => ⟨S128x2, .f32⟩
  | .hbm, ⟨15, _⟩ => ⟨S1x2, .f32⟩
  | .hbm, ⟨16, _⟩ => ⟨S4096x2, .f32⟩
  | .local .tc .vmem, ⟨0, _⟩ => ⟨S200x1024, .i32⟩
  | .local .tc .vmem, ⟨1, _⟩ => ⟨S200x1024, .i32⟩
  | .local .tc .vmem, ⟨2, _⟩ => ⟨S1024x224, .i32⟩
  | .local .tc .vmem, ⟨3, _⟩ => ⟨S1024x224, .i32⟩
  | .local .tc .vmem, ⟨4, _⟩ => ⟨S64x32768, .f32⟩
  | .local .tc .vmem, ⟨5, _⟩ => ⟨S64x32768, .f32⟩
  | .local .tc .vmem, ⟨6, _⟩ => ⟨S16384x128, .f32⟩
  | .local .tc .vmem, ⟨7, _⟩ => ⟨S16384x128, .f32⟩
  | .local .tc .vmem, ⟨8, _⟩ => ⟨S4096x64, .f32⟩
  | .local .tc .vmem, ⟨9, _⟩ => ⟨S64x128, .f32⟩
  | .local .tc .vmem, ⟨10, _⟩ => ⟨S1x128, .f32⟩
  | .local .tc .vmem, ⟨11, _⟩ => ⟨S128x2, .f32⟩
  | .local .tc .vmem, ⟨12, _⟩ => ⟨S1x2, .f32⟩
  | .local .tc .vmem, ⟨13, _⟩ => ⟨S4096x2, .f32⟩
  | .local .scVector .vmem, ⟨0, _⟩ => ⟨S128x224, .i32⟩
  | .local .scVector .vmem, ⟨1, _⟩ => ⟨S28672, .i32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S100x128, .f32⟩
  | .local .scVector .vmem, ⟨6, _⟩ => ⟨S64x64, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v1_scv : Ref sig .scVector := ⟨.hbm, 8, rfl⟩
abbrev main_v3_scv : Ref sig .scVector := ⟨.hbm, 10, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x224 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_34_r0 : BitVec 32 := 0#32
  ![v2.toNat, 0]
@[reducible] def k2_t1_loop : Scf.Loop 32 :=
  let c0_i32_0 : BitVec 32 := 0#32
  let c1792_i32 : BitVec 32 := 1792#32
  let v3 : BitVec 32 := Scalar.addi c0_i32_0 c1792_i32
  let c1_i32 : BitVec 32 := 1#32
  ⟨c0_i32_0, v3, c1_i32⟩
def k2_off2 (k2_t1 : Fin k2_t1_loop.trips) : Fin 2 → Nat :=
  let c0_i32_0 : BitVec 32 := 0#32
  let c1_i32 : BitVec 32 := 1#32
  let arg16 : BitVec 32 := Scf.iv c0_i32_0 c1_i32 k2_t1
  let c0_i32_34 : BitVec 32 := 0#32
  let v25 : BitVec 1 := Scalar.cmpi .sgt arg16 c0_i32_34
  let v26 : BitVec 32 := Scalar.extui v25
  let c0_i32_35 : BitVec 32 := 0#32
  let v27 : BitVec 1 := Scalar.cmpi .slt arg16 c0_i32_35
  let v28 : BitVec 32 := Scalar.extui v27
  let v29 : BitVec 32 := Scalar.subi v26 v28
  let c14_i32 : BitVec 32 := 14#32
  let c0_i32_36 : BitVec 32 := 0#32
  let v30 : BitVec 1 := Scalar.cmpi .sgt c14_i32 c0_i32_36
  let v31 : BitVec 32 := Scalar.extui v30
  let c0_i32_37 : BitVec 32 := 0#32
  let v32 : BitVec 1 := Scalar.cmpi .slt c14_i32 c0_i32_37
  let v33 : BitVec 32 := Scalar.extui v32
  let v34 : BitVec 32 := Scalar.subi v31 v33
  let v35 : BitVec 1 := Scalar.cmpi .ne v29 v34
  let v36 : BitVec 32 := Scalar.remsi arg16 c14_i32
  let c0_i32_38 : BitVec 32 := 0#32
  let v37 : BitVec 1 := Scalar.cmpi .ne v36 c0_i32_38
  let v38 : BitVec 1 := Scalar.andi v35 v37
  let v24 : BitVec 32 := Scalar.divsi arg16 c14_i32
  let c1_i32_39 : BitVec 32 := 1#32
  let v39 : BitVec 32 := Scalar.subi v24 c1_i32_39
  let v40 : BitVec 32 := Scalar.select v38 v39 v24
  let v52 : Index := Scalar.indexCast v40
  let c14_i32_40 : BitVec 32 := 14#32
  let c0_i32_41 : BitVec 32 := 0#32
  let v41 : BitVec 1 := Scalar.cmpi .eq c14_i32_40 c0_i32_41
  let c1_i32_42 : BitVec 32 := 1#32
  let v42 : BitVec 32 := Scalar.select v41 c1_i32_42 c14_i32_40
  let v43 : BitVec 32 := Scalar.remsi arg16 v42
  let c0_i32_44 : BitVec 32 := 0#32
  let v45 : BitVec 1 := Scalar.cmpi .slt v43 c0_i32_44
  let c0_i32_45 : BitVec 32 := 0#32
  let v46 : BitVec 1 := Scalar.cmpi .slt v42 c0_i32_45
  let v47 : BitVec 1 := Scalar.xori v45 v46
  let c0_i32_43 : BitVec 32 := 0#32
  let v44 : BitVec 1 := Scalar.cmpi .ne v43 c0_i32_43
  let v48 : BitVec 1 := Scalar.andi v47 v44
  let v49 : BitVec 32 := Scalar.addi v43 v42
  let v50 : BitVec 32 := Scalar.select v48 v49 v43
  let c16_i32 : BitVec 32 := 16#32
  let v51 : BitVec 32 := Scalar.muli v50 c16_i32
  let v53 : Index := Scalar.indexCast v51
  ![v52.toNat, v53.toNat]
def k2_off3 (k2_t1 : Fin k2_t1_loop.trips) : Fin 1 → Nat :=
  let c0_i32_0 : BitVec 32 := 0#32
  let c1_i32 : BitVec 32 := 1#32
  let arg16 : BitVec 32 := Scf.iv c0_i32_0 c1_i32 k2_t1
  let c16_i32_47 : BitVec 32 := 16#32
  let v63 : BitVec 32 := Scalar.muli arg16 c16_i32_47
  let v64 : Index := Scalar.indexCast v63
  ![v64.toNat]
@[reducible] def k2_t2_loop : Scf.Loop 32 :=
  let c0_i32_13 : BitVec 32 := 0#32
  let c32_i32 : BitVec 32 := 32#32
  let v13 : BitVec 32 := Scalar.addi c0_i32_13 c32_i32
  let c1_i32_14 : BitVec 32 := 1#32
  ⟨c0_i32_13, v13, c1_i32_14⟩
@[reducible] def k2_t3_loop : Scf.Loop 32 :=
  let c0_i32_38 : BitVec 32 := 0#32
  let c6_i32 : BitVec 32 := 6#32
  let v28 : BitVec 32 := Scalar.addi c0_i32_38 c6_i32
  let c1_i32_39 : BitVec 32 := 1#32
  ⟨c0_i32_38, v28, c1_i32_39⟩
def k2_off4 (k2_t2 : Fin k2_t2_loop.trips) (k2_t3 : Fin k2_t3_loop.trips) : Fin 2 → Nat :=
  let c4_i32 : BitVec 32 := 4#32
  let c0_i32_13 : BitVec 32 := 0#32
  let c1_i32_14 : BitVec 32 := 1#32
  let arg16 : BitVec 32 := Scf.iv c0_i32_13 c1_i32_14 k2_t2
  let v24 : BitVec 32 := Scalar.muli c4_i32 arg16
  let c0_i32_34 : BitVec 32 := 0#32
  let v25 : BitVec 32 := Scalar.addi v24 c0_i32_34
  let c0_i32_292 : BitVec 32 := 0#32
  let v728 : BitVec 1 := Scalar.cmpi .sgt v25 c0_i32_292
  let v729 : BitVec 32 := Scalar.extui v728
  let c0_i32_293 : BitVec 32 := 0#32
  let v730 : BitVec 1 := Scalar.cmpi .slt v25 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v25 c2_i32_291
  let c0_i32_296 : BitVec 32 := 0#32
  let v740 : BitVec 1 := Scalar.cmpi .ne v739 c0_i32_296
  let v741 : BitVec 1 := Scalar.andi v738 v740
  let v727 : BitVec 32 := Scalar.divsi v25 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v25 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off5 (k2_t3 : Fin k2_t3_loop.trips) (v768 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off6 (k2_t3 : Fin k2_t3_loop.trips) (v768 : BitVec 32) (c16_i32_309 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk1 (k2_t3 : Fin k2_t3_loop.trips) (v768 : BitVec 32) : Prop :=
  (∀ a, (k2_off5 k2_t3 v768) a + S1x16.size a ≤ S100x128.size a) ∧
  (∀ (r : Fin 3), ∀ a, (k2_off6 k2_t3 v768 (BitVec.ofNat 32 (16 + 16 * r.val))) a + S1x16.size a ≤ S100x128.size a)
instance k2_chk1.dec : ∀ (k2_t3 : Fin k2_t3_loop.trips) (v768 : BitVec 32), Decidable (k2_chk1 k2_t3 v768) := fun k2_t3 v768 => decidable_of_iff' _ (Iff.of_eq (k2_chk1.eq_1 k2_t3 v768))
theorem k2_off5_inb : ∀ (k2_t3 : Fin k2_t3_loop.trips) (v768 : BitVec 32) (k2_hw1 : k2_chk1 k2_t3 v768), ∀ a, (k2_off5 k2_t3 v768) a + S1x16.size a ≤ S100x128.size a := fun k2_t3 v768 k2_hw1 => k2_hw1.1
theorem k2_off6_inb : ∀ (k2_t3 : Fin k2_t3_loop.trips) (v768 : BitVec 32) (k2_hw1 : k2_chk1 k2_t3 v768), ∀ (r : Fin 3), ∀ a, (k2_off6 k2_t3 v768 (BitVec.ofNat 32 (16 + 16 * r.val))) a + S1x16.size a ≤ S100x128.size a := fun k2_t3 v768 k2_hw1 r => k2_hw1.2 r

def k2_off7 (k2_t3 : Fin k2_t3_loop.trips) (v794 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off8 (k2_t3 : Fin k2_t3_loop.trips) (v794 : BitVec 32) (c16_i32_313 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk2 (k2_t3 : Fin k2_t3_loop.trips) (v794 : BitVec 32) : Prop :=
  (∀ a, (k2_off7 k2_t3 v794) a + S1x16.size a ≤ S100x128.size a) ∧
  (∀ (r : Fin 3), ∀ a, (k2_off8 k2_t3 v794 (BitVec.ofNat 32 (16 + 16 * r.val))) a + S1x16.size a ≤ S100x128.size a)
instance k2_chk2.dec : ∀ (k2_t3 : Fin k2_t3_loop.trips) (v794 : BitVec 32), Decidable (k2_chk2 k2_t3 v794) := fun k2_t3 v794 => decidable_of_iff' _ (Iff.of_eq (k2_chk2.eq_1 k2_t3 v794))
theorem k2_off7_inb : ∀ (k2_t3 : Fin k2_t3_loop.trips) (v794 : BitVec 32) (k2_hw2 : k2_chk2 k2_t3 v794), ∀ a, (k2_off7 k2_t3 v794) a + S1x16.size a ≤ S100x128.size a := fun k2_t3 v794 k2_hw2 => k2_hw2.1
theorem k2_off8_inb : ∀ (k2_t3 : Fin k2_t3_loop.trips) (v794 : BitVec 32) (k2_hw2 : k2_chk2 k2_t3 v794), ∀ (r : Fin 3), ∀ a, (k2_off8 k2_t3 v794 (BitVec.ofNat 32 (16 + 16 * r.val))) a + S1x16.size a ≤ S100x128.size a := fun k2_t3 v794 k2_hw2 r => k2_hw2.2 r

def k2_off9 (k2_t3 : Fin k2_t3_loop.trips) (v820 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off10 (k2_t3 : Fin k2_t3_loop.trips) (v820 : BitVec 32) (c16_i32_317 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk3 (k2_t3 : Fin k2_t3_loop.trips) (v820 : BitVec 32) : Prop :=
  (∀ a, (k2_off9 k2_t3 v820) a + S1x16.size a ≤ S100x128.size a) ∧
  (∀ (r : Fin 3), ∀ a, (k2_off10 k2_t3 v820 (BitVec.ofNat 32 (16 + 16 * r.val))) a + S1x16.size a ≤ S100x128.size a)
instance k2_chk3.dec : ∀ (k2_t3 : Fin k2_t3_loop.trips) (v820 : BitVec 32), Decidable (k2_chk3 k2_t3 v820) := fun k2_t3 v820 => decidable_of_iff' _ (Iff.of_eq (k2_chk3.eq_1 k2_t3 v820))
theorem k2_off9_inb : ∀ (k2_t3 : Fin k2_t3_loop.trips) (v820 : BitVec 32) (k2_hw3 : k2_chk3 k2_t3 v820), ∀ a, (k2_off9 k2_t3 v820) a + S1x16.size a ≤ S100x128.size a := fun k2_t3 v820 k2_hw3 => k2_hw3.1
theorem k2_off10_inb : ∀ (k2_t3 : Fin k2_t3_loop.trips) (v820 : BitVec 32) (k2_hw3 : k2_chk3 k2_t3 v820), ∀ (r : Fin 3), ∀ a, (k2_off10 k2_t3 v820 (BitVec.ofNat 32 (16 + 16 * r.val))) a + S1x16.size a ≤ S100x128.size a := fun k2_t3 v820 k2_hw3 r => k2_hw3.2 r

def k2_off11 (k2_t3 : Fin k2_t3_loop.trips) (v846 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off12 (k2_t3 : Fin k2_t3_loop.trips) (v846 : BitVec 32) (c16_i32_321 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk4 (k2_t3 : Fin k2_t3_loop.trips) (v846 : BitVec 32) : Prop :=
  (∀ a, (k2_off11 k2_t3 v846) a + S1x16.size a ≤ S100x128.size a) ∧
  (∀ (r : Fin 3), ∀ a, (k2_off12 k2_t3 v846 (BitVec.ofNat 32 (16 + 16 * r.val))) a + S1x16.size a ≤ S100x128.size a)
instance k2_chk4.dec : ∀ (k2_t3 : Fin k2_t3_loop.trips) (v846 : BitVec 32), Decidable (k2_chk4 k2_t3 v846) := fun k2_t3 v846 => decidable_of_iff' _ (Iff.of_eq (k2_chk4.eq_1 k2_t3 v846))
theorem k2_off11_inb : ∀ (k2_t3 : Fin k2_t3_loop.trips) (v846 : BitVec 32) (k2_hw4 : k2_chk4 k2_t3 v846), ∀ a, (k2_off11 k2_t3 v846) a + S1x16.size a ≤ S100x128.size a := fun k2_t3 v846 k2_hw4 => k2_hw4.1
theorem k2_off12_inb : ∀ (k2_t3 : Fin k2_t3_loop.trips) (v846 : BitVec 32) (k2_hw4 : k2_chk4 k2_t3 v846), ∀ (r : Fin 3), ∀ a, (k2_off12 k2_t3 v846 (BitVec.ofNat 32 (16 + 16 * r.val))) a + S1x16.size a ≤ S100x128.size a := fun k2_t3 v846 k2_hw4 r => k2_hw4.2 r

def k2_off13 (k2_t3 : Fin k2_t3_loop.trips) (v872 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off14 (k2_t3 : Fin k2_t3_loop.trips) (v872 : BitVec 32) (c16_i32_325 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk5 (k2_t3 : Fin k2_t3_loop.trips) (v872 : BitVec 32) : Prop :=
  (∀ a, (k2_off13 k2_t3 v872) a + S1x16.size a ≤ S100x128.size a) ∧
  (∀ (r : Fin 3), ∀ a, (k2_off14 k2_t3 v872 (BitVec.ofNat 32 (16 + 16 * r.val))) a + S1x16.size a ≤ S100x128.size a)
instance k2_chk5.dec : ∀ (k2_t3 : Fin k2_t3_loop.trips) (v872 : BitVec 32), Decidable (k2_chk5 k2_t3 v872) := fun k2_t3 v872 => decidable_of_iff' _ (Iff.of_eq (k2_chk5.eq_1 k2_t3 v872))
theorem k2_off13_inb : ∀ (k2_t3 : Fin k2_t3_loop.trips) (v872 : BitVec 32) (k2_hw5 : k2_chk5 k2_t3 v872), ∀ a, (k2_off13 k2_t3 v872) a + S1x16.size a ≤ S100x128.size a := fun k2_t3 v872 k2_hw5 => k2_hw5.1
theorem k2_off14_inb : ∀ (k2_t3 : Fin k2_t3_loop.trips) (v872 : BitVec 32) (k2_hw5 : k2_chk5 k2_t3 v872), ∀ (r : Fin 3), ∀ a, (k2_off14 k2_t3 v872 (BitVec.ofNat 32 (16 + 16 * r.val))) a + S1x16.size a ≤ S100x128.size a := fun k2_t3 v872 k2_hw5 r => k2_hw5.2 r

def k2_off15 (k2_t3 : Fin k2_t3_loop.trips) (v898 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off16 (k2_t3 : Fin k2_t3_loop.trips) (v898 : BitVec 32) (c16_i32_328 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk6 (k2_t3 : Fin k2_t3_loop.trips) (v898 : BitVec 32) : Prop :=
  (∀ a, (k2_off15 k2_t3 v898) a + S1x16.size a ≤ S100x128.size a) ∧
  (∀ (r : Fin 3), ∀ a, (k2_off16 k2_t3 v898 (BitVec.ofNat 32 (16 + 16 * r.val))) a + S1x16.size a ≤ S100x128.size a)
instance k2_chk6.dec : ∀ (k2_t3 : Fin k2_t3_loop.trips) (v898 : BitVec 32), Decidable (k2_chk6 k2_t3 v898) := fun k2_t3 v898 => decidable_of_iff' _ (Iff.of_eq (k2_chk6.eq_1 k2_t3 v898))
theorem k2_off15_inb : ∀ (k2_t3 : Fin k2_t3_loop.trips) (v898 : BitVec 32) (k2_hw6 : k2_chk6 k2_t3 v898), ∀ a, (k2_off15 k2_t3 v898) a + S1x16.size a ≤ S100x128.size a := fun k2_t3 v898 k2_hw6 => k2_hw6.1
theorem k2_off16_inb : ∀ (k2_t3 : Fin k2_t3_loop.trips) (v898 : BitVec 32) (k2_hw6 : k2_chk6 k2_t3 v898), ∀ (r : Fin 3), ∀ a, (k2_off16 k2_t3 v898 (BitVec.ofNat 32 (16 + 16 * r.val))) a + S1x16.size a ≤ S100x128.size a := fun k2_t3 v898 k2_hw6 r => k2_hw6.2 r

def k2_off17 (k2_t3 : Fin k2_t3_loop.trips) (v924 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off18 (k2_t3 : Fin k2_t3_loop.trips) (v924 : BitVec 32) (c16_i32_332 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk7 (k2_t3 : Fin k2_t3_loop.trips) (v924 : BitVec 32) : Prop :=
  (∀ a, (k2_off17 k2_t3 v924) a + S1x16.size a ≤ S100x128.size a) ∧
  (∀ (r : Fin 3), ∀ a, (k2_off18 k2_t3 v924 (BitVec.ofNat 32 (16 + 16 * r.val))) a + S1x16.size a ≤ S100x128.size a)
instance k2_chk7.dec : ∀ (k2_t3 : Fin k2_t3_loop.trips) (v924 : BitVec 32), Decidable (k2_chk7 k2_t3 v924) := fun k2_t3 v924 => decidable_of_iff' _ (Iff.of_eq (k2_chk7.eq_1 k2_t3 v924))
theorem k2_off17_inb : ∀ (k2_t3 : Fin k2_t3_loop.trips) (v924 : BitVec 32) (k2_hw7 : k2_chk7 k2_t3 v924), ∀ a, (k2_off17 k2_t3 v924) a + S1x16.size a ≤ S100x128.size a := fun k2_t3 v924 k2_hw7 => k2_hw7.1
theorem k2_off18_inb : ∀ (k2_t3 : Fin k2_t3_loop.trips) (v924 : BitVec 32) (k2_hw7 : k2_chk7 k2_t3 v924), ∀ (r : Fin 3), ∀ a, (k2_off18 k2_t3 v924 (BitVec.ofNat 32 (16 + 16 * r.val))) a + S1x16.size a ≤ S100x128.size a := fun k2_t3 v924 k2_hw7 r => k2_hw7.2 r

def k2_off19 (k2_t3 : Fin k2_t3_loop.trips) (v950 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off20 (k2_t3 : Fin k2_t3_loop.trips) (v950 : BitVec 32) (c16_i32_335 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk8 (k2_t3 : Fin k2_t3_loop.trips) (v950 : BitVec 32) : Prop :=
  (∀ a, (k2_off19 k2_t3 v950) a + S1x16.size a ≤ S100x128.size a) ∧
  (∀ (r : Fin 3), ∀ a, (k2_off20 k2_t3 v950 (BitVec.ofNat 32 (16 + 16 * r.val))) a + S1x16.size a ≤ S100x128.size a)
instance k2_chk8.dec : ∀ (k2_t3 : Fin k2_t3_loop.trips) (v950 : BitVec 32), Decidable (k2_chk8 k2_t3 v950) := fun k2_t3 v950 => decidable_of_iff' _ (Iff.of_eq (k2_chk8.eq_1 k2_t3 v950))
theorem k2_off19_inb : ∀ (k2_t3 : Fin k2_t3_loop.trips) (v950 : BitVec 32) (k2_hw8 : k2_chk8 k2_t3 v950), ∀ a, (k2_off19 k2_t3 v950) a + S1x16.size a ≤ S100x128.size a := fun k2_t3 v950 k2_hw8 => k2_hw8.1
theorem k2_off20_inb : ∀ (k2_t3 : Fin k2_t3_loop.trips) (v950 : BitVec 32) (k2_hw8 : k2_chk8 k2_t3 v950), ∀ (r : Fin 3), ∀ a, (k2_off20 k2_t3 v950 (BitVec.ofNat 32 (16 + 16 * r.val))) a + S1x16.size a ≤ S100x128.size a := fun k2_t3 v950 k2_hw8 r => k2_hw8.2 r

def k2_off21 (k2_t3 : Fin k2_t3_loop.trips) (v976 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off22 (k2_t3 : Fin k2_t3_loop.trips) (v976 : BitVec 32) (c16_i32_338 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk9 (k2_t3 : Fin k2_t3_loop.trips) (v976 : BitVec 32) : Prop :=
  (∀ a, (k2_off21 k2_t3 v976) a + S1x16.size a ≤ S100x128.size a) ∧
  (∀ (r : Fin 3), ∀ a, (k2_off22 k2_t3 v976 (BitVec.ofNat 32 (16 + 16 * r.val))) a + S1x16.size a ≤ S100x128.size a)
instance k2_chk9.dec : ∀ (k2_t3 : Fin k2_t3_loop.trips) (v976 : BitVec 32), Decidable (k2_chk9 k2_t3 v976) := fun k2_t3 v976 => decidable_of_iff' _ (Iff.of_eq (k2_chk9.eq_1 k2_t3 v976))
theorem k2_off21_inb : ∀ (k2_t3 : Fin k2_t3_loop.trips) (v976 : BitVec 32) (k2_hw9 : k2_chk9 k2_t3 v976), ∀ a, (k2_off21 k2_t3 v976) a + S1x16.size a ≤ S100x128.size a := fun k2_t3 v976 k2_hw9 => k2_hw9.1
theorem k2_off22_inb : ∀ (k2_t3 : Fin k2_t3_loop.trips) (v976 : BitVec 32) (k2_hw9 : k2_chk9 k2_t3 v976), ∀ (r : Fin 3), ∀ a, (k2_off22 k2_t3 v976 (BitVec.ofNat 32 (16 + 16 * r.val))) a + S1x16.size a ≤ S100x128.size a := fun k2_t3 v976 k2_hw9 r => k2_hw9.2 r

def k2_off23 (k2_t3 : Fin k2_t3_loop.trips) (v1002 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off24 (k2_t3 : Fin k2_t3_loop.trips) (v1002 : BitVec 32) (c16_i32_341 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk10 (k2_t3 : Fin k2_t3_loop.trips) (v1002 : BitVec 32) : Prop :=
  (∀ a, (k2_off23 k2_t3 v1002) a + S1x16.size a ≤ S100x128.size a) ∧
  (∀ (r : Fin 3), ∀ a, (k2_off24 k2_t3 v1002 (BitVec.ofNat 32 (16 + 16 * r.val))) a + S1x16.size a ≤ S100x128.size a)
instance k2_chk10.dec : ∀ (k2_t3 : Fin k2_t3_loop.trips) (v1002 : BitVec 32), Decidable (k2_chk10 k2_t3 v1002) := fun k2_t3 v1002 => decidable_of_iff' _ (Iff.of_eq (k2_chk10.eq_1 k2_t3 v1002))
theorem k2_off23_inb : ∀ (k2_t3 : Fin k2_t3_loop.trips) (v1002 : BitVec 32) (k2_hw10 : k2_chk10 k2_t3 v1002), ∀ a, (k2_off23 k2_t3 v1002) a + S1x16.size a ≤ S100x128.size a := fun k2_t3 v1002 k2_hw10 => k2_hw10.1
theorem k2_off24_inb : ∀ (k2_t3 : Fin k2_t3_loop.trips) (v1002 : BitVec 32) (k2_hw10 : k2_chk10 k2_t3 v1002), ∀ (r : Fin 3), ∀ a, (k2_off24 k2_t3 v1002 (BitVec.ofNat 32 (16 + 16 * r.val))) a + S1x16.size a ≤ S100x128.size a := fun k2_t3 v1002 k2_hw10 r => k2_hw10.2 r

def k2_off25 (k2_t3 : Fin k2_t3_loop.trips) (v1028 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off26 (k2_t3 : Fin k2_t3_loop.trips) (v1028 : BitVec 32) (c16_i32_344 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk11 (k2_t3 : Fin k2_t3_loop.trips) (v1028 : BitVec 32) : Prop :=
  (∀ a, (k2_off25 k2_t3 v1028) a + S1x16.size a ≤ S100x128.size a) ∧
  (∀ (r : Fin 3), ∀ a, (k2_off26 k2_t3 v1028 (BitVec.ofNat 32 (16 + 16 * r.val))) a + S1x16.size a ≤ S100x128.size a)
instance k2_chk11.dec : ∀ (k2_t3 : Fin k2_t3_loop.trips) (v1028 : BitVec 32), Decidable (k2_chk11 k2_t3 v1028) := fun k2_t3 v1028 => decidable_of_iff' _ (Iff.of_eq (k2_chk11.eq_1 k2_t3 v1028))
theorem k2_off25_inb : ∀ (k2_t3 : Fin k2_t3_loop.trips) (v1028 : BitVec 32) (k2_hw11 : k2_chk11 k2_t3 v1028), ∀ a, (k2_off25 k2_t3 v1028) a + S1x16.size a ≤ S100x128.size a := fun k2_t3 v1028 k2_hw11 => k2_hw11.1
theorem k2_off26_inb : ∀ (k2_t3 : Fin k2_t3_loop.trips) (v1028 : BitVec 32) (k2_hw11 : k2_chk11 k2_t3 v1028), ∀ (r : Fin 3), ∀ a, (k2_off26 k2_t3 v1028 (BitVec.ofNat 32 (16 + 16 * r.val))) a + S1x16.size a ≤ S100x128.size a := fun k2_t3 v1028 k2_hw11 r => k2_hw11.2 r

def k2_off27 (k2_t3 : Fin k2_t3_loop.trips) (v1054 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off28 (k2_t3 : Fin k2_t3_loop.trips) (v1054 : BitVec 32) (c16_i32_347 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk12 (k2_t3 : Fin k2_t3_loop.trips) (v1054 : BitVec 32) : Prop :=
  (∀ a, (k2_off27 k2_t3 v1054) a + S1x16.size a ≤ S100x128.size a) ∧
  (∀ (r : Fin 3), ∀ a, (k2_off28 k2_t3 v1054 (BitVec.ofNat 32 (16 + 16 * r.val))) a + S1x16.size a ≤ S100x128.size a)
instance k2_chk12.dec : ∀ (k2_t3 : Fin k2_t3_loop.trips) (v1054 : BitVec 32), Decidable (k2_chk12 k2_t3 v1054) := fun k2_t3 v1054 => decidable_of_iff' _ (Iff.of_eq (k2_chk12.eq_1 k2_t3 v1054))
theorem k2_off27_inb : ∀ (k2_t3 : Fin k2_t3_loop.trips) (v1054 : BitVec 32) (k2_hw12 : k2_chk12 k2_t3 v1054), ∀ a, (k2_off27 k2_t3 v1054) a + S1x16.size a ≤ S100x128.size a := fun k2_t3 v1054 k2_hw12 => k2_hw12.1
theorem k2_off28_inb : ∀ (k2_t3 : Fin k2_t3_loop.trips) (v1054 : BitVec 32) (k2_hw12 : k2_chk12 k2_t3 v1054), ∀ (r : Fin 3), ∀ a, (k2_off28 k2_t3 v1054 (BitVec.ofNat 32 (16 + 16 * r.val))) a + S1x16.size a ≤ S100x128.size a := fun k2_t3 v1054 k2_hw12 r => k2_hw12.2 r

def k2_off29 (k2_t3 : Fin k2_t3_loop.trips) (v1080 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off30 (k2_t3 : Fin k2_t3_loop.trips) (v1080 : BitVec 32) (c16_i32_350 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk13 (k2_t3 : Fin k2_t3_loop.trips) (v1080 : BitVec 32) : Prop :=
  (∀ a, (k2_off29 k2_t3 v1080) a + S1x16.size a ≤ S100x128.size a) ∧
  (∀ (r : Fin 3), ∀ a, (k2_off30 k2_t3 v1080 (BitVec.ofNat 32 (16 + 16 * r.val))) a + S1x16.size a ≤ S100x128.size a)
instance k2_chk13.dec : ∀ (k2_t3 : Fin k2_t3_loop.trips) (v1080 : BitVec 32), Decidable (k2_chk13 k2_t3 v1080) := fun k2_t3 v1080 => decidable_of_iff' _ (Iff.of_eq (k2_chk13.eq_1 k2_t3 v1080))
theorem k2_off29_inb : ∀ (k2_t3 : Fin k2_t3_loop.trips) (v1080 : BitVec 32) (k2_hw13 : k2_chk13 k2_t3 v1080), ∀ a, (k2_off29 k2_t3 v1080) a + S1x16.size a ≤ S100x128.size a := fun k2_t3 v1080 k2_hw13 => k2_hw13.1
theorem k2_off30_inb : ∀ (k2_t3 : Fin k2_t3_loop.trips) (v1080 : BitVec 32) (k2_hw13 : k2_chk13 k2_t3 v1080), ∀ (r : Fin 3), ∀ a, (k2_off30 k2_t3 v1080 (BitVec.ofNat 32 (16 + 16 * r.val))) a + S1x16.size a ≤ S100x128.size a := fun k2_t3 v1080 k2_hw13 r => k2_hw13.2 r

def k2_off31 (k2_t3 : Fin k2_t3_loop.trips) (v1106 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off32 (k2_t3 : Fin k2_t3_loop.trips) (v1106 : BitVec 32) (c16_i32_353 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk14 (k2_t3 : Fin k2_t3_loop.trips) (v1106 : BitVec 32) : Prop :=
  (∀ a, (k2_off31 k2_t3 v1106) a + S1x16.size a ≤ S100x128.size a) ∧
  (∀ (r : Fin 3), ∀ a, (k2_off32 k2_t3 v1106 (BitVec.ofNat 32 (16 + 16 * r.val))) a + S1x16.size a ≤ S100x128.size a)
instance k2_chk14.dec : ∀ (k2_t3 : Fin k2_t3_loop.trips) (v1106 : BitVec 32), Decidable (k2_chk14 k2_t3 v1106) := fun k2_t3 v1106 => decidable_of_iff' _ (Iff.of_eq (k2_chk14.eq_1 k2_t3 v1106))
theorem k2_off31_inb : ∀ (k2_t3 : Fin k2_t3_loop.trips) (v1106 : BitVec 32) (k2_hw14 : k2_chk14 k2_t3 v1106), ∀ a, (k2_off31 k2_t3 v1106) a + S1x16.size a ≤ S100x128.size a := fun k2_t3 v1106 k2_hw14 => k2_hw14.1
theorem k2_off32_inb : ∀ (k2_t3 : Fin k2_t3_loop.trips) (v1106 : BitVec 32) (k2_hw14 : k2_chk14 k2_t3 v1106), ∀ (r : Fin 3), ∀ a, (k2_off32 k2_t3 v1106 (BitVec.ofNat 32 (16 + 16 * r.val))) a + S1x16.size a ≤ S100x128.size a := fun k2_t3 v1106 k2_hw14 r => k2_hw14.2 r

def k2_off33 (k2_t3 : Fin k2_t3_loop.trips) (v1132 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off34 (k2_t3 : Fin k2_t3_loop.trips) (v1132 : BitVec 32) (c16_i32_357 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk15 (k2_t3 : Fin k2_t3_loop.trips) (v1132 : BitVec 32) : Prop :=
  (∀ a, (k2_off33 k2_t3 v1132) a + S1x16.size a ≤ S100x128.size a) ∧
  (∀ (r : Fin 3), ∀ a, (k2_off34 k2_t3 v1132 (BitVec.ofNat 32 (16 + 16 * r.val))) a + S1x16.size a ≤ S100x128.size a)
instance k2_chk15.dec : ∀ (k2_t3 : Fin k2_t3_loop.trips) (v1132 : BitVec 32), Decidable (k2_chk15 k2_t3 v1132) := fun k2_t3 v1132 => decidable_of_iff' _ (Iff.of_eq (k2_chk15.eq_1 k2_t3 v1132))
theorem k2_off33_inb : ∀ (k2_t3 : Fin k2_t3_loop.trips) (v1132 : BitVec 32) (k2_hw15 : k2_chk15 k2_t3 v1132), ∀ a, (k2_off33 k2_t3 v1132) a + S1x16.size a ≤ S100x128.size a := fun k2_t3 v1132 k2_hw15 => k2_hw15.1
theorem k2_off34_inb : ∀ (k2_t3 : Fin k2_t3_loop.trips) (v1132 : BitVec 32) (k2_hw15 : k2_chk15 k2_t3 v1132), ∀ (r : Fin 3), ∀ a, (k2_off34 k2_t3 v1132 (BitVec.ofNat 32 (16 + 16 * r.val))) a + S1x16.size a ≤ S100x128.size a := fun k2_t3 v1132 k2_hw15 r => k2_hw15.2 r

def k2_off35 (k2_t3 : Fin k2_t3_loop.trips) (v1158 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off36 (k2_t3 : Fin k2_t3_loop.trips) (v1158 : BitVec 32) (c16_i32_360 : BitVec 32) : Fin 2 → Nat :=
  let c0_i32_38 : BitVec 32 := 0#32
  let c1_i32_39 : BitVec 32 := 1#32
  let arg17 : BitVec 32 := Scf.iv c0_i32_38 c1_i32_39 k2_t3
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk16 (k2_t3 : Fin k2_t3_loop.trips) (v1158 : BitVec 32) : Prop :=
  (∀ a, (k2_off35 k2_t3 v1158) a + S1x16.size a ≤ S100x128.size a) ∧
  (∀ (r : Fin 3), ∀ a, (k2_off36 k2_t3 v1158 (BitVec.ofNat 32 (16 + 16 * r.val))) a + S1x16.size a ≤ S100x128.size a)
instance k2_chk16.dec : ∀ (k2_t3 : Fin k2_t3_loop.trips) (v1158 : BitVec 32), Decidable (k2_chk16 k2_t3 v1158) := fun k2_t3 v1158 => decidable_of_iff' _ (Iff.of_eq (k2_chk16.eq_1 k2_t3 v1158))
theorem k2_off35_inb : ∀ (k2_t3 : Fin k2_t3_loop.trips) (v1158 : BitVec 32) (k2_hw16 : k2_chk16 k2_t3 v1158), ∀ a, (k2_off35 k2_t3 v1158) a + S1x16.size a ≤ S100x128.size a := fun k2_t3 v1158 k2_hw16 => k2_hw16.1
theorem k2_off36_inb : ∀ (k2_t3 : Fin k2_t3_loop.trips) (v1158 : BitVec 32) (k2_hw16 : k2_chk16 k2_t3 v1158), ∀ (r : Fin 3), ∀ a, (k2_off36 k2_t3 v1158 (BitVec.ofNat 32 (16 + 16 * r.val))) a + S1x16.size a ≤ S100x128.size a := fun k2_t3 v1158 k2_hw16 r => k2_hw16.2 r

def k2_off37 (k2_t2 : Fin k2_t2_loop.trips) : Fin 2 → Nat :=
  let c4_i32 : BitVec 32 := 4#32
  let c0_i32_13 : BitVec 32 := 0#32
  let c1_i32_14 : BitVec 32 := 1#32
  let arg16 : BitVec 32 := Scf.iv c0_i32_13 c1_i32_14 k2_t2
  let v24 : BitVec 32 := Scalar.muli c4_i32 arg16
  let c0_i32_34 : BitVec 32 := 0#32
  let v25 : BitVec 32 := Scalar.addi v24 c0_i32_34
  let c0_i32_42 : BitVec 32 := 0#32
  let v31 : BitVec 1 := Scalar.cmpi .sgt v25 c0_i32_42
  let v32 : BitVec 32 := Scalar.extui v31
  let c0_i32_43 : BitVec 32 := 0#32
  let v33 : BitVec 1 := Scalar.cmpi .slt v25 c0_i32_43
  let v34 : BitVec 32 := Scalar.extui v33
  let v35 : BitVec 32 := Scalar.subi v32 v34
  let c2_i32_41 : BitVec 32 := 2#32
  let c0_i32_44 : BitVec 32 := 0#32
  let v36 : BitVec 1 := Scalar.cmpi .sgt c2_i32_41 c0_i32_44
  let v37 : BitVec 32 := Scalar.extui v36
  let c0_i32_45 : BitVec 32 := 0#32
  let v38 : BitVec 1 := Scalar.cmpi .slt c2_i32_41 c0_i32_45
  let v39 : BitVec 32 := Scalar.extui v38
  let v40 : BitVec 32 := Scalar.subi v37 v39
  let v41 : BitVec 1 := Scalar.cmpi .ne v35 v40
  let v42 : BitVec 32 := Scalar.remsi v25 c2_i32_41
  let c0_i32_46 : BitVec 32 := 0#32
  let v43 : BitVec 1 := Scalar.cmpi .ne v42 c0_i32_46
  let v44 : BitVec 1 := Scalar.andi v41 v43
  let v30 : BitVec 32 := Scalar.divsi v25 c2_i32_41
  let c1_i32_47 : BitVec 32 := 1#32
  let v45 : BitVec 32 := Scalar.subi v30 c1_i32_47
  let v46 : BitVec 32 := Scalar.select v44 v45 v30
  let v59 : Index := Scalar.indexCast v46
  let c2_i32_48 : BitVec 32 := 2#32
  let c0_i32_49 : BitVec 32 := 0#32
  let v47 : BitVec 1 := Scalar.cmpi .eq c2_i32_48 c0_i32_49
  let c1_i32_50 : BitVec 32 := 1#32
  let v48 : BitVec 32 := Scalar.select v47 c1_i32_50 c2_i32_48
  let v49 : BitVec 32 := Scalar.remsi v25 v48
  let c0_i32_52 : BitVec 32 := 0#32
  let v51 : BitVec 1 := Scalar.cmpi .slt v49 c0_i32_52
  let c0_i32_53 : BitVec 32 := 0#32
  let v52 : BitVec 1 := Scalar.cmpi .slt v48 c0_i32_53
  let v53 : BitVec 1 := Scalar.xori v51 v52
  let c0_i32_51 : BitVec 32 := 0#32
  let v50 : BitVec 1 := Scalar.cmpi .ne v49 c0_i32_51
  let v54 : BitVec 1 := Scalar.andi v53 v50
  let v55 : BitVec 32 := Scalar.addi v49 v48
  let v56 : BitVec 32 := Scalar.select v54 v55 v49
  let c112_i32_54 : BitVec 32 := 112#32
  let v57 : BitVec 32 := Scalar.muli v56 c112_i32_54
  let c96_i32 : BitVec 32 := 96#32
  let v58 : BitVec 32 := Scalar.addi v57 c96_i32
  let v60 : Index := Scalar.indexCast v58
  ![v59.toNat, v60.toNat]
def k2_off38 (v70 : BitVec 32) : Fin 2 → Nat :=
  let c96_i32_57 : BitVec 32 := 96#32
  let v71 : Index := Scalar.indexCast c96_i32_57
  let v72 : Index := Scalar.indexCast v70
  ![96, v72.toNat]

def k2_off39 (v70 : BitVec 32) (c16_i32 : BitVec 32) : Fin 2 → Nat :=
  let c96_i32_58 : BitVec 32 := 96#32
  let v77 : Index := Scalar.indexCast c96_i32_58
  let v76 : BitVec 32 := Scalar.addi v70 c16_i32
  let v78 : Index := Scalar.indexCast v76
  ![96, v78.toNat]

def k2_chk17 (v70 : BitVec 32) : Prop :=
  (∀ a, (k2_off38 v70) a + S1x16.size a ≤ S100x128.size a) ∧
  (∀ (r : Fin 3), ∀ a, (k2_off39 v70 (BitVec.ofNat 32 (16 + 16 * r.val))) a + S1x16.size a ≤ S100x128.size a)
instance k2_chk17.dec : ∀ (v70 : BitVec 32), Decidable (k2_chk17 v70) := fun v70 => decidable_of_iff' _ (Iff.of_eq (k2_chk17.eq_1 v70))
theorem k2_off38_inb : ∀ (v70 : BitVec 32) (k2_hw17 : k2_chk17 v70), ∀ a, (k2_off38 v70) a + S1x16.size a ≤ S100x128.size a := fun v70 k2_hw17 => k2_hw17.1
theorem k2_off39_inb : ∀ (v70 : BitVec 32) (k2_hw17 : k2_chk17 v70), ∀ (r : Fin 3), ∀ a, (k2_off39 v70 (BitVec.ofNat 32 (16 + 16 * r.val))) a + S1x16.size a ≤ S100x128.size a := fun v70 k2_hw17 r => k2_hw17.2 r

def k2_off40 (v95 : BitVec 32) : Fin 2 → Nat :=
  let c97_i32 : BitVec 32 := 97#32
  let v96 : Index := Scalar.indexCast c97_i32
  let v97 : Index := Scalar.indexCast v95
  ![97, v97.toNat]

def k2_off41 (v95 : BitVec 32) (c16_i32_62 : BitVec 32) : Fin 2 → Nat :=
  let c97_i32_63 : BitVec 32 := 97#32
  let v102 : Index := Scalar.indexCast c97_i32_63
  let v101 : BitVec 32 := Scalar.addi v95 c16_i32_62
  let v103 : Index := Scalar.indexCast v101
  ![97, v103.toNat]

def k2_chk18 (v95 : BitVec 32) : Prop :=
  (∀ a, (k2_off40 v95) a + S1x16.size a ≤ S100x128.size a) ∧
  (∀ (r : Fin 3), ∀ a, (k2_off41 v95 (BitVec.ofNat 32 (16 + 16 * r.val))) a + S1x16.size a ≤ S100x128.size a)
instance k2_chk18.dec : ∀ (v95 : BitVec 32), Decidable (k2_chk18 v95) := fun v95 => decidable_of_iff' _ (Iff.of_eq (k2_chk18.eq_1 v95))
theorem k2_off40_inb : ∀ (v95 : BitVec 32) (k2_hw18 : k2_chk18 v95), ∀ a, (k2_off40 v95) a + S1x16.size a ≤ S100x128.size a := fun v95 k2_hw18 => k2_hw18.1
theorem k2_off41_inb : ∀ (v95 : BitVec 32) (k2_hw18 : k2_chk18 v95), ∀ (r : Fin 3), ∀ a, (k2_off41 v95 (BitVec.ofNat 32 (16 + 16 * r.val))) a + S1x16.size a ≤ S100x128.size a := fun v95 k2_hw18 r => k2_hw18.2 r

def k2_off42 (v120 : BitVec 32) : Fin 2 → Nat :=
  let c98_i32 : BitVec 32 := 98#32
  let v121 : Index := Scalar.indexCast c98_i32
  let v122 : Index := Scalar.indexCast v120
  ![98, v122.toNat]

def k2_off43 (v120 : BitVec 32) (c16_i32_68 : BitVec 32) : Fin 2 → Nat :=
  let c98_i32_69 : BitVec 32 := 98#32
  let v127 : Index := Scalar.indexCast c98_i32_69
  let v126 : BitVec 32 := Scalar.addi v120 c16_i32_68
  let v128 : Index := Scalar.indexCast v126
  ![98, v128.toNat]

def k2_chk19 (v120 : BitVec 32) : Prop :=
  (∀ a, (k2_off42 v120) a + S1x16.size a ≤ S100x128.size a) ∧
  (∀ (r : Fin 3), ∀ a, (k2_off43 v120 (BitVec.ofNat 32 (16 + 16 * r.val))) a + S1x16.size a ≤ S100x128.size a)
instance k2_chk19.dec : ∀ (v120 : BitVec 32), Decidable (k2_chk19 v120) := fun v120 => decidable_of_iff' _ (Iff.of_eq (k2_chk19.eq_1 v120))
theorem k2_off42_inb : ∀ (v120 : BitVec 32) (k2_hw19 : k2_chk19 v120), ∀ a, (k2_off42 v120) a + S1x16.size a ≤ S100x128.size a := fun v120 k2_hw19 => k2_hw19.1
theorem k2_off43_inb : ∀ (v120 : BitVec 32) (k2_hw19 : k2_chk19 v120), ∀ (r : Fin 3), ∀ a, (k2_off43 v120 (BitVec.ofNat 32 (16 + 16 * r.val))) a + S1x16.size a ≤ S100x128.size a := fun v120 k2_hw19 r => k2_hw19.2 r

def k2_off44 (v145 : BitVec 32) : Fin 2 → Nat :=
  let c99_i32 : BitVec 32 := 99#32
  let v146 : Index := Scalar.indexCast c99_i32
  let v147 : Index := Scalar.indexCast v145
  ![99, v147.toNat]

def k2_off45 (v145 : BitVec 32) (c16_i32_74 : BitVec 32) : Fin 2 → Nat :=
  let c99_i32_75 : BitVec 32 := 99#32
  let v152 : Index := Scalar.indexCast c99_i32_75
  let v151 : BitVec 32 := Scalar.addi v145 c16_i32_74
  let v153 : Index := Scalar.indexCast v151
  ![99, v153.toNat]

def k2_chk20 (v145 : BitVec 32) : Prop :=
  (∀ a, (k2_off44 v145) a + S1x16.size a ≤ S100x128.size a) ∧
  (∀ (r : Fin 3), ∀ a, (k2_off45 v145 (BitVec.ofNat 32 (16 + 16 * r.val))) a + S1x16.size a ≤ S100x128.size a)
instance k2_chk20.dec : ∀ (v145 : BitVec 32), Decidable (k2_chk20 v145) := fun v145 => decidable_of_iff' _ (Iff.of_eq (k2_chk20.eq_1 v145))
theorem k2_off44_inb : ∀ (v145 : BitVec 32) (k2_hw20 : k2_chk20 v145), ∀ a, (k2_off44 v145) a + S1x16.size a ≤ S100x128.size a := fun v145 k2_hw20 => k2_hw20.1
theorem k2_off45_inb : ∀ (v145 : BitVec 32) (k2_hw20 : k2_chk20 v145), ∀ (r : Fin 3), ∀ a, (k2_off45 v145 (BitVec.ofNat 32 (16 + 16 * r.val))) a + S1x16.size a ≤ S100x128.size a := fun v145 k2_hw20 r => k2_hw20.2 r

def k2_off46 (k2_t2 : Fin k2_t2_loop.trips) : Fin 1 → Nat :=
  let c4_i32 : BitVec 32 := 4#32
  let c0_i32_13 : BitVec 32 := 0#32
  let c1_i32_14 : BitVec 32 := 1#32
  let arg16 : BitVec 32 := Scf.iv c0_i32_13 c1_i32_14 k2_t2
  let v24 : BitVec 32 := Scalar.muli c4_i32 arg16
  let c0_i32_34 : BitVec 32 := 0#32
  let v25 : BitVec 32 := Scalar.addi v24 c0_i32_34
  let c4_i32_80 : BitVec 32 := 4#32
  let v169 : BitVec 32 := Scalar.addi v25 c4_i32_80
  let c252_i32 : BitVec 32 := 252#32
  let v170 : BitVec 32 := Scalar.minsi v169 c252_i32
  let c112_i32_81 : BitVec 32 := 112#32
  let v171 : BitVec 32 := Scalar.muli v170 c112_i32_81
  ![v171.toNat]
@[reducible] def k2_t4_loop : Scf.Loop 32 :=
  let c0_i32_89 : BitVec 32 := 0#32
  let c6_i32_90 : BitVec 32 := 6#32
  let v178 : BitVec 32 := Scalar.addi c0_i32_89 c6_i32_90
  let c1_i32_91 : BitVec 32 := 1#32
  ⟨c0_i32_89, v178, c1_i32_91⟩
def k2_off47 (k2_t2 : Fin k2_t2_loop.trips) (k2_t4 : Fin k2_t4_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_292 : BitVec 32 := 0#32
  let v728 : BitVec 1 := Scalar.cmpi .sgt v175 c0_i32_292
  let v729 : BitVec 32 := Scalar.extui v728
  let c0_i32_293 : BitVec 32 := 0#32
  let v730 : BitVec 1 := Scalar.cmpi .slt v175 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v175 c2_i32_291
  let c0_i32_296 : BitVec 32 := 0#32
  let v740 : BitVec 1 := Scalar.cmpi .ne v739 c0_i32_296
  let v741 : BitVec 1 := Scalar.andi v738 v740
  let v727 : BitVec 32 := Scalar.divsi v175 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v175 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off48 (k2_t4 : Fin k2_t4_loop.trips) (v768 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off49 (k2_t4 : Fin k2_t4_loop.trips) (v768 : BitVec 32) (c16_i32_309 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk21 (k2_t4 : Fin k2_t4_loop.trips) (v768 : BitVec 32) : Prop :=
  (∀ a, (k2_off48 k2_t4 v768) a + S1x16.size a ≤ S100x128.size a) ∧
  (∀ (r : Fin 3), ∀ a, (k2_off49 k2_t4 v768 (BitVec.ofNat 32 (16 + 16 * r.val))) a + S1x16.size a ≤ S100x128.size a)
instance k2_chk21.dec : ∀ (k2_t4 : Fin k2_t4_loop.trips) (v768 : BitVec 32), Decidable (k2_chk21 k2_t4 v768) := fun k2_t4 v768 => decidable_of_iff' _ (Iff.of_eq (k2_chk21.eq_1 k2_t4 v768))
theorem k2_off48_inb : ∀ (k2_t4 : Fin k2_t4_loop.trips) (v768 : BitVec 32) (k2_hw21 : k2_chk21 k2_t4 v768), ∀ a, (k2_off48 k2_t4 v768) a + S1x16.size a ≤ S100x128.size a := fun k2_t4 v768 k2_hw21 => k2_hw21.1
theorem k2_off49_inb : ∀ (k2_t4 : Fin k2_t4_loop.trips) (v768 : BitVec 32) (k2_hw21 : k2_chk21 k2_t4 v768), ∀ (r : Fin 3), ∀ a, (k2_off49 k2_t4 v768 (BitVec.ofNat 32 (16 + 16 * r.val))) a + S1x16.size a ≤ S100x128.size a := fun k2_t4 v768 k2_hw21 r => k2_hw21.2 r

def k2_off50 (k2_t4 : Fin k2_t4_loop.trips) (v794 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off51 (k2_t4 : Fin k2_t4_loop.trips) (v794 : BitVec 32) (c16_i32_313 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk22 (k2_t4 : Fin k2_t4_loop.trips) (v794 : BitVec 32) : Prop :=
  (∀ a, (k2_off50 k2_t4 v794) a + S1x16.size a ≤ S100x128.size a) ∧
  (∀ (r : Fin 3), ∀ a, (k2_off51 k2_t4 v794 (BitVec.ofNat 32 (16 + 16 * r.val))) a + S1x16.size a ≤ S100x128.size a)
instance k2_chk22.dec : ∀ (k2_t4 : Fin k2_t4_loop.trips) (v794 : BitVec 32), Decidable (k2_chk22 k2_t4 v794) := fun k2_t4 v794 => decidable_of_iff' _ (Iff.of_eq (k2_chk22.eq_1 k2_t4 v794))
theorem k2_off50_inb : ∀ (k2_t4 : Fin k2_t4_loop.trips) (v794 : BitVec 32) (k2_hw22 : k2_chk22 k2_t4 v794), ∀ a, (k2_off50 k2_t4 v794) a + S1x16.size a ≤ S100x128.size a := fun k2_t4 v794 k2_hw22 => k2_hw22.1
theorem k2_off51_inb : ∀ (k2_t4 : Fin k2_t4_loop.trips) (v794 : BitVec 32) (k2_hw22 : k2_chk22 k2_t4 v794), ∀ (r : Fin 3), ∀ a, (k2_off51 k2_t4 v794 (BitVec.ofNat 32 (16 + 16 * r.val))) a + S1x16.size a ≤ S100x128.size a := fun k2_t4 v794 k2_hw22 r => k2_hw22.2 r

def k2_off52 (k2_t4 : Fin k2_t4_loop.trips) (v820 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off53 (k2_t4 : Fin k2_t4_loop.trips) (v820 : BitVec 32) (c16_i32_317 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk23 (k2_t4 : Fin k2_t4_loop.trips) (v820 : BitVec 32) : Prop :=
  (∀ a, (k2_off52 k2_t4 v820) a + S1x16.size a ≤ S100x128.size a) ∧
  (∀ (r : Fin 3), ∀ a, (k2_off53 k2_t4 v820 (BitVec.ofNat 32 (16 + 16 * r.val))) a + S1x16.size a ≤ S100x128.size a)
instance k2_chk23.dec : ∀ (k2_t4 : Fin k2_t4_loop.trips) (v820 : BitVec 32), Decidable (k2_chk23 k2_t4 v820) := fun k2_t4 v820 => decidable_of_iff' _ (Iff.of_eq (k2_chk23.eq_1 k2_t4 v820))
theorem k2_off52_inb : ∀ (k2_t4 : Fin k2_t4_loop.trips) (v820 : BitVec 32) (k2_hw23 : k2_chk23 k2_t4 v820), ∀ a, (k2_off52 k2_t4 v820) a + S1x16.size a ≤ S100x128.size a := fun k2_t4 v820 k2_hw23 => k2_hw23.1
theorem k2_off53_inb : ∀ (k2_t4 : Fin k2_t4_loop.trips) (v820 : BitVec 32) (k2_hw23 : k2_chk23 k2_t4 v820), ∀ (r : Fin 3), ∀ a, (k2_off53 k2_t4 v820 (BitVec.ofNat 32 (16 + 16 * r.val))) a + S1x16.size a ≤ S100x128.size a := fun k2_t4 v820 k2_hw23 r => k2_hw23.2 r

def k2_off54 (k2_t4 : Fin k2_t4_loop.trips) (v846 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off55 (k2_t4 : Fin k2_t4_loop.trips) (v846 : BitVec 32) (c16_i32_321 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk24 (k2_t4 : Fin k2_t4_loop.trips) (v846 : BitVec 32) : Prop :=
  (∀ a, (k2_off54 k2_t4 v846) a + S1x16.size a ≤ S100x128.size a) ∧
  (∀ (r : Fin 3), ∀ a, (k2_off55 k2_t4 v846 (BitVec.ofNat 32 (16 + 16 * r.val))) a + S1x16.size a ≤ S100x128.size a)
instance k2_chk24.dec : ∀ (k2_t4 : Fin k2_t4_loop.trips) (v846 : BitVec 32), Decidable (k2_chk24 k2_t4 v846) := fun k2_t4 v846 => decidable_of_iff' _ (Iff.of_eq (k2_chk24.eq_1 k2_t4 v846))
theorem k2_off54_inb : ∀ (k2_t4 : Fin k2_t4_loop.trips) (v846 : BitVec 32) (k2_hw24 : k2_chk24 k2_t4 v846), ∀ a, (k2_off54 k2_t4 v846) a + S1x16.size a ≤ S100x128.size a := fun k2_t4 v846 k2_hw24 => k2_hw24.1
theorem k2_off55_inb : ∀ (k2_t4 : Fin k2_t4_loop.trips) (v846 : BitVec 32) (k2_hw24 : k2_chk24 k2_t4 v846), ∀ (r : Fin 3), ∀ a, (k2_off55 k2_t4 v846 (BitVec.ofNat 32 (16 + 16 * r.val))) a + S1x16.size a ≤ S100x128.size a := fun k2_t4 v846 k2_hw24 r => k2_hw24.2 r

def k2_off56 (k2_t4 : Fin k2_t4_loop.trips) (v872 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off57 (k2_t4 : Fin k2_t4_loop.trips) (v872 : BitVec 32) (c16_i32_325 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk25 (k2_t4 : Fin k2_t4_loop.trips) (v872 : BitVec 32) : Prop :=
  (∀ a, (k2_off56 k2_t4 v872) a + S1x16.size a ≤ S100x128.size a) ∧
  (∀ (r : Fin 3), ∀ a, (k2_off57 k2_t4 v872 (BitVec.ofNat 32 (16 + 16 * r.val))) a + S1x16.size a ≤ S100x128.size a)
instance k2_chk25.dec : ∀ (k2_t4 : Fin k2_t4_loop.trips) (v872 : BitVec 32), Decidable (k2_chk25 k2_t4 v872) := fun k2_t4 v872 => decidable_of_iff' _ (Iff.of_eq (k2_chk25.eq_1 k2_t4 v872))
theorem k2_off56_inb : ∀ (k2_t4 : Fin k2_t4_loop.trips) (v872 : BitVec 32) (k2_hw25 : k2_chk25 k2_t4 v872), ∀ a, (k2_off56 k2_t4 v872) a + S1x16.size a ≤ S100x128.size a := fun k2_t4 v872 k2_hw25 => k2_hw25.1
theorem k2_off57_inb : ∀ (k2_t4 : Fin k2_t4_loop.trips) (v872 : BitVec 32) (k2_hw25 : k2_chk25 k2_t4 v872), ∀ (r : Fin 3), ∀ a, (k2_off57 k2_t4 v872 (BitVec.ofNat 32 (16 + 16 * r.val))) a + S1x16.size a ≤ S100x128.size a := fun k2_t4 v872 k2_hw25 r => k2_hw25.2 r

def k2_off58 (k2_t4 : Fin k2_t4_loop.trips) (v898 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off59 (k2_t4 : Fin k2_t4_loop.trips) (v898 : BitVec 32) (c16_i32_328 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk26 (k2_t4 : Fin k2_t4_loop.trips) (v898 : BitVec 32) : Prop :=
  (∀ a, (k2_off58 k2_t4 v898) a + S1x16.size a ≤ S100x128.size a) ∧
  (∀ (r : Fin 3), ∀ a, (k2_off59 k2_t4 v898 (BitVec.ofNat 32 (16 + 16 * r.val))) a + S1x16.size a ≤ S100x128.size a)
instance k2_chk26.dec : ∀ (k2_t4 : Fin k2_t4_loop.trips) (v898 : BitVec 32), Decidable (k2_chk26 k2_t4 v898) := fun k2_t4 v898 => decidable_of_iff' _ (Iff.of_eq (k2_chk26.eq_1 k2_t4 v898))
theorem k2_off58_inb : ∀ (k2_t4 : Fin k2_t4_loop.trips) (v898 : BitVec 32) (k2_hw26 : k2_chk26 k2_t4 v898), ∀ a, (k2_off58 k2_t4 v898) a + S1x16.size a ≤ S100x128.size a := fun k2_t4 v898 k2_hw26 => k2_hw26.1
theorem k2_off59_inb : ∀ (k2_t4 : Fin k2_t4_loop.trips) (v898 : BitVec 32) (k2_hw26 : k2_chk26 k2_t4 v898), ∀ (r : Fin 3), ∀ a, (k2_off59 k2_t4 v898 (BitVec.ofNat 32 (16 + 16 * r.val))) a + S1x16.size a ≤ S100x128.size a := fun k2_t4 v898 k2_hw26 r => k2_hw26.2 r

def k2_off60 (k2_t4 : Fin k2_t4_loop.trips) (v924 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off61 (k2_t4 : Fin k2_t4_loop.trips) (v924 : BitVec 32) (c16_i32_332 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk27 (k2_t4 : Fin k2_t4_loop.trips) (v924 : BitVec 32) : Prop :=
  (∀ a, (k2_off60 k2_t4 v924) a + S1x16.size a ≤ S100x128.size a) ∧
  (∀ (r : Fin 3), ∀ a, (k2_off61 k2_t4 v924 (BitVec.ofNat 32 (16 + 16 * r.val))) a + S1x16.size a ≤ S100x128.size a)
instance k2_chk27.dec : ∀ (k2_t4 : Fin k2_t4_loop.trips) (v924 : BitVec 32), Decidable (k2_chk27 k2_t4 v924) := fun k2_t4 v924 => decidable_of_iff' _ (Iff.of_eq (k2_chk27.eq_1 k2_t4 v924))
theorem k2_off60_inb : ∀ (k2_t4 : Fin k2_t4_loop.trips) (v924 : BitVec 32) (k2_hw27 : k2_chk27 k2_t4 v924), ∀ a, (k2_off60 k2_t4 v924) a + S1x16.size a ≤ S100x128.size a := fun k2_t4 v924 k2_hw27 => k2_hw27.1
theorem k2_off61_inb : ∀ (k2_t4 : Fin k2_t4_loop.trips) (v924 : BitVec 32) (k2_hw27 : k2_chk27 k2_t4 v924), ∀ (r : Fin 3), ∀ a, (k2_off61 k2_t4 v924 (BitVec.ofNat 32 (16 + 16 * r.val))) a + S1x16.size a ≤ S100x128.size a := fun k2_t4 v924 k2_hw27 r => k2_hw27.2 r

def k2_off62 (k2_t4 : Fin k2_t4_loop.trips) (v950 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off63 (k2_t4 : Fin k2_t4_loop.trips) (v950 : BitVec 32) (c16_i32_335 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk28 (k2_t4 : Fin k2_t4_loop.trips) (v950 : BitVec 32) : Prop :=
  (∀ a, (k2_off62 k2_t4 v950) a + S1x16.size a ≤ S100x128.size a) ∧
  (∀ (r : Fin 3), ∀ a, (k2_off63 k2_t4 v950 (BitVec.ofNat 32 (16 + 16 * r.val))) a + S1x16.size a ≤ S100x128.size a)
instance k2_chk28.dec : ∀ (k2_t4 : Fin k2_t4_loop.trips) (v950 : BitVec 32), Decidable (k2_chk28 k2_t4 v950) := fun k2_t4 v950 => decidable_of_iff' _ (Iff.of_eq (k2_chk28.eq_1 k2_t4 v950))
theorem k2_off62_inb : ∀ (k2_t4 : Fin k2_t4_loop.trips) (v950 : BitVec 32) (k2_hw28 : k2_chk28 k2_t4 v950), ∀ a, (k2_off62 k2_t4 v950) a + S1x16.size a ≤ S100x128.size a := fun k2_t4 v950 k2_hw28 => k2_hw28.1
theorem k2_off63_inb : ∀ (k2_t4 : Fin k2_t4_loop.trips) (v950 : BitVec 32) (k2_hw28 : k2_chk28 k2_t4 v950), ∀ (r : Fin 3), ∀ a, (k2_off63 k2_t4 v950 (BitVec.ofNat 32 (16 + 16 * r.val))) a + S1x16.size a ≤ S100x128.size a := fun k2_t4 v950 k2_hw28 r => k2_hw28.2 r

def k2_off64 (k2_t4 : Fin k2_t4_loop.trips) (v976 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off65 (k2_t4 : Fin k2_t4_loop.trips) (v976 : BitVec 32) (c16_i32_338 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk29 (k2_t4 : Fin k2_t4_loop.trips) (v976 : BitVec 32) : Prop :=
  (∀ a, (k2_off64 k2_t4 v976) a + S1x16.size a ≤ S100x128.size a) ∧
  (∀ (r : Fin 3), ∀ a, (k2_off65 k2_t4 v976 (BitVec.ofNat 32 (16 + 16 * r.val))) a + S1x16.size a ≤ S100x128.size a)
instance k2_chk29.dec : ∀ (k2_t4 : Fin k2_t4_loop.trips) (v976 : BitVec 32), Decidable (k2_chk29 k2_t4 v976) := fun k2_t4 v976 => decidable_of_iff' _ (Iff.of_eq (k2_chk29.eq_1 k2_t4 v976))
theorem k2_off64_inb : ∀ (k2_t4 : Fin k2_t4_loop.trips) (v976 : BitVec 32) (k2_hw29 : k2_chk29 k2_t4 v976), ∀ a, (k2_off64 k2_t4 v976) a + S1x16.size a ≤ S100x128.size a := fun k2_t4 v976 k2_hw29 => k2_hw29.1
theorem k2_off65_inb : ∀ (k2_t4 : Fin k2_t4_loop.trips) (v976 : BitVec 32) (k2_hw29 : k2_chk29 k2_t4 v976), ∀ (r : Fin 3), ∀ a, (k2_off65 k2_t4 v976 (BitVec.ofNat 32 (16 + 16 * r.val))) a + S1x16.size a ≤ S100x128.size a := fun k2_t4 v976 k2_hw29 r => k2_hw29.2 r

def k2_off66 (k2_t4 : Fin k2_t4_loop.trips) (v1002 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off67 (k2_t4 : Fin k2_t4_loop.trips) (v1002 : BitVec 32) (c16_i32_341 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk30 (k2_t4 : Fin k2_t4_loop.trips) (v1002 : BitVec 32) : Prop :=
  (∀ a, (k2_off66 k2_t4 v1002) a + S1x16.size a ≤ S100x128.size a) ∧
  (∀ (r : Fin 3), ∀ a, (k2_off67 k2_t4 v1002 (BitVec.ofNat 32 (16 + 16 * r.val))) a + S1x16.size a ≤ S100x128.size a)
instance k2_chk30.dec : ∀ (k2_t4 : Fin k2_t4_loop.trips) (v1002 : BitVec 32), Decidable (k2_chk30 k2_t4 v1002) := fun k2_t4 v1002 => decidable_of_iff' _ (Iff.of_eq (k2_chk30.eq_1 k2_t4 v1002))
theorem k2_off66_inb : ∀ (k2_t4 : Fin k2_t4_loop.trips) (v1002 : BitVec 32) (k2_hw30 : k2_chk30 k2_t4 v1002), ∀ a, (k2_off66 k2_t4 v1002) a + S1x16.size a ≤ S100x128.size a := fun k2_t4 v1002 k2_hw30 => k2_hw30.1
theorem k2_off67_inb : ∀ (k2_t4 : Fin k2_t4_loop.trips) (v1002 : BitVec 32) (k2_hw30 : k2_chk30 k2_t4 v1002), ∀ (r : Fin 3), ∀ a, (k2_off67 k2_t4 v1002 (BitVec.ofNat 32 (16 + 16 * r.val))) a + S1x16.size a ≤ S100x128.size a := fun k2_t4 v1002 k2_hw30 r => k2_hw30.2 r

def k2_off68 (k2_t4 : Fin k2_t4_loop.trips) (v1028 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off69 (k2_t4 : Fin k2_t4_loop.trips) (v1028 : BitVec 32) (c16_i32_344 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk31 (k2_t4 : Fin k2_t4_loop.trips) (v1028 : BitVec 32) : Prop :=
  (∀ a, (k2_off68 k2_t4 v1028) a + S1x16.size a ≤ S100x128.size a) ∧
  (∀ (r : Fin 3), ∀ a, (k2_off69 k2_t4 v1028 (BitVec.ofNat 32 (16 + 16 * r.val))) a + S1x16.size a ≤ S100x128.size a)
instance k2_chk31.dec : ∀ (k2_t4 : Fin k2_t4_loop.trips) (v1028 : BitVec 32), Decidable (k2_chk31 k2_t4 v1028) := fun k2_t4 v1028 => decidable_of_iff' _ (Iff.of_eq (k2_chk31.eq_1 k2_t4 v1028))
theorem k2_off68_inb : ∀ (k2_t4 : Fin k2_t4_loop.trips) (v1028 : BitVec 32) (k2_hw31 : k2_chk31 k2_t4 v1028), ∀ a, (k2_off68 k2_t4 v1028) a + S1x16.size a ≤ S100x128.size a := fun k2_t4 v1028 k2_hw31 => k2_hw31.1
theorem k2_off69_inb : ∀ (k2_t4 : Fin k2_t4_loop.trips) (v1028 : BitVec 32) (k2_hw31 : k2_chk31 k2_t4 v1028), ∀ (r : Fin 3), ∀ a, (k2_off69 k2_t4 v1028 (BitVec.ofNat 32 (16 + 16 * r.val))) a + S1x16.size a ≤ S100x128.size a := fun k2_t4 v1028 k2_hw31 r => k2_hw31.2 r

def k2_off70 (k2_t4 : Fin k2_t4_loop.trips) (v1054 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off71 (k2_t4 : Fin k2_t4_loop.trips) (v1054 : BitVec 32) (c16_i32_347 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk32 (k2_t4 : Fin k2_t4_loop.trips) (v1054 : BitVec 32) : Prop :=
  (∀ a, (k2_off70 k2_t4 v1054) a + S1x16.size a ≤ S100x128.size a) ∧
  (∀ (r : Fin 3), ∀ a, (k2_off71 k2_t4 v1054 (BitVec.ofNat 32 (16 + 16 * r.val))) a + S1x16.size a ≤ S100x128.size a)
instance k2_chk32.dec : ∀ (k2_t4 : Fin k2_t4_loop.trips) (v1054 : BitVec 32), Decidable (k2_chk32 k2_t4 v1054) := fun k2_t4 v1054 => decidable_of_iff' _ (Iff.of_eq (k2_chk32.eq_1 k2_t4 v1054))
theorem k2_off70_inb : ∀ (k2_t4 : Fin k2_t4_loop.trips) (v1054 : BitVec 32) (k2_hw32 : k2_chk32 k2_t4 v1054), ∀ a, (k2_off70 k2_t4 v1054) a + S1x16.size a ≤ S100x128.size a := fun k2_t4 v1054 k2_hw32 => k2_hw32.1
theorem k2_off71_inb : ∀ (k2_t4 : Fin k2_t4_loop.trips) (v1054 : BitVec 32) (k2_hw32 : k2_chk32 k2_t4 v1054), ∀ (r : Fin 3), ∀ a, (k2_off71 k2_t4 v1054 (BitVec.ofNat 32 (16 + 16 * r.val))) a + S1x16.size a ≤ S100x128.size a := fun k2_t4 v1054 k2_hw32 r => k2_hw32.2 r

def k2_off72 (k2_t4 : Fin k2_t4_loop.trips) (v1080 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off73 (k2_t4 : Fin k2_t4_loop.trips) (v1080 : BitVec 32) (c16_i32_350 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk33 (k2_t4 : Fin k2_t4_loop.trips) (v1080 : BitVec 32) : Prop :=
  (∀ a, (k2_off72 k2_t4 v1080) a + S1x16.size a ≤ S100x128.size a) ∧
  (∀ (r : Fin 3), ∀ a, (k2_off73 k2_t4 v1080 (BitVec.ofNat 32 (16 + 16 * r.val))) a + S1x16.size a ≤ S100x128.size a)
instance k2_chk33.dec : ∀ (k2_t4 : Fin k2_t4_loop.trips) (v1080 : BitVec 32), Decidable (k2_chk33 k2_t4 v1080) := fun k2_t4 v1080 => decidable_of_iff' _ (Iff.of_eq (k2_chk33.eq_1 k2_t4 v1080))
theorem k2_off72_inb : ∀ (k2_t4 : Fin k2_t4_loop.trips) (v1080 : BitVec 32) (k2_hw33 : k2_chk33 k2_t4 v1080), ∀ a, (k2_off72 k2_t4 v1080) a + S1x16.size a ≤ S100x128.size a := fun k2_t4 v1080 k2_hw33 => k2_hw33.1
theorem k2_off73_inb : ∀ (k2_t4 : Fin k2_t4_loop.trips) (v1080 : BitVec 32) (k2_hw33 : k2_chk33 k2_t4 v1080), ∀ (r : Fin 3), ∀ a, (k2_off73 k2_t4 v1080 (BitVec.ofNat 32 (16 + 16 * r.val))) a + S1x16.size a ≤ S100x128.size a := fun k2_t4 v1080 k2_hw33 r => k2_hw33.2 r

def k2_off74 (k2_t4 : Fin k2_t4_loop.trips) (v1106 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off75 (k2_t4 : Fin k2_t4_loop.trips) (v1106 : BitVec 32) (c16_i32_353 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk34 (k2_t4 : Fin k2_t4_loop.trips) (v1106 : BitVec 32) : Prop :=
  (∀ a, (k2_off74 k2_t4 v1106) a + S1x16.size a ≤ S100x128.size a) ∧
  (∀ (r : Fin 3), ∀ a, (k2_off75 k2_t4 v1106 (BitVec.ofNat 32 (16 + 16 * r.val))) a + S1x16.size a ≤ S100x128.size a)
instance k2_chk34.dec : ∀ (k2_t4 : Fin k2_t4_loop.trips) (v1106 : BitVec 32), Decidable (k2_chk34 k2_t4 v1106) := fun k2_t4 v1106 => decidable_of_iff' _ (Iff.of_eq (k2_chk34.eq_1 k2_t4 v1106))
theorem k2_off74_inb : ∀ (k2_t4 : Fin k2_t4_loop.trips) (v1106 : BitVec 32) (k2_hw34 : k2_chk34 k2_t4 v1106), ∀ a, (k2_off74 k2_t4 v1106) a + S1x16.size a ≤ S100x128.size a := fun k2_t4 v1106 k2_hw34 => k2_hw34.1
theorem k2_off75_inb : ∀ (k2_t4 : Fin k2_t4_loop.trips) (v1106 : BitVec 32) (k2_hw34 : k2_chk34 k2_t4 v1106), ∀ (r : Fin 3), ∀ a, (k2_off75 k2_t4 v1106 (BitVec.ofNat 32 (16 + 16 * r.val))) a + S1x16.size a ≤ S100x128.size a := fun k2_t4 v1106 k2_hw34 r => k2_hw34.2 r

def k2_off76 (k2_t4 : Fin k2_t4_loop.trips) (v1132 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off77 (k2_t4 : Fin k2_t4_loop.trips) (v1132 : BitVec 32) (c16_i32_357 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk35 (k2_t4 : Fin k2_t4_loop.trips) (v1132 : BitVec 32) : Prop :=
  (∀ a, (k2_off76 k2_t4 v1132) a + S1x16.size a ≤ S100x128.size a) ∧
  (∀ (r : Fin 3), ∀ a, (k2_off77 k2_t4 v1132 (BitVec.ofNat 32 (16 + 16 * r.val))) a + S1x16.size a ≤ S100x128.size a)
instance k2_chk35.dec : ∀ (k2_t4 : Fin k2_t4_loop.trips) (v1132 : BitVec 32), Decidable (k2_chk35 k2_t4 v1132) := fun k2_t4 v1132 => decidable_of_iff' _ (Iff.of_eq (k2_chk35.eq_1 k2_t4 v1132))
theorem k2_off76_inb : ∀ (k2_t4 : Fin k2_t4_loop.trips) (v1132 : BitVec 32) (k2_hw35 : k2_chk35 k2_t4 v1132), ∀ a, (k2_off76 k2_t4 v1132) a + S1x16.size a ≤ S100x128.size a := fun k2_t4 v1132 k2_hw35 => k2_hw35.1
theorem k2_off77_inb : ∀ (k2_t4 : Fin k2_t4_loop.trips) (v1132 : BitVec 32) (k2_hw35 : k2_chk35 k2_t4 v1132), ∀ (r : Fin 3), ∀ a, (k2_off77 k2_t4 v1132 (BitVec.ofNat 32 (16 + 16 * r.val))) a + S1x16.size a ≤ S100x128.size a := fun k2_t4 v1132 k2_hw35 r => k2_hw35.2 r

def k2_off78 (k2_t4 : Fin k2_t4_loop.trips) (v1158 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off79 (k2_t4 : Fin k2_t4_loop.trips) (v1158 : BitVec 32) (c16_i32_360 : BitVec 32) : Fin 2 → Nat :=
  let c0_i32_89 : BitVec 32 := 0#32
  let c1_i32_91 : BitVec 32 := 1#32
  let arg17 : BitVec 32 := Scf.iv c0_i32_89 c1_i32_91 k2_t4
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk36 (k2_t4 : Fin k2_t4_loop.trips) (v1158 : BitVec 32) : Prop :=
  (∀ a, (k2_off78 k2_t4 v1158) a + S1x16.size a ≤ S100x128.size a) ∧
  (∀ (r : Fin 3), ∀ a, (k2_off79 k2_t4 v1158 (BitVec.ofNat 32 (16 + 16 * r.val))) a + S1x16.size a ≤ S100x128.size a)
instance k2_chk36.dec : ∀ (k2_t4 : Fin k2_t4_loop.trips) (v1158 : BitVec 32), Decidable (k2_chk36 k2_t4 v1158) := fun k2_t4 v1158 => decidable_of_iff' _ (Iff.of_eq (k2_chk36.eq_1 k2_t4 v1158))
theorem k2_off78_inb : ∀ (k2_t4 : Fin k2_t4_loop.trips) (v1158 : BitVec 32) (k2_hw36 : k2_chk36 k2_t4 v1158), ∀ a, (k2_off78 k2_t4 v1158) a + S1x16.size a ≤ S100x128.size a := fun k2_t4 v1158 k2_hw36 => k2_hw36.1
theorem k2_off79_inb : ∀ (k2_t4 : Fin k2_t4_loop.trips) (v1158 : BitVec 32) (k2_hw36 : k2_chk36 k2_t4 v1158), ∀ (r : Fin 3), ∀ a, (k2_off79 k2_t4 v1158 (BitVec.ofNat 32 (16 + 16 * r.val))) a + S1x16.size a ≤ S100x128.size a := fun k2_t4 v1158 k2_hw36 r => k2_hw36.2 r

def k2_off80 (k2_t2 : Fin k2_t2_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_94 : BitVec 32 := 0#32
  let v181 : BitVec 1 := Scalar.cmpi .sgt v175 c0_i32_94
  let v182 : BitVec 32 := Scalar.extui v181
  let c0_i32_95 : BitVec 32 := 0#32
  let v183 : BitVec 1 := Scalar.cmpi .slt v175 c0_i32_95
  let v184 : BitVec 32 := Scalar.extui v183
  let v185 : BitVec 32 := Scalar.subi v182 v184
  let c2_i32_93 : BitVec 32 := 2#32
  let c0_i32_96 : BitVec 32 := 0#32
  let v186 : BitVec 1 := Scalar.cmpi .sgt c2_i32_93 c0_i32_96
  let v187 : BitVec 32 := Scalar.extui v186
  let c0_i32_97 : BitVec 32 := 0#32
  let v188 : BitVec 1 := Scalar.cmpi .slt c2_i32_93 c0_i32_97
  let v189 : BitVec 32 := Scalar.extui v188
  let v190 : BitVec 32 := Scalar.subi v187 v189
  let v191 : BitVec 1 := Scalar.cmpi .ne v185 v190
  let v192 : BitVec 32 := Scalar.remsi v175 c2_i32_93
  let c0_i32_98 : BitVec 32 := 0#32
  let v193 : BitVec 1 := Scalar.cmpi .ne v192 c0_i32_98
  let v194 : BitVec 1 := Scalar.andi v191 v193
  let v180 : BitVec 32 := Scalar.divsi v175 c2_i32_93
  let c1_i32_99 : BitVec 32 := 1#32
  let v195 : BitVec 32 := Scalar.subi v180 c1_i32_99
  let v196 : BitVec 32 := Scalar.select v194 v195 v180
  let v209 : Index := Scalar.indexCast v196
  let c2_i32_100 : BitVec 32 := 2#32
  let c0_i32_101 : BitVec 32 := 0#32
  let v197 : BitVec 1 := Scalar.cmpi .eq c2_i32_100 c0_i32_101
  let c1_i32_102 : BitVec 32 := 1#32
  let v198 : BitVec 32 := Scalar.select v197 c1_i32_102 c2_i32_100
  let v199 : BitVec 32 := Scalar.remsi v175 v198
  let c0_i32_104 : BitVec 32 := 0#32
  let v201 : BitVec 1 := Scalar.cmpi .slt v199 c0_i32_104
  let c0_i32_105 : BitVec 32 := 0#32
  let v202 : BitVec 1 := Scalar.cmpi .slt v198 c0_i32_105
  let v203 : BitVec 1 := Scalar.xori v201 v202
  let c0_i32_103 : BitVec 32 := 0#32
  let v200 : BitVec 1 := Scalar.cmpi .ne v199 c0_i32_103
  let v204 : BitVec 1 := Scalar.andi v203 v200
  let v205 : BitVec 32 := Scalar.addi v199 v198
  let v206 : BitVec 32 := Scalar.select v204 v205 v199
  let c112_i32_106 : BitVec 32 := 112#32
  let v207 : BitVec 32 := Scalar.muli v206 c112_i32_106
  let c96_i32_107 : BitVec 32 := 96#32
  let v208 : BitVec 32 := Scalar.addi v207 c96_i32_107
  let v210 : Index := Scalar.indexCast v208
  ![v209.toNat, v210.toNat]
def k2_off81 (v220 : BitVec 32) : Fin 2 → Nat :=
  let c96_i32_111 : BitVec 32 := 96#32
  let v221 : Index := Scalar.indexCast c96_i32_111
  let v222 : Index := Scalar.indexCast v220
  ![96, v222.toNat]

def k2_off82 (v220 : BitVec 32) (c16_i32_112 : BitVec 32) : Fin 2 → Nat :=
  let c96_i32_113 : BitVec 32 := 96#32
  let v227 : Index := Scalar.indexCast c96_i32_113
  let v226 : BitVec 32 := Scalar.addi v220 c16_i32_112
  let v228 : Index := Scalar.indexCast v226
  ![96, v228.toNat]

def k2_chk37 (v220 : BitVec 32) : Prop :=
  (∀ a, (k2_off81 v220) a + S1x16.size a ≤ S100x128.size a) ∧
  (∀ (r : Fin 3), ∀ a, (k2_off82 v220 (BitVec.ofNat 32 (16 + 16 * r.val))) a + S1x16.size a ≤ S100x128.size a)
instance k2_chk37.dec : ∀ (v220 : BitVec 32), Decidable (k2_chk37 v220) := fun v220 => decidable_of_iff' _ (Iff.of_eq (k2_chk37.eq_1 v220))
theorem k2_off81_inb : ∀ (v220 : BitVec 32) (k2_hw37 : k2_chk37 v220), ∀ a, (k2_off81 v220) a + S1x16.size a ≤ S100x128.size a := fun v220 k2_hw37 => k2_hw37.1
theorem k2_off82_inb : ∀ (v220 : BitVec 32) (k2_hw37 : k2_chk37 v220), ∀ (r : Fin 3), ∀ a, (k2_off82 v220 (BitVec.ofNat 32 (16 + 16 * r.val))) a + S1x16.size a ≤ S100x128.size a := fun v220 k2_hw37 r => k2_hw37.2 r

def k2_off83 (v245 : BitVec 32) : Fin 2 → Nat :=
  let c97_i32_118 : BitVec 32 := 97#32
  let v246 : Index := Scalar.indexCast c97_i32_118
  let v247 : Index := Scalar.indexCast v245
  ![97, v247.toNat]

def k2_off84 (v245 : BitVec 32) (c16_i32_119 : BitVec 32) : Fin 2 → Nat :=
  let c97_i32_120 : BitVec 32 := 97#32
  let v252 : Index := Scalar.indexCast c97_i32_120
  let v251 : BitVec 32 := Scalar.addi v245 c16_i32_119
  let v253 : Index := Scalar.indexCast v251
  ![97, v253.toNat]

def k2_chk38 (v245 : BitVec 32) : Prop :=
  (∀ a, (k2_off83 v245) a + S1x16.size a ≤ S100x128.size a) ∧
  (∀ (r : Fin 3), ∀ a, (k2_off84 v245 (BitVec.ofNat 32 (16 + 16 * r.val))) a + S1x16.size a ≤ S100x128.size a)
instance k2_chk38.dec : ∀ (v245 : BitVec 32), Decidable (k2_chk38 v245) := fun v245 => decidable_of_iff' _ (Iff.of_eq (k2_chk38.eq_1 v245))
theorem k2_off83_inb : ∀ (v245 : BitVec 32) (k2_hw38 : k2_chk38 v245), ∀ a, (k2_off83 v245) a + S1x16.size a ≤ S100x128.size a := fun v245 k2_hw38 => k2_hw38.1
theorem k2_off84_inb : ∀ (v245 : BitVec 32) (k2_hw38 : k2_chk38 v245), ∀ (r : Fin 3), ∀ a, (k2_off84 v245 (BitVec.ofNat 32 (16 + 16 * r.val))) a + S1x16.size a ≤ S100x128.size a := fun v245 k2_hw38 r => k2_hw38.2 r

def k2_off85 (v270 : BitVec 32) : Fin 2 → Nat :=
  let c98_i32_125 : BitVec 32 := 98#32
  let v271 : Index := Scalar.indexCast c98_i32_125
  let v272 : Index := Scalar.indexCast v270
  ![98, v272.toNat]

def k2_off86 (v270 : BitVec 32) (c16_i32_126 : BitVec 32) : Fin 2 → Nat :=
  let c98_i32_127 : BitVec 32 := 98#32
  let v277 : Index := Scalar.indexCast c98_i32_127
  let v276 : BitVec 32 := Scalar.addi v270 c16_i32_126
  let v278 : Index := Scalar.indexCast v276
  ![98, v278.toNat]

def k2_chk39 (v270 : BitVec 32) : Prop :=
  (∀ a, (k2_off85 v270) a + S1x16.size a ≤ S100x128.size a) ∧
  (∀ (r : Fin 3), ∀ a, (k2_off86 v270 (BitVec.ofNat 32 (16 + 16 * r.val))) a + S1x16.size a ≤ S100x128.size a)
instance k2_chk39.dec : ∀ (v270 : BitVec 32), Decidable (k2_chk39 v270) := fun v270 => decidable_of_iff' _ (Iff.of_eq (k2_chk39.eq_1 v270))
theorem k2_off85_inb : ∀ (v270 : BitVec 32) (k2_hw39 : k2_chk39 v270), ∀ a, (k2_off85 v270) a + S1x16.size a ≤ S100x128.size a := fun v270 k2_hw39 => k2_hw39.1
theorem k2_off86_inb : ∀ (v270 : BitVec 32) (k2_hw39 : k2_chk39 v270), ∀ (r : Fin 3), ∀ a, (k2_off86 v270 (BitVec.ofNat 32 (16 + 16 * r.val))) a + S1x16.size a ≤ S100x128.size a := fun v270 k2_hw39 r => k2_hw39.2 r

def k2_off87 (v295 : BitVec 32) : Fin 2 → Nat :=
  let c99_i32_132 : BitVec 32 := 99#32
  let v296 : Index := Scalar.indexCast c99_i32_132
  let v297 : Index := Scalar.indexCast v295
  ![99, v297.toNat]

def k2_off88 (v295 : BitVec 32) (c16_i32_133 : BitVec 32) : Fin 2 → Nat :=
  let c99_i32_134 : BitVec 32 := 99#32
  let v302 : Index := Scalar.indexCast c99_i32_134
  let v301 : BitVec 32 := Scalar.addi v295 c16_i32_133
  let v303 : Index := Scalar.indexCast v301
  ![99, v303.toNat]

def k2_chk40 (v295 : BitVec 32) : Prop :=
  (∀ a, (k2_off87 v295) a + S1x16.size a ≤ S100x128.size a) ∧
  (∀ (r : Fin 3), ∀ a, (k2_off88 v295 (BitVec.ofNat 32 (16 + 16 * r.val))) a + S1x16.size a ≤ S100x128.size a)
instance k2_chk40.dec : ∀ (v295 : BitVec 32), Decidable (k2_chk40 v295) := fun v295 => decidable_of_iff' _ (Iff.of_eq (k2_chk40.eq_1 v295))
theorem k2_off87_inb : ∀ (v295 : BitVec 32) (k2_hw40 : k2_chk40 v295), ∀ a, (k2_off87 v295) a + S1x16.size a ≤ S100x128.size a := fun v295 k2_hw40 => k2_hw40.1
theorem k2_off88_inb : ∀ (v295 : BitVec 32) (k2_hw40 : k2_chk40 v295), ∀ (r : Fin 3), ∀ a, (k2_off88 v295 (BitVec.ofNat 32 (16 + 16 * r.val))) a + S1x16.size a ≤ S100x128.size a := fun v295 k2_hw40 r => k2_hw40.2 r

def k2_off89 (k2_t2 : Fin k2_t2_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v348 : Index := Scalar.indexCast v345
  let c0 : Index := 0#32
  ![v348.toNat, 0]
def k2_off90 (k2_t2 : Fin k2_t2_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v354 : Index := Scalar.indexCast v345
  let c16 : Index := 16#32
  ![v354.toNat, 16]
def k2_off91 (k2_t2 : Fin k2_t2_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v360 : Index := Scalar.indexCast v345
  let c32 : Index := 32#32
  ![v360.toNat, 32]
def k2_off92 (k2_t2 : Fin k2_t2_loop.trips) : Fin 2 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v366 : Index := Scalar.indexCast v345
  let c48 : Index := 48#32
  ![v366.toNat, 48]
def k2_off93 (k2_t2 : Fin k2_t2_loop.trips) : Fin 1 → Nat :=
  let c4_i32_84 : BitVec 32 := 4#32
  let c0_i32_13 : BitVec 32 := 0#32
  let c1_i32_14 : BitVec 32 := 1#32
  let arg16 : BitVec 32 := Scf.iv c0_i32_13 c1_i32_14 k2_t2
  let v174 : BitVec 32 := Scalar.muli c4_i32_84 arg16
  let c1_i32_85 : BitVec 32 := 1#32
  let v175 : BitVec 32 := Scalar.addi v174 c1_i32_85
  let c4_i32_152 : BitVec 32 := 4#32
  let v370 : BitVec 32 := Scalar.addi v175 c4_i32_152
  let c253_i32 : BitVec 32 := 253#32
  let v371 : BitVec 32 := Scalar.minsi v370 c253_i32
  let c112_i32_153 : BitVec 32 := 112#32
  let v372 : BitVec 32 := Scalar.muli v371 c112_i32_153
  ![v372.toNat]
@[reducible] def k2_t5_loop : Scf.Loop 32 :=
  let c0_i32_161 : BitVec 32 := 0#32
  let c6_i32_162 : BitVec 32 := 6#32
  let v379 : BitVec 32 := Scalar.addi c0_i32_161 c6_i32_162
  let c1_i32_163 : BitVec 32 := 1#32
  ⟨c0_i32_161, v379, c1_i32_163⟩
def k2_off94 (k2_t2 : Fin k2_t2_loop.trips) (k2_t5 : Fin k2_t5_loop.trips) : Fin 2 → Nat :=
  let c4_i32_156 : BitVec 32 := 4#32
  let c0_i32_13 : BitVec 32 := 0#32
  let c1_i32_14 : BitVec 32 := 1#32
  let arg16 : BitVec 32 := Scf.iv c0_i32_13 c1_i32_14 k2_t2
  let v375 : BitVec 32 := Scalar.muli c4_i32_156 arg16
  let c2_i32_157 : BitVec 32 := 2#32
  let v376 : BitVec 32 := Scalar.addi v375 c2_i32_157
  let c0_i32_292 : BitVec 32 := 0#32
  let v728 : BitVec 1 := Scalar.cmpi .sgt v376 c0_i32_292
  let v729 : BitVec 32 := Scalar.extui v728
  let c0_i32_293 : BitVec 32 := 0#32
  let v730 : BitVec 1 := Scalar.cmpi .slt v376 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v376 c2_i32_291
  let c0_i32_296 : BitVec 32 := 0#32
  let v740 : BitVec 1 := Scalar.cmpi .ne v739 c0_i32_296
  let v741 : BitVec 1 := Scalar.andi v738 v740
  let v727 : BitVec 32 := Scalar.divsi v376 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v376 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off95 (k2_t5 : Fin k2_t5_loop.trips) (v768 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off96 (k2_t5 : Fin k2_t5_loop.trips) (v768 : BitVec 32) (c16_i32_309 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk41 (k2_t5 : Fin k2_t5_loop.trips) (v768 : BitVec 32) : Prop :=
  (∀ a, (k2_off95 k2_t5 v768) a + S1x16.size a ≤ S100x128.size a) ∧
  (∀ (r : Fin 3), ∀ a, (k2_off96 k2_t5 v768 (BitVec.ofNat 32 (16 + 16 * r.val))) a + S1x16.size a ≤ S100x128.size a)
instance k2_chk41.dec : ∀ (k2_t5 : Fin k2_t5_loop.trips) (v768 : BitVec 32), Decidable (k2_chk41 k2_t5 v768) := fun k2_t5 v768 => decidable_of_iff' _ (Iff.of_eq (k2_chk41.eq_1 k2_t5 v768))
theorem k2_off95_inb : ∀ (k2_t5 : Fin k2_t5_loop.trips) (v768 : BitVec 32) (k2_hw41 : k2_chk41 k2_t5 v768), ∀ a, (k2_off95 k2_t5 v768) a + S1x16.size a ≤ S100x128.size a := fun k2_t5 v768 k2_hw41 => k2_hw41.1
theorem k2_off96_inb : ∀ (k2_t5 : Fin k2_t5_loop.trips) (v768 : BitVec 32) (k2_hw41 : k2_chk41 k2_t5 v768), ∀ (r : Fin 3), ∀ a, (k2_off96 k2_t5 v768 (BitVec.ofNat 32 (16 + 16 * r.val))) a + S1x16.size a ≤ S100x128.size a := fun k2_t5 v768 k2_hw41 r => k2_hw41.2 r

def k2_off97 (k2_t5 : Fin k2_t5_loop.trips) (v794 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off98 (k2_t5 : Fin k2_t5_loop.trips) (v794 : BitVec 32) (c16_i32_313 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk42 (k2_t5 : Fin k2_t5_loop.trips) (v794 : BitVec 32) : Prop :=
  (∀ a, (k2_off97 k2_t5 v794) a + S1x16.size a ≤ S100x128.size a) ∧
  (∀ (r : Fin 3), ∀ a, (k2_off98 k2_t5 v794 (BitVec.ofNat 32 (16 + 16 * r.val))) a + S1x16.size a ≤ S100x128.size a)
instance k2_chk42.dec : ∀ (k2_t5 : Fin k2_t5_loop.trips) (v794 : BitVec 32), Decidable (k2_chk42 k2_t5 v794) := fun k2_t5 v794 => decidable_of_iff' _ (Iff.of_eq (k2_chk42.eq_1 k2_t5 v794))
theorem k2_off97_inb : ∀ (k2_t5 : Fin k2_t5_loop.trips) (v794 : BitVec 32) (k2_hw42 : k2_chk42 k2_t5 v794), ∀ a, (k2_off97 k2_t5 v794) a + S1x16.size a ≤ S100x128.size a := fun k2_t5 v794 k2_hw42 => k2_hw42.1
theorem k2_off98_inb : ∀ (k2_t5 : Fin k2_t5_loop.trips) (v794 : BitVec 32) (k2_hw42 : k2_chk42 k2_t5 v794), ∀ (r : Fin 3), ∀ a, (k2_off98 k2_t5 v794 (BitVec.ofNat 32 (16 + 16 * r.val))) a + S1x16.size a ≤ S100x128.size a := fun k2_t5 v794 k2_hw42 r => k2_hw42.2 r

def k2_off99 (k2_t5 : Fin k2_t5_loop.trips) (v820 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off100 (k2_t5 : Fin k2_t5_loop.trips) (v820 : BitVec 32) (c16_i32_317 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk43 (k2_t5 : Fin k2_t5_loop.trips) (v820 : BitVec 32) : Prop :=
  (∀ a, (k2_off99 k2_t5 v820) a + S1x16.size a ≤ S100x128.size a) ∧
  (∀ (r : Fin 3), ∀ a, (k2_off100 k2_t5 v820 (BitVec.ofNat 32 (16 + 16 * r.val))) a + S1x16.size a ≤ S100x128.size a)
instance k2_chk43.dec : ∀ (k2_t5 : Fin k2_t5_loop.trips) (v820 : BitVec 32), Decidable (k2_chk43 k2_t5 v820) := fun k2_t5 v820 => decidable_of_iff' _ (Iff.of_eq (k2_chk43.eq_1 k2_t5 v820))
theorem k2_off99_inb : ∀ (k2_t5 : Fin k2_t5_loop.trips) (v820 : BitVec 32) (k2_hw43 : k2_chk43 k2_t5 v820), ∀ a, (k2_off99 k2_t5 v820) a + S1x16.size a ≤ S100x128.size a := fun k2_t5 v820 k2_hw43 => k2_hw43.1
theorem k2_off100_inb : ∀ (k2_t5 : Fin k2_t5_loop.trips) (v820 : BitVec 32) (k2_hw43 : k2_chk43 k2_t5 v820), ∀ (r : Fin 3), ∀ a, (k2_off100 k2_t5 v820 (BitVec.ofNat 32 (16 + 16 * r.val))) a + S1x16.size a ≤ S100x128.size a := fun k2_t5 v820 k2_hw43 r => k2_hw43.2 r

def k2_off101 (k2_t5 : Fin k2_t5_loop.trips) (v846 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off102 (k2_t5 : Fin k2_t5_loop.trips) (v846 : BitVec 32) (c16_i32_321 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk44 (k2_t5 : Fin k2_t5_loop.trips) (v846 : BitVec 32) : Prop :=
  (∀ a, (k2_off101 k2_t5 v846) a + S1x16.size a ≤ S100x128.size a) ∧
  (∀ (r : Fin 3), ∀ a, (k2_off102 k2_t5 v846 (BitVec.ofNat 32 (16 + 16 * r.val))) a + S1x16.size a ≤ S100x128.size a)
instance k2_chk44.dec : ∀ (k2_t5 : Fin k2_t5_loop.trips) (v846 : BitVec 32), Decidable (k2_chk44 k2_t5 v846) := fun k2_t5 v846 => decidable_of_iff' _ (Iff.of_eq (k2_chk44.eq_1 k2_t5 v846))
theorem k2_off101_inb : ∀ (k2_t5 : Fin k2_t5_loop.trips) (v846 : BitVec 32) (k2_hw44 : k2_chk44 k2_t5 v846), ∀ a, (k2_off101 k2_t5 v846) a + S1x16.size a ≤ S100x128.size a := fun k2_t5 v846 k2_hw44 => k2_hw44.1
theorem k2_off102_inb : ∀ (k2_t5 : Fin k2_t5_loop.trips) (v846 : BitVec 32) (k2_hw44 : k2_chk44 k2_t5 v846), ∀ (r : Fin 3), ∀ a, (k2_off102 k2_t5 v846 (BitVec.ofNat 32 (16 + 16 * r.val))) a + S1x16.size a ≤ S100x128.size a := fun k2_t5 v846 k2_hw44 r => k2_hw44.2 r

def k2_off103 (k2_t5 : Fin k2_t5_loop.trips) (v872 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off104 (k2_t5 : Fin k2_t5_loop.trips) (v872 : BitVec 32) (c16_i32_325 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk45 (k2_t5 : Fin k2_t5_loop.trips) (v872 : BitVec 32) : Prop :=
  (∀ a, (k2_off103 k2_t5 v872) a + S1x16.size a ≤ S100x128.size a) ∧
  (∀ (r : Fin 3), ∀ a, (k2_off104 k2_t5 v872 (BitVec.ofNat 32 (16 + 16 * r.val))) a + S1x16.size a ≤ S100x128.size a)
instance k2_chk45.dec : ∀ (k2_t5 : Fin k2_t5_loop.trips) (v872 : BitVec 32), Decidable (k2_chk45 k2_t5 v872) := fun k2_t5 v872 => decidable_of_iff' _ (Iff.of_eq (k2_chk45.eq_1 k2_t5 v872))
theorem k2_off103_inb : ∀ (k2_t5 : Fin k2_t5_loop.trips) (v872 : BitVec 32) (k2_hw45 : k2_chk45 k2_t5 v872), ∀ a, (k2_off103 k2_t5 v872) a + S1x16.size a ≤ S100x128.size a := fun k2_t5 v872 k2_hw45 => k2_hw45.1
theorem k2_off104_inb : ∀ (k2_t5 : Fin k2_t5_loop.trips) (v872 : BitVec 32) (k2_hw45 : k2_chk45 k2_t5 v872), ∀ (r : Fin 3), ∀ a, (k2_off104 k2_t5 v872 (BitVec.ofNat 32 (16 + 16 * r.val))) a + S1x16.size a ≤ S100x128.size a := fun k2_t5 v872 k2_hw45 r => k2_hw45.2 r

def k2_off105 (k2_t5 : Fin k2_t5_loop.trips) (v898 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off106 (k2_t5 : Fin k2_t5_loop.trips) (v898 : BitVec 32) (c16_i32_328 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk46 (k2_t5 : Fin k2_t5_loop.trips) (v898 : BitVec 32) : Prop :=
  (∀ a, (k2_off105 k2_t5 v898) a + S1x16.size a ≤ S100x128.size a) ∧
  (∀ (r : Fin 3), ∀ a, (k2_off106 k2_t5 v898 (BitVec.ofNat 32 (16 + 16 * r.val))) a + S1x16.size a ≤ S100x128.size a)
instance k2_chk46.dec : ∀ (k2_t5 : Fin k2_t5_loop.trips) (v898 : BitVec 32), Decidable (k2_chk46 k2_t5 v898) := fun k2_t5 v898 => decidable_of_iff' _ (Iff.of_eq (k2_chk46.eq_1 k2_t5 v898))
theorem k2_off105_inb : ∀ (k2_t5 : Fin k2_t5_loop.trips) (v898 : BitVec 32) (k2_hw46 : k2_chk46 k2_t5 v898), ∀ a, (k2_off105 k2_t5 v898) a + S1x16.size a ≤ S100x128.size a := fun k2_t5 v898 k2_hw46 => k2_hw46.1
theorem k2_off106_inb : ∀ (k2_t5 : Fin k2_t5_loop.trips) (v898 : BitVec 32) (k2_hw46 : k2_chk46 k2_t5 v898), ∀ (r : Fin 3), ∀ a, (k2_off106 k2_t5 v898 (BitVec.ofNat 32 (16 + 16 * r.val))) a + S1x16.size a ≤ S100x128.size a := fun k2_t5 v898 k2_hw46 r => k2_hw46.2 r

def k2_off107 (k2_t5 : Fin k2_t5_loop.trips) (v924 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off108 (k2_t5 : Fin k2_t5_loop.trips) (v924 : BitVec 32) (c16_i32_332 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk47 (k2_t5 : Fin k2_t5_loop.trips) (v924 : BitVec 32) : Prop :=
  (∀ a, (k2_off107 k2_t5 v924) a + S1x16.size a ≤ S100x128.size a) ∧
  (∀ (r : Fin 3), ∀ a, (k2_off108 k2_t5 v924 (BitVec.ofNat 32 (16 + 16 * r.val))) a + S1x16.size a ≤ S100x128.size a)
instance k2_chk47.dec : ∀ (k2_t5 : Fin k2_t5_loop.trips) (v924 : BitVec 32), Decidable (k2_chk47 k2_t5 v924) := fun k2_t5 v924 => decidable_of_iff' _ (Iff.of_eq (k2_chk47.eq_1 k2_t5 v924))
theorem k2_off107_inb : ∀ (k2_t5 : Fin k2_t5_loop.trips) (v924 : BitVec 32) (k2_hw47 : k2_chk47 k2_t5 v924), ∀ a, (k2_off107 k2_t5 v924) a + S1x16.size a ≤ S100x128.size a := fun k2_t5 v924 k2_hw47 => k2_hw47.1
theorem k2_off108_inb : ∀ (k2_t5 : Fin k2_t5_loop.trips) (v924 : BitVec 32) (k2_hw47 : k2_chk47 k2_t5 v924), ∀ (r : Fin 3), ∀ a, (k2_off108 k2_t5 v924 (BitVec.ofNat 32 (16 + 16 * r.val))) a + S1x16.size a ≤ S100x128.size a := fun k2_t5 v924 k2_hw47 r => k2_hw47.2 r

def k2_off109 (k2_t5 : Fin k2_t5_loop.trips) (v950 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off110 (k2_t5 : Fin k2_t5_loop.trips) (v950 : BitVec 32) (c16_i32_335 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk48 (k2_t5 : Fin k2_t5_loop.trips) (v950 : BitVec 32) : Prop :=
  (∀ a, (k2_off109 k2_t5 v950) a + S1x16.size a ≤ S100x128.size a) ∧
  (∀ (r : Fin 3), ∀ a, (k2_off110 k2_t5 v950 (BitVec.ofNat 32 (16 + 16 * r.val))) a + S1x16.size a ≤ S100x128.size a)
instance k2_chk48.dec : ∀ (k2_t5 : Fin k2_t5_loop.trips) (v950 : BitVec 32), Decidable (k2_chk48 k2_t5 v950) := fun k2_t5 v950 => decidable_of_iff' _ (Iff.of_eq (k2_chk48.eq_1 k2_t5 v950))
theorem k2_off109_inb : ∀ (k2_t5 : Fin k2_t5_loop.trips) (v950 : BitVec 32) (k2_hw48 : k2_chk48 k2_t5 v950), ∀ a, (k2_off109 k2_t5 v950) a + S1x16.size a ≤ S100x128.size a := fun k2_t5 v950 k2_hw48 => k2_hw48.1
theorem k2_off110_inb : ∀ (k2_t5 : Fin k2_t5_loop.trips) (v950 : BitVec 32) (k2_hw48 : k2_chk48 k2_t5 v950), ∀ (r : Fin 3), ∀ a, (k2_off110 k2_t5 v950 (BitVec.ofNat 32 (16 + 16 * r.val))) a + S1x16.size a ≤ S100x128.size a := fun k2_t5 v950 k2_hw48 r => k2_hw48.2 r

def k2_off111 (k2_t5 : Fin k2_t5_loop.trips) (v976 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off112 (k2_t5 : Fin k2_t5_loop.trips) (v976 : BitVec 32) (c16_i32_338 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk49 (k2_t5 : Fin k2_t5_loop.trips) (v976 : BitVec 32) : Prop :=
  (∀ a, (k2_off111 k2_t5 v976) a + S1x16.size a ≤ S100x128.size a) ∧
  (∀ (r : Fin 3), ∀ a, (k2_off112 k2_t5 v976 (BitVec.ofNat 32 (16 + 16 * r.val))) a + S1x16.size a ≤ S100x128.size a)
instance k2_chk49.dec : ∀ (k2_t5 : Fin k2_t5_loop.trips) (v976 : BitVec 32), Decidable (k2_chk49 k2_t5 v976) := fun k2_t5 v976 => decidable_of_iff' _ (Iff.of_eq (k2_chk49.eq_1 k2_t5 v976))
theorem k2_off111_inb : ∀ (k2_t5 : Fin k2_t5_loop.trips) (v976 : BitVec 32) (k2_hw49 : k2_chk49 k2_t5 v976), ∀ a, (k2_off111 k2_t5 v976) a + S1x16.size a ≤ S100x128.size a := fun k2_t5 v976 k2_hw49 => k2_hw49.1
theorem k2_off112_inb : ∀ (k2_t5 : Fin k2_t5_loop.trips) (v976 : BitVec 32) (k2_hw49 : k2_chk49 k2_t5 v976), ∀ (r : Fin 3), ∀ a, (k2_off112 k2_t5 v976 (BitVec.ofNat 32 (16 + 16 * r.val))) a + S1x16.size a ≤ S100x128.size a := fun k2_t5 v976 k2_hw49 r => k2_hw49.2 r

def k2_off113 (k2_t5 : Fin k2_t5_loop.trips) (v1002 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off114 (k2_t5 : Fin k2_t5_loop.trips) (v1002 : BitVec 32) (c16_i32_341 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk50 (k2_t5 : Fin k2_t5_loop.trips) (v1002 : BitVec 32) : Prop :=
  (∀ a, (k2_off113 k2_t5 v1002) a + S1x16.size a ≤ S100x128.size a) ∧
  (∀ (r : Fin 3), ∀ a, (k2_off114 k2_t5 v1002 (BitVec.ofNat 32 (16 + 16 * r.val))) a + S1x16.size a ≤ S100x128.size a)
instance k2_chk50.dec : ∀ (k2_t5 : Fin k2_t5_loop.trips) (v1002 : BitVec 32), Decidable (k2_chk50 k2_t5 v1002) := fun k2_t5 v1002 => decidable_of_iff' _ (Iff.of_eq (k2_chk50.eq_1 k2_t5 v1002))
theorem k2_off113_inb : ∀ (k2_t5 : Fin k2_t5_loop.trips) (v1002 : BitVec 32) (k2_hw50 : k2_chk50 k2_t5 v1002), ∀ a, (k2_off113 k2_t5 v1002) a + S1x16.size a ≤ S100x128.size a := fun k2_t5 v1002 k2_hw50 => k2_hw50.1
theorem k2_off114_inb : ∀ (k2_t5 : Fin k2_t5_loop.trips) (v1002 : BitVec 32) (k2_hw50 : k2_chk50 k2_t5 v1002), ∀ (r : Fin 3), ∀ a, (k2_off114 k2_t5 v1002 (BitVec.ofNat 32 (16 + 16 * r.val))) a + S1x16.size a ≤ S100x128.size a := fun k2_t5 v1002 k2_hw50 r => k2_hw50.2 r

def k2_off115 (k2_t5 : Fin k2_t5_loop.trips) (v1028 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off116 (k2_t5 : Fin k2_t5_loop.trips) (v1028 : BitVec 32) (c16_i32_344 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk51 (k2_t5 : Fin k2_t5_loop.trips) (v1028 : BitVec 32) : Prop :=
  (∀ a, (k2_off115 k2_t5 v1028) a + S1x16.size a ≤ S100x128.size a) ∧
  (∀ (r : Fin 3), ∀ a, (k2_off116 k2_t5 v1028 (BitVec.ofNat 32 (16 + 16 * r.val))) a + S1x16.size a ≤ S100x128.size a)
instance k2_chk51.dec : ∀ (k2_t5 : Fin k2_t5_loop.trips) (v1028 : BitVec 32), Decidable (k2_chk51 k2_t5 v1028) := fun k2_t5 v1028 => decidable_of_iff' _ (Iff.of_eq (k2_chk51.eq_1 k2_t5 v1028))
theorem k2_off115_inb : ∀ (k2_t5 : Fin k2_t5_loop.trips) (v1028 : BitVec 32) (k2_hw51 : k2_chk51 k2_t5 v1028), ∀ a, (k2_off115 k2_t5 v1028) a + S1x16.size a ≤ S100x128.size a := fun k2_t5 v1028 k2_hw51 => k2_hw51.1
theorem k2_off116_inb : ∀ (k2_t5 : Fin k2_t5_loop.trips) (v1028 : BitVec 32) (k2_hw51 : k2_chk51 k2_t5 v1028), ∀ (r : Fin 3), ∀ a, (k2_off116 k2_t5 v1028 (BitVec.ofNat 32 (16 + 16 * r.val))) a + S1x16.size a ≤ S100x128.size a := fun k2_t5 v1028 k2_hw51 r => k2_hw51.2 r

def k2_off117 (k2_t5 : Fin k2_t5_loop.trips) (v1054 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off118 (k2_t5 : Fin k2_t5_loop.trips) (v1054 : BitVec 32) (c16_i32_347 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk52 (k2_t5 : Fin k2_t5_loop.trips) (v1054 : BitVec 32) : Prop :=
  (∀ a, (k2_off117 k2_t5 v1054) a + S1x16.size a ≤ S100x128.size a) ∧
  (∀ (r : Fin 3), ∀ a, (k2_off118 k2_t5 v1054 (BitVec.ofNat 32 (16 + 16 * r.val))) a + S1x16.size a ≤ S100x128.size a)
instance k2_chk52.dec : ∀ (k2_t5 : Fin k2_t5_loop.trips) (v1054 : BitVec 32), Decidable (k2_chk52 k2_t5 v1054) := fun k2_t5 v1054 => decidable_of_iff' _ (Iff.of_eq (k2_chk52.eq_1 k2_t5 v1054))
theorem k2_off117_inb : ∀ (k2_t5 : Fin k2_t5_loop.trips) (v1054 : BitVec 32) (k2_hw52 : k2_chk52 k2_t5 v1054), ∀ a, (k2_off117 k2_t5 v1054) a + S1x16.size a ≤ S100x128.size a := fun k2_t5 v1054 k2_hw52 => k2_hw52.1
theorem k2_off118_inb : ∀ (k2_t5 : Fin k2_t5_loop.trips) (v1054 : BitVec 32) (k2_hw52 : k2_chk52 k2_t5 v1054), ∀ (r : Fin 3), ∀ a, (k2_off118 k2_t5 v1054 (BitVec.ofNat 32 (16 + 16 * r.val))) a + S1x16.size a ≤ S100x128.size a := fun k2_t5 v1054 k2_hw52 r => k2_hw52.2 r

def k2_off119 (k2_t5 : Fin k2_t5_loop.trips) (v1080 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off120 (k2_t5 : Fin k2_t5_loop.trips) (v1080 : BitVec 32) (c16_i32_350 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk53 (k2_t5 : Fin k2_t5_loop.trips) (v1080 : BitVec 32) : Prop :=
  (∀ a, (k2_off119 k2_t5 v1080) a + S1x16.size a ≤ S100x128.size a) ∧
  (∀ (r : Fin 3), ∀ a, (k2_off120 k2_t5 v1080 (BitVec.ofNat 32 (16 + 16 * r.val))) a + S1x16.size a ≤ S100x128.size a)
instance k2_chk53.dec : ∀ (k2_t5 : Fin k2_t5_loop.trips) (v1080 : BitVec 32), Decidable (k2_chk53 k2_t5 v1080) := fun k2_t5 v1080 => decidable_of_iff' _ (Iff.of_eq (k2_chk53.eq_1 k2_t5 v1080))
theorem k2_off119_inb : ∀ (k2_t5 : Fin k2_t5_loop.trips) (v1080 : BitVec 32) (k2_hw53 : k2_chk53 k2_t5 v1080), ∀ a, (k2_off119 k2_t5 v1080) a + S1x16.size a ≤ S100x128.size a := fun k2_t5 v1080 k2_hw53 => k2_hw53.1
theorem k2_off120_inb : ∀ (k2_t5 : Fin k2_t5_loop.trips) (v1080 : BitVec 32) (k2_hw53 : k2_chk53 k2_t5 v1080), ∀ (r : Fin 3), ∀ a, (k2_off120 k2_t5 v1080 (BitVec.ofNat 32 (16 + 16 * r.val))) a + S1x16.size a ≤ S100x128.size a := fun k2_t5 v1080 k2_hw53 r => k2_hw53.2 r

def k2_off121 (k2_t5 : Fin k2_t5_loop.trips) (v1106 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off122 (k2_t5 : Fin k2_t5_loop.trips) (v1106 : BitVec 32) (c16_i32_353 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk54 (k2_t5 : Fin k2_t5_loop.trips) (v1106 : BitVec 32) : Prop :=
  (∀ a, (k2_off121 k2_t5 v1106) a + S1x16.size a ≤ S100x128.size a) ∧
  (∀ (r : Fin 3), ∀ a, (k2_off122 k2_t5 v1106 (BitVec.ofNat 32 (16 + 16 * r.val))) a + S1x16.size a ≤ S100x128.size a)
instance k2_chk54.dec : ∀ (k2_t5 : Fin k2_t5_loop.trips) (v1106 : BitVec 32), Decidable (k2_chk54 k2_t5 v1106) := fun k2_t5 v1106 => decidable_of_iff' _ (Iff.of_eq (k2_chk54.eq_1 k2_t5 v1106))
theorem k2_off121_inb : ∀ (k2_t5 : Fin k2_t5_loop.trips) (v1106 : BitVec 32) (k2_hw54 : k2_chk54 k2_t5 v1106), ∀ a, (k2_off121 k2_t5 v1106) a + S1x16.size a ≤ S100x128.size a := fun k2_t5 v1106 k2_hw54 => k2_hw54.1
theorem k2_off122_inb : ∀ (k2_t5 : Fin k2_t5_loop.trips) (v1106 : BitVec 32) (k2_hw54 : k2_chk54 k2_t5 v1106), ∀ (r : Fin 3), ∀ a, (k2_off122 k2_t5 v1106 (BitVec.ofNat 32 (16 + 16 * r.val))) a + S1x16.size a ≤ S100x128.size a := fun k2_t5 v1106 k2_hw54 r => k2_hw54.2 r

def k2_off123 (k2_t5 : Fin k2_t5_loop.trips) (v1132 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off124 (k2_t5 : Fin k2_t5_loop.trips) (v1132 : BitVec 32) (c16_i32_357 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk55 (k2_t5 : Fin k2_t5_loop.trips) (v1132 : BitVec 32) : Prop :=
  (∀ a, (k2_off123 k2_t5 v1132) a + S1x16.size a ≤ S100x128.size a) ∧
  (∀ (r : Fin 3), ∀ a, (k2_off124 k2_t5 v1132 (BitVec.ofNat 32 (16 + 16 * r.val))) a + S1x16.size a ≤ S100x128.size a)
instance k2_chk55.dec : ∀ (k2_t5 : Fin k2_t5_loop.trips) (v1132 : BitVec 32), Decidable (k2_chk55 k2_t5 v1132) := fun k2_t5 v1132 => decidable_of_iff' _ (Iff.of_eq (k2_chk55.eq_1 k2_t5 v1132))
theorem k2_off123_inb : ∀ (k2_t5 : Fin k2_t5_loop.trips) (v1132 : BitVec 32) (k2_hw55 : k2_chk55 k2_t5 v1132), ∀ a, (k2_off123 k2_t5 v1132) a + S1x16.size a ≤ S100x128.size a := fun k2_t5 v1132 k2_hw55 => k2_hw55.1
theorem k2_off124_inb : ∀ (k2_t5 : Fin k2_t5_loop.trips) (v1132 : BitVec 32) (k2_hw55 : k2_chk55 k2_t5 v1132), ∀ (r : Fin 3), ∀ a, (k2_off124 k2_t5 v1132 (BitVec.ofNat 32 (16 + 16 * r.val))) a + S1x16.size a ≤ S100x128.size a := fun k2_t5 v1132 k2_hw55 r => k2_hw55.2 r

def k2_off125 (k2_t5 : Fin k2_t5_loop.trips) (v1158 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off126 (k2_t5 : Fin k2_t5_loop.trips) (v1158 : BitVec 32) (c16_i32_360 : BitVec 32) : Fin 2 → Nat :=
  let c0_i32_161 : BitVec 32 := 0#32
  let c1_i32_163 : BitVec 32 := 1#32
  let arg17 : BitVec 32 := Scf.iv c0_i32_161 c1_i32_163 k2_t5
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk56 (k2_t5 : Fin k2_t5_loop.trips) (v1158 : BitVec 32) : Prop :=
  (∀ a, (k2_off125 k2_t5 v1158) a + S1x16.size a ≤ S100x128.size a) ∧
  (∀ (r : Fin 3), ∀ a, (k2_off126 k2_t5 v1158 (BitVec.ofNat 32 (16 + 16 * r.val))) a + S1x16.size a ≤ S100x128.size a)
instance k2_chk56.dec : ∀ (k2_t5 : Fin k2_t5_loop.trips) (v1158 : BitVec 32), Decidable (k2_chk56 k2_t5 v1158) := fun k2_t5 v1158 => decidable_of_iff' _ (Iff.of_eq (k2_chk56.eq_1 k2_t5 v1158))
theorem k2_off125_inb : ∀ (k2_t5 : Fin k2_t5_loop.trips) (v1158 : BitVec 32) (k2_hw56 : k2_chk56 k2_t5 v1158), ∀ a, (k2_off125 k2_t5 v1158) a + S1x16.size a ≤ S100x128.size a := fun k2_t5 v1158 k2_hw56 => k2_hw56.1
theorem k2_off126_inb : ∀ (k2_t5 : Fin k2_t5_loop.trips) (v1158 : BitVec 32) (k2_hw56 : k2_chk56 k2_t5 v1158), ∀ (r : Fin 3), ∀ a, (k2_off126 k2_t5 v1158 (BitVec.ofNat 32 (16 + 16 * r.val))) a + S1x16.size a ≤ S100x128.size a := fun k2_t5 v1158 k2_hw56 r => k2_hw56.2 r

def k2_off127 (k2_t2 : Fin k2_t2_loop.trips) : Fin 2 → Nat :=
  let c4_i32_156 : BitVec 32 := 4#32
  let c0_i32_13 : BitVec 32 := 0#32
  let c1_i32_14 : BitVec 32 := 1#32
  let arg16 : BitVec 32 := Scf.iv c0_i32_13 c1_i32_14 k2_t2
  let v375 : BitVec 32 := Scalar.muli c4_i32_156 arg16
  let c2_i32_157 : BitVec 32 := 2#32
  let v376 : BitVec 32 := Scalar.addi v375 c2_i32_157
  let c0_i32_166 : BitVec 32 := 0#32
  let v382 : BitVec 1 := Scalar.cmpi .sgt v376 c0_i32_166
  let v383 : BitVec 32 := Scalar.extui v382
  let c0_i32_167 : BitVec 32 := 0#32
  let v384 : BitVec 1 := Scalar.cmpi .slt v376 c0_i32_167
  let v385 : BitVec 32 := Scalar.extui v384
  let v386 : BitVec 32 := Scalar.subi v383 v385
  let c2_i32_165 : BitVec 32 := 2#32
  let c0_i32_168 : BitVec 32 := 0#32
  let v387 : BitVec 1 := Scalar.cmpi .sgt c2_i32_165 c0_i32_168
  let v388 : BitVec 32 := Scalar.extui v387
  let c0_i32_169 : BitVec 32 := 0#32
  let v389 : BitVec 1 := Scalar.cmpi .slt c2_i32_165 c0_i32_169
  let v390 : BitVec 32 := Scalar.extui v389
  let v391 : BitVec 32 := Scalar.subi v388 v390
  let v392 : BitVec 1 := Scalar.cmpi .ne v386 v391
  let v393 : BitVec 32 := Scalar.remsi v376 c2_i32_165
  let c0_i32_170 : BitVec 32 := 0#32
  let v394 : BitVec 1 := Scalar.cmpi .ne v393 c0_i32_170
  let v395 : BitVec 1 := Scalar.andi v392 v394
  let v381 : BitVec 32 := Scalar.divsi v376 c2_i32_165
  let c1_i32_171 : BitVec 32 := 1#32
  let v396 : BitVec 32 := Scalar.subi v381 c1_i32_171
  let v397 : BitVec 32 := Scalar.select v395 v396 v381
  let v410 : Index := Scalar.indexCast v397
  let c2_i32_172 : BitVec 32 := 2#32
  let c0_i32_173 : BitVec 32 := 0#32
  let v398 : BitVec 1 := Scalar.cmpi .eq c2_i32_172 c0_i32_173
  let c1_i32_174 : BitVec 32 := 1#32
  let v399 : BitVec 32 := Scalar.select v398 c1_i32_174 c2_i32_172
  let v400 : BitVec 32 := Scalar.remsi v376 v399
  let c0_i32_176 : BitVec 32 := 0#32
  let v402 : BitVec 1 := Scalar.cmpi .slt v400 c0_i32_176
  let c0_i32_177 : BitVec 32 := 0#32
  let v403 : BitVec 1 := Scalar.cmpi .slt v399 c0_i32_177
  let v404 : BitVec 1 := Scalar.xori v402 v403
  let c0_i32_175 : BitVec 32 := 0#32
  let v401 : BitVec 1 := Scalar.cmpi .ne v400 c0_i32_175
  let v405 : BitVec 1 := Scalar.andi v404 v401
  let v406 : BitVec 32 := Scalar.addi v400 v399
  let v407 : BitVec 32 := Scalar.select v405 v406 v400
  let c112_i32_178 : BitVec 32 := 112#32
  let v408 : BitVec 32 := Scalar.muli v407 c112_i32_178
  let c96_i32_179 : BitVec 32 := 96#32
  let v409 : BitVec 32 := Scalar.addi v408 c96_i32_179
  let v411 : Index := Scalar.indexCast v409
  ![v410.toNat, v411.toNat]
def k2_off128 (v421 : BitVec 32) : Fin 2 → Nat :=
  let c96_i32_183 : BitVec 32 := 96#32
  let v422 : Index := Scalar.indexCast c96_i32_183
  let v423 : Index := Scalar.indexCast v421
  ![96, v423.toNat]

def k2_off129 (v421 : BitVec 32) (c16_i32_184 : BitVec 32) : Fin 2 → Nat :=
  let c96_i32_185 : BitVec 32 := 96#32
  let v428 : Index := Scalar.indexCast c96_i32_185
  let v427 : BitVec 32 := Scalar.addi v421 c16_i32_184
  let v429 : Index := Scalar.indexCast v427
  ![96, v429.toNat]

def k2_chk57 (v421 : BitVec 32) : Prop :=
  (∀ a, (k2_off128 v421) a + S1x16.size a ≤ S100x128.size a) ∧
  (∀ (r : Fin 3), ∀ a, (k2_off129 v421 (BitVec.ofNat 32 (16 + 16 * r.val))) a + S1x16.size a ≤ S100x128.size a)
instance k2_chk57.dec : ∀ (v421 : BitVec 32), Decidable (k2_chk57 v421) := fun v421 => decidable_of_iff' _ (Iff.of_eq (k2_chk57.eq_1 v421))
theorem k2_off128_inb : ∀ (v421 : BitVec 32) (k2_hw57 : k2_chk57 v421), ∀ a, (k2_off128 v421) a + S1x16.size a ≤ S100x128.size a := fun v421 k2_hw57 => k2_hw57.1
theorem k2_off129_inb : ∀ (v421 : BitVec 32) (k2_hw57 : k2_chk57 v421), ∀ (r : Fin 3), ∀ a, (k2_off129 v421 (BitVec.ofNat 32 (16 + 16 * r.val))) a + S1x16.size a ≤ S100x128.size a := fun v421 k2_hw57 r => k2_hw57.2 r

def k2_off130 (v446 : BitVec 32) : Fin 2 → Nat :=
  let c97_i32_190 : BitVec 32 := 97#32
  let v447 : Index := Scalar.indexCast c97_i32_190
  let v448 : Index := Scalar.indexCast v446
  ![97, v448.toNat]

def k2_off131 (v446 : BitVec 32) (c16_i32_191 : BitVec 32) : Fin 2 → Nat :=
  let c97_i32_192 : BitVec 32 := 97#32
  let v453 : Index := Scalar.indexCast c97_i32_192
  let v452 : BitVec 32 := Scalar.addi v446 c16_i32_191
  let v454 : Index := Scalar.indexCast v452
  ![97, v454.toNat]

def k2_chk58 (v446 : BitVec 32) : Prop :=
  (∀ a, (k2_off130 v446) a + S1x16.size a ≤ S100x128.size a) ∧
  (∀ (r : Fin 3), ∀ a, (k2_off131 v446 (BitVec.ofNat 32 (16 + 16 * r.val))) a + S1x16.size a ≤ S100x128.size a)
instance k2_chk58.dec : ∀ (v446 : BitVec 32), Decidable (k2_chk58 v446) := fun v446 => decidable_of_iff' _ (Iff.of_eq (k2_chk58.eq_1 v446))
theorem k2_off130_inb : ∀ (v446 : BitVec 32) (k2_hw58 : k2_chk58 v446), ∀ a, (k2_off130 v446) a + S1x16.size a ≤ S100x128.size a := fun v446 k2_hw58 => k2_hw58.1
theorem k2_off131_inb : ∀ (v446 : BitVec 32) (k2_hw58 : k2_chk58 v446), ∀ (r : Fin 3), ∀ a, (k2_off131 v446 (BitVec.ofNat 32 (16 + 16 * r.val))) a + S1x16.size a ≤ S100x128.size a := fun v446 k2_hw58 r => k2_hw58.2 r

def k2_off132 (v471 : BitVec 32) : Fin 2 → Nat :=
  let c98_i32_197 : BitVec 32 := 98#32
  let v472 : Index := Scalar.indexCast c98_i32_197
  let v473 : Index := Scalar.indexCast v471
  ![98, v473.toNat]

def k2_off133 (v471 : BitVec 32) (c16_i32_198 : BitVec 32) : Fin 2 → Nat :=
  let c98_i32_199 : BitVec 32 := 98#32
  let v478 : Index := Scalar.indexCast c98_i32_199
  let v477 : BitVec 32 := Scalar.addi v471 c16_i32_198
  let v479 : Index := Scalar.indexCast v477
  ![98, v479.toNat]

def k2_chk59 (v471 : BitVec 32) : Prop :=
  (∀ a, (k2_off132 v471) a + S1x16.size a ≤ S100x128.size a) ∧
  (∀ (r : Fin 3), ∀ a, (k2_off133 v471 (BitVec.ofNat 32 (16 + 16 * r.val))) a + S1x16.size a ≤ S100x128.size a)
instance k2_chk59.dec : ∀ (v471 : BitVec 32), Decidable (k2_chk59 v471) := fun v471 => decidable_of_iff' _ (Iff.of_eq (k2_chk59.eq_1 v471))
theorem k2_off132_inb : ∀ (v471 : BitVec 32) (k2_hw59 : k2_chk59 v471), ∀ a, (k2_off132 v471) a + S1x16.size a ≤ S100x128.size a := fun v471 k2_hw59 => k2_hw59.1
theorem k2_off133_inb : ∀ (v471 : BitVec 32) (k2_hw59 : k2_chk59 v471), ∀ (r : Fin 3), ∀ a, (k2_off133 v471 (BitVec.ofNat 32 (16 + 16 * r.val))) a + S1x16.size a ≤ S100x128.size a := fun v471 k2_hw59 r => k2_hw59.2 r

def k2_off134 (v496 : BitVec 32) : Fin 2 → Nat :=
  let c99_i32_204 : BitVec 32 := 99#32
  let v497 : Index := Scalar.indexCast c99_i32_204
  let v498 : Index := Scalar.indexCast v496
  ![99, v498.toNat]

def k2_off135 (v496 : BitVec 32) (c16_i32_205 : BitVec 32) : Fin 2 → Nat :=
  let c99_i32_206 : BitVec 32 := 99#32
  let v503 : Index := Scalar.indexCast c99_i32_206
  let v502 : BitVec 32 := Scalar.addi v496 c16_i32_205
  let v504 : Index := Scalar.indexCast v502
  ![99, v504.toNat]

def k2_chk60 (v496 : BitVec 32) : Prop :=
  (∀ a, (k2_off134 v496) a + S1x16.size a ≤ S100x128.size a) ∧
  (∀ (r : Fin 3), ∀ a, (k2_off135 v496 (BitVec.ofNat 32 (16 + 16 * r.val))) a + S1x16.size a ≤ S100x128.size a)
instance k2_chk60.dec : ∀ (v496 : BitVec 32), Decidable (k2_chk60 v496) := fun v496 => decidable_of_iff' _ (Iff.of_eq (k2_chk60.eq_1 v496))
theorem k2_off134_inb : ∀ (v496 : BitVec 32) (k2_hw60 : k2_chk60 v496), ∀ a, (k2_off134 v496) a + S1x16.size a ≤ S100x128.size a := fun v496 k2_hw60 => k2_hw60.1
theorem k2_off135_inb : ∀ (v496 : BitVec 32) (k2_hw60 : k2_chk60 v496), ∀ (r : Fin 3), ∀ a, (k2_off135 v496 (BitVec.ofNat 32 (16 + 16 * r.val))) a + S1x16.size a ≤ S100x128.size a := fun v496 k2_hw60 r => k2_hw60.2 r

def k2_off136 (k2_t2 : Fin k2_t2_loop.trips) : Fin 1 → Nat :=
  let c4_i32_156 : BitVec 32 := 4#32
  let c0_i32_13 : BitVec 32 := 0#32
  let c1_i32_14 : BitVec 32 := 1#32
  let arg16 : BitVec 32 := Scf.iv c0_i32_13 c1_i32_14 k2_t2
  let v375 : BitVec 32 := Scalar.muli c4_i32_156 arg16
  let c2_i32_157 : BitVec 32 := 2#32
  let v376 : BitVec 32 := Scalar.addi v375 c2_i32_157
  let c4_i32_211 : BitVec 32 := 4#32
  let v520 : BitVec 32 := Scalar.addi v376 c4_i32_211
  let c254_i32 : BitVec 32 := 254#32
  let v521 : BitVec 32 := Scalar.minsi v520 c254_i32
  let c112_i32_212 : BitVec 32 := 112#32
  let v522 : BitVec 32 := Scalar.muli v521 c112_i32_212
  ![v522.toNat]
@[reducible] def k2_t6_loop : Scf.Loop 32 :=
  let c0_i32_219 : BitVec 32 := 0#32
  let c6_i32_220 : BitVec 32 := 6#32
  let v529 : BitVec 32 := Scalar.addi c0_i32_219 c6_i32_220
  let c1_i32_221 : BitVec 32 := 1#32
  ⟨c0_i32_219, v529, c1_i32_221⟩
def k2_off137 (k2_t2 : Fin k2_t2_loop.trips) (k2_t6 : Fin k2_t6_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_292 : BitVec 32 := 0#32
  let v728 : BitVec 1 := Scalar.cmpi .sgt v526 c0_i32_292
  let v729 : BitVec 32 := Scalar.extui v728
  let c0_i32_293 : BitVec 32 := 0#32
  let v730 : BitVec 1 := Scalar.cmpi .slt v526 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v526 c2_i32_291
  let c0_i32_296 : BitVec 32 := 0#32
  let v740 : BitVec 1 := Scalar.cmpi .ne v739 c0_i32_296
  let v741 : BitVec 1 := Scalar.andi v738 v740
  let v727 : BitVec 32 := Scalar.divsi v526 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v526 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off138 (k2_t6 : Fin k2_t6_loop.trips) (v768 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off139 (k2_t6 : Fin k2_t6_loop.trips) (v768 : BitVec 32) (c16_i32_309 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk61 (k2_t6 : Fin k2_t6_loop.trips) (v768 : BitVec 32) : Prop :=
  (∀ a, (k2_off138 k2_t6 v768) a + S1x16.size a ≤ S100x128.size a) ∧
  (∀ (r : Fin 3), ∀ a, (k2_off139 k2_t6 v768 (BitVec.ofNat 32 (16 + 16 * r.val))) a + S1x16.size a ≤ S100x128.size a)
instance k2_chk61.dec : ∀ (k2_t6 : Fin k2_t6_loop.trips) (v768 : BitVec 32), Decidable (k2_chk61 k2_t6 v768) := fun k2_t6 v768 => decidable_of_iff' _ (Iff.of_eq (k2_chk61.eq_1 k2_t6 v768))
theorem k2_off138_inb : ∀ (k2_t6 : Fin k2_t6_loop.trips) (v768 : BitVec 32) (k2_hw61 : k2_chk61 k2_t6 v768), ∀ a, (k2_off138 k2_t6 v768) a + S1x16.size a ≤ S100x128.size a := fun k2_t6 v768 k2_hw61 => k2_hw61.1
theorem k2_off139_inb : ∀ (k2_t6 : Fin k2_t6_loop.trips) (v768 : BitVec 32) (k2_hw61 : k2_chk61 k2_t6 v768), ∀ (r : Fin 3), ∀ a, (k2_off139 k2_t6 v768 (BitVec.ofNat 32 (16 + 16 * r.val))) a + S1x16.size a ≤ S100x128.size a := fun k2_t6 v768 k2_hw61 r => k2_hw61.2 r

def k2_off140 (k2_t6 : Fin k2_t6_loop.trips) (v794 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off141 (k2_t6 : Fin k2_t6_loop.trips) (v794 : BitVec 32) (c16_i32_313 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk62 (k2_t6 : Fin k2_t6_loop.trips) (v794 : BitVec 32) : Prop :=
  (∀ a, (k2_off140 k2_t6 v794) a + S1x16.size a ≤ S100x128.size a) ∧
  (∀ (r : Fin 3), ∀ a, (k2_off141 k2_t6 v794 (BitVec.ofNat 32 (16 + 16 * r.val))) a + S1x16.size a ≤ S100x128.size a)
instance k2_chk62.dec : ∀ (k2_t6 : Fin k2_t6_loop.trips) (v794 : BitVec 32), Decidable (k2_chk62 k2_t6 v794) := fun k2_t6 v794 => decidable_of_iff' _ (Iff.of_eq (k2_chk62.eq_1 k2_t6 v794))
theorem k2_off140_inb : ∀ (k2_t6 : Fin k2_t6_loop.trips) (v794 : BitVec 32) (k2_hw62 : k2_chk62 k2_t6 v794), ∀ a, (k2_off140 k2_t6 v794) a + S1x16.size a ≤ S100x128.size a := fun k2_t6 v794 k2_hw62 => k2_hw62.1
theorem k2_off141_inb : ∀ (k2_t6 : Fin k2_t6_loop.trips) (v794 : BitVec 32) (k2_hw62 : k2_chk62 k2_t6 v794), ∀ (r : Fin 3), ∀ a, (k2_off141 k2_t6 v794 (BitVec.ofNat 32 (16 + 16 * r.val))) a + S1x16.size a ≤ S100x128.size a := fun k2_t6 v794 k2_hw62 r => k2_hw62.2 r

def k2_off142 (k2_t6 : Fin k2_t6_loop.trips) (v820 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off143 (k2_t6 : Fin k2_t6_loop.trips) (v820 : BitVec 32) (c16_i32_317 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk63 (k2_t6 : Fin k2_t6_loop.trips) (v820 : BitVec 32) : Prop :=
  (∀ a, (k2_off142 k2_t6 v820) a + S1x16.size a ≤ S100x128.size a) ∧
  (∀ (r : Fin 3), ∀ a, (k2_off143 k2_t6 v820 (BitVec.ofNat 32 (16 + 16 * r.val))) a + S1x16.size a ≤ S100x128.size a)
instance k2_chk63.dec : ∀ (k2_t6 : Fin k2_t6_loop.trips) (v820 : BitVec 32), Decidable (k2_chk63 k2_t6 v820) := fun k2_t6 v820 => decidable_of_iff' _ (Iff.of_eq (k2_chk63.eq_1 k2_t6 v820))
theorem k2_off142_inb : ∀ (k2_t6 : Fin k2_t6_loop.trips) (v820 : BitVec 32) (k2_hw63 : k2_chk63 k2_t6 v820), ∀ a, (k2_off142 k2_t6 v820) a + S1x16.size a ≤ S100x128.size a := fun k2_t6 v820 k2_hw63 => k2_hw63.1
theorem k2_off143_inb : ∀ (k2_t6 : Fin k2_t6_loop.trips) (v820 : BitVec 32) (k2_hw63 : k2_chk63 k2_t6 v820), ∀ (r : Fin 3), ∀ a, (k2_off143 k2_t6 v820 (BitVec.ofNat 32 (16 + 16 * r.val))) a + S1x16.size a ≤ S100x128.size a := fun k2_t6 v820 k2_hw63 r => k2_hw63.2 r

def k2_off144 (k2_t6 : Fin k2_t6_loop.trips) (v846 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off145 (k2_t6 : Fin k2_t6_loop.trips) (v846 : BitVec 32) (c16_i32_321 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk64 (k2_t6 : Fin k2_t6_loop.trips) (v846 : BitVec 32) : Prop :=
  (∀ a, (k2_off144 k2_t6 v846) a + S1x16.size a ≤ S100x128.size a) ∧
  (∀ (r : Fin 3), ∀ a, (k2_off145 k2_t6 v846 (BitVec.ofNat 32 (16 + 16 * r.val))) a + S1x16.size a ≤ S100x128.size a)
instance k2_chk64.dec : ∀ (k2_t6 : Fin k2_t6_loop.trips) (v846 : BitVec 32), Decidable (k2_chk64 k2_t6 v846) := fun k2_t6 v846 => decidable_of_iff' _ (Iff.of_eq (k2_chk64.eq_1 k2_t6 v846))
theorem k2_off144_inb : ∀ (k2_t6 : Fin k2_t6_loop.trips) (v846 : BitVec 32) (k2_hw64 : k2_chk64 k2_t6 v846), ∀ a, (k2_off144 k2_t6 v846) a + S1x16.size a ≤ S100x128.size a := fun k2_t6 v846 k2_hw64 => k2_hw64.1
theorem k2_off145_inb : ∀ (k2_t6 : Fin k2_t6_loop.trips) (v846 : BitVec 32) (k2_hw64 : k2_chk64 k2_t6 v846), ∀ (r : Fin 3), ∀ a, (k2_off145 k2_t6 v846 (BitVec.ofNat 32 (16 + 16 * r.val))) a + S1x16.size a ≤ S100x128.size a := fun k2_t6 v846 k2_hw64 r => k2_hw64.2 r

def k2_off146 (k2_t6 : Fin k2_t6_loop.trips) (v872 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off147 (k2_t6 : Fin k2_t6_loop.trips) (v872 : BitVec 32) (c16_i32_325 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk65 (k2_t6 : Fin k2_t6_loop.trips) (v872 : BitVec 32) : Prop :=
  (∀ a, (k2_off146 k2_t6 v872) a + S1x16.size a ≤ S100x128.size a) ∧
  (∀ (r : Fin 3), ∀ a, (k2_off147 k2_t6 v872 (BitVec.ofNat 32 (16 + 16 * r.val))) a + S1x16.size a ≤ S100x128.size a)
instance k2_chk65.dec : ∀ (k2_t6 : Fin k2_t6_loop.trips) (v872 : BitVec 32), Decidable (k2_chk65 k2_t6 v872) := fun k2_t6 v872 => decidable_of_iff' _ (Iff.of_eq (k2_chk65.eq_1 k2_t6 v872))
theorem k2_off146_inb : ∀ (k2_t6 : Fin k2_t6_loop.trips) (v872 : BitVec 32) (k2_hw65 : k2_chk65 k2_t6 v872), ∀ a, (k2_off146 k2_t6 v872) a + S1x16.size a ≤ S100x128.size a := fun k2_t6 v872 k2_hw65 => k2_hw65.1
theorem k2_off147_inb : ∀ (k2_t6 : Fin k2_t6_loop.trips) (v872 : BitVec 32) (k2_hw65 : k2_chk65 k2_t6 v872), ∀ (r : Fin 3), ∀ a, (k2_off147 k2_t6 v872 (BitVec.ofNat 32 (16 + 16 * r.val))) a + S1x16.size a ≤ S100x128.size a := fun k2_t6 v872 k2_hw65 r => k2_hw65.2 r

def k2_off148 (k2_t6 : Fin k2_t6_loop.trips) (v898 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off149 (k2_t6 : Fin k2_t6_loop.trips) (v898 : BitVec 32) (c16_i32_328 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk66 (k2_t6 : Fin k2_t6_loop.trips) (v898 : BitVec 32) : Prop :=
  (∀ a, (k2_off148 k2_t6 v898) a + S1x16.size a ≤ S100x128.size a) ∧
  (∀ (r : Fin 3), ∀ a, (k2_off149 k2_t6 v898 (BitVec.ofNat 32 (16 + 16 * r.val))) a + S1x16.size a ≤ S100x128.size a)
instance k2_chk66.dec : ∀ (k2_t6 : Fin k2_t6_loop.trips) (v898 : BitVec 32), Decidable (k2_chk66 k2_t6 v898) := fun k2_t6 v898 => decidable_of_iff' _ (Iff.of_eq (k2_chk66.eq_1 k2_t6 v898))
theorem k2_off148_inb : ∀ (k2_t6 : Fin k2_t6_loop.trips) (v898 : BitVec 32) (k2_hw66 : k2_chk66 k2_t6 v898), ∀ a, (k2_off148 k2_t6 v898) a + S1x16.size a ≤ S100x128.size a := fun k2_t6 v898 k2_hw66 => k2_hw66.1
theorem k2_off149_inb : ∀ (k2_t6 : Fin k2_t6_loop.trips) (v898 : BitVec 32) (k2_hw66 : k2_chk66 k2_t6 v898), ∀ (r : Fin 3), ∀ a, (k2_off149 k2_t6 v898 (BitVec.ofNat 32 (16 + 16 * r.val))) a + S1x16.size a ≤ S100x128.size a := fun k2_t6 v898 k2_hw66 r => k2_hw66.2 r

def k2_off150 (k2_t6 : Fin k2_t6_loop.trips) (v924 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off151 (k2_t6 : Fin k2_t6_loop.trips) (v924 : BitVec 32) (c16_i32_332 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk67 (k2_t6 : Fin k2_t6_loop.trips) (v924 : BitVec 32) : Prop :=
  (∀ a, (k2_off150 k2_t6 v924) a + S1x16.size a ≤ S100x128.size a) ∧
  (∀ (r : Fin 3), ∀ a, (k2_off151 k2_t6 v924 (BitVec.ofNat 32 (16 + 16 * r.val))) a + S1x16.size a ≤ S100x128.size a)
instance k2_chk67.dec : ∀ (k2_t6 : Fin k2_t6_loop.trips) (v924 : BitVec 32), Decidable (k2_chk67 k2_t6 v924) := fun k2_t6 v924 => decidable_of_iff' _ (Iff.of_eq (k2_chk67.eq_1 k2_t6 v924))
theorem k2_off150_inb : ∀ (k2_t6 : Fin k2_t6_loop.trips) (v924 : BitVec 32) (k2_hw67 : k2_chk67 k2_t6 v924), ∀ a, (k2_off150 k2_t6 v924) a + S1x16.size a ≤ S100x128.size a := fun k2_t6 v924 k2_hw67 => k2_hw67.1
theorem k2_off151_inb : ∀ (k2_t6 : Fin k2_t6_loop.trips) (v924 : BitVec 32) (k2_hw67 : k2_chk67 k2_t6 v924), ∀ (r : Fin 3), ∀ a, (k2_off151 k2_t6 v924 (BitVec.ofNat 32 (16 + 16 * r.val))) a + S1x16.size a ≤ S100x128.size a := fun k2_t6 v924 k2_hw67 r => k2_hw67.2 r

def k2_off152 (k2_t6 : Fin k2_t6_loop.trips) (v950 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off153 (k2_t6 : Fin k2_t6_loop.trips) (v950 : BitVec 32) (c16_i32_335 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk68 (k2_t6 : Fin k2_t6_loop.trips) (v950 : BitVec 32) : Prop :=
  (∀ a, (k2_off152 k2_t6 v950) a + S1x16.size a ≤ S100x128.size a) ∧
  (∀ (r : Fin 3), ∀ a, (k2_off153 k2_t6 v950 (BitVec.ofNat 32 (16 + 16 * r.val))) a + S1x16.size a ≤ S100x128.size a)
instance k2_chk68.dec : ∀ (k2_t6 : Fin k2_t6_loop.trips) (v950 : BitVec 32), Decidable (k2_chk68 k2_t6 v950) := fun k2_t6 v950 => decidable_of_iff' _ (Iff.of_eq (k2_chk68.eq_1 k2_t6 v950))
theorem k2_off152_inb : ∀ (k2_t6 : Fin k2_t6_loop.trips) (v950 : BitVec 32) (k2_hw68 : k2_chk68 k2_t6 v950), ∀ a, (k2_off152 k2_t6 v950) a + S1x16.size a ≤ S100x128.size a := fun k2_t6 v950 k2_hw68 => k2_hw68.1
theorem k2_off153_inb : ∀ (k2_t6 : Fin k2_t6_loop.trips) (v950 : BitVec 32) (k2_hw68 : k2_chk68 k2_t6 v950), ∀ (r : Fin 3), ∀ a, (k2_off153 k2_t6 v950 (BitVec.ofNat 32 (16 + 16 * r.val))) a + S1x16.size a ≤ S100x128.size a := fun k2_t6 v950 k2_hw68 r => k2_hw68.2 r

def k2_off154 (k2_t6 : Fin k2_t6_loop.trips) (v976 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off155 (k2_t6 : Fin k2_t6_loop.trips) (v976 : BitVec 32) (c16_i32_338 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk69 (k2_t6 : Fin k2_t6_loop.trips) (v976 : BitVec 32) : Prop :=
  (∀ a, (k2_off154 k2_t6 v976) a + S1x16.size a ≤ S100x128.size a) ∧
  (∀ (r : Fin 3), ∀ a, (k2_off155 k2_t6 v976 (BitVec.ofNat 32 (16 + 16 * r.val))) a + S1x16.size a ≤ S100x128.size a)
instance k2_chk69.dec : ∀ (k2_t6 : Fin k2_t6_loop.trips) (v976 : BitVec 32), Decidable (k2_chk69 k2_t6 v976) := fun k2_t6 v976 => decidable_of_iff' _ (Iff.of_eq (k2_chk69.eq_1 k2_t6 v976))
theorem k2_off154_inb : ∀ (k2_t6 : Fin k2_t6_loop.trips) (v976 : BitVec 32) (k2_hw69 : k2_chk69 k2_t6 v976), ∀ a, (k2_off154 k2_t6 v976) a + S1x16.size a ≤ S100x128.size a := fun k2_t6 v976 k2_hw69 => k2_hw69.1
theorem k2_off155_inb : ∀ (k2_t6 : Fin k2_t6_loop.trips) (v976 : BitVec 32) (k2_hw69 : k2_chk69 k2_t6 v976), ∀ (r : Fin 3), ∀ a, (k2_off155 k2_t6 v976 (BitVec.ofNat 32 (16 + 16 * r.val))) a + S1x16.size a ≤ S100x128.size a := fun k2_t6 v976 k2_hw69 r => k2_hw69.2 r

def k2_off156 (k2_t6 : Fin k2_t6_loop.trips) (v1002 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off157 (k2_t6 : Fin k2_t6_loop.trips) (v1002 : BitVec 32) (c16_i32_341 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk70 (k2_t6 : Fin k2_t6_loop.trips) (v1002 : BitVec 32) : Prop :=
  (∀ a, (k2_off156 k2_t6 v1002) a + S1x16.size a ≤ S100x128.size a) ∧
  (∀ (r : Fin 3), ∀ a, (k2_off157 k2_t6 v1002 (BitVec.ofNat 32 (16 + 16 * r.val))) a + S1x16.size a ≤ S100x128.size a)
instance k2_chk70.dec : ∀ (k2_t6 : Fin k2_t6_loop.trips) (v1002 : BitVec 32), Decidable (k2_chk70 k2_t6 v1002) := fun k2_t6 v1002 => decidable_of_iff' _ (Iff.of_eq (k2_chk70.eq_1 k2_t6 v1002))
theorem k2_off156_inb : ∀ (k2_t6 : Fin k2_t6_loop.trips) (v1002 : BitVec 32) (k2_hw70 : k2_chk70 k2_t6 v1002), ∀ a, (k2_off156 k2_t6 v1002) a + S1x16.size a ≤ S100x128.size a := fun k2_t6 v1002 k2_hw70 => k2_hw70.1
theorem k2_off157_inb : ∀ (k2_t6 : Fin k2_t6_loop.trips) (v1002 : BitVec 32) (k2_hw70 : k2_chk70 k2_t6 v1002), ∀ (r : Fin 3), ∀ a, (k2_off157 k2_t6 v1002 (BitVec.ofNat 32 (16 + 16 * r.val))) a + S1x16.size a ≤ S100x128.size a := fun k2_t6 v1002 k2_hw70 r => k2_hw70.2 r

def k2_off158 (k2_t6 : Fin k2_t6_loop.trips) (v1028 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off159 (k2_t6 : Fin k2_t6_loop.trips) (v1028 : BitVec 32) (c16_i32_344 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk71 (k2_t6 : Fin k2_t6_loop.trips) (v1028 : BitVec 32) : Prop :=
  (∀ a, (k2_off158 k2_t6 v1028) a + S1x16.size a ≤ S100x128.size a) ∧
  (∀ (r : Fin 3), ∀ a, (k2_off159 k2_t6 v1028 (BitVec.ofNat 32 (16 + 16 * r.val))) a + S1x16.size a ≤ S100x128.size a)
instance k2_chk71.dec : ∀ (k2_t6 : Fin k2_t6_loop.trips) (v1028 : BitVec 32), Decidable (k2_chk71 k2_t6 v1028) := fun k2_t6 v1028 => decidable_of_iff' _ (Iff.of_eq (k2_chk71.eq_1 k2_t6 v1028))
theorem k2_off158_inb : ∀ (k2_t6 : Fin k2_t6_loop.trips) (v1028 : BitVec 32) (k2_hw71 : k2_chk71 k2_t6 v1028), ∀ a, (k2_off158 k2_t6 v1028) a + S1x16.size a ≤ S100x128.size a := fun k2_t6 v1028 k2_hw71 => k2_hw71.1
theorem k2_off159_inb : ∀ (k2_t6 : Fin k2_t6_loop.trips) (v1028 : BitVec 32) (k2_hw71 : k2_chk71 k2_t6 v1028), ∀ (r : Fin 3), ∀ a, (k2_off159 k2_t6 v1028 (BitVec.ofNat 32 (16 + 16 * r.val))) a + S1x16.size a ≤ S100x128.size a := fun k2_t6 v1028 k2_hw71 r => k2_hw71.2 r

def k2_off160 (k2_t6 : Fin k2_t6_loop.trips) (v1054 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off161 (k2_t6 : Fin k2_t6_loop.trips) (v1054 : BitVec 32) (c16_i32_347 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk72 (k2_t6 : Fin k2_t6_loop.trips) (v1054 : BitVec 32) : Prop :=
  (∀ a, (k2_off160 k2_t6 v1054) a + S1x16.size a ≤ S100x128.size a) ∧
  (∀ (r : Fin 3), ∀ a, (k2_off161 k2_t6 v1054 (BitVec.ofNat 32 (16 + 16 * r.val))) a + S1x16.size a ≤ S100x128.size a)
instance k2_chk72.dec : ∀ (k2_t6 : Fin k2_t6_loop.trips) (v1054 : BitVec 32), Decidable (k2_chk72 k2_t6 v1054) := fun k2_t6 v1054 => decidable_of_iff' _ (Iff.of_eq (k2_chk72.eq_1 k2_t6 v1054))
theorem k2_off160_inb : ∀ (k2_t6 : Fin k2_t6_loop.trips) (v1054 : BitVec 32) (k2_hw72 : k2_chk72 k2_t6 v1054), ∀ a, (k2_off160 k2_t6 v1054) a + S1x16.size a ≤ S100x128.size a := fun k2_t6 v1054 k2_hw72 => k2_hw72.1
theorem k2_off161_inb : ∀ (k2_t6 : Fin k2_t6_loop.trips) (v1054 : BitVec 32) (k2_hw72 : k2_chk72 k2_t6 v1054), ∀ (r : Fin 3), ∀ a, (k2_off161 k2_t6 v1054 (BitVec.ofNat 32 (16 + 16 * r.val))) a + S1x16.size a ≤ S100x128.size a := fun k2_t6 v1054 k2_hw72 r => k2_hw72.2 r

def k2_off162 (k2_t6 : Fin k2_t6_loop.trips) (v1080 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off163 (k2_t6 : Fin k2_t6_loop.trips) (v1080 : BitVec 32) (c16_i32_350 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk73 (k2_t6 : Fin k2_t6_loop.trips) (v1080 : BitVec 32) : Prop :=
  (∀ a, (k2_off162 k2_t6 v1080) a + S1x16.size a ≤ S100x128.size a) ∧
  (∀ (r : Fin 3), ∀ a, (k2_off163 k2_t6 v1080 (BitVec.ofNat 32 (16 + 16 * r.val))) a + S1x16.size a ≤ S100x128.size a)
instance k2_chk73.dec : ∀ (k2_t6 : Fin k2_t6_loop.trips) (v1080 : BitVec 32), Decidable (k2_chk73 k2_t6 v1080) := fun k2_t6 v1080 => decidable_of_iff' _ (Iff.of_eq (k2_chk73.eq_1 k2_t6 v1080))
theorem k2_off162_inb : ∀ (k2_t6 : Fin k2_t6_loop.trips) (v1080 : BitVec 32) (k2_hw73 : k2_chk73 k2_t6 v1080), ∀ a, (k2_off162 k2_t6 v1080) a + S1x16.size a ≤ S100x128.size a := fun k2_t6 v1080 k2_hw73 => k2_hw73.1
theorem k2_off163_inb : ∀ (k2_t6 : Fin k2_t6_loop.trips) (v1080 : BitVec 32) (k2_hw73 : k2_chk73 k2_t6 v1080), ∀ (r : Fin 3), ∀ a, (k2_off163 k2_t6 v1080 (BitVec.ofNat 32 (16 + 16 * r.val))) a + S1x16.size a ≤ S100x128.size a := fun k2_t6 v1080 k2_hw73 r => k2_hw73.2 r

def k2_off164 (k2_t6 : Fin k2_t6_loop.trips) (v1106 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off165 (k2_t6 : Fin k2_t6_loop.trips) (v1106 : BitVec 32) (c16_i32_353 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk74 (k2_t6 : Fin k2_t6_loop.trips) (v1106 : BitVec 32) : Prop :=
  (∀ a, (k2_off164 k2_t6 v1106) a + S1x16.size a ≤ S100x128.size a) ∧
  (∀ (r : Fin 3), ∀ a, (k2_off165 k2_t6 v1106 (BitVec.ofNat 32 (16 + 16 * r.val))) a + S1x16.size a ≤ S100x128.size a)
instance k2_chk74.dec : ∀ (k2_t6 : Fin k2_t6_loop.trips) (v1106 : BitVec 32), Decidable (k2_chk74 k2_t6 v1106) := fun k2_t6 v1106 => decidable_of_iff' _ (Iff.of_eq (k2_chk74.eq_1 k2_t6 v1106))
theorem k2_off164_inb : ∀ (k2_t6 : Fin k2_t6_loop.trips) (v1106 : BitVec 32) (k2_hw74 : k2_chk74 k2_t6 v1106), ∀ a, (k2_off164 k2_t6 v1106) a + S1x16.size a ≤ S100x128.size a := fun k2_t6 v1106 k2_hw74 => k2_hw74.1
theorem k2_off165_inb : ∀ (k2_t6 : Fin k2_t6_loop.trips) (v1106 : BitVec 32) (k2_hw74 : k2_chk74 k2_t6 v1106), ∀ (r : Fin 3), ∀ a, (k2_off165 k2_t6 v1106 (BitVec.ofNat 32 (16 + 16 * r.val))) a + S1x16.size a ≤ S100x128.size a := fun k2_t6 v1106 k2_hw74 r => k2_hw74.2 r

def k2_off166 (k2_t6 : Fin k2_t6_loop.trips) (v1132 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off167 (k2_t6 : Fin k2_t6_loop.trips) (v1132 : BitVec 32) (c16_i32_357 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk75 (k2_t6 : Fin k2_t6_loop.trips) (v1132 : BitVec 32) : Prop :=
  (∀ a, (k2_off166 k2_t6 v1132) a + S1x16.size a ≤ S100x128.size a) ∧
  (∀ (r : Fin 3), ∀ a, (k2_off167 k2_t6 v1132 (BitVec.ofNat 32 (16 + 16 * r.val))) a + S1x16.size a ≤ S100x128.size a)
instance k2_chk75.dec : ∀ (k2_t6 : Fin k2_t6_loop.trips) (v1132 : BitVec 32), Decidable (k2_chk75 k2_t6 v1132) := fun k2_t6 v1132 => decidable_of_iff' _ (Iff.of_eq (k2_chk75.eq_1 k2_t6 v1132))
theorem k2_off166_inb : ∀ (k2_t6 : Fin k2_t6_loop.trips) (v1132 : BitVec 32) (k2_hw75 : k2_chk75 k2_t6 v1132), ∀ a, (k2_off166 k2_t6 v1132) a + S1x16.size a ≤ S100x128.size a := fun k2_t6 v1132 k2_hw75 => k2_hw75.1
theorem k2_off167_inb : ∀ (k2_t6 : Fin k2_t6_loop.trips) (v1132 : BitVec 32) (k2_hw75 : k2_chk75 k2_t6 v1132), ∀ (r : Fin 3), ∀ a, (k2_off167 k2_t6 v1132 (BitVec.ofNat 32 (16 + 16 * r.val))) a + S1x16.size a ≤ S100x128.size a := fun k2_t6 v1132 k2_hw75 r => k2_hw75.2 r

def k2_off168 (k2_t6 : Fin k2_t6_loop.trips) (v1158 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off169 (k2_t6 : Fin k2_t6_loop.trips) (v1158 : BitVec 32) (c16_i32_360 : BitVec 32) : Fin 2 → Nat :=
  let c0_i32_219 : BitVec 32 := 0#32
  let c1_i32_221 : BitVec 32 := 1#32
  let arg17 : BitVec 32 := Scf.iv c0_i32_219 c1_i32_221 k2_t6
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk76 (k2_t6 : Fin k2_t6_loop.trips) (v1158 : BitVec 32) : Prop :=
  (∀ a, (k2_off168 k2_t6 v1158) a + S1x16.size a ≤ S100x128.size a) ∧
  (∀ (r : Fin 3), ∀ a, (k2_off169 k2_t6 v1158 (BitVec.ofNat 32 (16 + 16 * r.val))) a + S1x16.size a ≤ S100x128.size a)
instance k2_chk76.dec : ∀ (k2_t6 : Fin k2_t6_loop.trips) (v1158 : BitVec 32), Decidable (k2_chk76 k2_t6 v1158) := fun k2_t6 v1158 => decidable_of_iff' _ (Iff.of_eq (k2_chk76.eq_1 k2_t6 v1158))
theorem k2_off168_inb : ∀ (k2_t6 : Fin k2_t6_loop.trips) (v1158 : BitVec 32) (k2_hw76 : k2_chk76 k2_t6 v1158), ∀ a, (k2_off168 k2_t6 v1158) a + S1x16.size a ≤ S100x128.size a := fun k2_t6 v1158 k2_hw76 => k2_hw76.1
theorem k2_off169_inb : ∀ (k2_t6 : Fin k2_t6_loop.trips) (v1158 : BitVec 32) (k2_hw76 : k2_chk76 k2_t6 v1158), ∀ (r : Fin 3), ∀ a, (k2_off169 k2_t6 v1158 (BitVec.ofNat 32 (16 + 16 * r.val))) a + S1x16.size a ≤ S100x128.size a := fun k2_t6 v1158 k2_hw76 r => k2_hw76.2 r

def k2_off170 (k2_t2 : Fin k2_t2_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_224 : BitVec 32 := 0#32
  let v532 : BitVec 1 := Scalar.cmpi .sgt v526 c0_i32_224
  let v533 : BitVec 32 := Scalar.extui v532
  let c0_i32_225 : BitVec 32 := 0#32
  let v534 : BitVec 1 := Scalar.cmpi .slt v526 c0_i32_225
  let v535 : BitVec 32 := Scalar.extui v534
  let v536 : BitVec 32 := Scalar.subi v533 v535
  let c2_i32_223 : BitVec 32 := 2#32
  let c0_i32_226 : BitVec 32 := 0#32
  let v537 : BitVec 1 := Scalar.cmpi .sgt c2_i32_223 c0_i32_226
  let v538 : BitVec 32 := Scalar.extui v537
  let c0_i32_227 : BitVec 32 := 0#32
  let v539 : BitVec 1 := Scalar.cmpi .slt c2_i32_223 c0_i32_227
  let v540 : BitVec 32 := Scalar.extui v539
  let v541 : BitVec 32 := Scalar.subi v538 v540
  let v542 : BitVec 1 := Scalar.cmpi .ne v536 v541
  let v543 : BitVec 32 := Scalar.remsi v526 c2_i32_223
  let c0_i32_228 : BitVec 32 := 0#32
  let v544 : BitVec 1 := Scalar.cmpi .ne v543 c0_i32_228
  let v545 : BitVec 1 := Scalar.andi v542 v544
  let v531 : BitVec 32 := Scalar.divsi v526 c2_i32_223
  let c1_i32_229 : BitVec 32 := 1#32
  let v546 : BitVec 32 := Scalar.subi v531 c1_i32_229
  let v547 : BitVec 32 := Scalar.select v545 v546 v531
  let v560 : Index := Scalar.indexCast v547
  let c2_i32_230 : BitVec 32 := 2#32
  let c0_i32_231 : BitVec 32 := 0#32
  let v548 : BitVec 1 := Scalar.cmpi .eq c2_i32_230 c0_i32_231
  let c1_i32_232 : BitVec 32 := 1#32
  let v549 : BitVec 32 := Scalar.select v548 c1_i32_232 c2_i32_230
  let v550 : BitVec 32 := Scalar.remsi v526 v549
  let c0_i32_234 : BitVec 32 := 0#32
  let v552 : BitVec 1 := Scalar.cmpi .slt v550 c0_i32_234
  let c0_i32_235 : BitVec 32 := 0#32
  let v553 : BitVec 1 := Scalar.cmpi .slt v549 c0_i32_235
  let v554 : BitVec 1 := Scalar.xori v552 v553
  let c0_i32_233 : BitVec 32 := 0#32
  let v551 : BitVec 1 := Scalar.cmpi .ne v550 c0_i32_233
  let v555 : BitVec 1 := Scalar.andi v554 v551
  let v556 : BitVec 32 := Scalar.addi v550 v549
  let v557 : BitVec 32 := Scalar.select v555 v556 v550
  let c112_i32_236 : BitVec 32 := 112#32
  let v558 : BitVec 32 := Scalar.muli v557 c112_i32_236
  let c96_i32_237 : BitVec 32 := 96#32
  let v559 : BitVec 32 := Scalar.addi v558 c96_i32_237
  let v561 : Index := Scalar.indexCast v559
  ![v560.toNat, v561.toNat]
def k2_off171 (v571 : BitVec 32) : Fin 2 → Nat :=
  let c96_i32_241 : BitVec 32 := 96#32
  let v572 : Index := Scalar.indexCast c96_i32_241
  let v573 : Index := Scalar.indexCast v571
  ![96, v573.toNat]

def k2_off172 (v571 : BitVec 32) (c16_i32_242 : BitVec 32) : Fin 2 → Nat :=
  let c96_i32_243 : BitVec 32 := 96#32
  let v578 : Index := Scalar.indexCast c96_i32_243
  let v577 : BitVec 32 := Scalar.addi v571 c16_i32_242
  let v579 : Index := Scalar.indexCast v577
  ![96, v579.toNat]

def k2_chk77 (v571 : BitVec 32) : Prop :=
  (∀ a, (k2_off171 v571) a + S1x16.size a ≤ S100x128.size a) ∧
  (∀ (r : Fin 3), ∀ a, (k2_off172 v571 (BitVec.ofNat 32 (16 + 16 * r.val))) a + S1x16.size a ≤ S100x128.size a)
instance k2_chk77.dec : ∀ (v571 : BitVec 32), Decidable (k2_chk77 v571) := fun v571 => decidable_of_iff' _ (Iff.of_eq (k2_chk77.eq_1 v571))
theorem k2_off171_inb : ∀ (v571 : BitVec 32) (k2_hw77 : k2_chk77 v571), ∀ a, (k2_off171 v571) a + S1x16.size a ≤ S100x128.size a := fun v571 k2_hw77 => k2_hw77.1
theorem k2_off172_inb : ∀ (v571 : BitVec 32) (k2_hw77 : k2_chk77 v571), ∀ (r : Fin 3), ∀ a, (k2_off172 v571 (BitVec.ofNat 32 (16 + 16 * r.val))) a + S1x16.size a ≤ S100x128.size a := fun v571 k2_hw77 r => k2_hw77.2 r

def k2_off173 (v596 : BitVec 32) : Fin 2 → Nat :=
  let c97_i32_248 : BitVec 32 := 97#32
  let v597 : Index := Scalar.indexCast c97_i32_248
  let v598 : Index := Scalar.indexCast v596
  ![97, v598.toNat]

def k2_off174 (v596 : BitVec 32) (c16_i32_249 : BitVec 32) : Fin 2 → Nat :=
  let c97_i32_250 : BitVec 32 := 97#32
  let v603 : Index := Scalar.indexCast c97_i32_250
  let v602 : BitVec 32 := Scalar.addi v596 c16_i32_249
  let v604 : Index := Scalar.indexCast v602
  ![97, v604.toNat]

def k2_chk78 (v596 : BitVec 32) : Prop :=
  (∀ a, (k2_off173 v596) a + S1x16.size a ≤ S100x128.size a) ∧
  (∀ (r : Fin 3), ∀ a, (k2_off174 v596 (BitVec.ofNat 32 (16 + 16 * r.val))) a + S1x16.size a ≤ S100x128.size a)
instance k2_chk78.dec : ∀ (v596 : BitVec 32), Decidable (k2_chk78 v596) := fun v596 => decidable_of_iff' _ (Iff.of_eq (k2_chk78.eq_1 v596))
theorem k2_off173_inb : ∀ (v596 : BitVec 32) (k2_hw78 : k2_chk78 v596), ∀ a, (k2_off173 v596) a + S1x16.size a ≤ S100x128.size a := fun v596 k2_hw78 => k2_hw78.1
theorem k2_off174_inb : ∀ (v596 : BitVec 32) (k2_hw78 : k2_chk78 v596), ∀ (r : Fin 3), ∀ a, (k2_off174 v596 (BitVec.ofNat 32 (16 + 16 * r.val))) a + S1x16.size a ≤ S100x128.size a := fun v596 k2_hw78 r => k2_hw78.2 r

def k2_off175 (v621 : BitVec 32) : Fin 2 → Nat :=
  let c98_i32_255 : BitVec 32 := 98#32
  let v622 : Index := Scalar.indexCast c98_i32_255
  let v623 : Index := Scalar.indexCast v621
  ![98, v623.toNat]

def k2_off176 (v621 : BitVec 32) (c16_i32_256 : BitVec 32) : Fin 2 → Nat :=
  let c98_i32_257 : BitVec 32 := 98#32
  let v628 : Index := Scalar.indexCast c98_i32_257
  let v627 : BitVec 32 := Scalar.addi v621 c16_i32_256
  let v629 : Index := Scalar.indexCast v627
  ![98, v629.toNat]

def k2_chk79 (v621 : BitVec 32) : Prop :=
  (∀ a, (k2_off175 v621) a + S1x16.size a ≤ S100x128.size a) ∧
  (∀ (r : Fin 3), ∀ a, (k2_off176 v621 (BitVec.ofNat 32 (16 + 16 * r.val))) a + S1x16.size a ≤ S100x128.size a)
instance k2_chk79.dec : ∀ (v621 : BitVec 32), Decidable (k2_chk79 v621) := fun v621 => decidable_of_iff' _ (Iff.of_eq (k2_chk79.eq_1 v621))
theorem k2_off175_inb : ∀ (v621 : BitVec 32) (k2_hw79 : k2_chk79 v621), ∀ a, (k2_off175 v621) a + S1x16.size a ≤ S100x128.size a := fun v621 k2_hw79 => k2_hw79.1
theorem k2_off176_inb : ∀ (v621 : BitVec 32) (k2_hw79 : k2_chk79 v621), ∀ (r : Fin 3), ∀ a, (k2_off176 v621 (BitVec.ofNat 32 (16 + 16 * r.val))) a + S1x16.size a ≤ S100x128.size a := fun v621 k2_hw79 r => k2_hw79.2 r

def k2_off177 (v646 : BitVec 32) : Fin 2 → Nat :=
  let c99_i32_262 : BitVec 32 := 99#32
  let v647 : Index := Scalar.indexCast c99_i32_262
  let v648 : Index := Scalar.indexCast v646
  ![99, v648.toNat]

def k2_off178 (v646 : BitVec 32) (c16_i32_263 : BitVec 32) : Fin 2 → Nat :=
  let c99_i32_264 : BitVec 32 := 99#32
  let v653 : Index := Scalar.indexCast c99_i32_264
  let v652 : BitVec 32 := Scalar.addi v646 c16_i32_263
  let v654 : Index := Scalar.indexCast v652
  ![99, v654.toNat]

def k2_chk80 (v646 : BitVec 32) : Prop :=
  (∀ a, (k2_off177 v646) a + S1x16.size a ≤ S100x128.size a) ∧
  (∀ (r : Fin 3), ∀ a, (k2_off178 v646 (BitVec.ofNat 32 (16 + 16 * r.val))) a + S1x16.size a ≤ S100x128.size a)
instance k2_chk80.dec : ∀ (v646 : BitVec 32), Decidable (k2_chk80 v646) := fun v646 => decidable_of_iff' _ (Iff.of_eq (k2_chk80.eq_1 v646))
theorem k2_off177_inb : ∀ (v646 : BitVec 32) (k2_hw80 : k2_chk80 v646), ∀ a, (k2_off177 v646) a + S1x16.size a ≤ S100x128.size a := fun v646 k2_hw80 => k2_hw80.1
theorem k2_off178_inb : ∀ (v646 : BitVec 32) (k2_hw80 : k2_chk80 v646), ∀ (r : Fin 3), ∀ a, (k2_off178 v646 (BitVec.ofNat 32 (16 + 16 * r.val))) a + S1x16.size a ≤ S100x128.size a := fun v646 k2_hw80 r => k2_hw80.2 r

def k2_off179 (k2_t2 : Fin k2_t2_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v699 : Index := Scalar.indexCast v696
  let c0_282 : Index := 0#32
  ![v699.toNat, 0]
def k2_off180 (k2_t2 : Fin k2_t2_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v705 : Index := Scalar.indexCast v696
  let c16_283 : Index := 16#32
  ![v705.toNat, 16]
def k2_off181 (k2_t2 : Fin k2_t2_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v711 : Index := Scalar.indexCast v696
  let c32_284 : Index := 32#32
  ![v711.toNat, 32]
def k2_off182 (k2_t2 : Fin k2_t2_loop.trips) : Fin 2 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v717 : Index := Scalar.indexCast v696
  let c48_285 : Index := 48#32
  ![v717.toNat, 48]
def k2_off183 (k2_t2 : Fin k2_t2_loop.trips) : Fin 1 → Nat :=
  let c4_i32_215 : BitVec 32 := 4#32
  let c0_i32_13 : BitVec 32 := 0#32
  let c1_i32_14 : BitVec 32 := 1#32
  let arg16 : BitVec 32 := Scf.iv c0_i32_13 c1_i32_14 k2_t2
  let v525 : BitVec 32 := Scalar.muli c4_i32_215 arg16
  let c3_i32 : BitVec 32 := 3#32
  let v526 : BitVec 32 := Scalar.addi v525 c3_i32
  let c4_i32_286 : BitVec 32 := 4#32
  let v721 : BitVec 32 := Scalar.addi v526 c4_i32_286
  let c255_i32 : BitVec 32 := 255#32
  let v722 : BitVec 32 := Scalar.minsi v721 c255_i32
  let c112_i32_287 : BitVec 32 := 112#32
  let v723 : BitVec 32 := Scalar.muli v722 c112_i32_287
  ![v723.toNat]
def k2_off184 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_34_r1 : BitVec 32 := 0#32
  ![v2.toNat, 0]
@[reducible] def k2_t7_loop : Scf.Loop 32 :=
  let c32_i32_18 : BitVec 32 := 32#32
  let c32_i32_19 : BitVec 32 := 32#32
  let v14 : BitVec 32 := Scalar.addi c32_i32_18 c32_i32_19
  let c1_i32_20 : BitVec 32 := 1#32
  ⟨c32_i32_18, v14, c1_i32_20⟩
@[reducible] def k2_t8_loop : Scf.Loop 32 :=
  let c0_i32_38 : BitVec 32 := 0#32
  let c6_i32 : BitVec 32 := 6#32
  let v28 : BitVec 32 := Scalar.addi c0_i32_38 c6_i32
  let c1_i32_39 : BitVec 32 := 1#32
  ⟨c0_i32_38, v28, c1_i32_39⟩
def k2_off185 (k2_t7 : Fin k2_t7_loop.trips) (k2_t8 : Fin k2_t8_loop.trips) : Fin 2 → Nat :=
  let c4_i32 : BitVec 32 := 4#32
  let c32_i32_18 : BitVec 32 := 32#32
  let c1_i32_20 : BitVec 32 := 1#32
  let arg16 : BitVec 32 := Scf.iv c32_i32_18 c1_i32_20 k2_t7
  let v24 : BitVec 32 := Scalar.muli c4_i32 arg16
  let c0_i32_34 : BitVec 32 := 0#32
  let v25 : BitVec 32 := Scalar.addi v24 c0_i32_34
  let c0_i32_292 : BitVec 32 := 0#32
  let v728 : BitVec 1 := Scalar.cmpi .sgt v25 c0_i32_292
  let v729 : BitVec 32 := Scalar.extui v728
  let c0_i32_293 : BitVec 32 := 0#32
  let v730 : BitVec 1 := Scalar.cmpi .slt v25 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v25 c2_i32_291
  let c0_i32_296 : BitVec 32 := 0#32
  let v740 : BitVec 1 := Scalar.cmpi .ne v739 c0_i32_296
  let v741 : BitVec 1 := Scalar.andi v738 v740
  let v727 : BitVec 32 := Scalar.divsi v25 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v25 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off186 (k2_t8 : Fin k2_t8_loop.trips) (v768 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off187 (k2_t8 : Fin k2_t8_loop.trips) (v768 : BitVec 32) (c16_i32_309 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk81 (k2_t8 : Fin k2_t8_loop.trips) (v768 : BitVec 32) : Prop :=
  (∀ a, (k2_off186 k2_t8 v768) a + S1x16.size a ≤ S100x128.size a) ∧
  (∀ (r : Fin 3), ∀ a, (k2_off187 k2_t8 v768 (BitVec.ofNat 32 (16 + 16 * r.val))) a + S1x16.size a ≤ S100x128.size a)
instance k2_chk81.dec : ∀ (k2_t8 : Fin k2_t8_loop.trips) (v768 : BitVec 32), Decidable (k2_chk81 k2_t8 v768) := fun k2_t8 v768 => decidable_of_iff' _ (Iff.of_eq (k2_chk81.eq_1 k2_t8 v768))
theorem k2_off186_inb : ∀ (k2_t8 : Fin k2_t8_loop.trips) (v768 : BitVec 32) (k2_hw81 : k2_chk81 k2_t8 v768), ∀ a, (k2_off186 k2_t8 v768) a + S1x16.size a ≤ S100x128.size a := fun k2_t8 v768 k2_hw81 => k2_hw81.1
theorem k2_off187_inb : ∀ (k2_t8 : Fin k2_t8_loop.trips) (v768 : BitVec 32) (k2_hw81 : k2_chk81 k2_t8 v768), ∀ (r : Fin 3), ∀ a, (k2_off187 k2_t8 v768 (BitVec.ofNat 32 (16 + 16 * r.val))) a + S1x16.size a ≤ S100x128.size a := fun k2_t8 v768 k2_hw81 r => k2_hw81.2 r

def k2_off188 (k2_t8 : Fin k2_t8_loop.trips) (v794 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off189 (k2_t8 : Fin k2_t8_loop.trips) (v794 : BitVec 32) (c16_i32_313 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk82 (k2_t8 : Fin k2_t8_loop.trips) (v794 : BitVec 32) : Prop :=
  (∀ a, (k2_off188 k2_t8 v794) a + S1x16.size a ≤ S100x128.size a) ∧
  (∀ (r : Fin 3), ∀ a, (k2_off189 k2_t8 v794 (BitVec.ofNat 32 (16 + 16 * r.val))) a + S1x16.size a ≤ S100x128.size a)
instance k2_chk82.dec : ∀ (k2_t8 : Fin k2_t8_loop.trips) (v794 : BitVec 32), Decidable (k2_chk82 k2_t8 v794) := fun k2_t8 v794 => decidable_of_iff' _ (Iff.of_eq (k2_chk82.eq_1 k2_t8 v794))
theorem k2_off188_inb : ∀ (k2_t8 : Fin k2_t8_loop.trips) (v794 : BitVec 32) (k2_hw82 : k2_chk82 k2_t8 v794), ∀ a, (k2_off188 k2_t8 v794) a + S1x16.size a ≤ S100x128.size a := fun k2_t8 v794 k2_hw82 => k2_hw82.1
theorem k2_off189_inb : ∀ (k2_t8 : Fin k2_t8_loop.trips) (v794 : BitVec 32) (k2_hw82 : k2_chk82 k2_t8 v794), ∀ (r : Fin 3), ∀ a, (k2_off189 k2_t8 v794 (BitVec.ofNat 32 (16 + 16 * r.val))) a + S1x16.size a ≤ S100x128.size a := fun k2_t8 v794 k2_hw82 r => k2_hw82.2 r

def k2_off190 (k2_t8 : Fin k2_t8_loop.trips) (v820 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off191 (k2_t8 : Fin k2_t8_loop.trips) (v820 : BitVec 32) (c16_i32_317 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk83 (k2_t8 : Fin k2_t8_loop.trips) (v820 : BitVec 32) : Prop :=
  (∀ a, (k2_off190 k2_t8 v820) a + S1x16.size a ≤ S100x128.size a) ∧
  (∀ (r : Fin 3), ∀ a, (k2_off191 k2_t8 v820 (BitVec.ofNat 32 (16 + 16 * r.val))) a + S1x16.size a ≤ S100x128.size a)
instance k2_chk83.dec : ∀ (k2_t8 : Fin k2_t8_loop.trips) (v820 : BitVec 32), Decidable (k2_chk83 k2_t8 v820) := fun k2_t8 v820 => decidable_of_iff' _ (Iff.of_eq (k2_chk83.eq_1 k2_t8 v820))
theorem k2_off190_inb : ∀ (k2_t8 : Fin k2_t8_loop.trips) (v820 : BitVec 32) (k2_hw83 : k2_chk83 k2_t8 v820), ∀ a, (k2_off190 k2_t8 v820) a + S1x16.size a ≤ S100x128.size a := fun k2_t8 v820 k2_hw83 => k2_hw83.1
theorem k2_off191_inb : ∀ (k2_t8 : Fin k2_t8_loop.trips) (v820 : BitVec 32) (k2_hw83 : k2_chk83 k2_t8 v820), ∀ (r : Fin 3), ∀ a, (k2_off191 k2_t8 v820 (BitVec.ofNat 32 (16 + 16 * r.val))) a + S1x16.size a ≤ S100x128.size a := fun k2_t8 v820 k2_hw83 r => k2_hw83.2 r

def k2_off192 (k2_t8 : Fin k2_t8_loop.trips) (v846 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off193 (k2_t8 : Fin k2_t8_loop.trips) (v846 : BitVec 32) (c16_i32_321 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk84 (k2_t8 : Fin k2_t8_loop.trips) (v846 : BitVec 32) : Prop :=
  (∀ a, (k2_off192 k2_t8 v846) a + S1x16.size a ≤ S100x128.size a) ∧
  (∀ (r : Fin 3), ∀ a, (k2_off193 k2_t8 v846 (BitVec.ofNat 32 (16 + 16 * r.val))) a + S1x16.size a ≤ S100x128.size a)
instance k2_chk84.dec : ∀ (k2_t8 : Fin k2_t8_loop.trips) (v846 : BitVec 32), Decidable (k2_chk84 k2_t8 v846) := fun k2_t8 v846 => decidable_of_iff' _ (Iff.of_eq (k2_chk84.eq_1 k2_t8 v846))
theorem k2_off192_inb : ∀ (k2_t8 : Fin k2_t8_loop.trips) (v846 : BitVec 32) (k2_hw84 : k2_chk84 k2_t8 v846), ∀ a, (k2_off192 k2_t8 v846) a + S1x16.size a ≤ S100x128.size a := fun k2_t8 v846 k2_hw84 => k2_hw84.1
theorem k2_off193_inb : ∀ (k2_t8 : Fin k2_t8_loop.trips) (v846 : BitVec 32) (k2_hw84 : k2_chk84 k2_t8 v846), ∀ (r : Fin 3), ∀ a, (k2_off193 k2_t8 v846 (BitVec.ofNat 32 (16 + 16 * r.val))) a + S1x16.size a ≤ S100x128.size a := fun k2_t8 v846 k2_hw84 r => k2_hw84.2 r

def k2_off194 (k2_t8 : Fin k2_t8_loop.trips) (v872 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off195 (k2_t8 : Fin k2_t8_loop.trips) (v872 : BitVec 32) (c16_i32_325 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk85 (k2_t8 : Fin k2_t8_loop.trips) (v872 : BitVec 32) : Prop :=
  (∀ a, (k2_off194 k2_t8 v872) a + S1x16.size a ≤ S100x128.size a) ∧
  (∀ (r : Fin 3), ∀ a, (k2_off195 k2_t8 v872 (BitVec.ofNat 32 (16 + 16 * r.val))) a + S1x16.size a ≤ S100x128.size a)
instance k2_chk85.dec : ∀ (k2_t8 : Fin k2_t8_loop.trips) (v872 : BitVec 32), Decidable (k2_chk85 k2_t8 v872) := fun k2_t8 v872 => decidable_of_iff' _ (Iff.of_eq (k2_chk85.eq_1 k2_t8 v872))
theorem k2_off194_inb : ∀ (k2_t8 : Fin k2_t8_loop.trips) (v872 : BitVec 32) (k2_hw85 : k2_chk85 k2_t8 v872), ∀ a, (k2_off194 k2_t8 v872) a + S1x16.size a ≤ S100x128.size a := fun k2_t8 v872 k2_hw85 => k2_hw85.1
theorem k2_off195_inb : ∀ (k2_t8 : Fin k2_t8_loop.trips) (v872 : BitVec 32) (k2_hw85 : k2_chk85 k2_t8 v872), ∀ (r : Fin 3), ∀ a, (k2_off195 k2_t8 v872 (BitVec.ofNat 32 (16 + 16 * r.val))) a + S1x16.size a ≤ S100x128.size a := fun k2_t8 v872 k2_hw85 r => k2_hw85.2 r

def k2_off196 (k2_t8 : Fin k2_t8_loop.trips) (v898 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off197 (k2_t8 : Fin k2_t8_loop.trips) (v898 : BitVec 32) (c16_i32_328 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk86 (k2_t8 : Fin k2_t8_loop.trips) (v898 : BitVec 32) : Prop :=
  (∀ a, (k2_off196 k2_t8 v898) a + S1x16.size a ≤ S100x128.size a) ∧
  (∀ (r : Fin 3), ∀ a, (k2_off197 k2_t8 v898 (BitVec.ofNat 32 (16 + 16 * r.val))) a + S1x16.size a ≤ S100x128.size a)
instance k2_chk86.dec : ∀ (k2_t8 : Fin k2_t8_loop.trips) (v898 : BitVec 32), Decidable (k2_chk86 k2_t8 v898) := fun k2_t8 v898 => decidable_of_iff' _ (Iff.of_eq (k2_chk86.eq_1 k2_t8 v898))
theorem k2_off196_inb : ∀ (k2_t8 : Fin k2_t8_loop.trips) (v898 : BitVec 32) (k2_hw86 : k2_chk86 k2_t8 v898), ∀ a, (k2_off196 k2_t8 v898) a + S1x16.size a ≤ S100x128.size a := fun k2_t8 v898 k2_hw86 => k2_hw86.1
theorem k2_off197_inb : ∀ (k2_t8 : Fin k2_t8_loop.trips) (v898 : BitVec 32) (k2_hw86 : k2_chk86 k2_t8 v898), ∀ (r : Fin 3), ∀ a, (k2_off197 k2_t8 v898 (BitVec.ofNat 32 (16 + 16 * r.val))) a + S1x16.size a ≤ S100x128.size a := fun k2_t8 v898 k2_hw86 r => k2_hw86.2 r

def k2_off198 (k2_t8 : Fin k2_t8_loop.trips) (v924 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off199 (k2_t8 : Fin k2_t8_loop.trips) (v924 : BitVec 32) (c16_i32_332 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk87 (k2_t8 : Fin k2_t8_loop.trips) (v924 : BitVec 32) : Prop :=
  (∀ a, (k2_off198 k2_t8 v924) a + S1x16.size a ≤ S100x128.size a) ∧
  (∀ (r : Fin 3), ∀ a, (k2_off199 k2_t8 v924 (BitVec.ofNat 32 (16 + 16 * r.val))) a + S1x16.size a ≤ S100x128.size a)
instance k2_chk87.dec : ∀ (k2_t8 : Fin k2_t8_loop.trips) (v924 : BitVec 32), Decidable (k2_chk87 k2_t8 v924) := fun k2_t8 v924 => decidable_of_iff' _ (Iff.of_eq (k2_chk87.eq_1 k2_t8 v924))
theorem k2_off198_inb : ∀ (k2_t8 : Fin k2_t8_loop.trips) (v924 : BitVec 32) (k2_hw87 : k2_chk87 k2_t8 v924), ∀ a, (k2_off198 k2_t8 v924) a + S1x16.size a ≤ S100x128.size a := fun k2_t8 v924 k2_hw87 => k2_hw87.1
theorem k2_off199_inb : ∀ (k2_t8 : Fin k2_t8_loop.trips) (v924 : BitVec 32) (k2_hw87 : k2_chk87 k2_t8 v924), ∀ (r : Fin 3), ∀ a, (k2_off199 k2_t8 v924 (BitVec.ofNat 32 (16 + 16 * r.val))) a + S1x16.size a ≤ S100x128.size a := fun k2_t8 v924 k2_hw87 r => k2_hw87.2 r

def k2_off200 (k2_t8 : Fin k2_t8_loop.trips) (v950 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off201 (k2_t8 : Fin k2_t8_loop.trips) (v950 : BitVec 32) (c16_i32_335 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk88 (k2_t8 : Fin k2_t8_loop.trips) (v950 : BitVec 32) : Prop :=
  (∀ a, (k2_off200 k2_t8 v950) a + S1x16.size a ≤ S100x128.size a) ∧
  (∀ (r : Fin 3), ∀ a, (k2_off201 k2_t8 v950 (BitVec.ofNat 32 (16 + 16 * r.val))) a + S1x16.size a ≤ S100x128.size a)
instance k2_chk88.dec : ∀ (k2_t8 : Fin k2_t8_loop.trips) (v950 : BitVec 32), Decidable (k2_chk88 k2_t8 v950) := fun k2_t8 v950 => decidable_of_iff' _ (Iff.of_eq (k2_chk88.eq_1 k2_t8 v950))
theorem k2_off200_inb : ∀ (k2_t8 : Fin k2_t8_loop.trips) (v950 : BitVec 32) (k2_hw88 : k2_chk88 k2_t8 v950), ∀ a, (k2_off200 k2_t8 v950) a + S1x16.size a ≤ S100x128.size a := fun k2_t8 v950 k2_hw88 => k2_hw88.1
theorem k2_off201_inb : ∀ (k2_t8 : Fin k2_t8_loop.trips) (v950 : BitVec 32) (k2_hw88 : k2_chk88 k2_t8 v950), ∀ (r : Fin 3), ∀ a, (k2_off201 k2_t8 v950 (BitVec.ofNat 32 (16 + 16 * r.val))) a + S1x16.size a ≤ S100x128.size a := fun k2_t8 v950 k2_hw88 r => k2_hw88.2 r

def k2_off202 (k2_t8 : Fin k2_t8_loop.trips) (v976 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off203 (k2_t8 : Fin k2_t8_loop.trips) (v976 : BitVec 32) (c16_i32_338 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk89 (k2_t8 : Fin k2_t8_loop.trips) (v976 : BitVec 32) : Prop :=
  (∀ a, (k2_off202 k2_t8 v976) a + S1x16.size a ≤ S100x128.size a) ∧
  (∀ (r : Fin 3), ∀ a, (k2_off203 k2_t8 v976 (BitVec.ofNat 32 (16 + 16 * r.val))) a + S1x16.size a ≤ S100x128.size a)
instance k2_chk89.dec : ∀ (k2_t8 : Fin k2_t8_loop.trips) (v976 : BitVec 32), Decidable (k2_chk89 k2_t8 v976) := fun k2_t8 v976 => decidable_of_iff' _ (Iff.of_eq (k2_chk89.eq_1 k2_t8 v976))
theorem k2_off202_inb : ∀ (k2_t8 : Fin k2_t8_loop.trips) (v976 : BitVec 32) (k2_hw89 : k2_chk89 k2_t8 v976), ∀ a, (k2_off202 k2_t8 v976) a + S1x16.size a ≤ S100x128.size a := fun k2_t8 v976 k2_hw89 => k2_hw89.1
theorem k2_off203_inb : ∀ (k2_t8 : Fin k2_t8_loop.trips) (v976 : BitVec 32) (k2_hw89 : k2_chk89 k2_t8 v976), ∀ (r : Fin 3), ∀ a, (k2_off203 k2_t8 v976 (BitVec.ofNat 32 (16 + 16 * r.val))) a + S1x16.size a ≤ S100x128.size a := fun k2_t8 v976 k2_hw89 r => k2_hw89.2 r

def k2_off204 (k2_t8 : Fin k2_t8_loop.trips) (v1002 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off205 (k2_t8 : Fin k2_t8_loop.trips) (v1002 : BitVec 32) (c16_i32_341 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk90 (k2_t8 : Fin k2_t8_loop.trips) (v1002 : BitVec 32) : Prop :=
  (∀ a, (k2_off204 k2_t8 v1002) a + S1x16.size a ≤ S100x128.size a) ∧
  (∀ (r : Fin 3), ∀ a, (k2_off205 k2_t8 v1002 (BitVec.ofNat 32 (16 + 16 * r.val))) a + S1x16.size a ≤ S100x128.size a)
instance k2_chk90.dec : ∀ (k2_t8 : Fin k2_t8_loop.trips) (v1002 : BitVec 32), Decidable (k2_chk90 k2_t8 v1002) := fun k2_t8 v1002 => decidable_of_iff' _ (Iff.of_eq (k2_chk90.eq_1 k2_t8 v1002))
theorem k2_off204_inb : ∀ (k2_t8 : Fin k2_t8_loop.trips) (v1002 : BitVec 32) (k2_hw90 : k2_chk90 k2_t8 v1002), ∀ a, (k2_off204 k2_t8 v1002) a + S1x16.size a ≤ S100x128.size a := fun k2_t8 v1002 k2_hw90 => k2_hw90.1
theorem k2_off205_inb : ∀ (k2_t8 : Fin k2_t8_loop.trips) (v1002 : BitVec 32) (k2_hw90 : k2_chk90 k2_t8 v1002), ∀ (r : Fin 3), ∀ a, (k2_off205 k2_t8 v1002 (BitVec.ofNat 32 (16 + 16 * r.val))) a + S1x16.size a ≤ S100x128.size a := fun k2_t8 v1002 k2_hw90 r => k2_hw90.2 r

def k2_off206 (k2_t8 : Fin k2_t8_loop.trips) (v1028 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off207 (k2_t8 : Fin k2_t8_loop.trips) (v1028 : BitVec 32) (c16_i32_344 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk91 (k2_t8 : Fin k2_t8_loop.trips) (v1028 : BitVec 32) : Prop :=
  (∀ a, (k2_off206 k2_t8 v1028) a + S1x16.size a ≤ S100x128.size a) ∧
  (∀ (r : Fin 3), ∀ a, (k2_off207 k2_t8 v1028 (BitVec.ofNat 32 (16 + 16 * r.val))) a + S1x16.size a ≤ S100x128.size a)
instance k2_chk91.dec : ∀ (k2_t8 : Fin k2_t8_loop.trips) (v1028 : BitVec 32), Decidable (k2_chk91 k2_t8 v1028) := fun k2_t8 v1028 => decidable_of_iff' _ (Iff.of_eq (k2_chk91.eq_1 k2_t8 v1028))
theorem k2_off206_inb : ∀ (k2_t8 : Fin k2_t8_loop.trips) (v1028 : BitVec 32) (k2_hw91 : k2_chk91 k2_t8 v1028), ∀ a, (k2_off206 k2_t8 v1028) a + S1x16.size a ≤ S100x128.size a := fun k2_t8 v1028 k2_hw91 => k2_hw91.1
theorem k2_off207_inb : ∀ (k2_t8 : Fin k2_t8_loop.trips) (v1028 : BitVec 32) (k2_hw91 : k2_chk91 k2_t8 v1028), ∀ (r : Fin 3), ∀ a, (k2_off207 k2_t8 v1028 (BitVec.ofNat 32 (16 + 16 * r.val))) a + S1x16.size a ≤ S100x128.size a := fun k2_t8 v1028 k2_hw91 r => k2_hw91.2 r

def k2_off208 (k2_t8 : Fin k2_t8_loop.trips) (v1054 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off209 (k2_t8 : Fin k2_t8_loop.trips) (v1054 : BitVec 32) (c16_i32_347 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk92 (k2_t8 : Fin k2_t8_loop.trips) (v1054 : BitVec 32) : Prop :=
  (∀ a, (k2_off208 k2_t8 v1054) a + S1x16.size a ≤ S100x128.size a) ∧
  (∀ (r : Fin 3), ∀ a, (k2_off209 k2_t8 v1054 (BitVec.ofNat 32 (16 + 16 * r.val))) a + S1x16.size a ≤ S100x128.size a)
instance k2_chk92.dec : ∀ (k2_t8 : Fin k2_t8_loop.trips) (v1054 : BitVec 32), Decidable (k2_chk92 k2_t8 v1054) := fun k2_t8 v1054 => decidable_of_iff' _ (Iff.of_eq (k2_chk92.eq_1 k2_t8 v1054))
theorem k2_off208_inb : ∀ (k2_t8 : Fin k2_t8_loop.trips) (v1054 : BitVec 32) (k2_hw92 : k2_chk92 k2_t8 v1054), ∀ a, (k2_off208 k2_t8 v1054) a + S1x16.size a ≤ S100x128.size a := fun k2_t8 v1054 k2_hw92 => k2_hw92.1
theorem k2_off209_inb : ∀ (k2_t8 : Fin k2_t8_loop.trips) (v1054 : BitVec 32) (k2_hw92 : k2_chk92 k2_t8 v1054), ∀ (r : Fin 3), ∀ a, (k2_off209 k2_t8 v1054 (BitVec.ofNat 32 (16 + 16 * r.val))) a + S1x16.size a ≤ S100x128.size a := fun k2_t8 v1054 k2_hw92 r => k2_hw92.2 r

def k2_off210 (k2_t8 : Fin k2_t8_loop.trips) (v1080 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off211 (k2_t8 : Fin k2_t8_loop.trips) (v1080 : BitVec 32) (c16_i32_350 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk93 (k2_t8 : Fin k2_t8_loop.trips) (v1080 : BitVec 32) : Prop :=
  (∀ a, (k2_off210 k2_t8 v1080) a + S1x16.size a ≤ S100x128.size a) ∧
  (∀ (r : Fin 3), ∀ a, (k2_off211 k2_t8 v1080 (BitVec.ofNat 32 (16 + 16 * r.val))) a + S1x16.size a ≤ S100x128.size a)
instance k2_chk93.dec : ∀ (k2_t8 : Fin k2_t8_loop.trips) (v1080 : BitVec 32), Decidable (k2_chk93 k2_t8 v1080) := fun k2_t8 v1080 => decidable_of_iff' _ (Iff.of_eq (k2_chk93.eq_1 k2_t8 v1080))
theorem k2_off210_inb : ∀ (k2_t8 : Fin k2_t8_loop.trips) (v1080 : BitVec 32) (k2_hw93 : k2_chk93 k2_t8 v1080), ∀ a, (k2_off210 k2_t8 v1080) a + S1x16.size a ≤ S100x128.size a := fun k2_t8 v1080 k2_hw93 => k2_hw93.1
theorem k2_off211_inb : ∀ (k2_t8 : Fin k2_t8_loop.trips) (v1080 : BitVec 32) (k2_hw93 : k2_chk93 k2_t8 v1080), ∀ (r : Fin 3), ∀ a, (k2_off211 k2_t8 v1080 (BitVec.ofNat 32 (16 + 16 * r.val))) a + S1x16.size a ≤ S100x128.size a := fun k2_t8 v1080 k2_hw93 r => k2_hw93.2 r

def k2_off212 (k2_t8 : Fin k2_t8_loop.trips) (v1106 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off213 (k2_t8 : Fin k2_t8_loop.trips) (v1106 : BitVec 32) (c16_i32_353 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk94 (k2_t8 : Fin k2_t8_loop.trips) (v1106 : BitVec 32) : Prop :=
  (∀ a, (k2_off212 k2_t8 v1106) a + S1x16.size a ≤ S100x128.size a) ∧
  (∀ (r : Fin 3), ∀ a, (k2_off213 k2_t8 v1106 (BitVec.ofNat 32 (16 + 16 * r.val))) a + S1x16.size a ≤ S100x128.size a)
instance k2_chk94.dec : ∀ (k2_t8 : Fin k2_t8_loop.trips) (v1106 : BitVec 32), Decidable (k2_chk94 k2_t8 v1106) := fun k2_t8 v1106 => decidable_of_iff' _ (Iff.of_eq (k2_chk94.eq_1 k2_t8 v1106))
theorem k2_off212_inb : ∀ (k2_t8 : Fin k2_t8_loop.trips) (v1106 : BitVec 32) (k2_hw94 : k2_chk94 k2_t8 v1106), ∀ a, (k2_off212 k2_t8 v1106) a + S1x16.size a ≤ S100x128.size a := fun k2_t8 v1106 k2_hw94 => k2_hw94.1
theorem k2_off213_inb : ∀ (k2_t8 : Fin k2_t8_loop.trips) (v1106 : BitVec 32) (k2_hw94 : k2_chk94 k2_t8 v1106), ∀ (r : Fin 3), ∀ a, (k2_off213 k2_t8 v1106 (BitVec.ofNat 32 (16 + 16 * r.val))) a + S1x16.size a ≤ S100x128.size a := fun k2_t8 v1106 k2_hw94 r => k2_hw94.2 r

def k2_off214 (k2_t8 : Fin k2_t8_loop.trips) (v1132 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off215 (k2_t8 : Fin k2_t8_loop.trips) (v1132 : BitVec 32) (c16_i32_357 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk95 (k2_t8 : Fin k2_t8_loop.trips) (v1132 : BitVec 32) : Prop :=
  (∀ a, (k2_off214 k2_t8 v1132) a + S1x16.size a ≤ S100x128.size a) ∧
  (∀ (r : Fin 3), ∀ a, (k2_off215 k2_t8 v1132 (BitVec.ofNat 32 (16 + 16 * r.val))) a + S1x16.size a ≤ S100x128.size a)
instance k2_chk95.dec : ∀ (k2_t8 : Fin k2_t8_loop.trips) (v1132 : BitVec 32), Decidable (k2_chk95 k2_t8 v1132) := fun k2_t8 v1132 => decidable_of_iff' _ (Iff.of_eq (k2_chk95.eq_1 k2_t8 v1132))
theorem k2_off214_inb : ∀ (k2_t8 : Fin k2_t8_loop.trips) (v1132 : BitVec 32) (k2_hw95 : k2_chk95 k2_t8 v1132), ∀ a, (k2_off214 k2_t8 v1132) a + S1x16.size a ≤ S100x128.size a := fun k2_t8 v1132 k2_hw95 => k2_hw95.1
theorem k2_off215_inb : ∀ (k2_t8 : Fin k2_t8_loop.trips) (v1132 : BitVec 32) (k2_hw95 : k2_chk95 k2_t8 v1132), ∀ (r : Fin 3), ∀ a, (k2_off215 k2_t8 v1132 (BitVec.ofNat 32 (16 + 16 * r.val))) a + S1x16.size a ≤ S100x128.size a := fun k2_t8 v1132 k2_hw95 r => k2_hw95.2 r

def k2_off216 (k2_t8 : Fin k2_t8_loop.trips) (v1158 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off217 (k2_t8 : Fin k2_t8_loop.trips) (v1158 : BitVec 32) (c16_i32_360 : BitVec 32) : Fin 2 → Nat :=
  let c0_i32_38 : BitVec 32 := 0#32
  let c1_i32_39 : BitVec 32 := 1#32
  let arg17 : BitVec 32 := Scf.iv c0_i32_38 c1_i32_39 k2_t8
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk96 (k2_t8 : Fin k2_t8_loop.trips) (v1158 : BitVec 32) : Prop :=
  (∀ a, (k2_off216 k2_t8 v1158) a + S1x16.size a ≤ S100x128.size a) ∧
  (∀ (r : Fin 3), ∀ a, (k2_off217 k2_t8 v1158 (BitVec.ofNat 32 (16 + 16 * r.val))) a + S1x16.size a ≤ S100x128.size a)
instance k2_chk96.dec : ∀ (k2_t8 : Fin k2_t8_loop.trips) (v1158 : BitVec 32), Decidable (k2_chk96 k2_t8 v1158) := fun k2_t8 v1158 => decidable_of_iff' _ (Iff.of_eq (k2_chk96.eq_1 k2_t8 v1158))
theorem k2_off216_inb : ∀ (k2_t8 : Fin k2_t8_loop.trips) (v1158 : BitVec 32) (k2_hw96 : k2_chk96 k2_t8 v1158), ∀ a, (k2_off216 k2_t8 v1158) a + S1x16.size a ≤ S100x128.size a := fun k2_t8 v1158 k2_hw96 => k2_hw96.1
theorem k2_off217_inb : ∀ (k2_t8 : Fin k2_t8_loop.trips) (v1158 : BitVec 32) (k2_hw96 : k2_chk96 k2_t8 v1158), ∀ (r : Fin 3), ∀ a, (k2_off217 k2_t8 v1158 (BitVec.ofNat 32 (16 + 16 * r.val))) a + S1x16.size a ≤ S100x128.size a := fun k2_t8 v1158 k2_hw96 r => k2_hw96.2 r

def k2_off218 (k2_t7 : Fin k2_t7_loop.trips) : Fin 2 → Nat :=
  let c4_i32 : BitVec 32 := 4#32
  let c32_i32_18 : BitVec 32 := 32#32
  let c1_i32_20 : BitVec 32 := 1#32
  let arg16 : BitVec 32 := Scf.iv c32_i32_18 c1_i32_20 k2_t7
  let v24 : BitVec 32 := Scalar.muli c4_i32 arg16
  let c0_i32_34 : BitVec 32 := 0#32
  let v25 : BitVec 32 := Scalar.addi v24 c0_i32_34
  let c0_i32_42 : BitVec 32 := 0#32
  let v31 : BitVec 1 := Scalar.cmpi .sgt v25 c0_i32_42
  let v32 : BitVec 32 := Scalar.extui v31
  let c0_i32_43 : BitVec 32 := 0#32
  let v33 : BitVec 1 := Scalar.cmpi .slt v25 c0_i32_43
  let v34 : BitVec 32 := Scalar.extui v33
  let v35 : BitVec 32 := Scalar.subi v32 v34
  let c2_i32_41 : BitVec 32 := 2#32
  let c0_i32_44 : BitVec 32 := 0#32
  let v36 : BitVec 1 := Scalar.cmpi .sgt c2_i32_41 c0_i32_44
  let v37 : BitVec 32 := Scalar.extui v36
  let c0_i32_45 : BitVec 32 := 0#32
  let v38 : BitVec 1 := Scalar.cmpi .slt c2_i32_41 c0_i32_45
  let v39 : BitVec 32 := Scalar.extui v38
  let v40 : BitVec 32 := Scalar.subi v37 v39
  let v41 : BitVec 1 := Scalar.cmpi .ne v35 v40
  let v42 : BitVec 32 := Scalar.remsi v25 c2_i32_41
  let c0_i32_46 : BitVec 32 := 0#32
  let v43 : BitVec 1 := Scalar.cmpi .ne v42 c0_i32_46
  let v44 : BitVec 1 := Scalar.andi v41 v43
  let v30 : BitVec 32 := Scalar.divsi v25 c2_i32_41
  let c1_i32_47 : BitVec 32 := 1#32
  let v45 : BitVec 32 := Scalar.subi v30 c1_i32_47
  let v46 : BitVec 32 := Scalar.select v44 v45 v30
  let v59 : Index := Scalar.indexCast v46
  let c2_i32_48 : BitVec 32 := 2#32
  let c0_i32_49 : BitVec 32 := 0#32
  let v47 : BitVec 1 := Scalar.cmpi .eq c2_i32_48 c0_i32_49
  let c1_i32_50 : BitVec 32 := 1#32
  let v48 : BitVec 32 := Scalar.select v47 c1_i32_50 c2_i32_48
  let v49 : BitVec 32 := Scalar.remsi v25 v48
  let c0_i32_52 : BitVec 32 := 0#32
  let v51 : BitVec 1 := Scalar.cmpi .slt v49 c0_i32_52
  let c0_i32_53 : BitVec 32 := 0#32
  let v52 : BitVec 1 := Scalar.cmpi .slt v48 c0_i32_53
  let v53 : BitVec 1 := Scalar.xori v51 v52
  let c0_i32_51 : BitVec 32 := 0#32
  let v50 : BitVec 1 := Scalar.cmpi .ne v49 c0_i32_51
  let v54 : BitVec 1 := Scalar.andi v53 v50
  let v55 : BitVec 32 := Scalar.addi v49 v48
  let v56 : BitVec 32 := Scalar.select v54 v55 v49
  let c112_i32_54 : BitVec 32 := 112#32
  let v57 : BitVec 32 := Scalar.muli v56 c112_i32_54
  let c96_i32 : BitVec 32 := 96#32
  let v58 : BitVec 32 := Scalar.addi v57 c96_i32
  let v60 : Index := Scalar.indexCast v58
  ![v59.toNat, v60.toNat]
def k2_off219 (v70 : BitVec 32) : Fin 2 → Nat :=
  let c96_i32_57 : BitVec 32 := 96#32
  let v71 : Index := Scalar.indexCast c96_i32_57
  let v72 : Index := Scalar.indexCast v70
  ![96, v72.toNat]

def k2_off220 (v70 : BitVec 32) (c16_i32 : BitVec 32) : Fin 2 → Nat :=
  let c96_i32_58 : BitVec 32 := 96#32
  let v77 : Index := Scalar.indexCast c96_i32_58
  let v76 : BitVec 32 := Scalar.addi v70 c16_i32
  let v78 : Index := Scalar.indexCast v76
  ![96, v78.toNat]

def k2_chk97 (v70 : BitVec 32) : Prop :=
  (∀ a, (k2_off219 v70) a + S1x16.size a ≤ S100x128.size a) ∧
  (∀ (r : Fin 3), ∀ a, (k2_off220 v70 (BitVec.ofNat 32 (16 + 16 * r.val))) a + S1x16.size a ≤ S100x128.size a)
instance k2_chk97.dec : ∀ (v70 : BitVec 32), Decidable (k2_chk97 v70) := fun v70 => decidable_of_iff' _ (Iff.of_eq (k2_chk97.eq_1 v70))
theorem k2_off219_inb : ∀ (v70 : BitVec 32) (k2_hw97 : k2_chk97 v70), ∀ a, (k2_off219 v70) a + S1x16.size a ≤ S100x128.size a := fun v70 k2_hw97 => k2_hw97.1
theorem k2_off220_inb : ∀ (v70 : BitVec 32) (k2_hw97 : k2_chk97 v70), ∀ (r : Fin 3), ∀ a, (k2_off220 v70 (BitVec.ofNat 32 (16 + 16 * r.val))) a + S1x16.size a ≤ S100x128.size a := fun v70 k2_hw97 r => k2_hw97.2 r

def k2_off221 (v95 : BitVec 32) : Fin 2 → Nat :=
  let c97_i32 : BitVec 32 := 97#32
  let v96 : Index := Scalar.indexCast c97_i32
  let v97 : Index := Scalar.indexCast v95
  ![97, v97.toNat]

def k2_off222 (v95 : BitVec 32) (c16_i32_62 : BitVec 32) : Fin 2 → Nat :=
  let c97_i32_63 : BitVec 32 := 97#32
  let v102 : Index := Scalar.indexCast c97_i32_63
  let v101 : BitVec 32 := Scalar.addi v95 c16_i32_62
  let v103 : Index := Scalar.indexCast v101
  ![97, v103.toNat]

def k2_chk98 (v95 : BitVec 32) : Prop :=
  (∀ a, (k2_off221 v95) a + S1x16.size a ≤ S100x128.size a) ∧
  (∀ (r : Fin 3), ∀ a, (k2_off222 v95 (BitVec.ofNat 32 (16 + 16 * r.val))) a + S1x16.size a ≤ S100x128.size a)
instance k2_chk98.dec : ∀ (v95 : BitVec 32), Decidable (k2_chk98 v95) := fun v95 => decidable_of_iff' _ (Iff.of_eq (k2_chk98.eq_1 v95))
theorem k2_off221_inb : ∀ (v95 : BitVec 32) (k2_hw98 : k2_chk98 v95), ∀ a, (k2_off221 v95) a + S1x16.size a ≤ S100x128.size a := fun v95 k2_hw98 => k2_hw98.1
theorem k2_off222_inb : ∀ (v95 : BitVec 32) (k2_hw98 : k2_chk98 v95), ∀ (r : Fin 3), ∀ a, (k2_off222 v95 (BitVec.ofNat 32 (16 + 16 * r.val))) a + S1x16.size a ≤ S100x128.size a := fun v95 k2_hw98 r => k2_hw98.2 r

def k2_off223 (v120 : BitVec 32) : Fin 2 → Nat :=
  let c98_i32 : BitVec 32 := 98#32
  let v121 : Index := Scalar.indexCast c98_i32
  let v122 : Index := Scalar.indexCast v120
  ![98, v122.toNat]

def k2_off224 (v120 : BitVec 32) (c16_i32_68 : BitVec 32) : Fin 2 → Nat :=
  let c98_i32_69 : BitVec 32 := 98#32
  let v127 : Index := Scalar.indexCast c98_i32_69
  let v126 : BitVec 32 := Scalar.addi v120 c16_i32_68
  let v128 : Index := Scalar.indexCast v126
  ![98, v128.toNat]

def k2_chk99 (v120 : BitVec 32) : Prop :=
  (∀ a, (k2_off223 v120) a + S1x16.size a ≤ S100x128.size a) ∧
  (∀ (r : Fin 3), ∀ a, (k2_off224 v120 (BitVec.ofNat 32 (16 + 16 * r.val))) a + S1x16.size a ≤ S100x128.size a)
instance k2_chk99.dec : ∀ (v120 : BitVec 32), Decidable (k2_chk99 v120) := fun v120 => decidable_of_iff' _ (Iff.of_eq (k2_chk99.eq_1 v120))
theorem k2_off223_inb : ∀ (v120 : BitVec 32) (k2_hw99 : k2_chk99 v120), ∀ a, (k2_off223 v120) a + S1x16.size a ≤ S100x128.size a := fun v120 k2_hw99 => k2_hw99.1
theorem k2_off224_inb : ∀ (v120 : BitVec 32) (k2_hw99 : k2_chk99 v120), ∀ (r : Fin 3), ∀ a, (k2_off224 v120 (BitVec.ofNat 32 (16 + 16 * r.val))) a + S1x16.size a ≤ S100x128.size a := fun v120 k2_hw99 r => k2_hw99.2 r

def k2_off225 (v145 : BitVec 32) : Fin 2 → Nat :=
  let c99_i32 : BitVec 32 := 99#32
  let v146 : Index := Scalar.indexCast c99_i32
  let v147 : Index := Scalar.indexCast v145
  ![99, v147.toNat]

def k2_off226 (v145 : BitVec 32) (c16_i32_74 : BitVec 32) : Fin 2 → Nat :=
  let c99_i32_75 : BitVec 32 := 99#32
  let v152 : Index := Scalar.indexCast c99_i32_75
  let v151 : BitVec 32 := Scalar.addi v145 c16_i32_74
  let v153 : Index := Scalar.indexCast v151
  ![99, v153.toNat]

def k2_chk100 (v145 : BitVec 32) : Prop :=
  (∀ a, (k2_off225 v145) a + S1x16.size a ≤ S100x128.size a) ∧
  (∀ (r : Fin 3), ∀ a, (k2_off226 v145 (BitVec.ofNat 32 (16 + 16 * r.val))) a + S1x16.size a ≤ S100x128.size a)
instance k2_chk100.dec : ∀ (v145 : BitVec 32), Decidable (k2_chk100 v145) := fun v145 => decidable_of_iff' _ (Iff.of_eq (k2_chk100.eq_1 v145))
theorem k2_off225_inb : ∀ (v145 : BitVec 32) (k2_hw100 : k2_chk100 v145), ∀ a, (k2_off225 v145) a + S1x16.size a ≤ S100x128.size a := fun v145 k2_hw100 => k2_hw100.1
theorem k2_off226_inb : ∀ (v145 : BitVec 32) (k2_hw100 : k2_chk100 v145), ∀ (r : Fin 3), ∀ a, (k2_off226 v145 (BitVec.ofNat 32 (16 + 16 * r.val))) a + S1x16.size a ≤ S100x128.size a := fun v145 k2_hw100 r => k2_hw100.2 r

def k2_off227 (k2_t7 : Fin k2_t7_loop.trips) : Fin 1 → Nat :=
  let c4_i32 : BitVec 32 := 4#32
  let c32_i32_18 : BitVec 32 := 32#32
  let c1_i32_20 : BitVec 32 := 1#32
  let arg16 : BitVec 32 := Scf.iv c32_i32_18 c1_i32_20 k2_t7
  let v24 : BitVec 32 := Scalar.muli c4_i32 arg16
  let c0_i32_34 : BitVec 32 := 0#32
  let v25 : BitVec 32 := Scalar.addi v24 c0_i32_34
  let c4_i32_80 : BitVec 32 := 4#32
  let v169 : BitVec 32 := Scalar.addi v25 c4_i32_80
  let c252_i32 : BitVec 32 := 252#32
  let v170 : BitVec 32 := Scalar.minsi v169 c252_i32
  let c112_i32_81 : BitVec 32 := 112#32
  let v171 : BitVec 32 := Scalar.muli v170 c112_i32_81
  ![v171.toNat]
@[reducible] def k2_t9_loop : Scf.Loop 32 :=
  let c0_i32_89 : BitVec 32 := 0#32
  let c6_i32_90 : BitVec 32 := 6#32
  let v178 : BitVec 32 := Scalar.addi c0_i32_89 c6_i32_90
  let c1_i32_91 : BitVec 32 := 1#32
  ⟨c0_i32_89, v178, c1_i32_91⟩
def k2_off228 (k2_t7 : Fin k2_t7_loop.trips) (k2_t9 : Fin k2_t9_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_292 : BitVec 32 := 0#32
  let v728 : BitVec 1 := Scalar.cmpi .sgt v175 c0_i32_292
  let v729 : BitVec 32 := Scalar.extui v728
  let c0_i32_293 : BitVec 32 := 0#32
  let v730 : BitVec 1 := Scalar.cmpi .slt v175 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v175 c2_i32_291
  let c0_i32_296 : BitVec 32 := 0#32
  let v740 : BitVec 1 := Scalar.cmpi .ne v739 c0_i32_296
  let v741 : BitVec 1 := Scalar.andi v738 v740
  let v727 : BitVec 32 := Scalar.divsi v175 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v175 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off229 (k2_t9 : Fin k2_t9_loop.trips) (v768 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off230 (k2_t9 : Fin k2_t9_loop.trips) (v768 : BitVec 32) (c16_i32_309 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk101 (k2_t9 : Fin k2_t9_loop.trips) (v768 : BitVec 32) : Prop :=
  (∀ a, (k2_off229 k2_t9 v768) a + S1x16.size a ≤ S100x128.size a) ∧
  (∀ (r : Fin 3), ∀ a, (k2_off230 k2_t9 v768 (BitVec.ofNat 32 (16 + 16 * r.val))) a + S1x16.size a ≤ S100x128.size a)
instance k2_chk101.dec : ∀ (k2_t9 : Fin k2_t9_loop.trips) (v768 : BitVec 32), Decidable (k2_chk101 k2_t9 v768) := fun k2_t9 v768 => decidable_of_iff' _ (Iff.of_eq (k2_chk101.eq_1 k2_t9 v768))
theorem k2_off229_inb : ∀ (k2_t9 : Fin k2_t9_loop.trips) (v768 : BitVec 32) (k2_hw101 : k2_chk101 k2_t9 v768), ∀ a, (k2_off229 k2_t9 v768) a + S1x16.size a ≤ S100x128.size a := fun k2_t9 v768 k2_hw101 => k2_hw101.1
theorem k2_off230_inb : ∀ (k2_t9 : Fin k2_t9_loop.trips) (v768 : BitVec 32) (k2_hw101 : k2_chk101 k2_t9 v768), ∀ (r : Fin 3), ∀ a, (k2_off230 k2_t9 v768 (BitVec.ofNat 32 (16 + 16 * r.val))) a + S1x16.size a ≤ S100x128.size a := fun k2_t9 v768 k2_hw101 r => k2_hw101.2 r

def k2_off231 (k2_t9 : Fin k2_t9_loop.trips) (v794 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off232 (k2_t9 : Fin k2_t9_loop.trips) (v794 : BitVec 32) (c16_i32_313 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk102 (k2_t9 : Fin k2_t9_loop.trips) (v794 : BitVec 32) : Prop :=
  (∀ a, (k2_off231 k2_t9 v794) a + S1x16.size a ≤ S100x128.size a) ∧
  (∀ (r : Fin 3), ∀ a, (k2_off232 k2_t9 v794 (BitVec.ofNat 32 (16 + 16 * r.val))) a + S1x16.size a ≤ S100x128.size a)
instance k2_chk102.dec : ∀ (k2_t9 : Fin k2_t9_loop.trips) (v794 : BitVec 32), Decidable (k2_chk102 k2_t9 v794) := fun k2_t9 v794 => decidable_of_iff' _ (Iff.of_eq (k2_chk102.eq_1 k2_t9 v794))
theorem k2_off231_inb : ∀ (k2_t9 : Fin k2_t9_loop.trips) (v794 : BitVec 32) (k2_hw102 : k2_chk102 k2_t9 v794), ∀ a, (k2_off231 k2_t9 v794) a + S1x16.size a ≤ S100x128.size a := fun k2_t9 v794 k2_hw102 => k2_hw102.1
theorem k2_off232_inb : ∀ (k2_t9 : Fin k2_t9_loop.trips) (v794 : BitVec 32) (k2_hw102 : k2_chk102 k2_t9 v794), ∀ (r : Fin 3), ∀ a, (k2_off232 k2_t9 v794 (BitVec.ofNat 32 (16 + 16 * r.val))) a + S1x16.size a ≤ S100x128.size a := fun k2_t9 v794 k2_hw102 r => k2_hw102.2 r

def k2_off233 (k2_t9 : Fin k2_t9_loop.trips) (v820 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off234 (k2_t9 : Fin k2_t9_loop.trips) (v820 : BitVec 32) (c16_i32_317 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk103 (k2_t9 : Fin k2_t9_loop.trips) (v820 : BitVec 32) : Prop :=
  (∀ a, (k2_off233 k2_t9 v820) a + S1x16.size a ≤ S100x128.size a) ∧
  (∀ (r : Fin 3), ∀ a, (k2_off234 k2_t9 v820 (BitVec.ofNat 32 (16 + 16 * r.val))) a + S1x16.size a ≤ S100x128.size a)
instance k2_chk103.dec : ∀ (k2_t9 : Fin k2_t9_loop.trips) (v820 : BitVec 32), Decidable (k2_chk103 k2_t9 v820) := fun k2_t9 v820 => decidable_of_iff' _ (Iff.of_eq (k2_chk103.eq_1 k2_t9 v820))
theorem k2_off233_inb : ∀ (k2_t9 : Fin k2_t9_loop.trips) (v820 : BitVec 32) (k2_hw103 : k2_chk103 k2_t9 v820), ∀ a, (k2_off233 k2_t9 v820) a + S1x16.size a ≤ S100x128.size a := fun k2_t9 v820 k2_hw103 => k2_hw103.1
theorem k2_off234_inb : ∀ (k2_t9 : Fin k2_t9_loop.trips) (v820 : BitVec 32) (k2_hw103 : k2_chk103 k2_t9 v820), ∀ (r : Fin 3), ∀ a, (k2_off234 k2_t9 v820 (BitVec.ofNat 32 (16 + 16 * r.val))) a + S1x16.size a ≤ S100x128.size a := fun k2_t9 v820 k2_hw103 r => k2_hw103.2 r

def k2_off235 (k2_t9 : Fin k2_t9_loop.trips) (v846 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off236 (k2_t9 : Fin k2_t9_loop.trips) (v846 : BitVec 32) (c16_i32_321 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk104 (k2_t9 : Fin k2_t9_loop.trips) (v846 : BitVec 32) : Prop :=
  (∀ a, (k2_off235 k2_t9 v846) a + S1x16.size a ≤ S100x128.size a) ∧
  (∀ (r : Fin 3), ∀ a, (k2_off236 k2_t9 v846 (BitVec.ofNat 32 (16 + 16 * r.val))) a + S1x16.size a ≤ S100x128.size a)
instance k2_chk104.dec : ∀ (k2_t9 : Fin k2_t9_loop.trips) (v846 : BitVec 32), Decidable (k2_chk104 k2_t9 v846) := fun k2_t9 v846 => decidable_of_iff' _ (Iff.of_eq (k2_chk104.eq_1 k2_t9 v846))
theorem k2_off235_inb : ∀ (k2_t9 : Fin k2_t9_loop.trips) (v846 : BitVec 32) (k2_hw104 : k2_chk104 k2_t9 v846), ∀ a, (k2_off235 k2_t9 v846) a + S1x16.size a ≤ S100x128.size a := fun k2_t9 v846 k2_hw104 => k2_hw104.1
theorem k2_off236_inb : ∀ (k2_t9 : Fin k2_t9_loop.trips) (v846 : BitVec 32) (k2_hw104 : k2_chk104 k2_t9 v846), ∀ (r : Fin 3), ∀ a, (k2_off236 k2_t9 v846 (BitVec.ofNat 32 (16 + 16 * r.val))) a + S1x16.size a ≤ S100x128.size a := fun k2_t9 v846 k2_hw104 r => k2_hw104.2 r

def k2_off237 (k2_t9 : Fin k2_t9_loop.trips) (v872 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off238 (k2_t9 : Fin k2_t9_loop.trips) (v872 : BitVec 32) (c16_i32_325 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk105 (k2_t9 : Fin k2_t9_loop.trips) (v872 : BitVec 32) : Prop :=
  (∀ a, (k2_off237 k2_t9 v872) a + S1x16.size a ≤ S100x128.size a) ∧
  (∀ (r : Fin 3), ∀ a, (k2_off238 k2_t9 v872 (BitVec.ofNat 32 (16 + 16 * r.val))) a + S1x16.size a ≤ S100x128.size a)
instance k2_chk105.dec : ∀ (k2_t9 : Fin k2_t9_loop.trips) (v872 : BitVec 32), Decidable (k2_chk105 k2_t9 v872) := fun k2_t9 v872 => decidable_of_iff' _ (Iff.of_eq (k2_chk105.eq_1 k2_t9 v872))
theorem k2_off237_inb : ∀ (k2_t9 : Fin k2_t9_loop.trips) (v872 : BitVec 32) (k2_hw105 : k2_chk105 k2_t9 v872), ∀ a, (k2_off237 k2_t9 v872) a + S1x16.size a ≤ S100x128.size a := fun k2_t9 v872 k2_hw105 => k2_hw105.1
theorem k2_off238_inb : ∀ (k2_t9 : Fin k2_t9_loop.trips) (v872 : BitVec 32) (k2_hw105 : k2_chk105 k2_t9 v872), ∀ (r : Fin 3), ∀ a, (k2_off238 k2_t9 v872 (BitVec.ofNat 32 (16 + 16 * r.val))) a + S1x16.size a ≤ S100x128.size a := fun k2_t9 v872 k2_hw105 r => k2_hw105.2 r

def k2_off239 (k2_t9 : Fin k2_t9_loop.trips) (v898 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off240 (k2_t9 : Fin k2_t9_loop.trips) (v898 : BitVec 32) (c16_i32_328 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk106 (k2_t9 : Fin k2_t9_loop.trips) (v898 : BitVec 32) : Prop :=
  (∀ a, (k2_off239 k2_t9 v898) a + S1x16.size a ≤ S100x128.size a) ∧
  (∀ (r : Fin 3), ∀ a, (k2_off240 k2_t9 v898 (BitVec.ofNat 32 (16 + 16 * r.val))) a + S1x16.size a ≤ S100x128.size a)
instance k2_chk106.dec : ∀ (k2_t9 : Fin k2_t9_loop.trips) (v898 : BitVec 32), Decidable (k2_chk106 k2_t9 v898) := fun k2_t9 v898 => decidable_of_iff' _ (Iff.of_eq (k2_chk106.eq_1 k2_t9 v898))
theorem k2_off239_inb : ∀ (k2_t9 : Fin k2_t9_loop.trips) (v898 : BitVec 32) (k2_hw106 : k2_chk106 k2_t9 v898), ∀ a, (k2_off239 k2_t9 v898) a + S1x16.size a ≤ S100x128.size a := fun k2_t9 v898 k2_hw106 => k2_hw106.1
theorem k2_off240_inb : ∀ (k2_t9 : Fin k2_t9_loop.trips) (v898 : BitVec 32) (k2_hw106 : k2_chk106 k2_t9 v898), ∀ (r : Fin 3), ∀ a, (k2_off240 k2_t9 v898 (BitVec.ofNat 32 (16 + 16 * r.val))) a + S1x16.size a ≤ S100x128.size a := fun k2_t9 v898 k2_hw106 r => k2_hw106.2 r

def k2_off241 (k2_t9 : Fin k2_t9_loop.trips) (v924 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off242 (k2_t9 : Fin k2_t9_loop.trips) (v924 : BitVec 32) (c16_i32_332 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk107 (k2_t9 : Fin k2_t9_loop.trips) (v924 : BitVec 32) : Prop :=
  (∀ a, (k2_off241 k2_t9 v924) a + S1x16.size a ≤ S100x128.size a) ∧
  (∀ (r : Fin 3), ∀ a, (k2_off242 k2_t9 v924 (BitVec.ofNat 32 (16 + 16 * r.val))) a + S1x16.size a ≤ S100x128.size a)
instance k2_chk107.dec : ∀ (k2_t9 : Fin k2_t9_loop.trips) (v924 : BitVec 32), Decidable (k2_chk107 k2_t9 v924) := fun k2_t9 v924 => decidable_of_iff' _ (Iff.of_eq (k2_chk107.eq_1 k2_t9 v924))
theorem k2_off241_inb : ∀ (k2_t9 : Fin k2_t9_loop.trips) (v924 : BitVec 32) (k2_hw107 : k2_chk107 k2_t9 v924), ∀ a, (k2_off241 k2_t9 v924) a + S1x16.size a ≤ S100x128.size a := fun k2_t9 v924 k2_hw107 => k2_hw107.1
theorem k2_off242_inb : ∀ (k2_t9 : Fin k2_t9_loop.trips) (v924 : BitVec 32) (k2_hw107 : k2_chk107 k2_t9 v924), ∀ (r : Fin 3), ∀ a, (k2_off242 k2_t9 v924 (BitVec.ofNat 32 (16 + 16 * r.val))) a + S1x16.size a ≤ S100x128.size a := fun k2_t9 v924 k2_hw107 r => k2_hw107.2 r

def k2_off243 (k2_t9 : Fin k2_t9_loop.trips) (v950 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off244 (k2_t9 : Fin k2_t9_loop.trips) (v950 : BitVec 32) (c16_i32_335 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk108 (k2_t9 : Fin k2_t9_loop.trips) (v950 : BitVec 32) : Prop :=
  (∀ a, (k2_off243 k2_t9 v950) a + S1x16.size a ≤ S100x128.size a) ∧
  (∀ (r : Fin 3), ∀ a, (k2_off244 k2_t9 v950 (BitVec.ofNat 32 (16 + 16 * r.val))) a + S1x16.size a ≤ S100x128.size a)
instance k2_chk108.dec : ∀ (k2_t9 : Fin k2_t9_loop.trips) (v950 : BitVec 32), Decidable (k2_chk108 k2_t9 v950) := fun k2_t9 v950 => decidable_of_iff' _ (Iff.of_eq (k2_chk108.eq_1 k2_t9 v950))
theorem k2_off243_inb : ∀ (k2_t9 : Fin k2_t9_loop.trips) (v950 : BitVec 32) (k2_hw108 : k2_chk108 k2_t9 v950), ∀ a, (k2_off243 k2_t9 v950) a + S1x16.size a ≤ S100x128.size a := fun k2_t9 v950 k2_hw108 => k2_hw108.1
theorem k2_off244_inb : ∀ (k2_t9 : Fin k2_t9_loop.trips) (v950 : BitVec 32) (k2_hw108 : k2_chk108 k2_t9 v950), ∀ (r : Fin 3), ∀ a, (k2_off244 k2_t9 v950 (BitVec.ofNat 32 (16 + 16 * r.val))) a + S1x16.size a ≤ S100x128.size a := fun k2_t9 v950 k2_hw108 r => k2_hw108.2 r

def k2_off245 (k2_t9 : Fin k2_t9_loop.trips) (v976 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off246 (k2_t9 : Fin k2_t9_loop.trips) (v976 : BitVec 32) (c16_i32_338 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk109 (k2_t9 : Fin k2_t9_loop.trips) (v976 : BitVec 32) : Prop :=
  (∀ a, (k2_off245 k2_t9 v976) a + S1x16.size a ≤ S100x128.size a) ∧
  (∀ (r : Fin 3), ∀ a, (k2_off246 k2_t9 v976 (BitVec.ofNat 32 (16 + 16 * r.val))) a + S1x16.size a ≤ S100x128.size a)
instance k2_chk109.dec : ∀ (k2_t9 : Fin k2_t9_loop.trips) (v976 : BitVec 32), Decidable (k2_chk109 k2_t9 v976) := fun k2_t9 v976 => decidable_of_iff' _ (Iff.of_eq (k2_chk109.eq_1 k2_t9 v976))
theorem k2_off245_inb : ∀ (k2_t9 : Fin k2_t9_loop.trips) (v976 : BitVec 32) (k2_hw109 : k2_chk109 k2_t9 v976), ∀ a, (k2_off245 k2_t9 v976) a + S1x16.size a ≤ S100x128.size a := fun k2_t9 v976 k2_hw109 => k2_hw109.1
theorem k2_off246_inb : ∀ (k2_t9 : Fin k2_t9_loop.trips) (v976 : BitVec 32) (k2_hw109 : k2_chk109 k2_t9 v976), ∀ (r : Fin 3), ∀ a, (k2_off246 k2_t9 v976 (BitVec.ofNat 32 (16 + 16 * r.val))) a + S1x16.size a ≤ S100x128.size a := fun k2_t9 v976 k2_hw109 r => k2_hw109.2 r

def k2_off247 (k2_t9 : Fin k2_t9_loop.trips) (v1002 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off248 (k2_t9 : Fin k2_t9_loop.trips) (v1002 : BitVec 32) (c16_i32_341 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk110 (k2_t9 : Fin k2_t9_loop.trips) (v1002 : BitVec 32) : Prop :=
  (∀ a, (k2_off247 k2_t9 v1002) a + S1x16.size a ≤ S100x128.size a) ∧
  (∀ (r : Fin 3), ∀ a, (k2_off248 k2_t9 v1002 (BitVec.ofNat 32 (16 + 16 * r.val))) a + S1x16.size a ≤ S100x128.size a)
instance k2_chk110.dec : ∀ (k2_t9 : Fin k2_t9_loop.trips) (v1002 : BitVec 32), Decidable (k2_chk110 k2_t9 v1002) := fun k2_t9 v1002 => decidable_of_iff' _ (Iff.of_eq (k2_chk110.eq_1 k2_t9 v1002))
theorem k2_off247_inb : ∀ (k2_t9 : Fin k2_t9_loop.trips) (v1002 : BitVec 32) (k2_hw110 : k2_chk110 k2_t9 v1002), ∀ a, (k2_off247 k2_t9 v1002) a + S1x16.size a ≤ S100x128.size a := fun k2_t9 v1002 k2_hw110 => k2_hw110.1
theorem k2_off248_inb : ∀ (k2_t9 : Fin k2_t9_loop.trips) (v1002 : BitVec 32) (k2_hw110 : k2_chk110 k2_t9 v1002), ∀ (r : Fin 3), ∀ a, (k2_off248 k2_t9 v1002 (BitVec.ofNat 32 (16 + 16 * r.val))) a + S1x16.size a ≤ S100x128.size a := fun k2_t9 v1002 k2_hw110 r => k2_hw110.2 r

def k2_off249 (k2_t9 : Fin k2_t9_loop.trips) (v1028 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off250 (k2_t9 : Fin k2_t9_loop.trips) (v1028 : BitVec 32) (c16_i32_344 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk111 (k2_t9 : Fin k2_t9_loop.trips) (v1028 : BitVec 32) : Prop :=
  (∀ a, (k2_off249 k2_t9 v1028) a + S1x16.size a ≤ S100x128.size a) ∧
  (∀ (r : Fin 3), ∀ a, (k2_off250 k2_t9 v1028 (BitVec.ofNat 32 (16 + 16 * r.val))) a + S1x16.size a ≤ S100x128.size a)
instance k2_chk111.dec : ∀ (k2_t9 : Fin k2_t9_loop.trips) (v1028 : BitVec 32), Decidable (k2_chk111 k2_t9 v1028) := fun k2_t9 v1028 => decidable_of_iff' _ (Iff.of_eq (k2_chk111.eq_1 k2_t9 v1028))
theorem k2_off249_inb : ∀ (k2_t9 : Fin k2_t9_loop.trips) (v1028 : BitVec 32) (k2_hw111 : k2_chk111 k2_t9 v1028), ∀ a, (k2_off249 k2_t9 v1028) a + S1x16.size a ≤ S100x128.size a := fun k2_t9 v1028 k2_hw111 => k2_hw111.1
theorem k2_off250_inb : ∀ (k2_t9 : Fin k2_t9_loop.trips) (v1028 : BitVec 32) (k2_hw111 : k2_chk111 k2_t9 v1028), ∀ (r : Fin 3), ∀ a, (k2_off250 k2_t9 v1028 (BitVec.ofNat 32 (16 + 16 * r.val))) a + S1x16.size a ≤ S100x128.size a := fun k2_t9 v1028 k2_hw111 r => k2_hw111.2 r

def k2_off251 (k2_t9 : Fin k2_t9_loop.trips) (v1054 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off252 (k2_t9 : Fin k2_t9_loop.trips) (v1054 : BitVec 32) (c16_i32_347 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk112 (k2_t9 : Fin k2_t9_loop.trips) (v1054 : BitVec 32) : Prop :=
  (∀ a, (k2_off251 k2_t9 v1054) a + S1x16.size a ≤ S100x128.size a) ∧
  (∀ (r : Fin 3), ∀ a, (k2_off252 k2_t9 v1054 (BitVec.ofNat 32 (16 + 16 * r.val))) a + S1x16.size a ≤ S100x128.size a)
instance k2_chk112.dec : ∀ (k2_t9 : Fin k2_t9_loop.trips) (v1054 : BitVec 32), Decidable (k2_chk112 k2_t9 v1054) := fun k2_t9 v1054 => decidable_of_iff' _ (Iff.of_eq (k2_chk112.eq_1 k2_t9 v1054))
theorem k2_off251_inb : ∀ (k2_t9 : Fin k2_t9_loop.trips) (v1054 : BitVec 32) (k2_hw112 : k2_chk112 k2_t9 v1054), ∀ a, (k2_off251 k2_t9 v1054) a + S1x16.size a ≤ S100x128.size a := fun k2_t9 v1054 k2_hw112 => k2_hw112.1
theorem k2_off252_inb : ∀ (k2_t9 : Fin k2_t9_loop.trips) (v1054 : BitVec 32) (k2_hw112 : k2_chk112 k2_t9 v1054), ∀ (r : Fin 3), ∀ a, (k2_off252 k2_t9 v1054 (BitVec.ofNat 32 (16 + 16 * r.val))) a + S1x16.size a ≤ S100x128.size a := fun k2_t9 v1054 k2_hw112 r => k2_hw112.2 r

def k2_off253 (k2_t9 : Fin k2_t9_loop.trips) (v1080 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off254 (k2_t9 : Fin k2_t9_loop.trips) (v1080 : BitVec 32) (c16_i32_350 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk113 (k2_t9 : Fin k2_t9_loop.trips) (v1080 : BitVec 32) : Prop :=
  (∀ a, (k2_off253 k2_t9 v1080) a + S1x16.size a ≤ S100x128.size a) ∧
  (∀ (r : Fin 3), ∀ a, (k2_off254 k2_t9 v1080 (BitVec.ofNat 32 (16 + 16 * r.val))) a + S1x16.size a ≤ S100x128.size a)
instance k2_chk113.dec : ∀ (k2_t9 : Fin k2_t9_loop.trips) (v1080 : BitVec 32), Decidable (k2_chk113 k2_t9 v1080) := fun k2_t9 v1080 => decidable_of_iff' _ (Iff.of_eq (k2_chk113.eq_1 k2_t9 v1080))
theorem k2_off253_inb : ∀ (k2_t9 : Fin k2_t9_loop.trips) (v1080 : BitVec 32) (k2_hw113 : k2_chk113 k2_t9 v1080), ∀ a, (k2_off253 k2_t9 v1080) a + S1x16.size a ≤ S100x128.size a := fun k2_t9 v1080 k2_hw113 => k2_hw113.1
theorem k2_off254_inb : ∀ (k2_t9 : Fin k2_t9_loop.trips) (v1080 : BitVec 32) (k2_hw113 : k2_chk113 k2_t9 v1080), ∀ (r : Fin 3), ∀ a, (k2_off254 k2_t9 v1080 (BitVec.ofNat 32 (16 + 16 * r.val))) a + S1x16.size a ≤ S100x128.size a := fun k2_t9 v1080 k2_hw113 r => k2_hw113.2 r

def k2_off255 (k2_t9 : Fin k2_t9_loop.trips) (v1106 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off256 (k2_t9 : Fin k2_t9_loop.trips) (v1106 : BitVec 32) (c16_i32_353 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk114 (k2_t9 : Fin k2_t9_loop.trips) (v1106 : BitVec 32) : Prop :=
  (∀ a, (k2_off255 k2_t9 v1106) a + S1x16.size a ≤ S100x128.size a) ∧
  (∀ (r : Fin 3), ∀ a, (k2_off256 k2_t9 v1106 (BitVec.ofNat 32 (16 + 16 * r.val))) a + S1x16.size a ≤ S100x128.size a)
instance k2_chk114.dec : ∀ (k2_t9 : Fin k2_t9_loop.trips) (v1106 : BitVec 32), Decidable (k2_chk114 k2_t9 v1106) := fun k2_t9 v1106 => decidable_of_iff' _ (Iff.of_eq (k2_chk114.eq_1 k2_t9 v1106))
theorem k2_off255_inb : ∀ (k2_t9 : Fin k2_t9_loop.trips) (v1106 : BitVec 32) (k2_hw114 : k2_chk114 k2_t9 v1106), ∀ a, (k2_off255 k2_t9 v1106) a + S1x16.size a ≤ S100x128.size a := fun k2_t9 v1106 k2_hw114 => k2_hw114.1
theorem k2_off256_inb : ∀ (k2_t9 : Fin k2_t9_loop.trips) (v1106 : BitVec 32) (k2_hw114 : k2_chk114 k2_t9 v1106), ∀ (r : Fin 3), ∀ a, (k2_off256 k2_t9 v1106 (BitVec.ofNat 32 (16 + 16 * r.val))) a + S1x16.size a ≤ S100x128.size a := fun k2_t9 v1106 k2_hw114 r => k2_hw114.2 r

def k2_off257 (k2_t9 : Fin k2_t9_loop.trips) (v1132 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off258 (k2_t9 : Fin k2_t9_loop.trips) (v1132 : BitVec 32) (c16_i32_357 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk115 (k2_t9 : Fin k2_t9_loop.trips) (v1132 : BitVec 32) : Prop :=
  (∀ a, (k2_off257 k2_t9 v1132) a + S1x16.size a ≤ S100x128.size a) ∧
  (∀ (r : Fin 3), ∀ a, (k2_off258 k2_t9 v1132 (BitVec.ofNat 32 (16 + 16 * r.val))) a + S1x16.size a ≤ S100x128.size a)
instance k2_chk115.dec : ∀ (k2_t9 : Fin k2_t9_loop.trips) (v1132 : BitVec 32), Decidable (k2_chk115 k2_t9 v1132) := fun k2_t9 v1132 => decidable_of_iff' _ (Iff.of_eq (k2_chk115.eq_1 k2_t9 v1132))
theorem k2_off257_inb : ∀ (k2_t9 : Fin k2_t9_loop.trips) (v1132 : BitVec 32) (k2_hw115 : k2_chk115 k2_t9 v1132), ∀ a, (k2_off257 k2_t9 v1132) a + S1x16.size a ≤ S100x128.size a := fun k2_t9 v1132 k2_hw115 => k2_hw115.1
theorem k2_off258_inb : ∀ (k2_t9 : Fin k2_t9_loop.trips) (v1132 : BitVec 32) (k2_hw115 : k2_chk115 k2_t9 v1132), ∀ (r : Fin 3), ∀ a, (k2_off258 k2_t9 v1132 (BitVec.ofNat 32 (16 + 16 * r.val))) a + S1x16.size a ≤ S100x128.size a := fun k2_t9 v1132 k2_hw115 r => k2_hw115.2 r

def k2_off259 (k2_t9 : Fin k2_t9_loop.trips) (v1158 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off260 (k2_t9 : Fin k2_t9_loop.trips) (v1158 : BitVec 32) (c16_i32_360 : BitVec 32) : Fin 2 → Nat :=
  let c0_i32_89 : BitVec 32 := 0#32
  let c1_i32_91 : BitVec 32 := 1#32
  let arg17 : BitVec 32 := Scf.iv c0_i32_89 c1_i32_91 k2_t9
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk116 (k2_t9 : Fin k2_t9_loop.trips) (v1158 : BitVec 32) : Prop :=
  (∀ a, (k2_off259 k2_t9 v1158) a + S1x16.size a ≤ S100x128.size a) ∧
  (∀ (r : Fin 3), ∀ a, (k2_off260 k2_t9 v1158 (BitVec.ofNat 32 (16 + 16 * r.val))) a + S1x16.size a ≤ S100x128.size a)
instance k2_chk116.dec : ∀ (k2_t9 : Fin k2_t9_loop.trips) (v1158 : BitVec 32), Decidable (k2_chk116 k2_t9 v1158) := fun k2_t9 v1158 => decidable_of_iff' _ (Iff.of_eq (k2_chk116.eq_1 k2_t9 v1158))
theorem k2_off259_inb : ∀ (k2_t9 : Fin k2_t9_loop.trips) (v1158 : BitVec 32) (k2_hw116 : k2_chk116 k2_t9 v1158), ∀ a, (k2_off259 k2_t9 v1158) a + S1x16.size a ≤ S100x128.size a := fun k2_t9 v1158 k2_hw116 => k2_hw116.1
theorem k2_off260_inb : ∀ (k2_t9 : Fin k2_t9_loop.trips) (v1158 : BitVec 32) (k2_hw116 : k2_chk116 k2_t9 v1158), ∀ (r : Fin 3), ∀ a, (k2_off260 k2_t9 v1158 (BitVec.ofNat 32 (16 + 16 * r.val))) a + S1x16.size a ≤ S100x128.size a := fun k2_t9 v1158 k2_hw116 r => k2_hw116.2 r

def k2_off261 (k2_t7 : Fin k2_t7_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_94 : BitVec 32 := 0#32
  let v181 : BitVec 1 := Scalar.cmpi .sgt v175 c0_i32_94
  let v182 : BitVec 32 := Scalar.extui v181
  let c0_i32_95 : BitVec 32 := 0#32
  let v183 : BitVec 1 := Scalar.cmpi .slt v175 c0_i32_95
  let v184 : BitVec 32 := Scalar.extui v183
  let v185 : BitVec 32 := Scalar.subi v182 v184
  let c2_i32_93 : BitVec 32 := 2#32
  let c0_i32_96 : BitVec 32 := 0#32
  let v186 : BitVec 1 := Scalar.cmpi .sgt c2_i32_93 c0_i32_96
  let v187 : BitVec 32 := Scalar.extui v186
  let c0_i32_97 : BitVec 32 := 0#32
  let v188 : BitVec 1 := Scalar.cmpi .slt c2_i32_93 c0_i32_97
  let v189 : BitVec 32 := Scalar.extui v188
  let v190 : BitVec 32 := Scalar.subi v187 v189
  let v191 : BitVec 1 := Scalar.cmpi .ne v185 v190
  let v192 : BitVec 32 := Scalar.remsi v175 c2_i32_93
  let c0_i32_98 : BitVec 32 := 0#32
  let v193 : BitVec 1 := Scalar.cmpi .ne v192 c0_i32_98
  let v194 : BitVec 1 := Scalar.andi v191 v193
  let v180 : BitVec 32 := Scalar.divsi v175 c2_i32_93
  let c1_i32_99 : BitVec 32 := 1#32
  let v195 : BitVec 32 := Scalar.subi v180 c1_i32_99
  let v196 : BitVec 32 := Scalar.select v194 v195 v180
  let v209 : Index := Scalar.indexCast v196
  let c2_i32_100 : BitVec 32 := 2#32
  let c0_i32_101 : BitVec 32 := 0#32
  let v197 : BitVec 1 := Scalar.cmpi .eq c2_i32_100 c0_i32_101
  let c1_i32_102 : BitVec 32 := 1#32
  let v198 : BitVec 32 := Scalar.select v197 c1_i32_102 c2_i32_100
  let v199 : BitVec 32 := Scalar.remsi v175 v198
  let c0_i32_104 : BitVec 32 := 0#32
  let v201 : BitVec 1 := Scalar.cmpi .slt v199 c0_i32_104
  let c0_i32_105 : BitVec 32 := 0#32
  let v202 : BitVec 1 := Scalar.cmpi .slt v198 c0_i32_105
  let v203 : BitVec 1 := Scalar.xori v201 v202
  let c0_i32_103 : BitVec 32 := 0#32
  let v200 : BitVec 1 := Scalar.cmpi .ne v199 c0_i32_103
  let v204 : BitVec 1 := Scalar.andi v203 v200
  let v205 : BitVec 32 := Scalar.addi v199 v198
  let v206 : BitVec 32 := Scalar.select v204 v205 v199
  let c112_i32_106 : BitVec 32 := 112#32
  let v207 : BitVec 32 := Scalar.muli v206 c112_i32_106
  let c96_i32_107 : BitVec 32 := 96#32
  let v208 : BitVec 32 := Scalar.addi v207 c96_i32_107
  let v210 : Index := Scalar.indexCast v208
  ![v209.toNat, v210.toNat]
def k2_off262 (v220 : BitVec 32) : Fin 2 → Nat :=
  let c96_i32_111 : BitVec 32 := 96#32
  let v221 : Index := Scalar.indexCast c96_i32_111
  let v222 : Index := Scalar.indexCast v220
  ![96, v222.toNat]

def k2_off263 (v220 : BitVec 32) (c16_i32_112 : BitVec 32) : Fin 2 → Nat :=
  let c96_i32_113 : BitVec 32 := 96#32
  let v227 : Index := Scalar.indexCast c96_i32_113
  let v226 : BitVec 32 := Scalar.addi v220 c16_i32_112
  let v228 : Index := Scalar.indexCast v226
  ![96, v228.toNat]

def k2_chk117 (v220 : BitVec 32) : Prop :=
  (∀ a, (k2_off262 v220) a + S1x16.size a ≤ S100x128.size a) ∧
  (∀ (r : Fin 3), ∀ a, (k2_off263 v220 (BitVec.ofNat 32 (16 + 16 * r.val))) a + S1x16.size a ≤ S100x128.size a)
instance k2_chk117.dec : ∀ (v220 : BitVec 32), Decidable (k2_chk117 v220) := fun v220 => decidable_of_iff' _ (Iff.of_eq (k2_chk117.eq_1 v220))
theorem k2_off262_inb : ∀ (v220 : BitVec 32) (k2_hw117 : k2_chk117 v220), ∀ a, (k2_off262 v220) a + S1x16.size a ≤ S100x128.size a := fun v220 k2_hw117 => k2_hw117.1
theorem k2_off263_inb : ∀ (v220 : BitVec 32) (k2_hw117 : k2_chk117 v220), ∀ (r : Fin 3), ∀ a, (k2_off263 v220 (BitVec.ofNat 32 (16 + 16 * r.val))) a + S1x16.size a ≤ S100x128.size a := fun v220 k2_hw117 r => k2_hw117.2 r

def k2_off264 (v245 : BitVec 32) : Fin 2 → Nat :=
  let c97_i32_118 : BitVec 32 := 97#32
  let v246 : Index := Scalar.indexCast c97_i32_118
  let v247 : Index := Scalar.indexCast v245
  ![97, v247.toNat]

def k2_off265 (v245 : BitVec 32) (c16_i32_119 : BitVec 32) : Fin 2 → Nat :=
  let c97_i32_120 : BitVec 32 := 97#32
  let v252 : Index := Scalar.indexCast c97_i32_120
  let v251 : BitVec 32 := Scalar.addi v245 c16_i32_119
  let v253 : Index := Scalar.indexCast v251
  ![97, v253.toNat]

def k2_chk118 (v245 : BitVec 32) : Prop :=
  (∀ a, (k2_off264 v245) a + S1x16.size a ≤ S100x128.size a) ∧
  (∀ (r : Fin 3), ∀ a, (k2_off265 v245 (BitVec.ofNat 32 (16 + 16 * r.val))) a + S1x16.size a ≤ S100x128.size a)
instance k2_chk118.dec : ∀ (v245 : BitVec 32), Decidable (k2_chk118 v245) := fun v245 => decidable_of_iff' _ (Iff.of_eq (k2_chk118.eq_1 v245))
theorem k2_off264_inb : ∀ (v245 : BitVec 32) (k2_hw118 : k2_chk118 v245), ∀ a, (k2_off264 v245) a + S1x16.size a ≤ S100x128.size a := fun v245 k2_hw118 => k2_hw118.1
theorem k2_off265_inb : ∀ (v245 : BitVec 32) (k2_hw118 : k2_chk118 v245), ∀ (r : Fin 3), ∀ a, (k2_off265 v245 (BitVec.ofNat 32 (16 + 16 * r.val))) a + S1x16.size a ≤ S100x128.size a := fun v245 k2_hw118 r => k2_hw118.2 r

def k2_off266 (v270 : BitVec 32) : Fin 2 → Nat :=
  let c98_i32_125 : BitVec 32 := 98#32
  let v271 : Index := Scalar.indexCast c98_i32_125
  let v272 : Index := Scalar.indexCast v270
  ![98, v272.toNat]

def k2_off267 (v270 : BitVec 32) (c16_i32_126 : BitVec 32) : Fin 2 → Nat :=
  let c98_i32_127 : BitVec 32 := 98#32
  let v277 : Index := Scalar.indexCast c98_i32_127
  let v276 : BitVec 32 := Scalar.addi v270 c16_i32_126
  let v278 : Index := Scalar.indexCast v276
  ![98, v278.toNat]

def k2_chk119 (v270 : BitVec 32) : Prop :=
  (∀ a, (k2_off266 v270) a + S1x16.size a ≤ S100x128.size a) ∧
  (∀ (r : Fin 3), ∀ a, (k2_off267 v270 (BitVec.ofNat 32 (16 + 16 * r.val))) a + S1x16.size a ≤ S100x128.size a)
instance k2_chk119.dec : ∀ (v270 : BitVec 32), Decidable (k2_chk119 v270) := fun v270 => decidable_of_iff' _ (Iff.of_eq (k2_chk119.eq_1 v270))
theorem k2_off266_inb : ∀ (v270 : BitVec 32) (k2_hw119 : k2_chk119 v270), ∀ a, (k2_off266 v270) a + S1x16.size a ≤ S100x128.size a := fun v270 k2_hw119 => k2_hw119.1
theorem k2_off267_inb : ∀ (v270 : BitVec 32) (k2_hw119 : k2_chk119 v270), ∀ (r : Fin 3), ∀ a, (k2_off267 v270 (BitVec.ofNat 32 (16 + 16 * r.val))) a + S1x16.size a ≤ S100x128.size a := fun v270 k2_hw119 r => k2_hw119.2 r

def k2_off268 (v295 : BitVec 32) : Fin 2 → Nat :=
  let c99_i32_132 : BitVec 32 := 99#32
  let v296 : Index := Scalar.indexCast c99_i32_132
  let v297 : Index := Scalar.indexCast v295
  ![99, v297.toNat]

def k2_off269 (v295 : BitVec 32) (c16_i32_133 : BitVec 32) : Fin 2 → Nat :=
  let c99_i32_134 : BitVec 32 := 99#32
  let v302 : Index := Scalar.indexCast c99_i32_134
  let v301 : BitVec 32 := Scalar.addi v295 c16_i32_133
  let v303 : Index := Scalar.indexCast v301
  ![99, v303.toNat]

def k2_chk120 (v295 : BitVec 32) : Prop :=
  (∀ a, (k2_off268 v295) a + S1x16.size a ≤ S100x128.size a) ∧
  (∀ (r : Fin 3), ∀ a, (k2_off269 v295 (BitVec.ofNat 32 (16 + 16 * r.val))) a + S1x16.size a ≤ S100x128.size a)
instance k2_chk120.dec : ∀ (v295 : BitVec 32), Decidable (k2_chk120 v295) := fun v295 => decidable_of_iff' _ (Iff.of_eq (k2_chk120.eq_1 v295))
theorem k2_off268_inb : ∀ (v295 : BitVec 32) (k2_hw120 : k2_chk120 v295), ∀ a, (k2_off268 v295) a + S1x16.size a ≤ S100x128.size a := fun v295 k2_hw120 => k2_hw120.1
theorem k2_off269_inb : ∀ (v295 : BitVec 32) (k2_hw120 : k2_chk120 v295), ∀ (r : Fin 3), ∀ a, (k2_off269 v295 (BitVec.ofNat 32 (16 + 16 * r.val))) a + S1x16.size a ≤ S100x128.size a := fun v295 k2_hw120 r => k2_hw120.2 r

def k2_off270 (k2_t7 : Fin k2_t7_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v348 : Index := Scalar.indexCast v345
  let c0 : Index := 0#32
  ![v348.toNat, 0]
def k2_off271 (k2_t7 : Fin k2_t7_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v354 : Index := Scalar.indexCast v345
  let c16 : Index := 16#32
  ![v354.toNat, 16]
def k2_off272 (k2_t7 : Fin k2_t7_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v360 : Index := Scalar.indexCast v345
  let c32 : Index := 32#32
  ![v360.toNat, 32]
def k2_off273 (k2_t7 : Fin k2_t7_loop.trips) : Fin 2 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c0_i32_140 : BitVec 32 := 0#32
  let v320 : BitVec 1 := Scalar.cmpi .sgt v175 c0_i32_140
  let v321 : BitVec 32 := Scalar.extui v320
  let c0_i32_141 : BitVec 32 := 0#32
  let v322 : BitVec 1 := Scalar.cmpi .slt v175 c0_i32_141
  let v323 : BitVec 32 := Scalar.extui v322
  let v324 : BitVec 32 := Scalar.subi v321 v323
  let c2_i32_139 : BitVec 32 := 2#32
  let c0_i32_142 : BitVec 32 := 0#32
  let v325 : BitVec 1 := Scalar.cmpi .sgt c2_i32_139 c0_i32_142
  let v326 : BitVec 32 := Scalar.extui v325
  let c0_i32_143 : BitVec 32 := 0#32
  let v327 : BitVec 1 := Scalar.cmpi .slt c2_i32_139 c0_i32_143
  let v328 : BitVec 32 := Scalar.extui v327
  let v329 : BitVec 32 := Scalar.subi v326 v328
  let v330 : BitVec 1 := Scalar.cmpi .ne v324 v329
  let v331 : BitVec 32 := Scalar.remsi v175 c2_i32_139
  let c0_i32_144 : BitVec 32 := 0#32
  let v332 : BitVec 1 := Scalar.cmpi .ne v331 c0_i32_144
  let v333 : BitVec 1 := Scalar.andi v330 v332
  let v319 : BitVec 32 := Scalar.divsi v175 c2_i32_139
  let c1_i32_145 : BitVec 32 := 1#32
  let v334 : BitVec 32 := Scalar.subi v319 c1_i32_145
  let v335 : BitVec 32 := Scalar.select v333 v334 v319
  let c64_i32_146 : BitVec 32 := 64#32
  let c0_i32_147 : BitVec 32 := 0#32
  let v336 : BitVec 1 := Scalar.cmpi .eq c64_i32_146 c0_i32_147
  let c1_i32_148 : BitVec 32 := 1#32
  let v337 : BitVec 32 := Scalar.select v336 c1_i32_148 c64_i32_146
  let v338 : BitVec 32 := Scalar.remsi v335 v337
  let c0_i32_150 : BitVec 32 := 0#32
  let v340 : BitVec 1 := Scalar.cmpi .slt v338 c0_i32_150
  let c0_i32_151 : BitVec 32 := 0#32
  let v341 : BitVec 1 := Scalar.cmpi .slt v337 c0_i32_151
  let v342 : BitVec 1 := Scalar.xori v340 v341
  let c0_i32_149 : BitVec 32 := 0#32
  let v339 : BitVec 1 := Scalar.cmpi .ne v338 c0_i32_149
  let v343 : BitVec 1 := Scalar.andi v342 v339
  let v344 : BitVec 32 := Scalar.addi v338 v337
  let v345 : BitVec 32 := Scalar.select v343 v344 v338
  let v366 : Index := Scalar.indexCast v345
  let c48 : Index := 48#32
  ![v366.toNat, 48]
def k2_off274 (k2_t7 : Fin k2_t7_loop.trips) : Fin 1 → Nat :=
  let c4_i32_84 : BitVec 32 := 4#32
  let c32_i32_18 : BitVec 32 := 32#32
  let c1_i32_20 : BitVec 32 := 1#32
  let arg16 : BitVec 32 := Scf.iv c32_i32_18 c1_i32_20 k2_t7
  let v174 : BitVec 32 := Scalar.muli c4_i32_84 arg16
  let c1_i32_85 : BitVec 32 := 1#32
  let v175 : BitVec 32 := Scalar.addi v174 c1_i32_85
  let c4_i32_152 : BitVec 32 := 4#32
  let v370 : BitVec 32 := Scalar.addi v175 c4_i32_152
  let c253_i32 : BitVec 32 := 253#32
  let v371 : BitVec 32 := Scalar.minsi v370 c253_i32
  let c112_i32_153 : BitVec 32 := 112#32
  let v372 : BitVec 32 := Scalar.muli v371 c112_i32_153
  ![v372.toNat]
@[reducible] def k2_t10_loop : Scf.Loop 32 :=
  let c0_i32_161 : BitVec 32 := 0#32
  let c6_i32_162 : BitVec 32 := 6#32
  let v379 : BitVec 32 := Scalar.addi c0_i32_161 c6_i32_162
  let c1_i32_163 : BitVec 32 := 1#32
  ⟨c0_i32_161, v379, c1_i32_163⟩
def k2_off275 (k2_t7 : Fin k2_t7_loop.trips) (k2_t10 : Fin k2_t10_loop.trips) : Fin 2 → Nat :=
  let c4_i32_156 : BitVec 32 := 4#32
  let c32_i32_18 : BitVec 32 := 32#32
  let c1_i32_20 : BitVec 32 := 1#32
  let arg16 : BitVec 32 := Scf.iv c32_i32_18 c1_i32_20 k2_t7
  let v375 : BitVec 32 := Scalar.muli c4_i32_156 arg16
  let c2_i32_157 : BitVec 32 := 2#32
  let v376 : BitVec 32 := Scalar.addi v375 c2_i32_157
  let c0_i32_292 : BitVec 32 := 0#32
  let v728 : BitVec 1 := Scalar.cmpi .sgt v376 c0_i32_292
  let v729 : BitVec 32 := Scalar.extui v728
  let c0_i32_293 : BitVec 32 := 0#32
  let v730 : BitVec 1 := Scalar.cmpi .slt v376 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v376 c2_i32_291
  let c0_i32_296 : BitVec 32 := 0#32
  let v740 : BitVec 1 := Scalar.cmpi .ne v739 c0_i32_296
  let v741 : BitVec 1 := Scalar.andi v738 v740
  let v727 : BitVec 32 := Scalar.divsi v376 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v376 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off276 (k2_t10 : Fin k2_t10_loop.trips) (v768 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off277 (k2_t10 : Fin k2_t10_loop.trips) (v768 : BitVec 32) (c16_i32_309 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk121 (k2_t10 : Fin k2_t10_loop.trips) (v768 : BitVec 32) : Prop :=
  (∀ a, (k2_off276 k2_t10 v768) a + S1x16.size a ≤ S100x128.size a) ∧
  (∀ (r : Fin 3), ∀ a, (k2_off277 k2_t10 v768 (BitVec.ofNat 32 (16 + 16 * r.val))) a + S1x16.size a ≤ S100x128.size a)
instance k2_chk121.dec : ∀ (k2_t10 : Fin k2_t10_loop.trips) (v768 : BitVec 32), Decidable (k2_chk121 k2_t10 v768) := fun k2_t10 v768 => decidable_of_iff' _ (Iff.of_eq (k2_chk121.eq_1 k2_t10 v768))
theorem k2_off276_inb : ∀ (k2_t10 : Fin k2_t10_loop.trips) (v768 : BitVec 32) (k2_hw121 : k2_chk121 k2_t10 v768), ∀ a, (k2_off276 k2_t10 v768) a + S1x16.size a ≤ S100x128.size a := fun k2_t10 v768 k2_hw121 => k2_hw121.1
theorem k2_off277_inb : ∀ (k2_t10 : Fin k2_t10_loop.trips) (v768 : BitVec 32) (k2_hw121 : k2_chk121 k2_t10 v768), ∀ (r : Fin 3), ∀ a, (k2_off277 k2_t10 v768 (BitVec.ofNat 32 (16 + 16 * r.val))) a + S1x16.size a ≤ S100x128.size a := fun k2_t10 v768 k2_hw121 r => k2_hw121.2 r

def k2_off278 (k2_t10 : Fin k2_t10_loop.trips) (v794 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off279 (k2_t10 : Fin k2_t10_loop.trips) (v794 : BitVec 32) (c16_i32_313 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk122 (k2_t10 : Fin k2_t10_loop.trips) (v794 : BitVec 32) : Prop :=
  (∀ a, (k2_off278 k2_t10 v794) a + S1x16.size a ≤ S100x128.size a) ∧
  (∀ (r : Fin 3), ∀ a, (k2_off279 k2_t10 v794 (BitVec.ofNat 32 (16 + 16 * r.val))) a + S1x16.size a ≤ S100x128.size a)
instance k2_chk122.dec : ∀ (k2_t10 : Fin k2_t10_loop.trips) (v794 : BitVec 32), Decidable (k2_chk122 k2_t10 v794) := fun k2_t10 v794 => decidable_of_iff' _ (Iff.of_eq (k2_chk122.eq_1 k2_t10 v794))
theorem k2_off278_inb : ∀ (k2_t10 : Fin k2_t10_loop.trips) (v794 : BitVec 32) (k2_hw122 : k2_chk122 k2_t10 v794), ∀ a, (k2_off278 k2_t10 v794) a + S1x16.size a ≤ S100x128.size a := fun k2_t10 v794 k2_hw122 => k2_hw122.1
theorem k2_off279_inb : ∀ (k2_t10 : Fin k2_t10_loop.trips) (v794 : BitVec 32) (k2_hw122 : k2_chk122 k2_t10 v794), ∀ (r : Fin 3), ∀ a, (k2_off279 k2_t10 v794 (BitVec.ofNat 32 (16 + 16 * r.val))) a + S1x16.size a ≤ S100x128.size a := fun k2_t10 v794 k2_hw122 r => k2_hw122.2 r

def k2_off280 (k2_t10 : Fin k2_t10_loop.trips) (v820 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off281 (k2_t10 : Fin k2_t10_loop.trips) (v820 : BitVec 32) (c16_i32_317 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk123 (k2_t10 : Fin k2_t10_loop.trips) (v820 : BitVec 32) : Prop :=
  (∀ a, (k2_off280 k2_t10 v820) a + S1x16.size a ≤ S100x128.size a) ∧
  (∀ (r : Fin 3), ∀ a, (k2_off281 k2_t10 v820 (BitVec.ofNat 32 (16 + 16 * r.val))) a + S1x16.size a ≤ S100x128.size a)
instance k2_chk123.dec : ∀ (k2_t10 : Fin k2_t10_loop.trips) (v820 : BitVec 32), Decidable (k2_chk123 k2_t10 v820) := fun k2_t10 v820 => decidable_of_iff' _ (Iff.of_eq (k2_chk123.eq_1 k2_t10 v820))
theorem k2_off280_inb : ∀ (k2_t10 : Fin k2_t10_loop.trips) (v820 : BitVec 32) (k2_hw123 : k2_chk123 k2_t10 v820), ∀ a, (k2_off280 k2_t10 v820) a + S1x16.size a ≤ S100x128.size a := fun k2_t10 v820 k2_hw123 => k2_hw123.1
theorem k2_off281_inb : ∀ (k2_t10 : Fin k2_t10_loop.trips) (v820 : BitVec 32) (k2_hw123 : k2_chk123 k2_t10 v820), ∀ (r : Fin 3), ∀ a, (k2_off281 k2_t10 v820 (BitVec.ofNat 32 (16 + 16 * r.val))) a + S1x16.size a ≤ S100x128.size a := fun k2_t10 v820 k2_hw123 r => k2_hw123.2 r

def k2_off282 (k2_t10 : Fin k2_t10_loop.trips) (v846 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off283 (k2_t10 : Fin k2_t10_loop.trips) (v846 : BitVec 32) (c16_i32_321 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk124 (k2_t10 : Fin k2_t10_loop.trips) (v846 : BitVec 32) : Prop :=
  (∀ a, (k2_off282 k2_t10 v846) a + S1x16.size a ≤ S100x128.size a) ∧
  (∀ (r : Fin 3), ∀ a, (k2_off283 k2_t10 v846 (BitVec.ofNat 32 (16 + 16 * r.val))) a + S1x16.size a ≤ S100x128.size a)
instance k2_chk124.dec : ∀ (k2_t10 : Fin k2_t10_loop.trips) (v846 : BitVec 32), Decidable (k2_chk124 k2_t10 v846) := fun k2_t10 v846 => decidable_of_iff' _ (Iff.of_eq (k2_chk124.eq_1 k2_t10 v846))
theorem k2_off282_inb : ∀ (k2_t10 : Fin k2_t10_loop.trips) (v846 : BitVec 32) (k2_hw124 : k2_chk124 k2_t10 v846), ∀ a, (k2_off282 k2_t10 v846) a + S1x16.size a ≤ S100x128.size a := fun k2_t10 v846 k2_hw124 => k2_hw124.1
theorem k2_off283_inb : ∀ (k2_t10 : Fin k2_t10_loop.trips) (v846 : BitVec 32) (k2_hw124 : k2_chk124 k2_t10 v846), ∀ (r : Fin 3), ∀ a, (k2_off283 k2_t10 v846 (BitVec.ofNat 32 (16 + 16 * r.val))) a + S1x16.size a ≤ S100x128.size a := fun k2_t10 v846 k2_hw124 r => k2_hw124.2 r

def k2_off284 (k2_t10 : Fin k2_t10_loop.trips) (v872 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off285 (k2_t10 : Fin k2_t10_loop.trips) (v872 : BitVec 32) (c16_i32_325 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk125 (k2_t10 : Fin k2_t10_loop.trips) (v872 : BitVec 32) : Prop :=
  (∀ a, (k2_off284 k2_t10 v872) a + S1x16.size a ≤ S100x128.size a) ∧
  (∀ (r : Fin 3), ∀ a, (k2_off285 k2_t10 v872 (BitVec.ofNat 32 (16 + 16 * r.val))) a + S1x16.size a ≤ S100x128.size a)
instance k2_chk125.dec : ∀ (k2_t10 : Fin k2_t10_loop.trips) (v872 : BitVec 32), Decidable (k2_chk125 k2_t10 v872) := fun k2_t10 v872 => decidable_of_iff' _ (Iff.of_eq (k2_chk125.eq_1 k2_t10 v872))
theorem k2_off284_inb : ∀ (k2_t10 : Fin k2_t10_loop.trips) (v872 : BitVec 32) (k2_hw125 : k2_chk125 k2_t10 v872), ∀ a, (k2_off284 k2_t10 v872) a + S1x16.size a ≤ S100x128.size a := fun k2_t10 v872 k2_hw125 => k2_hw125.1
theorem k2_off285_inb : ∀ (k2_t10 : Fin k2_t10_loop.trips) (v872 : BitVec 32) (k2_hw125 : k2_chk125 k2_t10 v872), ∀ (r : Fin 3), ∀ a, (k2_off285 k2_t10 v872 (BitVec.ofNat 32 (16 + 16 * r.val))) a + S1x16.size a ≤ S100x128.size a := fun k2_t10 v872 k2_hw125 r => k2_hw125.2 r

def k2_off286 (k2_t10 : Fin k2_t10_loop.trips) (v898 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off287 (k2_t10 : Fin k2_t10_loop.trips) (v898 : BitVec 32) (c16_i32_328 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk126 (k2_t10 : Fin k2_t10_loop.trips) (v898 : BitVec 32) : Prop :=
  (∀ a, (k2_off286 k2_t10 v898) a + S1x16.size a ≤ S100x128.size a) ∧
  (∀ (r : Fin 3), ∀ a, (k2_off287 k2_t10 v898 (BitVec.ofNat 32 (16 + 16 * r.val))) a + S1x16.size a ≤ S100x128.size a)
instance k2_chk126.dec : ∀ (k2_t10 : Fin k2_t10_loop.trips) (v898 : BitVec 32), Decidable (k2_chk126 k2_t10 v898) := fun k2_t10 v898 => decidable_of_iff' _ (Iff.of_eq (k2_chk126.eq_1 k2_t10 v898))
theorem k2_off286_inb : ∀ (k2_t10 : Fin k2_t10_loop.trips) (v898 : BitVec 32) (k2_hw126 : k2_chk126 k2_t10 v898), ∀ a, (k2_off286 k2_t10 v898) a + S1x16.size a ≤ S100x128.size a := fun k2_t10 v898 k2_hw126 => k2_hw126.1
theorem k2_off287_inb : ∀ (k2_t10 : Fin k2_t10_loop.trips) (v898 : BitVec 32) (k2_hw126 : k2_chk126 k2_t10 v898), ∀ (r : Fin 3), ∀ a, (k2_off287 k2_t10 v898 (BitVec.ofNat 32 (16 + 16 * r.val))) a + S1x16.size a ≤ S100x128.size a := fun k2_t10 v898 k2_hw126 r => k2_hw126.2 r

def k2_off288 (k2_t10 : Fin k2_t10_loop.trips) (v924 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off289 (k2_t10 : Fin k2_t10_loop.trips) (v924 : BitVec 32) (c16_i32_332 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk127 (k2_t10 : Fin k2_t10_loop.trips) (v924 : BitVec 32) : Prop :=
  (∀ a, (k2_off288 k2_t10 v924) a + S1x16.size a ≤ S100x128.size a) ∧
  (∀ (r : Fin 3), ∀ a, (k2_off289 k2_t10 v924 (BitVec.ofNat 32 (16 + 16 * r.val))) a + S1x16.size a ≤ S100x128.size a)
instance k2_chk127.dec : ∀ (k2_t10 : Fin k2_t10_loop.trips) (v924 : BitVec 32), Decidable (k2_chk127 k2_t10 v924) := fun k2_t10 v924 => decidable_of_iff' _ (Iff.of_eq (k2_chk127.eq_1 k2_t10 v924))
theorem k2_off288_inb : ∀ (k2_t10 : Fin k2_t10_loop.trips) (v924 : BitVec 32) (k2_hw127 : k2_chk127 k2_t10 v924), ∀ a, (k2_off288 k2_t10 v924) a + S1x16.size a ≤ S100x128.size a := fun k2_t10 v924 k2_hw127 => k2_hw127.1
theorem k2_off289_inb : ∀ (k2_t10 : Fin k2_t10_loop.trips) (v924 : BitVec 32) (k2_hw127 : k2_chk127 k2_t10 v924), ∀ (r : Fin 3), ∀ a, (k2_off289 k2_t10 v924 (BitVec.ofNat 32 (16 + 16 * r.val))) a + S1x16.size a ≤ S100x128.size a := fun k2_t10 v924 k2_hw127 r => k2_hw127.2 r

def k2_off290 (k2_t10 : Fin k2_t10_loop.trips) (v950 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off291 (k2_t10 : Fin k2_t10_loop.trips) (v950 : BitVec 32) (c16_i32_335 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk128 (k2_t10 : Fin k2_t10_loop.trips) (v950 : BitVec 32) : Prop :=
  (∀ a, (k2_off290 k2_t10 v950) a + S1x16.size a ≤ S100x128.size a) ∧
  (∀ (r : Fin 3), ∀ a, (k2_off291 k2_t10 v950 (BitVec.ofNat 32 (16 + 16 * r.val))) a + S1x16.size a ≤ S100x128.size a)
instance k2_chk128.dec : ∀ (k2_t10 : Fin k2_t10_loop.trips) (v950 : BitVec 32), Decidable (k2_chk128 k2_t10 v950) := fun k2_t10 v950 => decidable_of_iff' _ (Iff.of_eq (k2_chk128.eq_1 k2_t10 v950))
theorem k2_off290_inb : ∀ (k2_t10 : Fin k2_t10_loop.trips) (v950 : BitVec 32) (k2_hw128 : k2_chk128 k2_t10 v950), ∀ a, (k2_off290 k2_t10 v950) a + S1x16.size a ≤ S100x128.size a := fun k2_t10 v950 k2_hw128 => k2_hw128.1
theorem k2_off291_inb : ∀ (k2_t10 : Fin k2_t10_loop.trips) (v950 : BitVec 32) (k2_hw128 : k2_chk128 k2_t10 v950), ∀ (r : Fin 3), ∀ a, (k2_off291 k2_t10 v950 (BitVec.ofNat 32 (16 + 16 * r.val))) a + S1x16.size a ≤ S100x128.size a := fun k2_t10 v950 k2_hw128 r => k2_hw128.2 r

def k2_off292 (k2_t10 : Fin k2_t10_loop.trips) (v976 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off293 (k2_t10 : Fin k2_t10_loop.trips) (v976 : BitVec 32) (c16_i32_338 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk129 (k2_t10 : Fin k2_t10_loop.trips) (v976 : BitVec 32) : Prop :=
  (∀ a, (k2_off292 k2_t10 v976) a + S1x16.size a ≤ S100x128.size a) ∧
  (∀ (r : Fin 3), ∀ a, (k2_off293 k2_t10 v976 (BitVec.ofNat 32 (16 + 16 * r.val))) a + S1x16.size a ≤ S100x128.size a)
instance k2_chk129.dec : ∀ (k2_t10 : Fin k2_t10_loop.trips) (v976 : BitVec 32), Decidable (k2_chk129 k2_t10 v976) := fun k2_t10 v976 => decidable_of_iff' _ (Iff.of_eq (k2_chk129.eq_1 k2_t10 v976))
theorem k2_off292_inb : ∀ (k2_t10 : Fin k2_t10_loop.trips) (v976 : BitVec 32) (k2_hw129 : k2_chk129 k2_t10 v976), ∀ a, (k2_off292 k2_t10 v976) a + S1x16.size a ≤ S100x128.size a := fun k2_t10 v976 k2_hw129 => k2_hw129.1
theorem k2_off293_inb : ∀ (k2_t10 : Fin k2_t10_loop.trips) (v976 : BitVec 32) (k2_hw129 : k2_chk129 k2_t10 v976), ∀ (r : Fin 3), ∀ a, (k2_off293 k2_t10 v976 (BitVec.ofNat 32 (16 + 16 * r.val))) a + S1x16.size a ≤ S100x128.size a := fun k2_t10 v976 k2_hw129 r => k2_hw129.2 r

def k2_off294 (k2_t10 : Fin k2_t10_loop.trips) (v1002 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off295 (k2_t10 : Fin k2_t10_loop.trips) (v1002 : BitVec 32) (c16_i32_341 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk130 (k2_t10 : Fin k2_t10_loop.trips) (v1002 : BitVec 32) : Prop :=
  (∀ a, (k2_off294 k2_t10 v1002) a + S1x16.size a ≤ S100x128.size a) ∧
  (∀ (r : Fin 3), ∀ a, (k2_off295 k2_t10 v1002 (BitVec.ofNat 32 (16 + 16 * r.val))) a + S1x16.size a ≤ S100x128.size a)
instance k2_chk130.dec : ∀ (k2_t10 : Fin k2_t10_loop.trips) (v1002 : BitVec 32), Decidable (k2_chk130 k2_t10 v1002) := fun k2_t10 v1002 => decidable_of_iff' _ (Iff.of_eq (k2_chk130.eq_1 k2_t10 v1002))
theorem k2_off294_inb : ∀ (k2_t10 : Fin k2_t10_loop.trips) (v1002 : BitVec 32) (k2_hw130 : k2_chk130 k2_t10 v1002), ∀ a, (k2_off294 k2_t10 v1002) a + S1x16.size a ≤ S100x128.size a := fun k2_t10 v1002 k2_hw130 => k2_hw130.1
theorem k2_off295_inb : ∀ (k2_t10 : Fin k2_t10_loop.trips) (v1002 : BitVec 32) (k2_hw130 : k2_chk130 k2_t10 v1002), ∀ (r : Fin 3), ∀ a, (k2_off295 k2_t10 v1002 (BitVec.ofNat 32 (16 + 16 * r.val))) a + S1x16.size a ≤ S100x128.size a := fun k2_t10 v1002 k2_hw130 r => k2_hw130.2 r

def k2_off296 (k2_t10 : Fin k2_t10_loop.trips) (v1028 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off297 (k2_t10 : Fin k2_t10_loop.trips) (v1028 : BitVec 32) (c16_i32_344 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk131 (k2_t10 : Fin k2_t10_loop.trips) (v1028 : BitVec 32) : Prop :=
  (∀ a, (k2_off296 k2_t10 v1028) a + S1x16.size a ≤ S100x128.size a) ∧
  (∀ (r : Fin 3), ∀ a, (k2_off297 k2_t10 v1028 (BitVec.ofNat 32 (16 + 16 * r.val))) a + S1x16.size a ≤ S100x128.size a)
instance k2_chk131.dec : ∀ (k2_t10 : Fin k2_t10_loop.trips) (v1028 : BitVec 32), Decidable (k2_chk131 k2_t10 v1028) := fun k2_t10 v1028 => decidable_of_iff' _ (Iff.of_eq (k2_chk131.eq_1 k2_t10 v1028))
theorem k2_off296_inb : ∀ (k2_t10 : Fin k2_t10_loop.trips) (v1028 : BitVec 32) (k2_hw131 : k2_chk131 k2_t10 v1028), ∀ a, (k2_off296 k2_t10 v1028) a + S1x16.size a ≤ S100x128.size a := fun k2_t10 v1028 k2_hw131 => k2_hw131.1
theorem k2_off297_inb : ∀ (k2_t10 : Fin k2_t10_loop.trips) (v1028 : BitVec 32) (k2_hw131 : k2_chk131 k2_t10 v1028), ∀ (r : Fin 3), ∀ a, (k2_off297 k2_t10 v1028 (BitVec.ofNat 32 (16 + 16 * r.val))) a + S1x16.size a ≤ S100x128.size a := fun k2_t10 v1028 k2_hw131 r => k2_hw131.2 r

def k2_off298 (k2_t10 : Fin k2_t10_loop.trips) (v1054 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off299 (k2_t10 : Fin k2_t10_loop.trips) (v1054 : BitVec 32) (c16_i32_347 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk132 (k2_t10 : Fin k2_t10_loop.trips) (v1054 : BitVec 32) : Prop :=
  (∀ a, (k2_off298 k2_t10 v1054) a + S1x16.size a ≤ S100x128.size a) ∧
  (∀ (r : Fin 3), ∀ a, (k2_off299 k2_t10 v1054 (BitVec.ofNat 32 (16 + 16 * r.val))) a + S1x16.size a ≤ S100x128.size a)
instance k2_chk132.dec : ∀ (k2_t10 : Fin k2_t10_loop.trips) (v1054 : BitVec 32), Decidable (k2_chk132 k2_t10 v1054) := fun k2_t10 v1054 => decidable_of_iff' _ (Iff.of_eq (k2_chk132.eq_1 k2_t10 v1054))
theorem k2_off298_inb : ∀ (k2_t10 : Fin k2_t10_loop.trips) (v1054 : BitVec 32) (k2_hw132 : k2_chk132 k2_t10 v1054), ∀ a, (k2_off298 k2_t10 v1054) a + S1x16.size a ≤ S100x128.size a := fun k2_t10 v1054 k2_hw132 => k2_hw132.1
theorem k2_off299_inb : ∀ (k2_t10 : Fin k2_t10_loop.trips) (v1054 : BitVec 32) (k2_hw132 : k2_chk132 k2_t10 v1054), ∀ (r : Fin 3), ∀ a, (k2_off299 k2_t10 v1054 (BitVec.ofNat 32 (16 + 16 * r.val))) a + S1x16.size a ≤ S100x128.size a := fun k2_t10 v1054 k2_hw132 r => k2_hw132.2 r

def k2_off300 (k2_t10 : Fin k2_t10_loop.trips) (v1080 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off301 (k2_t10 : Fin k2_t10_loop.trips) (v1080 : BitVec 32) (c16_i32_350 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk133 (k2_t10 : Fin k2_t10_loop.trips) (v1080 : BitVec 32) : Prop :=
  (∀ a, (k2_off300 k2_t10 v1080) a + S1x16.size a ≤ S100x128.size a) ∧
  (∀ (r : Fin 3), ∀ a, (k2_off301 k2_t10 v1080 (BitVec.ofNat 32 (16 + 16 * r.val))) a + S1x16.size a ≤ S100x128.size a)
instance k2_chk133.dec : ∀ (k2_t10 : Fin k2_t10_loop.trips) (v1080 : BitVec 32), Decidable (k2_chk133 k2_t10 v1080) := fun k2_t10 v1080 => decidable_of_iff' _ (Iff.of_eq (k2_chk133.eq_1 k2_t10 v1080))
theorem k2_off300_inb : ∀ (k2_t10 : Fin k2_t10_loop.trips) (v1080 : BitVec 32) (k2_hw133 : k2_chk133 k2_t10 v1080), ∀ a, (k2_off300 k2_t10 v1080) a + S1x16.size a ≤ S100x128.size a := fun k2_t10 v1080 k2_hw133 => k2_hw133.1
theorem k2_off301_inb : ∀ (k2_t10 : Fin k2_t10_loop.trips) (v1080 : BitVec 32) (k2_hw133 : k2_chk133 k2_t10 v1080), ∀ (r : Fin 3), ∀ a, (k2_off301 k2_t10 v1080 (BitVec.ofNat 32 (16 + 16 * r.val))) a + S1x16.size a ≤ S100x128.size a := fun k2_t10 v1080 k2_hw133 r => k2_hw133.2 r

def k2_off302 (k2_t10 : Fin k2_t10_loop.trips) (v1106 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off303 (k2_t10 : Fin k2_t10_loop.trips) (v1106 : BitVec 32) (c16_i32_353 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk134 (k2_t10 : Fin k2_t10_loop.trips) (v1106 : BitVec 32) : Prop :=
  (∀ a, (k2_off302 k2_t10 v1106) a + S1x16.size a ≤ S100x128.size a) ∧
  (∀ (r : Fin 3), ∀ a, (k2_off303 k2_t10 v1106 (BitVec.ofNat 32 (16 + 16 * r.val))) a + S1x16.size a ≤ S100x128.size a)
instance k2_chk134.dec : ∀ (k2_t10 : Fin k2_t10_loop.trips) (v1106 : BitVec 32), Decidable (k2_chk134 k2_t10 v1106) := fun k2_t10 v1106 => decidable_of_iff' _ (Iff.of_eq (k2_chk134.eq_1 k2_t10 v1106))
theorem k2_off302_inb : ∀ (k2_t10 : Fin k2_t10_loop.trips) (v1106 : BitVec 32) (k2_hw134 : k2_chk134 k2_t10 v1106), ∀ a, (k2_off302 k2_t10 v1106) a + S1x16.size a ≤ S100x128.size a := fun k2_t10 v1106 k2_hw134 => k2_hw134.1
theorem k2_off303_inb : ∀ (k2_t10 : Fin k2_t10_loop.trips) (v1106 : BitVec 32) (k2_hw134 : k2_chk134 k2_t10 v1106), ∀ (r : Fin 3), ∀ a, (k2_off303 k2_t10 v1106 (BitVec.ofNat 32 (16 + 16 * r.val))) a + S1x16.size a ≤ S100x128.size a := fun k2_t10 v1106 k2_hw134 r => k2_hw134.2 r

def k2_off304 (k2_t10 : Fin k2_t10_loop.trips) (v1132 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off305 (k2_t10 : Fin k2_t10_loop.trips) (v1132 : BitVec 32) (c16_i32_357 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk135 (k2_t10 : Fin k2_t10_loop.trips) (v1132 : BitVec 32) : Prop :=
  (∀ a, (k2_off304 k2_t10 v1132) a + S1x16.size a ≤ S100x128.size a) ∧
  (∀ (r : Fin 3), ∀ a, (k2_off305 k2_t10 v1132 (BitVec.ofNat 32 (16 + 16 * r.val))) a + S1x16.size a ≤ S100x128.size a)
instance k2_chk135.dec : ∀ (k2_t10 : Fin k2_t10_loop.trips) (v1132 : BitVec 32), Decidable (k2_chk135 k2_t10 v1132) := fun k2_t10 v1132 => decidable_of_iff' _ (Iff.of_eq (k2_chk135.eq_1 k2_t10 v1132))
theorem k2_off304_inb : ∀ (k2_t10 : Fin k2_t10_loop.trips) (v1132 : BitVec 32) (k2_hw135 : k2_chk135 k2_t10 v1132), ∀ a, (k2_off304 k2_t10 v1132) a + S1x16.size a ≤ S100x128.size a := fun k2_t10 v1132 k2_hw135 => k2_hw135.1
theorem k2_off305_inb : ∀ (k2_t10 : Fin k2_t10_loop.trips) (v1132 : BitVec 32) (k2_hw135 : k2_chk135 k2_t10 v1132), ∀ (r : Fin 3), ∀ a, (k2_off305 k2_t10 v1132 (BitVec.ofNat 32 (16 + 16 * r.val))) a + S1x16.size a ≤ S100x128.size a := fun k2_t10 v1132 k2_hw135 r => k2_hw135.2 r

def k2_off306 (k2_t10 : Fin k2_t10_loop.trips) (v1158 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off307 (k2_t10 : Fin k2_t10_loop.trips) (v1158 : BitVec 32) (c16_i32_360 : BitVec 32) : Fin 2 → Nat :=
  let c0_i32_161 : BitVec 32 := 0#32
  let c1_i32_163 : BitVec 32 := 1#32
  let arg17 : BitVec 32 := Scf.iv c0_i32_161 c1_i32_163 k2_t10
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk136 (k2_t10 : Fin k2_t10_loop.trips) (v1158 : BitVec 32) : Prop :=
  (∀ a, (k2_off306 k2_t10 v1158) a + S1x16.size a ≤ S100x128.size a) ∧
  (∀ (r : Fin 3), ∀ a, (k2_off307 k2_t10 v1158 (BitVec.ofNat 32 (16 + 16 * r.val))) a + S1x16.size a ≤ S100x128.size a)
instance k2_chk136.dec : ∀ (k2_t10 : Fin k2_t10_loop.trips) (v1158 : BitVec 32), Decidable (k2_chk136 k2_t10 v1158) := fun k2_t10 v1158 => decidable_of_iff' _ (Iff.of_eq (k2_chk136.eq_1 k2_t10 v1158))
theorem k2_off306_inb : ∀ (k2_t10 : Fin k2_t10_loop.trips) (v1158 : BitVec 32) (k2_hw136 : k2_chk136 k2_t10 v1158), ∀ a, (k2_off306 k2_t10 v1158) a + S1x16.size a ≤ S100x128.size a := fun k2_t10 v1158 k2_hw136 => k2_hw136.1
theorem k2_off307_inb : ∀ (k2_t10 : Fin k2_t10_loop.trips) (v1158 : BitVec 32) (k2_hw136 : k2_chk136 k2_t10 v1158), ∀ (r : Fin 3), ∀ a, (k2_off307 k2_t10 v1158 (BitVec.ofNat 32 (16 + 16 * r.val))) a + S1x16.size a ≤ S100x128.size a := fun k2_t10 v1158 k2_hw136 r => k2_hw136.2 r

def k2_off308 (k2_t7 : Fin k2_t7_loop.trips) : Fin 2 → Nat :=
  let c4_i32_156 : BitVec 32 := 4#32
  let c32_i32_18 : BitVec 32 := 32#32
  let c1_i32_20 : BitVec 32 := 1#32
  let arg16 : BitVec 32 := Scf.iv c32_i32_18 c1_i32_20 k2_t7
  let v375 : BitVec 32 := Scalar.muli c4_i32_156 arg16
  let c2_i32_157 : BitVec 32 := 2#32
  let v376 : BitVec 32 := Scalar.addi v375 c2_i32_157
  let c0_i32_166 : BitVec 32 := 0#32
  let v382 : BitVec 1 := Scalar.cmpi .sgt v376 c0_i32_166
  let v383 : BitVec 32 := Scalar.extui v382
  let c0_i32_167 : BitVec 32 := 0#32
  let v384 : BitVec 1 := Scalar.cmpi .slt v376 c0_i32_167
  let v385 : BitVec 32 := Scalar.extui v384
  let v386 : BitVec 32 := Scalar.subi v383 v385
  let c2_i32_165 : BitVec 32 := 2#32
  let c0_i32_168 : BitVec 32 := 0#32
  let v387 : BitVec 1 := Scalar.cmpi .sgt c2_i32_165 c0_i32_168
  let v388 : BitVec 32 := Scalar.extui v387
  let c0_i32_169 : BitVec 32 := 0#32
  let v389 : BitVec 1 := Scalar.cmpi .slt c2_i32_165 c0_i32_169
  let v390 : BitVec 32 := Scalar.extui v389
  let v391 : BitVec 32 := Scalar.subi v388 v390
  let v392 : BitVec 1 := Scalar.cmpi .ne v386 v391
  let v393 : BitVec 32 := Scalar.remsi v376 c2_i32_165
  let c0_i32_170 : BitVec 32 := 0#32
  let v394 : BitVec 1 := Scalar.cmpi .ne v393 c0_i32_170
  let v395 : BitVec 1 := Scalar.andi v392 v394
  let v381 : BitVec 32 := Scalar.divsi v376 c2_i32_165
  let c1_i32_171 : BitVec 32 := 1#32
  let v396 : BitVec 32 := Scalar.subi v381 c1_i32_171
  let v397 : BitVec 32 := Scalar.select v395 v396 v381
  let v410 : Index := Scalar.indexCast v397
  let c2_i32_172 : BitVec 32 := 2#32
  let c0_i32_173 : BitVec 32 := 0#32
  let v398 : BitVec 1 := Scalar.cmpi .eq c2_i32_172 c0_i32_173
  let c1_i32_174 : BitVec 32 := 1#32
  let v399 : BitVec 32 := Scalar.select v398 c1_i32_174 c2_i32_172
  let v400 : BitVec 32 := Scalar.remsi v376 v399
  let c0_i32_176 : BitVec 32 := 0#32
  let v402 : BitVec 1 := Scalar.cmpi .slt v400 c0_i32_176
  let c0_i32_177 : BitVec 32 := 0#32
  let v403 : BitVec 1 := Scalar.cmpi .slt v399 c0_i32_177
  let v404 : BitVec 1 := Scalar.xori v402 v403
  let c0_i32_175 : BitVec 32 := 0#32
  let v401 : BitVec 1 := Scalar.cmpi .ne v400 c0_i32_175
  let v405 : BitVec 1 := Scalar.andi v404 v401
  let v406 : BitVec 32 := Scalar.addi v400 v399
  let v407 : BitVec 32 := Scalar.select v405 v406 v400
  let c112_i32_178 : BitVec 32 := 112#32
  let v408 : BitVec 32 := Scalar.muli v407 c112_i32_178
  let c96_i32_179 : BitVec 32 := 96#32
  let v409 : BitVec 32 := Scalar.addi v408 c96_i32_179
  let v411 : Index := Scalar.indexCast v409
  ![v410.toNat, v411.toNat]
def k2_off309 (v421 : BitVec 32) : Fin 2 → Nat :=
  let c96_i32_183 : BitVec 32 := 96#32
  let v422 : Index := Scalar.indexCast c96_i32_183
  let v423 : Index := Scalar.indexCast v421
  ![96, v423.toNat]

def k2_off310 (v421 : BitVec 32) (c16_i32_184 : BitVec 32) : Fin 2 → Nat :=
  let c96_i32_185 : BitVec 32 := 96#32
  let v428 : Index := Scalar.indexCast c96_i32_185
  let v427 : BitVec 32 := Scalar.addi v421 c16_i32_184
  let v429 : Index := Scalar.indexCast v427
  ![96, v429.toNat]

def k2_chk137 (v421 : BitVec 32) : Prop :=
  (∀ a, (k2_off309 v421) a + S1x16.size a ≤ S100x128.size a) ∧
  (∀ (r : Fin 3), ∀ a, (k2_off310 v421 (BitVec.ofNat 32 (16 + 16 * r.val))) a + S1x16.size a ≤ S100x128.size a)
instance k2_chk137.dec : ∀ (v421 : BitVec 32), Decidable (k2_chk137 v421) := fun v421 => decidable_of_iff' _ (Iff.of_eq (k2_chk137.eq_1 v421))
theorem k2_off309_inb : ∀ (v421 : BitVec 32) (k2_hw137 : k2_chk137 v421), ∀ a, (k2_off309 v421) a + S1x16.size a ≤ S100x128.size a := fun v421 k2_hw137 => k2_hw137.1
theorem k2_off310_inb : ∀ (v421 : BitVec 32) (k2_hw137 : k2_chk137 v421), ∀ (r : Fin 3), ∀ a, (k2_off310 v421 (BitVec.ofNat 32 (16 + 16 * r.val))) a + S1x16.size a ≤ S100x128.size a := fun v421 k2_hw137 r => k2_hw137.2 r

def k2_off311 (v446 : BitVec 32) : Fin 2 → Nat :=
  let c97_i32_190 : BitVec 32 := 97#32
  let v447 : Index := Scalar.indexCast c97_i32_190
  let v448 : Index := Scalar.indexCast v446
  ![97, v448.toNat]

def k2_off312 (v446 : BitVec 32) (c16_i32_191 : BitVec 32) : Fin 2 → Nat :=
  let c97_i32_192 : BitVec 32 := 97#32
  let v453 : Index := Scalar.indexCast c97_i32_192
  let v452 : BitVec 32 := Scalar.addi v446 c16_i32_191
  let v454 : Index := Scalar.indexCast v452
  ![97, v454.toNat]

def k2_chk138 (v446 : BitVec 32) : Prop :=
  (∀ a, (k2_off311 v446) a + S1x16.size a ≤ S100x128.size a) ∧
  (∀ (r : Fin 3), ∀ a, (k2_off312 v446 (BitVec.ofNat 32 (16 + 16 * r.val))) a + S1x16.size a ≤ S100x128.size a)
instance k2_chk138.dec : ∀ (v446 : BitVec 32), Decidable (k2_chk138 v446) := fun v446 => decidable_of_iff' _ (Iff.of_eq (k2_chk138.eq_1 v446))
theorem k2_off311_inb : ∀ (v446 : BitVec 32) (k2_hw138 : k2_chk138 v446), ∀ a, (k2_off311 v446) a + S1x16.size a ≤ S100x128.size a := fun v446 k2_hw138 => k2_hw138.1
theorem k2_off312_inb : ∀ (v446 : BitVec 32) (k2_hw138 : k2_chk138 v446), ∀ (r : Fin 3), ∀ a, (k2_off312 v446 (BitVec.ofNat 32 (16 + 16 * r.val))) a + S1x16.size a ≤ S100x128.size a := fun v446 k2_hw138 r => k2_hw138.2 r

def k2_off313 (v471 : BitVec 32) : Fin 2 → Nat :=
  let c98_i32_197 : BitVec 32 := 98#32
  let v472 : Index := Scalar.indexCast c98_i32_197
  let v473 : Index := Scalar.indexCast v471
  ![98, v473.toNat]

def k2_off314 (v471 : BitVec 32) (c16_i32_198 : BitVec 32) : Fin 2 → Nat :=
  let c98_i32_199 : BitVec 32 := 98#32
  let v478 : Index := Scalar.indexCast c98_i32_199
  let v477 : BitVec 32 := Scalar.addi v471 c16_i32_198
  let v479 : Index := Scalar.indexCast v477
  ![98, v479.toNat]

def k2_chk139 (v471 : BitVec 32) : Prop :=
  (∀ a, (k2_off313 v471) a + S1x16.size a ≤ S100x128.size a) ∧
  (∀ (r : Fin 3), ∀ a, (k2_off314 v471 (BitVec.ofNat 32 (16 + 16 * r.val))) a + S1x16.size a ≤ S100x128.size a)
instance k2_chk139.dec : ∀ (v471 : BitVec 32), Decidable (k2_chk139 v471) := fun v471 => decidable_of_iff' _ (Iff.of_eq (k2_chk139.eq_1 v471))
theorem k2_off313_inb : ∀ (v471 : BitVec 32) (k2_hw139 : k2_chk139 v471), ∀ a, (k2_off313 v471) a + S1x16.size a ≤ S100x128.size a := fun v471 k2_hw139 => k2_hw139.1
theorem k2_off314_inb : ∀ (v471 : BitVec 32) (k2_hw139 : k2_chk139 v471), ∀ (r : Fin 3), ∀ a, (k2_off314 v471 (BitVec.ofNat 32 (16 + 16 * r.val))) a + S1x16.size a ≤ S100x128.size a := fun v471 k2_hw139 r => k2_hw139.2 r

def k2_off315 (v496 : BitVec 32) : Fin 2 → Nat :=
  let c99_i32_204 : BitVec 32 := 99#32
  let v497 : Index := Scalar.indexCast c99_i32_204
  let v498 : Index := Scalar.indexCast v496
  ![99, v498.toNat]

def k2_off316 (v496 : BitVec 32) (c16_i32_205 : BitVec 32) : Fin 2 → Nat :=
  let c99_i32_206 : BitVec 32 := 99#32
  let v503 : Index := Scalar.indexCast c99_i32_206
  let v502 : BitVec 32 := Scalar.addi v496 c16_i32_205
  let v504 : Index := Scalar.indexCast v502
  ![99, v504.toNat]

def k2_chk140 (v496 : BitVec 32) : Prop :=
  (∀ a, (k2_off315 v496) a + S1x16.size a ≤ S100x128.size a) ∧
  (∀ (r : Fin 3), ∀ a, (k2_off316 v496 (BitVec.ofNat 32 (16 + 16 * r.val))) a + S1x16.size a ≤ S100x128.size a)
instance k2_chk140.dec : ∀ (v496 : BitVec 32), Decidable (k2_chk140 v496) := fun v496 => decidable_of_iff' _ (Iff.of_eq (k2_chk140.eq_1 v496))
theorem k2_off315_inb : ∀ (v496 : BitVec 32) (k2_hw140 : k2_chk140 v496), ∀ a, (k2_off315 v496) a + S1x16.size a ≤ S100x128.size a := fun v496 k2_hw140 => k2_hw140.1
theorem k2_off316_inb : ∀ (v496 : BitVec 32) (k2_hw140 : k2_chk140 v496), ∀ (r : Fin 3), ∀ a, (k2_off316 v496 (BitVec.ofNat 32 (16 + 16 * r.val))) a + S1x16.size a ≤ S100x128.size a := fun v496 k2_hw140 r => k2_hw140.2 r

def k2_off317 (k2_t7 : Fin k2_t7_loop.trips) : Fin 1 → Nat :=
  let c4_i32_156 : BitVec 32 := 4#32
  let c32_i32_18 : BitVec 32 := 32#32
  let c1_i32_20 : BitVec 32 := 1#32
  let arg16 : BitVec 32 := Scf.iv c32_i32_18 c1_i32_20 k2_t7
  let v375 : BitVec 32 := Scalar.muli c4_i32_156 arg16
  let c2_i32_157 : BitVec 32 := 2#32
  let v376 : BitVec 32 := Scalar.addi v375 c2_i32_157
  let c4_i32_211 : BitVec 32 := 4#32
  let v520 : BitVec 32 := Scalar.addi v376 c4_i32_211
  let c254_i32 : BitVec 32 := 254#32
  let v521 : BitVec 32 := Scalar.minsi v520 c254_i32
  let c112_i32_212 : BitVec 32 := 112#32
  let v522 : BitVec 32 := Scalar.muli v521 c112_i32_212
  ![v522.toNat]
@[reducible] def k2_t11_loop : Scf.Loop 32 :=
  let c0_i32_219 : BitVec 32 := 0#32
  let c6_i32_220 : BitVec 32 := 6#32
  let v529 : BitVec 32 := Scalar.addi c0_i32_219 c6_i32_220
  let c1_i32_221 : BitVec 32 := 1#32
  ⟨c0_i32_219, v529, c1_i32_221⟩
def k2_off318 (k2_t7 : Fin k2_t7_loop.trips) (k2_t11 : Fin k2_t11_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_292 : BitVec 32 := 0#32
  let v728 : BitVec 1 := Scalar.cmpi .sgt v526 c0_i32_292
  let v729 : BitVec 32 := Scalar.extui v728
  let c0_i32_293 : BitVec 32 := 0#32
  let v730 : BitVec 1 := Scalar.cmpi .slt v526 c0_i32_293
  let v731 : BitVec 32 := Scalar.extui v730
  let v732 : BitVec 32 := Scalar.subi v729 v731
  let c2_i32_291 : BitVec 32 := 2#32
  let c0_i32_294 : BitVec 32 := 0#32
  let v733 : BitVec 1 := Scalar.cmpi .sgt c2_i32_291 c0_i32_294
  let v734 : BitVec 32 := Scalar.extui v733
  let c0_i32_295 : BitVec 32 := 0#32
  let v735 : BitVec 1 := Scalar.cmpi .slt c2_i32_291 c0_i32_295
  let v736 : BitVec 32 := Scalar.extui v735
  let v737 : BitVec 32 := Scalar.subi v734 v736
  let v738 : BitVec 1 := Scalar.cmpi .ne v732 v737
  let v739 : BitVec 32 := Scalar.remsi v526 c2_i32_291
  let c0_i32_296 : BitVec 32 := 0#32
  let v740 : BitVec 1 := Scalar.cmpi .ne v739 c0_i32_296
  let v741 : BitVec 1 := Scalar.andi v738 v740
  let v727 : BitVec 32 := Scalar.divsi v526 c2_i32_291
  let c1_i32_297 : BitVec 32 := 1#32
  let v742 : BitVec 32 := Scalar.subi v727 c1_i32_297
  let v743 : BitVec 32 := Scalar.select v741 v742 v727
  let v756 : Index := Scalar.indexCast v743
  let c2_i32_298 : BitVec 32 := 2#32
  let c0_i32_299 : BitVec 32 := 0#32
  let v744 : BitVec 1 := Scalar.cmpi .eq c2_i32_298 c0_i32_299
  let c1_i32_300 : BitVec 32 := 1#32
  let v745 : BitVec 32 := Scalar.select v744 c1_i32_300 c2_i32_298
  let v746 : BitVec 32 := Scalar.remsi v526 v745
  let c0_i32_302 : BitVec 32 := 0#32
  let v748 : BitVec 1 := Scalar.cmpi .slt v746 c0_i32_302
  let c0_i32_303 : BitVec 32 := 0#32
  let v749 : BitVec 1 := Scalar.cmpi .slt v745 c0_i32_303
  let v750 : BitVec 1 := Scalar.xori v748 v749
  let c0_i32_301 : BitVec 32 := 0#32
  let v747 : BitVec 1 := Scalar.cmpi .ne v746 c0_i32_301
  let v751 : BitVec 1 := Scalar.andi v750 v747
  let v752 : BitVec 32 := Scalar.addi v746 v745
  let v753 : BitVec 32 := Scalar.select v751 v752 v746
  let c112_i32_304 : BitVec 32 := 112#32
  let v754 : BitVec 32 := Scalar.muli v753 c112_i32_304
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let v755 : BitVec 32 := Scalar.addi v754 v726
  let v757 : Index := Scalar.indexCast v755
  ![v756.toNat, v757.toNat]
def k2_off319 (k2_t11 : Fin k2_t11_loop.trips) (v768 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c0_i32_308 : BitVec 32 := 0#32
  let v766 : BitVec 32 := Scalar.addi v726 c0_i32_308
  let v769 : Index := Scalar.indexCast v766
  let v770 : Index := Scalar.indexCast v768
  ![v769.toNat, v770.toNat]

def k2_off320 (k2_t11 : Fin k2_t11_loop.trips) (v768 : BitVec 32) (c16_i32_309 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c0_i32_308 : BitVec 32 := 0#32
  let v766 : BitVec 32 := Scalar.addi v726 c0_i32_308
  let v775 : Index := Scalar.indexCast v766
  let v774 : BitVec 32 := Scalar.addi v768 c16_i32_309
  let v776 : Index := Scalar.indexCast v774
  ![v775.toNat, v776.toNat]

def k2_chk141 (k2_t11 : Fin k2_t11_loop.trips) (v768 : BitVec 32) : Prop :=
  (∀ a, (k2_off319 k2_t11 v768) a + S1x16.size a ≤ S100x128.size a) ∧
  (∀ (r : Fin 3), ∀ a, (k2_off320 k2_t11 v768 (BitVec.ofNat 32 (16 + 16 * r.val))) a + S1x16.size a ≤ S100x128.size a)
instance k2_chk141.dec : ∀ (k2_t11 : Fin k2_t11_loop.trips) (v768 : BitVec 32), Decidable (k2_chk141 k2_t11 v768) := fun k2_t11 v768 => decidable_of_iff' _ (Iff.of_eq (k2_chk141.eq_1 k2_t11 v768))
theorem k2_off319_inb : ∀ (k2_t11 : Fin k2_t11_loop.trips) (v768 : BitVec 32) (k2_hw141 : k2_chk141 k2_t11 v768), ∀ a, (k2_off319 k2_t11 v768) a + S1x16.size a ≤ S100x128.size a := fun k2_t11 v768 k2_hw141 => k2_hw141.1
theorem k2_off320_inb : ∀ (k2_t11 : Fin k2_t11_loop.trips) (v768 : BitVec 32) (k2_hw141 : k2_chk141 k2_t11 v768), ∀ (r : Fin 3), ∀ a, (k2_off320 k2_t11 v768 (BitVec.ofNat 32 (16 + 16 * r.val))) a + S1x16.size a ≤ S100x128.size a := fun k2_t11 v768 k2_hw141 r => k2_hw141.2 r

def k2_off321 (k2_t11 : Fin k2_t11_loop.trips) (v794 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c1_i32_312 : BitVec 32 := 1#32
  let v792 : BitVec 32 := Scalar.addi v726 c1_i32_312
  let v795 : Index := Scalar.indexCast v792
  let v796 : Index := Scalar.indexCast v794
  ![v795.toNat, v796.toNat]

def k2_off322 (k2_t11 : Fin k2_t11_loop.trips) (v794 : BitVec 32) (c16_i32_313 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c1_i32_312 : BitVec 32 := 1#32
  let v792 : BitVec 32 := Scalar.addi v726 c1_i32_312
  let v801 : Index := Scalar.indexCast v792
  let v800 : BitVec 32 := Scalar.addi v794 c16_i32_313
  let v802 : Index := Scalar.indexCast v800
  ![v801.toNat, v802.toNat]

def k2_chk142 (k2_t11 : Fin k2_t11_loop.trips) (v794 : BitVec 32) : Prop :=
  (∀ a, (k2_off321 k2_t11 v794) a + S1x16.size a ≤ S100x128.size a) ∧
  (∀ (r : Fin 3), ∀ a, (k2_off322 k2_t11 v794 (BitVec.ofNat 32 (16 + 16 * r.val))) a + S1x16.size a ≤ S100x128.size a)
instance k2_chk142.dec : ∀ (k2_t11 : Fin k2_t11_loop.trips) (v794 : BitVec 32), Decidable (k2_chk142 k2_t11 v794) := fun k2_t11 v794 => decidable_of_iff' _ (Iff.of_eq (k2_chk142.eq_1 k2_t11 v794))
theorem k2_off321_inb : ∀ (k2_t11 : Fin k2_t11_loop.trips) (v794 : BitVec 32) (k2_hw142 : k2_chk142 k2_t11 v794), ∀ a, (k2_off321 k2_t11 v794) a + S1x16.size a ≤ S100x128.size a := fun k2_t11 v794 k2_hw142 => k2_hw142.1
theorem k2_off322_inb : ∀ (k2_t11 : Fin k2_t11_loop.trips) (v794 : BitVec 32) (k2_hw142 : k2_chk142 k2_t11 v794), ∀ (r : Fin 3), ∀ a, (k2_off322 k2_t11 v794 (BitVec.ofNat 32 (16 + 16 * r.val))) a + S1x16.size a ≤ S100x128.size a := fun k2_t11 v794 k2_hw142 r => k2_hw142.2 r

def k2_off323 (k2_t11 : Fin k2_t11_loop.trips) (v820 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c2_i32_316 : BitVec 32 := 2#32
  let v818 : BitVec 32 := Scalar.addi v726 c2_i32_316
  let v821 : Index := Scalar.indexCast v818
  let v822 : Index := Scalar.indexCast v820
  ![v821.toNat, v822.toNat]

def k2_off324 (k2_t11 : Fin k2_t11_loop.trips) (v820 : BitVec 32) (c16_i32_317 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c2_i32_316 : BitVec 32 := 2#32
  let v818 : BitVec 32 := Scalar.addi v726 c2_i32_316
  let v827 : Index := Scalar.indexCast v818
  let v826 : BitVec 32 := Scalar.addi v820 c16_i32_317
  let v828 : Index := Scalar.indexCast v826
  ![v827.toNat, v828.toNat]

def k2_chk143 (k2_t11 : Fin k2_t11_loop.trips) (v820 : BitVec 32) : Prop :=
  (∀ a, (k2_off323 k2_t11 v820) a + S1x16.size a ≤ S100x128.size a) ∧
  (∀ (r : Fin 3), ∀ a, (k2_off324 k2_t11 v820 (BitVec.ofNat 32 (16 + 16 * r.val))) a + S1x16.size a ≤ S100x128.size a)
instance k2_chk143.dec : ∀ (k2_t11 : Fin k2_t11_loop.trips) (v820 : BitVec 32), Decidable (k2_chk143 k2_t11 v820) := fun k2_t11 v820 => decidable_of_iff' _ (Iff.of_eq (k2_chk143.eq_1 k2_t11 v820))
theorem k2_off323_inb : ∀ (k2_t11 : Fin k2_t11_loop.trips) (v820 : BitVec 32) (k2_hw143 : k2_chk143 k2_t11 v820), ∀ a, (k2_off323 k2_t11 v820) a + S1x16.size a ≤ S100x128.size a := fun k2_t11 v820 k2_hw143 => k2_hw143.1
theorem k2_off324_inb : ∀ (k2_t11 : Fin k2_t11_loop.trips) (v820 : BitVec 32) (k2_hw143 : k2_chk143 k2_t11 v820), ∀ (r : Fin 3), ∀ a, (k2_off324 k2_t11 v820 (BitVec.ofNat 32 (16 + 16 * r.val))) a + S1x16.size a ≤ S100x128.size a := fun k2_t11 v820 k2_hw143 r => k2_hw143.2 r

def k2_off325 (k2_t11 : Fin k2_t11_loop.trips) (v846 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c3_i32_320 : BitVec 32 := 3#32
  let v844 : BitVec 32 := Scalar.addi v726 c3_i32_320
  let v847 : Index := Scalar.indexCast v844
  let v848 : Index := Scalar.indexCast v846
  ![v847.toNat, v848.toNat]

def k2_off326 (k2_t11 : Fin k2_t11_loop.trips) (v846 : BitVec 32) (c16_i32_321 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c3_i32_320 : BitVec 32 := 3#32
  let v844 : BitVec 32 := Scalar.addi v726 c3_i32_320
  let v853 : Index := Scalar.indexCast v844
  let v852 : BitVec 32 := Scalar.addi v846 c16_i32_321
  let v854 : Index := Scalar.indexCast v852
  ![v853.toNat, v854.toNat]

def k2_chk144 (k2_t11 : Fin k2_t11_loop.trips) (v846 : BitVec 32) : Prop :=
  (∀ a, (k2_off325 k2_t11 v846) a + S1x16.size a ≤ S100x128.size a) ∧
  (∀ (r : Fin 3), ∀ a, (k2_off326 k2_t11 v846 (BitVec.ofNat 32 (16 + 16 * r.val))) a + S1x16.size a ≤ S100x128.size a)
instance k2_chk144.dec : ∀ (k2_t11 : Fin k2_t11_loop.trips) (v846 : BitVec 32), Decidable (k2_chk144 k2_t11 v846) := fun k2_t11 v846 => decidable_of_iff' _ (Iff.of_eq (k2_chk144.eq_1 k2_t11 v846))
theorem k2_off325_inb : ∀ (k2_t11 : Fin k2_t11_loop.trips) (v846 : BitVec 32) (k2_hw144 : k2_chk144 k2_t11 v846), ∀ a, (k2_off325 k2_t11 v846) a + S1x16.size a ≤ S100x128.size a := fun k2_t11 v846 k2_hw144 => k2_hw144.1
theorem k2_off326_inb : ∀ (k2_t11 : Fin k2_t11_loop.trips) (v846 : BitVec 32) (k2_hw144 : k2_chk144 k2_t11 v846), ∀ (r : Fin 3), ∀ a, (k2_off326 k2_t11 v846 (BitVec.ofNat 32 (16 + 16 * r.val))) a + S1x16.size a ≤ S100x128.size a := fun k2_t11 v846 k2_hw144 r => k2_hw144.2 r

def k2_off327 (k2_t11 : Fin k2_t11_loop.trips) (v872 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c4_i32_324 : BitVec 32 := 4#32
  let v870 : BitVec 32 := Scalar.addi v726 c4_i32_324
  let v873 : Index := Scalar.indexCast v870
  let v874 : Index := Scalar.indexCast v872
  ![v873.toNat, v874.toNat]

def k2_off328 (k2_t11 : Fin k2_t11_loop.trips) (v872 : BitVec 32) (c16_i32_325 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c4_i32_324 : BitVec 32 := 4#32
  let v870 : BitVec 32 := Scalar.addi v726 c4_i32_324
  let v879 : Index := Scalar.indexCast v870
  let v878 : BitVec 32 := Scalar.addi v872 c16_i32_325
  let v880 : Index := Scalar.indexCast v878
  ![v879.toNat, v880.toNat]

def k2_chk145 (k2_t11 : Fin k2_t11_loop.trips) (v872 : BitVec 32) : Prop :=
  (∀ a, (k2_off327 k2_t11 v872) a + S1x16.size a ≤ S100x128.size a) ∧
  (∀ (r : Fin 3), ∀ a, (k2_off328 k2_t11 v872 (BitVec.ofNat 32 (16 + 16 * r.val))) a + S1x16.size a ≤ S100x128.size a)
instance k2_chk145.dec : ∀ (k2_t11 : Fin k2_t11_loop.trips) (v872 : BitVec 32), Decidable (k2_chk145 k2_t11 v872) := fun k2_t11 v872 => decidable_of_iff' _ (Iff.of_eq (k2_chk145.eq_1 k2_t11 v872))
theorem k2_off327_inb : ∀ (k2_t11 : Fin k2_t11_loop.trips) (v872 : BitVec 32) (k2_hw145 : k2_chk145 k2_t11 v872), ∀ a, (k2_off327 k2_t11 v872) a + S1x16.size a ≤ S100x128.size a := fun k2_t11 v872 k2_hw145 => k2_hw145.1
theorem k2_off328_inb : ∀ (k2_t11 : Fin k2_t11_loop.trips) (v872 : BitVec 32) (k2_hw145 : k2_chk145 k2_t11 v872), ∀ (r : Fin 3), ∀ a, (k2_off328 k2_t11 v872 (BitVec.ofNat 32 (16 + 16 * r.val))) a + S1x16.size a ≤ S100x128.size a := fun k2_t11 v872 k2_hw145 r => k2_hw145.2 r

def k2_off329 (k2_t11 : Fin k2_t11_loop.trips) (v898 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c5_i32 : BitVec 32 := 5#32
  let v896 : BitVec 32 := Scalar.addi v726 c5_i32
  let v899 : Index := Scalar.indexCast v896
  let v900 : Index := Scalar.indexCast v898
  ![v899.toNat, v900.toNat]

def k2_off330 (k2_t11 : Fin k2_t11_loop.trips) (v898 : BitVec 32) (c16_i32_328 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c5_i32 : BitVec 32 := 5#32
  let v896 : BitVec 32 := Scalar.addi v726 c5_i32
  let v905 : Index := Scalar.indexCast v896
  let v904 : BitVec 32 := Scalar.addi v898 c16_i32_328
  let v906 : Index := Scalar.indexCast v904
  ![v905.toNat, v906.toNat]

def k2_chk146 (k2_t11 : Fin k2_t11_loop.trips) (v898 : BitVec 32) : Prop :=
  (∀ a, (k2_off329 k2_t11 v898) a + S1x16.size a ≤ S100x128.size a) ∧
  (∀ (r : Fin 3), ∀ a, (k2_off330 k2_t11 v898 (BitVec.ofNat 32 (16 + 16 * r.val))) a + S1x16.size a ≤ S100x128.size a)
instance k2_chk146.dec : ∀ (k2_t11 : Fin k2_t11_loop.trips) (v898 : BitVec 32), Decidable (k2_chk146 k2_t11 v898) := fun k2_t11 v898 => decidable_of_iff' _ (Iff.of_eq (k2_chk146.eq_1 k2_t11 v898))
theorem k2_off329_inb : ∀ (k2_t11 : Fin k2_t11_loop.trips) (v898 : BitVec 32) (k2_hw146 : k2_chk146 k2_t11 v898), ∀ a, (k2_off329 k2_t11 v898) a + S1x16.size a ≤ S100x128.size a := fun k2_t11 v898 k2_hw146 => k2_hw146.1
theorem k2_off330_inb : ∀ (k2_t11 : Fin k2_t11_loop.trips) (v898 : BitVec 32) (k2_hw146 : k2_chk146 k2_t11 v898), ∀ (r : Fin 3), ∀ a, (k2_off330 k2_t11 v898 (BitVec.ofNat 32 (16 + 16 * r.val))) a + S1x16.size a ≤ S100x128.size a := fun k2_t11 v898 k2_hw146 r => k2_hw146.2 r

def k2_off331 (k2_t11 : Fin k2_t11_loop.trips) (v924 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c6_i32_331 : BitVec 32 := 6#32
  let v922 : BitVec 32 := Scalar.addi v726 c6_i32_331
  let v925 : Index := Scalar.indexCast v922
  let v926 : Index := Scalar.indexCast v924
  ![v925.toNat, v926.toNat]

def k2_off332 (k2_t11 : Fin k2_t11_loop.trips) (v924 : BitVec 32) (c16_i32_332 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c6_i32_331 : BitVec 32 := 6#32
  let v922 : BitVec 32 := Scalar.addi v726 c6_i32_331
  let v931 : Index := Scalar.indexCast v922
  let v930 : BitVec 32 := Scalar.addi v924 c16_i32_332
  let v932 : Index := Scalar.indexCast v930
  ![v931.toNat, v932.toNat]

def k2_chk147 (k2_t11 : Fin k2_t11_loop.trips) (v924 : BitVec 32) : Prop :=
  (∀ a, (k2_off331 k2_t11 v924) a + S1x16.size a ≤ S100x128.size a) ∧
  (∀ (r : Fin 3), ∀ a, (k2_off332 k2_t11 v924 (BitVec.ofNat 32 (16 + 16 * r.val))) a + S1x16.size a ≤ S100x128.size a)
instance k2_chk147.dec : ∀ (k2_t11 : Fin k2_t11_loop.trips) (v924 : BitVec 32), Decidable (k2_chk147 k2_t11 v924) := fun k2_t11 v924 => decidable_of_iff' _ (Iff.of_eq (k2_chk147.eq_1 k2_t11 v924))
theorem k2_off331_inb : ∀ (k2_t11 : Fin k2_t11_loop.trips) (v924 : BitVec 32) (k2_hw147 : k2_chk147 k2_t11 v924), ∀ a, (k2_off331 k2_t11 v924) a + S1x16.size a ≤ S100x128.size a := fun k2_t11 v924 k2_hw147 => k2_hw147.1
theorem k2_off332_inb : ∀ (k2_t11 : Fin k2_t11_loop.trips) (v924 : BitVec 32) (k2_hw147 : k2_chk147 k2_t11 v924), ∀ (r : Fin 3), ∀ a, (k2_off332 k2_t11 v924 (BitVec.ofNat 32 (16 + 16 * r.val))) a + S1x16.size a ≤ S100x128.size a := fun k2_t11 v924 k2_hw147 r => k2_hw147.2 r

def k2_off333 (k2_t11 : Fin k2_t11_loop.trips) (v950 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c7_i32 : BitVec 32 := 7#32
  let v948 : BitVec 32 := Scalar.addi v726 c7_i32
  let v951 : Index := Scalar.indexCast v948
  let v952 : Index := Scalar.indexCast v950
  ![v951.toNat, v952.toNat]

def k2_off334 (k2_t11 : Fin k2_t11_loop.trips) (v950 : BitVec 32) (c16_i32_335 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c7_i32 : BitVec 32 := 7#32
  let v948 : BitVec 32 := Scalar.addi v726 c7_i32
  let v957 : Index := Scalar.indexCast v948
  let v956 : BitVec 32 := Scalar.addi v950 c16_i32_335
  let v958 : Index := Scalar.indexCast v956
  ![v957.toNat, v958.toNat]

def k2_chk148 (k2_t11 : Fin k2_t11_loop.trips) (v950 : BitVec 32) : Prop :=
  (∀ a, (k2_off333 k2_t11 v950) a + S1x16.size a ≤ S100x128.size a) ∧
  (∀ (r : Fin 3), ∀ a, (k2_off334 k2_t11 v950 (BitVec.ofNat 32 (16 + 16 * r.val))) a + S1x16.size a ≤ S100x128.size a)
instance k2_chk148.dec : ∀ (k2_t11 : Fin k2_t11_loop.trips) (v950 : BitVec 32), Decidable (k2_chk148 k2_t11 v950) := fun k2_t11 v950 => decidable_of_iff' _ (Iff.of_eq (k2_chk148.eq_1 k2_t11 v950))
theorem k2_off333_inb : ∀ (k2_t11 : Fin k2_t11_loop.trips) (v950 : BitVec 32) (k2_hw148 : k2_chk148 k2_t11 v950), ∀ a, (k2_off333 k2_t11 v950) a + S1x16.size a ≤ S100x128.size a := fun k2_t11 v950 k2_hw148 => k2_hw148.1
theorem k2_off334_inb : ∀ (k2_t11 : Fin k2_t11_loop.trips) (v950 : BitVec 32) (k2_hw148 : k2_chk148 k2_t11 v950), ∀ (r : Fin 3), ∀ a, (k2_off334 k2_t11 v950 (BitVec.ofNat 32 (16 + 16 * r.val))) a + S1x16.size a ≤ S100x128.size a := fun k2_t11 v950 k2_hw148 r => k2_hw148.2 r

def k2_off335 (k2_t11 : Fin k2_t11_loop.trips) (v976 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c8_i32 : BitVec 32 := 8#32
  let v974 : BitVec 32 := Scalar.addi v726 c8_i32
  let v977 : Index := Scalar.indexCast v974
  let v978 : Index := Scalar.indexCast v976
  ![v977.toNat, v978.toNat]

def k2_off336 (k2_t11 : Fin k2_t11_loop.trips) (v976 : BitVec 32) (c16_i32_338 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c8_i32 : BitVec 32 := 8#32
  let v974 : BitVec 32 := Scalar.addi v726 c8_i32
  let v983 : Index := Scalar.indexCast v974
  let v982 : BitVec 32 := Scalar.addi v976 c16_i32_338
  let v984 : Index := Scalar.indexCast v982
  ![v983.toNat, v984.toNat]

def k2_chk149 (k2_t11 : Fin k2_t11_loop.trips) (v976 : BitVec 32) : Prop :=
  (∀ a, (k2_off335 k2_t11 v976) a + S1x16.size a ≤ S100x128.size a) ∧
  (∀ (r : Fin 3), ∀ a, (k2_off336 k2_t11 v976 (BitVec.ofNat 32 (16 + 16 * r.val))) a + S1x16.size a ≤ S100x128.size a)
instance k2_chk149.dec : ∀ (k2_t11 : Fin k2_t11_loop.trips) (v976 : BitVec 32), Decidable (k2_chk149 k2_t11 v976) := fun k2_t11 v976 => decidable_of_iff' _ (Iff.of_eq (k2_chk149.eq_1 k2_t11 v976))
theorem k2_off335_inb : ∀ (k2_t11 : Fin k2_t11_loop.trips) (v976 : BitVec 32) (k2_hw149 : k2_chk149 k2_t11 v976), ∀ a, (k2_off335 k2_t11 v976) a + S1x16.size a ≤ S100x128.size a := fun k2_t11 v976 k2_hw149 => k2_hw149.1
theorem k2_off336_inb : ∀ (k2_t11 : Fin k2_t11_loop.trips) (v976 : BitVec 32) (k2_hw149 : k2_chk149 k2_t11 v976), ∀ (r : Fin 3), ∀ a, (k2_off336 k2_t11 v976 (BitVec.ofNat 32 (16 + 16 * r.val))) a + S1x16.size a ≤ S100x128.size a := fun k2_t11 v976 k2_hw149 r => k2_hw149.2 r

def k2_off337 (k2_t11 : Fin k2_t11_loop.trips) (v1002 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c9_i32 : BitVec 32 := 9#32
  let v1000 : BitVec 32 := Scalar.addi v726 c9_i32
  let v1003 : Index := Scalar.indexCast v1000
  let v1004 : Index := Scalar.indexCast v1002
  ![v1003.toNat, v1004.toNat]

def k2_off338 (k2_t11 : Fin k2_t11_loop.trips) (v1002 : BitVec 32) (c16_i32_341 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c9_i32 : BitVec 32 := 9#32
  let v1000 : BitVec 32 := Scalar.addi v726 c9_i32
  let v1009 : Index := Scalar.indexCast v1000
  let v1008 : BitVec 32 := Scalar.addi v1002 c16_i32_341
  let v1010 : Index := Scalar.indexCast v1008
  ![v1009.toNat, v1010.toNat]

def k2_chk150 (k2_t11 : Fin k2_t11_loop.trips) (v1002 : BitVec 32) : Prop :=
  (∀ a, (k2_off337 k2_t11 v1002) a + S1x16.size a ≤ S100x128.size a) ∧
  (∀ (r : Fin 3), ∀ a, (k2_off338 k2_t11 v1002 (BitVec.ofNat 32 (16 + 16 * r.val))) a + S1x16.size a ≤ S100x128.size a)
instance k2_chk150.dec : ∀ (k2_t11 : Fin k2_t11_loop.trips) (v1002 : BitVec 32), Decidable (k2_chk150 k2_t11 v1002) := fun k2_t11 v1002 => decidable_of_iff' _ (Iff.of_eq (k2_chk150.eq_1 k2_t11 v1002))
theorem k2_off337_inb : ∀ (k2_t11 : Fin k2_t11_loop.trips) (v1002 : BitVec 32) (k2_hw150 : k2_chk150 k2_t11 v1002), ∀ a, (k2_off337 k2_t11 v1002) a + S1x16.size a ≤ S100x128.size a := fun k2_t11 v1002 k2_hw150 => k2_hw150.1
theorem k2_off338_inb : ∀ (k2_t11 : Fin k2_t11_loop.trips) (v1002 : BitVec 32) (k2_hw150 : k2_chk150 k2_t11 v1002), ∀ (r : Fin 3), ∀ a, (k2_off338 k2_t11 v1002 (BitVec.ofNat 32 (16 + 16 * r.val))) a + S1x16.size a ≤ S100x128.size a := fun k2_t11 v1002 k2_hw150 r => k2_hw150.2 r

def k2_off339 (k2_t11 : Fin k2_t11_loop.trips) (v1028 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c10_i32 : BitVec 32 := 10#32
  let v1026 : BitVec 32 := Scalar.addi v726 c10_i32
  let v1029 : Index := Scalar.indexCast v1026
  let v1030 : Index := Scalar.indexCast v1028
  ![v1029.toNat, v1030.toNat]

def k2_off340 (k2_t11 : Fin k2_t11_loop.trips) (v1028 : BitVec 32) (c16_i32_344 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c10_i32 : BitVec 32 := 10#32
  let v1026 : BitVec 32 := Scalar.addi v726 c10_i32
  let v1035 : Index := Scalar.indexCast v1026
  let v1034 : BitVec 32 := Scalar.addi v1028 c16_i32_344
  let v1036 : Index := Scalar.indexCast v1034
  ![v1035.toNat, v1036.toNat]

def k2_chk151 (k2_t11 : Fin k2_t11_loop.trips) (v1028 : BitVec 32) : Prop :=
  (∀ a, (k2_off339 k2_t11 v1028) a + S1x16.size a ≤ S100x128.size a) ∧
  (∀ (r : Fin 3), ∀ a, (k2_off340 k2_t11 v1028 (BitVec.ofNat 32 (16 + 16 * r.val))) a + S1x16.size a ≤ S100x128.size a)
instance k2_chk151.dec : ∀ (k2_t11 : Fin k2_t11_loop.trips) (v1028 : BitVec 32), Decidable (k2_chk151 k2_t11 v1028) := fun k2_t11 v1028 => decidable_of_iff' _ (Iff.of_eq (k2_chk151.eq_1 k2_t11 v1028))
theorem k2_off339_inb : ∀ (k2_t11 : Fin k2_t11_loop.trips) (v1028 : BitVec 32) (k2_hw151 : k2_chk151 k2_t11 v1028), ∀ a, (k2_off339 k2_t11 v1028) a + S1x16.size a ≤ S100x128.size a := fun k2_t11 v1028 k2_hw151 => k2_hw151.1
theorem k2_off340_inb : ∀ (k2_t11 : Fin k2_t11_loop.trips) (v1028 : BitVec 32) (k2_hw151 : k2_chk151 k2_t11 v1028), ∀ (r : Fin 3), ∀ a, (k2_off340 k2_t11 v1028 (BitVec.ofNat 32 (16 + 16 * r.val))) a + S1x16.size a ≤ S100x128.size a := fun k2_t11 v1028 k2_hw151 r => k2_hw151.2 r

def k2_off341 (k2_t11 : Fin k2_t11_loop.trips) (v1054 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c11_i32 : BitVec 32 := 11#32
  let v1052 : BitVec 32 := Scalar.addi v726 c11_i32
  let v1055 : Index := Scalar.indexCast v1052
  let v1056 : Index := Scalar.indexCast v1054
  ![v1055.toNat, v1056.toNat]

def k2_off342 (k2_t11 : Fin k2_t11_loop.trips) (v1054 : BitVec 32) (c16_i32_347 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c11_i32 : BitVec 32 := 11#32
  let v1052 : BitVec 32 := Scalar.addi v726 c11_i32
  let v1061 : Index := Scalar.indexCast v1052
  let v1060 : BitVec 32 := Scalar.addi v1054 c16_i32_347
  let v1062 : Index := Scalar.indexCast v1060
  ![v1061.toNat, v1062.toNat]

def k2_chk152 (k2_t11 : Fin k2_t11_loop.trips) (v1054 : BitVec 32) : Prop :=
  (∀ a, (k2_off341 k2_t11 v1054) a + S1x16.size a ≤ S100x128.size a) ∧
  (∀ (r : Fin 3), ∀ a, (k2_off342 k2_t11 v1054 (BitVec.ofNat 32 (16 + 16 * r.val))) a + S1x16.size a ≤ S100x128.size a)
instance k2_chk152.dec : ∀ (k2_t11 : Fin k2_t11_loop.trips) (v1054 : BitVec 32), Decidable (k2_chk152 k2_t11 v1054) := fun k2_t11 v1054 => decidable_of_iff' _ (Iff.of_eq (k2_chk152.eq_1 k2_t11 v1054))
theorem k2_off341_inb : ∀ (k2_t11 : Fin k2_t11_loop.trips) (v1054 : BitVec 32) (k2_hw152 : k2_chk152 k2_t11 v1054), ∀ a, (k2_off341 k2_t11 v1054) a + S1x16.size a ≤ S100x128.size a := fun k2_t11 v1054 k2_hw152 => k2_hw152.1
theorem k2_off342_inb : ∀ (k2_t11 : Fin k2_t11_loop.trips) (v1054 : BitVec 32) (k2_hw152 : k2_chk152 k2_t11 v1054), ∀ (r : Fin 3), ∀ a, (k2_off342 k2_t11 v1054 (BitVec.ofNat 32 (16 + 16 * r.val))) a + S1x16.size a ≤ S100x128.size a := fun k2_t11 v1054 k2_hw152 r => k2_hw152.2 r

def k2_off343 (k2_t11 : Fin k2_t11_loop.trips) (v1080 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c12_i32 : BitVec 32 := 12#32
  let v1078 : BitVec 32 := Scalar.addi v726 c12_i32
  let v1081 : Index := Scalar.indexCast v1078
  let v1082 : Index := Scalar.indexCast v1080
  ![v1081.toNat, v1082.toNat]

def k2_off344 (k2_t11 : Fin k2_t11_loop.trips) (v1080 : BitVec 32) (c16_i32_350 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c12_i32 : BitVec 32 := 12#32
  let v1078 : BitVec 32 := Scalar.addi v726 c12_i32
  let v1087 : Index := Scalar.indexCast v1078
  let v1086 : BitVec 32 := Scalar.addi v1080 c16_i32_350
  let v1088 : Index := Scalar.indexCast v1086
  ![v1087.toNat, v1088.toNat]

def k2_chk153 (k2_t11 : Fin k2_t11_loop.trips) (v1080 : BitVec 32) : Prop :=
  (∀ a, (k2_off343 k2_t11 v1080) a + S1x16.size a ≤ S100x128.size a) ∧
  (∀ (r : Fin 3), ∀ a, (k2_off344 k2_t11 v1080 (BitVec.ofNat 32 (16 + 16 * r.val))) a + S1x16.size a ≤ S100x128.size a)
instance k2_chk153.dec : ∀ (k2_t11 : Fin k2_t11_loop.trips) (v1080 : BitVec 32), Decidable (k2_chk153 k2_t11 v1080) := fun k2_t11 v1080 => decidable_of_iff' _ (Iff.of_eq (k2_chk153.eq_1 k2_t11 v1080))
theorem k2_off343_inb : ∀ (k2_t11 : Fin k2_t11_loop.trips) (v1080 : BitVec 32) (k2_hw153 : k2_chk153 k2_t11 v1080), ∀ a, (k2_off343 k2_t11 v1080) a + S1x16.size a ≤ S100x128.size a := fun k2_t11 v1080 k2_hw153 => k2_hw153.1
theorem k2_off344_inb : ∀ (k2_t11 : Fin k2_t11_loop.trips) (v1080 : BitVec 32) (k2_hw153 : k2_chk153 k2_t11 v1080), ∀ (r : Fin 3), ∀ a, (k2_off344 k2_t11 v1080 (BitVec.ofNat 32 (16 + 16 * r.val))) a + S1x16.size a ≤ S100x128.size a := fun k2_t11 v1080 k2_hw153 r => k2_hw153.2 r

def k2_off345 (k2_t11 : Fin k2_t11_loop.trips) (v1106 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c13_i32 : BitVec 32 := 13#32
  let v1104 : BitVec 32 := Scalar.addi v726 c13_i32
  let v1107 : Index := Scalar.indexCast v1104
  let v1108 : Index := Scalar.indexCast v1106
  ![v1107.toNat, v1108.toNat]

def k2_off346 (k2_t11 : Fin k2_t11_loop.trips) (v1106 : BitVec 32) (c16_i32_353 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c13_i32 : BitVec 32 := 13#32
  let v1104 : BitVec 32 := Scalar.addi v726 c13_i32
  let v1113 : Index := Scalar.indexCast v1104
  let v1112 : BitVec 32 := Scalar.addi v1106 c16_i32_353
  let v1114 : Index := Scalar.indexCast v1112
  ![v1113.toNat, v1114.toNat]

def k2_chk154 (k2_t11 : Fin k2_t11_loop.trips) (v1106 : BitVec 32) : Prop :=
  (∀ a, (k2_off345 k2_t11 v1106) a + S1x16.size a ≤ S100x128.size a) ∧
  (∀ (r : Fin 3), ∀ a, (k2_off346 k2_t11 v1106 (BitVec.ofNat 32 (16 + 16 * r.val))) a + S1x16.size a ≤ S100x128.size a)
instance k2_chk154.dec : ∀ (k2_t11 : Fin k2_t11_loop.trips) (v1106 : BitVec 32), Decidable (k2_chk154 k2_t11 v1106) := fun k2_t11 v1106 => decidable_of_iff' _ (Iff.of_eq (k2_chk154.eq_1 k2_t11 v1106))
theorem k2_off345_inb : ∀ (k2_t11 : Fin k2_t11_loop.trips) (v1106 : BitVec 32) (k2_hw154 : k2_chk154 k2_t11 v1106), ∀ a, (k2_off345 k2_t11 v1106) a + S1x16.size a ≤ S100x128.size a := fun k2_t11 v1106 k2_hw154 => k2_hw154.1
theorem k2_off346_inb : ∀ (k2_t11 : Fin k2_t11_loop.trips) (v1106 : BitVec 32) (k2_hw154 : k2_chk154 k2_t11 v1106), ∀ (r : Fin 3), ∀ a, (k2_off346 k2_t11 v1106 (BitVec.ofNat 32 (16 + 16 * r.val))) a + S1x16.size a ≤ S100x128.size a := fun k2_t11 v1106 k2_hw154 r => k2_hw154.2 r

def k2_off347 (k2_t11 : Fin k2_t11_loop.trips) (v1132 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c14_i32_356 : BitVec 32 := 14#32
  let v1130 : BitVec 32 := Scalar.addi v726 c14_i32_356
  let v1133 : Index := Scalar.indexCast v1130
  let v1134 : Index := Scalar.indexCast v1132
  ![v1133.toNat, v1134.toNat]

def k2_off348 (k2_t11 : Fin k2_t11_loop.trips) (v1132 : BitVec 32) (c16_i32_357 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c14_i32_356 : BitVec 32 := 14#32
  let v1130 : BitVec 32 := Scalar.addi v726 c14_i32_356
  let v1139 : Index := Scalar.indexCast v1130
  let v1138 : BitVec 32 := Scalar.addi v1132 c16_i32_357
  let v1140 : Index := Scalar.indexCast v1138
  ![v1139.toNat, v1140.toNat]

def k2_chk155 (k2_t11 : Fin k2_t11_loop.trips) (v1132 : BitVec 32) : Prop :=
  (∀ a, (k2_off347 k2_t11 v1132) a + S1x16.size a ≤ S100x128.size a) ∧
  (∀ (r : Fin 3), ∀ a, (k2_off348 k2_t11 v1132 (BitVec.ofNat 32 (16 + 16 * r.val))) a + S1x16.size a ≤ S100x128.size a)
instance k2_chk155.dec : ∀ (k2_t11 : Fin k2_t11_loop.trips) (v1132 : BitVec 32), Decidable (k2_chk155 k2_t11 v1132) := fun k2_t11 v1132 => decidable_of_iff' _ (Iff.of_eq (k2_chk155.eq_1 k2_t11 v1132))
theorem k2_off347_inb : ∀ (k2_t11 : Fin k2_t11_loop.trips) (v1132 : BitVec 32) (k2_hw155 : k2_chk155 k2_t11 v1132), ∀ a, (k2_off347 k2_t11 v1132) a + S1x16.size a ≤ S100x128.size a := fun k2_t11 v1132 k2_hw155 => k2_hw155.1
theorem k2_off348_inb : ∀ (k2_t11 : Fin k2_t11_loop.trips) (v1132 : BitVec 32) (k2_hw155 : k2_chk155 k2_t11 v1132), ∀ (r : Fin 3), ∀ a, (k2_off348 k2_t11 v1132 (BitVec.ofNat 32 (16 + 16 * r.val))) a + S1x16.size a ≤ S100x128.size a := fun k2_t11 v1132 k2_hw155 r => k2_hw155.2 r

def k2_off349 (k2_t11 : Fin k2_t11_loop.trips) (v1158 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c15_i32 : BitVec 32 := 15#32
  let v1156 : BitVec 32 := Scalar.addi v726 c15_i32
  let v1159 : Index := Scalar.indexCast v1156
  let v1160 : Index := Scalar.indexCast v1158
  ![v1159.toNat, v1160.toNat]

def k2_off350 (k2_t11 : Fin k2_t11_loop.trips) (v1158 : BitVec 32) (c16_i32_360 : BitVec 32) : Fin 2 → Nat :=
  let c0_i32_219 : BitVec 32 := 0#32
  let c1_i32_221 : BitVec 32 := 1#32
  let arg17 : BitVec 32 := Scf.iv c0_i32_219 c1_i32_221 k2_t11
  let c16_i32_290 : BitVec 32 := 16#32
  let v726 : BitVec 32 := Scalar.muli arg17 c16_i32_290
  let c15_i32 : BitVec 32 := 15#32
  let v1156 : BitVec 32 := Scalar.addi v726 c15_i32
  let v1165 : Index := Scalar.indexCast v1156
  let v1164 : BitVec 32 := Scalar.addi v1158 c16_i32_360
  let v1166 : Index := Scalar.indexCast v1164
  ![v1165.toNat, v1166.toNat]

def k2_chk156 (k2_t11 : Fin k2_t11_loop.trips) (v1158 : BitVec 32) : Prop :=
  (∀ a, (k2_off349 k2_t11 v1158) a + S1x16.size a ≤ S100x128.size a) ∧
  (∀ (r : Fin 3), ∀ a, (k2_off350 k2_t11 v1158 (BitVec.ofNat 32 (16 + 16 * r.val))) a + S1x16.size a ≤ S100x128.size a)
instance k2_chk156.dec : ∀ (k2_t11 : Fin k2_t11_loop.trips) (v1158 : BitVec 32), Decidable (k2_chk156 k2_t11 v1158) := fun k2_t11 v1158 => decidable_of_iff' _ (Iff.of_eq (k2_chk156.eq_1 k2_t11 v1158))
theorem k2_off349_inb : ∀ (k2_t11 : Fin k2_t11_loop.trips) (v1158 : BitVec 32) (k2_hw156 : k2_chk156 k2_t11 v1158), ∀ a, (k2_off349 k2_t11 v1158) a + S1x16.size a ≤ S100x128.size a := fun k2_t11 v1158 k2_hw156 => k2_hw156.1
theorem k2_off350_inb : ∀ (k2_t11 : Fin k2_t11_loop.trips) (v1158 : BitVec 32) (k2_hw156 : k2_chk156 k2_t11 v1158), ∀ (r : Fin 3), ∀ a, (k2_off350 k2_t11 v1158 (BitVec.ofNat 32 (16 + 16 * r.val))) a + S1x16.size a ≤ S100x128.size a := fun k2_t11 v1158 k2_hw156 r => k2_hw156.2 r

def k2_off351 (k2_t7 : Fin k2_t7_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_224 : BitVec 32 := 0#32
  let v532 : BitVec 1 := Scalar.cmpi .sgt v526 c0_i32_224
  let v533 : BitVec 32 := Scalar.extui v532
  let c0_i32_225 : BitVec 32 := 0#32
  let v534 : BitVec 1 := Scalar.cmpi .slt v526 c0_i32_225
  let v535 : BitVec 32 := Scalar.extui v534
  let v536 : BitVec 32 := Scalar.subi v533 v535
  let c2_i32_223 : BitVec 32 := 2#32
  let c0_i32_226 : BitVec 32 := 0#32
  let v537 : BitVec 1 := Scalar.cmpi .sgt c2_i32_223 c0_i32_226
  let v538 : BitVec 32 := Scalar.extui v537
  let c0_i32_227 : BitVec 32 := 0#32
  let v539 : BitVec 1 := Scalar.cmpi .slt c2_i32_223 c0_i32_227
  let v540 : BitVec 32 := Scalar.extui v539
  let v541 : BitVec 32 := Scalar.subi v538 v540
  let v542 : BitVec 1 := Scalar.cmpi .ne v536 v541
  let v543 : BitVec 32 := Scalar.remsi v526 c2_i32_223
  let c0_i32_228 : BitVec 32 := 0#32
  let v544 : BitVec 1 := Scalar.cmpi .ne v543 c0_i32_228
  let v545 : BitVec 1 := Scalar.andi v542 v544
  let v531 : BitVec 32 := Scalar.divsi v526 c2_i32_223
  let c1_i32_229 : BitVec 32 := 1#32
  let v546 : BitVec 32 := Scalar.subi v531 c1_i32_229
  let v547 : BitVec 32 := Scalar.select v545 v546 v531
  let v560 : Index := Scalar.indexCast v547
  let c2_i32_230 : BitVec 32 := 2#32
  let c0_i32_231 : BitVec 32 := 0#32
  let v548 : BitVec 1 := Scalar.cmpi .eq c2_i32_230 c0_i32_231
  let c1_i32_232 : BitVec 32 := 1#32
  let v549 : BitVec 32 := Scalar.select v548 c1_i32_232 c2_i32_230
  let v550 : BitVec 32 := Scalar.remsi v526 v549
  let c0_i32_234 : BitVec 32 := 0#32
  let v552 : BitVec 1 := Scalar.cmpi .slt v550 c0_i32_234
  let c0_i32_235 : BitVec 32 := 0#32
  let v553 : BitVec 1 := Scalar.cmpi .slt v549 c0_i32_235
  let v554 : BitVec 1 := Scalar.xori v552 v553
  let c0_i32_233 : BitVec 32 := 0#32
  let v551 : BitVec 1 := Scalar.cmpi .ne v550 c0_i32_233
  let v555 : BitVec 1 := Scalar.andi v554 v551
  let v556 : BitVec 32 := Scalar.addi v550 v549
  let v557 : BitVec 32 := Scalar.select v555 v556 v550
  let c112_i32_236 : BitVec 32 := 112#32
  let v558 : BitVec 32 := Scalar.muli v557 c112_i32_236
  let c96_i32_237 : BitVec 32 := 96#32
  let v559 : BitVec 32 := Scalar.addi v558 c96_i32_237
  let v561 : Index := Scalar.indexCast v559
  ![v560.toNat, v561.toNat]
def k2_off352 (v571 : BitVec 32) : Fin 2 → Nat :=
  let c96_i32_241 : BitVec 32 := 96#32
  let v572 : Index := Scalar.indexCast c96_i32_241
  let v573 : Index := Scalar.indexCast v571
  ![96, v573.toNat]

def k2_off353 (v571 : BitVec 32) (c16_i32_242 : BitVec 32) : Fin 2 → Nat :=
  let c96_i32_243 : BitVec 32 := 96#32
  let v578 : Index := Scalar.indexCast c96_i32_243
  let v577 : BitVec 32 := Scalar.addi v571 c16_i32_242
  let v579 : Index := Scalar.indexCast v577
  ![96, v579.toNat]

def k2_chk157 (v571 : BitVec 32) : Prop :=
  (∀ a, (k2_off352 v571) a + S1x16.size a ≤ S100x128.size a) ∧
  (∀ (r : Fin 3), ∀ a, (k2_off353 v571 (BitVec.ofNat 32 (16 + 16 * r.val))) a + S1x16.size a ≤ S100x128.size a)
instance k2_chk157.dec : ∀ (v571 : BitVec 32), Decidable (k2_chk157 v571) := fun v571 => decidable_of_iff' _ (Iff.of_eq (k2_chk157.eq_1 v571))
theorem k2_off352_inb : ∀ (v571 : BitVec 32) (k2_hw157 : k2_chk157 v571), ∀ a, (k2_off352 v571) a + S1x16.size a ≤ S100x128.size a := fun v571 k2_hw157 => k2_hw157.1
theorem k2_off353_inb : ∀ (v571 : BitVec 32) (k2_hw157 : k2_chk157 v571), ∀ (r : Fin 3), ∀ a, (k2_off353 v571 (BitVec.ofNat 32 (16 + 16 * r.val))) a + S1x16.size a ≤ S100x128.size a := fun v571 k2_hw157 r => k2_hw157.2 r

def k2_off354 (v596 : BitVec 32) : Fin 2 → Nat :=
  let c97_i32_248 : BitVec 32 := 97#32
  let v597 : Index := Scalar.indexCast c97_i32_248
  let v598 : Index := Scalar.indexCast v596
  ![97, v598.toNat]

def k2_off355 (v596 : BitVec 32) (c16_i32_249 : BitVec 32) : Fin 2 → Nat :=
  let c97_i32_250 : BitVec 32 := 97#32
  let v603 : Index := Scalar.indexCast c97_i32_250
  let v602 : BitVec 32 := Scalar.addi v596 c16_i32_249
  let v604 : Index := Scalar.indexCast v602
  ![97, v604.toNat]

def k2_chk158 (v596 : BitVec 32) : Prop :=
  (∀ a, (k2_off354 v596) a + S1x16.size a ≤ S100x128.size a) ∧
  (∀ (r : Fin 3), ∀ a, (k2_off355 v596 (BitVec.ofNat 32 (16 + 16 * r.val))) a + S1x16.size a ≤ S100x128.size a)
instance k2_chk158.dec : ∀ (v596 : BitVec 32), Decidable (k2_chk158 v596) := fun v596 => decidable_of_iff' _ (Iff.of_eq (k2_chk158.eq_1 v596))
theorem k2_off354_inb : ∀ (v596 : BitVec 32) (k2_hw158 : k2_chk158 v596), ∀ a, (k2_off354 v596) a + S1x16.size a ≤ S100x128.size a := fun v596 k2_hw158 => k2_hw158.1
theorem k2_off355_inb : ∀ (v596 : BitVec 32) (k2_hw158 : k2_chk158 v596), ∀ (r : Fin 3), ∀ a, (k2_off355 v596 (BitVec.ofNat 32 (16 + 16 * r.val))) a + S1x16.size a ≤ S100x128.size a := fun v596 k2_hw158 r => k2_hw158.2 r

def k2_off356 (v621 : BitVec 32) : Fin 2 → Nat :=
  let c98_i32_255 : BitVec 32 := 98#32
  let v622 : Index := Scalar.indexCast c98_i32_255
  let v623 : Index := Scalar.indexCast v621
  ![98, v623.toNat]

def k2_off357 (v621 : BitVec 32) (c16_i32_256 : BitVec 32) : Fin 2 → Nat :=
  let c98_i32_257 : BitVec 32 := 98#32
  let v628 : Index := Scalar.indexCast c98_i32_257
  let v627 : BitVec 32 := Scalar.addi v621 c16_i32_256
  let v629 : Index := Scalar.indexCast v627
  ![98, v629.toNat]

def k2_chk159 (v621 : BitVec 32) : Prop :=
  (∀ a, (k2_off356 v621) a + S1x16.size a ≤ S100x128.size a) ∧
  (∀ (r : Fin 3), ∀ a, (k2_off357 v621 (BitVec.ofNat 32 (16 + 16 * r.val))) a + S1x16.size a ≤ S100x128.size a)
instance k2_chk159.dec : ∀ (v621 : BitVec 32), Decidable (k2_chk159 v621) := fun v621 => decidable_of_iff' _ (Iff.of_eq (k2_chk159.eq_1 v621))
theorem k2_off356_inb : ∀ (v621 : BitVec 32) (k2_hw159 : k2_chk159 v621), ∀ a, (k2_off356 v621) a + S1x16.size a ≤ S100x128.size a := fun v621 k2_hw159 => k2_hw159.1
theorem k2_off357_inb : ∀ (v621 : BitVec 32) (k2_hw159 : k2_chk159 v621), ∀ (r : Fin 3), ∀ a, (k2_off357 v621 (BitVec.ofNat 32 (16 + 16 * r.val))) a + S1x16.size a ≤ S100x128.size a := fun v621 k2_hw159 r => k2_hw159.2 r

def k2_off358 (v646 : BitVec 32) : Fin 2 → Nat :=
  let c99_i32_262 : BitVec 32 := 99#32
  let v647 : Index := Scalar.indexCast c99_i32_262
  let v648 : Index := Scalar.indexCast v646
  ![99, v648.toNat]

def k2_off359 (v646 : BitVec 32) (c16_i32_263 : BitVec 32) : Fin 2 → Nat :=
  let c99_i32_264 : BitVec 32 := 99#32
  let v653 : Index := Scalar.indexCast c99_i32_264
  let v652 : BitVec 32 := Scalar.addi v646 c16_i32_263
  let v654 : Index := Scalar.indexCast v652
  ![99, v654.toNat]

def k2_chk160 (v646 : BitVec 32) : Prop :=
  (∀ a, (k2_off358 v646) a + S1x16.size a ≤ S100x128.size a) ∧
  (∀ (r : Fin 3), ∀ a, (k2_off359 v646 (BitVec.ofNat 32 (16 + 16 * r.val))) a + S1x16.size a ≤ S100x128.size a)
instance k2_chk160.dec : ∀ (v646 : BitVec 32), Decidable (k2_chk160 v646) := fun v646 => decidable_of_iff' _ (Iff.of_eq (k2_chk160.eq_1 v646))
theorem k2_off358_inb : ∀ (v646 : BitVec 32) (k2_hw160 : k2_chk160 v646), ∀ a, (k2_off358 v646) a + S1x16.size a ≤ S100x128.size a := fun v646 k2_hw160 => k2_hw160.1
theorem k2_off359_inb : ∀ (v646 : BitVec 32) (k2_hw160 : k2_chk160 v646), ∀ (r : Fin 3), ∀ a, (k2_off359 v646 (BitVec.ofNat 32 (16 + 16 * r.val))) a + S1x16.size a ≤ S100x128.size a := fun v646 k2_hw160 r => k2_hw160.2 r

def k2_off360 (k2_t7 : Fin k2_t7_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v699 : Index := Scalar.indexCast v696
  let c0_282 : Index := 0#32
  ![v699.toNat, 0]
def k2_off361 (k2_t7 : Fin k2_t7_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v705 : Index := Scalar.indexCast v696
  let c16_283 : Index := 16#32
  ![v705.toNat, 16]
def k2_off362 (k2_t7 : Fin k2_t7_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v711 : Index := Scalar.indexCast v696
  let c32_284 : Index := 32#32
  ![v711.toNat, 32]
def k2_off363 (k2_t7 : Fin k2_t7_loop.trips) : Fin 2 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c0_i32_270 : BitVec 32 := 0#32
  let v671 : BitVec 1 := Scalar.cmpi .sgt v526 c0_i32_270
  let v672 : BitVec 32 := Scalar.extui v671
  let c0_i32_271 : BitVec 32 := 0#32
  let v673 : BitVec 1 := Scalar.cmpi .slt v526 c0_i32_271
  let v674 : BitVec 32 := Scalar.extui v673
  let v675 : BitVec 32 := Scalar.subi v672 v674
  let c2_i32_269 : BitVec 32 := 2#32
  let c0_i32_272 : BitVec 32 := 0#32
  let v676 : BitVec 1 := Scalar.cmpi .sgt c2_i32_269 c0_i32_272
  let v677 : BitVec 32 := Scalar.extui v676
  let c0_i32_273 : BitVec 32 := 0#32
  let v678 : BitVec 1 := Scalar.cmpi .slt c2_i32_269 c0_i32_273
  let v679 : BitVec 32 := Scalar.extui v678
  let v680 : BitVec 32 := Scalar.subi v677 v679
  let v681 : BitVec 1 := Scalar.cmpi .ne v675 v680
  let v682 : BitVec 32 := Scalar.remsi v526 c2_i32_269
  let c0_i32_274 : BitVec 32 := 0#32
  let v683 : BitVec 1 := Scalar.cmpi .ne v682 c0_i32_274
  let v684 : BitVec 1 := Scalar.andi v681 v683
  let v670 : BitVec 32 := Scalar.divsi v526 c2_i32_269
  let c1_i32_275 : BitVec 32 := 1#32
  let v685 : BitVec 32 := Scalar.subi v670 c1_i32_275
  let v686 : BitVec 32 := Scalar.select v684 v685 v670
  let c64_i32_276 : BitVec 32 := 64#32
  let c0_i32_277 : BitVec 32 := 0#32
  let v687 : BitVec 1 := Scalar.cmpi .eq c64_i32_276 c0_i32_277
  let c1_i32_278 : BitVec 32 := 1#32
  let v688 : BitVec 32 := Scalar.select v687 c1_i32_278 c64_i32_276
  let v689 : BitVec 32 := Scalar.remsi v686 v688
  let c0_i32_280 : BitVec 32 := 0#32
  let v691 : BitVec 1 := Scalar.cmpi .slt v689 c0_i32_280
  let c0_i32_281 : BitVec 32 := 0#32
  let v692 : BitVec 1 := Scalar.cmpi .slt v688 c0_i32_281
  let v693 : BitVec 1 := Scalar.xori v691 v692
  let c0_i32_279 : BitVec 32 := 0#32
  let v690 : BitVec 1 := Scalar.cmpi .ne v689 c0_i32_279
  let v694 : BitVec 1 := Scalar.andi v693 v690
  let v695 : BitVec 32 := Scalar.addi v689 v688
  let v696 : BitVec 32 := Scalar.select v694 v695 v689
  let v717 : Index := Scalar.indexCast v696
  let c48_285 : Index := 48#32
  ![v717.toNat, 48]
def k2_off364 (k2_t7 : Fin k2_t7_loop.trips) : Fin 1 → Nat :=
  let c4_i32_215 : BitVec 32 := 4#32
  let c32_i32_18 : BitVec 32 := 32#32
  let c1_i32_20 : BitVec 32 := 1#32
  let arg16 : BitVec 32 := Scf.iv c32_i32_18 c1_i32_20 k2_t7
  let v525 : BitVec 32 := Scalar.muli c4_i32_215 arg16
  let c3_i32 : BitVec 32 := 3#32
  let v526 : BitVec 32 := Scalar.addi v525 c3_i32
  let c4_i32_286 : BitVec 32 := 4#32
  let v721 : BitVec 32 := Scalar.addi v526 c4_i32_286
  let c255_i32 : BitVec 32 := 255#32
  let v722 : BitVec 32 := Scalar.minsi v721 c255_i32
  let c112_i32_287 : BitVec 32 := 112#32
  let v723 : BitVec 32 := Scalar.muli v722 c112_i32_287
  ![v723.toNat]
def k2_off365 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v23 : BitVec 32 := Scalar.addi v2 c64_i32
  let c0_i32_34_r2 : BitVec 32 := 0#32
  ![v23.toNat, 0]
abbrev grid3 : Pipeline.Grid := .none

abbrev stage3_0 : Fin 1 → Memref sig .tc .vmem S4096x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S4096x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  inb_S200x1024_S200x1024_0_0 : ∀ a, (![0, 0] : Fin 2 → Nat) a + S200x1024.size a ≤ S200x1024.size a
  h_S200x1024 : 0 < S200x1024.numel
  shapeCasts_S200x1024_S200x1024 : S200x1024.ShapeCasts S200x1024
  transposes_S200x1024_p1_0_S1024x200 : S200x1024.Transposes [1, 0] S1024x200
  slices_S1024x200_o0_0_S1024x100 : S1024x200.Slices ![0, 0] S1024x100
  slices_S1024x200_o0_100_S1024x100 : S1024x200.Slices ![0, 100] S1024x100
  concatenates_S1024x100_S1024x12_S1024x100_S1024x12_S1024x224_d1 : Shape.Concatenates [S1024x100, S1024x12, S1024x100, S1024x12] S1024x224 1
  inb_S1024x224_S1024x224_0_0 : ∀ a, (![0, 0] : Fin 2 → Nat) a + S1024x224.size a ≤ S1024x224.size a
  h_S1024x224 : 0 < S1024x224.numel
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  transposes_S64x32768_p1_0_S32768x64 : S64x32768.Transposes [1, 0] S32768x64
  slices_S32768x64_o0_0_S16384x64 : S32768x64.Slices ![0, 0] S16384x64
  slices_S32768x64_o16384_0_S16384x64 : S32768x64.Slices ![16384, 0] S16384x64
  concatenates_S16384x64_S16384x64_S16384x128_d1 : Shape.Concatenates [S16384x64, S16384x64] S16384x128 1
  inb_S16384x128_S16384x128_0_0 : ∀ a, (![0, 0] : Fin 2 → Nat) a + S16384x128.size a ≤ S16384x128.size a
  h_S16384x128 : 0 < S16384x128.numel
  h_S1x16 : 0 < S1x16.numel
  shapeCasts_S1x16_S16 : S1x16.ShapeCasts S16
  h_S16 : 0 < S16.numel
  shapeCasts_S16_S16 : S16.ShapeCasts S16
  inb_S28672_S100_0 : ∀ a, (![0] : Fin 1 → Nat) a + S100.size a ≤ S28672.size a
  inb_S507904x128_S507904x128_0_0 : ∀ a, (![0, 0] : Fin 2 → Nat) a + S507904x128.size a ≤ S507904x128.size a
  gathers_S507904x128_S100x128 : S507904x128.Gathers 0 S100x128
  inb_S28672_S100_112 : ∀ a, (![112] : Fin 1 → Nat) a + S100.size a ≤ S28672.size a
  inb_S28672_S100_224 : ∀ a, (![224] : Fin 1 → Nat) a + S100.size a ≤ S28672.size a
  inb_S28672_S100_336 : ∀ a, (![336] : Fin 1 → Nat) a + S100.size a ≤ S28672.size a
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S16_S1x16 : S16.ShapeCasts S1x16
  transposes_S128x64_S64x128_1_0 : S128x64.Transposes [1, 0] S64x128
  shapeCasts_S128_S1x128 : S128.ShapeCasts S1x128
  transposes_S2x128_S128x2_1_0 : S2x128.Transposes [1, 0] S128x2
  shapeCasts_S2_S1x2 : S2.ShapeCasts S1x2
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  reduces_S4096x2_S4096 : S4096x2.Reduces [1] S4096
  shapeCasts_S4096_S4096x1 : S4096.ShapeCasts S4096x1
  broadcasts_S4096x1_S4096x2 : S4096x1.Broadcasts S4096x2
  inb_S4096x2_S4096x2_0_0 : ∀ a, (![0, 0] : Fin 2 → Nat) a + S4096x2.size a ≤ S4096x2.size a
  h_S4096x2 : 0 < S4096x2.numel
  dot_S4096x64_S64x128_S4096x128_1_0_0_1_n_n_wf : DotDims.WF S4096x64 S64x128 S4096x128 [1] [0] [0] [1] [] []
  dot_S4096x128_S128x2_S4096x2_1_0_0_1_n_n_wf : DotDims.WF S4096x128 S128x2 S4096x2 [1] [0] [0] [1] [] []
  hcc2_scratch7 : 8 + S_.numel ≤ 21
  hcc2_scratch8 : 9 + S_.numel ≤ 21
  hcc2_scratch9 : 10 + S_.numel ≤ 21
  hcc2_scratch10 : 11 + S_.numel ≤ 21
  hcc2_scoped0 : 12 + S_.numel ≤ 21
  hcc2_scoped1 : 13 + S_.numel ≤ 21
  hcc2_scoped2 : 14 + S_.numel ≤ 21
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1024.size a ≤ S200x4096.size a
  hwx0_0 : ∀ i : grid0.Coords, EltTy.bits .i32 = 32 ∨ (Rect.block (s := S200x4096) S200x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x224.size a ≤ S4096x224.size a
  hwx0_1 : ∀ i : grid0.Coords, EltTy.bits .i32 = 32 ∨ (Rect.block (s := S4096x224) S1024x224.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S64x32768.size a < S64x1000000.size a
  hwx1_0 : ∀ i : grid1.Coords, EltTy.bits .f32 = 32 ∨ (Rect.unit (s := S64x1000000) (fun a => cc1_transform_0 i a * S64x32768.size a) (fun a => (Pipeline.Clip.of (cc1_transform_0 i a) (S64x32768.size a) (S64x1000000.size a)).extent (S64x32768.size a)) fun a => Pipeline.Clip.inb (Pipeline.Clip.ok_of (hstart1_0 i a))).WholeWords (EltTy.packing .f32)
  hwxs1_0 : ∀ i : grid1.Coords, EltTy.bits .f32 = 32 ∨ (Rect.unit (s := S64x32768) (fun _ => 0) (fun a => (Pipeline.Clip.of (cc1_transform_0 i a) (S64x32768.size a) (S64x1000000.size a)).extent (S64x32768.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S507904x128.size a
  hwx1_1 : ∀ i : grid1.Coords, EltTy.bits .f32 = 32 ∨ (Rect.block (s := S507904x128) S16384x128.size (cc1_transform_1 i) (hinb1_1 i)).WholeWords (EltTy.packing .f32)
  hcore2 : grid2.bound 0 ≤ τ.nSC
  hsub2 : grid2.bound 1 ≤ τ.nSub
  k2_off1_inb : ∀ i : grid2.Coords, ∀ a, (k2_off1 i) a + S128x224.size a ≤ S4096x224.size a
  k2_t1_ok : k2_t1_loop.OK
  k2_off2_inb : ∀ k2_t1 : Fin k2_t1_loop.trips, ∀ a, (k2_off2 k2_t1) a + S1x16.size a ≤ S128x224.size a
  k2_off3_inb : ∀ k2_t1 : Fin k2_t1_loop.trips, ∀ a, (k2_off3 k2_t1) a + S16.size a ≤ S28672.size a
  k2_t2_ok : k2_t2_loop.OK
  k2_t3_ok : k2_t3_loop.OK
  k2_off4_inb : ∀ (k2_t2 : Fin k2_t2_loop.trips) (k2_t3 : Fin k2_t3_loop.trips), ∀ a, (k2_off4 k2_t2 k2_t3) a + S1x16.size a ≤ S128x224.size a
  k2_off37_inb : ∀ k2_t2 : Fin k2_t2_loop.trips, ∀ a, (k2_off37 k2_t2) a + S1x16.size a ≤ S128x224.size a
  k2_off46_inb : ∀ k2_t2 : Fin k2_t2_loop.trips, ∀ a, (k2_off46 k2_t2) a + S100.size a ≤ S28672.size a
  k2_t4_ok : k2_t4_loop.OK
  k2_off47_inb : ∀ (k2_t2 : Fin k2_t2_loop.trips) (k2_t4 : Fin k2_t4_loop.trips), ∀ a, (k2_off47 k2_t2 k2_t4) a + S1x16.size a ≤ S128x224.size a
  k2_off80_inb : ∀ k2_t2 : Fin k2_t2_loop.trips, ∀ a, (k2_off80 k2_t2) a + S1x16.size a ≤ S128x224.size a
  k2_off89_inb : ∀ k2_t2 : Fin k2_t2_loop.trips, ∀ a, (k2_off89 k2_t2) a + S1x16.size a ≤ S64x64.size a
  k2_off90_inb : ∀ k2_t2 : Fin k2_t2_loop.trips, ∀ a, (k2_off90 k2_t2) a + S1x16.size a ≤ S64x64.size a
  k2_off91_inb : ∀ k2_t2 : Fin k2_t2_loop.trips, ∀ a, (k2_off91 k2_t2) a + S1x16.size a ≤ S64x64.size a
  k2_off92_inb : ∀ k2_t2 : Fin k2_t2_loop.trips, ∀ a, (k2_off92 k2_t2) a + S1x16.size a ≤ S64x64.size a
  k2_off93_inb : ∀ k2_t2 : Fin k2_t2_loop.trips, ∀ a, (k2_off93 k2_t2) a + S100.size a ≤ S28672.size a
  k2_t5_ok : k2_t5_loop.OK
  k2_off94_inb : ∀ (k2_t2 : Fin k2_t2_loop.trips) (k2_t5 : Fin k2_t5_loop.trips), ∀ a, (k2_off94 k2_t2 k2_t5) a + S1x16.size a ≤ S128x224.size a
  k2_off127_inb : ∀ k2_t2 : Fin k2_t2_loop.trips, ∀ a, (k2_off127 k2_t2) a + S1x16.size a ≤ S128x224.size a
  k2_off136_inb : ∀ k2_t2 : Fin k2_t2_loop.trips, ∀ a, (k2_off136 k2_t2) a + S100.size a ≤ S28672.size a
  k2_t6_ok : k2_t6_loop.OK
  k2_off137_inb : ∀ (k2_t2 : Fin k2_t2_loop.trips) (k2_t6 : Fin k2_t6_loop.trips), ∀ a, (k2_off137 k2_t2 k2_t6) a + S1x16.size a ≤ S128x224.size a
  k2_off170_inb : ∀ k2_t2 : Fin k2_t2_loop.trips, ∀ a, (k2_off170 k2_t2) a + S1x16.size a ≤ S128x224.size a
  k2_off179_inb : ∀ k2_t2 : Fin k2_t2_loop.trips, ∀ a, (k2_off179 k2_t2) a + S1x16.size a ≤ S64x64.size a
  k2_off180_inb : ∀ k2_t2 : Fin k2_t2_loop.trips, ∀ a, (k2_off180 k2_t2) a + S1x16.size a ≤ S64x64.size a
  k2_off181_inb : ∀ k2_t2 : Fin k2_t2_loop.trips, ∀ a, (k2_off181 k2_t2) a + S1x16.size a ≤ S64x64.size a
  k2_off182_inb : ∀ k2_t2 : Fin k2_t2_loop.trips, ∀ a, (k2_off182 k2_t2) a + S1x16.size a ≤ S64x64.size a
  k2_off183_inb : ∀ k2_t2 : Fin k2_t2_loop.trips, ∀ a, (k2_off183 k2_t2) a + S100.size a ≤ S28672.size a
  k2_off184_inb : ∀ i : grid2.Coords, ∀ a, (k2_off184 i) a + S64x64.size a ≤ S4096x64.size a
  k2_t7_ok : k2_t7_loop.OK
  k2_t8_ok : k2_t8_loop.OK
  k2_off185_inb : ∀ (k2_t7 : Fin k2_t7_loop.trips) (k2_t8 : Fin k2_t8_loop.trips), ∀ a, (k2_off185 k2_t7 k2_t8) a + S1x16.size a ≤ S128x224.size a
  k2_off218_inb : ∀ k2_t7 : Fin k2_t7_loop.trips, ∀ a, (k2_off218 k2_t7) a + S1x16.size a ≤ S128x224.size a
  k2_off227_inb : ∀ k2_t7 : Fin k2_t7_loop.trips, ∀ a, (k2_off227 k2_t7) a + S100.size a ≤ S28672.size a
  k2_t9_ok : k2_t9_loop.OK
  k2_off228_inb : ∀ (k2_t7 : Fin k2_t7_loop.trips) (k2_t9 : Fin k2_t9_loop.trips), ∀ a, (k2_off228 k2_t7 k2_t9) a + S1x16.size a ≤ S128x224.size a
  k2_off261_inb : ∀ k2_t7 : Fin k2_t7_loop.trips, ∀ a, (k2_off261 k2_t7) a + S1x16.size a ≤ S128x224.size a
  k2_off270_inb : ∀ k2_t7 : Fin k2_t7_loop.trips, ∀ a, (k2_off270 k2_t7) a + S1x16.size a ≤ S64x64.size a
  k2_off271_inb : ∀ k2_t7 : Fin k2_t7_loop.trips, ∀ a, (k2_off271 k2_t7) a + S1x16.size a ≤ S64x64.size a
  k2_off272_inb : ∀ k2_t7 : Fin k2_t7_loop.trips, ∀ a, (k2_off272 k2_t7) a + S1x16.size a ≤ S64x64.size a
  k2_off273_inb : ∀ k2_t7 : Fin k2_t7_loop.trips, ∀ a, (k2_off273 k2_t7) a + S1x16.size a ≤ S64x64.size a
  k2_off274_inb : ∀ k2_t7 : Fin k2_t7_loop.trips, ∀ a, (k2_off274 k2_t7) a + S100.size a ≤ S28672.size a
  k2_t10_ok : k2_t10_loop.OK
  k2_off275_inb : ∀ (k2_t7 : Fin k2_t7_loop.trips) (k2_t10 : Fin k2_t10_loop.trips), ∀ a, (k2_off275 k2_t7 k2_t10) a + S1x16.size a ≤ S128x224.size a
  k2_off308_inb : ∀ k2_t7 : Fin k2_t7_loop.trips, ∀ a, (k2_off308 k2_t7) a + S1x16.size a ≤ S128x224.size a
  k2_off317_inb : ∀ k2_t7 : Fin k2_t7_loop.trips, ∀ a, (k2_off317 k2_t7) a + S100.size a ≤ S28672.size a
  k2_t11_ok : k2_t11_loop.OK
  k2_off318_inb : ∀ (k2_t7 : Fin k2_t7_loop.trips) (k2_t11 : Fin k2_t11_loop.trips), ∀ a, (k2_off318 k2_t7 k2_t11) a + S1x16.size a ≤ S128x224.size a
  k2_off351_inb : ∀ k2_t7 : Fin k2_t7_loop.trips, ∀ a, (k2_off351 k2_t7) a + S1x16.size a ≤ S128x224.size a
  k2_off360_inb : ∀ k2_t7 : Fin k2_t7_loop.trips, ∀ a, (k2_off360 k2_t7) a + S1x16.size a ≤ S64x64.size a
  k2_off361_inb : ∀ k2_t7 : Fin k2_t7_loop.trips, ∀ a, (k2_off361 k2_t7) a + S1x16.size a ≤ S64x64.size a
  k2_off362_inb : ∀ k2_t7 : Fin k2_t7_loop.trips, ∀ a, (k2_off362 k2_t7) a + S1x16.size a ≤ S64x64.size a
  k2_off363_inb : ∀ k2_t7 : Fin k2_t7_loop.trips, ∀ a, (k2_off363 k2_t7) a + S1x16.size a ≤ S64x64.size a
  k2_off364_inb : ∀ k2_t7 : Fin k2_t7_loop.trips, ∀ a, (k2_off364 k2_t7) a + S100.size a ≤ S28672.size a
  k2_off365_inb : ∀ i : grid2.Coords, ∀ a, (k2_off365 i) a + S64x64.size a ≤ S4096x64.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole

variable [Facts₀]

abbrev cc2_scratch7 : DmaSems sig S_ := SemArray.consecutive 8 S_ hcc2_scratch7
abbrev cc2_scratch8 : DmaSems sig S_ := SemArray.consecutive 9 S_ hcc2_scratch8
abbrev cc2_scratch9 : DmaSems sig S_ := SemArray.consecutive 10 S_ hcc2_scratch9
abbrev cc2_scratch10 : DmaSems sig S_ := SemArray.consecutive 11 S_ hcc2_scratch10
abbrev cc2_scoped0 : DmaSems sig S_ := SemArray.consecutive 12 S_ hcc2_scoped0
abbrev cc2_scoped1 : DmaSems sig S_ := SemArray.consecutive 13 S_ hcc2_scoped1
abbrev cc2_scoped2 : DmaSems sig S_ := SemArray.consecutive 14 S_ hcc2_scoped2
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_v0) S200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v2) S64x32768.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v3) S16384x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win3_0 : Pipeline.Window sig grid3 :=
  Pipeline.Window.whole (Memref.whole main_v4) false false (stage3_0 0) (sem3_0 0) (Memref.isWhole_whole _) (hstage3_0 0)

abbrev win3_1 : Pipeline.Window sig grid3 :=
  Pipeline.Window.whole (Memref.whole main_v5) false false (stage3_1 0) (sem3_1 0) (Memref.isWhole_whole _) (hstage3_1 0)

abbrev win3_2 : Pipeline.Window sig grid3 :=
  Pipeline.Window.whole (Memref.whole main_v6) false false (stage3_2 0) (sem3_2 0) (Memref.isWhole_whole _) (hstage3_2 0)

abbrev win3_3 : Pipeline.Window sig grid3 :=
  Pipeline.Window.whole (Memref.whole main_v7) false false (stage3_3 0) (sem3_3 0) (Memref.isWhole_whole _) (hstage3_3 0)

abbrev win3_4 : Pipeline.Window sig grid3 :=
  Pipeline.Window.whole (Memref.whole main_v8) false false (stage3_4 0) (sem3_4 0) (Memref.isWhole_whole _) (hstage3_4 0)

abbrev win3_5 : Pipeline.Window sig grid3 :=
  Pipeline.Window.whole (Memref.whole main_v9) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x200 : Shape := ⟨2, ![4096, 200]⟩
abbrev S4096 : Shape := ⟨1, ![4096]⟩
abbrev S1000000x64 : Shape := ⟨2, ![1000000, 64]⟩
abbrev S128x64 : Shape := ⟨2, ![128, 64]⟩
abbrev S128 : Shape := ⟨1, ![128]⟩
abbrev S2x128 : Shape := ⟨2, ![2, 128]⟩
abbrev S2 : Shape := ⟨1, ![2]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S4096x64 : Shape := ⟨2, ![4096, 64]⟩
abbrev S64x128 : Shape := ⟨2, ![64, 128]⟩
abbrev S4096x128 : Shape := ⟨2, ![4096, 128]⟩
abbrev S1x128 : Shape := ⟨2, ![1, 128]⟩
abbrev S128x2 : Shape := ⟨2, ![128, 2]⟩
abbrev S4096x2 : Shape := ⟨2, ![4096, 2]⟩
abbrev S1x2 : Shape := ⟨2, ![1, 2]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096, .i32⟩
  | .hbm, ⟨2, _⟩ => ⟨S1000000x64, .f32⟩
  | .hbm, ⟨3, _⟩ => ⟨S128x64, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200x64, .f32⟩
  | .hbm, ⟨26, _⟩ => ⟨S4096x200x64, .i1⟩
  | .hbm, ⟨27, _⟩ => ⟨S_, .f32⟩
  | .hbm, ⟨28, _⟩ => ⟨S4096x200x64, .f32⟩
  | .hbm, ⟨29, _⟩ => ⟨S4096x200x64, .f32⟩
  | .hbm, ⟨30, _⟩ => ⟨S_, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | .hbm, ⟨35, _⟩ => ⟨S64x128, .f32⟩
  | .hbm, ⟨36, _⟩ => ⟨S4096x128, .f32⟩
  | .hbm, ⟨37, _⟩ => ⟨S1x128, .f32⟩
  | .hbm, ⟨38, _⟩ => ⟨S4096x128, .f32⟩
  | .hbm, ⟨39, _⟩ => ⟨S4096x128, .f32⟩
  | .hbm, ⟨40, _⟩ => ⟨S_, .f32⟩
  | .hbm, ⟨41, _⟩ => ⟨S4096x128, .f32⟩
  | .hbm, ⟨42, _⟩ => ⟨S4096x128, .f32⟩
  | .hbm, ⟨43, _⟩ => ⟨S128x2, .f32⟩
  | .hbm, ⟨44, _⟩ => ⟨S4096x2, .f32⟩
  | .hbm, ⟨45, _⟩ => ⟨S1x2, .f32⟩
  | .hbm, ⟨46, _⟩ => ⟨S4096x2, .f32⟩
  | .hbm, ⟨47, _⟩ => ⟨S4096x2, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x2, .f32⟩
  | .hbm, ⟨55, _⟩ => ⟨S4096x2, .f32⟩
  | .hbm, ⟨56, _⟩ => ⟨S4096x2, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2, .f32⟩
  | .hbm, ⟨61, _⟩ => ⟨S4096x2, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_call1_cst : Ref sig .tc := ⟨.hbm, 40, rfl⟩
abbrev main_call1_v0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  reducesTo_S4096x200x64_S4096x64_d1 : S4096x200x64.ReducesTo [1] S4096x64
  bcast_S_S4096x64 : S_.BroadcastsInDim S4096x64 (![] : Fin 0 → Fin S4096x64.rank)
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S2x128_S128x2_1_0 : S2x128.Transposes [1, 0] S128x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  gather_S1000000x64_S4096x200x1_S4096x200x64_2_0_n_n_0_2_164_wf : GatherDims.WF S1000000x64 S4096x200x1 S4096x200x64 [2] [0] [] [0] [] 2 ![1, 64]
  dot_S4096x64_S64x128_S4096x128_1_0_0_1_n_n_wf : DotDims.WF S4096x64 S64x128 S4096x128 [1] [0] [0] [1] [] []
  dot_S4096x128_S128x2_S4096x2_1_0_0_1_n_n_wf : DotDims.WF S4096x128 S128x2 S4096x2 [1] [0] [0] [1] [] []

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Preserves.lean ====
/-
  The ideal pass's ledger has two entries, both the same named constant: the kernel's scale `f32(1/200)` is printed in
  the idealized kernel as the name "inv_200", which the certificate's table reads as the rational 1/200. Each entry's
  statement is the rule's own: the table gives the name that value.
-/
import proofs.«207435_g27118423507386_cont_sun_m_668_27_alg».proof.Defs

noncomputable section

namespace Cert.Proof.Preserves

open Idealize.ShloMosaic

theorem preserves : Cert.preserves_Kernel_KernelIdeal :=
  ⟨IdealRules.named_const.statement Cert.KernelIdeal.κ "inv_200" .f32 0x3BA3D70A#32 ((1 / 200 : ℝ) : EReal) rfl,
   IdealRules.named_const.statement Cert.KernelIdeal.κ "inv_200" .f32 0x3BA3D70A#32 ((1 / 200 : ℝ) : EReal) rfl⟩

end Cert.Proof.Preserves

end
-- ==== Proof.RefRun.lean ====
/-
  The reference program's run, read back. Its @main is a straight line of 55 host operations once the three outlined
  functions are written out at their calls: the row lookup (`jnp.take` in its fill mode: a negative index is first
  wrapped by the table's height, an index outside `[0, 999999]` after that yields a NaN row, any other index the
  table's row), the sum over the 200 positions of a bag and its quotient by 200, the two affine layers with the
  rectifier between them, and the softmax over the two classes (the row maximum subtracted before the exponential).
  Every weakly fair execution of that line terminates, and each buffer ends at the fold of the operations over the
  launch contents; the result buffer's fold is the pure function `refOut` of the argument arrays.
-/
import proofs.«207435_g27118423507386_cont_sun_m_668_27_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 55 operations, in order, the outlined functions' lines standing where they are called. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    nullary main_cst (constant S_ .f32 0x00000000#32),
    binary main_v0 main_cst main_v1 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_0 (constant S_ .f32 0x43480000#32),
    unary main_cst_0 main_v2 (broadcastInDim S4096x64 ![] bcast_S_S4096x64 : (⟨S_, .f32⟩ : BufTy).Contents (Elt F) → (⟨S4096x64, .f32⟩ : BufTy).Contents (Elt F)),
    binary main_v1 main_v2 main_v3 (Host.divf : (⟨S4096x64, .f32⟩ : BufTy).Contents (Elt F) → (⟨S4096x64, .f32⟩ : BufTy).Contents (Elt F) → (⟨S4096x64, .f32⟩ : BufTy).Contents (Elt F)),
    unary main_arg3 main_v4 ((transpose S64x128 [1, 0] · transposes_S128x64_S64x128_1_0) : (⟨S128x64, .f32⟩ : BufTy).Contents (Elt F) → (⟨S64x128, .f32⟩ : BufTy).Contents (Elt F)),
    binary main_v3 main_v4 main_v5 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v5 main_v7 main_v8 (addf : (⟨S4096x128, .f32⟩ : BufTy).Contents (Elt F) → (⟨S4096x128, .f32⟩ : BufTy).Contents (Elt F) → (⟨S4096x128, .f32⟩ : BufTy).Contents (Elt F)),
    TRef.nullary main_call1.cst (constant S_ .f32 0x00000000#32),
    TRef.unary main_call1.cst main_call1.v0 (broadcastInDim S4096x128 ![] bcast_S_S4096x128),
    TRef.binary (.of main_v8) main_call1.v0 main_call1.v1 maximumf,
    unary main_arg5 main_v10 ((transpose S128x2 [1, 0] · transposes_S2x128_S128x2_1_0) : (⟨S2x128, .f32⟩ : BufTy).Contents (Elt F) → (⟨S128x2, .f32⟩ : BufTy).Contents (Elt F)),
    binary main_v9 main_v10 main_v11 ((fun l r => Host.dotGeneral dot_S4096x128_S128x2_S4096x2_1_0_0_1_n_n none l r) : (⟨S4096x128, .f32⟩ : BufTy).Contents (Elt F) → (⟨S128x2, .f32⟩ : BufTy).Contents (Elt F) → (⟨S4096x2, .f32⟩ : BufTy).Contents (Elt F)),
    unary main_arg6 main_v12 (broadcastInDim S1x2 ![1] bcast_S2_S1x2_1 : (⟨S2, .f32⟩ : BufTy).Contents (Elt F) → (⟨S1x2, .f32⟩ : BufTy).Contents (Elt F)),
    unary main_v12 main_v13 (broadcastInDim S4096x2 ![0, 1] bcast_S1x2_S4096x2_0_1 : (⟨S1x2, .f32⟩ : BufTy).Contents (Elt F) → (⟨S4096x2, .f32⟩ : BufTy).Contents (Elt F)),
    binary main_v11 main_v13 main_v14 (addf : (⟨S4096x2, .f32⟩ : BufTy).Contents (Elt F) → (⟨S4096x2, .f32⟩ : BufTy).Contents (Elt F) → (⟨S4096x2, .f32⟩ : BufTy).Contents (Elt F)),
    nullary main_cst_1 (constant S_ .f32 0xFF800000#32),
    binary main_v14 main_cst_1 main_v15 ((fun x v => Host.reduce FloatOps.maximumf x v reducesTo_S4096x2_S4096_d1 h_S_) : (⟨S4096x2, .f32⟩ : BufTy).Contents (Elt F) → (⟨S_, .f32⟩ : BufTy).Contents (Elt F) → (⟨S4096, .f32⟩ : BufTy).Contents (Elt F)),
    nullary main_cst_2 (constant S_ .f32 0xFF800000#32),
    unary main_cst_2 main_v16 (broadcastInDim S4096 ![] bcast_S_S4096 : (⟨S_, .f32⟩ : BufTy).Contents (Elt F) → (⟨S4096, .f32⟩ : BufTy).Contents (Elt F)),
    binary main_v16 main_v15 main_v17 (maximumf : (⟨S4096, .f32⟩ : BufTy).Contents (Elt F) → (⟨S4096, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x2 ![0, 1] bcast_S4096x1_S4096x2_0_1 : (⟨S4096x1, .f32⟩ : BufTy).Contents (Elt F) → (⟨S4096x2, .f32⟩ : BufTy).Contents (Elt F)),
    binary main_v14 main_v19 main_v20 (subf : (⟨S4096x2, .f32⟩ : BufTy).Contents (Elt F) → (⟨S4096x2, .f32⟩ : BufTy).Contents (Elt F) → (⟨S4096x2, .f32⟩ : BufTy).Contents (Elt F)),
    unary main_v20 main_v21 (Host.exp : (⟨S4096x2, .f32⟩ : BufTy).Contents (Elt F) → (⟨S4096x2, .f32⟩ : BufTy).Contents (Elt F)),
    nullary main_cst_3 (constant S_ .f32 0x00000000#32),
    binary main_v21 main_cst_3 main_v22 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x2 ![0, 1] bcast_S4096x1_S4096x2_0_1 : (⟨S4096x1, .f32⟩ : BufTy).Contents (Elt F) → (⟨S4096x2, .f32⟩ : BufTy).Contents (Elt F)),
    binary main_v21 main_v24 main_v25 (Host.divf : (⟨S4096x2, .f32⟩ : BufTy).Contents (Elt F) → (⟨S4096x2, .f32⟩ : BufTy).Contents (Elt F) → (⟨S4096x2, .f32⟩ : BufTy).Contents (Elt F)) ]

set_option maxRecDepth 2048 in
/-- @main is that straight line: the functions' bodies unfolded at their calls, sequencing reassociated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Every weakly fair execution of @main terminates, and each TensorCore buffer ends at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  What the reference computes, as one pure function of the argument arrays, and its run stated with that function.
  `takeRows` is the row lookup in its fill mode; `pooled` the sum over a bag's 200 positions divided by 200;
  `hidden` and `logits` the two affine layers (the first followed by the rectifier); `softmaxRef` the softmax over
  the two classes with the row maximum subtracted first. The fold of the 55 operations at the result buffer is
  `refOut` by unfolding; at an argument buffer it is the launch contents, no operation writing there.
-/
import proofs.«207435_g27118423507386_cont_sun_m_668_27_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A negative index wrapped by the table's height (jnp's convention), any other kept. -/
abbrev wrapIdx (idx : (⟨S4096x200, .i32⟩ : BufTy).Contents (Elt F)) : (⟨S4096x200, .i32⟩ : BufTy).Contents (Elt F) :=
  select (cmpi .slt idx (broadcastInDim S4096x200 ![] bcast_S_S4096x200 (constantI S_ 32 0#32)))
    (addi idx (broadcastInDim S4096x200 ![] bcast_S_S4096x200 (constantI S_ 32 1000000#32))) idx

/-- The wrapped indices as the lookup's start indices (a trailing axis of extent one). -/
abbrev startIdx (idx : (⟨S4096x200, .i32⟩ : BufTy).Contents (Elt F)) : (⟨S4096x200x1, .i32⟩ : BufTy).Contents (Elt F) :=
  broadcastInDim S4096x200x1 ![0, 1] bcast_S4096x200_S4096x200x1_0_1 (wrapIdx idx)

/-- Whether a wrapped index names a row: `0 ≤ i ≤ 999999`. -/
abbrev inRange (idx : (⟨S4096x200, .i32⟩ : BufTy).Contents (Elt F)) : (⟨S4096x200, .i1⟩ : BufTy).Contents (Elt F) :=
  Host.reduce IntOp.andi
    (andi (cmpi .sge (startIdx idx) (broadcastInDim S4096x200x1 ![] bcast_S_S4096x200x1 (constantI S_ 32 0#32)))
      (cmpi .sle (startIdx idx) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The looked-up rows: the table's row where the index names one, a NaN row elsewhere. -/
abbrev takeRows (tbl : (⟨S1000000x64, .f32⟩ : BufTy).Contents (Elt F)) (idx : (⟨S4096x200, .i32⟩ : BufTy).Contents (Elt F)) : (⟨S4096x200x64, .f32⟩ : BufTy).Contents (Elt F) :=
  select (broadcastInDim S4096x200x64 ![0, 1] bcast_S4096x200_S4096x200x64_0_1 (inRange idx))
    (Host.gather gather_S1000000x64_S4096x200x1_S4096x200x64_2_0_n_n_0_2_164 tbl (startIdx idx))
    (broadcastInDim S4096x200x64 ![] bcast_S_S4096x200x64 (constant S_ .f32 0x7FC00000#32))

/-- A bag's mean row: the sum over its 200 positions, divided by 200. -/
abbrev pooled (tbl : (⟨S1000000x64, .f32⟩ : BufTy).Contents (Elt F)) (idx : (⟨S4096x200, .i32⟩ : BufTy).Contents (Elt F)) : (⟨S4096x64, .f32⟩ : BufTy).Contents (Elt F) :=
  Host.divf (Host.reduceAdd (takeRows tbl idx) (constant S_ .f32 0x00000000#32) reducesTo_S4096x200x64_S4096x64_d1 h_S_)
    (broadcastInDim S4096x64 ![] bcast_S_S4096x64 (constant S_ .f32 0x43480000#32))

/-- The first layer: `max (x · W1ᵀ + b1) 0`. -/
abbrev hidden (x : (⟨S4096x64, .f32⟩ : BufTy).Contents (Elt F)) (W1 : (⟨S128x64, .f32⟩ : BufTy).Contents (Elt F)) (b1 : (⟨S128, .f32⟩ : BufTy).Contents (Elt F)) : (⟨S4096x128, .f32⟩ : BufTy).Contents (Elt F) :=
  maximumf
    (addf (Host.dotGeneral dot_S4096x64_S64x128_S4096x128_1_0_0_1_n_n none x (transpose S64x128 [1, 0] W1 transposes_S128x64_S64x128_1_0))
      (broadcastInDim S4096x128 ![0, 1] bcast_S1x128_S4096x128_0_1 (broadcastInDim S1x128 ![1] bcast_S128_S1x128_1 b1)))
    (broadcastInDim S4096x128 ![] bcast_S_S4096x128 (constant S_ .f32 0x00000000#32))

/-- The second layer: `h · W2ᵀ + b2`. -/
abbrev logits (h : (⟨S4096x128, .f32⟩ : BufTy).Contents (Elt F)) (W2 : (⟨S2x128, .f32⟩ : BufTy).Contents (Elt F)) (b2 : (⟨S2, .f32⟩ : BufTy).Contents (Elt F)) : (⟨S4096x2, .f32⟩ : BufTy).Contents (Elt F) :=
  addf (Host.dotGeneral dot_S4096x128_S128x2_S4096x2_1_0_0_1_n_n none h (transpose S128x2 [1, 0] W2 transposes_S2x128_S128x2_1_0))
    (broadcastInDim S4096x2 ![0, 1] bcast_S1x2_S4096x2_0_1 (broadcastInDim S1x2 ![1] bcast_S2_S1x2_1 b2))

/-- The exponentials of a row's entries less the row's maximum. -/
abbrev expShifted (z : (⟨S4096x2, .f32⟩ : BufTy).Contents (Elt F)) : (⟨S4096x2, .f32⟩ : BufTy).Contents (Elt F) :=
  Host.exp (subf z (broadcastInDim S4096x2 ![0, 1] bcast_S4096x1_S4096x2_0_1 (broadcastInDim S4096x1 ![0] bcast_S4096_S4096x1_0
    (maximumf (broadcastInDim S4096 ![] bcast_S_S4096 (constant S_ .f32 0xFF800000#32))
      (Host.reduce FloatOps.maximumf z (constant S_ .f32 0xFF800000#32) reducesTo_S4096x2_S4096_d1 h_S_)))))

/-- The softmax over the two classes. -/
abbrev softmaxRef (z : (⟨S4096x2, .f32⟩ : BufTy).Contents (Elt F)) : (⟨S4096x2, .f32⟩ : BufTy).Contents (Elt F) :=
  Host.divf (expShifted z) (broadcastInDim S4096x2 ![0, 1] bcast_S4096x1_S4096x2_0_1 (broadcastInDim S4096x1 ![0] bcast_S4096_S4096x1_0
    (Host.reduceAdd (expShifted z) (constant S_ .f32 0x00000000#32) reducesTo_S4096x2_S4096_d1 h_S_)))

/-- The reference's result as a function of its arguments (the bag lengths are not used). -/
abbrev refOut (idx : (⟨S4096x200, .i32⟩ : BufTy).Contents (Elt F)) (tbl : (⟨S1000000x64, .f32⟩ : BufTy).Contents (Elt F)) (W1 : (⟨S128x64, .f32⟩ : BufTy).Contents (Elt F)) (b1 : (⟨S128, .f32⟩ : BufTy).Contents (Elt F))
    (W2 : (⟨S2x128, .f32⟩ : BufTy).Contents (Elt F)) (b2 : (⟨S2, .f32⟩ : BufTy).Contents (Elt F)) : (⟨S4096x2, .f32⟩ : BufTy).Contents (Elt F) :=
  softmaxRef (logits (hidden (pooled tbl idx) W1 b1) W2 b2)

/-! ## The fold, stretch by stretch

The line is cut into five stretches — the lookup, the mean, the first layer, the second layer, the softmax —, each read
from an arbitrary valuation: what it leaves at its result buffer as a function of what it found at its operand buffers,
and that it leaves alone the buffers later stretches and the claim read. -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The lookup's 23 operations. -/
abbrev ops_take : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- The sum over a bag and its quotient by 200. -/
abbrev ops_mean : List (HloOp τ sig (Elt F)) :=
  [ nullary main_cst (constant S_ .f32 0x00000000#32),
    binary main_v0 main_cst main_v1 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_0 (constant S_ .f32 0x43480000#32),
    unary main_cst_0 main_v2 (broadcastInDim S4096x64 ![] bcast_S_S4096x64 : (⟨S_, .f32⟩ : BufTy).Contents (Elt F) → (⟨S4096x64, .f32⟩ : BufTy).Contents (Elt F)),
    binary main_v1 main_v2 main_v3 (Host.divf : (⟨S4096x64, .f32⟩ : BufTy).Contents (Elt F) → (⟨S4096x64, .f32⟩ : BufTy).Contents (Elt F) → (⟨S4096x64, .f32⟩ : BufTy).Contents (Elt F)) ]

/-- The first layer and the rectifier. -/
abbrev ops_l1 : List (HloOp τ sig (Elt F)) :=
  [ unary main_arg3 main_v4 ((transpose S64x128 [1, 0] · transposes_S128x64_S64x128_1_0) : (⟨S128x64, .f32⟩ : BufTy).Contents (Elt F) → (⟨S64x128, .f32⟩ : BufTy).Contents (Elt F)),
    binary main_v3 main_v4 main_v5 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v5 main_v7 main_v8 (addf : (⟨S4096x128, .f32⟩ : BufTy).Contents (Elt F) → (⟨S4096x128, .f32⟩ : BufTy).Contents (Elt F) → (⟨S4096x128, .f32⟩ : BufTy).Contents (Elt F)),
    TRef.nullary main_call1.cst (constant S_ .f32 0x00000000#32),
    TRef.unary main_call1.cst main_call1.v0 (broadcastInDim S4096x128 ![] bcast_S_S4096x128),
    TRef.binary (.of main_v8) main_call1.v0 main_call1.v1 maximumf ]

/-- The second layer. -/
abbrev ops_l2 : List (HloOp τ sig (Elt F)) :=
  [ unary main_arg5 main_v10 ((transpose S128x2 [1, 0] · transposes_S2x128_S128x2_1_0) : (⟨S2x128, .f32⟩ : BufTy).Contents (Elt F) → (⟨S128x2, .f32⟩ : BufTy).Contents (Elt F)),
    binary main_v9 main_v10 main_v11 ((fun l r => Host.dotGeneral dot_S4096x128_S128x2_S4096x2_1_0_0_1_n_n none l r) : (⟨S4096x128, .f32⟩ : BufTy).Contents (Elt F) → (⟨S128x2, .f32⟩ : BufTy).Contents (Elt F) → (⟨S4096x2, .f32⟩ : BufTy).Contents (Elt F)),
    unary main_arg6 main_v12 (broadcastInDim S1x2 ![1] bcast_S2_S1x2_1 : (⟨S2, .f32⟩ : BufTy).Contents (Elt F) → (⟨S1x2, .f32⟩ : BufTy).Contents (Elt F)),
    unary main_v12 main_v13 (broadcastInDim S4096x2 ![0, 1] bcast_S1x2_S4096x2_0_1 : (⟨S1x2, .f32⟩ : BufTy).Contents (Elt F) → (⟨S4096x2, .f32⟩ : BufTy).Contents (Elt F)),
    binary main_v11 main_v13 main_v14 (addf : (⟨S4096x2, .f32⟩ : BufTy).Contents (Elt F) → (⟨S4096x2, .f32⟩ : BufTy).Contents (Elt F) → (⟨S4096x2, .f32⟩ : BufTy).Contents (Elt F)) ]

/-- The softmax. -/
abbrev ops_sm : List (HloOp τ sig (Elt F)) :=
  [ nullary main_cst_1 (constant S_ .f32 0xFF800000#32),
    binary main_v14 main_cst_1 main_v15 ((fun x v => Host.reduce FloatOps.maximumf x v reducesTo_S4096x2_S4096_d1 h_S_) : (⟨S4096x2, .f32⟩ : BufTy).Contents (Elt F) → (⟨S_, .f32⟩ : BufTy).Contents (Elt F) → (⟨S4096, .f32⟩ : BufTy).Contents (Elt F)),
    nullary main_cst_2 (constant S_ .f32 0xFF800000#32),
    unary main_cst_2 main_v16 (broadcastInDim S4096 ![] bcast_S_S4096 : (⟨S_, .f32⟩ : BufTy).Contents (Elt F) → (⟨S4096, .f32⟩ : BufTy).Contents (Elt F)),
    binary main_v16 main_v15 main_v17 (maximumf : (⟨S4096, .f32⟩ : BufTy).Contents (Elt F) → (⟨S4096, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x2 ![0, 1] bcast_S4096x1_S4096x2_0_1 : (⟨S4096x1, .f32⟩ : BufTy).Contents (Elt F) → (⟨S4096x2, .f32⟩ : BufTy).Contents (Elt F)),
    binary main_v14 main_v19 main_v20 (subf : (⟨S4096x2, .f32⟩ : BufTy).Contents (Elt F) → (⟨S4096x2, .f32⟩ : BufTy).Contents (Elt F) → (⟨S4096x2, .f32⟩ : BufTy).Contents (Elt F)),
    unary main_v20 main_v21 (Host.exp : (⟨S4096x2, .f32⟩ : BufTy).Contents (Elt F) → (⟨S4096x2, .f32⟩ : BufTy).Contents (Elt F)),
    nullary main_cst_3 (constant S_ .f32 0x00000000#32),
    binary main_v21 main_cst_3 main_v22 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x2 ![0, 1] bcast_S4096x1_S4096x2_0_1 : (⟨S4096x1, .f32⟩ : BufTy).Contents (Elt F) → (⟨S4096x2, .f32⟩ : BufTy).Contents (Elt F)),
    binary main_v21 main_v24 main_v25 (Host.divf : (⟨S4096x2, .f32⟩ : BufTy).Contents (Elt F) → (⟨S4096x2, .f32⟩ : BufTy).Contents (Elt F) → (⟨S4096x2, .f32⟩ : BufTy).Contents (Elt F)) ]

theorem ops_eq : (ops : List (HloOp τ sig (Elt F))) = ops_take ++ (ops_mean ++ (ops_l1 ++ (ops_l2 ++ ops_sm))) := rfl

attribute [local irreducible] Host.reduce Host.gather in
theorem take_out (W : Valuation τ sig (Elt F)) :
    after ops_take W (main_v0 : DevRef τ sig) = takeRows (W (main_arg2 : DevRef τ sig)) (W (main_arg0 : DevRef τ sig)) := by
  after_results_simp <;> simp only [cast_eq]
theorem take_keeps_main_arg0 (W : Valuation τ sig (Elt F)) : after ops_take W (main_arg0 : DevRef τ sig) = W (main_arg0 : DevRef τ sig) := by
  after_results_simp
theorem take_keeps_main_arg1 (W : Valuation τ sig (Elt F)) : after ops_take W (main_arg1 : DevRef τ sig) = W (main_arg1 : DevRef τ sig) := by
  after_results_simp
theorem take_keeps_main_arg2 (W : Valuation τ sig (Elt F)) : after ops_take W (main_arg2 : DevRef τ sig) = W (main_arg2 : DevRef τ sig) := by
  after_results_simp
theorem take_keeps_main_arg3 (W : Valuation τ sig (Elt F)) : after ops_take W (main_arg3 : DevRef τ sig) = W (main_arg3 : DevRef τ sig) := by
  after_results_simp
theorem take_keeps_main_arg4 (W : Valuation τ sig (Elt F)) : after ops_take W (main_arg4 : DevRef τ sig) = W (main_arg4 : DevRef τ sig) := by
  after_results_simp
theorem take_keeps_main_arg5 (W : Valuation τ sig (Elt F)) : after ops_take W (main_arg5 : DevRef τ sig) = W (main_arg5 : DevRef τ sig) := by
  after_results_simp
theorem take_keeps_main_arg6 (W : Valuation τ sig (Elt F)) : after ops_take W (main_arg6 : DevRef τ sig) = W (main_arg6 : DevRef τ sig) := by
  after_results_simp

theorem mean_out (W : Valuation τ sig (Elt F)) :
    after ops_mean W (main_v3 : DevRef τ sig)
      = Host.divf (Host.reduceAdd (W (main_v0 : DevRef τ sig)) (constant S_ .f32 0x00000000#32) reducesTo_S4096x200x64_S4096x64_d1 h_S_)
          (broadcastInDim S4096x64 ![] bcast_S_S4096x64 (constant S_ .f32 0x43480000#32)) := by
  after_results_simp <;> simp only [cast_eq]
theorem mean_keeps_main_arg0 (W : Valuation τ sig (Elt F)) : after ops_mean W (main_arg0 : DevRef τ sig) = W (main_arg0 : DevRef τ sig) := by
  after_results_simp
theorem mean_keeps_main_arg1 (W : Valuation τ sig (Elt F)) : after ops_mean W (main_arg1 : DevRef τ sig) = W (main_arg1 : DevRef τ sig) := by
  after_results_simp
theorem mean_keeps_main_arg2 (W : Valuation τ sig (Elt F)) : after ops_mean W (main_arg2 : DevRef τ sig) = W (main_arg2 : DevRef τ sig) := by
  after_results_simp
theorem mean_keeps_main_arg3 (W : Valuation τ sig (Elt F)) : after ops_mean W (main_arg3 : DevRef τ sig) = W (main_arg3 : DevRef τ sig) := by
  after_results_simp
theorem mean_keeps_main_arg4 (W : Valuation τ sig (Elt F)) : after ops_mean W (main_arg4 : DevRef τ sig) = W (main_arg4 : DevRef τ sig) := by
  after_results_simp
theorem mean_keeps_main_arg5 (W : Valuation τ sig (Elt F)) : after ops_mean W (main_arg5 : DevRef τ sig) = W (main_arg5 : DevRef τ sig) := by
  after_results_simp
theorem mean_keeps_main_arg6 (W : Valuation τ sig (Elt F)) : after ops_mean W (main_arg6 : DevRef τ sig) = W (main_arg6 : DevRef τ sig) := by
  after_results_simp

theorem l1_out (W : Valuation τ sig (Elt F)) :
    after ops_l1 W (main_v9 : DevRef τ sig) = hidden (W (main_v3 : DevRef τ sig)) (W (main_arg3 : DevRef τ sig)) (W (main_arg4 : DevRef τ sig)) := by
  after_results_simp <;> simp only [cast_eq]
theorem l1_keeps_main_arg0 (W : Valuation τ sig (Elt F)) : after ops_l1 W (main_arg0 : DevRef τ sig) = W (main_arg0 : DevRef τ sig) := by
  after_results_simp
theorem l1_keeps_main_arg1 (W : Valuation τ sig (Elt F)) : after ops_l1 W (main_arg1 : DevRef τ sig) = W (main_arg1 : DevRef τ sig) := by
  after_results_simp
theorem l1_keeps_main_arg2 (W : Valuation τ sig (Elt F)) : after ops_l1 W (main_arg2 : DevRef τ sig) = W (main_arg2 : DevRef τ sig) := by
  after_results_simp
theorem l1_keeps_main_arg3 (W : Valuation τ sig (Elt F)) : after ops_l1 W (main_arg3 : DevRef τ sig) = W (main_arg3 : DevRef τ sig) := by
  after_results_simp
theorem l1_keeps_main_arg4 (W : Valuation τ sig (Elt F)) : after ops_l1 W (main_arg4 : DevRef τ sig) = W (main_arg4 : DevRef τ sig) := by
  after_results_simp
theorem l1_keeps_main_arg5 (W : Valuation τ sig (Elt F)) : after ops_l1 W (main_arg5 : DevRef τ sig) = W (main_arg5 : DevRef τ sig) := by
  after_results_simp
theorem l1_keeps_main_arg6 (W : Valuation τ sig (Elt F)) : after ops_l1 W (main_arg6 : DevRef τ sig) = W (main_arg6 : DevRef τ sig) := by
  after_results_simp

theorem l2_out (W : Valuation τ sig (Elt F)) :
    after ops_l2 W (main_v14 : DevRef τ sig) = logits (W (main_v9 : DevRef τ sig)) (W (main_arg5 : DevRef τ sig)) (W (main_arg6 : DevRef τ sig)) := by
  after_results_simp <;> simp only [cast_eq]
theorem l2_keeps_main_arg0 (W : Valuation τ sig (Elt F)) : after ops_l2 W (main_arg0 : DevRef τ sig) = W (main_arg0 : DevRef τ sig) := by
  after_results_simp
theorem l2_keeps_main_arg1 (W : Valuation τ sig (Elt F)) : after ops_l2 W (main_arg1 : DevRef τ sig) = W (main_arg1 : DevRef τ sig) := by
  after_results_simp
theorem l2_keeps_main_arg2 (W : Valuation τ sig (Elt F)) : after ops_l2 W (main_arg2 : DevRef τ sig) = W (main_arg2 : DevRef τ sig) := by
  after_results_simp
theorem l2_keeps_main_arg3 (W : Valuation τ sig (Elt F)) : after ops_l2 W (main_arg3 : DevRef τ sig) = W (main_arg3 : DevRef τ sig) := by
  after_results_simp
theorem l2_keeps_main_arg4 (W : Valuation τ sig (Elt F)) : after ops_l2 W (main_arg4 : DevRef τ sig) = W (main_arg4 : DevRef τ sig) := by
  after_results_simp
theorem l2_keeps_main_arg5 (W : Valuation τ sig (Elt F)) : after ops_l2 W (main_arg5 : DevRef τ sig) = W (main_arg5 : DevRef τ sig) := by
  after_results_simp
theorem l2_keeps_main_arg6 (W : Valuation τ sig (Elt F)) : after ops_l2 W (main_arg6 : DevRef τ sig) = W (main_arg6 : DevRef τ sig) := by
  after_results_simp

attribute [local irreducible] Host.reduce in
theorem sm_out (W : Valuation τ sig (Elt F)) :
    after ops_sm W (main_v25 : DevRef τ sig) = softmaxRef (W (main_v14 : DevRef τ sig)) := by
  after_results_simp <;> simp only [cast_eq]
theorem sm_keeps_main_arg0 (W : Valuation τ sig (Elt F)) : after ops_sm W (main_arg0 : DevRef τ sig) = W (main_arg0 : DevRef τ sig) := by
  after_results_simp
theorem sm_keeps_main_arg1 (W : Valuation τ sig (Elt F)) : after ops_sm W (main_arg1 : DevRef τ sig) = W (main_arg1 : DevRef τ sig) := by
  after_results_simp
theorem sm_keeps_main_arg2 (W : Valuation τ sig (Elt F)) : after ops_sm W (main_arg2 : DevRef τ sig) = W (main_arg2 : DevRef τ sig) := by
  after_results_simp
theorem sm_keeps_main_arg3 (W : Valuation τ sig (Elt F)) : after ops_sm W (main_arg3 : DevRef τ sig) = W (main_arg3 : DevRef τ sig) := by
  after_results_simp
theorem sm_keeps_main_arg4 (W : Valuation τ sig (Elt F)) : after ops_sm W (main_arg4 : DevRef τ sig) = W (main_arg4 : DevRef τ sig) := by
  after_results_simp
theorem sm_keeps_main_arg5 (W : Valuation τ sig (Elt F)) : after ops_sm W (main_arg5 : DevRef τ sig) = W (main_arg5 : DevRef τ sig) := by
  after_results_simp
theorem sm_keeps_main_arg6 (W : Valuation τ sig (Elt F)) : after ops_sm W (main_arg6 : DevRef τ sig) = W (main_arg6 : DevRef τ sig) := by
  after_results_simp

/-- The fold of the operations at the result buffer is `refOut` of the valuation's arguments. -/
theorem out_eq (V : Valuation τ sig (Elt F)) :
    after ops V (main_v25 : DevRef τ sig)
      = refOut (V (main_arg0 : DevRef τ sig)) (V (main_arg2 : DevRef τ sig)) (V (main_arg3 : DevRef τ sig))
          (V (main_arg4 : DevRef τ sig)) (V (main_arg5 : DevRef τ sig)) (V (main_arg6 : DevRef τ sig)) := by
  rw [ops_eq, after_append, after_append, after_append, after_append, sm_out, l2_out, l1_out, l1_keeps_main_arg5, l1_keeps_main_arg6,
    mean_out, mean_keeps_main_arg3, mean_keeps_main_arg4, mean_keeps_main_arg5, mean_keeps_main_arg6,
    take_out, take_keeps_main_arg3, take_keeps_main_arg4, take_keeps_main_arg5, take_keeps_main_arg6]

theorem arg0_eq (V : Valuation τ sig (Elt F)) : after ops V (main_arg0 : DevRef τ sig) = V (main_arg0 : DevRef τ sig) := by
  rw [ops_eq, after_append, after_append, after_append, after_append, sm_keeps_main_arg0, l2_keeps_main_arg0, l1_keeps_main_arg0, mean_keeps_main_arg0, take_keeps_main_arg0]
theorem arg1_eq (V : Valuation τ sig (Elt F)) : after ops V (main_arg1 : DevRef τ sig) = V (main_arg1 : DevRef τ sig) := by
  rw [ops_eq, after_append, after_append, after_append, after_append, sm_keeps_main_arg1, l2_keeps_main_arg1, l1_keeps_main_arg1, mean_keeps_main_arg1, take_keeps_main_arg1]
theorem arg2_eq (V : Valuation τ sig (Elt F)) : after ops V (main_arg2 : DevRef τ sig) = V (main_arg2 : DevRef τ sig) := by
  rw [ops_eq, after_append, after_append, after_append, after_append, sm_keeps_main_arg2, l2_keeps_main_arg2, l1_keeps_main_arg2, mean_keeps_main_arg2, take_keeps_main_arg2]
theorem arg3_eq (V : Valuation τ sig (Elt F)) : after ops V (main_arg3 : DevRef τ sig) = V (main_arg3 : DevRef τ sig) := by
  rw [ops_eq, after_append, after_append, after_append, after_append, sm_keeps_main_arg3, l2_keeps_main_arg3, l1_keeps_main_arg3, mean_keeps_main_arg3, take_keeps_main_arg3]
theorem arg4_eq (V : Valuation τ sig (Elt F)) : after ops V (main_arg4 : DevRef τ sig) = V (main_arg4 : DevRef τ sig) := by
  rw [ops_eq, after_append, after_append, after_append, after_append, sm_keeps_main_arg4, l2_keeps_main_arg4, l1_keeps_main_arg4, mean_keeps_main_arg4, take_keeps_main_arg4]
theorem arg5_eq (V : Valuation τ sig (Elt F)) : after ops V (main_arg5 : DevRef τ sig) = V (main_arg5 : DevRef τ sig) := by
  rw [ops_eq, after_append, after_append, after_append, after_append, sm_keeps_main_arg5, l2_keeps_main_arg5, l1_keeps_main_arg5, mean_keeps_main_arg5, take_keeps_main_arg5]
theorem arg6_eq (V : Valuation τ sig (Elt F)) : after ops V (main_arg6 : DevRef τ sig) = V (main_arg6 : DevRef τ sig) := by
  rw [ops_eq, after_append, after_append, after_append, after_append, sm_keeps_main_arg6, l2_keeps_main_arg6, l1_keeps_main_arg6, mean_keeps_main_arg6, take_keeps_main_arg6]

/-- Every weakly fair execution of the reference terminates with the result at `refOut` of the launch contents of
    the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v25).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_all m ρ)

end Cert.ReferenceIdeal.RefValue

end
-- ==== Proof.RefFrame.lean ====
/-
  The reference's frame: its run (every weakly fair execution terminates, each argument array unchanged, the result at
  the pure function of the arguments) with the statement about the result dropped.
-/
import proofs.«207435_g27118423507386_cont_sun_m_668_27_alg».proof.Defs
import proofs.«207435_g27118423507386_cont_sun_m_668_27_alg».proof.Proof.RefValue
import proofs.«207435_g27118423507386_cont_sun_m_668_27_alg».proof.Proof.Gen.Pre_input_domain

noncomputable section

namespace Cert.Proof.RefFrame

open Idealize.ShloMosaic Idealize.SL.Sem

theorem frame : Cert.frame_ReferenceIdeal := fun m ρ _ =>
  (θ_run Cert.ReferenceIdeal.defs _ _).mono (fun _ h c => (h c).2)
    (Cert.ReferenceIdeal.RefValue.run (F := Ideal) m ρ)

end Cert.Proof.RefFrame

end
-- ==== Proof.KernelSpec.lean ====
/-
  What the idealized kernel computes, as one pure function of the argument arrays. A bag's pooled row is the sum of the
  table's rows named by the bag's 200 indices, times the named constant 1/200; the result is the last TensorCore
  kernel's payload (two affine layers with a rectifier between them, then the softmax over the two classes) of the pooled
  rows and of the host's re-laid weights (the two weight matrices transposed, the two bias vectors as one-row matrices).
-/
import proofs.«207435_g27118423507386_cont_sun_m_668_27_alg».proof.Defs
import proofs.«207435_g27118423507386_cont_sun_m_668_27_alg».proof.Proof.Gen.KernelIdeal
import proofs.«207435_g27118423507386_cont_sun_m_668_27_alg».proof.Proof.Gen.KernelIdeal.Skeleton
import Idealize.ShloMosaic.Lib.ValueIdx

noncomputable section

namespace Cert.KernelIdeal.Spec

open Cert.KernelIdeal Cert.KernelIdeal.Gen Idealize.ShloMosaic Idealize.ShloMosaic.ValueIdx

/-- The table row an index word names (an index past the last row reads the last row: never the case under the
    precondition). -/
def rowOf (v : BitVec 32) : Fin 1000000 := ⟨min v.toNat 999999, by omega⟩

/-- The pooled rows: per bag `b` and column `e`, the sum over the bag's 200 positions of the table's entry, times 1/200. -/
def pooledSpec (idx : IVec S4096x200 32) (tbl : FVec Ideal S1000000x64 .f32) : FVec Ideal S4096x64 .f32 :=
  fun i => (∑ j : Fin 200, tbl (ix2 (rowOf (idx (ix2 (i 0) j))) (i 1))) * (((1 / 200 : ℝ)) : EReal)

/-- The kernel's result as a function of its arguments (the bag lengths are not used). -/
def kernelOut (idx : IVec S4096x200 32) (tbl : FVec Ideal S1000000x64 .f32) (W1 : FVec Ideal S128x64 .f32) (b1 : FVec Ideal S128 .f32)
    (W2 : FVec Ideal S2x128 .f32) (b2 : FVec Ideal S2 .f32) : FVec Ideal S4096x2 .f32 :=
  k3_pay1 (F := Ideal) (pooledSpec idx tbl) (transpose S64x128 [1, 0] W1 transposes_S128x64_S64x128_1_0)
    (shapeCast S1x128 b1 shapeCasts_S128_S1x128) (transpose S128x2 [1, 0] W2 transposes_S2x128_S128x2_1_0)
    (shapeCast S1x2 b2 shapeCasts_S2_S1x2)

end Cert.KernelIdeal.Spec

end
-- ==== Proof.KISetup.lean ====
/-
  The idealized kernel's program as the SparseCore launch theorem sees it: the SparseCore configuration, the body table of
  the three TensorCore pipelines and the vector-subcore kernel, the configuration's stated side conditions, and the
  resource algebra of the certificate's ghost state — the launch handshakes' rounds, the rounds of the three pipelines'
  staging semaphores, and the counters of the kernel's own copies and gathers (each waited for by the subcore that
  issued it: no schedule is needed for them).
-/
import proofs.«207435_g27118423507386_cont_sun_m_668_27_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Tactic
import Idealize.ShloMosaic.Lib.Pipeline.Kit
import Idealize.ShloMosaic.Lib.Transfers
import proofs.«207435_g27118423507386_cont_sun_m_668_27_alg».proof.Proof.Gen.KernelIdeal
import proofs.«207435_g27118423507386_cont_sun_m_668_27_alg».proof.Proof.Gen.KernelIdeal.Launch
import proofs.«207435_g27118423507386_cont_sun_m_668_27_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging rounds, the transfers' counters -/

abbrev UH : Type := URounds (GSem nD τ sig) ℕ
abbrev UPp : Type := URounds (GSem nD τ sig) Unit
abbrev UU : Type := UH × (UPp × Counters)

local notation "𝕄" => MT nD τ sig (HIx 1) (Elt F) ℕ UU ℕ

/-- The handshakes' rounds: the left factor. The kernel's own copies and gathers run under the schedule-free
    counters, found by instance in the right factor's right factor. -/
abbrev EH : Emb UH (MT nD τ sig (HIx 1) (Elt F) ℕ UU ℕ) := embL
/-- The three pipelines' staging cells' rounds: the right factor's left factor. -/
def EP : Emb UPp (MT nD τ sig (HIx 1) (Elt F) ℕ UU ℕ) :=
  (Emb.inl : Emb UPp (UPp × Counters)).trans (embR : Emb (UPp × Counters) (MT nD τ sig (HIx 1) (Elt F) ℕ UU ℕ))

instance EP_landsIn : (EP : Emb UPp 𝕄).LandsIn (upEmb : UEmb _ 𝕄) := by unfold EP embR; infer_instance

end Cert.Proof.KI

end
-- ==== Proof.KIShared.lean ====
/-
  Names shared by the subcore's task and the launch: the three arrays of the SparseCore call as locations of a device, a
  place of the kernel's grid as its SparseCore and vector subcore, and the two halves of a subcore's 128 output rows as
  the two write-outs slice them.
-/
import proofs.«207435_g27118423507386_cont_sun_m_668_27_alg».proof.Proof.KISetup

noncomputable section

namespace Cert.Proof.KI

open Cert.KernelIdeal Cert.KernelIdeal.Gen
open Idealize.ShloMosaic
open Idealize.ShloMosaic.SparseCore (S V T)
open Idealize.SL.Sem

/-- The padded indices, the packed table, the pooled rows: as locations of device `d`. -/
abbrev iLoc (d : Dev nD) : Loc nD τ sig := (SparseCore.T d).loc main_v1
abbrev tLoc (d : Dev nD) : Loc nD τ sig := (SparseCore.T d).loc main_v3
abbrev oLoc (d : Dev nD) : Loc nD τ sig := (SparseCore.T d).loc main_v4

abbrev cV (L : grid2.Coords) : Fin τ.nSC := (L 0).castLE hcore2
abbrev jV (L : grid2.Coords) : Fin τ.nSub := (L 1).castLE hsub2

/-- The place of the grid at SparseCore `c`, vector subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- The first half of the subcore's output rows, and the second, as the two write-outs slice them. -/
abbrev outA (L : grid2.Coords) : Memref sig .scVector .hbm S64x64 .f32 :=
  (Memref.whole main_v4_scv : Memref sig .scVector .hbm S4096x64 .f32).slice (Rect.unit (s := S4096x64) (k2_off184 L) S64x64.size (k2_off184_inb L)) (fun _ => rfl)
abbrev outB (L : grid2.Coords) : Memref sig .scVector .hbm S64x64 .f32 :=
  (Memref.whole main_v4_scv : Memref sig .scVector .hbm S4096x64 .f32).slice (Rect.unit (s := S4096x64) (k2_off365 L) S64x64.size (k2_off365_inb L)) (fun _ => rfl)

end Cert.Proof.KI

end
-- ==== Proof.KILaunchA.lean ====
/-
  The launch element of the certificate's ghost state: the launch handshakes' rounds and, for the three pipelined
  kernels of @main, their staging cells' rounds and duty tokens, dealt to each device's TensorCore for the regions it
  will enter; the kernel's own copies and gathers need nothing from the launch.
-/
import proofs.«207435_g27118423507386_cont_sun_m_668_27_alg».proof.Proof.KISetup

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

abbrev adm : (p : Fin 3) → (pcfgs (F := F) p).Adm := fun p => (cfgs p).toPCfg_adm

/-- What the launch leaves each device's TensorCore for its three regions: per pipeline the staging cells' ghost
    state and the duty tokens. -/
def G (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] [Named F] in
theorem bigSep_emp' {I : Type} (s : Finset I) : (bigSep s fun _ => iprop(emp)) = (iprop(emp) : sProp 𝕄) := bigSep_emp_const s

theorem hu₀_core : (ownU (u₀ (F := F)) : sProp 𝕄)
    ⊢ |={Set.univ}=> iprop(BI.own (EH (initOf (K (F := F)).hsCells (K (F := F)).hsToks)) ∗ bigSep Finset.univ (G (F := F))) := by
  unfold u₀
  iintro Hu
  ihave H := (ownU_pair _ _) $$ Hu
  icases H with ⟨HH, HR⟩
  ihave HP := (show (BI.own (embR (A := UH) ((initOf (Pipeline.cells (Pipeline.pin (pcfgs (F := F)) adm) cellOf_inj) (Pipeline.launchToks (Pipeline.pin (pcfgs (F := F)) adm) cellOf_inj), (1 : Counters)) : UPp × Counters)) : sProp 𝕄)
      ⊢ BI.own (EP (initOf (Pipeline.cells (Pipeline.pin (pcfgs (F := F)) adm) cellOf_inj) (Pipeline.launchToks (Pipeline.pin (pcfgs (F := F)) adm) cellOf_inj))) from BI.Entails.refl _) $$ HR
  imod (Pipeline.fund_ghost (Pipeline.pin (pcfgs (F := F)) adm) EP cellOf_inj) $$ HP with ⟨Hg, Ht⟩
  imodintro
  isplitl [HH]; · iexact HH
  unfold G
  rw [bigSep_congr fun d _ => bigSep_sep' (s := (Finset.univ : Finset (Fin 3))) _ _, bigSep_sep']
  isplitl [Hg]; · iexact Hg
  iexact Ht

end Cert.Proof.KI

end
-- ==== Proof.KILaunchB.lean ====
/-
  What the launch handshakes carry for the one SparseCore call. The TensorCore hands each of the two SparseCores a half
  share of the padded indices and of the packed table (both only read) and the output rows of its sixteen subcores; the
  sequencer hands each subcore a read token of each and its own 128 output rows (two slices of 64), and gets them back
  with the rows at what the subcore's task left.
-/
import proofs.«207435_g27118423507386_cont_sun_m_668_27_alg».proof.Proof.KIShared
import proofs.«207435_g27118423507386_cont_sun_m_668_27_alg».proof.Proof.KILaunchA

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (I1 : (d : Dev nD) → Buf (Elt F) (iLoc d)) (O0 : (d : Dev nD) → Buf (Elt F) (oLoc d))
-- what is known of the packed table's contents (its rows past the table's height are not determined by the launch
-- memory), and of a subcore's pooled rows
variable (TabOK : (d : Dev nD) → Buf (Elt F) (tLoc d) → Prop) (PoolOK : (d : Dev nD) → grid2.Coords → Buf (Elt F) (oLoc d) → Prop)

/-- A SparseCore's half of a read-only array, and a subcore's read token of that half. -/
def half (c : Fin 2) : PosShare TreeShare := if c = 0 then (fullShare : PosShare TreeShare).left else (fullShare : PosShare TreeShare).right
abbrev tok (c : Fin 2) (i : Fin 16) : PosShare TreeShare := Transfers.shareTok (half c) 16 i

theorem bound_zero : grid2.bound 0 = 2 := rfl
theorem bound_one : grid2.bound 1 = 16 := rfl
/-- The place of SparseCore `c`'s subcore `i`. -/
abbrev LL (c : Fin 2) (i : Fin 16) : grid2.Coords := coordsV (Fin.cast bound_zero.symm c) (Fin.cast bound_one.symm i)

/-- A subcore's two slices of the pooled rows, whole, at `f`. -/
def outPts (d : Dev nD) (c : Fin 2) (i : Fin 16) (f : Buf (Elt F) (oLoc d)) : sProp 𝕄 :=
  iprop((oLoc d ↦[(outA (LL c i)).view.set]{fullShare} f) ∗ (oLoc d ↦[(outB (LL c i)).view.set]{fullShare} f))

/-- A share of the packed table at contents of which `TabOK` holds. -/
def tabPts (d : Dev nD) (q : PosShare TreeShare) : sProp 𝕄 := iprop(∃ Tb, ⌜TabOK d Tb⌝ ∗ tLoc d ↦{q} Tb)

def goP (d : Dev nD) (c : Fin 2) (i : Fin 16) : sProp 𝕄 :=
  iprop((iLoc d ↦{tok c i} I1 d) ∗ tabPts TabOK d (tok c i) ∗ outPts d c i (O0 d))
def tdP (d : Dev nD) (c : Fin 2) (i : Fin 16) : sProp 𝕄 :=
  iprop((iLoc d ↦{tok c i} I1 d) ∗ tabPts TabOK d (tok c i) ∗ ∃ G, ⌜PoolOK d (LL c i) G⌝ ∗ outPts d c i G)
def stP (d : Dev nD) (c : Fin 2) : sProp 𝕄 :=
  iprop((iLoc d ↦{half c} I1 d) ∗ tabPts TabOK d (half c) ∗ bigSep Finset.univ fun i : Fin 16 => outPts d c i (O0 d))
/-- What comes back: the indices' half whole again; the table's half as its remainder and its sixteen tokens (their
    contents are not needed again); each subcore's rows at pooled values. -/
def dnP (d : Dev nD) (c : Fin 2) : sProp 𝕄 :=
  iprop((iLoc d ↦{half c} I1 d) ∗ tabPts TabOK d (Transfers.shareDrop (half c) 16)
    ∗ (bigSep Finset.univ fun i : Fin 16 => tabPts TabOK d (tok c i))
    ∗ bigSep Finset.univ fun i : Fin 16 => iprop(∃ G, ⌜PoolOK d (LL c i) G⌝ ∗ outPts d c i G))

def P : (K (F := F)).Pay (nD := nD) (Val := Elt F) (Name := ℕ) (U := UU) where
  st := fun q d c => match q with | 0 => stP I1 O0 TabOK d (Fin.cast nCore_zero c)
  dn := fun q d c => match q with | 0 => dnP I1 TabOK PoolOK d (Fin.cast nCore_zero c)
  go := fun q d c i => match q with | 0 => goP I1 O0 TabOK d (Fin.cast nCore_zero c) (Fin.cast nSub_zero i)
  td := fun q d c i => match q with | 0 => tdP I1 TabOK PoolOK d (Fin.cast nCore_zero c) (Fin.cast nSub_zero i)
  x := fun _ _ => iprop(emp)

instance P_storable : (P (F := F) I1 O0 TabOK PoolOK).IsStorable where
  st q d c := match q with | 0 => by unfold P stP tabPts outPts; infer_instance
  dn q d c := match q with | 0 => by unfold P dnP tabPts outPts; infer_instance
  go q d c i := match q with | 0 => by unfold P goP tabPts outPts; infer_instance
  td q d c i := match q with | 0 => by unfold P tdP tabPts outPts; infer_instance

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P I1 O0 TabOK PoolOK) 0 := by
  intro d c
  show stP I1 O0 TabOK d (Fin.cast nCore_zero c) ⊢ |={Set.univ}=> iprop(
      (bigSep Finset.univ fun i : Fin ((K (F := F)).nSub 0) => goP I1 O0 TabOK d (Fin.cast nCore_zero c) (Fin.cast nSub_zero i))
      ∗ ((bigSep Finset.univ fun i : Fin ((K (F := F)).nSub 0) => tdP I1 TabOK PoolOK d (Fin.cast nCore_zero c) (Fin.cast nSub_zero i))
          -∗ dnP I1 TabOK PoolOK d (Fin.cast nCore_zero c)))
  rw [bigSep_tasks (F := F) (fun i => goP I1 O0 TabOK d (Fin.cast nCore_zero c) i), bigSep_tasks (F := F) (fun i => tdP I1 TabOK PoolOK d (Fin.cast nCore_zero c) i)]
  generalize Fin.cast nCore_zero c = c'
  unfold stP goP tdP dnP tabPts
  rw [bigSep_sep', bigSep_sep', bigSep_sep', bigSep_sep']
  iintro ⟨Hi, ⟨%Tb, %hTb, Ht⟩, Ho⟩
  have hmono : (bigSep Finset.univ fun i : Fin 16 => (tLoc d ↦{tok c' i} Tb : sProp 𝕄))
      ⊢ bigSep Finset.univ fun i : Fin 16 => (iprop(∃ Tb, ⌜TabOK d Tb⌝ ∗ tLoc d ↦{tok c' i} Tb) : sProp 𝕄) :=
    bigSep_mono fun i _ => show (tLoc d ↦{tok c' i} Tb : sProp 𝕄) ⊢ iprop(∃ Tb, ⌜TabOK d Tb⌝ ∗ tLoc d ↦{tok c' i} Tb) from by
      iintro H; iexists Tb; isplitr; · ipureintro; exact hTb
      iexact H
  ihave Hi' := (Transfers.pointsTo_toks (half c') 16).1 $$ Hi
  ihave Ht' := (Transfers.pointsTo_toks (half c') 16).1 $$ Ht
  icases Hi' with ⟨Hid, Hit⟩
  icases Ht' with ⟨Htd, Htt⟩
  imodintro
  isplitl [Hit Htt Ho]
  · isplitl [Hit]; · iexact Hit
    isplitl [Htt]
    · iapply hmono
      iexact Htt
    iexact Ho
  iintro ⟨Hit, Htt, Ho⟩
  isplitl [Hid Hit]
  · iapply (Transfers.pointsTo_toks (half c') 16).2
    isplitl [Hid]; · iexact Hid
    iexact Hit
  isplitl [Htd]
  · iexists Tb; isplitr; · ipureintro; exact hTb
    iexact Htd
  isplitl [Htt]; · iexact Htt
  iexact Ho

end Cert.Proof.KI

end
-- ==== Proof.KITc.lean ====
/-
  The TensorCore's side of the launch handshakes around the pipelined regions: what it owes (the start signals of the
  calls still to come) is owed at a call's index, never at the kernels' own index `none`, so a region's staging waits —
  at index `none`, level 0 — are admissible under it; and the pairs a region's waits record keep the bound the
  handshake state asks of the recorded pairs.
-/
import proofs.«207435_g27118423507386_cont_sun_m_668_27_alg».proof.Proof.KILaunchA

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

/-- What the TensorCore owes before call `n` is owed at calls' indices only. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The (own cell, index) pairs at or below the level the handshake state allows before call `n`. -/
def RcOf (d : Dev nD) (n : ℕ) : Set (SemLoc sig × HIx 1) := {p | (K (F := F)).lev (SparseCore.T d, p.1) p.2 ≤ 8 * n}

theorem wBelow_of_sub (d : Dev nD) (n : ℕ) (W : Waits sig (HIx 1)) (h : ∀ p ∈ W, p ∈ RcOf (F := F) d n ∨ p.2 = none) :
    (K (F := F)).WBelow (SparseCore.T d) W (8 * n) := by
  intro p hp
  rcases h p hp with h | h
  · exact h
  · rw [h, SparseCore.Cfg.lev_none]; exact Nat.zero_le _

theorem mem_RcOf_of_wBelow (d : Dev nD) (n : ℕ) (W : Waits sig (HIx 1)) (h : (K (F := F)).WBelow (SparseCore.T d) W (8 * n)) :
    ∀ p ∈ W, p ∈ RcOf (F := F) d n := fun p hp => h p hp

/-- What the TensorCore owes before call `n`, its recorded pairs within the handshake state's bound. -/
def owesP (d : Dev nD) (n : ℕ) : sProp 𝕄 :=
  iprop(∃ W, ⌜(K (F := F)).WBelow (SparseCore.T d) W (8 * n)⌝ ∗ owes (SparseCore.T d) ((K (F := F)).Otc d n) W)

/-- A region's share of the launch's ghost state. -/
abbrev ghostP (p : Fin 3) (d : Dev nD) : sProp 𝕄 :=
  iprop(Pipeline.cellsGhost (Pipeline.pin (pcfgs (F := F)) adm) EP p d ∗ Pipeline.toksInit (Pipeline.pin (pcfgs (F := F)) adm) EP p d)

theorem G_eq (d : Dev nD) : (G (F := F) d : sProp 𝕄) = iprop(ghostP 0 d ∗ ghostP 1 d ∗ ghostP 2 d) := by
  unfold G
  exact bigSep_univ_eq_bigSepL [(0 : Fin 3), (1 : Fin 3), (2 : Fin 3)] (by decide) (by decide) _

end Cert.Proof.KI

end
-- ==== Proof.KIVals.lean ====
/-
  The contents the host operations of @main leave in their buffers, as functions of the launch memory: the transposed
  indices, the transposed table, the two weight matrices transposed and the two bias vectors as one-row matrices.
-/
import proofs.«207435_g27118423507386_cont_sun_m_668_27_alg».proof.Proof.KIShared
import proofs.«207435_g27118423507386_cont_sun_m_668_27_alg».proof.Proof.KITc

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-- A TensorCore buffer of device `d` as a location, and its launch contents. -/
abbrev bLoc (d : Dev nD) (b : Ref sig .tc) : Loc nD τ sig := (SparseCore.T d).loc b
abbrev mT (d : Dev nD) (b : Ref sig .tc) : Buf (Elt F) (bLoc d b) := m (bLoc d b)

/-- The transposed indices (`%0`) and the transposed table (`%2`). -/
def V0c (d : Dev nD) : Buf (Elt F) (bLoc d main_v0) := transpose S200x4096 [1, 0] (mT m d main_arg0) transposes_S4096x200_S200x4096_1_0
def V2c (d : Dev nD) : Buf (Elt F) (bLoc d main_v2) := transpose S64x1000000 [1, 0] (mT m d main_arg2) transposes_S1000000x64_S64x1000000_1_0
/-- The host's re-laid weights (`%5` … `%8`). -/
def V5c (d : Dev nD) : Buf (Elt F) (bLoc d main_v5) := transpose S64x128 [1, 0] (mT m d main_arg3) transposes_S128x64_S64x128_1_0
def V6c (d : Dev nD) : Buf (Elt F) (bLoc d main_v6) := shapeCast S1x128 (mT m d main_arg4) shapeCasts_S128_S1x128
def V7c (d : Dev nD) : Buf (Elt F) (bLoc d main_v7) := transpose S128x2 [1, 0] (mT m d main_arg5) transposes_S2x128_S128x2_1_0
def V8c (d : Dev nD) : Buf (Elt F) (bLoc d main_v8) := shapeCast S1x2 (mT m d main_arg6) shapeCasts_S2_S1x2

end Cert.Proof.KI

end
-- ==== Proof.KILaunchC.lean ====
/-
  @main on a device's TensorCore, step by step: the transposition of the indices, the first pipelined region (their
  padded re-layout), the transposition of the table, the second region (its packed re-layout), the SparseCore call (each
  SparseCore handed a half share of the padded indices and of the packed table and its subcores' output rows; the pooled
  rows put together again from the subcores' pieces), the four re-layouts of the weights, the third region (the
  perceptron and the softmax). The arguments are only ever read.
-/
import proofs.«207435_g27118423507386_cont_sun_m_668_27_alg».proof.Proof.KILaunchB
import proofs.«207435_g27118423507386_cont_sun_m_668_27_alg».proof.Proof.KIVals

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The steps of @main, one statement each: the six host operations (each over its operand and result buffers) and the
    three pipelined regions (each over its windows' arrays, what the TensorCore owes, and its share of the launch's ghost
    state). -/
structure Steps (I1v : (d : Dev nD) → Buf (Elt F) (iLoc d))
    (R9f : (d : Dev nD) → Buf (Elt F) (oLoc d) → Buf (Elt F) (bLoc d main_v9)) (TabOK : (d : Dev nD) → Buf (Elt F) (tLoc d) → Prop) : Prop where
  v0 : ∀ (d : Dev nD) (a : Buf (Elt F) (bLoc d main_v0)) (Q : PUnit → sProp 𝕄),
      iprop(boundary (SparseCore.T d) ∗ (bLoc d main_arg0 ↦{fullShare} mT m d main_arg0) ∗ (bLoc d main_v0 ↦{fullShare} a)
          ∗ (iprop(boundary (SparseCore.T d) ∗ (bLoc d main_arg0 ↦{fullShare} mT m d main_arg0) ∗ (bLoc d main_v0 ↦{fullShare} V0c m d)) -∗ Q ⟨⟩))
        ⊢ wp frame (wpE ((K (F := F)).defs (D (F := F))) 𝒱 (SparseCore.T d) none) Set.univ (hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)) Q
  v2 : ∀ (d : Dev nD) (a : Buf (Elt F) (bLoc d main_v2)) (Q : PUnit → sProp 𝕄),
      iprop(boundary (SparseCore.T d) ∗ (bLoc d main_arg2 ↦{fullShare} mT m d main_arg2) ∗ (bLoc d main_v2 ↦{fullShare} a)
          ∗ (iprop(boundary (SparseCore.T d) ∗ (bLoc d main_arg2 ↦{fullShare} mT m d main_arg2) ∗ (bLoc d main_v2 ↦{fullShare} V2c m d)) -∗ Q ⟨⟩))
        ⊢ wp frame (wpE ((K (F := F)).defs (D (F := F))) 𝒱 (SparseCore.T d) none) Set.univ (hlo rfl (StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F))) (fun _ => .ret ⟨⟩)) Q
  v5 : ∀ (d : Dev nD) (a : Buf (Elt F) (bLoc d main_v5)) (Q : PUnit → sProp 𝕄),
      iprop(boundary (SparseCore.T d) ∗ (bLoc d main_arg3 ↦{fullShare} mT m d main_arg3) ∗ (bLoc d main_v5 ↦{fullShare} a)
          ∗ (iprop(boundary (SparseCore.T d) ∗ (bLoc d main_arg3 ↦{fullShare} mT m d main_arg3) ∗ (bLoc d main_v5 ↦{fullShare} V5c m d)) -∗ Q ⟨⟩))
        ⊢ wp frame (wpE ((K (F := F)).defs (D (F := F))) 𝒱 (SparseCore.T d) none) Set.univ (hlo rfl (StableHlo.unary main_arg3 main_v5 ((transpose S64x128 [1, 0] · transposes_S128x64_S64x128_1_0) : (⟨S128x64, .f32⟩ : BufTy).Contents (Elt F) → (⟨S64x128, .f32⟩ : BufTy).Contents (Elt F))) (fun _ => .ret ⟨⟩)) Q
  v6 : ∀ (d : Dev nD) (a : Buf (Elt F) (bLoc d main_v6)) (Q : PUnit → sProp 𝕄),
      iprop(boundary (SparseCore.T d) ∗ (bLoc d main_arg4 ↦{fullShare} mT m d main_arg4) ∗ (bLoc d main_v6 ↦{fullShare} a)
          ∗ (iprop(boundary (SparseCore.T d) ∗ (bLoc d main_arg4 ↦{fullShare} mT m d main_arg4) ∗ (bLoc d main_v6 ↦{fullShare} V6c m d)) -∗ Q ⟨⟩))
        ⊢ wp frame (wpE ((K (F := F)).defs (D (F := F))) 𝒱 (SparseCore.T d) none) Set.univ (hlo rfl (StableHlo.reshape main_arg4 main_v6 rfl shapeCasts_S128_S1x128) (fun _ => .ret ⟨⟩)) Q
  v7 : ∀ (d : Dev nD) (a : Buf (Elt F) (bLoc d main_v7)) (Q : PUnit → sProp 𝕄),
      iprop(boundary (SparseCore.T d) ∗ (bLoc d main_arg5 ↦{fullShare} mT m d main_arg5) ∗ (bLoc d main_v7 ↦{fullShare} a)
          ∗ (iprop(boundary (SparseCore.T d) ∗ (bLoc d main_arg5 ↦{fullShare} mT m d main_arg5) ∗ (bLoc d main_v7 ↦{fullShare} V7c m d)) -∗ Q ⟨⟩))
        ⊢ wp frame (wpE ((K (F := F)).defs (D (F := F))) 𝒱 (SparseCore.T d) none) Set.univ (hlo rfl (StableHlo.unary main_arg5 main_v7 ((transpose S128x2 [1, 0] · transposes_S2x128_S128x2_1_0) : (⟨S2x128, .f32⟩ : BufTy).Contents (Elt F) → (⟨S128x2, .f32⟩ : BufTy).Contents (Elt F))) (fun _ => .ret ⟨⟩)) Q
  v8 : ∀ (d : Dev nD) (a : Buf (Elt F) (bLoc d main_v8)) (Q : PUnit → sProp 𝕄),
      iprop(boundary (SparseCore.T d) ∗ (bLoc d main_arg6 ↦{fullShare} mT m d main_arg6) ∗ (bLoc d main_v8 ↦{fullShare} a)
          ∗ (iprop(boundary (SparseCore.T d) ∗ (bLoc d main_arg6 ↦{fullShare} mT m d main_arg6) ∗ (bLoc d main_v8 ↦{fullShare} V8c m d)) -∗ Q ⟨⟩))
        ⊢ wp frame (wpE ((K (F := F)).defs (D (F := F))) 𝒱 (SparseCore.T d) none) Set.univ (hlo rfl (StableHlo.reshape main_arg6 main_v8 rfl shapeCasts_S2_S1x2) (fun _ => .ret ⟨⟩)) Q
  r0 : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1v d) ∗ owesP d 0) -∗ Q ⟨⟩))
        ⊢ wp frame (wpE ((K (F := F)).defs (D (F := F))) 𝒱 (SparseCore.T d) none) Set.univ (Prog.lift (.customCall (SparseCore.inner (Pipeline.entry 0)) ())) Q
  r1 : ∀ (d : Dev nD) (Q : PUnit → sProp 𝕄),
      iprop(levAts (K (F := F)).L (K (F := F)).lev ∗ boundary (SparseCore.T d) ∗ (bLoc d main_v2 ↦{fullShare} V2c m d) ∗ (bLoc d main_v3 ↦{fullShare} mT m d main_v3) ∗ owesP d 0 ∗ ghostP 1 d
          ∗ (iprop(boundary (SparseCore.T d) ∗ (∃ a2, (bLoc d main_v2 ↦{fullShare} a2)) ∗ (∃ Tb, ⌜TabOK d Tb⌝ ∗ tLoc d ↦{fullShare} Tb) ∗ owesP d 0) -∗ Q ⟨⟩))
        ⊢ wp frame (wpE ((K (F := F)).defs (D (F := F))) 𝒱 (SparseCore.T d) none) Set.univ (Prog.lift (.customCall (SparseCore.inner (Pipeline.entry 1)) ())) Q
  r3 : ∀ (d : Dev nD) (g : Buf (Elt F) (oLoc d)) (Q : PUnit → sProp 𝕄),
      iprop(levAts (K (F := F)).L (K (F := F)).lev ∗ boundary (SparseCore.T d) ∗ (oLoc d ↦{fullShare} g) ∗ (bLoc d main_v5 ↦{fullShare} V5c m d) ∗ (bLoc d main_v6 ↦{fullShare} V6c m d) ∗ (bLoc d main_v7 ↦{fullShare} V7c m d) ∗ (bLoc d main_v8 ↦{fullShare} V8c m d) ∗ (bLoc d main_v9 ↦{fullShare} mT m d main_v9) ∗ owesP d 1 ∗ ghostP 2 d
          ∗ (iprop(boundary (SparseCore.T d) ∗ (bLoc d main_v9 ↦{fullShare} R9f d g) ∗ owesP d 1) -∗ Q ⟨⟩))
        ⊢ wp frame (wpE ((K (F := F)).defs (D (F := F))) 𝒱 (SparseCore.T d) none) Set.univ (Prog.lift (.customCall (SparseCore.inner (Pipeline.entry 2)) ())) Q

omit [FloatOps F] [Named F] in
/-- The TensorCore's unscoped buffers, one by one. -/
theorem unscopedBufs_eq (d : Dev nD) (W : (b : Ref sig .tc) → Buf (Elt F) ((d.tc : Thread nD τ).loc b)) :
    (unscopedBufs d W : sProp 𝕄) = iprop((bLoc d main_arg0 ↦{fullShare} W main_arg0) ∗ (bLoc d main_arg1 ↦{fullShare} W main_arg1) ∗ (bLoc d main_arg2 ↦{fullShare} W main_arg2) ∗ (bLoc d main_arg3 ↦{fullShare} W main_arg3) ∗ (bLoc d main_arg4 ↦{fullShare} W main_arg4) ∗ (bLoc d main_arg5 ↦{fullShare} W main_arg5) ∗ (bLoc d main_arg6 ↦{fullShare} W main_arg6) ∗ (bLoc d main_v0 ↦{fullShare} W main_v0) ∗ (bLoc d main_v1 ↦{fullShare} W main_v1) ∗ (bLoc d main_v2 ↦{fullShare} W main_v2) ∗ (bLoc d main_v3 ↦{fullShare} W main_v3) ∗ (bLoc d main_v4 ↦{fullShare} W main_v4) ∗ (bLoc d main_v5 ↦{fullShare} W main_v5) ∗ (bLoc d main_v6 ↦{fullShare} W main_v6) ∗ (bLoc d main_v7 ↦{fullShare} W main_v7) ∗ (bLoc d main_v8 ↦{fullShare} W main_v8) ∗ (bLoc d main_v9 ↦{fullShare} W main_v9)) := by
  unfold unscopedBufs
  rw [show (Finset.univ.filter fun b : Ref sig .tc => ¬ b.isScoped) = {main_arg0, main_arg1, main_arg2, main_arg3, main_arg4, main_arg5, main_arg6, main_v0, main_v1, main_v2, main_v3, main_v4, main_v5, main_v6, main_v7, main_v8, main_v9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

/-- A subcore's pooled rows are the claimed ones: the instance of `PoolOKp` for a claim that names them. -/
def PoolOK (O4 : (d : Dev nD) → Buf (Elt F) (oLoc d)) (d : Dev nD) (L : grid2.Coords) (G : Buf (Elt F) (oLoc d)) : Prop :=
  ∀ x ∈ (outA L).view.set ∪ (outB L).view.set, G x = O4 d x

/-- The handshakes' payloads at this program's contents. -/
abbrev PP : (K (F := F)).Pay (nD := nD) (Val := Elt F) (Name := ℕ) (U := UU) :=
  P I1v (fun d => mT m d main_v4) TabOK PoolOKp

/-- The pooled rows put together from the subcores' pieces: on each subcore's rows they are rows of which `PoolOKp` holds. -/
def Pooled (d : Dev nD) (g : Buf (Elt F) (oLoc d)) : Prop :=
  ∀ (c : Fin 2) (i : Fin 16), ∃ G, PoolOKp d (LL c i) G ∧ ∀ x ∈ (outA (LL c i)).view.set ∪ (outB (LL c i)).view.set, g x = G x

/-- What @main leaves the claim: the seven arguments at their launch contents, the result at the last region's
    function of the pooled rows. -/
def FIN (d : Dev nD) : sProp 𝕄 :=
  iprop((bLoc d main_arg0 ↦{fullShare} mT m d main_arg0) ∗ (bLoc d main_arg1 ↦{fullShare} mT m d main_arg1) ∗ (bLoc d main_arg2 ↦{fullShare} mT m d main_arg2) ∗ (bLoc d main_arg3 ↦{fullShare} mT m d main_arg3) ∗ (bLoc d main_arg4 ↦{fullShare} mT m d main_arg4) ∗ (bLoc d main_arg5 ↦{fullShare} mT m d main_arg5) ∗ (bLoc d main_arg6 ↦{fullShare} mT m d main_arg6)
    ∗ ∃ g, ⌜Pooled PoolOKp d g⌝ ∗ (bLoc d main_v9 ↦{fullShare} R9f d g))

end Cert.Proof.KI

end
-- ==== Proof.KILaunchD.lean ====
/-
  @main's run on a device's TensorCore, assembled from its steps.
-/
import proofs.«207435_g27118423507386_cont_sun_m_668_27_alg».proof.Proof.KILaunchC

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

omit [FloatOps F] [Named F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem half_zero : half 0 = (fullShare : PosShare TreeShare).left := if_pos rfl
theorem half_one : half 1 = (fullShare : PosShare TreeShare).right := if_neg (by decide)

theorem st0_eq (d : Dev nD) :
    (bigSep Finset.univ fun c : Fin ((K (F := F)).nCore 0) => (PP m I1v TabOK PoolOKp).st 0 d c)
      = iprop(stP I1v (fun d => mT m d main_v4) TabOK d 0 ∗ stP I1v (fun d => mT m d main_v4) TabOK d 1) := by
  show (bigSep (Finset.univ : Finset (Fin 2)) fun c => stP I1v (fun d => mT m d main_v4) TabOK d c) = _
  exact bigSep_fin2 _
theorem dn0_eq (d : Dev nD) :
    (bigSep Finset.univ fun c : Fin ((K (F := F)).nCore 0) => (PP m I1v TabOK PoolOKp).dn 0 d c)
      = iprop(dnP I1v TabOK PoolOKp d 0 ∗ dnP I1v TabOK PoolOKp d 1) := by
  show (bigSep (Finset.univ : Finset (Fin 2)) fun c => dnP I1v TabOK PoolOKp d c) = _
  exact bigSep_fin2 _

set_option maxHeartbeats 1600000 in
theorem hmain (hS : Steps m I1v R9f TabOK)
    (hsplit : ∀ (d : Dev nD) (f : Buf (Elt F) (oLoc d)), (oLoc d ↦{fullShare} f : sProp 𝕄) = bigSep Finset.univ fun c : Fin 2 => bigSep Finset.univ fun i : Fin 16 => outPts d c i f)
    (hjoin : ∀ (d : Dev nD) (Φ : Fin 2 → Fin 16 → Buf (Elt F) (oLoc d) → Prop),
      (bigSep Finset.univ fun c : Fin 2 => bigSep Finset.univ fun i : Fin 16 => iprop(∃ G, ⌜Φ c i G⌝ ∗ outPts d c i G) : sProp 𝕄)
        ⊢ iprop(∃ g, ⌜∀ (c : Fin 2) (i : Fin 16), ∃ G, Φ c i G ∧ ∀ x ∈ (outA (LL c i)).view.set ∪ (outB (LL c i)).view.set, g x = G x⌝ ∗ (oLoc d ↦{fullShare} g)))
    (κ : GSem nD τ sig → ℕ) (d : Dev nD) :
    iprop((K (F := F)).ctx EH (PP m I1v TabOK PoolOKp) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R9f PoolOKp d) := by
  unfold SparseCore.Cfg.tcRes
  rw [unscopedBufs_eq, G_eq]
  unfold SparseCore.Cfg.tcSt
  simp only [main, wp_bind, wp_pure]
  iintro ⟨#Hctx, ⟨⟨%Wt, %hWt, HO⟩, Hat, Hrd, Hrs, Htoks⟩, ⟨Hb, ⟨Ha0, Ha1, Ha2, Ha3, Ha4, Ha5, Ha6, Hv0, Hv1, Hv2, Hv3, Hv4, Hv5, Hv6, Hv7, Hv8, Hv9⟩, Hts, Hpr⟩, ⟨Hg0, Hg1, Hg2⟩⟩
  ihave Hlv := (SparseCore.Cfg.ctx_levAts κ) $$ Hctx
  -- %0: the indices transposed
  iapply (hS.v0 d _ _)
  isplitl [Hb]; · iexact Hb
  isplitl [Ha0]; · iexact Ha0
  isplitl [Hv0]; · iexact Hv0
  iintro ⟨Hb, Ha0, Hv0⟩
  -- region 0: the padded re-layout
  iapply (hS.r0 d _)
  isplitr; · iexact Hlv
  isplitl [Hb]; · iexact Hb
  isplitl [Hv0]; · iexact Hv0
  isplitl [Hv1]; · iexact Hv1
  isplitl [HO]
  · unfold owesP; iexists Wt; isplitr; · ipureintro; exact hWt
    iexact HO
  isplitl [Hg0]; · iexact Hg0
  iintro ⟨Hb, Hv0, Hv1, HO⟩
  -- %2: the table transposed
  iapply (hS.v2 d _ _)
  isplitl [Hb]; · iexact Hb
  isplitl [Ha2]; · iexact Ha2
  isplitl [Hv2]; · iexact Hv2
  iintro ⟨Hb, Ha2, Hv2⟩
  -- region 1: the packed re-layout
  iapply (hS.r1 d _)
  isplitr; · iexact Hlv
  isplitl [Hb]; · iexact Hb
  isplitl [Hv2]; · iexact Hv2
  isplitl [Hv3]; · iexact Hv3
  isplitl [HO]; · iexact HO
  isplitl [Hg1]; · iexact Hg1
  iintro ⟨Hb, -, ⟨%Tb, %hTb, Hv3⟩, HO⟩
  -- the SparseCore call: halves of the indices and of the table, the output rows by subcore
  ihave Hi2 := (pointsTo_share (PosShare.mem_left_op_right (fullShare : PosShare TreeShare))).1 $$ Hv1
  icases Hi2 with ⟨HiL, HiR⟩
  ihave Ht2 := (pointsTo_share (PosShare.mem_left_op_right (fullShare : PosShare TreeShare))).1 $$ Hv3
  icases Ht2 with ⟨HtL, HtR⟩
  ihave Ho := (Entails.of_eq ((hsplit d _).trans (bigSep_fin2 _))) $$ Hv4
  icases Ho with ⟨Ho0, Ho1⟩
  iapply ((K (F := F)).wp_run (D (F := F)) 𝒱 (EH := EH) (P := PP m I1v TabOK PoolOKp) κ d 0)
  isplitr; · iexact Hctx
  isplitl [HO Hat Hrd Hrs Htoks]
  · unfold SparseCore.Cfg.tcSt owesP
    isplitl [HO]; · iexact HO
    isplitl [Hat]; · iexact Hat
    isplitl [Hrd]; · iexact Hrd
    isplitl [Hrs]; · iexact Hrs
    iexact Htoks
  isplitl [HiL HiR HtL HtR Ho0 Ho1]
  · rw [st0_eq]
    unfold stP tabPts
    rw [half_zero, half_one]
    isplitl [HiL HtL Ho0]
    · isplitl [HiL]; · iexact HiL
      isplitl [HtL]
      · iexists Tb; isplitr; · ipureintro; exact hTb
        iexact HtL
      iexact Ho0
    · isplitl [HiR]; · iexact HiR
      isplitl [HtR]
      · iexists Tb; isplitr; · ipureintro; exact hTb
        iexact HtR
      iexact Ho1
  iintro ⟨Hst, Hdn⟩
  ihave Hdn' := (Entails.of_eq (dn0_eq m I1v TabOK PoolOKp d)) $$ Hdn
  unfold dnP
  icases Hdn' with ⟨⟨HiL, -, -, Hp0⟩, ⟨HiR, -, -, Hp1⟩⟩
  -- the pooled rows put together again: they are the claimed ones
  ihave Hpj := (hjoin d (fun c i G => PoolOKp d (LL c i) G)) $$ [Hp0 Hp1]
  · rw [bigSep_fin2]; isplitl [Hp0]; · iexact Hp0
    iexact Hp1
  icases Hpj with ⟨%g, %hg, Hv4⟩
  -- what the TensorCore owes now: nothing at this call any more
  unfold SparseCore.Cfg.tcSt
  icases Hst with ⟨HO, Hat, Hrd, Hrs, Htoks⟩
  -- %5 … %8: the weights re-laid
  iapply (hS.v5 d _ _)
  isplitl [Hb]; · iexact Hb
  isplitl [Ha3]; · iexact Ha3
  isplitl [Hv5]; · iexact Hv5
  iintro ⟨Hb, Ha3, Hv5⟩
  iapply (hS.v6 d _ _)
  isplitl [Hb]; · iexact Hb
  isplitl [Ha4]; · iexact Ha4
  isplitl [Hv6]; · iexact Hv6
  iintro ⟨Hb, Ha4, Hv6⟩
  iapply (hS.v7 d _ _)
  isplitl [Hb]; · iexact Hb
  isplitl [Ha5]; · iexact Ha5
  isplitl [Hv7]; · iexact Hv7
  iintro ⟨Hb, Ha5, Hv7⟩
  iapply (hS.v8 d _ _)
  isplitl [Hb]; · iexact Hb
  isplitl [Ha6]; · iexact Ha6
  isplitl [Hv8]; · iexact Hv8
  iintro ⟨Hb, Ha6, Hv8⟩
  -- region 2: the perceptron and the softmax
  iapply (hS.r3 d g _)
  isplitr; · iexact Hlv
  isplitl [Hb]; · iexact Hb
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [HO]; · unfold owesP; iexact HO
  isplitl [Hg2]; · iexact Hg2
  iintro ⟨Hb, Hv9, HO⟩
  imodintro
  isplitl [HO Hat Hrd Hrs Htoks]
  · unfold owesP
    isplitl [HO]; · iexact HO
    isplitl [Hat]; · iexact Hat
    isplitl [Hrd]; · iexact Hrd
    isplitl [Hrs]; · iexact Hrs
    iexact Htoks
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexists g; isplitr; · ipureintro; exact hg
  iexact Hv9

end Cert.Proof.KI

end
-- ==== Proof.KIOutSplit.lean ====
/-
  The pooled rows taken apart and put together again. The array of 4096 rows of 64 is handed over as 64 blocks of 64
  rows: the subcore at SparseCore `c`, place `i` owns rows `256 i + 128 c` to `256 i + 128 c + 127`, as a first slice of
  64 rows and a second. The 64 blocks are pairwise disjoint (two different blocks start at different multiples of 64) and
  cover the array (a row `r` lies in the block numbered `r / 64`), so the whole array at full share is the separating
  conjunction of the blocks, and blocks held at different contents join to the whole array at contents agreeing with each
  on its rows.
-/
import proofs.«207435_g27118423507386_cont_sun_m_668_27_alg».proof.Proof.KILaunchB
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

/-- The two slices as rectangles of the array. -/
theorem set_outA (L : grid2.Coords) :
    (outA L).view.set = (Rect.unit (s := S4096x64) (k2_off184 L) S64x64.size (k2_off184_inb L)).set :=
  View.set_slice_whole main_v4_scv _
theorem set_outB (L : grid2.Coords) :
    (outB L).view.set = (Rect.unit (s := S4096x64) (k2_off365 L) S64x64.size (k2_off365_inb L)).set :=
  View.set_slice_whole main_v4_scv _

/-- The first slice of a subcore's rows, by row number: rows `256 i + 128 c` up to 64 more (every column). -/
theorem mem_outA (c : Fin 2) (i : Fin 16) (x : S4096x64.Idx) :
    x ∈ (outA (LL c i)).view.set ↔ 256 * i.val + 128 * c.val ≤ (x 0).val ∧ (x 0).val < 256 * i.val + 128 * c.val + 64 := by
  rw [set_outA, Rect.mem_set_unit, Gen.k2_off184_eq]
  have h1 : (x 1).val < 64 := (x 1).isLt
  refine ⟨fun h => h 0, fun h => Fin.forall_fin_two.mpr ⟨h, ?_⟩⟩
  show 0 ≤ (x 1).val ∧ (x 1).val < 0 + 64
  omega

/-- The second slice: the 64 rows after the first's. -/
theorem mem_outB (c : Fin 2) (i : Fin 16) (x : S4096x64.Idx) :
    x ∈ (outB (LL c i)).view.set ↔ 256 * i.val + 128 * c.val + 64 ≤ (x 0).val ∧ (x 0).val < 256 * i.val + 128 * c.val + 64 + 64 := by
  rw [set_outB, Rect.mem_set_unit, Gen.k2_off365_eq]
  have h1 : (x 1).val < 64 := (x 1).isLt
  refine ⟨fun h => h 0, fun h => Fin.forall_fin_two.mpr ⟨h, ?_⟩⟩
  show 0 ≤ (x 1).val ∧ (x 1).val < 0 + 64
  omega

theorem out_row_mem (c : Fin 2) (i : Fin 16) (r : Fin 4096) (e : Fin 64)
    (hr : 256 * i.val + 128 * c.val ≤ r.val ∧ r.val < 256 * i.val + 128 * c.val + 128) :
    ValueIdx.ix2 r e ∈ (outA (LL c i)).view.set ∪ (outB (LL c i)).view.set := by
  rw [Finset.mem_union, mem_outA, mem_outB]
  show (256 * i.val + 128 * c.val ≤ r.val ∧ r.val < 256 * i.val + 128 * c.val + 64)
    ∨ (256 * i.val + 128 * c.val + 64 ≤ r.val ∧ r.val < 256 * i.val + 128 * c.val + 64 + 64)
  omega

/-- Every index of the pooled rows lies in some subcore's rows: row `r` in those of place `r / 256` of SparseCore `(r % 256) / 128`. -/
theorem out_cover (x : S4096x64.Idx) : ∃ (c : Fin 2) (i : Fin 16), x ∈ (outA (LL c i)).view.set ∪ (outB (LL c i)).view.set := by
  have hx : (x 0).val < 4096 := (x 0).isLt
  refine ⟨⟨(x 0).val % 256 / 128, by omega⟩, ⟨(x 0).val / 256, by omega⟩, ?_⟩
  rw [Finset.mem_union, mem_outA, mem_outB]
  show (256 * ((x 0).val / 256) + 128 * ((x 0).val % 256 / 128) ≤ (x 0).val
      ∧ (x 0).val < 256 * ((x 0).val / 256) + 128 * ((x 0).val % 256 / 128) + 64)
    ∨ (256 * ((x 0).val / 256) + 128 * ((x 0).val % 256 / 128) + 64 ≤ (x 0).val
      ∧ (x 0).val < 256 * ((x 0).val / 256) + 128 * ((x 0).val % 256 / 128) + 64 + 64)
  omega

/-- The 64 blocks: SparseCore `c`, place `i`, first or second slice. -/
def blk (t : (Fin 2 × Fin 16) × Fin 2) : Finset S4096x64.Idx :=
  if t.2 = 0 then (outA (LL t.1.1 t.1.2)).view.set else (outB (LL t.1.1 t.1.2)).view.set

theorem blk_zero (c : Fin 2) (i : Fin 16) : blk ((c, i), 0) = (outA (LL c i)).view.set := if_pos rfl
theorem blk_one (c : Fin 2) (i : Fin 16) : blk ((c, i), 1) = (outB (LL c i)).view.set := if_neg (show ¬ ((1 : Fin 2) = 0) by decide)

/-- Block `(c, i, b)` is the rows `64 (4 i + 2 c + b)` up to 64 more. -/
theorem mem_blk (t : (Fin 2 × Fin 16) × Fin 2) (x : S4096x64.Idx) :
    x ∈ blk t ↔ 256 * t.1.2.val + 128 * t.1.1.val + 64 * t.2.val ≤ (x 0).val
      ∧ (x 0).val < 256 * t.1.2.val + 128 * t.1.1.val + 64 * t.2.val + 64 := by
  obtain ⟨⟨c, i⟩, b⟩ := t
  have hb : b = 0 ∨ b = 1 := by omega
  rcases hb with rfl | rfl
  · rw [blk_zero, mem_outA]; exact Iff.rfl
  · rw [blk_one, mem_outB]; exact Iff.rfl

/-- Two different blocks start at different multiples of 64, so share no row. -/
theorem blk_disjoint : ∀ t ∈ (Finset.univ : Finset ((Fin 2 × Fin 16) × Fin 2)), ∀ t' ∈ (Finset.univ : Finset ((Fin 2 × Fin 16) × Fin 2)),
    t ≠ t' → Disjoint (blk t) (blk t') := by
  intro t _ t' _ hne
  refine Finset.disjoint_left.mpr fun x hx hx' => hne ?_
  rw [mem_blk] at hx hx'
  obtain ⟨⟨c, i⟩, b⟩ := t
  obtain ⟨⟨c', i'⟩, b'⟩ := t'
  have hc := c.isLt; have hc' := c'.isLt; have hb := b.isLt; have hb' := b'.isLt
  simp only at hx hx'
  have e1 : i = i' := Fin.ext (by omega)
  have e2 : c = c' := Fin.ext (by omega)
  have e3 : b = b' := Fin.ext (by omega)
  rw [e1, e2, e3]

/-- Row `r` lies in the block numbered `r / 64`. -/
theorem blk_cover : (Finset.univ : Finset ((Fin 2 × Fin 16) × Fin 2)).biUnion blk = Finset.univ := by
  ext x
  simp only [Finset.mem_biUnion, Finset.mem_univ, true_and, iff_true]
  have hx : (x 0).val < 4096 := (x 0).isLt
  refine ⟨((⟨(x 0).val % 256 / 128, by omega⟩, ⟨(x 0).val / 256, by omega⟩), ⟨(x 0).val % 128 / 64, by omega⟩), ?_⟩
  rw [mem_blk]
  show 256 * ((x 0).val / 256) + 128 * ((x 0).val % 256 / 128) + 64 * ((x 0).val % 128 / 64) ≤ (x 0).val
    ∧ (x 0).val < 256 * ((x 0).val / 256) + 128 * ((x 0).val % 256 / 128) + 64 * ((x 0).val % 128 / 64) + 64
  omega

/-- The whole array is the 64 blocks. -/
theorem out_blocks (d : Dev nD) (f : Buf (Elt F) (oLoc d)) :
    (oLoc d ↦{fullShare} f : sProp 𝕄) = bigSep Finset.univ fun t : (Fin 2 × Fin 16) × Fin 2 => oLoc d ↦[blk t]{fullShare} f := by
  rw [← pointsTo_biUnion Finset.univ (ℓ := oLoc d) blk blk_disjoint, blk_cover]; try rfl

/-- A subcore's rows are its two blocks. -/
theorem outPts_blocks (d : Dev nD) (c : Fin 2) (i : Fin 16) (f : Buf (Elt F) (oLoc d)) :
    (outPts d c i f : sProp 𝕄) = bigSep Finset.univ fun b : Fin 2 => oLoc d ↦[blk ((c, i), b)]{fullShare} f := by
  rw [bigSep_univ_two, blk_zero, blk_one]; rfl

theorem out_split (d : Dev nD) (f : Buf (Elt F) (oLoc d)) :
    (oLoc d ↦{fullShare} f : sProp 𝕄) = bigSep Finset.univ fun c : Fin 2 => bigSep Finset.univ fun i : Fin 16 => outPts d c i f := by
  rw [out_blocks, bigSep_univ_prod, bigSep_univ_prod]
  exact bigSep_congr fun c _ => bigSep_congr fun i _ => (outPts_blocks d c i f).symm

/-- Blocks held subcore by subcore at contents `Gs` join to the whole array at contents agreeing with `Gs` block by block. -/
theorem blocks_join (d : Dev nD) (Gs : Fin 2 × Fin 16 → Buf (Elt F) (oLoc d)) :
    (bigSep Finset.univ fun p : Fin 2 × Fin 16 => (outPts d p.1 p.2 (Gs p) : sProp 𝕄))
      ⊢ iprop(∃ g, ⌜∀ t ∈ (Finset.univ : Finset ((Fin 2 × Fin 16) × Fin 2)), ∀ x ∈ blk t, g x = Gs t.1 x⌝ ∗ (oLoc d ↦{fullShare} g)) := by
  have e2 : (bigSep Finset.univ fun p : Fin 2 × Fin 16 => (outPts d p.1 p.2 (Gs p) : sProp 𝕄))
      = bigSep Finset.univ fun t : (Fin 2 × Fin 16) × Fin 2 => oLoc d ↦[blk t]{fullShare} Gs t.1 :=
    (bigSep_congr fun p _ => outPts_blocks d p.1 p.2 (Gs p)).trans
      (bigSep_univ_prod (fun t : (Fin 2 × Fin 16) × Fin 2 => (oLoc d ↦[blk t]{fullShare} Gs t.1 : sProp 𝕄))).symm
  have h : (bigSep Finset.univ fun t : (Fin 2 × Fin 16) × Fin 2 => (oLoc d ↦[blk t]{fullShare} Gs t.1 : sProp 𝕄))
      ⊢ iprop(∃ g, ⌜∀ t ∈ (Finset.univ : Finset ((Fin 2 × Fin 16) × Fin 2)), ∀ x ∈ blk t, g x = Gs t.1 x⌝
          ∗ (oLoc d ↦[(Finset.univ : Finset ((Fin 2 × Fin 16) × Fin 2)).biUnion blk]{fullShare} g)) :=
    pointsTo_biUnion_join (ℓ := oLoc d) Finset.univ blk (fun t => Gs t.1) (Gs (0, 0)) blk_disjoint
  rw [blk_cover] at h
  rw [e2]
  exact h

theorem out_join (d : Dev nD) (Φ : Fin 2 → Fin 16 → Buf (Elt F) (oLoc d) → Prop) :
    (bigSep Finset.univ fun c : Fin 2 => bigSep Finset.univ fun i : Fin 16 => iprop(∃ G, ⌜Φ c i G⌝ ∗ outPts d c i G) : sProp 𝕄)
      ⊢ iprop(∃ g, ⌜∀ (c : Fin 2) (i : Fin 16), ∃ G, Φ c i G ∧ ∀ x ∈ (outA (LL c i)).view.set ∪ (outB (LL c i)).view.set, g x = G x⌝ ∗ (oLoc d ↦{fullShare} g)) := by
  -- the subcores' contents chosen all at once
  have e1 : (bigSep Finset.univ fun c : Fin 2 => bigSep Finset.univ fun i : Fin 16 => iprop(∃ G, ⌜Φ c i G⌝ ∗ outPts d c i G) : sProp 𝕄)
      = bigSep Finset.univ fun p : Fin 2 × Fin 16 => iprop(∃ G, ⌜Φ p.1 p.2 G⌝ ∗ outPts d p.1 p.2 G) :=
    (bigSep_univ_prod (fun p : Fin 2 × Fin 16 => (iprop(∃ G, ⌜Φ p.1 p.2 G⌝ ∗ outPts d p.1 p.2 G) : sProp 𝕄))).symm
  rw [e1]
  refine (bigSep_exists_pi Finset.univ (fun (p : Fin 2 × Fin 16) (G : Buf (Elt F) (oLoc d)) => (iprop(⌜Φ p.1 p.2 G⌝ ∗ outPts d p.1 p.2 G) : sProp 𝕄))).trans ?_
  iintro ⟨%Gs, H⟩
  ihave H1 := (bigSep_pure_sep Finset.univ (fun p : Fin 2 × Fin 16 => Φ p.1 p.2 (Gs p)) (fun p => (outPts d p.1 p.2 (Gs p) : sProp 𝕄))) $$ H
  icases H1 with ⟨%hΦ, H2⟩
  -- each subcore's rows as its two blocks, then all 64 blocks joined
  ihave H3 := (blocks_join d Gs) $$ H2
  icases H3 with ⟨%g, %hg, Hg⟩
  iexists g
  isplitr
  · ipureintro
    intro c i
    refine ⟨Gs (c, i), hΦ (c, i) (Finset.mem_univ _), fun x hx => ?_⟩
    rcases Finset.mem_union.mp hx with hA | hB
    · exact hg ((c, i), 0) (Finset.mem_univ _) x (by rw [blk_zero]; exact hA)
    · exact hg ((c, i), 1) (Finset.mem_univ _) x (by rw [blk_one]; exact hB)
  iexact Hg

end Cert.Proof.KI

end
-- ==== Proof.KILaunchE.lean ====
/-
  The program's run from its steps: the launch element of the ghost state (the handshakes' rounds, the pipelines'
  staging rounds dealt to the TensorCore; nothing for the subcores, whose copies and gathers run on the counters), how
  the TensorCore's final assertion reads the claim off the final memory, and the SparseCore launch theorem applied.
-/
import proofs.«207435_g27118423507386_cont_sun_m_668_27_alg».proof.Proof.KILaunchD
import proofs.«207435_g27118423507386_cont_sun_m_668_27_alg».proof.Proof.KIOutSplit

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

theorem hu₀ : iprop((ownU (u₀ (F := F)) : sProp 𝕄) ∗ (PP m I1v TabOK PoolOKp).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m I1v TabOK PoolOKp).x q thr) := by
  iintro ⟨Hu, -, -⟩
  imod (hu₀_core (F := F)) $$ Hu with ⟨HH, HG⟩
  imodintro
  isplitl [HH]; · iexact HH
  isplitl [HG]; · iexact HG
  rw [show (bigSep Finset.univ fun thr : Thread nD τ => bigSep Finset.univ fun q : Fin 1 => (PP m I1v TabOK PoolOKp).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-- What the claim reads of a final state on device `d`. -/
def fq (d : Dev nD) (s' : Phys nD τ sig (Elt F)) : Prop :=
  s'.mem.mem (bLoc d main_arg0) = mT m d main_arg0 ∧ s'.mem.mem (bLoc d main_arg1) = mT m d main_arg1 ∧ s'.mem.mem (bLoc d main_arg2) = mT m d main_arg2 ∧ s'.mem.mem (bLoc d main_arg3) = mT m d main_arg3 ∧ s'.mem.mem (bLoc d main_arg4) = mT m d main_arg4 ∧ s'.mem.mem (bLoc d main_arg5) = mT m d main_arg5 ∧ s'.mem.mem (bLoc d main_arg6) = mT m d main_arg6 ∧ ∃ g, Pooled PoolOKp d g ∧ s'.mem.mem (bLoc d main_v9) = R9f d g

theorem hfin (d : Dev nD) (s' : Phys nD τ sig (Elt F)) : iprop(FIN m R9f PoolOKp d ∗ SI s') ⊢ (⌜fq m R9f PoolOKp d s'⌝ : sProp 𝕄) := by
  unfold FIN
  iintro ⟨⟨H0, H1, H2, H3, H4, H5, H6, %g, %hg, H9⟩, HSI⟩
  ihave H := (persistent_entails_right (SI_pointsTo_agree (st := s') (ℓ := bLoc d main_arg0) (I := Finset.univ) (q := fullShare) (f := mT m d main_arg0))) $$ [HSI H0]
  · isplitl [HSI] <;> iassumption
  icases H with ⟨%h0, HSI, -⟩
  ihave H := (persistent_entails_right (SI_pointsTo_agree (st := s') (ℓ := bLoc d main_arg1) (I := Finset.univ) (q := fullShare) (f := mT m d main_arg1))) $$ [HSI H1]
  · isplitl [HSI] <;> iassumption
  icases H with ⟨%h1, HSI, -⟩
  ihave H := (persistent_entails_right (SI_pointsTo_agree (st := s') (ℓ := bLoc d main_arg2) (I := Finset.univ) (q := fullShare) (f := mT m d main_arg2))) $$ [HSI H2]
  · isplitl [HSI] <;> iassumption
  icases H with ⟨%h2, HSI, -⟩
  ihave H := (persistent_entails_right (SI_pointsTo_agree (st := s') (ℓ := bLoc d main_arg3) (I := Finset.univ) (q := fullShare) (f := mT m d main_arg3))) $$ [HSI H3]
  · isplitl [HSI] <;> iassumption
  icases H with ⟨%h3, HSI, -⟩
  ihave H := (persistent_entails_right (SI_pointsTo_agree (st := s') (ℓ := bLoc d main_arg4) (I := Finset.univ) (q := fullShare) (f := mT m d main_arg4))) $$ [HSI H4]
  · isplitl [HSI] <;> iassumption
  icases H with ⟨%h4, HSI, -⟩
  ihave H := (persistent_entails_right (SI_pointsTo_agree (st := s') (ℓ := bLoc d main_arg5) (I := Finset.univ) (q := fullShare) (f := mT m d main_arg5))) $$ [HSI H5]
  · isplitl [HSI] <;> iassumption
  icases H with ⟨%h5, HSI, -⟩
  ihave H := (persistent_entails_right (SI_pointsTo_agree (st := s') (ℓ := bLoc d main_arg6) (I := Finset.univ) (q := fullShare) (f := mT m d main_arg6))) $$ [HSI H6]
  · isplitl [HSI] <;> iassumption
  icases H with ⟨%h6, HSI, -⟩
  ihave H := (SI_pointsTo_agree (st := s') (ℓ := bLoc d main_v9) (I := Finset.univ) (q := fullShare) (f := R9f d g)) $$ [HSI H9]
  · isplitl [HSI] <;> iassumption
  icases H with %h9
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), g, hg, funext fun i => h9 i (Finset.mem_univ i)⟩

/-- The claim of the run: on every device the arguments unchanged and the result at the last region's function of pooled rows of which `PoolOKp` holds subcore by subcore. -/
def QC : PUnit × MemSt nD τ sig (Elt F) → Prop := fun r => ∀ c : Dev nD,
  r.2.mem (bLoc c main_arg0) = mT m c main_arg0 ∧ r.2.mem (bLoc c main_arg1) = mT m c main_arg1 ∧ r.2.mem (bLoc c main_arg2) = mT m c main_arg2 ∧ r.2.mem (bLoc c main_arg3) = mT m c main_arg3 ∧ r.2.mem (bLoc c main_arg4) = mT m c main_arg4 ∧ r.2.mem (bLoc c main_arg5) = mT m c main_arg5 ∧ r.2.mem (bLoc c main_arg6) = mT m c main_arg6 ∧ ∃ g, Pooled PoolOKp c g ∧ r.2.mem (bLoc c main_v9) = R9f c g

theorem run [∀ e, Nonempty (Elt F e)] (hS : Steps m I1v R9f TabOK)
    (htile : (K (F := F)).TileObl (D (F := F)) 𝒱 (PP m I1v TabOK PoolOKp) v₀ 0) :
    θ_run (Cert.KernelIdeal.defs (F := F)) (Cert.KernelIdeal.threads (F := F)) ⟨m, fun _ => 0, ρ⟩ (QC m R9f PoolOKp) :=
  SparseCore.Cfg.θ_run_sc (K := K (F := F)) (D := D (F := F)) (𝒱 := 𝒱) (EH := EH) (P := PP m I1v TabOK PoolOKp) facts v₀
    (fun q hq => match q with | 0 => nomatch hq)
    (fun q _ => match q with | 0 => htile)
    (fun q _ => match q with | 0 => SparseCore.Cfg.VecSplit.of_plain (vecSplit I1v (fun d => mT m d main_v4) TabOK PoolOKp))
    m ρ main (G (F := F)) (FIN m R9f PoolOKp) (u₀ (F := F)) (hu₀ m I1v TabOK PoolOKp)
    (hmain m ρ I1v R9f TabOK PoolOKp hS out_split out_join) (fq m R9f PoolOKp) (hfin m R9f PoolOKp) (QC m R9f PoolOKp) (fun _ h => h)

end Cert.Proof.KI

end
-- ==== Proof.KITileArith.lean ====
/-
  Word arithmetic of the embedding-bag kernel: a padded index word at most 999999 packs to a row number of the
  packed table below 507904, and the lane offset of its half is 0 or 64.
-/
import Idealize.ShloMosaic.PureOps.Float
import Idealize.ShloMosaic.PureOps.Vector
import Idealize.ShloMosaic.Lib.Scf

namespace Cert.Proof.KI

open Idealize.ShloMosaic

/-- The packed row number of a vocabulary word: `(v >>> 15) <<< 14 ||| (v &&& 16383)`. For `v ≤ 999999` the high part
    is at most 30, so the row number is at most `30 * 16384 + 16383 = 507903`. -/
theorem pack_lt (v : BitVec 32) (hv : v.toNat ≤ 999999) :
    (IntOp.ori (IntOp.shli .vector (IntOp.shrui .vector v 15#32) 14#32) (IntOp.andi v 16383#32)).toNat < 507904 := by
  have h1 : (15#32 : BitVec 32).toNat < 32 := by decide
  have h2 : (14#32 : BitVec 32).toNat < 32 := by decide
  simp only [IntOp.ori, IntOp.shli, IntOp.shrui, IntOp.andi, h1, h2, if_true]
  rw [BitVec.toNat_or, BitVec.shiftLeft_eq', BitVec.toNat_shiftLeft, BitVec.ushiftRight_eq', BitVec.toNat_ushiftRight, BitVec.toNat_and]
  have e15 : (15#32 : BitVec 32).toNat = 15 := by decide
  have e14 : (14#32 : BitVec 32).toNat = 14 := by decide
  have e16383 : (16383#32 : BitVec 32).toNat = 2 ^ 14 - 1 := by decide
  rw [e15, e14, e16383, Nat.and_two_pow_sub_one_eq_mod, Nat.shiftRight_eq_div_pow, Nat.shiftLeft_eq]
  have ha : v.toNat / 2 ^ 15 ≤ 30 := by omega
  have hm : v.toNat / 2 ^ 15 * 2 ^ 14 % 2 ^ 32 = v.toNat / 2 ^ 15 * 2 ^ 14 := Nat.mod_eq_of_lt (by omega)
  rw [hm, ← Nat.shiftLeft_eq, ← Nat.shiftLeft_add_eq_or_of_lt (Nat.mod_lt _ (by decide)), Nat.shiftLeft_eq]
  omega

/-- The lowest bit of a word is 0 or 1. -/
theorem and_one_or (y : BitVec 32) : y &&& 1#32 = 0#32 ∨ y &&& 1#32 = 1#32 := by
  have h : (y &&& 1#32).toNat = y.toNat % 2 := by
    rw [BitVec.toNat_and]; exact Nat.and_one_is_mod _
  rcases Nat.mod_two_eq_zero_or_one y.toNat with h0 | h1
  · left; apply BitVec.eq_of_toNat_eq; rw [h, h0]; rfl
  · right; apply BitVec.eq_of_toNat_eq; rw [h, h1]; rfl

/-- The lane offset of a word's half of a packed row, `((x >>> 14) &&& 1) * 64`, is 0 or 64 whatever the word is. -/
theorem half_or (x : BitVec 32) :
    IntOp.muli (IntOp.andi (IntOp.shrui .vector x 14#32) 1#32) 64#32 = 0#32
      ∨ IntOp.muli (IntOp.andi (IntOp.shrui .vector x 14#32) 1#32) 64#32 = 64#32 := by
  have h2 : (14#32 : BitVec 32).toNat < 32 := by decide
  simp only [IntOp.muli, IntOp.andi, IntOp.shrui, h2, if_true]
  rcases and_one_or (x >>> 14#32) with h | h
  · left; rw [h]; rfl
  · right; rw [h]; rfl

/-- Row `16 * k + c` of a row buffer, for a trip `k < 6` of an accumulation loop and `c < 16`, is one of its hundred rows. -/
theorem row_ok (kv : ℕ) (hk : kv < 6) (c : BitVec 32) (hc : c.toNat < 16) :
    (Scalar.indexCast (Scalar.addi (Scalar.muli (Scf.iv 0#32 1#32 kv) 16#32) c)).toNat + 1 ≤ 100 := by
  simp only [Scalar.indexCast, Scalar.addi, Scalar.muli, IntOp.addi, IntOp.muli, Scf.iv]
  simp only [BitVec.toNat_add, BitVec.toNat_mul, BitVec.toNat_ofNat]
  omega

/-- The side condition of a sixteen-lane load of a gathered row at a lane offset that is 0 or 64: the load at the
    offset and the three at 16, 32, 48 lanes further lie in the row's 128 lanes. Stated over any two offset
    functions of the printed shape — the row and the word, the row and the word plus a constant. -/
theorem chk_of {offA : Fin 2 → ℕ} {offB : BitVec 32 → Fin 2 → ℕ} {szA szB : Fin 2 → ℕ} (v : BitVec 32) (row : ℕ)
    (hA : offA = ![row, v.toNat]) (hB : ∀ c, offB c = ![row, (v + c).toNat])
    (hszA : szA = ![1, 16]) (hszB : szB = ![100, 128])
    (hrow : row + 1 ≤ 100) (hv : v = 0#32 ∨ v = 64#32) :
    (∀ a, offA a + szA a ≤ szB a) ∧ (∀ (r : Fin 3), ∀ a, offB (BitVec.ofNat 32 (16 + 16 * r.val)) a + szA a ≤ szB a) := by
  subst hA hszA hszB
  refine ⟨fun a => ?_, fun r a => ?_⟩
  · fin_cases a
    · show row + 1 ≤ 100; exact hrow
    · show v.toNat + 16 ≤ 128; rcases hv with rfl | rfl <;> decide
  · rw [hB]
    fin_cases a
    · show row + 1 ≤ 100; exact hrow
    · show (v + BitVec.ofNat 32 (16 + 16 * r.val)).toNat + 16 ≤ 128
      rcases hv with rfl | rfl <;> fin_cases r <;> decide

end Cert.Proof.KI
-- ==== Proof.KITileOff.lean ====
/-
  Closed forms of the offsets at which the two outer loops store a bag's mean into the staging buffer: the bag's row of
  the sixty-four (two bags a trip) and the sixteen-lane column.
-/
import proofs.«207435_g27118423507386_cont_sun_m_668_27_alg».proof.Proof.KIShared

namespace Cert.Proof.KI

open Cert.KernelIdeal Cert.KernelIdeal.Gen
open Idealize.ShloMosaic

theorem k2_off89_eq : ∀ t : Fin k2_t2_loop.trips, k2_off89 t = ![2 * t.val, 0] := by decide +kernel
instance closedOff_k2_off89 (t : Fin k2_t2_loop.trips) : ClosedOff (k2_off89 t) := ⟨![2 * t.val, 0], k2_off89_eq t⟩
theorem k2_off90_eq : ∀ t : Fin k2_t2_loop.trips, k2_off90 t = ![2 * t.val, 16] := by decide +kernel
instance closedOff_k2_off90 (t : Fin k2_t2_loop.trips) : ClosedOff (k2_off90 t) := ⟨![2 * t.val, 16], k2_off90_eq t⟩
theorem k2_off91_eq : ∀ t : Fin k2_t2_loop.trips, k2_off91 t = ![2 * t.val, 32] := by decide +kernel
instance closedOff_k2_off91 (t : Fin k2_t2_loop.trips) : ClosedOff (k2_off91 t) := ⟨![2 * t.val, 32], k2_off91_eq t⟩
theorem k2_off92_eq : ∀ t : Fin k2_t2_loop.trips, k2_off92 t = ![2 * t.val, 48] := by decide +kernel
instance closedOff_k2_off92 (t : Fin k2_t2_loop.trips) : ClosedOff (k2_off92 t) := ⟨![2 * t.val, 48], k2_off92_eq t⟩
theorem k2_off179_eq : ∀ t : Fin k2_t2_loop.trips, k2_off179 t = ![2 * t.val + 1, 0] := by decide +kernel
instance closedOff_k2_off179 (t : Fin k2_t2_loop.trips) : ClosedOff (k2_off179 t) := ⟨![2 * t.val + 1, 0], k2_off179_eq t⟩
theorem k2_off180_eq : ∀ t : Fin k2_t2_loop.trips, k2_off180 t = ![2 * t.val + 1, 16] := by decide +kernel
instance closedOff_k2_off180 (t : Fin k2_t2_loop.trips) : ClosedOff (k2_off180 t) := ⟨![2 * t.val + 1, 16], k2_off180_eq t⟩
theorem k2_off181_eq : ∀ t : Fin k2_t2_loop.trips, k2_off181 t = ![2 * t.val + 1, 32] := by decide +kernel
instance closedOff_k2_off181 (t : Fin k2_t2_loop.trips) : ClosedOff (k2_off181 t) := ⟨![2 * t.val + 1, 32], k2_off181_eq t⟩
theorem k2_off182_eq : ∀ t : Fin k2_t2_loop.trips, k2_off182 t = ![2 * t.val + 1, 48] := by decide +kernel
instance closedOff_k2_off182 (t : Fin k2_t2_loop.trips) : ClosedOff (k2_off182 t) := ⟨![2 * t.val + 1, 48], k2_off182_eq t⟩
theorem k2_off270_eq : ∀ t : Fin k2_t7_loop.trips, k2_off270 t = ![2 * t.val, 0] := by decide +kernel
instance closedOff_k2_off270 (t : Fin k2_t7_loop.trips) : ClosedOff (k2_off270 t) := ⟨![2 * t.val, 0], k2_off270_eq t⟩
theorem k2_off271_eq : ∀ t : Fin k2_t7_loop.trips, k2_off271 t = ![2 * t.val, 16] := by decide +kernel
instance closedOff_k2_off271 (t : Fin k2_t7_loop.trips) : ClosedOff (k2_off271 t) := ⟨![2 * t.val, 16], k2_off271_eq t⟩
theorem k2_off272_eq : ∀ t : Fin k2_t7_loop.trips, k2_off272 t = ![2 * t.val, 32] := by decide +kernel
instance closedOff_k2_off272 (t : Fin k2_t7_loop.trips) : ClosedOff (k2_off272 t) := ⟨![2 * t.val, 32], k2_off272_eq t⟩
theorem k2_off273_eq : ∀ t : Fin k2_t7_loop.trips, k2_off273 t = ![2 * t.val, 48] := by decide +kernel
instance closedOff_k2_off273 (t : Fin k2_t7_loop.trips) : ClosedOff (k2_off273 t) := ⟨![2 * t.val, 48], k2_off273_eq t⟩
theorem k2_off360_eq : ∀ t : Fin k2_t7_loop.trips, k2_off360 t = ![2 * t.val + 1, 0] := by decide +kernel
instance closedOff_k2_off360 (t : Fin k2_t7_loop.trips) : ClosedOff (k2_off360 t) := ⟨![2 * t.val + 1, 0], k2_off360_eq t⟩
theorem k2_off361_eq : ∀ t : Fin k2_t7_loop.trips, k2_off361 t = ![2 * t.val + 1, 16] := by decide +kernel
instance closedOff_k2_off361 (t : Fin k2_t7_loop.trips) : ClosedOff (k2_off361 t) := ⟨![2 * t.val + 1, 16], k2_off361_eq t⟩
theorem k2_off362_eq : ∀ t : Fin k2_t7_loop.trips, k2_off362 t = ![2 * t.val + 1, 32] := by decide +kernel
instance closedOff_k2_off362 (t : Fin k2_t7_loop.trips) : ClosedOff (k2_off362 t) := ⟨![2 * t.val + 1, 32], k2_off362_eq t⟩
theorem k2_off363_eq : ∀ t : Fin k2_t7_loop.trips, k2_off363 t = ![2 * t.val + 1, 48] := by decide +kernel
instance closedOff_k2_off363 (t : Fin k2_t7_loop.trips) : ClosedOff (k2_off363 t) := ⟨![2 * t.val + 1, 48], k2_off363_eq t⟩

end Cert.Proof.KI
-- ==== Proof.KITile.lean ====
/-
  One vector subcore's task, at a symbolic place `L` of the kernel's grid: the subcore's scratch buffers and DMA
  semaphores named one by one, and the task's body run from the operands the launch hands it.
-/
import proofs.«207435_g27118423507386_cont_sun_m_668_27_alg».proof.Proof.KIShared
import proofs.«207435_g27118423507386_cont_sun_m_668_27_alg».proof.Proof.KITileArith
import proofs.«207435_g27118423507386_cont_sun_m_668_27_alg».proof.Proof.KITileOff
import proofs.«207435_g27118423507386_cont_sun_m_668_27_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "vIW" => (Memref.whole Cert.KernelIdeal.main_v1_scv : Memref Cert.KernelIdeal.sig Kind.scVector Space.hbm Cert.KernelIdeal.S4096x224 EltTy.i32)
local notation "vTW" => (Memref.whole Cert.KernelIdeal.main_v3_scv : Memref Cert.KernelIdeal.sig Kind.scVector Space.hbm Cert.KernelIdeal.S507904x128 EltTy.f32)
local notation "vOW" => (Memref.whole Cert.KernelIdeal.main_v4_scv : Memref Cert.KernelIdeal.sig Kind.scVector Space.hbm Cert.KernelIdeal.S4096x64 EltTy.f32)
local notation "sRawW" => (Memref.whole Cert.KernelIdeal.cc2_scratch0 : Memref Cert.KernelIdeal.sig Kind.scVector Space.vmem Cert.KernelIdeal.S128x224 EltTy.i32)
local notation "sPW" => (Memref.whole Cert.KernelIdeal.cc2_scratch1 : Memref Cert.KernelIdeal.sig Kind.scVector Space.vmem Cert.KernelIdeal.S28672 EltTy.i32)
local notation "sR0W" => (Memref.whole Cert.KernelIdeal.cc2_scratch2 : Memref Cert.KernelIdeal.sig Kind.scVector Space.vmem Cert.KernelIdeal.S100x128 EltTy.f32)
local notation "sR1W" => (Memref.whole Cert.KernelIdeal.cc2_scratch3 : Memref Cert.KernelIdeal.sig Kind.scVector Space.vmem Cert.KernelIdeal.S100x128 EltTy.f32)
local notation "sR2W" => (Memref.whole Cert.KernelIdeal.cc2_scratch4 : Memref Cert.KernelIdeal.sig Kind.scVector Space.vmem Cert.KernelIdeal.S100x128 EltTy.f32)
local notation "sR3W" => (Memref.whole Cert.KernelIdeal.cc2_scratch5 : Memref Cert.KernelIdeal.sig Kind.scVector Space.vmem Cert.KernelIdeal.S100x128 EltTy.f32)
local notation "sOutW" => (Memref.whole Cert.KernelIdeal.cc2_scratch6 : Memref Cert.KernelIdeal.sig Kind.scVector Space.vmem Cert.KernelIdeal.S64x64 EltTy.f32)

section Tile

variable (d : Dev nD) (L : grid2.Coords)

abbrev cell0 (d : Dev nD) (L : grid2.Coords) : GSem nD τ sig := ((V d (cV L) (jV L)), SemLoc.dma cc2_scratch7.sem)
abbrev cell1 (d : Dev nD) (L : grid2.Coords) : GSem nD τ sig := ((V d (cV L) (jV L)), SemLoc.dma cc2_scratch8.sem)
abbrev cell2 (d : Dev nD) (L : grid2.Coords) : GSem nD τ sig := ((V d (cV L) (jV L)), SemLoc.dma cc2_scratch9.sem)
abbrev cell3 (d : Dev nD) (L : grid2.Coords) : GSem nD τ sig := ((V d (cV L) (jV L)), SemLoc.dma cc2_scratch10.sem)
abbrev cell4 (d : Dev nD) (L : grid2.Coords) : GSem nD τ sig := ((V d (cV L) (jV L)), SemLoc.dma cc2_scoped0.sem)
abbrev cell5 (d : Dev nD) (L : grid2.Coords) : GSem nD τ sig := ((V d (cV L) (jV L)), SemLoc.dma cc2_scoped1.sem)
abbrev cell6 (d : Dev nD) (L : grid2.Coords) : GSem nD τ sig := ((V d (cV L) (jV L)), SemLoc.dma cc2_scoped2.sem)

omit [FloatOps F] [Named F] in
theorem cell_ne_1_0 (d : Dev nD) (L : grid2.Coords) : cell1 d L ≠ cell0 d L := by
  intro e; exact absurd (Prod.mk.inj e).2 (show (SemLoc.dma cc2_scratch8.sem : SemLoc sig) ≠ SemLoc.dma cc2_scratch7.sem by decide)
omit [FloatOps F] [Named F] in
theorem cell_ne_2_0 (d : Dev nD) (L : grid2.Coords) : cell2 d L ≠ cell0 d L := by
  intro e; exact absurd (Prod.mk.inj e).2 (show (SemLoc.dma cc2_scratch9.sem : SemLoc sig) ≠ SemLoc.dma cc2_scratch7.sem by decide)
omit [FloatOps F] [Named F] in
theorem cell_ne_2_1 (d : Dev nD) (L : grid2.Coords) : cell2 d L ≠ cell1 d L := by
  intro e; exact absurd (Prod.mk.inj e).2 (show (SemLoc.dma cc2_scratch9.sem : SemLoc sig) ≠ SemLoc.dma cc2_scratch8.sem by decide)
omit [FloatOps F] [Named F] in
theorem cell_ne_3_0 (d : Dev nD) (L : grid2.Coords) : cell3 d L ≠ cell0 d L := by
  intro e; exact absurd (Prod.mk.inj e).2 (show (SemLoc.dma cc2_scratch10.sem : SemLoc sig) ≠ SemLoc.dma cc2_scratch7.sem by decide)
omit [FloatOps F] [Named F] in
theorem cell_ne_3_1 (d : Dev nD) (L : grid2.Coords) : cell3 d L ≠ cell1 d L := by
  intro e; exact absurd (Prod.mk.inj e).2 (show (SemLoc.dma cc2_scratch10.sem : SemLoc sig) ≠ SemLoc.dma cc2_scratch8.sem by decide)
omit [FloatOps F] [Named F] in
theorem cell_ne_3_2 (d : Dev nD) (L : grid2.Coords) : cell3 d L ≠ cell2 d L := by
  intro e; exact absurd (Prod.mk.inj e).2 (show (SemLoc.dma cc2_scratch10.sem : SemLoc sig) ≠ SemLoc.dma cc2_scratch9.sem by decide)
omit [FloatOps F] [Named F] in
theorem cell_ne_4_0 (d : Dev nD) (L : grid2.Coords) : cell4 d L ≠ cell0 d L := by
  intro e; exact absurd (Prod.mk.inj e).2 (show (SemLoc.dma cc2_scoped0.sem : SemLoc sig) ≠ SemLoc.dma cc2_scratch7.sem by decide)
omit [FloatOps F] [Named F] in
theorem cell_ne_4_1 (d : Dev nD) (L : grid2.Coords) : cell4 d L ≠ cell1 d L := by
  intro e; exact absurd (Prod.mk.inj e).2 (show (SemLoc.dma cc2_scoped0.sem : SemLoc sig) ≠ SemLoc.dma cc2_scratch8.sem by decide)
omit [FloatOps F] [Named F] in
theorem cell_ne_4_2 (d : Dev nD) (L : grid2.Coords) : cell4 d L ≠ cell2 d L := by
  intro e; exact absurd (Prod.mk.inj e).2 (show (SemLoc.dma cc2_scoped0.sem : SemLoc sig) ≠ SemLoc.dma cc2_scratch9.sem by decide)
omit [FloatOps F] [Named F] in
theorem cell_ne_4_3 (d : Dev nD) (L : grid2.Coords) : cell4 d L ≠ cell3 d L := by
  intro e; exact absurd (Prod.mk.inj e).2 (show (SemLoc.dma cc2_scoped0.sem : SemLoc sig) ≠ SemLoc.dma cc2_scratch10.sem by decide)
omit [FloatOps F] [Named F] in
theorem cell_ne_5_0 (d : Dev nD) (L : grid2.Coords) : cell5 d L ≠ cell0 d L := by
  intro e; exact absurd (Prod.mk.inj e).2 (show (SemLoc.dma cc2_scoped1.sem : SemLoc sig) ≠ SemLoc.dma cc2_scratch7.sem by decide)
omit [FloatOps F] [Named F] in
theorem cell_ne_5_1 (d : Dev nD) (L : grid2.Coords) : cell5 d L ≠ cell1 d L := by
  intro e; exact absurd (Prod.mk.inj e).2 (show (SemLoc.dma cc2_scoped1.sem : SemLoc sig) ≠ SemLoc.dma cc2_scratch8.sem by decide)
omit [FloatOps F] [Named F] in
theorem cell_ne_5_2 (d : Dev nD) (L : grid2.Coords) : cell5 d L ≠ cell2 d L := by
  intro e; exact absurd (Prod.mk.inj e).2 (show (SemLoc.dma cc2_scoped1.sem : SemLoc sig) ≠ SemLoc.dma cc2_scratch9.sem by decide)
omit [FloatOps F] [Named F] in
theorem cell_ne_5_3 (d : Dev nD) (L : grid2.Coords) : cell5 d L ≠ cell3 d L := by
  intro e; exact absurd (Prod.mk.inj e).2 (show (SemLoc.dma cc2_scoped1.sem : SemLoc sig) ≠ SemLoc.dma cc2_scratch10.sem by decide)
omit [FloatOps F] [Named F] in
theorem cell_ne_5_4 (d : Dev nD) (L : grid2.Coords) : cell5 d L ≠ cell4 d L := by
  intro e; exact absurd (Prod.mk.inj e).2 (show (SemLoc.dma cc2_scoped1.sem : SemLoc sig) ≠ SemLoc.dma cc2_scoped0.sem by decide)
omit [FloatOps F] [Named F] in
theorem cell_ne_6_0 (d : Dev nD) (L : grid2.Coords) : cell6 d L ≠ cell0 d L := by
  intro e; exact absurd (Prod.mk.inj e).2 (show (SemLoc.dma cc2_scoped2.sem : SemLoc sig) ≠ SemLoc.dma cc2_scratch7.sem by decide)
omit [FloatOps F] [Named F] in
theorem cell_ne_6_1 (d : Dev nD) (L : grid2.Coords) : cell6 d L ≠ cell1 d L := by
  intro e; exact absurd (Prod.mk.inj e).2 (show (SemLoc.dma cc2_scoped2.sem : SemLoc sig) ≠ SemLoc.dma cc2_scratch8.sem by decide)
omit [FloatOps F] [Named F] in
theorem cell_ne_6_2 (d : Dev nD) (L : grid2.Coords) : cell6 d L ≠ cell2 d L := by
  intro e; exact absurd (Prod.mk.inj e).2 (show (SemLoc.dma cc2_scoped2.sem : SemLoc sig) ≠ SemLoc.dma cc2_scratch9.sem by decide)
omit [FloatOps F] [Named F] in
theorem cell_ne_6_3 (d : Dev nD) (L : grid2.Coords) : cell6 d L ≠ cell3 d L := by
  intro e; exact absurd (Prod.mk.inj e).2 (show (SemLoc.dma cc2_scoped2.sem : SemLoc sig) ≠ SemLoc.dma cc2_scratch10.sem by decide)
omit [FloatOps F] [Named F] in
theorem cell_ne_6_4 (d : Dev nD) (L : grid2.Coords) : cell6 d L ≠ cell4 d L := by
  intro e; exact absurd (Prod.mk.inj e).2 (show (SemLoc.dma cc2_scoped2.sem : SemLoc sig) ≠ SemLoc.dma cc2_scoped0.sem by decide)
omit [FloatOps F] [Named F] in
theorem cell_ne_6_5 (d : Dev nD) (L : grid2.Coords) : cell6 d L ≠ cell5 d L := by
  intro e; exact absurd (Prod.mk.inj e).2 (show (SemLoc.dma cc2_scoped2.sem : SemLoc sig) ≠ SemLoc.dma cc2_scoped1.sem by decide)

omit [FloatOps F] [Named F] in
theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0
          ∗ bigSep ((((((((ownCells (V d (cV L) (jV L))).erase (cell0 d L)).erase (cell1 d L)).erase (cell2 d L)).erase (cell3 d L)).erase (cell4 d L)).erase (cell5 d L)).erase (cell6 d L)) fun g => semVal g 0) := by
  unfold SparseCore.Cfg.ownSems0
  rw [SparseCore.bigSep_erase' ((mem_ownCells (g := cell0 d L)).mpr ⟨rfl, by show (SemLoc.dma cc2_scratch7.sem : SemLoc sig).isScoped .scVector = true; decide⟩),
    SparseCore.bigSep_erase' (Finset.mem_erase.mpr ⟨cell_ne_1_0 d L, (mem_ownCells (g := cell1 d L)).mpr ⟨rfl, by show (SemLoc.dma cc2_scratch8.sem : SemLoc sig).isScoped .scVector = true; decide⟩⟩),
    SparseCore.bigSep_erase' (Finset.mem_erase.mpr ⟨cell_ne_2_1 d L, Finset.mem_erase.mpr ⟨cell_ne_2_0 d L, (mem_ownCells (g := cell2 d L)).mpr ⟨rfl, by show (SemLoc.dma cc2_scratch9.sem : SemLoc sig).isScoped .scVector = true; decide⟩⟩⟩),
    SparseCore.bigSep_erase' (Finset.mem_erase.mpr ⟨cell_ne_3_2 d L, Finset.mem_erase.mpr ⟨cell_ne_3_1 d L, Finset.mem_erase.mpr ⟨cell_ne_3_0 d L, (mem_ownCells (g := cell3 d L)).mpr ⟨rfl, by show (SemLoc.dma cc2_scratch10.sem : SemLoc sig).isScoped .scVector = true; decide⟩⟩⟩⟩),
    SparseCore.bigSep_erase' (Finset.mem_erase.mpr ⟨cell_ne_4_3 d L, Finset.mem_erase.mpr ⟨cell_ne_4_2 d L, Finset.mem_erase.mpr ⟨cell_ne_4_1 d L, Finset.mem_erase.mpr ⟨cell_ne_4_0 d L, (mem_ownCells (g := cell4 d L)).mpr ⟨rfl, by show (SemLoc.dma cc2_scoped0.sem : SemLoc sig).isScoped .scVector = true; decide⟩⟩⟩⟩⟩),
    SparseCore.bigSep_erase' (Finset.mem_erase.mpr ⟨cell_ne_5_4 d L, Finset.mem_erase.mpr ⟨cell_ne_5_3 d L, Finset.mem_erase.mpr ⟨cell_ne_5_2 d L, Finset.mem_erase.mpr ⟨cell_ne_5_1 d L, Finset.mem_erase.mpr ⟨cell_ne_5_0 d L, (mem_ownCells (g := cell5 d L)).mpr ⟨rfl, by show (SemLoc.dma cc2_scoped1.sem : SemLoc sig).isScoped .scVector = true; decide⟩⟩⟩⟩⟩⟩),
    SparseCore.bigSep_erase' (Finset.mem_erase.mpr ⟨cell_ne_6_5 d L, Finset.mem_erase.mpr ⟨cell_ne_6_4 d L, Finset.mem_erase.mpr ⟨cell_ne_6_3 d L, Finset.mem_erase.mpr ⟨cell_ne_6_2 d L, Finset.mem_erase.mpr ⟨cell_ne_6_1 d L, Finset.mem_erase.mpr ⟨cell_ne_6_0 d L, (mem_ownCells (g := cell6 d L)).mpr ⟨rfl, by show (SemLoc.dma cc2_scoped2.sem : SemLoc sig).isScoped .scVector = true; decide⟩⟩⟩⟩⟩⟩⟩)]

omit [FloatOps F] [Named F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f) ∗ (∃ f, (V d (cV L) (jV L)).loc cc2_scratch5 ↦{fullShare} f) ∗ (∃ f, (V d (cV L) (jV L)).loc cc2_scratch6 ↦{fullShare} f)
          ∗ bigSep ((((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := (Proc.scVector (cV L) (jV L)).devRef cc2_scratch4) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (jV L)) (b := (Proc.scVector (cV L) (jV L)).devRef cc2_scratch5) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (jV L)) (b := (Proc.scVector (cV L) (jV L)).devRef cc2_scratch6) rfl⟩⟩⟩⟩⟩⟩)]

omit [FloatOps F] [Named F] in
theorem pts_vI (q : PosShare TreeShare) (f : Buf (Elt F) (iLoc d)) : ((vIW).view.loc (V d (cV L) (jV L)) ↦{q} f : sProp 𝕄) = iLoc d ↦{q} f := by
  simp only [Memref.view_whole, View.set_whole]
omit [FloatOps F] [Named F] in
theorem pts_vT (q : PosShare TreeShare) (f : Buf (Elt F) (tLoc d)) : ((vTW).view.loc (V d (cV L) (jV L)) ↦{q} f : sProp 𝕄) = tLoc d ↦{q} f := by
  simp only [Memref.view_whole, View.set_whole]
omit [FloatOps F] [Named F] in
theorem pts_sRawW (f : Buf (Elt F) ((V d (cV L) (jV L)).loc cc2_scratch0)) : ((sRawW).view.loc (V d (cV L) (jV L)) ↦{fullShare} f : sProp 𝕄) = (V d (cV L) (jV L)).loc cc2_scratch0 ↦{fullShare} f := rfl
omit [FloatOps F] [Named F] in
theorem pts_sPW (f : Buf (Elt F) ((V d (cV L) (jV L)).loc cc2_scratch1)) : ((sPW).view.loc (V d (cV L) (jV L)) ↦{fullShare} f : sProp 𝕄) = (V d (cV L) (jV L)).loc cc2_scratch1 ↦{fullShare} f := rfl
omit [FloatOps F] [Named F] in
theorem pts_sR0W (f : Buf (Elt F) ((V d (cV L) (jV L)).loc cc2_scratch2)) : ((sR0W).view.loc (V d (cV L) (jV L)) ↦{fullShare} f : sProp 𝕄) = (V d (cV L) (jV L)).loc cc2_scratch2 ↦{fullShare} f := rfl
omit [FloatOps F] [Named F] in
theorem pts_sR1W (f : Buf (Elt F) ((V d (cV L) (jV L)).loc cc2_scratch3)) : ((sR1W).view.loc (V d (cV L) (jV L)) ↦{fullShare} f : sProp 𝕄) = (V d (cV L) (jV L)).loc cc2_scratch3 ↦{fullShare} f := rfl
omit [FloatOps F] [Named F] in
theorem pts_sR2W (f : Buf (Elt F) ((V d (cV L) (jV L)).loc cc2_scratch4)) : ((sR2W).view.loc (V d (cV L) (jV L)) ↦{fullShare} f : sProp 𝕄) = (V d (cV L) (jV L)).loc cc2_scratch4 ↦{fullShare} f := rfl
omit [FloatOps F] [Named F] in
theorem pts_sR3W (f : Buf (Elt F) ((V d (cV L) (jV L)).loc cc2_scratch5)) : ((sR3W).view.loc (V d (cV L) (jV L)) ↦{fullShare} f : sProp 𝕄) = (V d (cV L) (jV L)).loc cc2_scratch5 ↦{fullShare} f := rfl
omit [FloatOps F] [Named F] in
theorem pts_sOutW (f : Buf (Elt F) ((V d (cV L) (jV L)).loc cc2_scratch6)) : ((sOutW).view.loc (V d (cV L) (jV L)) ↦{fullShare} f : sProp 𝕄) = (V d (cV L) (jV L)).loc cc2_scratch6 ↦{fullShare} f := rfl

/-- The subcore's 128 rows of the padded indices, as the first copy slices them. -/
abbrev idxRows (L : grid2.Coords) : Memref sig .scVector .hbm S128x224 .i32 :=
  (vIW).slice (Rect.unit (s := S4096x224) (k2_off1 L) S128x224.size (k2_off1_inb L)) (fun _ => rfl)

omit [FloatOps F] [Named F] in
theorem bigSep_fin3' (Φ : Fin 3 → sProp 𝕄) : bigSep Finset.univ Φ = iprop(Φ 0 ∗ Φ 1 ∗ Φ 2) := by
  rw [show (Finset.univ : Finset (Fin 3)) = {0, 1, 2} from by decide,
    bigSep_insert (by decide), bigSep_insert (by decide), bigSep_singleton]
  rfl

/-- Every word of the padded indices the first copy lands in scratch 0 is a word of the index array. -/
theorem idxRows_le (fI : Buf (Elt F) (iLoc d)) (hI : ∀ i, (fI i).toNat ≤ 999999) (y : S128x224.Idx) :
    ((idxRows L).view.read (Elt F) fI y).toNat ≤ 999999 := by
  rw [show (idxRows L).view.read (Elt F) fI y = fI ((idxRows L).view.emb y) from (View.read_apply _ _).trans (cast_eq _ _)]
  exact hI _

/-- One trip of the packing loop keeps "every word written so far is a row number of the packed table": the sixteen
    words the trip stores are packed row numbers, the words below them are the earlier trips'. -/
theorem packed_step (k : Fin k2_t1_loop.trips) (f : Buf (Elt F) ((sPW).view.loc (V d (cV L) (jV L))))
    (w : (Rect.unit (s := S28672) (k2_off3 k) S16.size (k2_off3_inb k)).shape.Idx → Elt F .i32)
    (hw : ∀ x, (w x).toNat < 507904)
    (hf : ∀ y : S28672.Idx, (y 0).val < 16 * k.val → ((sPW).view.read (Elt F) f y).toNat < 507904) :
    ∀ y : S28672.Idx, (y 0).val < 16 * (k.val + 1) →
      ((sPW).view.read (Elt F) ((sPW).view.writes (Elt F) f [⟨Rect.unit (s := S28672) (k2_off3 k) S16.size (k2_off3_inb k), w⟩]) y).toNat < 507904 := by
  intro y hy
  by_cases hm : y ∈ (Rect.unit (s := S28672) (k2_off3 k) S16.size (k2_off3_inb k)).set
  · rw [← Rect.map_emb_univ] at hm
    obtain ⟨x, -, rfl⟩ := Finset.mem_map.mp hm
    rw [View.read_writes_cons_emb]; exact hw x
  · rw [View.read_writes_apply_of_forall_not_mem _ _ _ _ (by intro p hp; rw [List.mem_singleton.mp hp]; exact hm)]
    apply hf
    rw [Rect.mem_set_unit] at hm
    by_contra hc
    refine hm (Fin.forall_fin_one.mpr ⟨?_, ?_⟩)
    · rw [k2_off3_eq]; show 16 * k.val ≤ (y 0).val; omega
    · rw [k2_off3_eq]; show (y 0).val < 16 * k.val + 16; omega

/-- The packing loop's invariant: the subcore's indices stay, and every packed word the trips so far wrote is a row
    number of the packed table. -/
def inv1 (R : Buf (Elt F) ((V d (cV L) (jV L)).loc cc2_scratch0)) (k : Nat) (_ : PUnit) : sProp 𝕄 :=
  iprop(((sRawW).view.loc (V d (cV L) (jV L)) ↦{fullShare} R)
    ∗ ∃ f, ((sPW).view.loc (V d (cV L) (jV L)) ↦{fullShare} f)
        ∗ ⌜∀ y : S28672.Idx, (y 0).val < 16 * k → ((sPW).view.read (Elt F) f y).toNat < 507904⌝)

/-- The packed table as every gather slices it: all of it. -/
abbrev tblM : Memref sig .scVector .hbm S507904x128 .f32 :=
  (vTW).slice (Rect.unit (s := S507904x128) ![0, 0] S507904x128.size inb_S507904x128_S507904x128_0_0) (fun _ => rfl)

/-- What one DMA semaphore cell of the four holds between two trips: its gather in flight — the row buffer, a hundred
    packed row numbers from some place `o` of scratch 1 and the table, at the cell's read shares — and what the gather
    left behind of the three. -/
def cellRes (sem : DmaSem sig) (rM : Memref sig .scVector .vmem S100x128 .f32) (qp qt : PosShare TreeShare)
    (fp : Buf (Elt F) ((sPW).view.loc (V d (cV L) (jV L)))) (fT : Buf (Elt F) (tLoc d)) : sProp 𝕄 :=
  iprop(∃ (g : Buf (Elt F) (rM.view.loc (V d (cV L) (jV L)))) (o : ℕ) (h : ∀ a, (![o] : Fin 1 → ℕ) a + S100.size a ≤ S28672.size a),
    Transfers.Flight countersEmb (V d (cV L) (jV L)) (SemLoc.dma sem) (default : HIx 1) 409600
      iprop(((rM.view.loc (V d (cV L) (jV L)) ↦[rM.view.set]{fullShare} g)
          ∗ ((sPW).view.loc (V d (cV L) (jV L)) ↦[((sPW).slice (Rect.unit (s := S28672) ![o] S100.size h) (fun _ => rfl)).view.set]{qp} fp))
        ∗ ((vTW).view.loc (V d (cV L) (jV L)) ↦[(tblM).view.set]{qt} fT))
    ∗ ((vTW).view.loc (V d (cV L) (jV L)) ↦[Finset.univ \ (tblM).view.set]{qt} fT)
    ∗ (rM.view.loc (V d (cV L) (jV L)) ↦[Finset.univ \ rM.view.set]{fullShare} g)
    ∗ ((sPW).view.loc (V d (cV L) (jV L)) ↦[Finset.univ \ ((sPW).slice (Rect.unit (s := S28672) ![o] S100.size h) (fun _ => rfl)).view.set]{qp} fp))

/-- The two outer loops' invariant: the subcore's indices, the staged means at some contents, what the thread owes,
    and the four cells each with its gather in flight. -/
def invO (q3 : PosShare TreeShare) (O : CellTallies nD τ sig (HIx 1)) (W : Waits sig (HIx 1))
    (R : Buf (Elt F) ((V d (cV L) (jV L)).loc cc2_scratch0))
    (fp : Buf (Elt F) ((sPW).view.loc (V d (cV L) (jV L)))) (fT : Buf (Elt F) (tLoc d)) (_ : Nat) (_ : PUnit) : sProp 𝕄 :=
  iprop(levAts (K (F := F)).L (K (F := F)).lev
    ∗ ((sRawW).view.loc (V d (cV L) (jV L)) ↦{fullShare} R)
    ∗ (∃ g6, (sOutW).view.loc (V d (cV L) (jV L)) ↦{fullShare} g6)
    ∗ (∃ W', ⌜∀ p ∈ W', p ∈ W ∨ p.2 = none⌝ ∗ owes (V d (cV L) (jV L)) O W')
    ∗ cellRes (F := F) d L ⟨8, by decide⟩ sR0W (Transfers.shareDrop fullShare 3) (Transfers.shareDrop q3 3) fp fT
    ∗ cellRes (F := F) d L ⟨9, by decide⟩ sR1W (Transfers.shareTok fullShare 3 0) (Transfers.shareTok q3 3 0) fp fT
    ∗ cellRes (F := F) d L ⟨10, by decide⟩ sR2W (Transfers.shareTok fullShare 3 1) (Transfers.shareTok q3 3 1) fp fT
    ∗ cellRes (F := F) d L ⟨11, by decide⟩ sR3W (Transfers.shareTok fullShare 3 2) (Transfers.shareTok q3 3 2) fp fT)

/-- An accumulation loop's invariant: the subcore's indices and the row buffer it reads stay as they are, whatever
    the four sums carried. -/
def invI {α : Type} (rM : Memref sig .scVector .vmem S100x128 .f32) (R : Buf (Elt F) ((V d (cV L) (jV L)).loc cc2_scratch0))
    (g : Buf (Elt F) (rM.view.loc (V d (cV L) (jV L)))) (_ : Nat) (_ : α) : sProp 𝕄 :=
  iprop(((sRawW).view.loc (V d (cV L) (jV L)) ↦{fullShare} R) ∗ (rM.view.loc (V d (cV L) (jV L)) ↦{fullShare} g))

/-- Discharges the side condition of a sixteen-lane load of a gathered row: the row by the trip's bound (or a literal),
    the lane offset 0 or 64 whatever the index word is. -/
macro "chk_disch" : tactic => `(tactic|
  first
  | exact chk_of _ _ rfl (fun _ => rfl) rfl rfl (row_ok _ (by assumption) _ (by decide)) (half_or _)
  | exact chk_of _ _ rfl (fun _ => rfl) rfl rfl (by decide) (half_or _))

omit [FloatOps F] [Named F] in
/-- A wait at no level keeps "every recorded wait is the launch's or at no level". -/
theorem tile_waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with e | e
  · right; rw [e]; rfl
  · exact h p e

omit [FloatOps F] [Named F] in
/-- The two halves of the subcore's output rows are apart: the second starts 64 rows after the first. -/
theorem tile_outAB_disjoint : Disjoint (outA L).view.set (outB L).view.set := by
  show Disjoint ((View.whole main_v4_scv).slice (Rect.unit (s := S4096x64) (k2_off184 L) S64x64.size (k2_off184_inb L))).set
    ((View.whole main_v4_scv).slice (Rect.unit (s := S4096x64) (k2_off365 L) S64x64.size (k2_off365_inb L))).set
  rw [View.set_slice_whole, View.set_slice_whole]
  exact Rect.unit_disjoint 0 (Or.inl (by rw [k2_off184_eq, k2_off365_eq]; exact Nat.le_refl _))

omit [FloatOps F] [Named F] in
/-- The two halves, each held at contents of its own, are both held at ONE function of the whole array: the first
    half's contents on the first half's elements, the second's elsewhere. -/
theorem tile_out_join (GA GB : Buf (Elt F) (oLoc d)) :
    iprop(((outA L).view.loc (V d (cV L) (jV L)) ↦[(outA L).view.set]{fullShare} GA)
        ∗ ((outB L).view.loc (V d (cV L) (jV L)) ↦[(outB L).view.set]{fullShare} GB))
      ⊢ (iprop(∃ G : Buf (Elt F) (oLoc d), ((outA L).view.loc (V d (cV L) (jV L)) ↦[(outA L).view.set]{fullShare} G)
        ∗ ((outB L).view.loc (V d (cV L) (jV L)) ↦[(outB L).view.set]{fullShare} G)) : sProp 𝕄) := by
  classical
  iintro ⟨HA, HB⟩
  iexists (fun i => if i ∈ (outA L).view.set then GA i else GB i)
  isplitl [HA]
  · iapply (Entails.of_eq (pointsTo_congr (fun i hi => (if_pos hi).symm)))
    iexact HA
  · iapply (Entails.of_eq (pointsTo_congr (fun i hi => (if_neg (Finset.disjoint_right.mp (tile_outAB_disjoint L) hi)).symm)))
    iexact HB

set_option maxHeartbeats 4000000 in
theorem tile_body_frame (hF : (K (F := F)).Facts) (O : CellTallies nD τ sig (HIx 1)) (W : Waits sig (HIx 1)) (hO : ∀ g, O g none = 0)
    (q1 q3 : PosShare TreeShare)
    (fI : Buf (Elt F) (iLoc d)) (fT : Buf (Elt F) (tLoc d)) (fO : Buf (Elt F) (oLoc d)) (hI : ∀ i, (fI i).toNat ≤ 999999) :
    iprop(levAts (K (F := F)).L (K (F := F)).lev
        ∗ (iLoc d ↦{q1} fI)
        ∗ (tLoc d ↦{q3} fT)
        ∗ ((outA L).view.loc (V d (cV L) (jV L)) ↦[(outA L).view.set]{fullShare} fO)
        ∗ ((outB L).view.loc (V d (cV L) (jV L)) ↦[(outB L).view.set]{fullShare} fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__embbag_mean L vIW (Memref.isWhole_whole _) vTW (Memref.isWhole_whole _) vOW (Memref.isWhole_whole _) sRawW (Memref.isWhole_whole _) sPW (Memref.isWhole_whole _) sR0W (Memref.isWhole_whole _) sR1W (Memref.isWhole_whole _) sR2W (Memref.isWhole_whole _) sR3W (Memref.isWhole_whole _) sOutW (Memref.isWhole_whole _) cc2_scratch7 cc2_scratch8 cc2_scratch9 cc2_scratch10 cc2_scoped0 cc2_scoped1 cc2_scoped2)
          fun _ => (iprop((iLoc d ↦{q1} fI) ∗ (tLoc d ↦{q3} fT)
            ∗ (∃ G, ⌜True⌝
                ∗ ((outA L).view.loc (V d (cV L) (jV L)) ↦[(outA L).view.set]{fullShare} G)
                ∗ ((outB L).view.loc (V d (cV L) (jV L)) ↦[(outB L).view.set]{fullShare} G))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc2__embbag_mean_eq_skeleton]; unfold cc2__embbag_mean_skel
  rw [(K (F := F)).scopedBufs_V hF d (cV L) (jV L), SparseCore.Cfg.scopedSems0_V (Val := Elt F) d (cV L) (jV L), ownSems0_V, ownBufs_V]
  iintro ⟨#Hlv, HvI, HvT, HoA, HoB, ⟨⟨%f0, Hb0⟩, ⟨%f1, Hb1⟩, ⟨%f2, Hb2⟩, ⟨%f3, Hb3⟩, ⟨%f4, Hb4⟩, ⟨%f5, Hb5⟩, ⟨%f6, Hb6⟩, Hbufs⟩,
    ⟨Hs0, Hs1, Hs2, Hs3, Hs4, Hs5, Hs6, Hsems⟩, HO⟩
  ihave Hmw := ((K (F := F)).mayWaits_none (thr := (V d (cV L) (jV L))) hO) $$ Hlv
  ihave HvI' := (Entails.of_eq (pts_vI (F := F) d L _ _).symm) $$ HvI
  ihave HvT' := (Entails.of_eq (pts_vT (F := F) d L _ _).symm) $$ HvT
  ihave Hb0' := (Entails.of_eq (pts_sRawW (F := F) d L _).symm) $$ Hb0
  ihave Hb1' := (Entails.of_eq (pts_sPW (F := F) d L _).symm) $$ Hb1
  ihave Hb2' := (Entails.of_eq (pts_sR0W (F := F) d L _).symm) $$ Hb2
  ihave Hb3' := (Entails.of_eq (pts_sR1W (F := F) d L _).symm) $$ Hb3
  ihave Hb4' := (Entails.of_eq (pts_sR2W (F := F) d L _).symm) $$ Hb4
  ihave Hb5' := (Entails.of_eq (pts_sR3W (F := F) d L _).symm) $$ Hb5
  ihave Hb6' := (Entails.of_eq (pts_sOutW (F := F) d L _).symm) $$ Hb6
  ihave HoA' : ((outA L).view.loc (V d (cV L) (jV L)) ↦[(outA L).view.set]{fullShare} fO) $$ [HoA]
  · iexact HoA
  ihave HoB' : ((outB L).view.loc (V d (cV L) (jV L)) ↦[(outB L).view.set]{fullShare} fO) $$ [HoB]
  · iexact HoB
  sl_exec
  have hR : View.write (Elt F) (sRawW).view f0 (tile_body_frame.sl.dma0 d L fI) Finset.univ = (idxRows L).view.read (Elt F) fI := by
    rw [View.write_whole_univ]; rfl
  rw [hR]
  sl_for (inv1 d L ((idxRows L).view.read (Elt F) fI)) $$ [Hb0' Hb1']
  case region =>
    intro k _
    unfold inv1
    iintro ⟨Hraw, %f, Hp, %hf⟩
    sl_exec
    sl_step
    isplitl [Hraw]; · iexact Hraw
    iexists _
    isplitl [Hp]; · iexact Hp
    ipureintro
    refine packed_step (F := F) d L k f _ (fun x => ?_) hf
    exact pack_lt _ (idxRows_le (F := F) d L fI hI _)
  · unfold inv1
    isplitl [Hb0']; · iexact Hb0'
    iexists _
    isplitl [Hb1']; · iexact Hb1'
    ipureintro
    intro y hy; exact absurd hy (by omega)
  iintro %_ HI
  unfold inv1
  icases HI with ⟨Hraw, %fp, Hp, %hfp⟩
  -- the packed table and the packed row numbers are read by four gathers at once: a read share per semaphore cell
  ihave HvT4 := ((Transfers.pointsTo_toks_split (Ix := HIx 1) (Name := ℕ) (U := UU) (Lvl := ℕ) q3 3).trans
    (show _ ⊢ iprop(((vTW).view.loc (V d (cV L) (jV L)) ↦{Transfers.shareDrop q3 3} fT)
        ∗ ((vTW).view.loc (V d (cV L) (jV L)) ↦{Transfers.shareTok q3 3 0} fT) ∗ ((vTW).view.loc (V d (cV L) (jV L)) ↦{Transfers.shareTok q3 3 1} fT)
        ∗ ((vTW).view.loc (V d (cV L) (jV L)) ↦{Transfers.shareTok q3 3 2} fT))
      from Entails.of_eq (by rw [bigSep_fin3']))) $$ HvT'
  icases HvT4 with ⟨HTr, HT0, HT1, HT2⟩
  ihave Hp4 := ((Transfers.pointsTo_toks_split (Ix := HIx 1) (Name := ℕ) (U := UU) (Lvl := ℕ) fullShare 3).trans
    (show _ ⊢ iprop(((sPW).view.loc (V d (cV L) (jV L)) ↦{Transfers.shareDrop fullShare 3} fp)
        ∗ ((sPW).view.loc (V d (cV L) (jV L)) ↦{Transfers.shareTok fullShare 3 0} fp) ∗ ((sPW).view.loc (V d (cV L) (jV L)) ↦{Transfers.shareTok fullShare 3 1} fp)
        ∗ ((sPW).view.loc (V d (cV L) (jV L)) ↦{Transfers.shareTok fullShare 3 2} fp))
      from Entails.of_eq (by rw [bigSep_fin3']))) $$ Hp
  icases Hp4 with ⟨HPr, HP0, HP1, HP2⟩
  sl_exec
  sl_for (invO (F := F) d L q3 O W ((idxRows L).view.read (Elt F) fI) fp fT) $$ [Hlv Hraw Hb6' HO Hs0 HTr Hb2' HPr Hs1 HT0 Hb3' HP0 Hs2 HT1 Hb4' HP1 Hs3 HT2 Hb5' HP2]
  case region =>
    intro t _
    unfold invO cellRes
    iintro ⟨#Hlv, Hraw, ⟨%g6, Hb6⟩, ⟨%W', %hW', HO⟩, ⟨%g0, %o0, %h0, Hs0, HTr, Hb2, HPr⟩, ⟨%g1, %o1, %h1, Hs1, HT0, Hb3, HP0⟩,
      ⟨%g2, %o2, %h2, Hs2, HT1, Hb4, HP1⟩, ⟨%g3, %o3, %h3, Hs3, HT2, Hb5, HP2⟩⟩
    ihave Hmw := ((K (F := F)).mayWaits_none (thr := (V d (cV L) (jV L))) hO) $$ Hlv
    sl_exec
    sl_for (invI (F := F) d L sR0W ((idxRows L).view.read (Elt F) fI) g0) $$ [Hraw Hb2]
    case region =>
      intro k acc
      have hk6 : k.val < 6 := Nat.lt_of_lt_of_le k.isLt k2_t3_abs.2.1
      unfold invI
      iintro ⟨Hraw, Hb2⟩
      sl_exec (disch := chk_disch)
      sl_step
      isplitl [Hraw]; · iexact Hraw
      iexact Hb2
    · unfold invI
      isplitl [Hraw]; · iexact Hraw
      iexact Hb2
    iintro %acc0 HI
    unfold invI
    icases HI with ⟨Hraw, Hb2⟩
    sl_exec (disch := chk_disch)
    sl_for (invI (F := F) d L sR1W ((idxRows L).view.read (Elt F) fI) g1) $$ [Hraw Hb3]
    case region =>
      intro k acc
      have hk6 : k.val < 6 := Nat.lt_of_lt_of_le k.isLt k2_t4_abs.2.1
      unfold invI
      iintro ⟨Hraw, Hb3⟩
      sl_exec (disch := chk_disch)
      sl_step
      isplitl [Hraw]; · iexact Hraw
      iexact Hb3
    · unfold invI
      isplitl [Hraw]; · iexact Hraw
      iexact Hb3
    iintro %acc1 HI
    unfold invI
    icases HI with ⟨Hraw, Hb3⟩
    sl_exec (disch := chk_disch)
    sl_for (invI (F := F) d L sR2W ((idxRows L).view.read (Elt F) fI) g2) $$ [Hraw Hb4]
    case region =>
      intro k acc
      have hk6 : k.val < 6 := Nat.lt_of_lt_of_le k.isLt k2_t5_abs.2.1
      unfold invI
      iintro ⟨Hraw, Hb4⟩
      sl_exec (disch := chk_disch)
      sl_step
      isplitl [Hraw]; · iexact Hraw
      iexact Hb4
    · unfold invI
      isplitl [Hraw]; · iexact Hraw
      iexact Hb4
    iintro %acc2 HI
    unfold invI
    icases HI with ⟨Hraw, Hb4⟩
    sl_exec (disch := chk_disch)
    sl_for (invI (F := F) d L sR3W ((idxRows L).view.read (Elt F) fI) g3) $$ [Hraw Hb5]
    case region =>
      intro k acc
      have hk6 : k.val < 6 := Nat.lt_of_lt_of_le k.isLt k2_t6_abs.2.1
      unfold invI
      iintro ⟨Hraw, Hb5⟩
      sl_exec (disch := chk_disch)
      sl_step
      isplitl [Hraw]; · iexact Hraw
      iexact Hb5
    · unfold invI
      isplitl [Hraw]; · iexact Hraw
      iexact Hb5
    iintro %acc3 HI
    unfold invI
    icases HI with ⟨Hraw, Hb5⟩
    sl_exec (disch := chk_disch)
    sl_step
    isplitr; · iexact Hlv
    isplitl [Hraw]; · iexact Hraw
    isplitl [Hb6]; · iexists _; iexact Hb6
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  · unfold invO cellRes
    isplitr; · iexact Hlv
    isplitl [Hraw]; · iexact Hraw
    isplitl [Hb6']; · iexists _; iexact Hb6'
    isplitl [HO]
    · iexists _
      isplitr [HO]
      swap
      · iexact HO
      · ipureintro; intro p hp
        rcases Finset.mem_insert.mp hp with h | h
        · right; rw [h]; rfl
        · left; exact h
    isplitl [Hs0 HTr Hb2' HPr]
    · iexists _, 0, inb_S28672_S100_0
      isplitl [Hs0]; · iexact Hs0
      isplitl [HTr]; · iexact HTr
      isplitl [Hb2']; · iexact Hb2'
      iexact HPr
    isplitl [Hs1 HT0 Hb3' HP0]
    · iexists _, 112, inb_S28672_S100_112
      isplitl [Hs1]; · iexact Hs1
      isplitl [HT0]; · iexact HT0
      isplitl [Hb3']; · iexact Hb3'
      iexact HP0
    isplitl [Hs2 HT1 Hb4' HP1]
    · iexists _, 224, inb_S28672_S100_224
      isplitl [Hs2]; · iexact Hs2
      isplitl [HT1]; · iexact HT1
      isplitl [Hb4']; · iexact Hb4'
      iexact HP1
    · iexists _, 336, inb_S28672_S100_336
      isplitl [Hs3]; · iexact Hs3
      isplitl [HT2]; · iexact HT2
      isplitl [Hb5']; · iexact Hb5'
      iexact HP2
  iintro %_ HI
  unfold invO cellRes
  icases HI with ⟨-, Hraw, ⟨%g6, Hb6⟩, ⟨%W1, %hW1, HO⟩, ⟨%g0, %o0, %h0, Hs0, HTr, Hb2, HPr⟩, ⟨%g1, %o1, %h1, Hs1, HT0, Hb3, HP0⟩,
    ⟨%g2, %o2, %h2, Hs2, HT1, Hb4, HP1⟩, ⟨%g3, %o3, %h3, Hs3, HT2, Hb5, HP2⟩⟩
  sl_exec
  sl_for (invO (F := F) d L q3 O W ((idxRows L).view.read (Elt F) fI) fp fT) $$ [Hlv Hraw Hb6 HO Hs0 HTr Hb2 HPr Hs1 HT0 Hb3 HP0 Hs2 HT1 Hb4 HP1 Hs3 HT2 Hb5 HP2]
  case region =>
    intro t _
    unfold invO cellRes
    iintro ⟨#Hlv, Hraw, ⟨%g6, Hb6⟩, ⟨%W', %hW', HO⟩, ⟨%g0, %o0, %h0, Hs0, HTr, Hb2, HPr⟩, ⟨%g1, %o1, %h1, Hs1, HT0, Hb3, HP0⟩,
      ⟨%g2, %o2, %h2, Hs2, HT1, Hb4, HP1⟩, ⟨%g3, %o3, %h3, Hs3, HT2, Hb5, HP2⟩⟩
    ihave Hmw := ((K (F := F)).mayWaits_none (thr := (V d (cV L) (jV L))) hO) $$ Hlv
    sl_exec
    sl_for (invI (F := F) d L sR0W ((idxRows L).view.read (Elt F) fI) g0) $$ [Hraw Hb2]
    case region =>
      intro k acc
      have hk6 : k.val < 6 := Nat.lt_of_lt_of_le k.isLt k2_t8_abs.2.1
      unfold invI
      iintro ⟨Hraw, Hb2⟩
      sl_exec (disch := chk_disch)
      sl_step
      isplitl [Hraw]; · iexact Hraw
      iexact Hb2
    · unfold invI
      isplitl [Hraw]; · iexact Hraw
      iexact Hb2
    iintro %acc0 HI
    unfold invI
    icases HI with ⟨Hraw, Hb2⟩
    sl_exec (disch := chk_disch)
    sl_for (invI (F := F) d L sR1W ((idxRows L).view.read (Elt F) fI) g1) $$ [Hraw Hb3]
    case region =>
      intro k acc
      have hk6 : k.val < 6 := Nat.lt_of_lt_of_le k.isLt k2_t9_abs.2.1
      unfold invI
      iintro ⟨Hraw, Hb3⟩
      sl_exec (disch := chk_disch)
      sl_step
      isplitl [Hraw]; · iexact Hraw
      iexact Hb3
    · unfold invI
      isplitl [Hraw]; · iexact Hraw
      iexact Hb3
    iintro %acc1 HI
    unfold invI
    icases HI with ⟨Hraw, Hb3⟩
    sl_exec (disch := chk_disch)
    sl_for (invI (F := F) d L sR2W ((idxRows L).view.read (Elt F) fI) g2) $$ [Hraw Hb4]
    case region =>
      intro k acc
      have hk6 : k.val < 6 := Nat.lt_of_lt_of_le k.isLt k2_t10_abs.2.1
      unfold invI
      iintro ⟨Hraw, Hb4⟩
      sl_exec (disch := chk_disch)
      sl_step
      isplitl [Hraw]; · iexact Hraw
      iexact Hb4
    · unfold invI
      isplitl [Hraw]; · iexact Hraw
      iexact Hb4
    iintro %acc2 HI
    unfold invI
    icases HI with ⟨Hraw, Hb4⟩
    sl_exec (disch := chk_disch)
    sl_for (invI (F := F) d L sR3W ((idxRows L).view.read (Elt F) fI) g3) $$ [Hraw Hb5]
    case region =>
      intro k acc
      have hk6 : k.val < 6 := Nat.lt_of_lt_of_le k.isLt k2_t11_abs.2.1
      unfold invI
      iintro ⟨Hraw, Hb5⟩
      sl_exec (disch := chk_disch)
      sl_step
      isplitl [Hraw]; · iexact Hraw
      iexact Hb5
    · unfold invI
      isplitl [Hraw]; · iexact Hraw
      iexact Hb5
    iintro %acc3 HI
    unfold invI
    icases HI with ⟨Hraw, Hb5⟩
    sl_exec (disch := chk_disch)
    sl_step
    isplitr; · iexact Hlv
    isplitl [Hraw]; · iexact Hraw
    isplitl [Hb6]; · iexists _; iexact Hb6
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  · unfold invO cellRes
    isplitr; · iexact Hlv
    isplitl [Hraw]; · iexact Hraw
    isplitl [Hb6]; · iexists _; iexact Hb6
    isplitl [HO]
    · iexists _
      isplitr [HO]
      swap
      · iexact HO
      · ipureintro
        exact tile_waits_insert _ hW1
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  iintro %_ HI
  unfold invO cellRes
  icases HI with ⟨-, Hraw, ⟨%g6', Hb6⟩, ⟨%W2, %hW2, HO⟩, ⟨%g0', %o0', %h0', Hs0, HTr, Hb2, HPr⟩, ⟨%g1', %o1', %h1', Hs1, HT0, Hb3, HP0⟩,
    ⟨%g2', %o2', %h2', Hs2, HT1, Hb4, HP1⟩, ⟨%g3', %o3', %h3', Hs3, HT2, Hb5, HP2⟩⟩
  sl_exec
  sl_step
  -- the operands back: the indices, the table (its four read shares joined), the output rows at one function
  isplitl [HvI']
  · iapply (Entails.of_eq (pts_vI (F := F) d L _ _)); iexact HvI'
  isplitl [HTr HT0 HT1 HT2]
  · iapply (Entails.of_eq (pts_vT (F := F) d L _ _))
    iapply ((show iprop(((vTW).view.loc (V d (cV L) (jV L)) ↦{Transfers.shareDrop q3 3} fT)
          ∗ ((vTW).view.loc (V d (cV L) (jV L)) ↦{Transfers.shareTok q3 3 0} fT) ∗ ((vTW).view.loc (V d (cV L) (jV L)) ↦{Transfers.shareTok q3 3 1} fT)
          ∗ ((vTW).view.loc (V d (cV L) (jV L)) ↦{Transfers.shareTok q3 3 2} fT)) ⊢ _ from Entails.of_eq (by rw [bigSep_fin3'])).trans
        (Transfers.pointsTo_toks_join (Ix := HIx 1) (Name := ℕ) (U := UU) (Lvl := ℕ) q3 3))
    isplitl [HTr]; · iexact HTr
    isplitl [HT0]; · iexact HT0
    isplitl [HT1]; · iexact HT1
    iexact HT2
  isplitl [HoA' HoB']
  · ihave HG := (tile_out_join (F := F) d L _ _) $$ [HoA' HoB']
    · isplitl [HoA']; · iexact HoA'
      iexact HoB'
    icases HG with ⟨%G, HA, HB⟩
    iexists G
    isplitr [HA HB]
    · ipureintro; trivial
    isplitl [HA]; · iexact HA
    iexact HB
  -- the scoped storage back: the seven scratch buffers at some contents, the seven cells at zero
  isplitl [Hraw HPr HP0 HP1 HP2 Hb2 Hb3 Hb4 Hb5 Hb6 Hbufs]
  · isplitl [Hraw]; · iexists _; iapply (Entails.of_eq (pts_sRawW (F := F) d L _)); iexact Hraw
    isplitl [HPr HP0 HP1 HP2]
    · iexists fp
      iapply (Entails.of_eq (pts_sPW (F := F) d L _))
      iapply ((show iprop(((sPW).view.loc (V d (cV L) (jV L)) ↦{Transfers.shareDrop fullShare 3} fp)
            ∗ ((sPW).view.loc (V d (cV L) (jV L)) ↦{Transfers.shareTok fullShare 3 0} fp) ∗ ((sPW).view.loc (V d (cV L) (jV L)) ↦{Transfers.shareTok fullShare 3 1} fp)
            ∗ ((sPW).view.loc (V d (cV L) (jV L)) ↦{Transfers.shareTok fullShare 3 2} fp)) ⊢ _ from Entails.of_eq (by rw [bigSep_fin3'])).trans
          (Transfers.pointsTo_toks_join (Ix := HIx 1) (Name := ℕ) (U := UU) (Lvl := ℕ) fullShare 3))
      isplitl [HPr]; · iexact HPr
      isplitl [HP0]; · iexact HP0
      isplitl [HP1]; · iexact HP1
      iexact HP2
    isplitl [Hb2]; · iexists _; iapply (Entails.of_eq (pts_sR0W (F := F) d L _)); iexact Hb2
    isplitl [Hb3]; · iexists _; iapply (Entails.of_eq (pts_sR1W (F := F) d L _)); iexact Hb3
    isplitl [Hb4]; · iexists _; iapply (Entails.of_eq (pts_sR2W (F := F) d L _)); iexact Hb4
    isplitl [Hb5]; · iexists _; iapply (Entails.of_eq (pts_sR3W (F := F) d L _)); iexact Hb5
    isplitl [Hb6]; · iexists _; iapply (Entails.of_eq (pts_sOutW (F := F) d L _)); iexact Hb6
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists _
  isplitr [HO]
  swap
  · iexact HO
  · ipureintro
    exact tile_waits_insert _ (tile_waits_insert _ (tile_waits_insert _ (tile_waits_insert _ (tile_waits_insert _ hW2))))

end Tile

end Cert.Proof.KI

end
-- ==== Proof.KILaunchG.lean ====
/-
  The vector-subcore kernel's obligation to the launch theorem at the frame's strength: the task of subcore `i` of
  SparseCore `c` is the body at that place of the grid, run from the read tokens and the output rows the sequencer's go
  hands it; of the rows it leaves nothing is said.
-/
import proofs.«207435_g27118423507386_cont_sun_m_668_27_alg».proof.Proof.KILaunchC
import proofs.«207435_g27118423507386_cont_sun_m_668_27_alg».proof.Proof.KITile

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ)
variable (I1v : (d : Dev nD) → Buf (Elt F) (iLoc d))
  (TabOK : (d : Dev nD) → Buf (Elt F) (tLoc d) → Prop)

theorem defs₀_vector' (c : Fin τ.nSC) (s : Fin τ.nSub) :
    defs₀ (F := F) (.scVector c s) 2 ()
      = SparseCore.onTile hcore2 hsub2 (fun c s => cc2__embbag_mean (coordsV c s) (Memref.whole main_v1_scv : Memref sig .scVector .hbm S4096x224 .i32) (Memref.isWhole_whole _) (Memref.whole main_v3_scv : Memref sig .scVector .hbm S507904x128 .f32) (Memref.isWhole_whole _) (Memref.whole main_v4_scv : Memref sig .scVector .hbm S4096x64 .f32) (Memref.isWhole_whole _) (Memref.whole cc2_scratch0 : Memref sig .scVector .vmem S128x224 .i32) (Memref.isWhole_whole _) (Memref.whole cc2_scratch1 : Memref sig .scVector .vmem S28672 .i32) (Memref.isWhole_whole _) (Memref.whole cc2_scratch2 : Memref sig .scVector .vmem S100x128 .f32) (Memref.isWhole_whole _) (Memref.whole cc2_scratch3 : Memref sig .scVector .vmem S100x128 .f32) (Memref.isWhole_whole _) (Memref.whole cc2_scratch4 : Memref sig .scVector .vmem S100x128 .f32) (Memref.isWhole_whole _) (Memref.whole cc2_scratch5 : Memref sig .scVector .vmem S100x128 .f32) (Memref.isWhole_whole _) (Memref.whole cc2_scratch6 : Memref sig .scVector .vmem S64x64 .f32) (Memref.isWhole_whole _) cc2_scratch7 cc2_scratch8 cc2_scratch9 cc2_scratch10 cc2_scoped0 cc2_scoped1 cc2_scoped2) ⟨⟩ c s := rfl

theorem tileObl_frame (hF : (K (F := F)).Facts) (hI : ∀ d i, (I1v d i).toNat ≤ 999999) :
    (K (F := F)).TileObl (D (F := F)) 𝒱 (PP m I1v TabOK (fun _ _ _ => True)) v₀ 0 := by
  intro d c i O W hO _ _
  simp only [show (PP m I1v TabOK (fun _ _ _ => True)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector']; simp only [SparseCore.onTile, hc, and_self, ↓reduceDIte]
  show iprop(_ ∗ _ ∗ goP I1v (fun d => mT m d main_v4) TabOK d (Fin.cast nCore_zero c) (Fin.cast nSub_zero i) ∗ _) ⊢
    wp _ _ _ _ (fun _ => iprop(tdP I1v TabOK (fun _ _ _ => True) d (Fin.cast nCore_zero c) (Fin.cast nSub_zero i) ∗ _))
  unfold goP tdP tabPts outPts
  iintro ⟨#Hlv, -, ⟨Hi, ⟨%Tb, %hTb, Ht⟩, HoA, HoB⟩, Hsb, Hss, HO⟩
  iapply (wp_wand_r frame _ Set.univ)
  isplitl [Hi Ht HoA HoB Hsb Hss HO]
  · iapply (tile_body_frame (F := F) d (LL (Fin.cast nCore_zero c) (Fin.cast nSub_zero i)) hF O W hO _ _ (I1v d) Tb (mT m d main_v4) (hI d))
    isplitr; · iexact Hlv
    isplitl [Hi]; · iexact Hi
    isplitl [Ht]; · iexact Ht
    isplitl [HoA]; · iexact HoA
    isplitl [HoB]; · iexact HoB
    isplitl [Hsb]; · iexact Hsb
    isplitl [Hss]; · iexact Hss
    iexact HO
  · iintro %_ Hpost
    icases Hpost with ⟨Hi, Ht, ⟨%G, %hG, HoA, HoB⟩, Hsb, Hss, %W', %hW', HO⟩
    isplitl [Hi Ht HoA HoB]
    · isplitl [Hi]; · iexact Hi
      isplitl [Ht]
      · iexists Tb; isplitr; · ipureintro; exact hTb
        iexact Ht
      iexists G; isplitr; · ipureintro; trivial
      isplitl [HoA]; · iexact HoA
      iexact HoB
    isplitl [Hsb]; · iexact Hsb
    isplitl [Hss]; · iexact Hss
    iexists W'; isplitr
    · ipureintro; exact fun p hp => (hW' p hp).imp_right Or.inl
    · iexact HO

end Cert.Proof.KI

end
-- ==== Proof.KIRegion0.lean ====
/-
  Pipeline 0 of the idealized kernel (the index-layout region): each 200x1024 block of the transposed index array is
  transposed and its two halves of 100 columns are padded with zeros to 112 columns each, giving a 1024x224 block of
  the padded index array. The proof data of the region, the body obligation at a symbolic grid point, and what the two
  arrays hold after the region, element by element.
-/
import proofs.«207435_g27118423507386_cont_sun_m_668_27_alg».proof.Proof.KISetup
import proofs.«207435_g27118423507386_cont_sun_m_668_27_alg».proof.Proof.Gen.KernelIdeal.Skeleton
import proofs.«207435_g27118423507386_cont_sun_m_668_27_alg».proof.Proof.Gen.KernelIdeal.Launch
import proofs.«207435_g27118423507386_cont_sun_m_668_27_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

/-! ## The body's accesses and what it leaves in the output block -/

/-- The whole input block, as the rectangle the body loads. -/
abbrev rIn0 : Rect S200x1024 := Rect.unit (s := S200x1024) ![0, 0] S200x1024.size inb_S200x1024_S200x1024_0_0
/-- The whole output block, as the rectangle the body stores. -/
abbrev rOut0 : Rect S1024x224 := Rect.unit (s := S1024x224) ![0, 0] S1024x224.size inb_S1024x224_S1024x224_0_0

/-- The output block after the body, from the input block: its one store, of the payload of the loaded input block. -/
def out0_1 (x0 : Vec F S200x1024 .i32) : Vec F S1024x224 .i32 :=
  View.canon [⟨rOut0, k0_pay1 (View.ld x0 rIn0)⟩]

/-- The one store covers the output block. -/
theorem cover0_1 (p0 : Vec F S1024x224 .i32) (y : S1024x224.Idx) :
    ∃ pc ∈ ([⟨rOut0, p0⟩] : List (View.Piece (Elt F) S1024x224 .i32)), y ∈ pc.1.set :=
  View.cover_of_tiled [⟨rOut0, p0⟩] S1024x224.size (by rfl) y

/-! ## The body's triple -/

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S200x1024 .i32) (harg1 : arg1.IsWhole)
    (arg2 : Memref sig .tc .vmem S1024x224 .i32) (harg2 : arg2.IsWhole) (x0 : Vec F S200x1024 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__idx_body i arg1 harg1 arg2 harg2) K := by
  simp only [cc0__idx_body_eq_skeleton]; unfold cc0__idx_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- Window `w`'s block at point `t`, read off the arrays' contents `A` at the region's entry: what the fetch stages. -/
def blk0 {c : Dev nD} (A : (w : Fin cfg0.W) → Buf (Elt F) ((cfg0.win w).arr.view.loc ((c : Dev nD) : Thread nD τ))) (w : Fin cfg0.W) (t : Fin cfg0.N) :
    ((cfg0.win w).xblock (cfg0.grid.coords t)).Idx → Elt F (cfg0.win w).elt :=
  ((cfg0.win w).blk t).view.read (Elt F) (A w)

/-- The region's proof data on core `c`: the arrays at their entry contents `A`; after the body at point `t` the input's
    buffer at its block and the output's at `out0_1` of the input block; as its invariant the scoped buffers that are not this region's, untouched; full shares; owing
    the tallies `O` throughout (the body pays nothing), its recorded pairs within `Rc` throughout (the body waits on
    nothing). -/
def dat0 (c : Dev nD) (A : (w : Fin cfg0.W) → Buf (Elt F) ((cfg0.win w).arr.view.loc ((c : Dev nD) : Thread nD τ)))
    (O : CellTallies nD τ sig (HIx 1)) (Rc : Set (SemLoc sig × HIx 1)) : Pipeline.Dat τ (Elt F) (HIx 1) ℕ UU ℕ cfg0 c where
  A := A
  after w t := match w with
    | ⟨0, _⟩ => blk0 A 0 t
    | ⟨1, _⟩ => out0_1 (blk0 A 0 t)
  Φ _ := Pipeline.scopedRest (Ix := HIx 1) (Name := ℕ) (U := UU) (Lvl := ℕ) (Val := Elt F) spec0 c
  q _ := fullShare
  owed _ := O
  recorded _ := Rc

variable (c : Dev nD) (A : (w : Fin cfg0.W) → Buf (Elt F) ((cfg0.win w).arr.view.loc ((c : Dev nD) : Thread nD τ))) (O : CellTallies nD τ sig (HIx 1))
  (Rc : Set (SemLoc sig × HIx 1))

theorem A0_eq (w : Fin cfg0.W) : (dat0 c A O Rc).A w = A w := by dsimp only [dat0]
theorem after0_0 (t : Fin cfg0.N) : (dat0 c A O Rc).after 0 t = blk0 A 0 t := by dsimp only [dat0]
theorem after0_1 (t : Fin cfg0.N) : (dat0 c A O Rc).after 1 t = out0_1 (blk0 A 0 t) := by dsimp only [dat0]

/-- The input's current staging buffer holds its block at every point: it is fetched at every point. -/
theorem before0_0 (t : Fin cfg0.N) (d) : (dat0 c A O Rc).before 0 t d = blk0 A 0 t :=
  ((dat0 c A O Rc).before_fetched 0 t (fetch0_0 t) d).trans (by unfold Dat.fetched Dat.blockOf blk0; rw [A0_eq]; try rfl)

/-! ## The body obligation, at a generic point -/

/-- The body at any point: the input's memref holds its block, so `sound_kernel0` applies; the invariant and the core's dues pass
    through unread. -/
theorem body_obligation0 : BodyObligation (dat0 (F := F) c A O Rc) (defs₀ (F := F)) 𝒱₀ (none : HIx 1) Set.univ := fun t => by
  rw [bigSep_W0, bigSep_W0]
  simp only [before0_0]
  rw [show (dat0 c A O Rc).Φ t.succ = (dat0 c A O Rc).Φ t.castSucc from rfl,
    show (dat0 c A O Rc).owesAt none t.succ = (dat0 c A O Rc).owesAt none t.castSucc from rfl,
    after0_0, after0_1]
  show _ ⊢ wp frame (wpE (defs₀ (F := F)) Variants.none c none) Set.univ (bodyAt0 t) _
  unfold bodyAt0
  iintro ⟨HΦ, Ho, ⟨%d0, H0⟩, ⟨%d1, H1⟩⟩
  iapply (sound_kernel0 c Set.univ (grid0.coords t) _ _ _ _ (blk0 A 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## The payload, element by element -/

open Idealize.ShloMosaic.ValueIdx

/-- The body's payload at row `r`, column `col` of the output block: the input block transposed on the first hundred
    columns of each half, zero on the twelve padding columns after each. -/
theorem k0_pay1_apply (X : Vec F S200x1024 .i32) (r : Fin 1024) (col : Fin 224) :
    k0_pay1 X (ix2 r col) =
      if h : col.val < 100 then X (ix2 ⟨col.val, by omega⟩ r)
      else if col.val < 112 then (0#32 : BitVec 32)
      else if h2 : col.val < 212 then X (ix2 ⟨col.val - 12, by omega⟩ r)
      else (0#32 : BitVec 32) := by
  have hcol : col.val < 224 := col.isLt
  unfold k0_pay1
  dsimp only
  rw [shapeCast_self]
  by_cases h : col.val < 100
  · -- the first half's hundred columns: piece 0, the transposed block's columns 0 to 99
    rw [dif_pos h]
    refine Eq.trans (concatenate_apply_piece (1 : Fin 2) _ _ (ix2 r col) 0 ?hk1 S1024x100
      (extractStridedSlice S1024x100 ![0, 0] (transpose S1024x200 [1, 0] X transposes_S200x1024_p1_0_S1024x200) slices_S1024x200_o0_0_S1024x100)
      ?hxk1 rfl 0 ?hpre1 (ix2 r ⟨col.val, h⟩) ?hi1 ?ha1) ?rest1
    case hk1 => show (0 : ℕ) < 4; omega
    case hxk1 => rfl
    case hpre1 => rfl
    case hi1 =>
      intro b hb
      match b with
      | ⟨0, _⟩ => rfl
      | ⟨1, _⟩ => exact absurd rfl hb
    case ha1 => show 0 + col.val = col.val; omega
    refine (extractStridedSlice_apply _ _ _ (ix2 r ⟨col.val, h⟩) (ix2 r ⟨col.val, by omega⟩) (fun a => ?_)).trans ?_
    · match a with
      | ⟨0, _⟩ => show r.val = 0 + r.val; omega
      | ⟨1, _⟩ => show col.val = 0 + col.val; omega
    exact transpose_ix2_apply X _ r ⟨col.val, by omega⟩
  rw [dif_neg h]
  by_cases h1 : col.val < 112
  · -- the first padding: piece 1, zeros
    rw [if_pos h1]
    refine Eq.trans (concatenate_apply_piece (1 : Fin 2) _ _ (ix2 r col) 1 ?hk2 S1024x12 (broadcast S1024x12 0#32)
      ?hxk2 rfl 100 ?hpre2 (ix2 r ⟨col.val - 100, by omega⟩) ?hi2 ?ha2) ?rest2
    case hk2 => show (1 : ℕ) < 4; omega
    case hxk2 => rfl
    case hpre2 => rfl
    case hi2 =>
      intro b hb
      match b with
      | ⟨0, _⟩ => rfl
      | ⟨1, _⟩ => exact absurd rfl hb
    case ha2 => show 100 + (col.val - 100) = col.val; omega
    rfl
  rw [if_neg h1]
  by_cases h2 : col.val < 212
  · -- the second half's hundred columns: piece 2, the transposed block's columns 100 to 199
    rw [dif_pos h2]
    refine Eq.trans (concatenate_apply_piece (1 : Fin 2) _ _ (ix2 r col) 2 ?hk3 S1024x100
      (extractStridedSlice S1024x100 ![0, 100] (transpose S1024x200 [1, 0] X transposes_S200x1024_p1_0_S1024x200) slices_S1024x200_o0_100_S1024x100)
      ?hxk3 rfl 112 ?hpre3 (ix2 r ⟨col.val - 112, by omega⟩) ?hi3 ?ha3) ?rest3
    case hk3 => show (2 : ℕ) < 4; omega
    case hxk3 => rfl
    case hpre3 => rfl
    case hi3 =>
      intro b hb
      match b with
      | ⟨0, _⟩ => rfl
      | ⟨1, _⟩ => exact absurd rfl hb
    case ha3 => show 112 + (col.val - 112) = col.val; omega
    refine (extractStridedSlice_apply _ _ _ (ix2 r ⟨col.val - 112, by omega⟩) (ix2 r ⟨col.val - 12, by omega⟩) (fun a => ?_)).trans ?_
    · match a with
      | ⟨0, _⟩ => show r.val = 0 + r.val; omega
      | ⟨1, _⟩ => show col.val - 12 = 100 + (col.val - 112); omega
    exact transpose_ix2_apply X _ r ⟨col.val - 12, by omega⟩
  · -- the second padding: piece 3, zeros
    rw [dif_neg h2]
    refine Eq.trans (concatenate_apply_piece (1 : Fin 2) _ _ (ix2 r col) 3 ?hk4 S1024x12 (broadcast S1024x12 0#32)
      ?hxk4 rfl 212 ?hpre4 (ix2 r ⟨col.val - 212, by omega⟩) ?hi4 ?ha4) ?rest4
    case hk4 => show (3 : ℕ) < 4; omega
    case hxk4 => rfl
    case hpre4 => rfl
    case hi4 =>
      intro b hb
      match b with
      | ⟨0, _⟩ => rfl
      | ⟨1, _⟩ => exact absurd rfl hb
    case ha4 => show 212 + (col.val - 212) = col.val; omega
    rfl

/-! ## The arrays after the region -/

/-- The input array is never written. -/
theorem arr0_in : (dat0 (F := F) c A O Rc).arrAt 0 cfg0.N = A 0 :=
  ((dat0 c A O Rc).arrAt_in 0 rfl _).trans (A0_eq c A O Rc 0)

theorem hz0 : (![0, 0] : Fin 2 → Nat) = fun _ => 0 := funext fun a => by fin_cases a <;> rfl

/-- The padded index array's entry at row `b`, column `col`, from the transposed index array `a0`: its entry at
    (`col`, `b`) on the first hundred columns, zero on the next twelve, its entry at (`col - 12`, `b`) on the next
    hundred, zero on the last twelve. -/
def G0 (a0 : S200x4096.Idx → BitVec 32) (b : Fin 4096) (col : Fin 224) : BitVec 32 :=
  if h : col.val < 100 then a0 (ix2 ⟨col.val, by omega⟩ b)
  else if col.val < 112 then (0#32 : BitVec 32)
  else if h2 : col.val < 212 then a0 (ix2 ⟨col.val - 12, by omega⟩ b)
  else (0#32 : BitVec 32)

/-- The same as one function of the array index. -/
def G0' (a0 : S200x4096.Idx → BitVec 32) : S4096x224.Idx → BitVec 32 := fun i => G0 a0 (i 0) (i 1)

/-- The printed index maps, decided over the grid: the input's block moves along its columns as the output's moves
    along its rows, and neither moves on its other axis. -/
theorem idx_facts0 : ∀ t : Fin cfg0.N, win0_0.index t (0 : Fin 2) = 0
    ∧ win0_0.index t (1 : Fin 2) = win0_1.index t (0 : Fin 2)
    ∧ win0_1.index t (1 : Fin 2) = 0
    ∧ win0_1.index t (0 : Fin 2) ≤ 3 :=
  (by decide +kernel : ∀ t : Fin grid0.N, _)

/-- Every block of rows is some point's. -/
theorem idx_onto0 : ∀ q : Fin 4, ∃ t : Fin cfg0.N, win0_1.index t = ![q.val, 0] :=
  (by decide +kernel : ∀ q : Fin 4, ∃ t : Fin grid0.N, win0_1.index t = ![q.val, 0])

/-- What point `t` writes back is block `t` of `G0'` of the input array. -/
theorem flushed0_1_eq (t : Fin cfg0.N) :
    (dat0 c A O Rc).flushed 1 t = ((cfg0.win 1).blk t).view.read (Elt F) (G0' (A 0)) := by
  show (cfg0.win 1).cut (grid0.coords t) ((dat0 c A O Rc).after 1 t) = _
  rw [after0_1]
  unfold out0_1
  rw [View.canon_unit_zero hz0]
  simp only [View.ld_unit_zero (S := S200x1024) hz0]
  obtain ⟨e0, e1, e2, e3⟩ := idx_facts0 t
  funext j
  obtain ⟨r, col, rfl⟩ : ∃ (r : Fin 1024) (col : Fin 224), j = ix2 r col := ⟨j 0, j 1, eq_ix2 j⟩
  have hr : r.val < 1024 := r.isLt
  have hcol : col.val < 224 := col.isLt
  show k0_pay1 (blk0 A 0 t) (ix2 r col) = G0 (A 0) (((cfg0.win 1).blk t).view.emb (ix2 r col) 0) (((cfg0.win 1).blk t).view.emb (ix2 r col) 1)
  have hb : ((cfg0.win 1).blk t).view.emb (ix2 r col) 0 = (⟨win0_1.index t (0 : Fin 2) * 1024 + r.val, by omega⟩ : Fin 4096) := by
    apply Fin.ext
    show win0_1.index t (0 : Fin 2) * 1024 + 1 * r.val = win0_1.index t (0 : Fin 2) * 1024 + r.val; omega
  have hc : ((cfg0.win 1).blk t).view.emb (ix2 r col) 1 = col := by
    apply Fin.ext
    show win0_1.index t (1 : Fin 2) * 224 + 1 * col.val = col.val; omega
  rw [hb, hc, k0_pay1_apply]
  unfold G0
  have hX : ∀ (k : Fin 200), blk0 A 0 t (ix2 k r) = A 0 (ix2 k ⟨win0_1.index t (0 : Fin 2) * 1024 + r.val, by omega⟩) := by
    intro k
    show A 0 (((cfg0.win 0).blk t).view.emb (ix2 k r)) = _
    congr 1
    funext a; apply Fin.ext
    match a with
    | ⟨0, _⟩ => show win0_0.index t (0 : Fin 2) * 200 + 1 * k.val = k.val; omega
    | ⟨1, _⟩ => show win0_0.index t (1 : Fin 2) * 1024 + 1 * r.val = win0_1.index t (0 : Fin 2) * 1024 + r.val; omega
  simp only [hX]

/-- An index of the output array is in point `t`'s block iff each coordinate is in the block's range on its axis. -/
theorem mem_blk0_1 (t : Fin cfg0.N) (i : S4096x224.Idx) :
    i ∈ ((cfg0.win 1).blk t).view.set ↔ ∀ a : Fin 2, win0_1.index t a * S1024x224.size a ≤ (i a).val ∧ (i a).val < win0_1.index t a * S1024x224.size a + S1024x224.size a := by
  show i ∈ ((View.whole main_v1).slice (win0_1.rect t)).set ↔ _
  rw [View.set_slice_whole, Rect.mem_set_unit]
  exact Iff.rfl

/-- The four blocks of rows cover the output array. -/
theorem cover0_arr (i : S4096x224.Idx) : ∃ t : Fin cfg0.N, (cfg0.win 1).flush t = true ∧ i ∈ ((cfg0.win 1).blk t).view.set := by
  have hi0 : (i 0).val < 4096 := (i 0).isLt
  have hi1 : (i 1).val < 224 := (i 1).isLt
  obtain ⟨t, ht⟩ := idx_onto0 ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 224 ≤ (i 1).val ∧ (i 1).val < win0_1.index t (1 : Fin 2) * 224 + 224; omega

/-- The output array after the region is `G0'` of the input array. -/
theorem arr0_out : (dat0 (F := F) c A O Rc).arrAt 1 cfg0.N = G0' (A 0) :=
  (dat0 c A O Rc).arrAt_eq_of_cover 1 (G0' (A 0)) (fun t _ => flushed0_1_eq c A O Rc t) cover0_arr

/-- The output array after the region, entry by entry. -/
theorem arr0_out_apply (b : Fin 4096) (col : Fin 224) :
    (dat0 (F := F) c A O Rc).arrAt 1 cfg0.N (ix2 b col) =
      if h : col.val < 100 then A 0 (ix2 ⟨col.val, by omega⟩ b)
      else if col.val < 112 then (0#32 : BitVec 32)
      else if h2 : col.val < 212 then A 0 (ix2 ⟨col.val - 12, by omega⟩ b)
      else (0#32 : BitVec 32) := by
  rw [arr0_out]; rfl

theorem arr0_out_lo (b : Fin 4096) (col : Fin 224) (h : col.val < 100) :
    (dat0 (F := F) c A O Rc).arrAt 1 cfg0.N (ix2 b col) = A 0 (ix2 ⟨col.val, by omega⟩ b) := by
  rw [arr0_out_apply, dif_pos h]
theorem arr0_out_pad1 (b : Fin 4096) (col : Fin 224) (h : 100 ≤ col.val) (h' : col.val < 112) :
    (dat0 (F := F) c A O Rc).arrAt 1 cfg0.N (ix2 b col) = (0#32 : BitVec 32) := by
  rw [arr0_out_apply, dif_neg (by omega), if_pos h']
theorem arr0_out_hi (b : Fin 4096) (col : Fin 224) (h : 112 ≤ col.val) (h' : col.val < 212) :
    (dat0 (F := F) c A O Rc).arrAt 1 cfg0.N (ix2 b col) = A 0 (ix2 ⟨col.val - 12, by omega⟩ b) := by
  rw [arr0_out_apply, dif_neg (by omega), if_neg (by omega), dif_pos h']
theorem arr0_out_pad2 (b : Fin 4096) (col : Fin 224) (h : 212 ≤ col.val) :
    (dat0 (F := F) c A O Rc).arrAt 1 cfg0.N (ix2 b col) = (0#32 : BitVec 32) := by
  rw [arr0_out_apply, dif_neg (by omega), if_neg (by omega), dif_neg (by omega)]

end Cert.Proof.KI

end
-- ==== Proof.KIRegion1.lean ====
/-
  Pipeline 1 of the idealized kernel (the table-packing region): each 64x32768 block of the transposed table is
  transposed to 32768x64 and its two halves of 16384 rows are laid side by side, giving a 16384x128 block of the packed
  table: entry (r, 64 h + e) of packed block j is entry (e, 32768 j + 16384 h + r) of the transposed table. The last of
  the 31 input blocks overhangs the table (1000000 columns): its fetch fills only the 16960 columns inside the table,
  and what the staging buffer holds beyond them is whatever the machine left there. The body copies that into the
  uncut output block, so the packed table after the region is NOT a function of the arrays at entry: it is determined
  exactly on the entries whose source column lies inside the table, and nothing is said of the others. The proof data
  is therefore relational: the input's buffer is left as found, the output's buffer agrees with the packing of the
  table's block wherever the source column is inside the table.
-/
import proofs.«207435_g27118423507386_cont_sun_m_668_27_alg».proof.Proof.KISetup
import proofs.«207435_g27118423507386_cont_sun_m_668_27_alg».proof.Proof.Gen.KernelIdeal.Skeleton
import proofs.«207435_g27118423507386_cont_sun_m_668_27_alg».proof.Proof.Gen.KernelIdeal.Launch
import proofs.«207435_g27118423507386_cont_sun_m_668_27_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat Cfg Window)

variable {F : FTy → Type} [FloatOps F] [Named F]

local notation "𝕄" => MT nD τ sig (HIx 1) (Elt F) ℕ UU ℕ

/-! ## The body's accesses and what it leaves in the output block -/

/-- The whole input block, as the rectangle the body loads. -/
abbrev rIn1 : Rect S64x32768 := Rect.unit (s := S64x32768) ![0, 0] S64x32768.size inb_S64x32768_S64x32768_0_0
/-- The whole output block, as the rectangle the body stores. -/
abbrev rOut1 : Rect S16384x128 := Rect.unit (s := S16384x128) ![0, 0] S16384x128.size inb_S16384x128_S16384x128_0_0

/-- The output block after the body, from the input block: its one store, of the payload of the loaded input block. -/
def out1_1 (x0 : Vec F S64x32768 .f32) : Vec F S16384x128 .f32 :=
  View.canon [⟨rOut1, k1_pay1 (View.ld x0 rIn1)⟩]

/-- The one store covers the output block. -/
theorem cover1_1 (p0 : Vec F S16384x128 .f32) (y : S16384x128.Idx) :
    ∃ pc ∈ ([⟨rOut1, p0⟩] : List (View.Piece (Elt F) S16384x128 .f32)), y ∈ pc.1.set :=
  View.cover_of_tiled [⟨rOut1, p0⟩] S16384x128.size (by rfl) y

/-! ## The body's triple -/

set_option maxHeartbeats 1000000 in
/-- The body on whole staging memrefs, the input's at read contents `x0` and the output's at anything, runs to the
    continuation holding the input's as it was and the output's at `out1_1 x0`. -/
theorem sound_kernel1 (c : Dev nD) (E : Set ℕ) (i : grid1.Coords) (arg1 : Memref sig .tc .vmem S64x32768 .f32) (harg1 : arg1.IsWhole)
    (arg2 : Memref sig .tc .vmem S16384x128 .f32) (harg2 : arg2.IsWhole) (x0 : Vec F S64x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pack_body i arg1 harg1 arg2 harg2) K := by
  simp only [cc1__pack_body_eq_skeleton]; unfold cc1__pack_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The payload, entry by entry -/

theorem offsets_zero1 : (![0, 0] : Fin 2 → Nat) = fun _ => 0 := funext fun a => by fin_cases a <;> rfl

/-- The output block is the payload of the input block: the body loads and stores its whole buffers. -/
theorem out1_1_eq (x0 : Vec F S64x32768 .f32) : out1_1 x0 = k1_pay1 x0 := by
  unfold out1_1
  rw [View.canon_unit_zero (Val := Elt F) offsets_zero1 inb_S16384x128_S16384x128_0_0,
    View.ld_unit_zero (Val := Elt F) offsets_zero1 inb_S64x32768_S64x32768_0_0 x0]

/-- The payload at row `r`, column `64 h + e`: the input block's row `e`, column `16384 h + r`. -/
theorem k1_pay1_apply (x0 : Vec F S64x32768 .f32) (r : Fin 16384) (h : Fin 2) (e : Fin 64) :
    k1_pay1 x0 (ix2 r (⟨64 * h.val + e.val, by omega⟩ : Fin 128)) = x0 (ix2 e (⟨16384 * h.val + r.val, by omega⟩ : Fin 32768)) := by
  unfold k1_pay1
  dsimp only
  rw [shapeCast_self]
  match h with
  | ⟨0, _⟩ =>
    rw [concatenate_pair_apply_left (t := S16384x128) (s₁ := S16384x64) (s₂ := S16384x64) 1 _ _ _ _ rfl (ix2 r e)
      (fun b => by match b with | ⟨0, _⟩ => rfl | ⟨1, _⟩ => show e.val = 64 * 0 + e.val; omega)]
    rw [extractStridedSlice_apply (s := S32768x64) (t := S16384x64) ![0, 0] _ _ (ix2 r e) (ix2 (⟨r.val, by omega⟩ : Fin 32768) e)
      (fun a => by match a with | ⟨0, _⟩ => show r.val = 0 + r.val; omega | ⟨1, _⟩ => show e.val = 0 + e.val; omega)]
    rw [transpose_apply (s := S64x32768) (t := S32768x64) [1, 0] _ _ (ix2 (⟨r.val, by omega⟩ : Fin 32768) e) (ix2 e (⟨r.val, by omega⟩ : Fin 32768))
      (fun b => by match b with | ⟨0, _⟩ => rfl | ⟨1, _⟩ => rfl)]
    exact congrArg x0 (congrArg (ix2 e) (Fin.ext (by show r.val = 16384 * 0 + r.val; omega)))
  | ⟨1, _⟩ =>
    rw [concatenate_pair_apply_right (t := S16384x128) (s₁ := S16384x64) (s₂ := S16384x64) 1 _ _ _ _ rfl rfl (ix2 r e)
      (fun b hb => by match b with | ⟨0, _⟩ => rfl | ⟨1, _⟩ => exact absurd rfl hb)
      (by show e.val + 64 = 64 * 1 + e.val; omega)]
    rw [extractStridedSlice_apply (s := S32768x64) (t := S16384x64) ![16384, 0] _ _ (ix2 r e) (ix2 (⟨16384 + r.val, by omega⟩ : Fin 32768) e)
      (fun a => by match a with | ⟨0, _⟩ => rfl | ⟨1, _⟩ => show e.val = 0 + e.val; omega)]
    rw [transpose_apply (s := S64x32768) (t := S32768x64) [1, 0] _ _ (ix2 (⟨16384 + r.val, by omega⟩ : Fin 32768) e) (ix2 e (⟨16384 + r.val, by omega⟩ : Fin 32768))
      (fun b => by match b with | ⟨0, _⟩ => rfl | ⟨1, _⟩ => rfl)]
    exact congrArg x0 (congrArg (ix2 e) (Fin.ext (by show 16384 + r.val = 16384 * 1 + r.val; omega)))

/-! ## The proof data -/

/-- The table's array and the packed table's array at the region's entry, as the region's windows name them. -/
abbrev Arr1 (c : Dev nD) : Type := (w : Fin cfg1.W) → Buf (Elt F) ((cfg1.win w).arr.view.loc ((c : Dev nD) : Thread nD τ))

/-- What the body's output block must hold at point `t`, given the arrays `A` at entry: entry `(r, 64 h + e)` is the
    table's entry `(e, 32768 t + 16384 h + r)` wherever that column is inside the table. -/
def Packed1 {c : Dev nD} (A : Arr1 (F := F) c) (t : Fin cfg1.N) (X : (cfg1.win 1).block.Idx → Elt F (cfg1.win 1).elt) : Prop :=
  ∀ (r : Fin 16384) (h : Fin 2) (e : Fin 64) (hv : 32768 * t.val + 16384 * h.val + r.val < 1000000),
    X (ix2 r ⟨64 * h.val + e.val, by omega⟩) = A 0 (ix2 e ⟨32768 * t.val + 16384 * h.val + r.val, hv⟩)

/-- The region's proof data on core `c`, relational: the arrays at their entry contents `A`; the body leaves the
    input's buffer as it found it, and the output's buffer packed from the table's block wherever the source column is
    inside the table; its invariant the core's scoped buffers that are no staging buffer of this region (the other
    regions' staging buffers, which the call hands in and takes back, untouched by the body); full shares; owing the
    tallies `O` throughout (the body pays nothing),
    the pairs its waits recorded within `Rc` throughout (the body waits for nothing). -/
def rdat1 (c : Dev nD) (A : Arr1 (F := F) c) (O : CellTallies nD τ sig (HIx 1)) (Rc : Set (SemLoc sig × HIx 1)) :
    Pipeline.RDat τ (Elt F) (HIx 1) ℕ UU ℕ cfg1 c where
  A := A
  after w t := match w with
    | ⟨0, _⟩ => fun Y X => X = Y
    | ⟨1, _⟩ => fun _ X => Packed1 A t X
  Φ _ := Pipeline.scopedRest cfg1.spec c
  q _ := fullShare
  owed _ := O
  recorded _ := Rc

variable (c : Dev nD) (A : Arr1 (F := F) c) (O : CellTallies nD τ sig (HIx 1)) (Rc : Set (SemLoc sig × HIx 1))

theorem A1_eq (w : Fin cfg1.W) : (rdat1 c A O Rc).A w = A w := by dsimp only [rdat1]
theorem after1_0 (t : Fin cfg1.N) (Y X) : (rdat1 c A O Rc).after 0 t Y X = (X = Y) := by dsimp only [rdat1]
theorem after1_1 (t : Fin cfg1.N) (Y X) : (rdat1 c A O Rc).after 1 t Y X = Packed1 A t X := by dsimp only [rdat1]

/-! ## The schedule in closed form, at a symbolic point -/

/-- A coordinate of a block is moved by a cut transfer if it lies inside the array. -/
theorem r1_clip_extent_gt (ix k d j : Nat) (hj : j < k) (h : ix * k + j < d) : j < (Pipeline.Clip.of ix k d).extent k := by
  unfold Pipeline.Clip.of
  split
  · exact hj
  · show j < d - ix * k; omega

/-- The grid has one axis: a point's coordinate is the point. -/
theorem coords1_val (t : Fin cfg1.N) : ((cfg1.grid.coords t) 0).val = t.val := by
  have ht : t.val < 31 := lt_of_lt_of_eq t.isLt N_1
  show t.val / grid1.stride 0 % grid1.bound 0 = t.val
  rw [show grid1.stride 0 = 1 from by decide, show grid1.bound 0 = 31 from rfl, Nat.div_one, Nat.mod_eq_of_lt ht]

/-- The input's block index: column block `t`. -/
theorem transform1_0_1 (i : grid1.Coords) : cc1_transform_0 i 1 = (i 0).val := by
  have hi : (i 0).val < 31 := (i 0).isLt
  show (BitVec.ofNat 32 (i 0).val).toNat = (i 0).val
  rw [BitVec.toNat_ofNat]; exact Nat.mod_eq_of_lt (by omega)
/-- The output's block index: row block `t`. -/
theorem transform1_1_0 (i : grid1.Coords) : cc1_transform_1 i 0 = (i 0).val := by
  have hi : (i 0).val < 31 := (i 0).isLt
  show (BitVec.ofNat 32 (i 0).val).toNat = (i 0).val
  rw [BitVec.toNat_ofNat]; exact Nat.mod_eq_of_lt (by omega)

/-- A just-fetched input block holds, at a column inside the table, the table's entry. -/
theorem fetched1_apply (t : Fin cfg1.N) (d) (e : Fin 64) (k : Fin 32768) (n : Fin 1000000) (hn : n.val = 32768 * t.val + k.val) :
    (rdat1 c A O Rc).fetched 0 t d (ix2 e k) = A 0 (ix2 e n) := by
  have hm : (cfg1.win 0).moved (cfg1.grid.coords t) (ix2 e k) = true := by
    rw [Window.moved_iff]
    intro a
    match a with
    | ⟨0, _⟩ => exact r1_clip_extent_gt (cc1_transform_0 (cfg1.grid.coords t) 0) 64 64 e.val e.isLt (by show 0 * 64 + e.val < 64; omega)
    | ⟨1, _⟩ =>
      exact r1_clip_extent_gt (cc1_transform_0 (cfg1.grid.coords t) 1) 32768 1000000 k.val k.isLt
        (by rw [transform1_0_1, coords1_val]; have := n.isLt; omega)
  unfold RDat.fetched Window.fill
  rw [dif_pos hm]
  unfold RDat.blockOf
  rw [View.read_apply]
  show _root_.cast _ ((rdat1 c A O Rc).A 0 ((cfg1.win 0).arr.view.emb (((cfg1.win 0).rect t).emb _))) = _
  rw [A1_eq]
  refine (cast_eq _ _).trans (congrArg (A 0) (funext fun a => Fin.ext ?_))
  match a with
  | ⟨0, _⟩ => show 0 * 64 + 1 * e.val = e.val; omega
  | ⟨1, _⟩ =>
    show cc1_transform_0 (cfg1.grid.coords t) 1 * 32768 + 1 * k.val = n.val
    rw [transform1_0_1, coords1_val, hn]; omega

/-- The packing of a just-fetched input block: wherever the source column is inside the table, the body's output block
    holds the table's entry. -/
theorem packed_of_fetched (t : Fin cfg1.N) (d) : Packed1 A t (out1_1 ((rdat1 c A O Rc).fetched 0 t d)) := by
  intro r h e hv
  rw [out1_1_eq, k1_pay1_apply]
  exact fetched1_apply c A O Rc t d e _ _ (by show 32768 * t.val + 16384 * h.val + r.val = 32768 * t.val + (16384 * h.val + r.val); omega)

/-! ## The body obligation, at a generic point -/

/-- The body at any point: the input's memref holds a just-fetched block, so `sound_kernel1` applies; the core's dues
    pass through unread. -/
theorem body_obligation1 : (rdat1 (F := F) c A O Rc).BodyObligation (defs₀ (F := F)) 𝒱₀ (none : HIx 1) Set.univ := fun t Y hY => by
  obtain ⟨d, hd⟩ := ((rdat1 c A O Rc).finds_of_fetch (fetch1_0 t) (Y 0)).mp (hY 0)
  rw [bigSep_W1, bigSep_W1]
  rw [show (rdat1 c A O Rc).Φ t.succ = (rdat1 c A O Rc).Φ t.castSucc from rfl,
    show (rdat1 c A O Rc).owesAt none t.succ = (rdat1 c A O Rc).owesAt none t.castSucc from rfl]
  simp only [after1_0, after1_1]
  show _ ⊢ wp frame (wpE (defs₀ (F := F)) Variants.none c none) Set.univ (bodyAt1 t) _
  unfold bodyAt1
  iintro ⟨HΦ, Ho, H0, H1⟩
  iapply (sound_kernel1 c Set.univ (grid1.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr; · ipureintro; rfl
    iexact H0
  iexists (out1_1 (Y 0)); isplitr
  · ipureintro; rw [hd]; exact packed_of_fetched c A O Rc t d
  iexact H1

/-! ## The arrays after the region -/

/-- The output's block index: row block `t`; its blocks are never cut. -/
theorem index1_1_0 (u : Fin cfg1.N) : (cfg1.win 1).index u 0 = u.val := by
  show cc1_transform_1 (cfg1.grid.coords u) 0 = u.val; rw [transform1_1_0, coords1_val]

/-- The packed table on its first `n` row blocks: entry `(r, 64 h + e)` is the table's entry
    `(e, 32768 (r / 16384) + 16384 h + r % 16384)` wherever that column is inside the table. -/
def PackedUpTo {c : Dev nD} (A : Arr1 (F := F) c) (n : Nat) (G : Buf (Elt F) ((cfg1.win 1).arr.view.loc ((c : Dev nD) : Thread nD τ))) : Prop :=
  ∀ (r : Fin 507904) (h : Fin 2) (e : Fin 64), r.val < 16384 * n →
    ∀ hv : 32768 * (r.val / 16384) + 16384 * h.val + r.val % 16384 < 1000000,
      G (ix2 r ⟨64 * h.val + e.val, by omega⟩) = A 0 (ix2 e ⟨32768 * (r.val / 16384) + 16384 * h.val + r.val % 16384, hv⟩)

/-- A write through a rectangle of a whole buffer: an element of the rectangle takes the payload, -/
theorem r1_whole_slice_write_emb {κ : Kind} (b : Ref sig κ) (r : Rect b.ty.shape) (f : b.ty.Contents (Elt F)) (w : r.shape.Idx → Elt F b.ty.elt)
    (x : r.shape.Idx) : ((View.whole b).slice r).write (Elt F) f w Finset.univ (r.emb x) = w x :=
  View.read_slice_write_emb (v := View.whole b) (Val := Elt F) r f w (Finset.mem_univ x)
/-- and every other element keeps what it held. -/
theorem r1_whole_slice_write_of_not_mem {κ : Kind} (b : Ref sig κ) (r : Rect b.ty.shape) (f : b.ty.Contents (Elt F)) (w : r.shape.Idx → Elt F b.ty.elt)
    {y : b.ty.shape.Idx} (h : y ∉ r.set) : ((View.whole b).slice r).write (Elt F) f w Finset.univ y = f y :=
  View.read_slice_write_of_not_mem (v := View.whole b) (Val := Elt F) r f w Finset.univ (by rwa [Rect.map_emb_univ])

/-- Whatever the packed table's array holds after the write-backs of the points below `n`, its first `n` row blocks
    are packed: the write-back of point `n` writes row block `n` whole, from a buffer the body left packed, and leaves
    the row blocks before it as they were. -/
theorem arrAt1_packed : ∀ (n : Nat), n ≤ 31 → ∀ G, (rdat1 c A O Rc).ArrAt 1 n G → PackedUpTo A n G
  | 0, _, G, _ => fun r h e hr => absurd hr (by omega)
  | n + 1, hn, G, hG => by
    have hlt : n < cfg1.N := lt_of_lt_of_eq (by omega : n < 31) N_1.symm
    change (if h : n < cfg1.N then (if (cfg1.win 1).flush ⟨n, h⟩ then (rdat1 c A O Rc).ArrStep 1 ⟨n, h⟩ ((rdat1 c A O Rc).ArrAt 1 n)
      else (rdat1 c A O Rc).ArrAt 1 n) else (rdat1 c A O Rc).ArrAt 1 n) G at hG
    rw [dif_pos hlt, if_pos (flush1_1 _)] at hG
    obtain ⟨G₀, X, hG₀, ⟨Y, -, hX⟩, hGeq⟩ := hG
    rw [after1_1] at hX
    have hw : G = ((View.whole main_v3).slice ((cfg1.win 1).rect ⟨n, hlt⟩)).write (Elt F) G₀ ((cfg1.win 1).cut (cfg1.grid.coords ⟨n, hlt⟩) X) Finset.univ := hGeq
    intro r h e hr hv
    by_cases hlo : r.val < 16384 * n
    · have hnot : (ix2 r (⟨64 * h.val + e.val, by omega⟩ : Fin 128) : S507904x128.Idx) ∉ ((cfg1.win 1).rect ⟨n, hlt⟩).set := by
        rw [Rect.mem_set_unit]
        intro hmem
        have h0 := (hmem 0).1
        change (cfg1.win 1).index ⟨n, hlt⟩ 0 * 16384 ≤ r.val at h0
        rw [index1_1_0] at h0
        change n * 16384 ≤ r.val at h0
        omega
      have e1 := r1_whole_slice_write_of_not_mem (F := F) main_v3 ((cfg1.win 1).rect ⟨n, hlt⟩) G₀ ((cfg1.win 1).cut (cfg1.grid.coords ⟨n, hlt⟩) X) hnot
      rw [hw]
      exact e1.trans (arrAt1_packed n (by omega) G₀ hG₀ r h e hlo hv)
    · have hr' : r.val - 16384 * n < 16384 := by omega
      have hx : (ix2 r (⟨64 * h.val + e.val, by omega⟩ : Fin 128) : S507904x128.Idx)
          = ((cfg1.win 1).rect ⟨n, hlt⟩).emb (ix2 (⟨r.val - 16384 * n, hr'⟩ : Fin 16384) (⟨64 * h.val + e.val, by omega⟩ : Fin 128)) := by
        funext a
        apply Fin.ext
        match a with
        | ⟨0, _⟩ =>
          show r.val = (cfg1.win 1).index ⟨n, hlt⟩ 0 * 16384 + 1 * (r.val - 16384 * n)
          rw [index1_1_0]; show r.val = n * 16384 + 1 * (r.val - 16384 * n); omega
        | ⟨1, _⟩ => show 64 * h.val + e.val = 0 * 128 + 1 * (64 * h.val + e.val); omega
      have e1 := r1_whole_slice_write_emb (F := F) main_v3 ((cfg1.win 1).rect ⟨n, hlt⟩) G₀ ((cfg1.win 1).cut (cfg1.grid.coords ⟨n, hlt⟩) X)
        (ix2 (⟨r.val - 16384 * n, hr'⟩ : Fin 16384) (⟨64 * h.val + e.val, by omega⟩ : Fin 128))
      have hp := hX ⟨r.val - 16384 * n, hr'⟩ h e (by show 32768 * n + 16384 * h.val + (r.val - 16384 * n) < 1000000; omega)
      rw [hw, hx]
      refine e1.trans (hp.trans (congrArg (A 0) (congrArg (ix2 e) (Fin.ext ?_))))
      show 32768 * n + 16384 * h.val + (r.val - 16384 * n) = 32768 * (r.val / 16384) + 16384 * h.val + r.val % 16384
      omega

/-- The table's array is never written: after the region it holds what it held at entry. -/
theorem arr1_in (G) (hG : (rdat1 c A O Rc).ArrAt 0 cfg1.N G) : G = A 0 := by
  rw [Pipeline.RDat.ArrAt_in (rd := rdat1 c A O Rc) 0 rfl cfg1.N] at hG
  exact hG

/-- The packed table after the region, whatever it holds: entry `(r, 64 h + e)` is the table's entry
    `(e, 32768 (r / 16384) + 16384 h + r % 16384)` wherever that column is inside the table. Of the other entries (the
    last row block's, from row 576 on of its right half) nothing is said: they are what the last, cut fetch left in the
    staging buffer beyond the table's end. -/
theorem arr1_out_apply (G) (hG : (rdat1 c A O Rc).ArrAt 1 cfg1.N G) (r : Fin 507904) (h : Fin 2) (e : Fin 64)
    (hv : 32768 * (r.val / 16384) + 16384 * h.val + r.val % 16384 < 1000000) :
    G (ix2 r ⟨64 * h.val + e.val, by omega⟩) = A 0 (ix2 e ⟨32768 * (r.val / 16384) + 16384 * h.val + r.val % 16384, hv⟩) := by
  have h31 : cfg1.N = 31 := N_1
  rw [h31] at hG
  exact arrAt1_packed c A O Rc 31 le_rfl G hG r h e (by have := r.isLt; omega) hv

end Cert.Proof.KI

end
-- ==== Proof.KIRegion3.lean ====
/-
  Pipeline 2 of @main (custom_call 3, the two-layer perceptron with a softmax over two classes, gridless): its proof data
  and body obligation, and what its six windowed arrays hold after the region.

  The pipeline has one point. Its five input windows are whole arrays, each fetched once into its single staging buffer;
  its output window is a whole array, written back once. The body loads the five staged inputs whole, loads the output's
  staging buffer, and stores the payload (a function of the five loaded values only) over all of it. So after the body
  the input staging buffers hold what the fetch staged, the output's staging buffer holds the payload of the five staged
  blocks, and after the region the five input arrays are as they were and the output array is the payload of the five
  input arrays.
-/
import proofs.«207435_g27118423507386_cont_sun_m_668_27_alg».proof.Proof.KISetup
import proofs.«207435_g27118423507386_cont_sun_m_668_27_alg».proof.Proof.Gen.KernelIdeal.Skeleton
import proofs.«207435_g27118423507386_cont_sun_m_668_27_alg».proof.Proof.Gen.KernelIdeal.Launch
import proofs.«207435_g27118423507386_cont_sun_m_668_27_alg».proof.Proof.Gen.KernelIdeal.Points
import Idealize.ShloMosaic.Lib.Pipeline.Dat
import Idealize.ShloMosaic.Lib.Pipeline.FrameBody
import Idealize.ShloMosaic.Lib.Pipeline.Value

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (BodyObligation)

variable {F : FTy → Type} [FloatOps F] [Named F]

local notation "𝕄" => MT nD τ sig (HIx 1) (Elt F) ℕ UU ℕ

/-- Memref `M`'s buffer on core `c` held whole at `f`. -/
abbrev ptM3 (c : Dev nD) {sp : Space} {Sh : Shape} {e : EltTy} (M : Memref sig .tc sp Sh e) (f : Buf (Elt F) (M.view.loc (c : Thread nD τ))) : sProp 𝕄 :=
  M.view.loc (c : Thread nD τ) ↦{fullShare} f

/-- The body run from its six staging buffers held whole, the inputs' at `f0` … `f4`, WITH the payload it finds: what the
    output's buffer holds afterwards (whatever it held before is overwritten). -/
def mlpRun (c : Dev nD) (M0 : Memref sig .tc .vmem S4096x64 .f32) (h0 : M0.IsWhole) (M1 : Memref sig .tc .vmem S64x128 .f32) (h1 : M1.IsWhole)
    (M2 : Memref sig .tc .vmem S1x128 .f32) (h2 : M2.IsWhole) (M3 : Memref sig .tc .vmem S128x2 .f32) (h3 : M3.IsWhole)
    (M4 : Memref sig .tc .vmem S1x2 .f32) (h4 : M4.IsWhole) (M5 : Memref sig .tc .vmem S4096x2 .f32) (h5 : M5.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    { pay : Buf (Elt F) (M5.view.loc (c : Thread nD τ)) //
      ∀ (f5 : Buf (Elt F) (M5.view.loc (c : Thread nD τ))) (Q : PUnit → sProp 𝕄),
        iprop(ptM3 c M0 f0 ∗ ptM3 c M1 f1 ∗ ptM3 c M2 f2 ∗ ptM3 c M3 f3 ∗ ptM3 c M4 f4 ∗ ptM3 c M5 f5
            ∗ (iprop(ptM3 c M0 f0 ∗ ptM3 c M1 f1 ∗ ptM3 c M2 f2 ∗ ptM3 c M3 f3 ∗ ptM3 c M4 f4 ∗ ptM3 c M5 pay) -∗ Q ⟨⟩))
          ⊢ wp frame (wpE (defs₀ (F := F)) Variants.none (c : Thread nD τ) none) Set.univ
              (cc3__mlp_body (F := F) M0 h0 M1 h1 M2 h2 M3 h3 M4 h4 M5 h5) Q } := by
  refine ⟨?_, fun f5 Q => ?run⟩
  case run =>
    iintro ⟨H0, H1, H2, H3, H4, H5, Hk⟩
    simp only [cc3__mlp_body_eq_skeleton]; unfold cc3__mlp_body_skel
    sl_exec!
    sl_step
    iapply Hk
    isplitl [H0]; · iexact H0
    isplitl [H1]; · iexact H1
    isplitl [H2]; · iexact H2
    isplitl [H3]; · iexact H3
    isplitl [H4]; · iexact H4
    iexact H5

/-! ## The proof data -/

/-- The block of window `w`'s array the one fetch stages: read off the array's contents `A w` at region entry. -/
abbrev xstg3 (c : Dev nD) (A : (w : Fin cfg3.W) → Buf (Elt F) ((cfg3.win w).arr.view.loc (c : Thread nD τ))) (w : Fin cfg3.W) :
    ((cfg3.win w).xblock (cfg3.grid.coords t3_0)).Idx → Elt F (cfg3.win w).elt :=
  ((cfg3.win w).blk t3_0).view.read (Elt F) (A w)

/-- What the output window's staging buffer holds after the body: the body's payload of the five staged blocks. -/
def mlpOut (c : Dev nD) (A : (w : Fin cfg3.W) → Buf (Elt F) ((cfg3.win w).arr.view.loc (c : Thread nD τ))) :
    (cfg3.win 5).block.Idx → Elt F (cfg3.win 5).elt :=
  (mlpRun c (Memref.whole cc3_stg0_0) (Memref.isWhole_whole _) (Memref.whole cc3_stg1_0) (Memref.isWhole_whole _)
    (Memref.whole cc3_stg2_0) (Memref.isWhole_whole _) (Memref.whole cc3_stg3_0) (Memref.isWhole_whole _)
    (Memref.whole cc3_stg4_0) (Memref.isWhole_whole _) (Memref.whole cc3_stg5_0) (Memref.isWhole_whole _)
    (xstg3 c A 0) (xstg3 c A 1) (xstg3 c A 2) (xstg3 c A 3) (xstg3 c A 4)).1

/-- The region's proof data: the six arrays at their entry contents `A`; after the body each input's staging buffer as
    fetched, the output's at the payload; its invariant the core's scoped buffers that are no staging buffer of this pipeline (the other
    pipelines'), each whole at some contents, which the body never touches; owing the tallies `O` throughout (the body pays
    nothing and takes on nothing). -/
def dat3 (c : Dev nD) (A : (w : Fin cfg3.W) → Buf (Elt F) ((cfg3.win w).arr.view.loc (c : Thread nD τ))) (O : CellTallies nD τ sig (HIx 1)) (Rc : Set (SemLoc sig × HIx 1)) :
    Pipeline.Dat τ (Elt F) (HIx 1) ℕ UU ℕ cfg3 c where
  A := A
  after w _ := match w with
    | ⟨0, _⟩ => xstg3 c A 0
    | ⟨1, _⟩ => xstg3 c A 1
    | ⟨2, _⟩ => xstg3 c A 2
    | ⟨3, _⟩ => xstg3 c A 3
    | ⟨4, _⟩ => xstg3 c A 4
    | ⟨5, _⟩ => mlpOut c A
  Φ _ := Pipeline.scopedRest (Ix := HIx 1) (Name := ℕ) (U := UU) (Lvl := ℕ) (Val := Elt F) spec3 c
  q _ := fullShare
  owed _ := O
  recorded _ := Rc

/-! ## The body obligation -/

/-- Each input window's staging buffer holds, when the body runs, the block the fetch staged: the one point fetches it,
    and the fetch fills the whole buffer. -/
theorem before3_0 (c : Dev nD) (A : (w : Fin cfg3.W) → Buf (Elt F) ((cfg3.win w).arr.view.loc (c : Thread nD τ))) (O : CellTallies nD τ sig (HIx 1)) (Rc : Set (SemLoc sig × HIx 1))
    (d : (cfg3.win 0).block.Idx → Elt F (cfg3.win 0).elt) : (dat3 c A O Rc).before 0 t3_0 d = xstg3 c A 0 := by
  unfold Pipeline.Dat.before; rw [if_pos (fetch3_0 _)]; rfl
theorem before3_1 (c : Dev nD) (A : (w : Fin cfg3.W) → Buf (Elt F) ((cfg3.win w).arr.view.loc (c : Thread nD τ))) (O : CellTallies nD τ sig (HIx 1)) (Rc : Set (SemLoc sig × HIx 1))
    (d : (cfg3.win 1).block.Idx → Elt F (cfg3.win 1).elt) : (dat3 c A O Rc).before 1 t3_0 d = xstg3 c A 1 := by
  unfold Pipeline.Dat.before; rw [if_pos (fetch3_1 _)]; rfl
theorem before3_2 (c : Dev nD) (A : (w : Fin cfg3.W) → Buf (Elt F) ((cfg3.win w).arr.view.loc (c : Thread nD τ))) (O : CellTallies nD τ sig (HIx 1)) (Rc : Set (SemLoc sig × HIx 1))
    (d : (cfg3.win 2).block.Idx → Elt F (cfg3.win 2).elt) : (dat3 c A O Rc).before 2 t3_0 d = xstg3 c A 2 := by
  unfold Pipeline.Dat.before; rw [if_pos (fetch3_2 _)]; rfl
theorem before3_3 (c : Dev nD) (A : (w : Fin cfg3.W) → Buf (Elt F) ((cfg3.win w).arr.view.loc (c : Thread nD τ))) (O : CellTallies nD τ sig (HIx 1)) (Rc : Set (SemLoc sig × HIx 1))
    (d : (cfg3.win 3).block.Idx → Elt F (cfg3.win 3).elt) : (dat3 c A O Rc).before 3 t3_0 d = xstg3 c A 3 := by
  unfold Pipeline.Dat.before; rw [if_pos (fetch3_3 _)]; rfl
theorem before3_4 (c : Dev nD) (A : (w : Fin cfg3.W) → Buf (Elt F) ((cfg3.win w).arr.view.loc (c : Thread nD τ))) (O : CellTallies nD τ sig (HIx 1)) (Rc : Set (SemLoc sig × HIx 1))
    (d : (cfg3.win 4).block.Idx → Elt F (cfg3.win 4).elt) : (dat3 c A O Rc).before 4 t3_0 d = xstg3 c A 4 := by
  unfold Pipeline.Dat.before; rw [if_pos (fetch3_4 _)]; rfl

omit [FloatOps F] [Named F] in
/-- A whole buffer owned at contents `X` is the buffer held at some contents equal to `X`. -/
theorem owns_whole_eq3 (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on core `c`: the six staging buffers taken apart, the body's run applied. -/
theorem body_obligation3 (c : Dev nD) (A : (w : Fin cfg3.W) → Buf (Elt F) ((cfg3.win w).arr.view.loc (c : Thread nD τ))) (O : CellTallies nD τ sig (HIx 1)) (Rc : Set (SemLoc sig × HIx 1)) :
    BodyObligation (dat3 (F := F) c A O Rc) (defs₀ (F := F)) 𝒱₀ (none : HIx 1) Set.univ := fun t => by
  obtain rfl := fin_N3 t
  rw [bigSep_W3, bigSep_W3]
  simp only [owns_whole_eq3]
  rw [show (dat3 c A O Rc).Φ t3_0.succ = (dat3 c A O Rc).Φ t3_0.castSucc from rfl,
    show (dat3 c A O Rc).owesAt none t3_0.succ = (dat3 c A O Rc).owesAt none t3_0.castSucc from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before3_0] at hf0
  rw [before3_1] at hf1
  rw [before3_2] at hf2
  rw [before3_3] at hf3
  rw [before3_4] at hf4
  subst hf0 hf1 hf2 hf3 hf4
  iapply ((mlpRun c (Memref.whole cc3_stg0_0) (Memref.isWhole_whole _) (Memref.whole cc3_stg1_0) (Memref.isWhole_whole _)
    (Memref.whole cc3_stg2_0) (Memref.isWhole_whole _) (Memref.whole cc3_stg3_0) (Memref.isWhole_whole _)
    (Memref.whole cc3_stg4_0) (Memref.isWhole_whole _) (Memref.whole cc3_stg5_0) (Memref.isWhole_whole _)
    (xstg3 c A 0) (xstg3 c A 1) (xstg3 c A 2) (xstg3 c A 3) (xstg3 c A 4)).2 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; dsimp only [dat3, mlpOut]

/-! ## The arrays after the region -/

theorem hz2_3 : (![0, 0] : Fin 2 → Nat) = fun _ => 0 := funext fun a => by fin_cases a <;> rfl

/-- The block the one fetch stages is the whole array: each window's block is its array, at block index zero. -/
theorem xstg3_0 (c : Dev nD) (A : (w : Fin cfg3.W) → Buf (Elt F) ((cfg3.win w).arr.view.loc (c : Thread nD τ))) : xstg3 c A 0 = A 0 :=
  View.ld_unit_zero (S := S4096x64) (off := fun a => (cfg3.win 0).index t3_0 a * (cfg3.win 0).size a) (funext fun _ => Nat.zero_mul _) _ (A 0)
theorem xstg3_1 (c : Dev nD) (A : (w : Fin cfg3.W) → Buf (Elt F) ((cfg3.win w).arr.view.loc (c : Thread nD τ))) : xstg3 c A 1 = A 1 :=
  View.ld_unit_zero (S := S64x128) (off := fun a => (cfg3.win 1).index t3_0 a * (cfg3.win 1).size a) (funext fun _ => Nat.zero_mul _) _ (A 1)
theorem xstg3_2 (c : Dev nD) (A : (w : Fin cfg3.W) → Buf (Elt F) ((cfg3.win w).arr.view.loc (c : Thread nD τ))) : xstg3 c A 2 = A 2 :=
  View.ld_unit_zero (S := S1x128) (off := fun a => (cfg3.win 2).index t3_0 a * (cfg3.win 2).size a) (funext fun _ => Nat.zero_mul _) _ (A 2)
theorem xstg3_3 (c : Dev nD) (A : (w : Fin cfg3.W) → Buf (Elt F) ((cfg3.win w).arr.view.loc (c : Thread nD τ))) : xstg3 c A 3 = A 3 :=
  View.ld_unit_zero (S := S128x2) (off := fun a => (cfg3.win 3).index t3_0 a * (cfg3.win 3).size a) (funext fun _ => Nat.zero_mul _) _ (A 3)
theorem xstg3_4 (c : Dev nD) (A : (w : Fin cfg3.W) → Buf (Elt F) ((cfg3.win w).arr.view.loc (c : Thread nD τ))) : xstg3 c A 4 = A 4 :=
  View.ld_unit_zero (S := S1x2) (off := fun a => (cfg3.win 4).index t3_0 a * (cfg3.win 4).size a) (funext fun _ => Nat.zero_mul _) _ (A 4)

/-- The output window's staging buffer after the body holds the payload of the five input arrays. -/
theorem mlpOut_eq (c : Dev nD) (A : (w : Fin cfg3.W) → Buf (Elt F) ((cfg3.win w).arr.view.loc (c : Thread nD τ))) : mlpOut c A = k3_pay1 (F := F) (A 0) (A 1) (A 2) (A 3) (A 4) := by
  have e : mlpOut c A = (View.whole cc3_stg5_0).read (Elt F) (mlpOut c A) := rfl
  rw [e]
  unfold mlpOut mlpRun
  dsimp only [Memref.view_whole]
  rw [View.read_writes_junk_eq_canon]
  unfold mlpRun.sl.H5_1
  rw [View.canon_unit_zero (S := S4096x2) hz2_3]
  simp only [View.readAt_eq_ld, View.read_whole]
  rw [View.ld_unit_zero (S := S4096x64) hz2_3, View.ld_unit_zero (S := S64x128) hz2_3, View.ld_unit_zero (S := S1x128) hz2_3,
    View.ld_unit_zero (S := S128x2) hz2_3, View.ld_unit_zero (S := S1x2) hz2_3]
  rw [xstg3_0, xstg3_1, xstg3_2, xstg3_3, xstg3_4]

omit [FloatOps F] [Named F] in
/-- The output window's one block is its whole array: read through the block, contents of the array are themselves. -/
theorem blk3_5_read (X : S4096x2.Idx → Elt F .f32) :
    ((cfg3.win 5).blk t3_0).view.read (Elt F) X = (cfg3.win 5).cut (grid3.coords t3_0) X :=
  View.ld_unit_zero (S := S4096x2) (off := fun a => (cfg3.win 5).index t3_0 a * (cfg3.win 5).size a) (funext fun _ => Nat.zero_mul _) _ X

/-- An input window's array is never written back: it ends the region as it entered it. -/
theorem arr3_in (c : Dev nD) (A : (w : Fin cfg3.W) → Buf (Elt F) ((cfg3.win w).arr.view.loc (c : Thread nD τ))) (O : CellTallies nD τ sig (HIx 1)) (Rc : Set (SemLoc sig × HIx 1)) (w : Fin cfg3.W) (hw : w.val < 5) :
    (dat3 (F := F) c A O Rc).arrAt w cfg3.N = A w :=
  (dat3 (F := F) c A O Rc).arrAt_in w ((by decide : ∀ w : Fin 6, w.val < 5 → (cfg3.win w).isOut = false) w hw) _

/-- The output window's array ends the region at the body's payload of the five input arrays: the one point writes its
    staging buffer back over the whole array. -/
theorem arr3_out (c : Dev nD) (A : (w : Fin cfg3.W) → Buf (Elt F) ((cfg3.win w).arr.view.loc (c : Thread nD τ))) (O : CellTallies nD τ sig (HIx 1)) (Rc : Set (SemLoc sig × HIx 1)) :
    (dat3 (F := F) c A O Rc).arrAt 5 cfg3.N = k3_pay1 (F := F) (A 0) (A 1) (A 2) (A 3) (A 4) := by
  refine (dat3 (F := F) c A O Rc).arrAt_eq_of_cover 5 _ (fun t _ => ?_) (fun i => ⟨t3_0, flush3_5 _, ?_⟩)
  · obtain rfl := fin_N3 t
    have h5 : (dat3 (F := F) c A O Rc).after 5 t3_0 = mlpOut c A := by dsimp only [dat3]
    show (cfg3.win 5).cut (grid3.coords t3_0) ((dat3 (F := F) c A O Rc).after 5 t3_0) = _
    rw [h5, mlpOut_eq, blk3_5_read]
  · show i ∈ ((View.whole main_v9).slice ((cfg3.win 5).rect t3_0)).set
    rw [View.set_slice_whole]
    exact View.mem_set_unit_zero (S := S4096x2) (off := fun a => (cfg3.win 5).index t3_0 a * (cfg3.win 5).size a) (funext fun _ => Nat.zero_mul _) _ i

end Cert.Proof.KI

end
-- ==== Proof.KIRdats.lean ====
/-
  The contents of @main's buffers along its run, as functions of the launch memory, and the proof data of its three
  pipelined regions as ONE family: the transposed indices and their padded re-layout (region 0), the transposed table and
  its packed re-layout (region 1: relational, the rows past the table's height are not determined), the pooled rows (a
  parameter here: what the SparseCore call leaves), the host's re-laid weights, and the perceptron's result (region 2).
-/
import proofs.«207435_g27118423507386_cont_sun_m_668_27_alg».proof.Proof.KIShared
import proofs.«207435_g27118423507386_cont_sun_m_668_27_alg».proof.Proof.KITc
import proofs.«207435_g27118423507386_cont_sun_m_668_27_alg».proof.Proof.KIVals
import proofs.«207435_g27118423507386_cont_sun_m_668_27_alg».proof.Proof.KIRegion0
import proofs.«207435_g27118423507386_cont_sun_m_668_27_alg».proof.Proof.KIRegion1
import proofs.«207435_g27118423507386_cont_sun_m_668_27_alg».proof.Proof.KIRegion3

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)
-- the pooled rows the SparseCore call leaves, as a function of the launch memory (what it is, is the task's business)
variable (O4 : (d : Dev nD) → Buf (Elt F) (oLoc d))

/-- The arrays region 0 finds, region 1, region 2. -/
def A0 (d : Dev nD) : (w : Fin cfg0.W) → Buf (Elt F) ((cfg0.win w).arr.view.loc ((d : Dev nD) : Thread nD τ)) := fun w =>
  match w with
  | ⟨0, _⟩ => V0c m d
  | ⟨1, _⟩ => mT m d main_v1
def A1 (d : Dev nD) : (w : Fin cfg1.W) → Buf (Elt F) ((cfg1.win w).arr.view.loc ((d : Dev nD) : Thread nD τ)) := fun w =>
  match w with
  | ⟨0, _⟩ => V2c m d
  | ⟨1, _⟩ => mT m d main_v3
def A3 (d : Dev nD) : (w : Fin cfg3.W) → Buf (Elt F) ((cfg3.win w).arr.view.loc ((d : Dev nD) : Thread nD τ)) := fun w =>
  match w with
  | ⟨0, _⟩ => O4 d
  | ⟨1, _⟩ => V5c m d
  | ⟨2, _⟩ => V6c m d
  | ⟨3, _⟩ => V7c m d
  | ⟨4, _⟩ => V8c m d
  | ⟨5, _⟩ => mT m d main_v9

/-- The three regions' proof data. The TensorCore owes the start signal of the SparseCore call through the first two
    regions and nothing after it. -/
def rdats : (p : Fin 3) → (c : Dev nD) → Pipeline.RDat τ (Elt F) (HIx 1) ℕ UU ℕ (Pipeline.pin (pcfgs (F := F)) adm p) c
  | ⟨0, _⟩ => fun c => (dat0 c (A0 m c) ((K (F := F)).Otc c 0) (RcOf (F := F) c 0)).toR
  | ⟨1, _⟩ => fun c => rdat1 c (A1 m c) ((K (F := F)).Otc c 0) (RcOf (F := F) c 0)
  | ⟨2, _⟩ => fun c => (dat3 c (A3 m O4 c) ((K (F := F)).Otc c 1) (RcOf (F := F) c 1)).toR

/-- The padded indices (`%1`) after region 0 and the perceptron's result (`%9`) after region 2. -/
def I1 (d : Dev nD) : Buf (Elt F) (iLoc d) := (dat0 d (A0 m d) ((K (F := F)).Otc d 0) (RcOf (F := F) d 0)).arrAt 1 cfg0.N
def R9 (d : Dev nD) : Buf (Elt F) (bLoc d main_v9) := (dat3 d (A3 m O4 d) ((K (F := F)).Otc d 1) (RcOf (F := F) d 1)).arrAt 5 cfg3.N

/-- What is known of the packed table (`%3`) after region 1: its entries whose source column lies inside the table are
    the transposed table's; the others (the last block's overhang) are not determined by the launch memory. -/
def TabOKm (d : Dev nD) (Tb : Buf (Elt F) (tLoc d)) : Prop :=
  ∀ (r : Fin 507904) (h : Fin 2) (e : Fin 64) (hv : 32768 * (r.val / 16384) + 16384 * h.val + r.val % 16384 < 1000000),
    Tb (Idealize.ShloMosaic.ValueIdx.ix2 r ⟨64 * h.val + e.val, by have := h.isLt; have := e.isLt; omega⟩)
      = V2c m d (Idealize.ShloMosaic.ValueIdx.ix2 e ⟨32768 * (r.val / 16384) + 16384 * h.val + r.val % 16384, hv⟩)

end Cert.Proof.KI

end
-- ==== Proof.KIHost.lean ====
/-
  The six host operations of @main — four transposes and two reshapes — each as one step on a device's TensorCore thread
  under the program's extended body table, holding only the operation's two buffers: the operand keeps its contents and
  the result ends at the operation's value of them.
-/
import proofs.«207435_g27118423507386_cont_sun_m_668_27_alg».proof.Proof.KIVals
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

/-! ## One operation over its two buffers -/

/-- The valuation that is `vx` at `x`, `a` at `y` and `V₀` elsewhere. -/
def val2 (V₀ : Valuation τ sig (Elt F)) (x y : Ref sig .tc) (vx : x.ty.Contents (Elt F)) (a : y.ty.Contents (Elt F)) : Valuation τ sig (Elt F) :=
  Function.update (Function.update V₀ (Proc.devRef .tc x) vx) (Proc.devRef .tc y) a

theorem val2_x (V₀ : Valuation τ sig (Elt F)) (x y : Ref sig .tc) (hne : (Proc.devRef .tc x : DevRef τ sig) ≠ Proc.devRef .tc y)
    (vx : x.ty.Contents (Elt F)) (a : y.ty.Contents (Elt F)) : val2 V₀ x y vx a (Proc.devRef .tc x) = vx := by
  unfold val2; rw [Function.update_of_ne hne, Function.update_self]
theorem val2_y (V₀ : Valuation τ sig (Elt F)) (x y : Ref sig .tc)
    (vx : x.ty.Contents (Elt F)) (a : y.ty.Contents (Elt F)) : val2 V₀ x y vx a (Proc.devRef .tc y) = a := by
  unfold val2; rw [Function.update_self]

/-- Two distinct buffers held are the two buffers, each held. -/
theorem held_pair (d : Dev nD) (x y : Ref sig .tc) (hne : (Proc.devRef .tc x : DevRef τ sig) ≠ Proc.devRef .tc y) (W : Valuation τ sig (Elt F)) :
    (held (T d) ({Proc.devRef .tc x, Proc.devRef .tc y} : Finset (DevRef τ sig)) W : sProp 𝕄)
      = iprop((bLoc d x ↦{fullShare} W (Proc.devRef .tc x)) ∗ (bLoc d y ↦{fullShare} W (Proc.devRef .tc y))) := by
  unfold held
  rw [SparseCore.bigSep_insert' (by rw [Finset.mem_singleton]; exact hne), bigSep_singleton]

/-- After a one-operand operation the two buffers hold the operand as it was and the operation's value of it. -/
theorem held_pair_unary (V₀ : Valuation τ sig (Elt F)) (d : Dev nD) (x y : Ref sig .tc) (hne : (Proc.devRef .tc x : DevRef τ sig) ≠ Proc.devRef .tc y)
    (f : x.ty.Contents (Elt F) → y.ty.Contents (Elt F)) (hx) (hy) (vx : x.ty.Contents (Elt F)) (a : y.ty.Contents (Elt F)) :
    (held (T d) ({Proc.devRef .tc x, Proc.devRef .tc y} : Finset (DevRef τ sig)) ((StableHlo.unary x y f hx hy).result (val2 V₀ x y vx a)) : sProp 𝕄)
      = iprop((bLoc d x ↦{fullShare} vx) ∗ (bLoc d y ↦{fullShare} f vx)) := by
  rw [held_pair d x y hne, StableHlo.unary_result,
    (StableHlo.unary x y f hx hy).result_of_not_mem (val2 V₀ x y vx a) (b := Proc.devRef .tc x)
      (by show _ ∉ ({Proc.devRef .tc y} : Finset (DevRef τ sig)); rw [Finset.mem_singleton]; exact hne),
    val2_x V₀ x y hne]

/-- After a reshape the two buffers hold the operand as it was and its elements at the result's shape. -/
theorem held_pair_reshape (V₀ : Valuation τ sig (Elt F)) (d : Dev nD) (x y : Ref sig .tc) (hne : (Proc.devRef .tc x : DevRef τ sig) ≠ Proc.devRef .tc y)
    (he : x.ty.elt = y.ty.elt) (hn : x.ty.shape.ShapeCasts y.ty.shape) (hx) (hy) (vx : x.ty.Contents (Elt F)) (a : y.ty.Contents (Elt F)) :
    (held (T d) ({Proc.devRef .tc x, Proc.devRef .tc y} : Finset (DevRef τ sig)) ((StableHlo.reshape x y he hn hx hy).result (val2 V₀ x y vx a)) : sProp 𝕄)
      = iprop((bLoc d x ↦{fullShare} vx) ∗ (bLoc d y ↦{fullShare} (fun i => he ▸ shapeCast y.ty.shape vx hn i : y.ty.Contents (Elt F)))) := by
  rw [held_pair d x y hne, StableHlo.reshape_result,
    (StableHlo.reshape x y he hn hx hy).result_of_not_mem (val2 V₀ x y vx a) (b := Proc.devRef .tc x)
      (by show _ ∉ ({Proc.devRef .tc y} : Finset (DevRef τ sig)); rw [Finset.mem_singleton]; exact hne),
    val2_x V₀ x y hne]

/-- A host operation of one operand, as a step: from the region boundary and its two buffers, the operand at `vx` and
    the result at anything, to the boundary, the operand as it was and the result at the operation's value of `vx`. -/
theorem host_unary_step (V₀ : Valuation τ sig (Elt F)) (d : Dev nD) (x y : Ref sig .tc) (hne : (Proc.devRef .tc x : DevRef τ sig) ≠ Proc.devRef .tc y)
    (f : x.ty.Contents (Elt F) → y.ty.Contents (Elt F)) (hx) (hy)
    (vx : x.ty.Contents (Elt F)) (a : y.ty.Contents (Elt F)) (Q : PUnit → sProp 𝕄) :
    iprop(boundary (SparseCore.T d) ∗ (bLoc d x ↦{fullShare} vx) ∗ (bLoc d y ↦{fullShare} a)
        ∗ (iprop(boundary (SparseCore.T d) ∗ (bLoc d x ↦{fullShare} vx) ∗ (bLoc d y ↦{fullShare} f vx)) -∗ Q ⟨⟩))
      ⊢ wp frame (wpE ((K (F := F)).defs (D (F := F))) 𝒱 (SparseCore.T d) none) Set.univ
          (hlo rfl (StableHlo.unary x y f hx hy) (fun _ => .ret ⟨⟩)) Q := by
  iintro ⟨Hb, Hx, Hy, Hk⟩
  iapply (wp_hlo_within 𝒱 (SparseCore.T d) none Set.univ (op := StableHlo.unary x y f hx hy)
    (S := {Proc.devRef .tc x, Proc.devRef .tc y}) (fun _ h => h) (V := val2 V₀ x y vx a)) $$ [Hb Hx Hy]
  · isplitl [Hb]; · iexact Hb
    rw [held_pair d x y hne, val2_x V₀ x y hne, val2_y]
    isplitl [Hx]; · iexact Hx
    iexact Hy
  iintro ⟨Hb, Hheld⟩
  ihave Hh := (Entails.of_eq (held_pair_unary V₀ d x y hne f hx hy vx a)) $$ Hheld
  icases Hh with ⟨Hx, Hy⟩
  rw [wp_ret]; imodintro
  iapply Hk
  isplitl [Hb]; · iexact Hb
  isplitl [Hx]; · iexact Hx
  iexact Hy

/-- A host reshape, as a step: the result ends at the operand's elements in row-major order at the result's shape. -/
theorem host_reshape_step (V₀ : Valuation τ sig (Elt F)) (d : Dev nD) (x y : Ref sig .tc) (hne : (Proc.devRef .tc x : DevRef τ sig) ≠ Proc.devRef .tc y)
    (he : x.ty.elt = y.ty.elt) (hn : x.ty.shape.ShapeCasts y.ty.shape) (hx) (hy)
    (vx : x.ty.Contents (Elt F)) (a : y.ty.Contents (Elt F)) (Q : PUnit → sProp 𝕄) :
    iprop(boundary (SparseCore.T d) ∗ (bLoc d x ↦{fullShare} vx) ∗ (bLoc d y ↦{fullShare} a)
        ∗ (iprop(boundary (SparseCore.T d) ∗ (bLoc d x ↦{fullShare} vx)
            ∗ (bLoc d y ↦{fullShare} (fun i => he ▸ shapeCast y.ty.shape vx hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  iintro ⟨Hb, Hx, Hy, Hk⟩
  iapply (wp_hlo_within 𝒱 (SparseCore.T d) none Set.univ (op := StableHlo.reshape x y he hn hx hy)
    (S := {Proc.devRef .tc x, Proc.devRef .tc y}) (fun _ h => h) (V := val2 V₀ x y vx a)) $$ [Hb Hx Hy]
  · isplitl [Hb]; · iexact Hb
    rw [held_pair d x y hne, val2_x V₀ x y hne, val2_y]
    isplitl [Hx]; · iexact Hx
    iexact Hy
  iintro ⟨Hb, Hheld⟩
  ihave Hh := (Entails.of_eq (held_pair_reshape V₀ d x y hne he hn hx hy vx a)) $$ Hheld
  icases Hh with ⟨Hx, Hy⟩
  rw [wp_ret]; imodintro
  iapply Hk
  isplitl [Hb]; · iexact Hb
  isplitl [Hx]; · iexact Hx
  iexact Hy

/-! ## The six operations of @main -/

variable (m : (ℓ : Loc nD τ sig) → Buf (Elt F) ℓ)

/-- The launch memory of device `d` as a valuation. -/
abbrev valOf (d : Dev nD) : Valuation τ sig (Elt F) := fun b => m (d, b)

/-- `%0`: the indices transposed. -/
theorem host_v0 (d : Dev nD) (a : Buf (Elt F) (bLoc d main_v0)) (Q : PUnit → sProp 𝕄) :
    iprop(boundary (SparseCore.T d) ∗ (bLoc d main_arg0 ↦{fullShare} mT m d main_arg0) ∗ (bLoc d main_v0 ↦{fullShare} a)
        ∗ (iprop(boundary (SparseCore.T d) ∗ (bLoc d main_arg0 ↦{fullShare} mT m d main_arg0) ∗ (bLoc d main_v0 ↦{fullShare} V0c m d)) -∗ Q ⟨⟩))
      ⊢ wp frame (wpE ((K (F := F)).defs (D (F := F))) 𝒱 (SparseCore.T d) none) Set.univ
          (hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)) Q :=
  host_unary_step (valOf m d) d main_arg0 main_v0 (by decide)
    ((transpose S200x4096 [1, 0] · transposes_S4096x200_S200x4096_1_0) : (⟨S4096x200, .i32⟩ : BufTy).Contents (Elt F) → (⟨S200x4096, .i32⟩ : BufTy).Contents (Elt F))
    ⟨by decide, rfl⟩ ⟨by decide, rfl⟩ (mT m d main_arg0) a Q

/-- `%2`: the table transposed. -/
theorem host_v2 (d : Dev nD) (a : Buf (Elt F) (bLoc d main_v2)) (Q : PUnit → sProp 𝕄) :
    iprop(boundary (SparseCore.T d) ∗ (bLoc d main_arg2 ↦{fullShare} mT m d main_arg2) ∗ (bLoc d main_v2 ↦{fullShare} a)
        ∗ (iprop(boundary (SparseCore.T d) ∗ (bLoc d main_arg2 ↦{fullShare} mT m d main_arg2) ∗ (bLoc d main_v2 ↦{fullShare} V2c m d)) -∗ Q ⟨⟩))
      ⊢ wp frame (wpE ((K (F := F)).defs (D (F := F))) 𝒱 (SparseCore.T d) none) Set.univ
          (hlo rfl (StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F))) (fun _ => .ret ⟨⟩)) Q :=
  host_unary_step (valOf m d) d main_arg2 main_v2 (by decide)
    ((transpose S64x1000000 [1, 0] · transposes_S1000000x64_S64x1000000_1_0) : (⟨S1000000x64, .f32⟩ : BufTy).Contents (Elt F) → (⟨S64x1000000, .f32⟩ : BufTy).Contents (Elt F))
    ⟨by decide, rfl⟩ ⟨by decide, rfl⟩ (mT m d main_arg2) a Q

/-- `%5`: the first weight matrix transposed. -/
theorem host_v5 (d : Dev nD) (a : Buf (Elt F) (bLoc d main_v5)) (Q : PUnit → sProp 𝕄) :
    iprop(boundary (SparseCore.T d) ∗ (bLoc d main_arg3 ↦{fullShare} mT m d main_arg3) ∗ (bLoc d main_v5 ↦{fullShare} a)
        ∗ (iprop(boundary (SparseCore.T d) ∗ (bLoc d main_arg3 ↦{fullShare} mT m d main_arg3) ∗ (bLoc d main_v5 ↦{fullShare} V5c m d)) -∗ Q ⟨⟩))
      ⊢ wp frame (wpE ((K (F := F)).defs (D (F := F))) 𝒱 (SparseCore.T d) none) Set.univ
          (hlo rfl (StableHlo.unary main_arg3 main_v5 ((transpose S64x128 [1, 0] · transposes_S128x64_S64x128_1_0) : (⟨S128x64, .f32⟩ : BufTy).Contents (Elt F) → (⟨S64x128, .f32⟩ : BufTy).Contents (Elt F))) (fun _ => .ret ⟨⟩)) Q :=
  host_unary_step (valOf m d) d main_arg3 main_v5 (by decide)
    ((transpose S64x128 [1, 0] · transposes_S128x64_S64x128_1_0) : (⟨S128x64, .f32⟩ : BufTy).Contents (Elt F) → (⟨S64x128, .f32⟩ : BufTy).Contents (Elt F))
    ⟨by decide, rfl⟩ ⟨by decide, rfl⟩ (mT m d main_arg3) a Q

/-- `%6`: the first bias vector as a one-row matrix. -/
theorem host_v6 (d : Dev nD) (a : Buf (Elt F) (bLoc d main_v6)) (Q : PUnit → sProp 𝕄) :
    iprop(boundary (SparseCore.T d) ∗ (bLoc d main_arg4 ↦{fullShare} mT m d main_arg4) ∗ (bLoc d main_v6 ↦{fullShare} a)
        ∗ (iprop(boundary (SparseCore.T d) ∗ (bLoc d main_arg4 ↦{fullShare} mT m d main_arg4) ∗ (bLoc d main_v6 ↦{fullShare} V6c m d)) -∗ Q ⟨⟩))
      ⊢ wp frame (wpE ((K (F := F)).defs (D (F := F))) 𝒱 (SparseCore.T d) none) Set.univ
          (hlo rfl (StableHlo.reshape main_arg4 main_v6 rfl shapeCasts_S128_S1x128) (fun _ => .ret ⟨⟩)) Q :=
  host_reshape_step (valOf m d) d main_arg4 main_v6 (by decide) rfl shapeCasts_S128_S1x128 ⟨by decide, rfl⟩ ⟨by decide, rfl⟩ (mT m d main_arg4) a Q

/-- `%7`: the second weight matrix transposed. -/
theorem host_v7 (d : Dev nD) (a : Buf (Elt F) (bLoc d main_v7)) (Q : PUnit → sProp 𝕄) :
    iprop(boundary (SparseCore.T d) ∗ (bLoc d main_arg5 ↦{fullShare} mT m d main_arg5) ∗ (bLoc d main_v7 ↦{fullShare} a)
        ∗ (iprop(boundary (SparseCore.T d) ∗ (bLoc d main_arg5 ↦{fullShare} mT m d main_arg5) ∗ (bLoc d main_v7 ↦{fullShare} V7c m d)) -∗ Q ⟨⟩))
      ⊢ wp frame (wpE ((K (F := F)).defs (D (F := F))) 𝒱 (SparseCore.T d) none) Set.univ
          (hlo rfl (StableHlo.unary main_arg5 main_v7 ((transpose S128x2 [1, 0] · transposes_S2x128_S128x2_1_0) : (⟨S2x128, .f32⟩ : BufTy).Contents (Elt F) → (⟨S128x2, .f32⟩ : BufTy).Contents (Elt F))) (fun _ => .ret ⟨⟩)) Q :=
  host_unary_step (valOf m d) d main_arg5 main_v7 (by decide)
    ((transpose S128x2 [1, 0] · transposes_S2x128_S128x2_1_0) : (⟨S2x128, .f32⟩ : BufTy).Contents (Elt F) → (⟨S128x2, .f32⟩ : BufTy).Contents (Elt F))
    ⟨by decide, rfl⟩ ⟨by decide, rfl⟩ (mT m d main_arg5) a Q

/-- `%8`: the second bias vector as a one-row matrix. -/
theorem host_v8 (d : Dev nD) (a : Buf (Elt F) (bLoc d main_v8)) (Q : PUnit → sProp 𝕄) :
    iprop(boundary (SparseCore.T d) ∗ (bLoc d main_arg6 ↦{fullShare} mT m d main_arg6) ∗ (bLoc d main_v8 ↦{fullShare} a)
        ∗ (iprop(boundary (SparseCore.T d) ∗ (bLoc d main_arg6 ↦{fullShare} mT m d main_arg6) ∗ (bLoc d main_v8 ↦{fullShare} V8c m d)) -∗ Q ⟨⟩))
      ⊢ wp frame (wpE ((K (F := F)).defs (D (F := F))) 𝒱 (SparseCore.T d) none) Set.univ
          (hlo rfl (StableHlo.reshape main_arg6 main_v8 rfl shapeCasts_S2_S1x2) (fun _ => .ret ⟨⟩)) Q :=
  host_reshape_step (valOf m d) d main_arg6 main_v8 (by decide) rfl shapeCasts_S2_S1x2 ⟨by decide, rfl⟩ ⟨by decide, rfl⟩ (mT m d main_arg6) a Q

end Cert.Proof.KI

end
-- ==== Proof.KIStep0.lean ====
/-
  The step of pipeline 0 inside @main: the custom call of the index-layout region, run on the TensorCore from the
  transposed indices and the padded-index array at its launch contents, leaves the padded-index array at the region's
  final contents. The region's record for the segment rule: its two arrays enter as explicit points-tos, the scoped
  buffers that are no staging buffer of the region ride in the invariant, the core owes the start signal of the
  SparseCore call throughout (at a call's index, so the region's own waits at index `none` are admissible), and the
  pairs its waits record stay within the bound the handshake state asks.
-/
import proofs.«207435_g27118423507386_cont_sun_m_668_27_alg».proof.Proof.KIRdats
import Idealize.ShloMosaic.Lib.Pipeline.Regions
import Idealize.ShloMosaic.Lib.SparseCore.Threads

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

theorem spec0_eq : (cfg0.spec : Fin cfg0.W → Pipeline.WinSpec sig cfg0.grid.rank) = (Pipeline.pin (pcfgs (F := F)) adm 0).spec := rfl

theorem Phi0_raw (c : Dev nD) (t) : (rdats (F := F) m O4 0 c).Φ t
    = Pipeline.scopedRest (Ix := HIx 1) (Name := ℕ) (U := UU) (Lvl := ℕ) (Val := Elt F) cfg0.spec c := rfl

/-- The region's invariant: the core's scoped buffers that are no staging buffer of the region. -/
theorem Phi0_eq (c : Dev nD) (t) : (rdats (F := F) m O4 0 c).Φ t
    = (Pipeline.scopedRest (Ix := HIx 1) (Name := ℕ) (U := UU) (Lvl := ℕ) (Val := Elt F) (Pipeline.pin (pcfgs (F := F)) adm 0).spec c : sProp 𝕄) := by
  rw [Phi0_raw]
  exact congrArg (fun s => Pipeline.scopedRest (Ix := HIx 1) (Name := ℕ) (U := UU) (Lvl := ℕ) (Val := Elt F) s c) (spec0_eq (F := F))

/-- The region's two arrays at contents `Fa`: the transposed indices and the padded-index array, each whole. -/
theorem arrays0_eq (c : Dev nD) (Fa) :
    ((rdats (F := F) m O4 0 c).arrays Fa : sProp 𝕄) = iprop((bLoc c main_v0 ↦{fullShare} Fa 0) ∗ (bLoc c main_v1 ↦{fullShare} Fa 1)) := by
  rw [Pipeline.RDat.arrays_eq (pcfgs (F := F)) adm (rdats m O4) 0 c launch0.arr_whole ((rdats m O4 0 c).share_full fun _ => rfl) Fa, bigSep_W0]
  rfl

set_option backward.isDefEq.respectTransparency.types false in
/-- The region's record. -/
def reg0 : Pipeline.RDat.RegionSeg (pcfgs (F := F)) adm (rdats m O4) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 c (A0 m c) ((K (F := F)).Otc c 0) (RcOf (F := F) c 0)).loose.toR
  hwaits c := Pipeline.RDat.cellsWaits_intro (Pipeline.pin (pcfgs (F := F)) adm) (rdats m O4) (none : HIx 1) 0 c
    fun w s t => (K (F := F)).mayWait_none _ (Otc_none c 0)
  pre d := iprop((bLoc d main_v0 ↦{fullShare} V0c m d) ∗ (bLoc d main_v1 ↦{fullShare} mT m d main_v1) ∗ owesP d 0)
  post d := iprop((bLoc d main_v0 ↦{fullShare} V0c m d) ∗ (iLoc d ↦{fullShare} I1 m d) ∗ owesP d 0)
  X _ := iprop(emp)
  Y _ := iprop(emp)
  Z _ := iprop(emp)
  hentry c := by
    rw [Pipeline.ownSems0_none, arrays0_eq]
    iintro ⟨⟨H0, H1, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.RDat.owesAt Pipeline.owesWithin owesP
      icases HO with ⟨%W, %hW, HO⟩
      iexists W; isplitr
      · ipureintro; exact fun p hp => Or.inl (mem_RcOf_of_wBelow c 0 W hW p hp)
      iexact HO
    isplitr <;> iempintro
  hin c := by
    rw [Phi0_eq m O4 c 0]
    iintro ⟨-, -, Hr⟩; iexact Hr
  hout c := by
    rw [Pipeline.ownSems0_none, Phi0_eq m O4 c (Fin.last _)]
    iintro Hr
    isplitr; · iempintro
    isplitr; · iempintro
    iexact Hr
  hexit c := by
    have e : (rdats (F := F) m O4 0 c).arraysAt (Pipeline.pin (pcfgs (F := F)) adm 0).N
        = ((rdats (F := F) m O4 0 c).arrays (fun w => (dat0 c (A0 m c) ((K (F := F)).Otc c 0) (RcOf (F := F) c 0)).arrAt w cfg0.N) : sProp 𝕄) :=
      (dat0 c (A0 m c) ((K (F := F)).Otc c 0) (RcOf (F := F) c 0)).toR_arraysAt_eq _
    rw [e, arrays0_eq, arr0_in]
    iintro ⟨⟨H0, H1⟩, HO, -, -⟩
    imodintro
    isplitl [H0]; · iexact H0
    isplitl [H1]; · iexact H1
    unfold Pipeline.RDat.owesAt Pipeline.owesWithin owesP
    icases HO with ⟨%W, %hW, HO⟩
    iexists W; isplitr
    · ipureintro
      refine wBelow_of_sub c 0 W fun p hp => ?_
      rcases hW hp with h | ⟨w, s, h⟩
      · exact Or.inl h
      · exact Or.inr (by rw [h])
    iexact HO

theorem reg0_pre (d : Dev nD) : (reg0 (F := F) m O4).pre d
    = iprop((bLoc d main_v0 ↦{fullShare} V0c m d) ∗ (bLoc d main_v1 ↦{fullShare} mT m d main_v1) ∗ owesP d 0) := rfl
theorem reg0_post (d : Dev nD) : (reg0 (F := F) m O4).post d
    = iprop((bLoc d main_v0 ↦{fullShare} V0c m d) ∗ (iLoc d ↦{fullShare} I1 m d) ∗ owesP d 0) := rfl

include O4 in
set_option backward.isDefEq.respectTransparency.types false in
/-- The step of pipeline 0 inside @main, for the family of region data at any pooled rows `O4`. -/
theorem region0_step_at : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1 m d) ∗ owesP d 0) -∗ Q ⟨⟩))
        ⊢ wp frame (wpE ((K (F := F)).defs (D (F := F))) 𝒱 (SparseCore.T d) none) Set.univ (Prog.lift (.customCall (SparseCore.inner (Pipeline.entry 0)) ())) Q := by
  intro d Q
  let p : Prog (TpuEff nD τ sig (Elt F) (ΛP (F := F)) .tc) PUnit := .op (.customCall (Pipeline.entry 0) ()) (fun _ => .ret ⟨⟩)
  have h1 : wp frame (wpE (D (F := F)) 𝒱 (SparseCore.T d) none) Set.univ p Q
      ⊢ wp frame (wpE ((K (F := F)).defs (D (F := F))) 𝒱 (SparseCore.T d) none) Set.univ (SparseCore.liftProg p) Q :=
    (K (F := F)).wp_liftProg (D (F := F)) 𝒱 (SparseCore.T d) Set.univ none p Q
  have e : (Prog.lift (.customCall (SparseCore.inner (Pipeline.entry 0)) ()) : Prog (TpuEff nD τ sig (Elt F) (SparseCore.Sig (ΛP (F := F)) 1) .tc) PUnit) = SparseCore.liftProg p := rfl
  rw [e]
  refine BIBase.Entails.trans ?_ h1
  have h2 := Pipeline.RDat.RegionSeg.wp (pcfgs (F := F)) adm (rdats m O4) (none : HIx 1) cellOf_inj EP defs₀ 𝒱₀ (K (F := F)).L (K (F := F)).lev (reg0 m O4) d none (by simp) (fun _ => .ret ⟨⟩) Q
  refine BIBase.Entails.trans ?_ h2
  rw [reg0_pre, reg0_post]
  iintro ⟨HL, Hb, H0, H1, HO, ⟨Hg, Ht⟩, HQ⟩
  isplitl [HQ]
  · iintro ⟨Hb, H0, H1, HO⟩
    rw [wp_ret]; imodintro
    iapply HQ
    isplitl [Hb]; · iexact Hb
    isplitl [H0]; · iexact H0
    isplitl [H1]; · iexact H1
    iexact HO
  isplitl [Hb]; · iexact Hb
  isplitl [H0 H1 HO]
  · isplitl [H0]; · iexact H0
    isplitl [H1]; · iexact H1
    iexact HO
  isplitl [HL]; · iexact HL
  isplitl [Hg]; · iexact Hg
  iexact Ht

/-- The same with no mention of the pooled rows: region 0 does not touch them. -/
theorem region0_step : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1 m d) ∗ owesP d 0) -∗ Q ⟨⟩))
        ⊢ wp frame (wpE ((K (F := F)).defs (D (F := F))) 𝒱 (SparseCore.T d) none) Set.univ (Prog.lift (.customCall (SparseCore.inner (Pipeline.entry 0)) ())) Q :=
  region0_step_at m (fun d => m (oLoc d))

end Cert.Proof.KI

end
-- ==== Proof.KIStep1.lean ====
/-
  The table-packing region as a step of @main on a device's TensorCore: entered holding the transposed table and the
  packed table's buffer whole and owing the first call's start signal, the region's custom call runs to the transposed
  table's buffer held at some contents, the packed table's buffer held at contents that are the packing of the
  transposed table wherever the source column lies inside the table, and the same debt.
-/
import proofs.«207435_g27118423507386_cont_sun_m_668_27_alg».proof.Proof.KIRdats
import Idealize.ShloMosaic.Lib.Pipeline.Regions
import Idealize.ShloMosaic.Lib.SparseCore.Threads

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

/-- What the region is entered from: the transposed table and the packed table's buffer, whole, and the debt. -/
def pre1 (d : Dev nD) : sProp 𝕄 :=
  iprop((bLoc d main_v2 ↦{fullShare} V2c m d) ∗ (bLoc d main_v3 ↦{fullShare} mT m d main_v3) ∗ owesP d 0)
/-- What it leaves: the two buffers, the packed table's at contents packed wherever determined, and the debt. -/
def post1 (d : Dev nD) : sProp 𝕄 :=
  iprop((∃ a2, (bLoc d main_v2 ↦{fullShare} a2)) ∗ (∃ Tb, ⌜TabOKm m d Tb⌝ ∗ tLoc d ↦{fullShare} Tb) ∗ owesP d 0)

theorem share1 (c : Dev nD) (w : Fin 2) : (rdats m O4 1 c).share w = fullShare :=
  (rdats m O4 1 c).share_full (fun _ => rfl) w

/-- The region's windows, as the pipeline's configuration and as the pinned one name them. -/
theorem spec1_eq : (cfg1.spec : Fin cfg1.W → Pipeline.WinSpec sig cfg1.grid.rank) = (Pipeline.pin (pcfgs (F := F)) adm 1).spec := rfl

theorem Phi1_raw (c : Dev nD) (t) : (rdats m O4 1 c).Φ t = Pipeline.scopedRest (Ix := HIx 1) (Name := ℕ) (U := UU) (Lvl := ℕ) (Val := Elt F) cfg1.spec c := rfl

/-- The region's invariant: the core's scoped buffers that are no staging buffer of the region. -/
theorem Phi1_eq (c : Dev nD) (t) : (rdats m O4 1 c).Φ t
    = Pipeline.scopedRest (Ix := HIx 1) (Name := ℕ) (U := UU) (Lvl := ℕ) (Val := Elt F) (Pipeline.pin (pcfgs (F := F)) adm 1).spec c := by
  rw [Phi1_raw]
  exact congrArg (fun s => Pipeline.scopedRest (Ix := HIx 1) (Name := ℕ) (U := UU) (Lvl := ℕ) (Val := Elt F) s c) (spec1_eq (F := F))

set_option backward.isDefEq.respectTransparency.types false in
/-- The region's record. -/
def reg1 : Pipeline.RDat.RegionSeg (pcfgs (F := F)) adm (rdats m O4) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := body_obligation1 c (A1 m c) ((K (F := F)).Otc c 0) (RcOf (F := F) c 0)
  hwaits c := Pipeline.RDat.cellsWaits_intro (Pipeline.pin (pcfgs (F := F)) adm) (rdats m O4) (none : HIx 1) 1 c
    fun w s t => (K (F := F)).mayWait_none _ (Otc_none c 0)
  pre := pre1 m
  post := post1 m
  X _ := iprop(emp)
  Y _ := iprop(emp)
  Z _ := iprop(emp)
  hentry c := by
    rw [Pipeline.ownSems0_none]
    unfold pre1
    iintro ⟨⟨H2, H3, HO⟩, -, -⟩
    imodintro
    isplitl [H2 H3]
    · rw [Pipeline.RDat.arrays_eq (pcfgs (F := F)) adm (rdats m O4) 1 c launch1.arr_whole (share1 m O4 c), bigSep_W1]
      isplitl [H2]; · iexact H2
      iexact H3
    isplitr; · unfold Pipeline.prefHeld; rw [show (Finset.univ : Finset (Fin 0)) = ∅ from rfl, BI.bigSep_empty]; iempintro
    isplitl [HO]
    · unfold owesP
      icases HO with ⟨%W, %hW, HO⟩
      iexists W; isplitr
      · ipureintro; exact fun p hp => Or.inl (mem_RcOf_of_wBelow c 0 W hW p (Finset.mem_coe.mp hp))
      iexact HO
    isplitr <;> iempintro
  hin c := by
    rw [Phi1_eq m O4 c 0]
    iintro ⟨-, -, H⟩; iexact H
  hout c := by
    rw [Pipeline.ownSems0_none, Phi1_eq m O4 c (Fin.last _)]
    iintro H
    isplitr; · iempintro
    isplitr; · iempintro
    iexact H
  hexit c := by
    have ha : ∀ w : Fin 2, ((Pipeline.pin (pcfgs (F := F)) adm 1).win w).arr.IsWhole := launch1.arr_whole
    unfold Pipeline.RDat.arraysAt post1
    rw [bigSep_W1, (ha 0).set_eq_univ, (ha 1).set_eq_univ, share1 m O4 c 0, share1 m O4 c 1]
    iintro ⟨⟨⟨%a2, %h2, H2⟩, ⟨%Tb, %h3, H3⟩⟩, HO, -, -⟩
    imodintro
    isplitl [H2]; · iexists a2; iexact H2
    isplitl [H3]
    · iexists Tb; isplitr
      · ipureintro; exact fun r h e hv => arr1_out_apply c (A1 m c) _ _ Tb h3 r h e hv
      iexact H3
    icases HO with ⟨%W, %hW, HO⟩
    unfold owesP
    iexists W; isplitr
    · ipureintro
      refine wBelow_of_sub c 0 W fun p hp => ?_
      rcases hW (Finset.mem_coe.mpr hp) with h | ⟨w, s, rfl⟩
      · exact Or.inl h
      · exact Or.inr rfl
    iexact HO

include O4 in
set_option backward.isDefEq.respectTransparency.types false in
/-- The region as a step of @main on device `d`'s TensorCore. -/
theorem region1_step : ∀ (d : Dev nD) (Q : PUnit → sProp 𝕄),
      iprop(levAts (K (F := F)).L (K (F := F)).lev ∗ boundary (SparseCore.T d) ∗ (bLoc d main_v2 ↦{fullShare} V2c m d) ∗ (bLoc d main_v3 ↦{fullShare} mT m d main_v3) ∗ owesP d 0 ∗ ghostP 1 d
          ∗ (iprop(boundary (SparseCore.T d) ∗ (∃ a2, (bLoc d main_v2 ↦{fullShare} a2)) ∗ (∃ Tb, ⌜TabOKm m d Tb⌝ ∗ tLoc d ↦{fullShare} Tb) ∗ owesP d 0) -∗ Q ⟨⟩))
        ⊢ wp frame (wpE ((K (F := F)).defs (D (F := F))) 𝒱 (SparseCore.T d) none) Set.univ (Prog.lift (.customCall (SparseCore.inner (Pipeline.entry 1)) ())) Q := by
  intro d Q
  have hl := (K (F := F)).wp_liftProg (D (F := F)) 𝒱 (SparseCore.T d) Set.univ none
    (.op (.customCall (Pipeline.entry 1) ()) fun _ => .ret ⟨⟩) Q
  refine BI.Entails.trans ?_ hl
  have hr := Pipeline.RDat.RegionSeg.wp (pcfgs (F := F)) adm (rdats m O4) (none : HIx 1) cellOf_inj EP defs₀ 𝒱₀ (K (F := F)).L (K (F := F)).lev
    (reg1 m O4) d none (by simp) (fun _ => .ret ⟨⟩) Q
  refine BI.Entails.trans ?_ hr
  show _ ⊢ iprop((iprop(boundary (SparseCore.T d) ∗ post1 m d) -∗ _) ∗ boundary (SparseCore.T d) ∗ pre1 m d ∗ _ ∗ _ ∗ _)
  unfold pre1 post1
  iintro ⟨Hlev, Hb, H2, H3, HO, ⟨Hg, Ht⟩, Hk⟩
  isplitl [Hk]
  · iintro ⟨Hb, Hp⟩
    rw [wp_ret]
    imodintro
    iapply Hk
    isplitl [Hb]; · iexact Hb
    iexact Hp
  isplitl [Hb]; · iexact Hb
  isplitl [H2 H3 HO]
  · isplitl [H2]; · iexact H2
    isplitl [H3]; · iexact H3
    iexact HO
  isplitl [Hlev]; · iexact Hlev
  isplitl [Hg]; · iexact Hg
  iexact Ht

end Cert.Proof.KI

end
-- ==== Proof.KIStep3.lean ====
/-
  The third pipelined region of @main (the perceptron) as one step of the TensorCore's program: from the region's six
  arrays held whole at the contents the run has left in them, the core's debt of launch handshakes and the region's share
  of the launch's ghost state, the custom call runs to the result array at the perceptron's value of the five inputs, the
  debt unchanged.
-/
import proofs.«207435_g27118423507386_cont_sun_m_668_27_alg».proof.Proof.KIRdats
import Idealize.ShloMosaic.Lib.Pipeline.Regions
import Idealize.ShloMosaic.Lib.SparseCore.Threads

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

/-- The region's arrays as the step holds them: the pooled rows, the four re-laid weights, the result at its launch contents. -/
abbrev arrs3 (d : Dev nD) : sProp 𝕄 :=
  iprop((oLoc d ↦{fullShare} O4 d) ∗ (bLoc d main_v5 ↦{fullShare} V5c m d) ∗ (bLoc d main_v6 ↦{fullShare} V6c m d) ∗ (bLoc d main_v7 ↦{fullShare} V7c m d)
    ∗ (bLoc d main_v8 ↦{fullShare} V8c m d) ∗ (bLoc d main_v9 ↦{fullShare} mT m d main_v9))

/-- The region's six arrays at contents `Fa`, one by one. -/
theorem arrays3_eq (c : Dev nD) (Fa) : ((rdats m O4 2 c).arrays Fa : sProp 𝕄)
    = iprop((oLoc c ↦{fullShare} Fa 0) ∗ (bLoc c main_v5 ↦{fullShare} Fa 1) ∗ (bLoc c main_v6 ↦{fullShare} Fa 2) ∗ (bLoc c main_v7 ↦{fullShare} Fa 3)
      ∗ (bLoc c main_v8 ↦{fullShare} Fa 4) ∗ (bLoc c main_v9 ↦{fullShare} Fa 5)) := by
  rw [Pipeline.RDat.arrays_eq (pcfgs (F := F)) adm (rdats m O4) 2 c launch3.arr_whole ((rdats m O4 2 c).share_full fun _ => rfl) Fa, bigSep_W3]
  rfl

/-- The region's invariant at every point: the core's scoped buffers that are no staging buffer of this pipeline. -/
theorem Φ3_eq (c : Dev nD) (t : Fin ((Pipeline.pin (pcfgs (F := F)) adm 2).N + 1)) :
    (rdats m O4 2 c).Φ t = (Pipeline.scopedRest (Pipeline.pin (pcfgs (F := F)) adm 2).spec c : sProp 𝕄) :=
  (show (rdats m O4 2 c).Φ t = (dat3 c (A3 m O4 c) ((K (F := F)).Otc c 1) (RcOf (F := F) c 1)).Φ t from rfl).trans
    ((show (dat3 c (A3 m O4 c) ((K (F := F)).Otc c 1) (RcOf (F := F) c 1)).Φ t = (Pipeline.scopedRest spec3 c : sProp 𝕄) from rfl).trans
      (show (Pipeline.scopedRest spec3 c : sProp 𝕄) = Pipeline.scopedRest (Pipeline.pin (pcfgs (F := F)) adm 2).spec c from rfl))

set_option backward.isDefEq.respectTransparency.types false in
def reg3 : Pipeline.RDat.RegionSeg (pcfgs (F := F)) adm (rdats m O4) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 c (A3 m O4 c) ((K (F := F)).Otc c 1) (RcOf (F := F) c 1)).toR
  hwaits c := Pipeline.RDat.cellsWaits_intro (Pipeline.pin (pcfgs (F := F)) adm) (rdats m O4) none 2 c
    fun _ _ _ => (K (F := F)).mayWait_none _ (Otc_none c 1)
  pre d := iprop(arrs3 m O4 d ∗ owesP d 1)
  post d := iprop((bLoc d main_v9 ↦{fullShare} R9 m O4 d) ∗ owesP d 1)
  X _ := iprop(emp)
  Y _ := iprop(emp)
  Z _ := iprop(emp)
  hentry c := by
    rw [Pipeline.ownSems0_none, arrays3_eq]
    iintro ⟨⟨⟨H4, H5, H6, H7, H8, H9⟩, HO⟩, -, -⟩
    imodintro
    isplitl [H4 H5 H6 H7 H8 H9]
    · isplitl [H4]; · iexact H4
      isplitl [H5]; · iexact H5
      isplitl [H6]; · iexact H6
      isplitl [H7]; · iexact H7
      isplitl [H8]; · iexact H8
      iexact H9
    isplitr; · unfold Pipeline.prefHeld; rw [show (Finset.univ : Finset (Fin 0)) = ∅ from rfl, BI.bigSep_empty]; iempintro
    isplitl [HO]
    · unfold owesP
      icases HO with ⟨%W, %hW, HO⟩
      iexists W; isplitr; · ipureintro; exact fun p hp => Or.inl (mem_RcOf_of_wBelow c 1 W hW p (Finset.mem_coe.mp hp))
      iexact HO
    isplitr <;> iempintro
  hin c := by
    rw [Φ3_eq]
    iintro ⟨-, -, H⟩; iexact H
  hout c := by
    rw [Pipeline.ownSems0_none, Φ3_eq]
    iintro H; isplitr; · iempintro
    isplitr; · iempintro
    iexact H
  hexit c := by
    rw [show (rdats m O4 2 c).arraysAt (Pipeline.pin (pcfgs (F := F)) adm 2).N = (rdats m O4 2 c).arrays (fun w => (dat3 c (A3 m O4 c) ((K (F := F)).Otc c 1) (RcOf (F := F) c 1)).arrAt w cfg3.N)
      from (dat3 c (A3 m O4 c) ((K (F := F)).Otc c 1) (RcOf (F := F) c 1)).toR_arraysAt_eq cfg3.N, arrays3_eq]
    iintro ⟨⟨-, -, -, -, -, H9⟩, HO, -, -⟩
    imodintro
    isplitl [H9]; · iexact H9
    unfold owesP
    icases HO with ⟨%W, %hW, HO⟩
    iexists W; isplitr; swap; · iexact HO
    ipureintro
    refine wBelow_of_sub c 1 W fun p hp => ?_
    rcases hW (Finset.mem_coe.mpr hp) with h | ⟨w, s, rfl⟩
    · exact Or.inl h
    · exact Or.inr rfl

set_option backward.isDefEq.respectTransparency.types false in
/-- THE STEP: the custom call of the third pipeline, as @main prints it, from its six arrays, the debt and the ghost
    state to the result array at the perceptron's value, the debt as it was. -/
theorem region3_step : ∀ (d : Dev nD) (Q : PUnit → sProp 𝕄),
      iprop(levAts (K (F := F)).L (K (F := F)).lev ∗ boundary (SparseCore.T d) ∗ (oLoc d ↦{fullShare} O4 d) ∗ (bLoc d main_v5 ↦{fullShare} V5c m d) ∗ (bLoc d main_v6 ↦{fullShare} V6c m d) ∗ (bLoc d main_v7 ↦{fullShare} V7c m d) ∗ (bLoc d main_v8 ↦{fullShare} V8c m d) ∗ (bLoc d main_v9 ↦{fullShare} mT m d main_v9) ∗ owesP d 1 ∗ ghostP 2 d
          ∗ (iprop(boundary (SparseCore.T d) ∗ (bLoc d main_v9 ↦{fullShare} R9 m O4 d) ∗ owesP d 1) -∗ Q ⟨⟩))
        ⊢ wp frame (wpE ((K (F := F)).defs (D (F := F))) 𝒱 (SparseCore.T d) none) Set.univ (Prog.lift (.customCall (SparseCore.inner (Pipeline.entry 2)) ())) Q := by
  intro d Q
  iintro ⟨HL, Hb, H4, H5, H6, H7, H8, H9, HO, ⟨Hg, Ht⟩, Hk⟩
  iapply ((K (F := F)).wp_liftProg (D (F := F)) 𝒱 (SparseCore.T d) Set.univ none (.op (.customCall (Pipeline.entry 2) ()) fun _ => .ret ⟨⟩) Q)
  have hwp := Pipeline.RDat.RegionSeg.wp (pcfgs (F := F)) adm (rdats m O4) (none : HIx 1) cellOf_inj EP defs₀ 𝒱₀ (K (F := F)).L (K (F := F)).lev
    (reg3 m O4) d none (by simp) (fun _ => .ret ⟨⟩) Q
  rw [show (reg3 m O4).post d = iprop((bLoc d main_v9 ↦{fullShare} R9 m O4 d) ∗ owesP d 1) from rfl,
    show (reg3 m O4).pre d = iprop(arrs3 m O4 d ∗ owesP d 1) from rfl] at hwp
  iapply hwp
  isplitl [Hk]
  · iintro ⟨Hb, H9, HO⟩
    rw [wp_ret]
    imodintro
    iapply Hk
    isplitl [Hb]; · iexact Hb
    isplitl [H9]; · iexact H9
    iexact HO
  isplitl [Hb]; · iexact Hb
  isplitl [H4 H5 H6 H7 H8 H9 HO]
  · isplitr [HO]; swap; · iexact HO
    isplitl [H4]; · iexact H4
    isplitl [H5]; · iexact H5
    isplitl [H6]; · iexact H6
    isplitl [H7]; · iexact H7
    isplitl [H8]; · iexact H8
    iexact H9
  isplitl [HL]; · iexact HL
  isplitl [Hg]; · iexact Hg
  iexact Ht

end Cert.Proof.KI

end
-- ==== Proof.KII1.lean ====
/-
  The padded indices after the first region, entry by entry: row `b` holds the bag's first hundred indices, twelve
  zeros, its second hundred, twelve zeros. With every index of the bags in `[0, 999999]`, so is every word of it.
-/
import proofs.«207435_g27118423507386_cont_sun_m_668_27_alg».proof.Proof.KIRdats
import Idealize.ShloMosaic.Lib.ValueLayout

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ
open Idealize.ShloMosaic.ValueIdx

variable [∀ e, Nonempty (Elt F e)] (m : (ℓ : Loc nD τ sig) → Buf (Elt F) ℓ)

theorem V0c_apply (d : Dev nD) (j : Fin 200) (b : Fin 4096) : V0c m d (ix2 j b) = mT m d main_arg0 (ix2 b j) := by
  unfold V0c; exact transpose_ix2_apply _ _ _ _

theorem I1_apply (d : Dev nD) (b : Fin 4096) (col : Fin 224) :
    I1 m d (ix2 b col) =
      if h : col.val < 100 then mT m d main_arg0 (ix2 b ⟨col.val, by omega⟩)
      else if col.val < 112 then (0#32 : BitVec 32)
      else if h2 : col.val < 212 then mT m d main_arg0 (ix2 b ⟨col.val - 12, by omega⟩)
      else (0#32 : BitVec 32) := by
  unfold I1
  rw [arr0_out_apply]
  simp only [show A0 m d 0 = V0c m d from rfl, V0c_apply]

theorem toNat_le_of_toInt (w : BitVec 32) (h0 : 0 ≤ w.toInt) (h1 : w.toInt ≤ 999999) : w.toNat ≤ 999999 := by
  have := w.isLt
  rw [BitVec.toInt_eq_toNat_cond] at h0 h1
  split at h0 <;> omega

theorem I1_le (hidx : ∀ d i, 0 ≤ (mT m d main_arg0 i).toInt ∧ (mT m d main_arg0 i).toInt ≤ 999999) (d : Dev nD) (i : S4096x224.Idx) :
    (I1 m d i).toNat ≤ 999999 := by
  obtain ⟨b, col, rfl⟩ : ∃ (b : Fin 4096) (col : Fin 224), i = ix2 b col := ⟨i 0, i 1, eq_ix2 i⟩
  rw [I1_apply]
  split_ifs
  · exact toNat_le_of_toInt _ (hidx d _).1 (hidx d _).2
  · decide
  · exact toNat_le_of_toInt _ (hidx d _).1 (hidx d _).2
  · decide

end Cert.Proof.KI

end
-- ==== Proof.KISteps.lean ====
/-
  @main's steps at this program's contents, and its frame. The last region is entered at whatever pooled rows the
  SparseCore call left (its step holds at every contents of `%4`); so the frame — termination with the arguments
  unchanged — needs of the subcores' tasks only that they terminate and hand their rows back.
-/
import proofs.«207435_g27118423507386_cont_sun_m_668_27_alg».proof.Proof.KILaunchE
import proofs.«207435_g27118423507386_cont_sun_m_668_27_alg».proof.Proof.KILaunchG
import proofs.«207435_g27118423507386_cont_sun_m_668_27_alg».proof.Proof.KIRdats
import proofs.«207435_g27118423507386_cont_sun_m_668_27_alg».proof.Proof.KIHost
import proofs.«207435_g27118423507386_cont_sun_m_668_27_alg».proof.Proof.KIStep0
import proofs.«207435_g27118423507386_cont_sun_m_668_27_alg».proof.Proof.KIStep1
import proofs.«207435_g27118423507386_cont_sun_m_668_27_alg».proof.Proof.KIStep3
import proofs.«207435_g27118423507386_cont_sun_m_668_27_alg».proof.Proof.KII1

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable [∀ e, Nonempty (Elt F e)] (m : (ℓ : Loc nD τ sig) → Buf (Elt F) ℓ) (ρ : Dev nD → PrngReg)

/-- The pooled rows' array at `g` on device `d` (elsewhere at its launch contents). -/
def O4u (d : Dev nD) (g : Buf (Elt F) (oLoc d)) : (d' : Dev nD) → Buf (Elt F) (oLoc d') :=
  Function.update (fun d' => mT m d' main_v4) d g
theorem O4u_self (d : Dev nD) (g : Buf (Elt F) (oLoc d)) : O4u m d g d = g := Function.update_self ..

/-- The last region's result as a function of the pooled rows it finds. -/
def R9f (d : Dev nD) (g : Buf (Elt F) (oLoc d)) : Buf (Elt F) (bLoc d main_v9) := R9 m (O4u m d g) d

theorem steps : Steps (F := F) m (I1 m) (R9f m) (TabOKm m) where
  v0 := host_v0 m
  v2 := host_v2 m
  v5 := host_v5 m
  v6 := host_v6 m
  v7 := host_v7 m
  v8 := host_v8 m
  r0 := region0_step m
  r1 := region1_step m (fun d' => mT m d' main_v4)
  r3 := fun d g Q => by
    have h := region3_step m (O4u m d g) d Q
    rw [O4u_self] at h
    exact h

/-- The frame, at any float instance: from any memory whose index words lie in `[0, 999999]`, every weakly fair
    execution terminates with the seven arguments unchanged. -/
theorem run_frame_gen (hidx : ∀ d i, 0 ≤ (mT m d main_arg0 i).toInt ∧ (mT m d main_arg0 i).toInt ≤ 999999) :
    θ_run (Cert.KernelIdeal.defs (F := F)) (Cert.KernelIdeal.threads (F := F)) ⟨m, fun _ => 0, ρ⟩ (fun r => ∀ c : Dev nD,
      r.2.mem (bLoc c main_arg0) = mT m c main_arg0
      ∧ r.2.mem (bLoc c main_arg1) = mT m c main_arg1
      ∧ r.2.mem (bLoc c main_arg2) = mT m c main_arg2
      ∧ r.2.mem (bLoc c main_arg3) = mT m c main_arg3
      ∧ r.2.mem (bLoc c main_arg4) = mT m c main_arg4
      ∧ r.2.mem (bLoc c main_arg5) = mT m c main_arg5
      ∧ r.2.mem (bLoc c main_arg6) = mT m c main_arg6) := by
  refine (θ_run (Cert.KernelIdeal.defs (F := F)) _ _).mono (fun r h c => ?_)
    (run (F := F) m ρ (I1 m) (R9f m) (TabOKm m) (fun _ _ _ => True) (steps m)
      (tileObl_frame m (I1 m) (TabOKm m) facts (I1_le m hidx)))
  obtain ⟨h0, h1, h2, h3, h4, h5, h6, -⟩ := h c
  exact ⟨h0, h1, h2, h3, h4, h5, h6⟩

end Cert.Proof.KI

end
-- ==== Proof.KITileSpec.lean ====
/-
  What a vector subcore's task computes, as a pure function of the padded indices and the packed table, generic in the
  float instance: the kernel's own fold. An index word `x` names row `((x >>> 15) <<< 14) ||| (x &&& 16383)` of the
  packed table and, within that row of 128, the 64 lanes starting at `((x >>> 14) &&& 1) * 64`; a bag's row is zero,
  plus in order the hundred rows of its first half, plus the hundred of its second half, times the named constant.
-/
import proofs.«207435_g27118423507386_cont_sun_m_668_27_alg».proof.Proof.KIShared
import Idealize.ShloMosaic.Lib.ValueIdx

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

/-- The packed table's row an index word names, and the first of its 64 lanes there. -/
def packW (x : BitVec 32) : BitVec 32 := ((x >>> 15) <<< 14) ||| (x &&& 16383#32)
def offW (x : BitVec 32) : BitVec 32 := ((x >>> 14) &&& 1#32) * 64#32

/-- The table's entry an index word and a column name (read modulo the table's extents: under the precondition the
    row is below 507904 and the lane below 128). -/
def rowVal (fT : FVec F S507904x128 .f32) (x : BitVec 32) (e : Fin 64) : F .f32 :=
  fT (ix2 ⟨(packW x).toNat % 507904, Nat.mod_lt _ (by decide)⟩ ⟨((offW x).toNat + e.val) % 128, Nat.mod_lt _ (by decide)⟩)

/-- A half bag's hundred rows added, in order, onto `acc`: the padded indices' columns `c0 … c0 + 99` of row `row`. -/
def halfFold (fI : IVec S4096x224 32) (fT : FVec F S507904x128 .f32) (row : Fin 4096) (c0 : ℕ) (hc0 : c0 + 100 ≤ 224) (e : Fin 64)
    (acc : F .f32) : F .f32 :=
  Fin.foldl 100 (fun a (j : Fin 100) => FloatOps.addf a (rowVal fT (fI (ix2 row ⟨c0 + j.val, by omega⟩)) e)) acc

/-- A bag's pooled entry: zero, plus the first half, plus the second half, times the named constant. -/
def tileAt (fI : IVec S4096x224 32) (fT : FVec F S507904x128 .f32) (row : Fin 4096) (e : Fin 64) : F .f32 :=
  FloatOps.mulf
    (halfFold fI fT row 112 (by decide) e (halfFold fI fT row 0 (by decide) e (Scalar.ofBits .f32 0x00000000#32)))
    (Named.named κ "inv_200" 0x3BA3D70A#32)

def tileFold (fI : IVec S4096x224 32) (fT : FVec F S507904x128 .f32) : FVec F S4096x64 .f32 := fun i => tileAt fI fT (i 0) (i 1)

/-- What a subcore's 128 output rows hold after its task. -/
def TileSpec (d : Dev nD) (L : grid2.Coords) (fI : Buf (Elt F) (iLoc d)) (fT : Buf (Elt F) (tLoc d)) (G : Buf (Elt F) (oLoc d)) : Prop :=
  ∀ (row : Fin 4096) (e : Fin 64), ix2 row e ∈ (outA L).view.set ∪ (outB L).view.set → G (ix2 row e) = tileAt (F := F) fI fT row e

end Cert.Proof.KI

end
-- ==== Proof.KITileValPack.lean ====
/-
  The packing stage of a subcore's task, as pure facts: the vector unit's shifts, mask and disjunction on an index
  word are the packed row number; its shift, mask and product are the lane offset; trip `k` of the packing loop reads
  the sixteen words of the subcore's index rows at flat position `16 k` (row `k / 14`, columns `16 (k % 14)` on) and
  writes their packed row numbers at the same flat position of the scratch vector; a store of sixteen words that are
  a given function of their position keeps "every word below the trip's end is that function of its position".
-/
import proofs.«207435_g27118423507386_cont_sun_m_668_27_alg».proof.Proof.KITileSpec
import proofs.«207435_g27118423507386_cont_sun_m_668_27_alg».proof.Proof.KITileArith
import proofs.«207435_g27118423507386_cont_sun_m_668_27_alg».proof.Proof.Gen.KernelIdeal.Skeleton
import Idealize.ShloMosaic.Lib.Pipeline.Value
import Idealize.ShloMosaic.Lib.Writes

noncomputable section

namespace Cert.Proof.KI

open Cert.KernelIdeal Cert.KernelIdeal.Gen
open Idealize.ShloMosaic Idealize.ShloMosaic.ValueIdx
open Idealize.SL.Sem

/-- The vector unit's packing of an index word is the packed row number. -/
theorem packI_eq (v : BitVec 32) :
    IntOp.ori (IntOp.shli .vector (IntOp.shrui .vector v 15#32) 14#32) (IntOp.andi v 16383#32) = packW v := by
  have h1 : (15#32 : BitVec 32).toNat < 32 := by decide
  have h2 : (14#32 : BitVec 32).toNat < 32 := by decide
  simp only [IntOp.ori, IntOp.shli, IntOp.shrui, IntOp.andi, h1, h2, if_true]
  rfl

/-- The vector unit's lane offset of an index word. -/
theorem offI_eq (x : BitVec 32) :
    IntOp.muli (IntOp.andi (IntOp.shrui .vector x 14#32) 1#32) 64#32 = offW x := by
  have h2 : (14#32 : BitVec 32).toNat < 32 := by decide
  simp only [IntOp.muli, IntOp.andi, IntOp.shrui, h2, if_true]
  rfl

/-- Trip `k` of the packing loop loads from row `k / 14`, column `16 (k % 14)` of the subcore's index rows. -/
theorem k2_off2_eq : ∀ k : Fin k2_t1_loop.trips, k2_off2 k = ![k.val / 14, 16 * (k.val % 14)] := by decide +kernel

section Pack

variable {F : FTy → Type} [FloatOps F] [Named F]

/-- The packed row numbers the packing loop leaves in the scratch vector, as a function of the subcore's index rows:
    flat position `j` holds the packed row number of the word at row `j / 224`, column `j % 224`. -/
def PVof (R : IVec S128x224 32) (y : S28672.Idx) : BitVec 32 :=
  packW (R (ix2 (⟨(y 0).val / 224, by have h : (y 0).val < 28672 := (y 0).isLt; omega⟩ : Fin 128)
    (⟨(y 0).val % 224, Nat.mod_lt _ (by decide)⟩ : Fin 224)))

/-- The stored words of a packing trip, from the sixteen loaded. -/
theorem k2_pay582_pay1_apply (V : Vec F S1x16 .i32) (x : S16.Idx) :
    k2_pay582 (k2_pay1 (F := F) V) x = packW (V (Fin.cons ⟨0, Nat.one_pos⟩ x)) := by
  unfold k2_pay582 k2_pay1
  rw [shapeCast_self]
  show IntOp.ori (IntOp.shli .vector (IntOp.shrui .vector (shapeCast S16 V shapeCasts_S1x16_S16 x) 15#32) 14#32)
      (IntOp.andi (shapeCast S16 V shapeCasts_S1x16_S16 x) 16383#32) = _
  rw [packI_eq, shapeCast_dropUnit_apply ![16] V shapeCasts_S1x16_S16 x]

/-- Trip `k`'s stored words: the packed row numbers of the sixteen words it loaded, at their flat positions. -/
theorem pack_trip_val (k : Fin k2_t1_loop.trips) (R : IVec S128x224 32)
    (x : (Rect.unit (s := S28672) (k2_off3 k) S16.size (k2_off3_inb k)).shape.Idx) :
    k2_pay582 (k2_pay1 (F := F) (View.ld R (Rect.unit (s := S128x224) (k2_off2 k) S1x16.size (k2_off2_inb k)))) x
      = PVof R ((Rect.unit (s := S28672) (k2_off3 k) S16.size (k2_off3_inb k)).emb x) := by
  refine (k2_pay582_pay1_apply (F := F) _ x).trans ?_
  unfold PVof
  refine congrArg packW ?_
  show R ((Rect.unit (s := S128x224) (k2_off2 k) S1x16.size (k2_off2_inb k)).idx (Fin.cons ⟨0, Nat.one_pos⟩ x)) = _
  refine congrArg R (funext fun a => Fin.ext ?_)
  match a with
  | ⟨0, _⟩ =>
    show k2_off2 k 0 + 1 * 0 = (k2_off3 k 0 + 1 * (x 0).val) / 224
    have h2 : k2_off2 k 0 = k.val / 14 := by rw [k2_off2_eq]; rfl
    have h3 : k2_off3 k 0 = 16 * k.val := by rw [k2_off3_eq]; rfl
    have hx : (x 0).val < 16 := (x 0).isLt
    omega
  | ⟨1, _⟩ =>
    show k2_off2 k 1 + 1 * (x 0).val = (k2_off3 k 0 + 1 * (x 0).val) % 224
    have h2 : k2_off2 k 1 = 16 * (k.val % 14) := by rw [k2_off2_eq]; rfl
    have h3 : k2_off3 k 0 = 16 * k.val := by rw [k2_off3_eq]; rfl
    have hx : (x 0).val < 16 := (x 0).isLt
    omega

/-- A store of sixteen words that are `PV` of their positions keeps "every word below the trip's end is `PV` of its
    position" (any view of the scratch vector). -/
theorem packed_step_val {κ : Kind} {sp : Space} (v : View sig κ sp S28672 .i32) (k : Fin k2_t1_loop.trips) (PV : S28672.Idx → BitVec 32)
    (f : v.ty.Contents (Elt F))
    (w : (Rect.unit (s := S28672) (k2_off3 k) S16.size (k2_off3_inb k)).shape.Idx → Elt F .i32)
    (hw : ∀ x, w x = PV ((Rect.unit (s := S28672) (k2_off3 k) S16.size (k2_off3_inb k)).emb x))
    (hf : ∀ y : S28672.Idx, (y 0).val < 16 * k.val → v.read (Elt F) f y = PV y) :
    ∀ y : S28672.Idx, (y 0).val < 16 * (k.val + 1) →
      v.read (Elt F) (v.writes (Elt F) f [⟨Rect.unit (s := S28672) (k2_off3 k) S16.size (k2_off3_inb k), w⟩]) y = PV y := by
  intro y hy
  by_cases hm : y ∈ (Rect.unit (s := S28672) (k2_off3 k) S16.size (k2_off3_inb k)).set
  · rw [← Rect.map_emb_univ] at hm
    obtain ⟨x, -, rfl⟩ := Finset.mem_map.mp hm
    rw [View.read_writes_cons_emb]; exact hw x
  · rw [View.read_writes_apply_of_forall_not_mem _ _ _ _ (by intro p hp; rw [List.mem_singleton.mp hp]; exact hm)]
    apply hf
    rw [Rect.mem_set_unit] at hm
    by_contra hc
    refine hm (Fin.forall_fin_one.mpr ⟨?_, ?_⟩)
    · rw [k2_off3_eq]; show 16 * k.val ≤ (y 0).val; omega
    · rw [k2_off3_eq]; show (y 0).val < 16 * k.val + 16; omega

end Pack

end Cert.Proof.KI

end
-- ==== Proof.KITileGather.lean ====
/-
  What a landed gather holds: the row buffer, overwritten whole by the gather of a hundred rows of the packed table at
  the row numbers scratch 1 lists from place `o`, reads at row `j`, lane `c` the table's entry at row
  `scratch1[o + j]`, lane `c` — whatever the buffer held before.
-/
import proofs.«207435_g27118423507386_cont_sun_m_668_27_alg».proof.Proof.KITile
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "vIW" => (Memref.whole Cert.KernelIdeal.main_v1_scv : Memref Cert.KernelIdeal.sig Kind.scVector Space.hbm Cert.KernelIdeal.S4096x224 EltTy.i32)
local notation "vTW" => (Memref.whole Cert.KernelIdeal.main_v3_scv : Memref Cert.KernelIdeal.sig Kind.scVector Space.hbm Cert.KernelIdeal.S507904x128 EltTy.f32)
local notation "vOW" => (Memref.whole Cert.KernelIdeal.main_v4_scv : Memref Cert.KernelIdeal.sig Kind.scVector Space.hbm Cert.KernelIdeal.S4096x64 EltTy.f32)
local notation "sRawW" => (Memref.whole Cert.KernelIdeal.cc2_scratch0 : Memref Cert.KernelIdeal.sig Kind.scVector Space.vmem Cert.KernelIdeal.S128x224 EltTy.i32)
local notation "sPW" => (Memref.whole Cert.KernelIdeal.cc2_scratch1 : Memref Cert.KernelIdeal.sig Kind.scVector Space.vmem Cert.KernelIdeal.S28672 EltTy.i32)
local notation "sR0W" => (Memref.whole Cert.KernelIdeal.cc2_scratch2 : Memref Cert.KernelIdeal.sig Kind.scVector Space.vmem Cert.KernelIdeal.S100x128 EltTy.f32)
local notation "sR1W" => (Memref.whole Cert.KernelIdeal.cc2_scratch3 : Memref Cert.KernelIdeal.sig Kind.scVector Space.vmem Cert.KernelIdeal.S100x128 EltTy.f32)
local notation "sR2W" => (Memref.whole Cert.KernelIdeal.cc2_scratch4 : Memref Cert.KernelIdeal.sig Kind.scVector Space.vmem Cert.KernelIdeal.S100x128 EltTy.f32)
local notation "sR3W" => (Memref.whole Cert.KernelIdeal.cc2_scratch5 : Memref Cert.KernelIdeal.sig Kind.scVector Space.vmem Cert.KernelIdeal.S100x128 EltTy.f32)
local notation "sOutW" => (Memref.whole Cert.KernelIdeal.cc2_scratch6 : Memref Cert.KernelIdeal.sig Kind.scVector Space.vmem Cert.KernelIdeal.S64x64 EltTy.f32)

section Tile

variable (d : Dev nD) (L : grid2.Coords)

theorem tile_gather_read (rM : Memref sig .scVector .vmem S100x128 .f32)
    (gprev : Buf (Elt F) (rM.view.loc (V d (cV L) (jV L)))) (fT : Buf (Elt F) (tLoc d))
    (fp : Buf (Elt F) ((sPW).view.loc (V d (cV L) (jV L))))
    (o : Fin 1 → ℕ) (h : ∀ a, o a + S100.size a ≤ S28672.size a)
    (hn : S100.numel = S100x128.size gathers_S507904x128_S100x128.axis')
    (hin : ∀ x, (((sPW).slice (Rect.unit (s := S28672) o S100.size h) (fun _ => rfl)).view.read (Elt F) fp x).toNat
      < S507904x128.size gathers_S507904x128_S100x128.axis)
    (j : Fin 100) (c : Fin 128) :
    rM.view.read (Elt F)
        (rM.view.writes (Elt F) gprev [⟨Rect.whole S100x128,
          SparseCore.gatherPayload gathers_S507904x128_S100x128 ((tblM).view.read (Elt F) fT)
            (SparseCore.rows (((sPW).slice (Rect.unit (s := S28672) o S100.size h) (fun _ => rfl)).view.read (Elt F) fp) hn hin)⟩])
        (ix2 j c)
      = fT (ix2 ⟨((sPW).view.read (Elt F) fp (ix1 ⟨(o 0 + j.val) % 28672, Nat.mod_lt _ (by decide)⟩)).toNat % 507904, Nat.mod_lt _ (by decide)⟩ c) := by
  have e := View.read_writes_cons_emb rM.view gprev (Rect.whole S100x128)
    (SparseCore.gatherPayload gathers_S507904x128_S100x128 ((tblM).view.read (Elt F) fT)
      (SparseCore.rows (((sPW).slice (Rect.unit (s := S28672) o S100.size h) (fun _ => rfl)).view.read (Elt F) fp) hn hin)) [] (ix2 j c)
  rw [Rect.emb_whole_apply] at e
  rw [e]
  unfold SparseCore.gatherPayload
  rw [show ∀ X, (tblM).view.read (Elt F) fT X = fT ((tblM).view.emb X) from fun X => (View.read_apply _ _).trans (cast_eq _ _)]
  apply congrArg fT
  funext a
  apply Fin.ext
  fin_cases a
  · -- the indexed axis: the row the list names for row `j`
    show 0 + 1 * (gathers_S507904x128_S100x128.idx (SparseCore.rows (((sPW).slice (Rect.unit (s := S28672) o S100.size h) (fun _ => rfl)).view.read (Elt F) fp) hn hin)
      (ix2 j c) gathers_S507904x128_S100x128.axis).val = _
    rw [Nat.zero_add, Nat.one_mul, Shape.Gathers.idx_axis]
    generalize hK : S100.rowMajor.symm (((ix2 j c : S100x128.Idx) gathers_S507904x128_S100x128.axis').cast hn.symm) = K
    have hK0 : (K 0).val = j.val := by
      have e1 := Shape.rowMajor_val_one (d := ![100]) K
      have e2 : S100.rowMajor K = ((ix2 j c : S100x128.Idx) gathers_S507904x128_S100x128.axis').cast hn.symm := by
        rw [← hK, Equiv.apply_symm_apply]
      rw [e2] at e1
      exact e1.symm
    show (((sPW).slice (Rect.unit (s := S28672) o S100.size h) (fun _ => rfl)).view.read (Elt F) fp (S100.rowMajor.symm (((ix2 j c : S100x128.Idx) gathers_S507904x128_S100x128.axis').cast hn.symm))).toNat = _
    rw [hK]
    have hlt := hin K
    have hidx : ((sPW).slice (Rect.unit (s := S28672) o S100.size h) (fun _ => rfl)).view.read (Elt F) fp K
        = (sPW).view.read (Elt F) fp (ix1 ⟨(o 0 + j.val) % 28672, Nat.mod_lt _ (by decide)⟩) := by
      rw [View.read_apply, View.read_apply]
      have h0 : o 0 + 100 ≤ 28672 := h 0
      have hAB : ((sPW).slice (Rect.unit (s := S28672) o S100.size h) (fun _ => rfl)).view.emb K
          = (sPW).view.emb (ix1 ⟨(o 0 + j.val) % 28672, Nat.mod_lt _ (by decide)⟩) := by
        funext a
        apply Fin.ext
        fin_cases a
        show o 0 + 1 * (K 0).val = (o 0 + j.val) % 28672
        rw [hK0, Nat.mod_eq_of_lt (by have := j.isLt; omega)]; omega
      rw [hAB]
    rw [← hidx]
    exact (Nat.mod_eq_of_lt hlt).symm
  · -- the lane: the index's own
    show 0 + 1 * (gathers_S507904x128_S100x128.idx (SparseCore.rows (((sPW).slice (Rect.unit (s := S28672) o S100.size h) (fun _ => rfl)).view.read (Elt F) fp) hn hin)
      (ix2 j c) (1 : Fin 2)).val = c.val
    rw [Nat.zero_add, Nat.one_mul, Shape.Gathers.idx_of_ne _ _ _ _ (by decide)]
    rfl

end Tile

end Cert.Proof.KI

end
-- ==== Proof.KITileAccDefs.lean ====
/-
  The values the accumulate loops carry, as pure functions of the subcore's index rows and the packed table: the fold
  of the first `n` rows of a half bag onto a start value, lane by lane.
-/
import proofs.«207435_g27118423507386_cont_sun_m_668_27_alg».proof.Proof.KITileSpec

noncomputable section

namespace Cert.Proof.KI

open Cert.KernelIdeal Cert.KernelIdeal.Gen
open Idealize.ShloMosaic Idealize.ShloMosaic.ValueIdx

variable {F : FTy → Type} [FloatOps F] [Named F]

/-- Index word `j` of unit `u` of the subcore: half `u % 2` of the subcore's bag `u / 2` (its row of the subcore's
    128 rows of padded indices), column `112 * (u % 2) + j`. Total: out of range it wraps. -/
def tileWord (R : IVec S128x224 32) (u j : ℕ) : BitVec 32 :=
  R (ix2 (⟨u / 2 % 128, Nat.mod_lt _ (by decide)⟩ : Fin 128) (⟨(112 * (u % 2) + j) % 224, Nat.mod_lt _ (by decide)⟩ : Fin 224))

/-- The first `n` rows of unit `u` added in order onto `a0`, at column `e` of the 64. -/
def tileAccV (R : IVec S128x224 32) (fT : FVec F S507904x128 .f32) (u : ℕ) (e : Fin 64) (a0 : F .f32) : ℕ → F .f32
  | 0 => a0
  | n + 1 => FloatOps.addf (tileAccV R fT u e a0 n) (rowVal fT (tileWord R u n) e)

/-- The four carried accumulators (columns 0–15, 16–31, 32–47, 48–63). -/
abbrev TileAcc (F : FTy → Type) : Type := FVec F S16 .f32 × FVec F S16 .f32 × FVec F S16 .f32 × FVec F S16 .f32

/-- Accumulator `q` of the four. -/
def tileLane (acc : TileAcc F) : Fin 4 → FVec F S16 .f32
  | 0 => acc.1 | 1 => acc.2.1 | 2 => acc.2.2.1 | 3 => acc.2.2.2

/-- The carried accumulators hold the first `n` rows of unit `u` added onto what they were (`a`) when the unit began. -/
def TileAccAt (R : IVec S128x224 32) (fT : FVec F S507904x128 .f32) (u n : ℕ) (a acc : TileAcc F) : Prop :=
  ∀ (q : Fin 4) (l : Fin 16),
    tileLane acc q (ix1 l) = tileAccV R fT u (⟨16 * q.val + l.val, by have := q.isLt; have := l.isLt; omega⟩ : Fin 64) (tileLane a q (ix1 l)) n

/-- Column `e` of the subcore's bag `b` after the first `n` rows of its half `h`: the first half from zero, the second
    from the whole first half. -/
def tileHalfV (R : IVec S128x224 32) (fT : FVec F S507904x128 .f32) (b h : ℕ) (e : Fin 64) (n : ℕ) : F .f32 :=
  if h = 0 then tileAccV R fT (2 * b) e (Scalar.ofBits .f32 0x00000000#32) n
  else tileAccV R fT (2 * b + 1) e (tileAccV R fT (2 * b) e (Scalar.ofBits .f32 0x00000000#32) 100) n

/-- The carried accumulators hold bag `b`'s sums after the first `n` rows of its half `h`. -/
def TileBagAt (R : IVec S128x224 32) (fT : FVec F S507904x128 .f32) (b h n : ℕ) (acc : TileAcc F) : Prop :=
  ∀ (q : Fin 4) (l : Fin 16),
    tileLane acc q (ix1 l) = tileHalfV R fT b h (⟨16 * q.val + l.val, by have := q.isLt; have := l.isLt; omega⟩ : Fin 64) n

/-- The pooled entry of the subcore's bag `b` at column `e`: zero, plus its first half, plus its second, times the
    named constant. -/
def tileBagV (R : IVec S128x224 32) (fT : FVec F S507904x128 .f32) (b : ℕ) (e : Fin 64) : F .f32 :=
  FloatOps.mulf (tileAccV R fT (2 * b + 1) e (tileAccV R fT (2 * b) e (Scalar.ofBits .f32 0x00000000#32) 100) 100)
    (Named.named κ "inv_200" 0x3BA3D70A#32)

/-- The staging buffer's rows below `2 * t` hold the pooled rows of the subcore's bags `boff …` (two bags a trip). -/
def TileStagedAt (R : IVec S128x224 32) (fT : FVec F S507904x128 .f32) (boff t : ℕ) (g6 : S64x64.Idx → F .f32) : Prop :=
  ∀ (r e : Fin 64), r.val < 2 * t → g6 (ix2 r e) = tileBagV R fT (boff + r.val) e

end Cert.Proof.KI

end
-- ==== Proof.KITileFinal.lean ====
/-
  The carried fold is the specification's: a half bag's hundred rows added in order onto a start value, read through
  the subcore's own rows of the padded indices, is `halfFold` at the subcore's row of the whole index array; so a staged
  row is `tileAt`.
-/
import proofs.«207435_g27118423507386_cont_sun_m_668_27_alg».proof.Proof.KITileAccDefs
import proofs.«207435_g27118423507386_cont_sun_m_668_27_alg».proof.Proof.KITile

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

/-- The recursive fold is the left fold over the first `n` rows. -/
theorem tileAccV_foldl (R : IVec S128x224 32) (fT : FVec F S507904x128 .f32) (u : ℕ) (e : Fin 64) (a : F .f32) :
    ∀ n, tileAccV R fT u e a n = Fin.foldl n (fun acc (j : Fin n) => FloatOps.addf acc (rowVal fT (tileWord R u j.val) e)) a
  | 0 => by rw [Fin.foldl_zero]; rfl
  | n + 1 => by
    rw [Fin.foldl_succ_last]
    simp only [Fin.val_last, Fin.coe_castSucc]
    rw [← tileAccV_foldl R fT u e a n]
    rfl

/-- Half `h` of the subcore's bag `bb`, read at the subcore's rows `R`, is `halfFold` at the row of the whole array
    that the bag is. -/
theorem tileAccV_eq_halfFold (fI : IVec S4096x224 32) (fT : FVec F S507904x128 .f32) (R : IVec S128x224 32)
    (row : Fin 4096) (bb : ℕ) (hbb : bb < 128) (hR : ∀ c : Fin 224, R (ix2 (⟨bb, hbb⟩ : Fin 128) c) = fI (ix2 row c))
    (h : ℕ) (hh : h < 2) (e : Fin 64) (a : F .f32) :
    tileAccV R fT (2 * bb + h) e a 100 = halfFold fI fT row (112 * h) (by omega) e a := by
  rw [tileAccV_foldl]
  unfold halfFold
  congr 1
  funext acc j
  congr 2
  unfold tileWord
  have e1 : (2 * bb + h) / 2 % 128 = bb := by omega
  have e2 : (112 * ((2 * bb + h) % 2) + j.val) % 224 = 112 * h + j.val := by have := j.isLt; omega
  rw [← hR]
  congr 1
  funext x
  apply Fin.ext
  fin_cases x
  · exact e1
  · exact e2

/-- The subcore's row `bb` of the padded indices is row `256 * s + 128 * c + bb` of the whole array. -/
theorem tile_R_row (L : grid2.Coords) (d : Dev nD) (fI : Buf (Elt F) (iLoc d)) (row : Fin 4096) (bb : ℕ) (hbb : bb < 128)
    (hrow : row.val = 256 * (L 1).val + 128 * (L 0).val + bb) (c : Fin 224) :
    (idxRows L).view.read (Elt F) fI (ix2 (⟨bb, hbb⟩ : Fin 128) c) = fI (ix2 row c) := by
  rw [show (idxRows L).view.read (Elt F) fI (ix2 (⟨bb, hbb⟩ : Fin 128) c) = fI ((idxRows L).view.emb (ix2 (⟨bb, hbb⟩ : Fin 128) c))
    from (View.read_apply _ _).trans (cast_eq _ _)]
  apply congrArg fI
  funext a
  apply Fin.ext
  fin_cases a
  · show (k2_off1 L) 0 + 1 * bb = row.val
    rw [k2_off1_eq]; show 256 * (L 1).val + 128 * (L 0).val + 1 * bb = row.val; omega
  · show (k2_off1 L) 1 + 1 * c.val = c.val
    rw [k2_off1_eq]; show 0 + 1 * c.val = c.val; omega

/-- A staged row is the specification's pooled row. -/
theorem tileBagV_eq_tileAt (L : grid2.Coords) (d : Dev nD) (fI : Buf (Elt F) (iLoc d)) (fT : Buf (Elt F) (tLoc d))
    (row : Fin 4096) (bb : ℕ) (hbb : bb < 128) (hrow : row.val = 256 * (L 1).val + 128 * (L 0).val + bb) (e : Fin 64) :
    tileBagV (F := F) ((idxRows L).view.read (Elt F) fI) fT bb e = tileAt (F := F) fI fT row e := by
  unfold tileBagV tileAt
  have h0 := fun a => tileAccV_eq_halfFold (F := F) fI fT ((idxRows L).view.read (Elt F) fI) row bb hbb
    (tile_R_row (F := F) L d fI row bb hbb hrow) 0 (by decide) e a
  have h1 := fun a => tileAccV_eq_halfFold (F := F) fI fT ((idxRows L).view.read (Elt F) fI) row bb hbb
    (tile_R_row (F := F) L d fI row bb hbb hrow) 1 (by decide) e a
  rw [show 2 * bb = 2 * bb + 0 from rfl, h0, h1]

/-- The subcore's 128 output rows hold the specification once `G` is, on each half, what a full staging buffer held
    when it was written out. -/
theorem tile_spec_of_staged (L : grid2.Coords) (d : Dev nD) (fI : Buf (Elt F) (iLoc d)) (fT : Buf (Elt F) (tLoc d))
    (G : Buf (Elt F) (oLoc d)) (gA gB : S64x64.Idx → F .f32)
    (hA : ∀ x : S64x64.Idx, G ((outA L).view.emb x) = gA x)
    (hB : ∀ x : S64x64.Idx, G ((outB L).view.emb x) = gB x)
    (hsA : TileStagedAt (F := F) ((idxRows L).view.read (Elt F) fI) fT 0 32 gA)
    (hsB : TileStagedAt (F := F) ((idxRows L).view.read (Elt F) fI) fT 64 32 gB) :
    TileSpec (F := F) d L fI fT G := by
  intro row e hmem
  rcases Finset.mem_union.mp hmem with h | h
  · obtain ⟨x, -, hx⟩ := Finset.mem_map.mp h
    have h0 : row.val = 256 * (L 1).val + 128 * (L 0).val + (x 0).val := by
      have e0 := congrArg (fun i : S4096x64.Idx => (i 0).val) hx
      have e1 : (k2_off184 L) 0 + 1 * (x 0).val = row.val := e0
      rw [k2_off184_eq] at e1
      have e2 : 256 * (L 1).val + 128 * (L 0).val + 1 * (x 0).val = row.val := e1
      omega
    have h1 : (x 1).val = e.val := by
      have e0 := congrArg (fun i : S4096x64.Idx => (i 1).val) hx
      have e1 : (k2_off184 L) 1 + 1 * (x 1).val = e.val := e0
      rw [k2_off184_eq] at e1
      have e2 : 0 + 1 * (x 1).val = e.val := e1
      omega
    have hxe : x 1 = e := Fin.ext h1
    have hx0 : (x 0).val < 64 := (x 0).isLt
    rw [← hx, hA, eq_ix2 x]
    refine (hsA (x 0) (x 1) (by omega)).trans ?_
    rw [tileBagV_eq_tileAt (F := F) L d fI fT row (0 + (x 0).val) (by omega) (by omega) (x 1)]
    exact congrArg _ hxe
  · obtain ⟨x, -, hx⟩ := Finset.mem_map.mp h
    have h0 : row.val = 256 * (L 1).val + 128 * (L 0).val + (64 + (x 0).val) := by
      have e0 := congrArg (fun i : S4096x64.Idx => (i 0).val) hx
      have e1 : (k2_off365 L) 0 + 1 * (x 0).val = row.val := e0
      rw [k2_off365_eq] at e1
      have e2 : 256 * (L 1).val + 128 * (L 0).val + 64 + 1 * (x 0).val = row.val := e1
      omega
    have h1 : (x 1).val = e.val := by
      have e0 := congrArg (fun i : S4096x64.Idx => (i 1).val) hx
      have e1 : (k2_off365 L) 1 + 1 * (x 1).val = e.val := e0
      rw [k2_off365_eq] at e1
      have e2 : 0 + 1 * (x 1).val = e.val := e1
      omega
    have hxe : x 1 = e := Fin.ext h1
    have hx0 : (x 0).val < 64 := (x 0).isLt
    rw [← hx, hB, eq_ix2 x]
    refine (hsB (x 0) (x 1) (by omega)).trans ?_
    rw [tileBagV_eq_tileAt (F := F) L d fI fT row (64 + (x 0).val) (by omega) h0 (x 1)]
    exact congrArg _ hxe

/-- A half of the output rows written whole holds, at its element `x`, the payload at `x`. -/
theorem tile_outA_read (L : grid2.Coords) (d : Dev nD) (f : Buf (Elt F) (oLoc d))
    (w : (Rect.whole S64x64).shape.Idx → Elt F .f32) (x : S64x64.Idx) :
    (outA L).view.writes (Elt F) f [⟨Rect.whole S64x64, w⟩] ((outA L).view.emb x) = w x := by
  have e := View.read_writes_cons_emb (outA L).view f (Rect.whole S64x64) w [] x
  rw [Rect.emb_whole_apply] at e
  have e' : (outA L).view.read (Elt F) ((outA L).view.writes (Elt F) f [⟨Rect.whole S64x64, w⟩]) x
      = (outA L).view.writes (Elt F) f [⟨Rect.whole S64x64, w⟩] ((outA L).view.emb x) := (View.read_apply _ _).trans (cast_eq _ _)
  exact e'.symm.trans e

theorem tile_outB_read (L : grid2.Coords) (d : Dev nD) (f : Buf (Elt F) (oLoc d))
    (w : (Rect.whole S64x64).shape.Idx → Elt F .f32) (x : S64x64.Idx) :
    (outB L).view.writes (Elt F) f [⟨Rect.whole S64x64, w⟩] ((outB L).view.emb x) = w x := by
  have e := View.read_writes_cons_emb (outB L).view f (Rect.whole S64x64) w [] x
  rw [Rect.emb_whole_apply] at e
  have e' : (outB L).view.read (Elt F) ((outB L).view.writes (Elt F) f [⟨Rect.whole S64x64, w⟩]) x
      = (outB L).view.writes (Elt F) f [⟨Rect.whole S64x64, w⟩] ((outB L).view.emb x) := (View.read_apply _ _).trans (cast_eq _ _)
  exact e'.symm.trans e

/-- Stores that lie in row `n` of a view, cover it, and hold `BV` of their places extend "the rows below `n` read
    `BV`" to the rows below `n + 1`. -/
theorem tile_staged_row {κ : Kind} {sp : Space} (v : View sig κ sp S64x64 .f32) (g : v.ty.Contents (Elt F))
    (BV : S64x64.Idx → F .f32) (n : ℕ) (P : List (View.Piece (Elt F) S64x64 .f32))
    (hP : ∀ p ∈ P, ∀ x : p.1.shape.Idx, p.2 x = BV (p.1.emb x))
    (hrows : ∀ p ∈ P, ∀ y ∈ p.1.set, (y 0).val = n)
    (hcov : ∀ y : S64x64.Idx, (y 0).val = n → ∃ p ∈ P, y ∈ p.1.set)
    (h : ∀ y : S64x64.Idx, (y 0).val < n → v.read (Elt F) g y = BV y) :
    ∀ y : S64x64.Idx, (y 0).val < n + 1 → v.read (Elt F) (v.writes (Elt F) g P) y = BV y := by
  intro y hy
  by_cases hlt : (y 0).val < n
  · rw [View.read_writes_apply_of_forall_not_mem v g y P (fun p hp hm => by have := hrows p hp y hm; omega)]
    exact h y hlt
  · exact View.read_writes_apply_of_pieces v g BV P hP y (hcov y (by omega))

omit [FloatOps F] [Named F] in
/-- An element of a one-row rectangle is in its row. -/
theorem tile_mem_unit_row (o : Fin 2 → ℕ) (i : ∀ a, o a + S1x16.size a ≤ S64x64.size a) (n : ℕ) (h : o 0 = n)
    (y : S64x64.Idx) (hy : y ∈ (Rect.unit (s := S64x64) o S1x16.size i).set) : (y 0).val = n := by
  have h0 := (Rect.mem_set_unit.mp hy) 0
  have ha : o 0 ≤ (y 0).val := h0.1
  have hb : (y 0).val < o 0 + 1 := h0.2
  omega

omit [FloatOps F] [Named F] in
/-- An element in the row and the sixteen columns of a one-row rectangle is in it. -/
theorem tile_mem_unit_of (o : Fin 2 → ℕ) (i : ∀ a, o a + S1x16.size a ≤ S64x64.size a) (y : S64x64.Idx)
    (h0 : o 0 ≤ (y 0).val) (h0' : (y 0).val < o 0 + 1) (h1 : o 1 ≤ (y 1).val) (h1' : (y 1).val < o 1 + 16) :
    y ∈ (Rect.unit (s := S64x64) o S1x16.size i).set :=
  Rect.mem_set_unit.mpr (Fin.forall_fin_two.mpr ⟨⟨h0, h0'⟩, ⟨h1, h1'⟩⟩)

/-- Four sixteen-lane stores at columns 0, 16, 32, 48 of row `n` lie in that row and cover it. -/
theorem tile_row_pieces (n : ℕ) (o0 o1 o2 o3 : Fin 2 → ℕ)
    (i0 : ∀ a, o0 a + S1x16.size a ≤ S64x64.size a) (i1 : ∀ a, o1 a + S1x16.size a ≤ S64x64.size a)
    (i2 : ∀ a, o2 a + S1x16.size a ≤ S64x64.size a) (i3 : ∀ a, o3 a + S1x16.size a ≤ S64x64.size a)
    (h0 : o0 = ![n, 0]) (h1 : o1 = ![n, 16]) (h2 : o2 = ![n, 32]) (h3 : o3 = ![n, 48])
    (w0 : (Rect.unit (s := S64x64) o0 S1x16.size i0).shape.Idx → Elt F .f32)
    (w1 : (Rect.unit (s := S64x64) o1 S1x16.size i1).shape.Idx → Elt F .f32)
    (w2 : (Rect.unit (s := S64x64) o2 S1x16.size i2).shape.Idx → Elt F .f32)
    (w3 : (Rect.unit (s := S64x64) o3 S1x16.size i3).shape.Idx → Elt F .f32) :
    (∀ p ∈ ([⟨Rect.unit o3 S1x16.size i3, w3⟩, ⟨Rect.unit o2 S1x16.size i2, w2⟩, ⟨Rect.unit o1 S1x16.size i1, w1⟩,
        ⟨Rect.unit o0 S1x16.size i0, w0⟩] : List (View.Piece (Elt F) S64x64 .f32)), ∀ y ∈ p.1.set, (y 0).val = n)
    ∧ (∀ y : S64x64.Idx, (y 0).val = n → ∃ p ∈ ([⟨Rect.unit o3 S1x16.size i3, w3⟩, ⟨Rect.unit o2 S1x16.size i2, w2⟩,
        ⟨Rect.unit o1 S1x16.size i1, w1⟩, ⟨Rect.unit o0 S1x16.size i0, w0⟩] : List (View.Piece (Elt F) S64x64 .f32)), y ∈ p.1.set) := by
  subst h0 h1 h2 h3
  constructor
  · intro p hp y hy
    simp only [List.mem_cons, List.mem_singleton, List.not_mem_nil, or_false] at hp
    rcases hp with rfl | rfl | rfl | rfl
    · exact tile_mem_unit_row _ i3 n rfl y hy
    · exact tile_mem_unit_row _ i2 n rfl y hy
    · exact tile_mem_unit_row _ i1 n rfl y hy
    · exact tile_mem_unit_row _ i0 n rfl y hy
  · intro y hy
    have hy1 : (y 1).val < 64 := (y 1).isLt
    by_cases c0 : (y 1).val < 16
    · refine ⟨_, List.mem_cons_of_mem _ (List.mem_cons_of_mem _ (List.mem_cons_of_mem _ List.mem_cons_self)), ?_⟩
      exact tile_mem_unit_of _ i0 y (by show n ≤ (y 0).val; omega) (by show (y 0).val < n + 1; omega)
        (by show 0 ≤ (y 1).val; omega) (by show (y 1).val < 0 + 16; omega)
    by_cases c1 : (y 1).val < 32
    · refine ⟨_, List.mem_cons_of_mem _ (List.mem_cons_of_mem _ List.mem_cons_self), ?_⟩
      exact tile_mem_unit_of _ i1 y (by show n ≤ (y 0).val; omega) (by show (y 0).val < n + 1; omega)
        (by show 16 ≤ (y 1).val; omega) (by show (y 1).val < 16 + 16; omega)
    by_cases c2 : (y 1).val < 48
    · refine ⟨_, List.mem_cons_of_mem _ List.mem_cons_self, ?_⟩
      exact tile_mem_unit_of _ i2 y (by show n ≤ (y 0).val; omega) (by show (y 0).val < n + 1; omega)
        (by show 32 ≤ (y 1).val; omega) (by show (y 1).val < 32 + 16; omega)
    · refine ⟨_, List.mem_cons_self, ?_⟩
      exact tile_mem_unit_of _ i3 y (by show n ≤ (y 0).val; omega) (by show (y 0).val < n + 1; omega)
        (by show 48 ≤ (y 1).val; omega) (by show (y 1).val < 48 + 16; omega)

/-- One trip's eight stores — two bags' pooled rows, four sixteen-lane vectors each, at rows `2 * tn` and `2 * tn + 1`
    of the staging buffer — extend "the rows below `2 * tn` are pooled rows" to the rows below `2 * (tn + 1)`, once
    each stored vector is the pooled row at its place. -/
theorem tile_staged_two {κ : Kind} {sp : Space} (v : View sig κ sp S64x64 .f32) (g6 : v.ty.Contents (Elt F))
    (R : IVec S128x224 32) (fT : FVec F S507904x128 .f32) (boff tn : ℕ)
    (oA0 oA1 oA2 oA3 oB0 oB1 oB2 oB3 : Fin 2 → ℕ)
    (iA0 : ∀ a, oA0 a + S1x16.size a ≤ S64x64.size a) (iA1 : ∀ a, oA1 a + S1x16.size a ≤ S64x64.size a) (iA2 : ∀ a, oA2 a + S1x16.size a ≤ S64x64.size a) (iA3 : ∀ a, oA3 a + S1x16.size a ≤ S64x64.size a)
    (iB0 : ∀ a, oB0 a + S1x16.size a ≤ S64x64.size a) (iB1 : ∀ a, oB1 a + S1x16.size a ≤ S64x64.size a) (iB2 : ∀ a, oB2 a + S1x16.size a ≤ S64x64.size a) (iB3 : ∀ a, oB3 a + S1x16.size a ≤ S64x64.size a)
    (hA0 : oA0 = ![2 * tn, 0]) (hA1 : oA1 = ![2 * tn, 16]) (hA2 : oA2 = ![2 * tn, 32]) (hA3 : oA3 = ![2 * tn, 48])
    (hB0 : oB0 = ![2 * tn + 1, 0]) (hB1 : oB1 = ![2 * tn + 1, 16]) (hB2 : oB2 = ![2 * tn + 1, 32]) (hB3 : oB3 = ![2 * tn + 1, 48])
    (wA0 : (Rect.unit (s := S64x64) oA0 S1x16.size iA0).shape.Idx → Elt F .f32)
    (wA1 : (Rect.unit (s := S64x64) oA1 S1x16.size iA1).shape.Idx → Elt F .f32)
    (wA2 : (Rect.unit (s := S64x64) oA2 S1x16.size iA2).shape.Idx → Elt F .f32)
    (wA3 : (Rect.unit (s := S64x64) oA3 S1x16.size iA3).shape.Idx → Elt F .f32)
    (wB0 : (Rect.unit (s := S64x64) oB0 S1x16.size iB0).shape.Idx → Elt F .f32)
    (wB1 : (Rect.unit (s := S64x64) oB1 S1x16.size iB1).shape.Idx → Elt F .f32)
    (wB2 : (Rect.unit (s := S64x64) oB2 S1x16.size iB2).shape.Idx → Elt F .f32)
    (wB3 : (Rect.unit (s := S64x64) oB3 S1x16.size iB3).shape.Idx → Elt F .f32)
    (hvA : ∀ p ∈ ([⟨Rect.unit oA3 S1x16.size iA3, wA3⟩, ⟨Rect.unit oA2 S1x16.size iA2, wA2⟩, ⟨Rect.unit oA1 S1x16.size iA1, wA1⟩, ⟨Rect.unit oA0 S1x16.size iA0, wA0⟩] : List (View.Piece (Elt F) S64x64 .f32)), ∀ x : p.1.shape.Idx,
      p.2 x = tileBagV R fT (boff + (p.1.emb x 0).val) (p.1.emb x 1))
    (hvB : ∀ p ∈ ([⟨Rect.unit oB3 S1x16.size iB3, wB3⟩, ⟨Rect.unit oB2 S1x16.size iB2, wB2⟩, ⟨Rect.unit oB1 S1x16.size iB1, wB1⟩, ⟨Rect.unit oB0 S1x16.size iB0, wB0⟩] : List (View.Piece (Elt F) S64x64 .f32)), ∀ x : p.1.shape.Idx,
      p.2 x = tileBagV R fT (boff + (p.1.emb x 0).val) (p.1.emb x 1))
    (hst : TileStagedAt R fT boff tn (v.read (Elt F) g6)) :
    TileStagedAt R fT boff (tn + 1) (v.read (Elt F) (v.writes (Elt F) g6
      ([⟨Rect.unit oB3 S1x16.size iB3, wB3⟩, ⟨Rect.unit oB2 S1x16.size iB2, wB2⟩, ⟨Rect.unit oB1 S1x16.size iB1, wB1⟩, ⟨Rect.unit oB0 S1x16.size iB0, wB0⟩] ++ [⟨Rect.unit oA3 S1x16.size iA3, wA3⟩, ⟨Rect.unit oA2 S1x16.size iA2, wA2⟩, ⟨Rect.unit oA1 S1x16.size iA1, wA1⟩, ⟨Rect.unit oA0 S1x16.size iA0, wA0⟩]))) := by
  have gA := tile_row_pieces (F := F) (2 * tn) oA0 oA1 oA2 oA3 iA0 iA1 iA2 iA3 hA0 hA1 hA2 hA3 wA0 wA1 wA2 wA3
  have gB := tile_row_pieces (F := F) (2 * tn + 1) oB0 oB1 oB2 oB3 iB0 iB1 iB2 iB3 hB0 hB1 hB2 hB3 wB0 wB1 wB2 wB3
  have s1 := tile_staged_row v g6 (fun i => tileBagV R fT (boff + (i 0).val) (i 1)) (2 * tn) _ hvA gA.1 gA.2
    (fun y hy => by rw [eq_ix2 y]; exact hst (y 0) (y 1) hy)
  have s2 := tile_staged_row v _ (fun i => tileBagV R fT (boff + (i 0).val) (i 1)) (2 * tn + 1) _ hvB gB.1 gB.2 s1
  intro r e hr
  have h3 := s2 (ix2 r e) (by show r.val < 2 * tn + 1 + 1; omega)
  rw [← View.writes_append] at h3
  exact h3

end Cert.Proof.KI

end
-- ==== Proof.KITileValAcc.lean ====
/-
  The accumulation stage of a subcore's task, as pure facts. A half bag's hundred rows are added in order onto four
  sixteen-lane sums, lane `l` of sum `q` carrying column `16 q + l`; `accN term n a` is `a` plus the first `n` terms in
  order, so the kernel's fold over a half bag is `accN` of its hundred terms, and the four sums after `n` rows are
  `accN … n` of the incoming sums. One row adds, to lane `l` of sum `q`, the row buffer's entry at the row and at the
  lane offset of the row's index word plus `16 q + l`.
-/
import proofs.«207435_g27118423507386_cont_sun_m_668_27_alg».proof.Proof.KITileValPack
import proofs.«207435_g27118423507386_cont_sun_m_668_27_alg».proof.Proof.KITileAccDefs

noncomputable section

namespace Cert.Proof.KI

open Cert.KernelIdeal Cert.KernelIdeal.Gen
open Idealize.ShloMosaic Idealize.ShloMosaic.ValueIdx
open Idealize.SL.Sem

/-- The lane offset is 0 or 64. -/
theorem offW_le (x : BitVec 32) : (offW x).toNat ≤ 64 := by
  have h : (offW x).toNat = 64 * (x.toNat / 16384 % 2) := by
    have hx := x.isLt
    unfold offW
    rw [BitVec.toNat_mul, BitVec.toNat_and, BitVec.toNat_ushiftRight]
    have h1 : (1#32 : BitVec 32).toNat = 2 ^ 1 - 1 := by decide
    have h64 : (64#32 : BitVec 32).toNat = 64 := by decide
    rw [h1, h64, Nat.and_two_pow_sub_one_eq_mod, Nat.shiftRight_eq_div_pow]
    have : x.toNat / 2 ^ 14 % 2 ^ 1 < 2 := Nat.mod_lt _ (by decide)
    rw [Nat.mod_eq_of_lt (by omega)]
    norm_num; omega
  rw [h]; omega

section Acc

variable {F : FTy → Type} [FloatOps F] [Named F]

/-- `a` plus the first `n` terms, in order. -/
def accN (term : ℕ → F .f32) : ℕ → F .f32 → F .f32
  | 0, a => a
  | n + 1, a => FloatOps.addf (accN term n a) (term n)

theorem accN_succ (term : ℕ → F .f32) (n : ℕ) (a : F .f32) : accN term (n + 1) a = FloatOps.addf (accN term n a) (term n) := rfl

/-- Terms that agree below `n` add up alike. -/
theorem accN_congr {term term' : ℕ → F .f32} : ∀ (n : ℕ) (h : ∀ j, j < n → term j = term' j) (a : F .f32), accN term n a = accN term' n a
  | 0, _, _ => rfl
  | n + 1, h, a => by
    rw [accN_succ, accN_succ, accN_congr n (fun j hj => h j (Nat.lt_succ_of_lt hj)) a, h n (Nat.lt_succ_self n)]

/-- Adding `m` more terms. -/
theorem accN_add (term : ℕ → F .f32) (n : ℕ) : ∀ (m : ℕ) (a : F .f32), accN term (n + m) a = accN (fun j => term (n + j)) m (accN term n a)
  | 0, _ => rfl
  | m + 1, a => by rw [← Nat.add_assoc, accN_succ, accN_add term n m a, accN_succ]

/-- A left fold of additions over `Fin n` is `accN`. -/
theorem foldl_eq_accN : ∀ (n : ℕ) (f : Fin n → F .f32) (term : ℕ → F .f32) (h : ∀ j : Fin n, f j = term j.val) (a : F .f32),
    Fin.foldl n (fun acc j => FloatOps.addf acc (f j)) a = accN term n a
  | 0, _, _, _, a => by simp [Fin.foldl_zero, accN]
  | n + 1, f, term, h, a => by
    rw [Fin.foldl_succ_last, foldl_eq_accN n (fun j => f j.castSucc) term (fun j => h j.castSucc) a, h (Fin.last n)]
    rfl

/-- A half bag's term at row `j`: the packed table's entry the row's index word and the column name. -/
def halfTerm (fI : IVec S4096x224 32) (fT : FVec F S507904x128 .f32) (row : Fin 4096) (c0 : ℕ) (e : Fin 64) (j : ℕ) : F .f32 :=
  rowVal fT (fI (ix2 row ⟨(c0 + j) % 224, Nat.mod_lt _ (by decide)⟩)) e

/-- The kernel's fold over a half bag is `accN` of its hundred terms. -/
theorem halfFold_eq_accN (fI : IVec S4096x224 32) (fT : FVec F S507904x128 .f32) (row : Fin 4096) (c0 : ℕ) (hc0 : c0 + 100 ≤ 224) (e : Fin 64)
    (acc : F .f32) : halfFold fI fT row c0 hc0 e acc = accN (halfTerm fI fT row c0 e) 100 acc := by
  unfold halfFold
  refine foldl_eq_accN 100 _ _ (fun j => ?_) acc
  unfold halfTerm
  have hj := j.isLt
  refine congrArg (fun c => rowVal fT (fI (ix2 row c)) e) (Fin.ext ?_)
  show c0 + j.val = (c0 + j.val) % 224
  rw [Nat.mod_eq_of_lt (by omega)]

/-- The four carried sums. -/
abbrev Acc4 (F : FTy → Type) : Type := FVec F S16 .f32 × FVec F S16 .f32 × FVec F S16 .f32 × FVec F S16 .f32

/-- Sum `q` of the four. -/
def Acc4.get (a : Acc4 F) : Fin 4 → FVec F S16 .f32
  | ⟨0, _⟩ => a.1
  | ⟨1, _⟩ => a.2.1
  | ⟨2, _⟩ => a.2.2.1
  | ⟨3, _⟩ => a.2.2.2

/-- The four sums after `n` rows: lane `l` of sum `q` is the incoming lane plus the first `n` terms of column `16 q + l`. -/
def BufAccAt (term : Fin 64 → ℕ → F .f32) (n : ℕ) (init : Fin 4 → Fin 16 → F .f32) (acc : Acc4 F) : Prop :=
  ∀ (q : Fin 4) (l : Fin 16), acc.get q (ix1 l) = accN (term ⟨16 * q.val + l.val, by omega⟩) n (init q l)

theorem BufAccAt.zero (term : Fin 64 → ℕ → F .f32) (A : Acc4 F) : BufAccAt term 0 (fun q l => A.get q (ix1 l)) A := fun _ _ => rfl

/-- One more row: each lane takes its term. -/
theorem BufAccAt.row {term : Fin 64 → ℕ → F .f32} {n : ℕ} {init : Fin 4 → Fin 16 → F .f32} {A A' : Acc4 F} (h : BufAccAt term n init A)
    (hA' : ∀ (q : Fin 4) (l : Fin 16), A'.get q (ix1 l) = FloatOps.addf (A.get q (ix1 l)) (term ⟨16 * q.val + l.val, by omega⟩ n)) :
    BufAccAt term (n + 1) init A' := fun q l => by
  rw [hA' q l, h q l, accN_succ]

/-- The row buffer's term: at row `j`, the entry at the lane offset of the row's index word plus the column. -/
def bufTerm (g : FVec F S100x128 .f32) (xs : ℕ → BitVec 32) (e : Fin 64) (j : ℕ) : F .f32 :=
  g (ix2 ⟨j % 100, Nat.mod_lt _ (by decide)⟩ ⟨((offW (xs j)).toNat + e.val) % 128, Nat.mod_lt _ (by decide)⟩)

/-- A sixteen-lane load of a row buffer at offsets `off`, cast to a vector, at lane `l`. -/
theorem sc_ld_apply (g : FVec F S100x128 .f32) (off : Fin 2 → ℕ) (inb : ∀ a, off a + S1x16.size a ≤ S100x128.size a) (l : Fin 16) :
    shapeCast S16 (View.ld (Val := Elt F) (e' := .f32) g (Rect.unit (s := S100x128) off S1x16.size inb)) shapeCasts_S1x16_S16 (ix1 l)
      = g (ix2 ⟨off 0, by have := inb 0; simp [S1x16, S100x128] at this; omega⟩ ⟨off 1 + l.val, by have := inb 1; simp [S1x16, S100x128] at this; omega⟩) := by
  rw [shapeCast_dropUnit_apply ![16] _ shapeCasts_S1x16_S16 (ix1 l)]
  show g ((Rect.unit (s := S100x128) off S1x16.size inb).idx (Fin.cons ⟨0, Nat.one_pos⟩ (ix1 l))) = _
  refine congrArg g (funext fun a => Fin.ext ?_)
  match a with
  | ⟨0, _⟩ => show off 0 + 1 * 0 = off 0; omega
  | ⟨1, _⟩ => show off 1 + 1 * l.val = off 1 + l.val; omega

/-- One more row, as the kernel adds it: four sixteen-lane loads of the row buffer, at the row and at the lane offset
    of the row's index word plus 0, 16, 32, 48, each added to its sum. -/
theorem BufAccAt.row_ld {g : FVec F S100x128 .f32} {xs : ℕ → BitVec 32} {n : ℕ} {init : Fin 4 → Fin 16 → F .f32} {A : Acc4 F}
    (h : BufAccAt (bufTerm g xs) n init A) (hn : n < 100)
    (off0 off1 off2 off3 : Fin 2 → ℕ)
    (inb0 : ∀ a, off0 a + S1x16.size a ≤ S100x128.size a) (inb1 : ∀ a, off1 a + S1x16.size a ≤ S100x128.size a)
    (inb2 : ∀ a, off2 a + S1x16.size a ≤ S100x128.size a) (inb3 : ∀ a, off3 a + S1x16.size a ≤ S100x128.size a)
    (hr0 : off0 0 = n) (hr1 : off1 0 = n) (hr2 : off2 0 = n) (hr3 : off3 0 = n)
    (hl0 : off0 1 = (offW (xs n)).toNat) (hl1 : off1 1 = (offW (xs n)).toNat + 16)
    (hl2 : off2 1 = (offW (xs n)).toNat + 32) (hl3 : off3 1 = (offW (xs n)).toNat + 48) :
    BufAccAt (bufTerm g xs) (n + 1) init
      (addf A.1 (shapeCast S16 (View.ld (Val := Elt F) (e' := .f32) g (Rect.unit (s := S100x128) off0 S1x16.size inb0)) shapeCasts_S1x16_S16),
        addf A.2.1 (shapeCast S16 (View.ld (Val := Elt F) (e' := .f32) g (Rect.unit (s := S100x128) off1 S1x16.size inb1)) shapeCasts_S1x16_S16),
        addf A.2.2.1 (shapeCast S16 (View.ld (Val := Elt F) (e' := .f32) g (Rect.unit (s := S100x128) off2 S1x16.size inb2)) shapeCasts_S1x16_S16),
        addf A.2.2.2 (shapeCast S16 (View.ld (Val := Elt F) (e' := .f32) g (Rect.unit (s := S100x128) off3 S1x16.size inb3)) shapeCasts_S1x16_S16)) := by
  have ho := offW_le (xs n)
  refine h.row fun q l => ?_
  have hl := l.isLt
  match q with
  | ⟨0, _⟩ =>
    show FloatOps.addf (A.1 (ix1 l)) (shapeCast S16 (View.ld (Val := Elt F) (e' := .f32) g (Rect.unit (s := S100x128) off0 S1x16.size inb0)) shapeCasts_S1x16_S16 (ix1 l)) = _
    rw [sc_ld_apply]; unfold bufTerm
    refine congrArg (FloatOps.addf _) (congrArg g (funext fun a => Fin.ext ?_))
    match a with
    | ⟨0, _⟩ => show off0 0 = n % 100; rw [hr0, Nat.mod_eq_of_lt hn]
    | ⟨1, _⟩ => show off0 1 + l.val = ((offW (xs n)).toNat + (16 * 0 + l.val)) % 128; rw [hl0, Nat.mod_eq_of_lt (by omega)]; omega
  | ⟨1, _⟩ =>
    show FloatOps.addf (A.2.1 (ix1 l)) (shapeCast S16 (View.ld (Val := Elt F) (e' := .f32) g (Rect.unit (s := S100x128) off1 S1x16.size inb1)) shapeCasts_S1x16_S16 (ix1 l)) = _
    rw [sc_ld_apply]; unfold bufTerm
    refine congrArg (FloatOps.addf _) (congrArg g (funext fun a => Fin.ext ?_))
    match a with
    | ⟨0, _⟩ => show off1 0 = n % 100; rw [hr1, Nat.mod_eq_of_lt hn]
    | ⟨1, _⟩ => show off1 1 + l.val = ((offW (xs n)).toNat + (16 * 1 + l.val)) % 128; rw [hl1, Nat.mod_eq_of_lt (by omega)]; omega
  | ⟨2, _⟩ =>
    show FloatOps.addf (A.2.2.1 (ix1 l)) (shapeCast S16 (View.ld (Val := Elt F) (e' := .f32) g (Rect.unit (s := S100x128) off2 S1x16.size inb2)) shapeCasts_S1x16_S16 (ix1 l)) = _
    rw [sc_ld_apply]; unfold bufTerm
    refine congrArg (FloatOps.addf _) (congrArg g (funext fun a => Fin.ext ?_))
    match a with
    | ⟨0, _⟩ => show off2 0 = n % 100; rw [hr2, Nat.mod_eq_of_lt hn]
    | ⟨1, _⟩ => show off2 1 + l.val = ((offW (xs n)).toNat + (16 * 2 + l.val)) % 128; rw [hl2, Nat.mod_eq_of_lt (by omega)]; omega
  | ⟨3, _⟩ =>
    show FloatOps.addf (A.2.2.2 (ix1 l)) (shapeCast S16 (View.ld (Val := Elt F) (e' := .f32) g (Rect.unit (s := S100x128) off3 S1x16.size inb3)) shapeCasts_S1x16_S16 (ix1 l)) = _
    rw [sc_ld_apply]; unfold bufTerm
    refine congrArg (FloatOps.addf _) (congrArg g (funext fun a => Fin.ext ?_))
    match a with
    | ⟨0, _⟩ => show off3 0 = n % 100; rw [hr3, Nat.mod_eq_of_lt hn]
    | ⟨1, _⟩ => show off3 1 + l.val = ((offW (xs n)).toNat + (16 * 3 + l.val)) % 128; rw [hl3, Nat.mod_eq_of_lt (by omega)]; omega

/-! ## The executor's terms of one accumulate trip -/

/-- Row `16 k + c` of the row buffer, as the kernel computes its number. -/
theorem row_val (kv : ℕ) (hk : kv < 6) (c : BitVec 32) (hc : c.toNat < 16) :
    (Scalar.indexCast (Scalar.addi (Scalar.muli (Scf.iv 0#32 1#32 kv) 16#32) c)).toNat = 16 * kv + c.toNat := by
  simp only [Scalar.indexCast, Scalar.addi, Scalar.muli, IntOp.addi, IntOp.muli, Scf.iv]
  simp only [BitVec.toNat_add, BitVec.toNat_mul, BitVec.toNat_ofNat]
  omega

/-- The lane a load starts at: the row's lane offset plus 16, 32 or 48. -/
theorem lane_val (x c : BitVec 32) (hc : c.toNat ≤ 48) :
    (Scalar.indexCast (Scalar.addi (offW x) c)).toNat = (offW x).toNat + c.toNat := by
  have := offW_le x
  simp only [Scalar.indexCast, Scalar.addi, IntOp.addi, BitVec.toNat_add]
  omega

/-- The index words of a half bag, off the subcore's index rows: bag row `b`, columns from `c0`. -/
def xsOf (R : IVec S128x224 32) (b c0 : ℕ) (j : ℕ) : BitVec 32 :=
  R (ix2 ⟨b % 128, Nat.mod_lt _ (by decide)⟩ ⟨(c0 + j) % 224, Nat.mod_lt _ (by decide)⟩)

/-- The sixteen lane offsets a trip computes from the sixteen index words it loads, lane `r`. -/
theorem pay2_lane (W : Vec F S1x16 .i32) (r : Fin 16) (h1 : S16.Slices ![r.val] S1) (h2 : ∀ a, (![0] : Fin 1 → ℕ) a < S1.size a) :
    extractAt ![0] (extractStridedSlice S1 ![r.val] (k2_pay2 (F := F) W) h1) h2 = offW (W (Fin.cons ⟨0, Nat.one_pos⟩ (ix1 r))) := by
  unfold extractAt
  rw [extractStridedSlice_apply ![r.val] _ h1 _ (ix1 r) (fun a => by match a with | ⟨0, _⟩ => show r.val = r.val + 0; omega)]
  unfold k2_pay2
  show IntOp.muli (IntOp.andi (IntOp.shrui .vector (shapeCast S16 W shapeCasts_S1x16_S16 (ix1 r)) 14#32) 1#32) 64#32 = _
  rw [offI_eq, shapeCast_dropUnit_apply ![16] W shapeCasts_S1x16_S16 (ix1 r)]

/-- Outer trip `t`, inner trip `k` of the first accumulate loop loads the index words of bag row `2 t`, columns `16 k` on. -/
theorem k2_off4_eq : ∀ (t : Fin k2_t2_loop.trips) (k : Fin k2_t3_loop.trips), k2_off4 t k = ![2 * t.val, 16 * k.val] := by decide +kernel

/-- The sixteen index words a trip loads, word `r`: bag row `2 t`, column `16 k + r`. -/
theorem idx_word (t : Fin k2_t2_loop.trips) (k : Fin k2_t3_loop.trips) (R : IVec S128x224 32) (r : Fin 16) :
    View.ld (Val := Elt F) (e' := .i32) R (Rect.unit (s := S128x224) (k2_off4 t k) S1x16.size (k2_off4_inb t k)) (Fin.cons ⟨0, Nat.one_pos⟩ (ix1 r))
      = tileWord R (4 * t.val) (16 * k.val + r.val) := by
  have ht : t.val < 32 := lt_of_lt_of_eq t.isLt (by decide)
  have hk : k.val < 6 := lt_of_lt_of_eq k.isLt (by decide)
  have h0 : k2_off4 t k 0 = 2 * t.val := by rw [k2_off4_eq]; rfl
  have h1 : k2_off4 t k 1 = 16 * k.val := by rw [k2_off4_eq]; rfl
  have hr := r.isLt
  unfold tileWord
  show R ((Rect.unit (s := S128x224) (k2_off4 t k) S1x16.size (k2_off4_inb t k)).idx (Fin.cons ⟨0, Nat.one_pos⟩ (ix1 r))) = _
  refine congrArg R (funext fun a => Fin.ext ?_)
  match a with
  | ⟨0, _⟩ => show k2_off4 t k 0 + 1 * 0 = 4 * t.val / 2 % 128; omega
  | ⟨1, _⟩ => show k2_off4 t k 1 + 1 * r.val = (112 * (4 * t.val % 2) + (16 * k.val + r.val)) % 224; omega

/-- Row `r` of trip `k`, as the kernel adds it: the four loads at the row the kernel computes and at the lane offset
    `s` of the row's index word plus 0, 16, 32, 48. -/
theorem BufAccAt.row_k {g : FVec F S100x128 .f32} {xs : ℕ → BitVec 32} {init : Fin 4 → Fin 16 → F .f32} {A : Acc4 F} {kv r : ℕ}
    (h : BufAccAt (bufTerm g xs) (16 * kv + r) init A) (hk : kv < 6) (hr : r < 16)
    (s : BitVec 32) (hs : s = offW (xs (16 * kv + r)))
    (off0 off1 off2 off3 : Fin 2 → ℕ)
    (inb0 : ∀ a, off0 a + S1x16.size a ≤ S100x128.size a) (inb1 : ∀ a, off1 a + S1x16.size a ≤ S100x128.size a)
    (inb2 : ∀ a, off2 a + S1x16.size a ≤ S100x128.size a) (inb3 : ∀ a, off3 a + S1x16.size a ≤ S100x128.size a)
    (e0 : off0 = ![(Scalar.indexCast (Scalar.addi (Scalar.muli (Scf.iv 0#32 1#32 kv) 16#32) (BitVec.ofNat 32 r))).toNat, (Scalar.indexCast s).toNat])
    (e1 : off1 = ![(Scalar.indexCast (Scalar.addi (Scalar.muli (Scf.iv 0#32 1#32 kv) 16#32) (BitVec.ofNat 32 r))).toNat, (Scalar.indexCast (Scalar.addi s 16#32)).toNat])
    (e2 : off2 = ![(Scalar.indexCast (Scalar.addi (Scalar.muli (Scf.iv 0#32 1#32 kv) 16#32) (BitVec.ofNat 32 r))).toNat, (Scalar.indexCast (Scalar.addi s 32#32)).toNat])
    (e3 : off3 = ![(Scalar.indexCast (Scalar.addi (Scalar.muli (Scf.iv 0#32 1#32 kv) 16#32) (BitVec.ofNat 32 r))).toNat, (Scalar.indexCast (Scalar.addi s 48#32)).toNat]) :
    BufAccAt (bufTerm g xs) (16 * kv + (r + 1)) init
      (addf A.1 (shapeCast S16 (View.ld (Val := Elt F) (e' := .f32) g (Rect.unit (s := S100x128) off0 S1x16.size inb0)) shapeCasts_S1x16_S16),
        addf A.2.1 (shapeCast S16 (View.ld (Val := Elt F) (e' := .f32) g (Rect.unit (s := S100x128) off1 S1x16.size inb1)) shapeCasts_S1x16_S16),
        addf A.2.2.1 (shapeCast S16 (View.ld (Val := Elt F) (e' := .f32) g (Rect.unit (s := S100x128) off2 S1x16.size inb2)) shapeCasts_S1x16_S16),
        addf A.2.2.2 (shapeCast S16 (View.ld (Val := Elt F) (e' := .f32) g (Rect.unit (s := S100x128) off3 S1x16.size inb3)) shapeCasts_S1x16_S16)) := by
  subst hs
  have hc : (BitVec.ofNat 32 r).toNat = r := by rw [BitVec.toNat_ofNat]; exact Nat.mod_eq_of_lt (by omega)
  have hrow := row_val kv hk (BitVec.ofNat 32 r) (by rw [hc]; exact hr)
  rw [hc] at hrow
  refine h.row_ld (by omega) off0 off1 off2 off3 inb0 inb1 inb2 inb3 ?_ ?_ ?_ ?_ ?_ ?_ ?_ ?_
  · rw [e0]; exact hrow
  · rw [e1]; exact hrow
  · rw [e2]; exact hrow
  · rw [e3]; exact hrow
  · rw [e0]; rfl
  · rw [e1]; exact lane_val _ 16#32 (by decide)
  · rw [e2]; exact lane_val _ 32#32 (by decide)
  · rw [e3]; exact lane_val _ 48#32 (by decide)

/-! ## From the row buffer to the packed table -/

/-- The packed row number scratch 1 holds for row `j` of unit `u` is that of the unit's index word `j`. -/
theorem PVof_unit (R : IVec S128x224 32) (u j : ℕ) (hu : u < 256) (hj : j < 100) :
    PVof R (ix1 (⟨(112 * u + j) % 28672, Nat.mod_lt _ (by decide)⟩ : Fin 28672)) = packW (tileWord R u j) := by
  unfold PVof tileWord
  refine congrArg packW (congrArg R (funext fun a => Fin.ext ?_))
  match a with
  | ⟨0, _⟩ => show (112 * u + j) % 28672 / 224 = u / 2 % 128; omega
  | ⟨1, _⟩ => show (112 * u + j) % 28672 % 224 = (112 * (u % 2) + j) % 224; omega

/-- A row buffer that holds the packed table's rows named by the packed row numbers of unit `u`'s index words. -/
def BufRows (g : FVec F S100x128 .f32) (fT : FVec F S507904x128 .f32) (R : IVec S128x224 32) (u : ℕ) : Prop :=
  ∀ (j : Fin 100) (c : Fin 128), g (ix2 j c) = fT (ix2 ⟨(packW (tileWord R u j.val)).toNat % 507904, Nat.mod_lt _ (by decide)⟩ c)

/-- On such a buffer the row buffer's term is the packed table's entry the index word and the column name. -/
theorem bufTerm_eq_rowVal {g : FVec F S100x128 .f32} {fT : FVec F S507904x128 .f32} {R : IVec S128x224 32} {u : ℕ}
    (hrows : BufRows g fT R u) (e : Fin 64) (j : ℕ) (hj : j < 100) : bufTerm g (tileWord R u) e j = rowVal fT (tileWord R u j) e := by
  unfold bufTerm rowVal
  have hjj : (⟨j % 100, Nat.mod_lt _ (by decide)⟩ : Fin 100) = ⟨j, hj⟩ := Fin.ext (Nat.mod_eq_of_lt hj)
  rw [hjj, hrows ⟨j, hj⟩ _]

/-- and the sum of its first `n` terms is the fold over the unit's first `n` rows. -/
theorem accN_bufTerm {g : FVec F S100x128 .f32} {fT : FVec F S507904x128 .f32} {R : IVec S128x224 32} {u : ℕ}
    (hrows : BufRows g fT R u) (e : Fin 64) (a : F .f32) : ∀ n, n ≤ 100 → accN (bufTerm g (tileWord R u) e) n a = tileAccV R fT u e a n
  | 0, _ => rfl
  | n + 1, hn => by
    rw [accN_succ, accN_bufTerm hrows e a n (by omega), bufTerm_eq_rowVal hrows e n (by omega)]
    rfl

/-- What the four sums were when half `h` of bag `b` began: zero, or the whole first half. -/
def bagInit (R : IVec S128x224 32) (fT : FVec F S507904x128 .f32) (b h : ℕ) (q : Fin 4) (l : Fin 16) : F .f32 :=
  if h = 0 then Scalar.ofBits .f32 0x00000000#32
  else tileAccV R fT (2 * b) (⟨16 * q.val + l.val, by omega⟩ : Fin 64) (Scalar.ofBits .f32 0x00000000#32) 100

/-- The sums over the row buffer are the bag's sums. -/
theorem bagAt_iff_bufAcc {g : FVec F S100x128 .f32} {fT : FVec F S507904x128 .f32} {R : IVec S128x224 32} {b h n : ℕ}
    (hh : h < 2) (hrows : BufRows g fT R (2 * b + h)) (hn : n ≤ 100) (acc : Acc4 F) :
    TileBagAt R fT b h n acc ↔ BufAccAt (bufTerm g (tileWord R (2 * b + h))) n (bagInit R fT b h) acc := by
  unfold TileBagAt BufAccAt
  refine forall_congr' fun q => forall_congr' fun l => ?_
  rw [accN_bufTerm hrows _ _ n hn]
  have hget : tileLane acc q = acc.get q := by
    match q with
    | ⟨0, _⟩ => rfl
    | ⟨1, _⟩ => rfl
    | ⟨2, _⟩ => rfl
    | ⟨3, _⟩ => rfl
  rw [hget]
  unfold tileHalfV bagInit
  rcases Nat.lt_succ_iff_lt_or_eq.mp hh with h0 | h1
  · have : h = 0 := by omega
    subst this
    rw [if_pos rfl, if_pos rfl]
    exact Iff.rfl
  · subst h1
    rw [if_neg (by decide), if_neg (by decide)]

/-- A row buffer whose rows are the packed table's at the packed row numbers scratch 1 (`pv`) holds from place
    `o = 112 u`, scratch 1 holding the packed row numbers of the subcore's index words: its rows are those of unit
    `u`'s index words. -/
theorem bufRows_of {g : FVec F S100x128 .f32} {fT : FVec F S507904x128 .f32} {R : IVec S128x224 32} {u : ℕ} (pv : S28672.Idx → BitVec 32)
    (hu : u < 256) (o : ℕ) (ho : o = 112 * u)
    (hrows : ∀ (j : Fin 100) (c : Fin 128), g (ix2 j c)
      = fT (ix2 ⟨(pv (ix1 (⟨(o + j.val) % 28672, Nat.mod_lt _ (by decide)⟩ : Fin 28672))).toNat % 507904, Nat.mod_lt _ (by decide)⟩ c))
    (n1 : ℕ) (hn1 : 28672 ≤ 16 * n1) (hPV : ∀ y : S28672.Idx, (y 0).val < 16 * n1 → pv y = PVof R y) : BufRows g fT R u := by
  subst ho
  intro j c
  rw [hrows j c, hPV _ (by show (112 * u + j.val) % 28672 < 16 * n1; have := Nat.mod_lt (112 * u + j.val) (by decide : 0 < 28672); omega),
    PVof_unit R u j.val hu j.isLt]

/-- The sixteen index words a trip loads at offsets `off` of the subcore's index rows, word `r`: unit `u`'s word
    `16 k + r`, when the offsets are the unit's bag row and its column `16 k`. -/
theorem idx_word_gen (off : Fin 2 → ℕ) (inb : ∀ a, off a + S1x16.size a ≤ S128x224.size a) (R : IVec S128x224 32) (u kv : ℕ) (r : Fin 16)
    (h0 : off 0 = u / 2 % 128) (h1 : off 1 + r.val = (112 * (u % 2) + (16 * kv + r.val)) % 224) :
    View.ld (Val := Elt F) (e' := .i32) R (Rect.unit (s := S128x224) off S1x16.size inb) (Fin.cons ⟨0, Nat.one_pos⟩ (ix1 r))
      = tileWord R u (16 * kv + r.val) := by
  unfold tileWord
  show R ((Rect.unit (s := S128x224) off S1x16.size inb).idx (Fin.cons ⟨0, Nat.one_pos⟩ (ix1 r))) = _
  refine congrArg R (funext fun a => Fin.ext ?_)
  match a with
  | ⟨0, _⟩ => show off 0 + 1 * 0 = u / 2 % 128; omega
  | ⟨1, _⟩ => show off 1 + 1 * r.val = (112 * (u % 2) + (16 * kv + r.val)) % 224; omega

end Acc

end Cert.Proof.KI

end
-- ==== Proof.KITileStep_b.lean ====
/-
  Two value steps of a vector subcore's accumulation: the remainder part after the third accumulate loop of the first
  outer loop (the last four rows of a bag's first half, which complete the half: the sums the second half starts from),
  and one trip of sixteen rows of the second accumulate loop. Each is stated over the values as the body's run names
  them: the lane offsets extracted from the sixteen index words the trip loads, and the four sixteen-lane loads of the
  row buffer per row, each added to its sum.
-/
import proofs.«207435_g27118423507386_cont_sun_m_668_27_alg».proof.Proof.KITileValAcc
import proofs.«207435_g27118423507386_cont_sun_m_668_27_alg».proof.Proof.KITileGather
import proofs.«207435_g27118423507386_cont_sun_m_668_27_alg».proof.Proof.Gen.KernelIdeal.Skeleton
import Idealize.ShloMosaic.Lib.Pipeline.FrameBody

noncomputable section

namespace Cert.Proof.KI

open Cert.KernelIdeal Cert.KernelIdeal.Gen
open Idealize.ShloMosaic Idealize.ShloMosaic.ValueIdx
open Idealize.SL.Sem

variable {F : FTy → Type} [FloatOps F] [Named F]

local notation "sRaw" => (Memref.whole Cert.KernelIdeal.cc2_scratch0 : Memref Cert.KernelIdeal.sig Kind.scVector Space.vmem Cert.KernelIdeal.S128x224 EltTy.i32)
local notation "sR1" => (Memref.whole Cert.KernelIdeal.cc2_scratch3 : Memref Cert.KernelIdeal.sig Kind.scVector Space.vmem Cert.KernelIdeal.S100x128 EltTy.f32)
local notation "sR2" => (Memref.whole Cert.KernelIdeal.cc2_scratch4 : Memref Cert.KernelIdeal.sig Kind.scVector Space.vmem Cert.KernelIdeal.S100x128 EltTy.f32)

/-- The sixteen lane offsets of sixteen index words, as the body computes them. -/
abbrev b_laneOffs (W : Vec F S1x16 .i32) : IVec S16 32 :=
  muli (andi (shrui (shapeCast S16 W shapeCasts_S1x16_S16) (broadcast S16 14#32)) (broadcast S16 1#32)) (broadcast S16 64#32)

theorem b_laneOffs_eq (W : Vec F S1x16 .i32) : b_laneOffs W = k2_pay2 (F := F) W := rfl

/-- Lane `r` of them is the lane offset of word `r`. -/
theorem b_laneOffs_at (W : Vec F S1x16 .i32) (r : Fin 16) (h1 : S16.Slices ![r.val] S1) (h2 : ∀ a, (![0] : Fin 1 → ℕ) a < S1.size a) :
    extractAt ![0] (extractStridedSlice S1 ![r.val] (b_laneOffs (F := F) W) h1) h2 = offW (W (Fin.cons ⟨0, Nat.one_pos⟩ (ix1 r))) :=
  pay2_lane W r h1 h2

/-! ## The remainder after the third accumulate loop: rows 96 to 99 of the second bag's first half -/

theorem k2_off127_eq : ∀ t : Fin k2_t2_loop.trips, k2_off127 t = ![2 * t.val + 1, 96] := by decide +kernel

/-- The sixteen index words the remainder loads, word `r`: word `96 + r` of unit `2 (2 t + 1)`. -/
theorem b_idx_word127 (t : Fin k2_t2_loop.trips) (R : IVec S128x224 32) (iW : ∀ a, k2_off127 t a + S1x16.size a ≤ S128x224.size a) (r : Fin 16) :
    View.readAt (Elt F) (sRaw).view (Rect.unit (s := S128x224) (k2_off127 t) S1x16.size iW).toLoadRect R (Fin.cons ⟨0, Nat.one_pos⟩ (ix1 r))
      = tileWord R (2 * (2 * t.val + 1) + 0) (96 + r.val) := by
  have ht : t.val < 32 := lt_of_lt_of_eq t.isLt (by decide)
  have h0 : k2_off127 t 0 = 2 * t.val + 1 := by rw [k2_off127_eq]; rfl
  have h1 : k2_off127 t 1 = 96 := by rw [k2_off127_eq]; rfl
  have hr := r.isLt
  unfold tileWord
  rw [View.readAt_eq_ld]
  simp only [Memref.view_whole, View.read_whole]
  show R ((Rect.unit (s := S128x224) (k2_off127 t) S1x16.size iW).idx (Fin.cons ⟨0, Nat.one_pos⟩ (ix1 r))) = _
  refine congrArg R (funext fun a => Fin.ext ?_)
  match a with
  | ⟨0, _⟩ => show k2_off127 t 0 + 1 * 0 = (2 * (2 * t.val + 1) + 0) / 2 % 128; omega
  | ⟨1, _⟩ => show k2_off127 t 1 + 1 * r.val = (112 * ((2 * (2 * t.val + 1) + 0) % 2) + (96 + r.val)) % 224; omega

/-! ## From a row buffer's rows, as the gathers leave them, to the rows of a unit -/

/-- A row buffer that reads, at row `j`, the packed table's row whose number scratch 1 holds at place `o + j`, where
    scratch 1 holds the packed row numbers of the subcore's index words and `o` is where unit `u`'s begin, holds the rows
    unit `u`'s index words name. -/
theorem bufRows_of_rows {g' : FVec F S100x128 .f32} {fT : FVec F S507904x128 .f32} {R : IVec S128x224 32} {fpv : S28672.Idx → BitVec 32} {N : ℕ}
    (u o : ℕ) (hu : u < 256) (ho : o = 112 * u) (hN : 28672 ≤ 16 * N)
    (hrows : ∀ (j : Fin 100) (c : Fin 128), g' (ix2 j c)
      = fT (ix2 ⟨(fpv (ix1 ⟨((![o] : Fin 1 → ℕ) 0 + j.val) % 28672, Nat.mod_lt _ (by decide)⟩)).toNat % 507904, Nat.mod_lt _ (by decide)⟩ c))
    (hPV : ∀ y : S28672.Idx, (y 0).val < 16 * N → fpv y = PVof R y) : BufRows g' fT R u := by
  intro j c
  rw [hrows j c]
  subst ho
  have hlt : ((ix1 (⟨(112 * u + j.val) % 28672, Nat.mod_lt _ (by decide)⟩ : Fin 28672) : S28672.Idx) 0).val < 16 * N :=
    lt_of_lt_of_le (Nat.mod_lt _ (by decide)) hN
  have e := hPV (ix1 ⟨(112 * u + j.val) % 28672, Nat.mod_lt _ (by decide)⟩) hlt
  exact congrArg (fun x : BitVec 32 => fT (ix2 (⟨x.toNat % 507904, Nat.mod_lt _ (by decide)⟩ : Fin 507904) c)) (e.trans (PVof_unit R u j.val hu j.isLt))

/-- The sixteen index words the remainder loads. -/
abbrev b_remW (t : Fin k2_t2_loop.trips) (R : IVec S128x224 32) (iW : ∀ a, k2_off127 t a + S1x16.size a ≤ S128x224.size a) : Vec F S1x16 .i32 :=
  View.readAt (Elt F) (sRaw).view (Rect.unit (s := S128x224) (k2_off127 t) S1x16.size iW).toLoadRect R

/-- The lane offset of word `r` of them, as the body extracts it. -/
abbrev b_remS (t : Fin k2_t2_loop.trips) (R : IVec S128x224 32) (iW : ∀ a, k2_off127 t a + S1x16.size a ≤ S128x224.size a) (r : ℕ) (h1 : S16.Slices ![r] S1) : BitVec 32 :=
  extractAt ![0] (extractStridedSlice S1 ![r] (b_laneOffs (F := F) (b_remW (F := F) t R iW)) h1) inpos_S1_p0

/-- A sixteen-lane load of the third row buffer, as a vector. -/
abbrev b_ldRow2 (g : (sR2).view.ty.Contents (Elt F)) (off : Fin 2 → ℕ) (inb : ∀ a, off a + S1x16.size a ≤ S100x128.size a) : FVec F S16 .f32 :=
  shapeCast S16 (View.readAt (Elt F) (sR2).view (Rect.unit (s := S100x128) off S1x16.size inb).toLoadRect g) shapeCasts_S1x16_S16

set_option maxHeartbeats 2000000 in
/-- The remainder after the third accumulate loop: from the sums after 96 rows of the first half of bag `2 t + 1`, the
    four rows 96 to 99 added complete the half — the sums its second half starts from. -/
theorem rem5_step {R : IVec S128x224 32} {fT : FVec F S507904x128 .f32} (t : Fin k2_t2_loop.trips)
    (g : (sR2).view.ty.Contents (Elt F))
    (hrows4 : BufRows ((sR2).view.read (Elt F) g) fT R (4 * t.val + 2))
    {iW : ∀ a, k2_off127 t a + S1x16.size a ≤ S128x224.size a}
    {i00 : ∀ a, (k2_off128 (b_remS (F := F) t R iW 0 slices_S16_o0_S1)) a + S1x16.size a ≤ S100x128.size a}
    {i01 : ∀ a, (k2_off129 (b_remS (F := F) t R iW 0 slices_S16_o0_S1) 16#32) a + S1x16.size a ≤ S100x128.size a}
    {i02 : ∀ a, (k2_off129 (b_remS (F := F) t R iW 0 slices_S16_o0_S1) 32#32) a + S1x16.size a ≤ S100x128.size a}
    {i03 : ∀ a, (k2_off129 (b_remS (F := F) t R iW 0 slices_S16_o0_S1) 48#32) a + S1x16.size a ≤ S100x128.size a}
    {i10 : ∀ a, (k2_off130 (b_remS (F := F) t R iW 1 slices_S16_o1_S1)) a + S1x16.size a ≤ S100x128.size a}
    {i11 : ∀ a, (k2_off131 (b_remS (F := F) t R iW 1 slices_S16_o1_S1) 16#32) a + S1x16.size a ≤ S100x128.size a}
    {i12 : ∀ a, (k2_off131 (b_remS (F := F) t R iW 1 slices_S16_o1_S1) 32#32) a + S1x16.size a ≤ S100x128.size a}
    {i13 : ∀ a, (k2_off131 (b_remS (F := F) t R iW 1 slices_S16_o1_S1) 48#32) a + S1x16.size a ≤ S100x128.size a}
    {i20 : ∀ a, (k2_off132 (b_remS (F := F) t R iW 2 slices_S16_o2_S1)) a + S1x16.size a ≤ S100x128.size a}
    {i21 : ∀ a, (k2_off133 (b_remS (F := F) t R iW 2 slices_S16_o2_S1) 16#32) a + S1x16.size a ≤ S100x128.size a}
    {i22 : ∀ a, (k2_off133 (b_remS (F := F) t R iW 2 slices_S16_o2_S1) 32#32) a + S1x16.size a ≤ S100x128.size a}
    {i23 : ∀ a, (k2_off133 (b_remS (F := F) t R iW 2 slices_S16_o2_S1) 48#32) a + S1x16.size a ≤ S100x128.size a}
    {i30 : ∀ a, (k2_off134 (b_remS (F := F) t R iW 3 slices_S16_o3_S1)) a + S1x16.size a ≤ S100x128.size a}
    {i31 : ∀ a, (k2_off135 (b_remS (F := F) t R iW 3 slices_S16_o3_S1) 16#32) a + S1x16.size a ≤ S100x128.size a}
    {i32 : ∀ a, (k2_off135 (b_remS (F := F) t R iW 3 slices_S16_o3_S1) 32#32) a + S1x16.size a ≤ S100x128.size a}
    {i33 : ∀ a, (k2_off135 (b_remS (F := F) t R iW 3 slices_S16_o3_S1) 48#32) a + S1x16.size a ≤ S100x128.size a}
    (acc : TileAcc F)
    (h : TileBagAt R fT (2 * t.val + 1) 0 (16 * Scf.trips k2_t5_loop.lb k2_t5_loop.ub k2_t5_loop.st) acc) :
    TileBagAt R fT (2 * t.val + 1) 1 0
      (addf (addf (addf (addf (acc.1) (b_ldRow2 g (k2_off128 (b_remS (F := F) t R iW 0 slices_S16_o0_S1)) i00)) (b_ldRow2 g (k2_off130 (b_remS (F := F) t R iW 1 slices_S16_o1_S1)) i10)) (b_ldRow2 g (k2_off132 (b_remS (F := F) t R iW 2 slices_S16_o2_S1)) i20)) (b_ldRow2 g (k2_off134 (b_remS (F := F) t R iW 3 slices_S16_o3_S1)) i30),
        addf (addf (addf (addf (acc.2.1) (b_ldRow2 g (k2_off129 (b_remS (F := F) t R iW 0 slices_S16_o0_S1) 16#32) i01)) (b_ldRow2 g (k2_off131 (b_remS (F := F) t R iW 1 slices_S16_o1_S1) 16#32) i11)) (b_ldRow2 g (k2_off133 (b_remS (F := F) t R iW 2 slices_S16_o2_S1) 16#32) i21)) (b_ldRow2 g (k2_off135 (b_remS (F := F) t R iW 3 slices_S16_o3_S1) 16#32) i31),
        addf (addf (addf (addf (acc.2.2.1) (b_ldRow2 g (k2_off129 (b_remS (F := F) t R iW 0 slices_S16_o0_S1) 32#32) i02)) (b_ldRow2 g (k2_off131 (b_remS (F := F) t R iW 1 slices_S16_o1_S1) 32#32) i12)) (b_ldRow2 g (k2_off133 (b_remS (F := F) t R iW 2 slices_S16_o2_S1) 32#32) i22)) (b_ldRow2 g (k2_off135 (b_remS (F := F) t R iW 3 slices_S16_o3_S1) 32#32) i32),
        addf (addf (addf (addf (acc.2.2.2) (b_ldRow2 g (k2_off129 (b_remS (F := F) t R iW 0 slices_S16_o0_S1) 48#32) i03)) (b_ldRow2 g (k2_off131 (b_remS (F := F) t R iW 1 slices_S16_o1_S1) 48#32) i13)) (b_ldRow2 g (k2_off133 (b_remS (F := F) t R iW 2 slices_S16_o2_S1) 48#32) i23)) (b_ldRow2 g (k2_off135 (b_remS (F := F) t R iW 3 slices_S16_o3_S1) 48#32) i33)) := by
  have ht : t.val < 32 := lt_of_lt_of_eq t.isLt (by decide)
  have h6 : Scf.trips k2_t5_loop.lb k2_t5_loop.ub k2_t5_loop.st = 6 := by decide
  have hrows : BufRows ((sR2).view.read (Elt F) g) fT R (2 * (2 * t.val + 1) + 0) := by
    have e : 4 * t.val + 2 = 2 * (2 * t.val + 1) + 0 := by omega
    rw [← e]; exact hrows4
  rw [h6] at h
  have hb0 := (bagAt_iff_bufAcc (b := 2 * t.val + 1) (h := 0) (by decide) hrows (by omega) acc).mp h
  have hs0 : (b_remS (F := F) t R iW 0 slices_S16_o0_S1) = offW (tileWord R (2 * (2 * t.val + 1) + 0) (96 + 0)) := by
    have e := b_laneOffs_at (F := F) (b_remW (F := F) t R iW) (⟨0, by decide⟩ : Fin 16) slices_S16_o0_S1 inpos_S1_p0
    exact e.trans (congrArg offW (b_idx_word127 (F := F) t R iW ⟨0, by decide⟩))
  have hb1 := hb0.row_ld (n := 96) (by omega) (k2_off128 (b_remS (F := F) t R iW 0 slices_S16_o0_S1)) (k2_off129 (b_remS (F := F) t R iW 0 slices_S16_o0_S1) 16#32) (k2_off129 (b_remS (F := F) t R iW 0 slices_S16_o0_S1) 32#32) (k2_off129 (b_remS (F := F) t R iW 0 slices_S16_o0_S1) 48#32)
    i00 i01 i02 i03 rfl rfl rfl rfl
    (by rw [hs0]; rfl) (by rw [hs0]; exact lane_val _ 16#32 (by decide)) (by rw [hs0]; exact lane_val _ 32#32 (by decide)) (by rw [hs0]; exact lane_val _ 48#32 (by decide))
  have hs1 : (b_remS (F := F) t R iW 1 slices_S16_o1_S1) = offW (tileWord R (2 * (2 * t.val + 1) + 0) (96 + 1)) := by
    have e := b_laneOffs_at (F := F) (b_remW (F := F) t R iW) (⟨1, by decide⟩ : Fin 16) slices_S16_o1_S1 inpos_S1_p0
    exact e.trans (congrArg offW (b_idx_word127 (F := F) t R iW ⟨1, by decide⟩))
  have hb2 := hb1.row_ld (n := 97) (by omega) (k2_off130 (b_remS (F := F) t R iW 1 slices_S16_o1_S1)) (k2_off131 (b_remS (F := F) t R iW 1 slices_S16_o1_S1) 16#32) (k2_off131 (b_remS (F := F) t R iW 1 slices_S16_o1_S1) 32#32) (k2_off131 (b_remS (F := F) t R iW 1 slices_S16_o1_S1) 48#32)
    i10 i11 i12 i13 rfl rfl rfl rfl
    (by rw [hs1]; rfl) (by rw [hs1]; exact lane_val _ 16#32 (by decide)) (by rw [hs1]; exact lane_val _ 32#32 (by decide)) (by rw [hs1]; exact lane_val _ 48#32 (by decide))
  have hs2 : (b_remS (F := F) t R iW 2 slices_S16_o2_S1) = offW (tileWord R (2 * (2 * t.val + 1) + 0) (96 + 2)) := by
    have e := b_laneOffs_at (F := F) (b_remW (F := F) t R iW) (⟨2, by decide⟩ : Fin 16) slices_S16_o2_S1 inpos_S1_p0
    exact e.trans (congrArg offW (b_idx_word127 (F := F) t R iW ⟨2, by decide⟩))
  have hb3 := hb2.row_ld (n := 98) (by omega) (k2_off132 (b_remS (F := F) t R iW 2 slices_S16_o2_S1)) (k2_off133 (b_remS (F := F) t R iW 2 slices_S16_o2_S1) 16#32) (k2_off133 (b_remS (F := F) t R iW 2 slices_S16_o2_S1) 32#32) (k2_off133 (b_remS (F := F) t R iW 2 slices_S16_o2_S1) 48#32)
    i20 i21 i22 i23 rfl rfl rfl rfl
    (by rw [hs2]; rfl) (by rw [hs2]; exact lane_val _ 16#32 (by decide)) (by rw [hs2]; exact lane_val _ 32#32 (by decide)) (by rw [hs2]; exact lane_val _ 48#32 (by decide))
  have hs3 : (b_remS (F := F) t R iW 3 slices_S16_o3_S1) = offW (tileWord R (2 * (2 * t.val + 1) + 0) (96 + 3)) := by
    have e := b_laneOffs_at (F := F) (b_remW (F := F) t R iW) (⟨3, by decide⟩ : Fin 16) slices_S16_o3_S1 inpos_S1_p0
    exact e.trans (congrArg offW (b_idx_word127 (F := F) t R iW ⟨3, by decide⟩))
  have hb4 := hb3.row_ld (n := 99) (by omega) (k2_off134 (b_remS (F := F) t R iW 3 slices_S16_o3_S1)) (k2_off135 (b_remS (F := F) t R iW 3 slices_S16_o3_S1) 16#32) (k2_off135 (b_remS (F := F) t R iW 3 slices_S16_o3_S1) 32#32) (k2_off135 (b_remS (F := F) t R iW 3 slices_S16_o3_S1) 48#32)
    i30 i31 i32 i33 rfl rfl rfl rfl
    (by rw [hs3]; rfl) (by rw [hs3]; exact lane_val _ 16#32 (by decide)) (by rw [hs3]; exact lane_val _ 32#32 (by decide)) (by rw [hs3]; exact lane_val _ 48#32 (by decide))
  have h100 := (bagAt_iff_bufAcc (b := 2 * t.val + 1) (h := 0) (by decide) hrows (by omega) _).mpr hb4
  intro q l
  refine (h100 q l).trans ?_
  unfold tileHalfV
  rw [if_pos rfl, if_neg (by decide)]
  rfl

/-! ## The index words of the second accumulate loop -/

/-- Outer trip `t`, inner trip `k` of the second accumulate loop loads the index words of bag row `2 t`, columns `112 + 16 k` on. -/
theorem k2_off47_eq : ∀ (t : Fin k2_t2_loop.trips) (k : Fin k2_t4_loop.trips), k2_off47 t k = ![2 * t.val, 112 + 16 * k.val] := by decide +kernel

end Cert.Proof.KI

end
-- ==== Proof.KITileStep_f.lean ====
/-
  The accumulate loops of the second outer loop, first bag of a trip: the index words a trip of sixteen rows loads are
  the half bag's, and one trip (and the four-row remainder) adds the half bag's next rows onto the four carried sums.
-/
import proofs.«207435_g27118423507386_cont_sun_m_668_27_alg».proof.Proof.KITileValAcc
import proofs.«207435_g27118423507386_cont_sun_m_668_27_alg».proof.Proof.KITileGather

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

/-- The index words trip `k` of the first accumulate loop of outer trip `t` loads: bag row `64 + 2 t`, columns `16 k` on;
    of the second: columns `112 + 16 k` on; the remainder's: columns 96 on. -/
theorem k2_off185_eq : ∀ (t : Fin k2_t7_loop.trips) (k : Fin k2_t8_loop.trips), k2_off185 t k = ![64 + 2 * t.val, 16 * k.val] := by decide +kernel
theorem k2_off228_eq : ∀ (t : Fin k2_t7_loop.trips) (k : Fin k2_t9_loop.trips), k2_off228 t k = ![64 + 2 * t.val, 112 + 16 * k.val] := by decide +kernel
theorem k2_off218_eq : ∀ (t : Fin k2_t7_loop.trips), k2_off218 t = ![64 + 2 * t.val, 96] := by decide +kernel

theorem f_idx_word8 (t : Fin k2_t7_loop.trips) (k : Fin k2_t8_loop.trips) (R : IVec S128x224 32) (r : Fin 16) :
    View.ld (Val := Elt F) (e' := .i32) R (Rect.unit (s := S128x224) (k2_off185 t k) S1x16.size (k2_off185_inb t k)) (Fin.cons ⟨0, Nat.one_pos⟩ (ix1 r))
      = tileWord R (128 + 4 * t.val) (16 * k.val + r.val) := by
  have ht : t.val < 32 := lt_of_lt_of_eq t.isLt (by decide)
  have hk : k.val < 6 := lt_of_lt_of_eq k.isLt (by decide)
  have h0 : k2_off185 t k 0 = 64 + 2 * t.val := by rw [k2_off185_eq]; rfl
  have h1 : k2_off185 t k 1 = 16 * k.val := by rw [k2_off185_eq]; rfl
  have hr := r.isLt
  unfold tileWord
  show R ((Rect.unit (s := S128x224) (k2_off185 t k) S1x16.size (k2_off185_inb t k)).idx (Fin.cons ⟨0, Nat.one_pos⟩ (ix1 r))) = _
  refine congrArg R (funext fun a => Fin.ext ?_)
  match a with
  | ⟨0, _⟩ => show k2_off185 t k 0 + 1 * 0 = (128 + 4 * t.val) / 2 % 128; omega
  | ⟨1, _⟩ => show k2_off185 t k 1 + 1 * r.val = (112 * ((128 + 4 * t.val) % 2) + (16 * k.val + r.val)) % 224; omega

theorem f_idx_word9 (t : Fin k2_t7_loop.trips) (k : Fin k2_t9_loop.trips) (R : IVec S128x224 32) (r : Fin 16) :
    View.ld (Val := Elt F) (e' := .i32) R (Rect.unit (s := S128x224) (k2_off228 t k) S1x16.size (k2_off228_inb t k)) (Fin.cons ⟨0, Nat.one_pos⟩ (ix1 r))
      = tileWord R (128 + 4 * t.val + 1) (16 * k.val + r.val) := by
  have ht : t.val < 32 := lt_of_lt_of_eq t.isLt (by decide)
  have hk : k.val < 6 := lt_of_lt_of_eq k.isLt (by decide)
  have h0 : k2_off228 t k 0 = 64 + 2 * t.val := by rw [k2_off228_eq]; rfl
  have h1 : k2_off228 t k 1 = 112 + 16 * k.val := by rw [k2_off228_eq]; rfl
  have hr := r.isLt
  unfold tileWord
  show R ((Rect.unit (s := S128x224) (k2_off228 t k) S1x16.size (k2_off228_inb t k)).idx (Fin.cons ⟨0, Nat.one_pos⟩ (ix1 r))) = _
  refine congrArg R (funext fun a => Fin.ext ?_)
  match a with
  | ⟨0, _⟩ => show k2_off228 t k 0 + 1 * 0 = (128 + 4 * t.val + 1) / 2 % 128; omega
  | ⟨1, _⟩ => show k2_off228 t k 1 + 1 * r.val = (112 * ((128 + 4 * t.val + 1) % 2) + (16 * k.val + r.val)) % 224; omega

theorem f_idx_word8r (t : Fin k2_t7_loop.trips) (R : IVec S128x224 32) (r : Fin 16) :
    View.ld (Val := Elt F) (e' := .i32) R (Rect.unit (s := S128x224) (k2_off218 t) S1x16.size (k2_off218_inb t)) (Fin.cons ⟨0, Nat.one_pos⟩ (ix1 r))
      = tileWord R (128 + 4 * t.val) (96 + r.val) := by
  have ht : t.val < 32 := lt_of_lt_of_eq t.isLt (by decide)
  have h0 : k2_off218 t 0 = 64 + 2 * t.val := by rw [k2_off218_eq]; rfl
  have h1 : k2_off218 t 1 = 96 := by rw [k2_off218_eq]; rfl
  have hr := r.isLt
  unfold tileWord
  show R ((Rect.unit (s := S128x224) (k2_off218 t) S1x16.size (k2_off218_inb t)).idx (Fin.cons ⟨0, Nat.one_pos⟩ (ix1 r))) = _
  refine congrArg R (funext fun a => Fin.ext ?_)
  match a with
  | ⟨0, _⟩ => show k2_off218 t 0 + 1 * 0 = (128 + 4 * t.val) / 2 % 128; omega
  | ⟨1, _⟩ => show k2_off218 t 1 + 1 * r.val = (112 * ((128 + 4 * t.val) % 2) + (96 + r.val)) % 224; omega

section Bridge
variable (d : Dev nD) (L : grid2.Coords)

/-- A row buffer that holds the packed table's rows named by the hundred row numbers scratch 1 lists from place
    `112 u`, scratch 1 holding the packed row numbers of the subcore's index words, holds the rows of unit `u`. -/
theorem bufRows_of_rows_f (rM : Memref sig .scVector .vmem S100x128 .f32) (R : IVec S128x224 32) (fT : FVec F S507904x128 .f32)
    (fp : Buf (Elt F) ((Memref.whole cc2_scratch1 : Memref sig .scVector .vmem S28672 .i32).view.loc (V d (cV L) (jV L))))
    (o u : ℕ) (g : Buf (Elt F) (rM.view.loc (V d (cV L) (jV L))))
    (N : ℕ) (hN : 28672 ≤ 16 * N)
    (hPV : ∀ y : S28672.Idx, (y 0).val < 16 * N → (Memref.whole cc2_scratch1 : Memref sig .scVector .vmem S28672 .i32).view.read (Elt F) fp y = PVof R y)
    (ho : o = 112 * u) (hu : u < 256)
    (hrows : ∀ (j : Fin 100) (c : Fin 128), rM.view.read (Elt F) g (ix2 j c)
      = fT (ix2 ⟨((Memref.whole cc2_scratch1 : Memref sig .scVector .vmem S28672 .i32).view.read (Elt F) fp (ix1 ⟨((![o] : Fin 1 → ℕ) 0 + j.val) % 28672, Nat.mod_lt _ (by decide)⟩)).toNat % 507904,
          Nat.mod_lt _ (by decide)⟩ c)) :
    BufRows (rM.view.read (Elt F) g) fT R u := by
  intro j c
  rw [hrows j c]
  have hy : ((ix1 (⟨((![o] : Fin 1 → ℕ) 0 + j.val) % 28672, Nat.mod_lt _ (by decide)⟩ : Fin 28672) : S28672.Idx) 0).val < 16 * N :=
    lt_of_lt_of_le (Nat.mod_lt _ (by decide)) hN
  rw [hPV _ hy]
  subst ho
  rw [show ((![112 * u] : Fin 1 → ℕ) 0 + j.val) = 112 * u + j.val from rfl, PVof_unit R u j.val hu j.isLt]

end Bridge

section Steps

variable (d : Dev nD) (L : grid2.Coords)

/-- A sixteen-lane load of a row buffer, as a vector. -/
abbrev f_ldRow (rM : Memref sig .scVector .vmem S100x128 .f32) (g : Buf (Elt F) (rM.view.loc (V d (cV L) (jV L))))
    (off : Fin 2 → ℕ) (inb : ∀ a, off a + S1x16.size a ≤ S100x128.size a) : FVec F S16 .f32 :=
  shapeCast S16 (View.readAt (Elt F) rM.view (Rect.unit (s := S100x128) off S1x16.size inb).toLoadRect g) shapeCasts_S1x16_S16

/-- The sixteen index words a trip loads from the subcore's index rows. -/
abbrev f_ldIdx (R : IVec S128x224 32) (off : Fin 2 → ℕ) (inb : ∀ a, off a + S1x16.size a ≤ S128x224.size a) : Vec F S1x16 .i32 :=
  View.readAt (Elt F) (Memref.whole cc2_scratch0 : Memref sig .scVector .vmem S128x224 .i32).view (Rect.unit (s := S128x224) off S1x16.size inb).toLoadRect R

/-- Lane offset `r` of the sixteen a trip computes. -/
abbrev f_laneW (W : Vec F S1x16 .i32) (r : ℕ) (h1 : S16.Slices ![r] S1) (h2 : ∀ a, (![0] : Fin 1 → ℕ) a < S1.size a) : BitVec 32 :=
  extractAt ![0] (extractStridedSlice S1 ![r] (k2_pay2 (F := F) W) h1) h2

/-- The load as the value library reads it. -/
theorem f_ldRow_eq (rM : Memref sig .scVector .vmem S100x128 .f32) (g : Buf (Elt F) (rM.view.loc (V d (cV L) (jV L))))
    (off : Fin 2 → ℕ) (inb : ∀ a, off a + S1x16.size a ≤ S100x128.size a) :
    f_ldRow d L rM g off inb = shapeCast S16 (View.ld (Val := Elt F) (e' := .f32) (rM.view.read (Elt F) g) (Rect.unit (s := S100x128) off S1x16.size inb)) shapeCasts_S1x16_S16 := rfl

theorem f_ldIdx_eq (R : IVec S128x224 32) (off : Fin 2 → ℕ) (inb : ∀ a, off a + S1x16.size a ≤ S128x224.size a) :
    f_ldIdx (F := F) R off inb = View.ld (Val := Elt F) (e' := .i32) R (Rect.unit (s := S128x224) off S1x16.size inb) := rfl

/-- One more row off a row buffer, at a literal or computed row number `n`: four loads at row `n` and at the lane offset
    `s` of the row's index word plus 0, 16, 32, 48, each added to its sum. -/
theorem BufAccAt.f_row_rd (rM : Memref sig .scVector .vmem S100x128 .f32) (g : Buf (Elt F) (rM.view.loc (V d (cV L) (jV L))))
    {xs : ℕ → BitVec 32} {n : ℕ} {init : Fin 4 → Fin 16 → F .f32} {A : Acc4 F}
    (h : BufAccAt (bufTerm (rM.view.read (Elt F) g) xs) n init A) (hn : n < 100)
    (s : BitVec 32) (hs : s = offW (xs n))
    (off0 off1 off2 off3 : Fin 2 → ℕ)
    {inb0 : ∀ a, off0 a + S1x16.size a ≤ S100x128.size a} {inb1 : ∀ a, off1 a + S1x16.size a ≤ S100x128.size a}
    {inb2 : ∀ a, off2 a + S1x16.size a ≤ S100x128.size a} {inb3 : ∀ a, off3 a + S1x16.size a ≤ S100x128.size a}
    (e0 : off0 = ![n, (Scalar.indexCast s).toNat]) (e1 : off1 = ![n, (Scalar.indexCast (Scalar.addi s 16#32)).toNat])
    (e2 : off2 = ![n, (Scalar.indexCast (Scalar.addi s 32#32)).toNat]) (e3 : off3 = ![n, (Scalar.indexCast (Scalar.addi s 48#32)).toNat]) :
    BufAccAt (bufTerm (rM.view.read (Elt F) g) xs) (n + 1) init
      (addf A.1 (f_ldRow d L rM g off0 inb0), addf A.2.1 (f_ldRow d L rM g off1 inb1), addf A.2.2.1 (f_ldRow d L rM g off2 inb2), addf A.2.2.2 (f_ldRow d L rM g off3 inb3)) := by
  subst hs
  refine h.row_ld hn off0 off1 off2 off3 inb0 inb1 inb2 inb3 ?_ ?_ ?_ ?_ ?_ ?_ ?_ ?_
  · rw [e0]; rfl
  · rw [e1]; rfl
  · rw [e2]; rfl
  · rw [e3]; rfl
  · rw [e0]; rfl
  · rw [e1]; exact lane_val _ 16#32 (by decide)
  · rw [e2]; exact lane_val _ 32#32 (by decide)
  · rw [e3]; exact lane_val _ 48#32 (by decide)

/-- The lane offset the kernel extracts for word `r` of the sixteen loaded is the lane offset of that index word. -/
theorem f_laneW_eq (W : Vec F S1x16 .i32) (r : Fin 16) (h1 : S16.Slices ![r.val] S1) (h2 : ∀ a, (![0] : Fin 1 → ℕ) a < S1.size a)
    (x : BitVec 32) (hx : W (Fin.cons ⟨0, Nat.one_pos⟩ (ix1 r)) = x) : f_laneW (F := F) W r.val h1 h2 = offW x := by
  rw [← hx]; exact pay2_lane W r h1 h2

/-- The four-row remainder of the first half of the first bag of trip `t` of the second outer loop: the carried sums
    after 96 rows take rows 96 to 99, which makes the whole first half: where the second half starts. -/
theorem rem8_step (t : Fin k2_t7_loop.trips) (R : IVec S128x224 32) (fT : FVec F S507904x128 .f32)
    (g : Buf (Elt F) ((Memref.whole cc2_scratch2 : Memref sig .scVector .vmem S100x128 .f32).view.loc (V d (cV L) (jV L)))) (acc0 : TileAcc F)
    (hrows : BufRows ((Memref.whole cc2_scratch2 : Memref sig .scVector .vmem S100x128 .f32).view.read (Elt F) g) fT R (128 + 4 * t.val))
    (hacc0 : TileBagAt R fT (64 + 2 * t.val + 0) 0 (16 * 6) acc0)
    {h2 : ∀ a, (![0] : Fin 1 → ℕ) a < S1.size a}
    {i00 i01 i02 i03 i10 i11 i12 i13 i20 i21 i22 i23 i30 i31 i32 i33} :
    TileBagAt R fT (64 + 2 * t.val + 0) 1 (16 * 0)
      (addf (addf (addf (addf acc0.1
            (f_ldRow d L (Memref.whole cc2_scratch2) g (k2_off219 (f_laneW (F := F) (f_ldIdx R (k2_off218 t) (k2_off218_inb t)) 0 slices_S16_o0_S1 h2)) i00))
            (f_ldRow d L (Memref.whole cc2_scratch2) g (k2_off221 (f_laneW (F := F) (f_ldIdx R (k2_off218 t) (k2_off218_inb t)) 1 slices_S16_o1_S1 h2)) i10))
            (f_ldRow d L (Memref.whole cc2_scratch2) g (k2_off223 (f_laneW (F := F) (f_ldIdx R (k2_off218 t) (k2_off218_inb t)) 2 slices_S16_o2_S1 h2)) i20))
            (f_ldRow d L (Memref.whole cc2_scratch2) g (k2_off225 (f_laneW (F := F) (f_ldIdx R (k2_off218 t) (k2_off218_inb t)) 3 slices_S16_o3_S1 h2)) i30),
        addf (addf (addf (addf acc0.2.1
            (f_ldRow d L (Memref.whole cc2_scratch2) g (k2_off220 (f_laneW (F := F) (f_ldIdx R (k2_off218 t) (k2_off218_inb t)) 0 slices_S16_o0_S1 h2) 16#32) i01))
            (f_ldRow d L (Memref.whole cc2_scratch2) g (k2_off222 (f_laneW (F := F) (f_ldIdx R (k2_off218 t) (k2_off218_inb t)) 1 slices_S16_o1_S1 h2) 16#32) i11))
            (f_ldRow d L (Memref.whole cc2_scratch2) g (k2_off224 (f_laneW (F := F) (f_ldIdx R (k2_off218 t) (k2_off218_inb t)) 2 slices_S16_o2_S1 h2) 16#32) i21))
            (f_ldRow d L (Memref.whole cc2_scratch2) g (k2_off226 (f_laneW (F := F) (f_ldIdx R (k2_off218 t) (k2_off218_inb t)) 3 slices_S16_o3_S1 h2) 16#32) i31),
        addf (addf (addf (addf acc0.2.2.1
            (f_ldRow d L (Memref.whole cc2_scratch2) g (k2_off220 (f_laneW (F := F) (f_ldIdx R (k2_off218 t) (k2_off218_inb t)) 0 slices_S16_o0_S1 h2) 32#32) i02))
            (f_ldRow d L (Memref.whole cc2_scratch2) g (k2_off222 (f_laneW (F := F) (f_ldIdx R (k2_off218 t) (k2_off218_inb t)) 1 slices_S16_o1_S1 h2) 32#32) i12))
            (f_ldRow d L (Memref.whole cc2_scratch2) g (k2_off224 (f_laneW (F := F) (f_ldIdx R (k2_off218 t) (k2_off218_inb t)) 2 slices_S16_o2_S1 h2) 32#32) i22))
            (f_ldRow d L (Memref.whole cc2_scratch2) g (k2_off226 (f_laneW (F := F) (f_ldIdx R (k2_off218 t) (k2_off218_inb t)) 3 slices_S16_o3_S1 h2) 32#32) i32),
        addf (addf (addf (addf acc0.2.2.2
            (f_ldRow d L (Memref.whole cc2_scratch2) g (k2_off220 (f_laneW (F := F) (f_ldIdx R (k2_off218 t) (k2_off218_inb t)) 0 slices_S16_o0_S1 h2) 48#32) i03))
            (f_ldRow d L (Memref.whole cc2_scratch2) g (k2_off222 (f_laneW (F := F) (f_ldIdx R (k2_off218 t) (k2_off218_inb t)) 1 slices_S16_o1_S1 h2) 48#32) i13))
            (f_ldRow d L (Memref.whole cc2_scratch2) g (k2_off224 (f_laneW (F := F) (f_ldIdx R (k2_off218 t) (k2_off218_inb t)) 2 slices_S16_o2_S1 h2) 48#32) i23))
            (f_ldRow d L (Memref.whole cc2_scratch2) g (k2_off226 (f_laneW (F := F) (f_ldIdx R (k2_off218 t) (k2_off218_inb t)) 3 slices_S16_o3_S1 h2) 48#32) i33)) := by
  have hu : 2 * (64 + 2 * t.val + 0) + 0 = 128 + 4 * t.val := by omega
  have hrows' : BufRows ((Memref.whole cc2_scratch2 : Memref sig .scVector .vmem S100x128 .f32).view.read (Elt F) g) fT R (2 * (64 + 2 * t.val + 0) + 0) := by rw [hu]; exact hrows
  have hb := (bagAt_iff_bufAcc (by decide : 0 < 2) hrows' (by decide : 16 * 6 ≤ 100) acc0).mp hacc0
  rw [hu] at hb
  have hw0 := f_laneW_eq (F := F) (f_ldIdx R (k2_off218 t) (k2_off218_inb t)) (0 : Fin 16) slices_S16_o0_S1 h2 _ (f_idx_word8r t R 0)
  have hw1 := f_laneW_eq (F := F) (f_ldIdx R (k2_off218 t) (k2_off218_inb t)) (1 : Fin 16) slices_S16_o1_S1 h2 _ (f_idx_word8r t R 1)
  have hw2 := f_laneW_eq (F := F) (f_ldIdx R (k2_off218 t) (k2_off218_inb t)) (2 : Fin 16) slices_S16_o2_S1 h2 _ (f_idx_word8r t R 2)
  have hw3 := f_laneW_eq (F := F) (f_ldIdx R (k2_off218 t) (k2_off218_inb t)) (3 : Fin 16) slices_S16_o3_S1 h2 _ (f_idx_word8r t R 3)
  have h1 := hb.f_row_rd d L (Memref.whole cc2_scratch2) g (by decide) _ hw0 _ _ _ _ (inb0 := i00) (inb1 := i01) (inb2 := i02) (inb3 := i03) rfl rfl rfl rfl
  have h2' := h1.f_row_rd d L (Memref.whole cc2_scratch2) g (by decide) _ hw1 _ _ _ _ (inb0 := i10) (inb1 := i11) (inb2 := i12) (inb3 := i13) rfl rfl rfl rfl
  have h3 := h2'.f_row_rd d L (Memref.whole cc2_scratch2) g (by decide) _ hw2 _ _ _ _ (inb0 := i20) (inb1 := i21) (inb2 := i22) (inb3 := i23) rfl rfl rfl rfl
  have h4 := h3.f_row_rd d L (Memref.whole cc2_scratch2) g (by decide) _ hw3 _ _ _ _ (inb0 := i30) (inb1 := i31) (inb2 := i32) (inb3 := i33) rfl rfl rfl rfl
  suffices hfin : TileBagAt R fT (64 + 2 * t.val + 0) 0 100 _ from fun q l => (hfin q l).trans (by
    unfold tileHalfV; rw [if_pos rfl, if_neg (by decide)]; rfl)
  refine (bagAt_iff_bufAcc (by decide : 0 < 2) hrows' (le_refl 100) _).mpr ?_
  rw [hu]
  exact h4

/-- Row `r` of trip `kv`, on sums given one by one (`BufAccAt.row_k` read through the loads as the run names them). -/
theorem BufAccAt.f_row_kd (rM : Memref sig .scVector .vmem S100x128 .f32) (g : Buf (Elt F) (rM.view.loc (V d (cV L) (jV L))))
    {xs : ℕ → BitVec 32} {init : Fin 4 → Fin 16 → F .f32} {a0 a1 a2 a3 : FVec F S16 .f32} {kv r : ℕ}
    (h : BufAccAt (bufTerm (rM.view.read (Elt F) g) xs) (16 * kv + r) init (a0, a1, a2, a3)) (hk : kv < 6) (hr : r < 16)
    (s : BitVec 32) (hs : s = offW (xs (16 * kv + r)))
    (off0 off1 off2 off3 : Fin 2 → ℕ)
    {inb0 : ∀ a, off0 a + S1x16.size a ≤ S100x128.size a} {inb1 : ∀ a, off1 a + S1x16.size a ≤ S100x128.size a}
    {inb2 : ∀ a, off2 a + S1x16.size a ≤ S100x128.size a} {inb3 : ∀ a, off3 a + S1x16.size a ≤ S100x128.size a}
    (e0 : off0 = ![(Scalar.indexCast (Scalar.addi (Scalar.muli (Scf.iv 0#32 1#32 kv) 16#32) (BitVec.ofNat 32 r))).toNat, (Scalar.indexCast s).toNat])
    (e1 : off1 = ![(Scalar.indexCast (Scalar.addi (Scalar.muli (Scf.iv 0#32 1#32 kv) 16#32) (BitVec.ofNat 32 r))).toNat, (Scalar.indexCast (Scalar.addi s 16#32)).toNat])
    (e2 : off2 = ![(Scalar.indexCast (Scalar.addi (Scalar.muli (Scf.iv 0#32 1#32 kv) 16#32) (BitVec.ofNat 32 r))).toNat, (Scalar.indexCast (Scalar.addi s 32#32)).toNat])
    (e3 : off3 = ![(Scalar.indexCast (Scalar.addi (Scalar.muli (Scf.iv 0#32 1#32 kv) 16#32) (BitVec.ofNat 32 r))).toNat, (Scalar.indexCast (Scalar.addi s 48#32)).toNat]) :
    BufAccAt (bufTerm (rM.view.read (Elt F) g) xs) (16 * kv + (r + 1)) init
      (addf a0 (f_ldRow d L rM g off0 inb0), addf a1 (f_ldRow d L rM g off1 inb1), addf a2 (f_ldRow d L rM g off2 inb2), addf a3 (f_ldRow d L rM g off3 inb3)) :=
  h.row_k hk hr s hs off0 off1 off2 off3 inb0 inb1 inb2 inb3 e0 e1 e2 e3

/-- One trip of the first accumulate loop of trip `t` of the second outer loop: sixteen more rows of the first half of the trip's first bag. -/
theorem trip8_step (t : Fin k2_t7_loop.trips) (k : Fin k2_t8_loop.trips) (hk6 : k.val < 6) (R : IVec S128x224 32) (fT : FVec F S507904x128 .f32)
    (g : Buf (Elt F) ((Memref.whole cc2_scratch2 : Memref sig .scVector .vmem S100x128 .f32).view.loc (V d (cV L) (jV L)))) (acc : TileAcc F)
    (hrows : BufRows ((Memref.whole cc2_scratch2 : Memref sig .scVector .vmem S100x128 .f32).view.read (Elt F) g) fT R (128 + 4 * t.val))
    (hP : TileBagAt R fT (64 + 2 * t.val + 0) 0 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (64 + 2 * t.val + 0) 0 (16 * (k.val + 1))
      (addf (addf (addf (addf (addf (addf (addf (addf (addf (addf (addf (addf (addf (addf (addf (addf (acc.1) (f_ldRow d L (Memref.whole cc2_scratch2 : Memref sig .scVector .vmem S100x128 .f32) g (k2_off186 k (f_laneW (F := F) (f_ldIdx R (k2_off185 t k) (k2_off185_inb t k)) 0 slices_S16_o0_S1 h2)) i0_0)) (f_ldRow d L (Memref.whole cc2_scratch2 : Memref sig .scVector .vmem S100x128 .f32) g (k2_off188 k (f_laneW (F := F) (f_ldIdx R (k2_off185 t k) (k2_off185_inb t k)) 1 slices_S16_o1_S1 h2)) i1_0)) (f_ldRow d L (Memref.whole cc2_scratch2 : Memref sig .scVector .vmem S100x128 .f32) g (k2_off190 k (f_laneW (F := F) (f_ldIdx R (k2_off185 t k) (k2_off185_inb t k)) 2 slices_S16_o2_S1 h2)) i2_0)) (f_ldRow d L (Memref.whole cc2_scratch2 : Memref sig .scVector .vmem S100x128 .f32) g (k2_off192 k (f_laneW (F := F) (f_ldIdx R (k2_off185 t k) (k2_off185_inb t k)) 3 slices_S16_o3_S1 h2)) i3_0)) (f_ldRow d L (Memref.whole cc2_scratch2 : Memref sig .scVector .vmem S100x128 .f32) g (k2_off194 k (f_laneW (F := F) (f_ldIdx R (k2_off185 t k) (k2_off185_inb t k)) 4 slices_S16_o4_S1 h2)) i4_0)) (f_ldRow d L (Memref.whole cc2_scratch2 : Memref sig .scVector .vmem S100x128 .f32) g (k2_off196 k (f_laneW (F := F) (f_ldIdx R (k2_off185 t k) (k2_off185_inb t k)) 5 slices_S16_o5_S1 h2)) i5_0)) (f_ldRow d L (Memref.whole cc2_scratch2 : Memref sig .scVector .vmem S100x128 .f32) g (k2_off198 k (f_laneW (F := F) (f_ldIdx R (k2_off185 t k) (k2_off185_inb t k)) 6 slices_S16_o6_S1 h2)) i6_0)) (f_ldRow d L (Memref.whole cc2_scratch2 : Memref sig .scVector .vmem S100x128 .f32) g (k2_off200 k (f_laneW (F := F) (f_ldIdx R (k2_off185 t k) (k2_off185_inb t k)) 7 slices_S16_o7_S1 h2)) i7_0)) (f_ldRow d L (Memref.whole cc2_scratch2 : Memref sig .scVector .vmem S100x128 .f32) g (k2_off202 k (f_laneW (F := F) (f_ldIdx R (k2_off185 t k) (k2_off185_inb t k)) 8 slices_S16_o8_S1 h2)) i8_0)) (f_ldRow d L (Memref.whole cc2_scratch2 : Memref sig .scVector .vmem S100x128 .f32) g (k2_off204 k (f_laneW (F := F) (f_ldIdx R (k2_off185 t k) (k2_off185_inb t k)) 9 slices_S16_o9_S1 h2)) i9_0)) (f_ldRow d L (Memref.whole cc2_scratch2 : Memref sig .scVector .vmem S100x128 .f32) g (k2_off206 k (f_laneW (F := F) (f_ldIdx R (k2_off185 t k) (k2_off185_inb t k)) 10 slices_S16_o10_S1 h2)) i10_0)) (f_ldRow d L (Memref.whole cc2_scratch2 : Memref sig .scVector .vmem S100x128 .f32) g (k2_off208 k (f_laneW (F := F) (f_ldIdx R (k2_off185 t k) (k2_off185_inb t k)) 11 slices_S16_o11_S1 h2)) i11_0)) (f_ldRow d L (Memref.whole cc2_scratch2 : Memref sig .scVector .vmem S100x128 .f32) g (k2_off210 k (f_laneW (F := F) (f_ldIdx R (k2_off185 t k) (k2_off185_inb t k)) 12 slices_S16_o12_S1 h2)) i12_0)) (f_ldRow d L (Memref.whole cc2_scratch2 : Memref sig .scVector .vmem S100x128 .f32) g (k2_off212 k (f_laneW (F := F) (f_ldIdx R (k2_off185 t k) (k2_off185_inb t k)) 13 slices_S16_o13_S1 h2)) i13_0)) (f_ldRow d L (Memref.whole cc2_scratch2 : Memref sig .scVector .vmem S100x128 .f32) g (k2_off214 k (f_laneW (F := F) (f_ldIdx R (k2_off185 t k) (k2_off185_inb t k)) 14 slices_S16_o14_S1 h2)) i14_0)) (f_ldRow d L (Memref.whole cc2_scratch2 : Memref sig .scVector .vmem S100x128 .f32) g (k2_off216 k (f_laneW (F := F) (f_ldIdx R (k2_off185 t k) (k2_off185_inb t k)) 15 slices_S16_o15_S1 h2)) i15_0),
        addf (addf (addf (addf (addf (addf (addf (addf (addf (addf (addf (addf (addf (addf (addf (addf (acc.2.1) (f_ldRow d L (Memref.whole cc2_scratch2 : Memref sig .scVector .vmem S100x128 .f32) g (k2_off187 k (f_laneW (F := F) (f_ldIdx R (k2_off185 t k) (k2_off185_inb t k)) 0 slices_S16_o0_S1 h2) 16#32) i0_1)) (f_ldRow d L (Memref.whole cc2_scratch2 : Memref sig .scVector .vmem S100x128 .f32) g (k2_off189 k (f_laneW (F := F) (f_ldIdx R (k2_off185 t k) (k2_off185_inb t k)) 1 slices_S16_o1_S1 h2) 16#32) i1_1)) (f_ldRow d L (Memref.whole cc2_scratch2 : Memref sig .scVector .vmem S100x128 .f32) g (k2_off191 k (f_laneW (F := F) (f_ldIdx R (k2_off185 t k) (k2_off185_inb t k)) 2 slices_S16_o2_S1 h2) 16#32) i2_1)) (f_ldRow d L (Memref.whole cc2_scratch2 : Memref sig .scVector .vmem S100x128 .f32) g (k2_off193 k (f_laneW (F := F) (f_ldIdx R (k2_off185 t k) (k2_off185_inb t k)) 3 slices_S16_o3_S1 h2) 16#32) i3_1)) (f_ldRow d L (Memref.whole cc2_scratch2 : Memref sig .scVector .vmem S100x128 .f32) g (k2_off195 k (f_laneW (F := F) (f_ldIdx R (k2_off185 t k) (k2_off185_inb t k)) 4 slices_S16_o4_S1 h2) 16#32) i4_1)) (f_ldRow d L (Memref.whole cc2_scratch2 : Memref sig .scVector .vmem S100x128 .f32) g (k2_off197 k (f_laneW (F := F) (f_ldIdx R (k2_off185 t k) (k2_off185_inb t k)) 5 slices_S16_o5_S1 h2) 16#32) i5_1)) (f_ldRow d L (Memref.whole cc2_scratch2 : Memref sig .scVector .vmem S100x128 .f32) g (k2_off199 k (f_laneW (F := F) (f_ldIdx R (k2_off185 t k) (k2_off185_inb t k)) 6 slices_S16_o6_S1 h2) 16#32) i6_1)) (f_ldRow d L (Memref.whole cc2_scratch2 : Memref sig .scVector .vmem S100x128 .f32) g (k2_off201 k (f_laneW (F := F) (f_ldIdx R (k2_off185 t k) (k2_off185_inb t k)) 7 slices_S16_o7_S1 h2) 16#32) i7_1)) (f_ldRow d L (Memref.whole cc2_scratch2 : Memref sig .scVector .vmem S100x128 .f32) g (k2_off203 k (f_laneW (F := F) (f_ldIdx R (k2_off185 t k) (k2_off185_inb t k)) 8 slices_S16_o8_S1 h2) 16#32) i8_1)) (f_ldRow d L (Memref.whole cc2_scratch2 : Memref sig .scVector .vmem S100x128 .f32) g (k2_off205 k (f_laneW (F := F) (f_ldIdx R (k2_off185 t k) (k2_off185_inb t k)) 9 slices_S16_o9_S1 h2) 16#32) i9_1)) (f_ldRow d L (Memref.whole cc2_scratch2 : Memref sig .scVector .vmem S100x128 .f32) g (k2_off207 k (f_laneW (F := F) (f_ldIdx R (k2_off185 t k) (k2_off185_inb t k)) 10 slices_S16_o10_S1 h2) 16#32) i10_1)) (f_ldRow d L (Memref.whole cc2_scratch2 : Memref sig .scVector .vmem S100x128 .f32) g (k2_off209 k (f_laneW (F := F) (f_ldIdx R (k2_off185 t k) (k2_off185_inb t k)) 11 slices_S16_o11_S1 h2) 16#32) i11_1)) (f_ldRow d L (Memref.whole cc2_scratch2 : Memref sig .scVector .vmem S100x128 .f32) g (k2_off211 k (f_laneW (F := F) (f_ldIdx R (k2_off185 t k) (k2_off185_inb t k)) 12 slices_S16_o12_S1 h2) 16#32) i12_1)) (f_ldRow d L (Memref.whole cc2_scratch2 : Memref sig .scVector .vmem S100x128 .f32) g (k2_off213 k (f_laneW (F := F) (f_ldIdx R (k2_off185 t k) (k2_off185_inb t k)) 13 slices_S16_o13_S1 h2) 16#32) i13_1)) (f_ldRow d L (Memref.whole cc2_scratch2 : Memref sig .scVector .vmem S100x128 .f32) g (k2_off215 k (f_laneW (F := F) (f_ldIdx R (k2_off185 t k) (k2_off185_inb t k)) 14 slices_S16_o14_S1 h2) 16#32) i14_1)) (f_ldRow d L (Memref.whole cc2_scratch2 : Memref sig .scVector .vmem S100x128 .f32) g (k2_off217 k (f_laneW (F := F) (f_ldIdx R (k2_off185 t k) (k2_off185_inb t k)) 15 slices_S16_o15_S1 h2) 16#32) i15_1),
        addf (addf (addf (addf (addf (addf (addf (addf (addf (addf (addf (addf (addf (addf (addf (addf (acc.2.2.1) (f_ldRow d L (Memref.whole cc2_scratch2 : Memref sig .scVector .vmem S100x128 .f32) g (k2_off187 k (f_laneW (F := F) (f_ldIdx R (k2_off185 t k) (k2_off185_inb t k)) 0 slices_S16_o0_S1 h2) 32#32) i0_2)) (f_ldRow d L (Memref.whole cc2_scratch2 : Memref sig .scVector .vmem S100x128 .f32) g (k2_off189 k (f_laneW (F := F) (f_ldIdx R (k2_off185 t k) (k2_off185_inb t k)) 1 slices_S16_o1_S1 h2) 32#32) i1_2)) (f_ldRow d L (Memref.whole cc2_scratch2 : Memref sig .scVector .vmem S100x128 .f32) g (k2_off191 k (f_laneW (F := F) (f_ldIdx R (k2_off185 t k) (k2_off185_inb t k)) 2 slices_S16_o2_S1 h2) 32#32) i2_2)) (f_ldRow d L (Memref.whole cc2_scratch2 : Memref sig .scVector .vmem S100x128 .f32) g (k2_off193 k (f_laneW (F := F) (f_ldIdx R (k2_off185 t k) (k2_off185_inb t k)) 3 slices_S16_o3_S1 h2) 32#32) i3_2)) (f_ldRow d L (Memref.whole cc2_scratch2 : Memref sig .scVector .vmem S100x128 .f32) g (k2_off195 k (f_laneW (F := F) (f_ldIdx R (k2_off185 t k) (k2_off185_inb t k)) 4 slices_S16_o4_S1 h2) 32#32) i4_2)) (f_ldRow d L (Memref.whole cc2_scratch2 : Memref sig .scVector .vmem S100x128 .f32) g (k2_off197 k (f_laneW (F := F) (f_ldIdx R (k2_off185 t k) (k2_off185_inb t k)) 5 slices_S16_o5_S1 h2) 32#32) i5_2)) (f_ldRow d L (Memref.whole cc2_scratch2 : Memref sig .scVector .vmem S100x128 .f32) g (k2_off199 k (f_laneW (F := F) (f_ldIdx R (k2_off185 t k) (k2_off185_inb t k)) 6 slices_S16_o6_S1 h2) 32#32) i6_2)) (f_ldRow d L (Memref.whole cc2_scratch2 : Memref sig .scVector .vmem S100x128 .f32) g (k2_off201 k (f_laneW (F := F) (f_ldIdx R (k2_off185 t k) (k2_off185_inb t k)) 7 slices_S16_o7_S1 h2) 32#32) i7_2)) (f_ldRow d L (Memref.whole cc2_scratch2 : Memref sig .scVector .vmem S100x128 .f32) g (k2_off203 k (f_laneW (F := F) (f_ldIdx R (k2_off185 t k) (k2_off185_inb t k)) 8 slices_S16_o8_S1 h2) 32#32) i8_2)) (f_ldRow d L (Memref.whole cc2_scratch2 : Memref sig .scVector .vmem S100x128 .f32) g (k2_off205 k (f_laneW (F := F) (f_ldIdx R (k2_off185 t k) (k2_off185_inb t k)) 9 slices_S16_o9_S1 h2) 32#32) i9_2)) (f_ldRow d L (Memref.whole cc2_scratch2 : Memref sig .scVector .vmem S100x128 .f32) g (k2_off207 k (f_laneW (F := F) (f_ldIdx R (k2_off185 t k) (k2_off185_inb t k)) 10 slices_S16_o10_S1 h2) 32#32) i10_2)) (f_ldRow d L (Memref.whole cc2_scratch2 : Memref sig .scVector .vmem S100x128 .f32) g (k2_off209 k (f_laneW (F := F) (f_ldIdx R (k2_off185 t k) (k2_off185_inb t k)) 11 slices_S16_o11_S1 h2) 32#32) i11_2)) (f_ldRow d L (Memref.whole cc2_scratch2 : Memref sig .scVector .vmem S100x128 .f32) g (k2_off211 k (f_laneW (F := F) (f_ldIdx R (k2_off185 t k) (k2_off185_inb t k)) 12 slices_S16_o12_S1 h2) 32#32) i12_2)) (f_ldRow d L (Memref.whole cc2_scratch2 : Memref sig .scVector .vmem S100x128 .f32) g (k2_off213 k (f_laneW (F := F) (f_ldIdx R (k2_off185 t k) (k2_off185_inb t k)) 13 slices_S16_o13_S1 h2) 32#32) i13_2)) (f_ldRow d L (Memref.whole cc2_scratch2 : Memref sig .scVector .vmem S100x128 .f32) g (k2_off215 k (f_laneW (F := F) (f_ldIdx R (k2_off185 t k) (k2_off185_inb t k)) 14 slices_S16_o14_S1 h2) 32#32) i14_2)) (f_ldRow d L (Memref.whole cc2_scratch2 : Memref sig .scVector .vmem S100x128 .f32) g (k2_off217 k (f_laneW (F := F) (f_ldIdx R (k2_off185 t k) (k2_off185_inb t k)) 15 slices_S16_o15_S1 h2) 32#32) i15_2),
        addf (addf (addf (addf (addf (addf (addf (addf (addf (addf (addf (addf (addf (addf (addf (addf (acc.2.2.2) (f_ldRow d L (Memref.whole cc2_scratch2 : Memref sig .scVector .vmem S100x128 .f32) g (k2_off187 k (f_laneW (F := F) (f_ldIdx R (k2_off185 t k) (k2_off185_inb t k)) 0 slices_S16_o0_S1 h2) 48#32) i0_3)) (f_ldRow d L (Memref.whole cc2_scratch2 : Memref sig .scVector .vmem S100x128 .f32) g (k2_off189 k (f_laneW (F := F) (f_ldIdx R (k2_off185 t k) (k2_off185_inb t k)) 1 slices_S16_o1_S1 h2) 48#32) i1_3)) (f_ldRow d L (Memref.whole cc2_scratch2 : Memref sig .scVector .vmem S100x128 .f32) g (k2_off191 k (f_laneW (F := F) (f_ldIdx R (k2_off185 t k) (k2_off185_inb t k)) 2 slices_S16_o2_S1 h2) 48#32) i2_3)) (f_ldRow d L (Memref.whole cc2_scratch2 : Memref sig .scVector .vmem S100x128 .f32) g (k2_off193 k (f_laneW (F := F) (f_ldIdx R (k2_off185 t k) (k2_off185_inb t k)) 3 slices_S16_o3_S1 h2) 48#32) i3_3)) (f_ldRow d L (Memref.whole cc2_scratch2 : Memref sig .scVector .vmem S100x128 .f32) g (k2_off195 k (f_laneW (F := F) (f_ldIdx R (k2_off185 t k) (k2_off185_inb t k)) 4 slices_S16_o4_S1 h2) 48#32) i4_3)) (f_ldRow d L (Memref.whole cc2_scratch2 : Memref sig .scVector .vmem S100x128 .f32) g (k2_off197 k (f_laneW (F := F) (f_ldIdx R (k2_off185 t k) (k2_off185_inb t k)) 5 slices_S16_o5_S1 h2) 48#32) i5_3)) (f_ldRow d L (Memref.whole cc2_scratch2 : Memref sig .scVector .vmem S100x128 .f32) g (k2_off199 k (f_laneW (F := F) (f_ldIdx R (k2_off185 t k) (k2_off185_inb t k)) 6 slices_S16_o6_S1 h2) 48#32) i6_3)) (f_ldRow d L (Memref.whole cc2_scratch2 : Memref sig .scVector .vmem S100x128 .f32) g (k2_off201 k (f_laneW (F := F) (f_ldIdx R (k2_off185 t k) (k2_off185_inb t k)) 7 slices_S16_o7_S1 h2) 48#32) i7_3)) (f_ldRow d L (Memref.whole cc2_scratch2 : Memref sig .scVector .vmem S100x128 .f32) g (k2_off203 k (f_laneW (F := F) (f_ldIdx R (k2_off185 t k) (k2_off185_inb t k)) 8 slices_S16_o8_S1 h2) 48#32) i8_3)) (f_ldRow d L (Memref.whole cc2_scratch2 : Memref sig .scVector .vmem S100x128 .f32) g (k2_off205 k (f_laneW (F := F) (f_ldIdx R (k2_off185 t k) (k2_off185_inb t k)) 9 slices_S16_o9_S1 h2) 48#32) i9_3)) (f_ldRow d L (Memref.whole cc2_scratch2 : Memref sig .scVector .vmem S100x128 .f32) g (k2_off207 k (f_laneW (F := F) (f_ldIdx R (k2_off185 t k) (k2_off185_inb t k)) 10 slices_S16_o10_S1 h2) 48#32) i10_3)) (f_ldRow d L (Memref.whole cc2_scratch2 : Memref sig .scVector .vmem S100x128 .f32) g (k2_off209 k (f_laneW (F := F) (f_ldIdx R (k2_off185 t k) (k2_off185_inb t k)) 11 slices_S16_o11_S1 h2) 48#32) i11_3)) (f_ldRow d L (Memref.whole cc2_scratch2 : Memref sig .scVector .vmem S100x128 .f32) g (k2_off211 k (f_laneW (F := F) (f_ldIdx R (k2_off185 t k) (k2_off185_inb t k)) 12 slices_S16_o12_S1 h2) 48#32) i12_3)) (f_ldRow d L (Memref.whole cc2_scratch2 : Memref sig .scVector .vmem S100x128 .f32) g (k2_off213 k (f_laneW (F := F) (f_ldIdx R (k2_off185 t k) (k2_off185_inb t k)) 13 slices_S16_o13_S1 h2) 48#32) i13_3)) (f_ldRow d L (Memref.whole cc2_scratch2 : Memref sig .scVector .vmem S100x128 .f32) g (k2_off215 k (f_laneW (F := F) (f_ldIdx R (k2_off185 t k) (k2_off185_inb t k)) 14 slices_S16_o14_S1 h2) 48#32) i14_3)) (f_ldRow d L (Memref.whole cc2_scratch2 : Memref sig .scVector .vmem S100x128 .f32) g (k2_off217 k (f_laneW (F := F) (f_ldIdx R (k2_off185 t k) (k2_off185_inb t k)) 15 slices_S16_o15_S1 h2) 48#32) i15_3)) := by
  have hu : 2 * (64 + 2 * t.val + 0) + 0 = 128 + 4 * t.val := by omega
  have hrows' : BufRows ((Memref.whole cc2_scratch2 : Memref sig .scVector .vmem S100x128 .f32).view.read (Elt F) g) fT R (2 * (64 + 2 * t.val + 0) + 0) := by rw [hu]; exact hrows
  have hb := (bagAt_iff_bufAcc (by decide : 0 < 2) hrows' (by omega : 16 * k.val ≤ 100) acc).mp hP
  rw [hu] at hb
  have hs0 : BufAccAt (bufTerm ((Memref.whole cc2_scratch2 : Memref sig .scVector .vmem S100x128 .f32).view.read (Elt F) g) (tileWord R (128 + 4 * t.val))) (16 * k.val + 0) (bagInit R fT (64 + 2 * t.val + 0) 0)
      (acc.1, acc.2.1, acc.2.2.1, acc.2.2.2) := hb
  have hw0 := f_laneW_eq (F := F) (f_ldIdx R (k2_off185 t k) (k2_off185_inb t k)) (0 : Fin 16) slices_S16_o0_S1 h2 _ (f_idx_word8 t k R 0)
  have hs1 := hs0.f_row_kd d L (Memref.whole cc2_scratch2 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off185 t k) (k2_off185_inb t k)) (1 : Fin 16) slices_S16_o1_S1 h2 _ (f_idx_word8 t k R 1)
  have hs2 := hs1.f_row_kd d L (Memref.whole cc2_scratch2 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off185 t k) (k2_off185_inb t k)) (2 : Fin 16) slices_S16_o2_S1 h2 _ (f_idx_word8 t k R 2)
  have hs3 := hs2.f_row_kd d L (Memref.whole cc2_scratch2 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off185 t k) (k2_off185_inb t k)) (3 : Fin 16) slices_S16_o3_S1 h2 _ (f_idx_word8 t k R 3)
  have hs4 := hs3.f_row_kd d L (Memref.whole cc2_scratch2 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off185 t k) (k2_off185_inb t k)) (4 : Fin 16) slices_S16_o4_S1 h2 _ (f_idx_word8 t k R 4)
  have hs5 := hs4.f_row_kd d L (Memref.whole cc2_scratch2 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off185 t k) (k2_off185_inb t k)) (5 : Fin 16) slices_S16_o5_S1 h2 _ (f_idx_word8 t k R 5)
  have hs6 := hs5.f_row_kd d L (Memref.whole cc2_scratch2 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off185 t k) (k2_off185_inb t k)) (6 : Fin 16) slices_S16_o6_S1 h2 _ (f_idx_word8 t k R 6)
  have hs7 := hs6.f_row_kd d L (Memref.whole cc2_scratch2 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off185 t k) (k2_off185_inb t k)) (7 : Fin 16) slices_S16_o7_S1 h2 _ (f_idx_word8 t k R 7)
  have hs8 := hs7.f_row_kd d L (Memref.whole cc2_scratch2 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off185 t k) (k2_off185_inb t k)) (8 : Fin 16) slices_S16_o8_S1 h2 _ (f_idx_word8 t k R 8)
  have hs9 := hs8.f_row_kd d L (Memref.whole cc2_scratch2 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off185 t k) (k2_off185_inb t k)) (9 : Fin 16) slices_S16_o9_S1 h2 _ (f_idx_word8 t k R 9)
  have hs10 := hs9.f_row_kd d L (Memref.whole cc2_scratch2 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off185 t k) (k2_off185_inb t k)) (10 : Fin 16) slices_S16_o10_S1 h2 _ (f_idx_word8 t k R 10)
  have hs11 := hs10.f_row_kd d L (Memref.whole cc2_scratch2 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off185 t k) (k2_off185_inb t k)) (11 : Fin 16) slices_S16_o11_S1 h2 _ (f_idx_word8 t k R 11)
  have hs12 := hs11.f_row_kd d L (Memref.whole cc2_scratch2 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off185 t k) (k2_off185_inb t k)) (12 : Fin 16) slices_S16_o12_S1 h2 _ (f_idx_word8 t k R 12)
  have hs13 := hs12.f_row_kd d L (Memref.whole cc2_scratch2 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off185 t k) (k2_off185_inb t k)) (13 : Fin 16) slices_S16_o13_S1 h2 _ (f_idx_word8 t k R 13)
  have hs14 := hs13.f_row_kd d L (Memref.whole cc2_scratch2 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off185 t k) (k2_off185_inb t k)) (14 : Fin 16) slices_S16_o14_S1 h2 _ (f_idx_word8 t k R 14)
  have hs15 := hs14.f_row_kd d L (Memref.whole cc2_scratch2 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off185 t k) (k2_off185_inb t k)) (15 : Fin 16) slices_S16_o15_S1 h2 _ (f_idx_word8 t k R 15)
  have hs16 := hs15.f_row_kd d L (Memref.whole cc2_scratch2 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 0 < 2) hrows' (by omega : 16 * (k.val + 1) ≤ 100) _).mpr ?_
  rw [hu, show 16 * (k.val + 1) = 16 * k.val + (15 + 1) from by omega]
  exact hs16

/-- One trip of the second accumulate loop of trip `t` of the second outer loop: sixteen more rows of the second half of the trip's first bag. -/
theorem trip9_step (t : Fin k2_t7_loop.trips) (k : Fin k2_t9_loop.trips) (hk6 : k.val < 6) (R : IVec S128x224 32) (fT : FVec F S507904x128 .f32)
    (g : Buf (Elt F) ((Memref.whole cc2_scratch3 : Memref sig .scVector .vmem S100x128 .f32).view.loc (V d (cV L) (jV L)))) (acc : TileAcc F)
    (hrows : BufRows ((Memref.whole cc2_scratch3 : Memref sig .scVector .vmem S100x128 .f32).view.read (Elt F) g) fT R (128 + 4 * t.val + 1))
    (hP : TileBagAt R fT (64 + 2 * t.val + 0) 1 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (64 + 2 * t.val + 0) 1 (16 * (k.val + 1))
      (addf (addf (addf (addf (addf (addf (addf (addf (addf (addf (addf (addf (addf (addf (addf (addf (acc.1) (f_ldRow d L (Memref.whole cc2_scratch3 : Memref sig .scVector .vmem S100x128 .f32) g (k2_off229 k (f_laneW (F := F) (f_ldIdx R (k2_off228 t k) (k2_off228_inb t k)) 0 slices_S16_o0_S1 h2)) i0_0)) (f_ldRow d L (Memref.whole cc2_scratch3 : Memref sig .scVector .vmem S100x128 .f32) g (k2_off231 k (f_laneW (F := F) (f_ldIdx R (k2_off228 t k) (k2_off228_inb t k)) 1 slices_S16_o1_S1 h2)) i1_0)) (f_ldRow d L (Memref.whole cc2_scratch3 : Memref sig .scVector .vmem S100x128 .f32) g (k2_off233 k (f_laneW (F := F) (f_ldIdx R (k2_off228 t k) (k2_off228_inb t k)) 2 slices_S16_o2_S1 h2)) i2_0)) (f_ldRow d L (Memref.whole cc2_scratch3 : Memref sig .scVector .vmem S100x128 .f32) g (k2_off235 k (f_laneW (F := F) (f_ldIdx R (k2_off228 t k) (k2_off228_inb t k)) 3 slices_S16_o3_S1 h2)) i3_0)) (f_ldRow d L (Memref.whole cc2_scratch3 : Memref sig .scVector .vmem S100x128 .f32) g (k2_off237 k (f_laneW (F := F) (f_ldIdx R (k2_off228 t k) (k2_off228_inb t k)) 4 slices_S16_o4_S1 h2)) i4_0)) (f_ldRow d L (Memref.whole cc2_scratch3 : Memref sig .scVector .vmem S100x128 .f32) g (k2_off239 k (f_laneW (F := F) (f_ldIdx R (k2_off228 t k) (k2_off228_inb t k)) 5 slices_S16_o5_S1 h2)) i5_0)) (f_ldRow d L (Memref.whole cc2_scratch3 : Memref sig .scVector .vmem S100x128 .f32) g (k2_off241 k (f_laneW (F := F) (f_ldIdx R (k2_off228 t k) (k2_off228_inb t k)) 6 slices_S16_o6_S1 h2)) i6_0)) (f_ldRow d L (Memref.whole cc2_scratch3 : Memref sig .scVector .vmem S100x128 .f32) g (k2_off243 k (f_laneW (F := F) (f_ldIdx R (k2_off228 t k) (k2_off228_inb t k)) 7 slices_S16_o7_S1 h2)) i7_0)) (f_ldRow d L (Memref.whole cc2_scratch3 : Memref sig .scVector .vmem S100x128 .f32) g (k2_off245 k (f_laneW (F := F) (f_ldIdx R (k2_off228 t k) (k2_off228_inb t k)) 8 slices_S16_o8_S1 h2)) i8_0)) (f_ldRow d L (Memref.whole cc2_scratch3 : Memref sig .scVector .vmem S100x128 .f32) g (k2_off247 k (f_laneW (F := F) (f_ldIdx R (k2_off228 t k) (k2_off228_inb t k)) 9 slices_S16_o9_S1 h2)) i9_0)) (f_ldRow d L (Memref.whole cc2_scratch3 : Memref sig .scVector .vmem S100x128 .f32) g (k2_off249 k (f_laneW (F := F) (f_ldIdx R (k2_off228 t k) (k2_off228_inb t k)) 10 slices_S16_o10_S1 h2)) i10_0)) (f_ldRow d L (Memref.whole cc2_scratch3 : Memref sig .scVector .vmem S100x128 .f32) g (k2_off251 k (f_laneW (F := F) (f_ldIdx R (k2_off228 t k) (k2_off228_inb t k)) 11 slices_S16_o11_S1 h2)) i11_0)) (f_ldRow d L (Memref.whole cc2_scratch3 : Memref sig .scVector .vmem S100x128 .f32) g (k2_off253 k (f_laneW (F := F) (f_ldIdx R (k2_off228 t k) (k2_off228_inb t k)) 12 slices_S16_o12_S1 h2)) i12_0)) (f_ldRow d L (Memref.whole cc2_scratch3 : Memref sig .scVector .vmem S100x128 .f32) g (k2_off255 k (f_laneW (F := F) (f_ldIdx R (k2_off228 t k) (k2_off228_inb t k)) 13 slices_S16_o13_S1 h2)) i13_0)) (f_ldRow d L (Memref.whole cc2_scratch3 : Memref sig .scVector .vmem S100x128 .f32) g (k2_off257 k (f_laneW (F := F) (f_ldIdx R (k2_off228 t k) (k2_off228_inb t k)) 14 slices_S16_o14_S1 h2)) i14_0)) (f_ldRow d L (Memref.whole cc2_scratch3 : Memref sig .scVector .vmem S100x128 .f32) g (k2_off259 k (f_laneW (F := F) (f_ldIdx R (k2_off228 t k) (k2_off228_inb t k)) 15 slices_S16_o15_S1 h2)) i15_0),
        addf (addf (addf (addf (addf (addf (addf (addf (addf (addf (addf (addf (addf (addf (addf (addf (acc.2.1) (f_ldRow d L (Memref.whole cc2_scratch3 : Memref sig .scVector .vmem S100x128 .f32) g (k2_off230 k (f_laneW (F := F) (f_ldIdx R (k2_off228 t k) (k2_off228_inb t k)) 0 slices_S16_o0_S1 h2) 16#32) i0_1)) (f_ldRow d L (Memref.whole cc2_scratch3 : Memref sig .scVector .vmem S100x128 .f32) g (k2_off232 k (f_laneW (F := F) (f_ldIdx R (k2_off228 t k) (k2_off228_inb t k)) 1 slices_S16_o1_S1 h2) 16#32) i1_1)) (f_ldRow d L (Memref.whole cc2_scratch3 : Memref sig .scVector .vmem S100x128 .f32) g (k2_off234 k (f_laneW (F := F) (f_ldIdx R (k2_off228 t k) (k2_off228_inb t k)) 2 slices_S16_o2_S1 h2) 16#32) i2_1)) (f_ldRow d L (Memref.whole cc2_scratch3 : Memref sig .scVector .vmem S100x128 .f32) g (k2_off236 k (f_laneW (F := F) (f_ldIdx R (k2_off228 t k) (k2_off228_inb t k)) 3 slices_S16_o3_S1 h2) 16#32) i3_1)) (f_ldRow d L (Memref.whole cc2_scratch3 : Memref sig .scVector .vmem S100x128 .f32) g (k2_off238 k (f_laneW (F := F) (f_ldIdx R (k2_off228 t k) (k2_off228_inb t k)) 4 slices_S16_o4_S1 h2) 16#32) i4_1)) (f_ldRow d L (Memref.whole cc2_scratch3 : Memref sig .scVector .vmem S100x128 .f32) g (k2_off240 k (f_laneW (F := F) (f_ldIdx R (k2_off228 t k) (k2_off228_inb t k)) 5 slices_S16_o5_S1 h2) 16#32) i5_1)) (f_ldRow d L (Memref.whole cc2_scratch3 : Memref sig .scVector .vmem S100x128 .f32) g (k2_off242 k (f_laneW (F := F) (f_ldIdx R (k2_off228 t k) (k2_off228_inb t k)) 6 slices_S16_o6_S1 h2) 16#32) i6_1)) (f_ldRow d L (Memref.whole cc2_scratch3 : Memref sig .scVector .vmem S100x128 .f32) g (k2_off244 k (f_laneW (F := F) (f_ldIdx R (k2_off228 t k) (k2_off228_inb t k)) 7 slices_S16_o7_S1 h2) 16#32) i7_1)) (f_ldRow d L (Memref.whole cc2_scratch3 : Memref sig .scVector .vmem S100x128 .f32) g (k2_off246 k (f_laneW (F := F) (f_ldIdx R (k2_off228 t k) (k2_off228_inb t k)) 8 slices_S16_o8_S1 h2) 16#32) i8_1)) (f_ldRow d L (Memref.whole cc2_scratch3 : Memref sig .scVector .vmem S100x128 .f32) g (k2_off248 k (f_laneW (F := F) (f_ldIdx R (k2_off228 t k) (k2_off228_inb t k)) 9 slices_S16_o9_S1 h2) 16#32) i9_1)) (f_ldRow d L (Memref.whole cc2_scratch3 : Memref sig .scVector .vmem S100x128 .f32) g (k2_off250 k (f_laneW (F := F) (f_ldIdx R (k2_off228 t k) (k2_off228_inb t k)) 10 slices_S16_o10_S1 h2) 16#32) i10_1)) (f_ldRow d L (Memref.whole cc2_scratch3 : Memref sig .scVector .vmem S100x128 .f32) g (k2_off252 k (f_laneW (F := F) (f_ldIdx R (k2_off228 t k) (k2_off228_inb t k)) 11 slices_S16_o11_S1 h2) 16#32) i11_1)) (f_ldRow d L (Memref.whole cc2_scratch3 : Memref sig .scVector .vmem S100x128 .f32) g (k2_off254 k (f_laneW (F := F) (f_ldIdx R (k2_off228 t k) (k2_off228_inb t k)) 12 slices_S16_o12_S1 h2) 16#32) i12_1)) (f_ldRow d L (Memref.whole cc2_scratch3 : Memref sig .scVector .vmem S100x128 .f32) g (k2_off256 k (f_laneW (F := F) (f_ldIdx R (k2_off228 t k) (k2_off228_inb t k)) 13 slices_S16_o13_S1 h2) 16#32) i13_1)) (f_ldRow d L (Memref.whole cc2_scratch3 : Memref sig .scVector .vmem S100x128 .f32) g (k2_off258 k (f_laneW (F := F) (f_ldIdx R (k2_off228 t k) (k2_off228_inb t k)) 14 slices_S16_o14_S1 h2) 16#32) i14_1)) (f_ldRow d L (Memref.whole cc2_scratch3 : Memref sig .scVector .vmem S100x128 .f32) g (k2_off260 k (f_laneW (F := F) (f_ldIdx R (k2_off228 t k) (k2_off228_inb t k)) 15 slices_S16_o15_S1 h2) 16#32) i15_1),
        addf (addf (addf (addf (addf (addf (addf (addf (addf (addf (addf (addf (addf (addf (addf (addf (acc.2.2.1) (f_ldRow d L (Memref.whole cc2_scratch3 : Memref sig .scVector .vmem S100x128 .f32) g (k2_off230 k (f_laneW (F := F) (f_ldIdx R (k2_off228 t k) (k2_off228_inb t k)) 0 slices_S16_o0_S1 h2) 32#32) i0_2)) (f_ldRow d L (Memref.whole cc2_scratch3 : Memref sig .scVector .vmem S100x128 .f32) g (k2_off232 k (f_laneW (F := F) (f_ldIdx R (k2_off228 t k) (k2_off228_inb t k)) 1 slices_S16_o1_S1 h2) 32#32) i1_2)) (f_ldRow d L (Memref.whole cc2_scratch3 : Memref sig .scVector .vmem S100x128 .f32) g (k2_off234 k (f_laneW (F := F) (f_ldIdx R (k2_off228 t k) (k2_off228_inb t k)) 2 slices_S16_o2_S1 h2) 32#32) i2_2)) (f_ldRow d L (Memref.whole cc2_scratch3 : Memref sig .scVector .vmem S100x128 .f32) g (k2_off236 k (f_laneW (F := F) (f_ldIdx R (k2_off228 t k) (k2_off228_inb t k)) 3 slices_S16_o3_S1 h2) 32#32) i3_2)) (f_ldRow d L (Memref.whole cc2_scratch3 : Memref sig .scVector .vmem S100x128 .f32) g (k2_off238 k (f_laneW (F := F) (f_ldIdx R (k2_off228 t k) (k2_off228_inb t k)) 4 slices_S16_o4_S1 h2) 32#32) i4_2)) (f_ldRow d L (Memref.whole cc2_scratch3 : Memref sig .scVector .vmem S100x128 .f32) g (k2_off240 k (f_laneW (F := F) (f_ldIdx R (k2_off228 t k) (k2_off228_inb t k)) 5 slices_S16_o5_S1 h2) 32#32) i5_2)) (f_ldRow d L (Memref.whole cc2_scratch3 : Memref sig .scVector .vmem S100x128 .f32) g (k2_off242 k (f_laneW (F := F) (f_ldIdx R (k2_off228 t k) (k2_off228_inb t k)) 6 slices_S16_o6_S1 h2) 32#32) i6_2)) (f_ldRow d L (Memref.whole cc2_scratch3 : Memref sig .scVector .vmem S100x128 .f32) g (k2_off244 k (f_laneW (F := F) (f_ldIdx R (k2_off228 t k) (k2_off228_inb t k)) 7 slices_S16_o7_S1 h2) 32#32) i7_2)) (f_ldRow d L (Memref.whole cc2_scratch3 : Memref sig .scVector .vmem S100x128 .f32) g (k2_off246 k (f_laneW (F := F) (f_ldIdx R (k2_off228 t k) (k2_off228_inb t k)) 8 slices_S16_o8_S1 h2) 32#32) i8_2)) (f_ldRow d L (Memref.whole cc2_scratch3 : Memref sig .scVector .vmem S100x128 .f32) g (k2_off248 k (f_laneW (F := F) (f_ldIdx R (k2_off228 t k) (k2_off228_inb t k)) 9 slices_S16_o9_S1 h2) 32#32) i9_2)) (f_ldRow d L (Memref.whole cc2_scratch3 : Memref sig .scVector .vmem S100x128 .f32) g (k2_off250 k (f_laneW (F := F) (f_ldIdx R (k2_off228 t k) (k2_off228_inb t k)) 10 slices_S16_o10_S1 h2) 32#32) i10_2)) (f_ldRow d L (Memref.whole cc2_scratch3 : Memref sig .scVector .vmem S100x128 .f32) g (k2_off252 k (f_laneW (F := F) (f_ldIdx R (k2_off228 t k) (k2_off228_inb t k)) 11 slices_S16_o11_S1 h2) 32#32) i11_2)) (f_ldRow d L (Memref.whole cc2_scratch3 : Memref sig .scVector .vmem S100x128 .f32) g (k2_off254 k (f_laneW (F := F) (f_ldIdx R (k2_off228 t k) (k2_off228_inb t k)) 12 slices_S16_o12_S1 h2) 32#32) i12_2)) (f_ldRow d L (Memref.whole cc2_scratch3 : Memref sig .scVector .vmem S100x128 .f32) g (k2_off256 k (f_laneW (F := F) (f_ldIdx R (k2_off228 t k) (k2_off228_inb t k)) 13 slices_S16_o13_S1 h2) 32#32) i13_2)) (f_ldRow d L (Memref.whole cc2_scratch3 : Memref sig .scVector .vmem S100x128 .f32) g (k2_off258 k (f_laneW (F := F) (f_ldIdx R (k2_off228 t k) (k2_off228_inb t k)) 14 slices_S16_o14_S1 h2) 32#32) i14_2)) (f_ldRow d L (Memref.whole cc2_scratch3 : Memref sig .scVector .vmem S100x128 .f32) g (k2_off260 k (f_laneW (F := F) (f_ldIdx R (k2_off228 t k) (k2_off228_inb t k)) 15 slices_S16_o15_S1 h2) 32#32) i15_2),
        addf (addf (addf (addf (addf (addf (addf (addf (addf (addf (addf (addf (addf (addf (addf (addf (acc.2.2.2) (f_ldRow d L (Memref.whole cc2_scratch3 : Memref sig .scVector .vmem S100x128 .f32) g (k2_off230 k (f_laneW (F := F) (f_ldIdx R (k2_off228 t k) (k2_off228_inb t k)) 0 slices_S16_o0_S1 h2) 48#32) i0_3)) (f_ldRow d L (Memref.whole cc2_scratch3 : Memref sig .scVector .vmem S100x128 .f32) g (k2_off232 k (f_laneW (F := F) (f_ldIdx R (k2_off228 t k) (k2_off228_inb t k)) 1 slices_S16_o1_S1 h2) 48#32) i1_3)) (f_ldRow d L (Memref.whole cc2_scratch3 : Memref sig .scVector .vmem S100x128 .f32) g (k2_off234 k (f_laneW (F := F) (f_ldIdx R (k2_off228 t k) (k2_off228_inb t k)) 2 slices_S16_o2_S1 h2) 48#32) i2_3)) (f_ldRow d L (Memref.whole cc2_scratch3 : Memref sig .scVector .vmem S100x128 .f32) g (k2_off236 k (f_laneW (F := F) (f_ldIdx R (k2_off228 t k) (k2_off228_inb t k)) 3 slices_S16_o3_S1 h2) 48#32) i3_3)) (f_ldRow d L (Memref.whole cc2_scratch3 : Memref sig .scVector .vmem S100x128 .f32) g (k2_off238 k (f_laneW (F := F) (f_ldIdx R (k2_off228 t k) (k2_off228_inb t k)) 4 slices_S16_o4_S1 h2) 48#32) i4_3)) (f_ldRow d L (Memref.whole cc2_scratch3 : Memref sig .scVector .vmem S100x128 .f32) g (k2_off240 k (f_laneW (F := F) (f_ldIdx R (k2_off228 t k) (k2_off228_inb t k)) 5 slices_S16_o5_S1 h2) 48#32) i5_3)) (f_ldRow d L (Memref.whole cc2_scratch3 : Memref sig .scVector .vmem S100x128 .f32) g (k2_off242 k (f_laneW (F := F) (f_ldIdx R (k2_off228 t k) (k2_off228_inb t k)) 6 slices_S16_o6_S1 h2) 48#32) i6_3)) (f_ldRow d L (Memref.whole cc2_scratch3 : Memref sig .scVector .vmem S100x128 .f32) g (k2_off244 k (f_laneW (F := F) (f_ldIdx R (k2_off228 t k) (k2_off228_inb t k)) 7 slices_S16_o7_S1 h2) 48#32) i7_3)) (f_ldRow d L (Memref.whole cc2_scratch3 : Memref sig .scVector .vmem S100x128 .f32) g (k2_off246 k (f_laneW (F := F) (f_ldIdx R (k2_off228 t k) (k2_off228_inb t k)) 8 slices_S16_o8_S1 h2) 48#32) i8_3)) (f_ldRow d L (Memref.whole cc2_scratch3 : Memref sig .scVector .vmem S100x128 .f32) g (k2_off248 k (f_laneW (F := F) (f_ldIdx R (k2_off228 t k) (k2_off228_inb t k)) 9 slices_S16_o9_S1 h2) 48#32) i9_3)) (f_ldRow d L (Memref.whole cc2_scratch3 : Memref sig .scVector .vmem S100x128 .f32) g (k2_off250 k (f_laneW (F := F) (f_ldIdx R (k2_off228 t k) (k2_off228_inb t k)) 10 slices_S16_o10_S1 h2) 48#32) i10_3)) (f_ldRow d L (Memref.whole cc2_scratch3 : Memref sig .scVector .vmem S100x128 .f32) g (k2_off252 k (f_laneW (F := F) (f_ldIdx R (k2_off228 t k) (k2_off228_inb t k)) 11 slices_S16_o11_S1 h2) 48#32) i11_3)) (f_ldRow d L (Memref.whole cc2_scratch3 : Memref sig .scVector .vmem S100x128 .f32) g (k2_off254 k (f_laneW (F := F) (f_ldIdx R (k2_off228 t k) (k2_off228_inb t k)) 12 slices_S16_o12_S1 h2) 48#32) i12_3)) (f_ldRow d L (Memref.whole cc2_scratch3 : Memref sig .scVector .vmem S100x128 .f32) g (k2_off256 k (f_laneW (F := F) (f_ldIdx R (k2_off228 t k) (k2_off228_inb t k)) 13 slices_S16_o13_S1 h2) 48#32) i13_3)) (f_ldRow d L (Memref.whole cc2_scratch3 : Memref sig .scVector .vmem S100x128 .f32) g (k2_off258 k (f_laneW (F := F) (f_ldIdx R (k2_off228 t k) (k2_off228_inb t k)) 14 slices_S16_o14_S1 h2) 48#32) i14_3)) (f_ldRow d L (Memref.whole cc2_scratch3 : Memref sig .scVector .vmem S100x128 .f32) g (k2_off260 k (f_laneW (F := F) (f_ldIdx R (k2_off228 t k) (k2_off228_inb t k)) 15 slices_S16_o15_S1 h2) 48#32) i15_3)) := by
  have hu : 2 * (64 + 2 * t.val + 0) + 1 = 128 + 4 * t.val + 1 := by omega
  have hrows' : BufRows ((Memref.whole cc2_scratch3 : Memref sig .scVector .vmem S100x128 .f32).view.read (Elt F) g) fT R (2 * (64 + 2 * t.val + 0) + 1) := by rw [hu]; exact hrows
  have hb := (bagAt_iff_bufAcc (by decide : 1 < 2) hrows' (by omega : 16 * k.val ≤ 100) acc).mp hP
  rw [hu] at hb
  have hs0 : BufAccAt (bufTerm ((Memref.whole cc2_scratch3 : Memref sig .scVector .vmem S100x128 .f32).view.read (Elt F) g) (tileWord R (128 + 4 * t.val + 1))) (16 * k.val + 0) (bagInit R fT (64 + 2 * t.val + 0) 1)
      (acc.1, acc.2.1, acc.2.2.1, acc.2.2.2) := hb
  have hw0 := f_laneW_eq (F := F) (f_ldIdx R (k2_off228 t k) (k2_off228_inb t k)) (0 : Fin 16) slices_S16_o0_S1 h2 _ (f_idx_word9 t k R 0)
  have hs1 := hs0.f_row_kd d L (Memref.whole cc2_scratch3 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off228 t k) (k2_off228_inb t k)) (1 : Fin 16) slices_S16_o1_S1 h2 _ (f_idx_word9 t k R 1)
  have hs2 := hs1.f_row_kd d L (Memref.whole cc2_scratch3 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off228 t k) (k2_off228_inb t k)) (2 : Fin 16) slices_S16_o2_S1 h2 _ (f_idx_word9 t k R 2)
  have hs3 := hs2.f_row_kd d L (Memref.whole cc2_scratch3 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off228 t k) (k2_off228_inb t k)) (3 : Fin 16) slices_S16_o3_S1 h2 _ (f_idx_word9 t k R 3)
  have hs4 := hs3.f_row_kd d L (Memref.whole cc2_scratch3 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off228 t k) (k2_off228_inb t k)) (4 : Fin 16) slices_S16_o4_S1 h2 _ (f_idx_word9 t k R 4)
  have hs5 := hs4.f_row_kd d L (Memref.whole cc2_scratch3 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off228 t k) (k2_off228_inb t k)) (5 : Fin 16) slices_S16_o5_S1 h2 _ (f_idx_word9 t k R 5)
  have hs6 := hs5.f_row_kd d L (Memref.whole cc2_scratch3 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off228 t k) (k2_off228_inb t k)) (6 : Fin 16) slices_S16_o6_S1 h2 _ (f_idx_word9 t k R 6)
  have hs7 := hs6.f_row_kd d L (Memref.whole cc2_scratch3 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off228 t k) (k2_off228_inb t k)) (7 : Fin 16) slices_S16_o7_S1 h2 _ (f_idx_word9 t k R 7)
  have hs8 := hs7.f_row_kd d L (Memref.whole cc2_scratch3 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off228 t k) (k2_off228_inb t k)) (8 : Fin 16) slices_S16_o8_S1 h2 _ (f_idx_word9 t k R 8)
  have hs9 := hs8.f_row_kd d L (Memref.whole cc2_scratch3 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off228 t k) (k2_off228_inb t k)) (9 : Fin 16) slices_S16_o9_S1 h2 _ (f_idx_word9 t k R 9)
  have hs10 := hs9.f_row_kd d L (Memref.whole cc2_scratch3 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off228 t k) (k2_off228_inb t k)) (10 : Fin 16) slices_S16_o10_S1 h2 _ (f_idx_word9 t k R 10)
  have hs11 := hs10.f_row_kd d L (Memref.whole cc2_scratch3 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off228 t k) (k2_off228_inb t k)) (11 : Fin 16) slices_S16_o11_S1 h2 _ (f_idx_word9 t k R 11)
  have hs12 := hs11.f_row_kd d L (Memref.whole cc2_scratch3 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off228 t k) (k2_off228_inb t k)) (12 : Fin 16) slices_S16_o12_S1 h2 _ (f_idx_word9 t k R 12)
  have hs13 := hs12.f_row_kd d L (Memref.whole cc2_scratch3 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off228 t k) (k2_off228_inb t k)) (13 : Fin 16) slices_S16_o13_S1 h2 _ (f_idx_word9 t k R 13)
  have hs14 := hs13.f_row_kd d L (Memref.whole cc2_scratch3 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off228 t k) (k2_off228_inb t k)) (14 : Fin 16) slices_S16_o14_S1 h2 _ (f_idx_word9 t k R 14)
  have hs15 := hs14.f_row_kd d L (Memref.whole cc2_scratch3 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off228 t k) (k2_off228_inb t k)) (15 : Fin 16) slices_S16_o15_S1 h2 _ (f_idx_word9 t k R 15)
  have hs16 := hs15.f_row_kd d L (Memref.whole cc2_scratch3 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 1 < 2) hrows' (by omega : 16 * (k.val + 1) ≤ 100) _).mpr ?_
  rw [hu, show 16 * (k.val + 1) = 16 * k.val + (15 + 1) from by omega]
  exact hs16

end Steps

end Cert.Proof.KI

end
-- ==== Proof.KITileStep_f2.lean ====
/-
  The accumulate loops of a trip's second bag, in both outer loops: the index words a trip of sixteen rows loads are
  the half bag's, and one trip (and the four-row remainder) adds the half bag's next rows onto the four carried sums.
-/
import proofs.«207435_g27118423507386_cont_sun_m_668_27_alg».proof.Proof.KITileValAcc
import proofs.«207435_g27118423507386_cont_sun_m_668_27_alg».proof.Proof.KITileGather
import proofs.«207435_g27118423507386_cont_sun_m_668_27_alg».proof.Proof.KITileStep_f

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

theorem k2_off275_eq : ∀ (t : Fin k2_t7_loop.trips) (k : Fin k2_t10_loop.trips), k2_off275 t k = ![65 + 2 * t.val, 16 * k.val] := by decide +kernel

theorem f_idx_word10 (t : Fin k2_t7_loop.trips) (k : Fin k2_t10_loop.trips) (R : IVec S128x224 32) (r : Fin 16) :
    View.ld (Val := Elt F) (e' := .i32) R (Rect.unit (s := S128x224) (k2_off275 t k) S1x16.size (k2_off275_inb t k)) (Fin.cons ⟨0, Nat.one_pos⟩ (ix1 r))
      = tileWord R (130 + 4 * t.val) (16 * k.val + r.val) := by
  have ht : t.val < 32 := lt_of_lt_of_eq t.isLt (by decide)
  have hk : k.val < 6 := lt_of_lt_of_eq k.isLt (by decide)
  have h0 : k2_off275 t k 0 = 65 + 2 * t.val := by rw [k2_off275_eq]; rfl
  have h1 : k2_off275 t k 1 = 16 * k.val := by rw [k2_off275_eq]; rfl
  have hr := r.isLt
  unfold tileWord
  show R ((Rect.unit (s := S128x224) (k2_off275 t k) S1x16.size (k2_off275_inb t k)).idx (Fin.cons ⟨0, Nat.one_pos⟩ (ix1 r))) = _
  refine congrArg R (funext fun a => Fin.ext ?_)
  match a with
  | ⟨0, _⟩ => show k2_off275 t k 0 + 1 * 0 = (130 + 4 * t.val) / 2 % 128; omega
  | ⟨1, _⟩ => show k2_off275 t k 1 + 1 * r.val = (112 * ((130 + 4 * t.val) % 2) + (16 * k.val + r.val)) % 224; omega

theorem k2_off318_eq : ∀ (t : Fin k2_t7_loop.trips) (k : Fin k2_t11_loop.trips), k2_off318 t k = ![65 + 2 * t.val, 112 + 16 * k.val] := by decide +kernel

theorem f_idx_word11 (t : Fin k2_t7_loop.trips) (k : Fin k2_t11_loop.trips) (R : IVec S128x224 32) (r : Fin 16) :
    View.ld (Val := Elt F) (e' := .i32) R (Rect.unit (s := S128x224) (k2_off318 t k) S1x16.size (k2_off318_inb t k)) (Fin.cons ⟨0, Nat.one_pos⟩ (ix1 r))
      = tileWord R (131 + 4 * t.val) (16 * k.val + r.val) := by
  have ht : t.val < 32 := lt_of_lt_of_eq t.isLt (by decide)
  have hk : k.val < 6 := lt_of_lt_of_eq k.isLt (by decide)
  have h0 : k2_off318 t k 0 = 65 + 2 * t.val := by rw [k2_off318_eq]; rfl
  have h1 : k2_off318 t k 1 = 112 + 16 * k.val := by rw [k2_off318_eq]; rfl
  have hr := r.isLt
  unfold tileWord
  show R ((Rect.unit (s := S128x224) (k2_off318 t k) S1x16.size (k2_off318_inb t k)).idx (Fin.cons ⟨0, Nat.one_pos⟩ (ix1 r))) = _
  refine congrArg R (funext fun a => Fin.ext ?_)
  match a with
  | ⟨0, _⟩ => show k2_off318 t k 0 + 1 * 0 = (131 + 4 * t.val) / 2 % 128; omega
  | ⟨1, _⟩ => show k2_off318 t k 1 + 1 * r.val = (112 * ((131 + 4 * t.val) % 2) + (16 * k.val + r.val)) % 224; omega

theorem k2_off308_eq : ∀ (t : Fin k2_t7_loop.trips), k2_off308 t = ![65 + 2 * t.val, 96] := by decide +kernel

theorem f_idx_word10r (t : Fin k2_t7_loop.trips) (R : IVec S128x224 32) (r : Fin 16) :
    View.ld (Val := Elt F) (e' := .i32) R (Rect.unit (s := S128x224) (k2_off308 t) S1x16.size (k2_off308_inb t)) (Fin.cons ⟨0, Nat.one_pos⟩ (ix1 r))
      = tileWord R (130 + 4 * t.val) (96 + r.val) := by
  have ht : t.val < 32 := lt_of_lt_of_eq t.isLt (by decide)
  have h0 : k2_off308 t 0 = 65 + 2 * t.val := by rw [k2_off308_eq]; rfl
  have h1 : k2_off308 t 1 = 96 := by rw [k2_off308_eq]; rfl
  have hr := r.isLt
  unfold tileWord
  show R ((Rect.unit (s := S128x224) (k2_off308 t) S1x16.size (k2_off308_inb t)).idx (Fin.cons ⟨0, Nat.one_pos⟩ (ix1 r))) = _
  refine congrArg R (funext fun a => Fin.ext ?_)
  match a with
  | ⟨0, _⟩ => show k2_off308 t 0 + 1 * 0 = (130 + 4 * t.val) / 2 % 128; omega
  | ⟨1, _⟩ => show k2_off308 t 1 + 1 * r.val = (112 * ((130 + 4 * t.val) % 2) + (96 + r.val)) % 224; omega

theorem k2_off94_eq : ∀ (t : Fin k2_t2_loop.trips) (k : Fin k2_t5_loop.trips), k2_off94 t k = ![2 * t.val + 1, 16 * k.val] := by decide +kernel

theorem f_idx_word5 (t : Fin k2_t2_loop.trips) (k : Fin k2_t5_loop.trips) (R : IVec S128x224 32) (r : Fin 16) :
    View.ld (Val := Elt F) (e' := .i32) R (Rect.unit (s := S128x224) (k2_off94 t k) S1x16.size (k2_off94_inb t k)) (Fin.cons ⟨0, Nat.one_pos⟩ (ix1 r))
      = tileWord R (4 * t.val + 2) (16 * k.val + r.val) := by
  have ht : t.val < 32 := lt_of_lt_of_eq t.isLt (by decide)
  have hk : k.val < 6 := lt_of_lt_of_eq k.isLt (by decide)
  have h0 : k2_off94 t k 0 = 2 * t.val + 1 := by rw [k2_off94_eq]; rfl
  have h1 : k2_off94 t k 1 = 16 * k.val := by rw [k2_off94_eq]; rfl
  have hr := r.isLt
  unfold tileWord
  show R ((Rect.unit (s := S128x224) (k2_off94 t k) S1x16.size (k2_off94_inb t k)).idx (Fin.cons ⟨0, Nat.one_pos⟩ (ix1 r))) = _
  refine congrArg R (funext fun a => Fin.ext ?_)
  match a with
  | ⟨0, _⟩ => show k2_off94 t k 0 + 1 * 0 = (4 * t.val + 2) / 2 % 128; omega
  | ⟨1, _⟩ => show k2_off94 t k 1 + 1 * r.val = (112 * ((4 * t.val + 2) % 2) + (16 * k.val + r.val)) % 224; omega

theorem k2_off137_eq : ∀ (t : Fin k2_t2_loop.trips) (k : Fin k2_t6_loop.trips), k2_off137 t k = ![2 * t.val + 1, 112 + 16 * k.val] := by decide +kernel

theorem f_idx_word6 (t : Fin k2_t2_loop.trips) (k : Fin k2_t6_loop.trips) (R : IVec S128x224 32) (r : Fin 16) :
    View.ld (Val := Elt F) (e' := .i32) R (Rect.unit (s := S128x224) (k2_off137 t k) S1x16.size (k2_off137_inb t k)) (Fin.cons ⟨0, Nat.one_pos⟩ (ix1 r))
      = tileWord R (4 * t.val + 3) (16 * k.val + r.val) := by
  have ht : t.val < 32 := lt_of_lt_of_eq t.isLt (by decide)
  have hk : k.val < 6 := lt_of_lt_of_eq k.isLt (by decide)
  have h0 : k2_off137 t k 0 = 2 * t.val + 1 := by rw [k2_off137_eq]; rfl
  have h1 : k2_off137 t k 1 = 112 + 16 * k.val := by rw [k2_off137_eq]; rfl
  have hr := r.isLt
  unfold tileWord
  show R ((Rect.unit (s := S128x224) (k2_off137 t k) S1x16.size (k2_off137_inb t k)).idx (Fin.cons ⟨0, Nat.one_pos⟩ (ix1 r))) = _
  refine congrArg R (funext fun a => Fin.ext ?_)
  match a with
  | ⟨0, _⟩ => show k2_off137 t k 0 + 1 * 0 = (4 * t.val + 3) / 2 % 128; omega
  | ⟨1, _⟩ => show k2_off137 t k 1 + 1 * r.val = (112 * ((4 * t.val + 3) % 2) + (16 * k.val + r.val)) % 224; omega

section Steps2

variable (d : Dev nD) (L : grid2.Coords)

/-- One more row at a literal row number, on sums given one by one. -/
theorem BufAccAt.f_row_rd4 (rM : Memref sig .scVector .vmem S100x128 .f32) (g : Buf (Elt F) (rM.view.loc (V d (cV L) (jV L))))
    {xs : ℕ → BitVec 32} {n : ℕ} {init : Fin 4 → Fin 16 → F .f32} {a0 a1 a2 a3 : FVec F S16 .f32}
    (h : BufAccAt (bufTerm (rM.view.read (Elt F) g) xs) n init (a0, a1, a2, a3)) (hn : n < 100)
    (s : BitVec 32) (hs : s = offW (xs n))
    (off0 off1 off2 off3 : Fin 2 → ℕ)
    {inb0 : ∀ a, off0 a + S1x16.size a ≤ S100x128.size a} {inb1 : ∀ a, off1 a + S1x16.size a ≤ S100x128.size a}
    {inb2 : ∀ a, off2 a + S1x16.size a ≤ S100x128.size a} {inb3 : ∀ a, off3 a + S1x16.size a ≤ S100x128.size a}
    (e0 : off0 = ![n, (Scalar.indexCast s).toNat]) (e1 : off1 = ![n, (Scalar.indexCast (Scalar.addi s 16#32)).toNat])
    (e2 : off2 = ![n, (Scalar.indexCast (Scalar.addi s 32#32)).toNat]) (e3 : off3 = ![n, (Scalar.indexCast (Scalar.addi s 48#32)).toNat]) :
    BufAccAt (bufTerm (rM.view.read (Elt F) g) xs) (n + 1) init
      (addf a0 (f_ldRow d L rM g off0 inb0), addf a1 (f_ldRow d L rM g off1 inb1), addf a2 (f_ldRow d L rM g off2 inb2), addf a3 (f_ldRow d L rM g off3 inb3)) :=
  h.f_row_rd d L rM g hn s hs off0 off1 off2 off3 (inb0 := inb0) (inb1 := inb1) (inb2 := inb2) (inb3 := inb3) e0 e1 e2 e3

/-- One trip of the third accumulate loop of trip `t` of the second outer loop: sixteen more rows of the first half of the trip's second bag. -/
theorem trip10_step (t : Fin k2_t7_loop.trips) (k : Fin k2_t10_loop.trips) (hk6 : k.val < 6) (R : IVec S128x224 32) (fT : FVec F S507904x128 .f32)
    (g : Buf (Elt F) ((Memref.whole cc2_scratch4 : Memref sig .scVector .vmem S100x128 .f32).view.loc (V d (cV L) (jV L)))) (acc : TileAcc F)
    (hrows : BufRows ((Memref.whole cc2_scratch4 : Memref sig .scVector .vmem S100x128 .f32).view.read (Elt F) g) fT R (130 + 4 * t.val))
    (hP : TileBagAt R fT (64 + 2 * t.val + 1) 0 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (64 + 2 * t.val + 1) 0 (16 * (k.val + 1))
      (addf (addf (addf (addf (addf (addf (addf (addf (addf (addf (addf (addf (addf (addf (addf (addf (acc.1) (f_ldRow d L (Memref.whole cc2_scratch4 : Memref sig .scVector .vmem S100x128 .f32) g (k2_off276 k (f_laneW (F := F) (f_ldIdx R (k2_off275 t k) (k2_off275_inb t k)) 0 slices_S16_o0_S1 h2)) i0_0)) (f_ldRow d L (Memref.whole cc2_scratch4 : Memref sig .scVector .vmem S100x128 .f32) g (k2_off278 k (f_laneW (F := F) (f_ldIdx R (k2_off275 t k) (k2_off275_inb t k)) 1 slices_S16_o1_S1 h2)) i1_0)) (f_ldRow d L (Memref.whole cc2_scratch4 : Memref sig .scVector .vmem S100x128 .f32) g (k2_off280 k (f_laneW (F := F) (f_ldIdx R (k2_off275 t k) (k2_off275_inb t k)) 2 slices_S16_o2_S1 h2)) i2_0)) (f_ldRow d L (Memref.whole cc2_scratch4 : Memref sig .scVector .vmem S100x128 .f32) g (k2_off282 k (f_laneW (F := F) (f_ldIdx R (k2_off275 t k) (k2_off275_inb t k)) 3 slices_S16_o3_S1 h2)) i3_0)) (f_ldRow d L (Memref.whole cc2_scratch4 : Memref sig .scVector .vmem S100x128 .f32) g (k2_off284 k (f_laneW (F := F) (f_ldIdx R (k2_off275 t k) (k2_off275_inb t k)) 4 slices_S16_o4_S1 h2)) i4_0)) (f_ldRow d L (Memref.whole cc2_scratch4 : Memref sig .scVector .vmem S100x128 .f32) g (k2_off286 k (f_laneW (F := F) (f_ldIdx R (k2_off275 t k) (k2_off275_inb t k)) 5 slices_S16_o5_S1 h2)) i5_0)) (f_ldRow d L (Memref.whole cc2_scratch4 : Memref sig .scVector .vmem S100x128 .f32) g (k2_off288 k (f_laneW (F := F) (f_ldIdx R (k2_off275 t k) (k2_off275_inb t k)) 6 slices_S16_o6_S1 h2)) i6_0)) (f_ldRow d L (Memref.whole cc2_scratch4 : Memref sig .scVector .vmem S100x128 .f32) g (k2_off290 k (f_laneW (F := F) (f_ldIdx R (k2_off275 t k) (k2_off275_inb t k)) 7 slices_S16_o7_S1 h2)) i7_0)) (f_ldRow d L (Memref.whole cc2_scratch4 : Memref sig .scVector .vmem S100x128 .f32) g (k2_off292 k (f_laneW (F := F) (f_ldIdx R (k2_off275 t k) (k2_off275_inb t k)) 8 slices_S16_o8_S1 h2)) i8_0)) (f_ldRow d L (Memref.whole cc2_scratch4 : Memref sig .scVector .vmem S100x128 .f32) g (k2_off294 k (f_laneW (F := F) (f_ldIdx R (k2_off275 t k) (k2_off275_inb t k)) 9 slices_S16_o9_S1 h2)) i9_0)) (f_ldRow d L (Memref.whole cc2_scratch4 : Memref sig .scVector .vmem S100x128 .f32) g (k2_off296 k (f_laneW (F := F) (f_ldIdx R (k2_off275 t k) (k2_off275_inb t k)) 10 slices_S16_o10_S1 h2)) i10_0)) (f_ldRow d L (Memref.whole cc2_scratch4 : Memref sig .scVector .vmem S100x128 .f32) g (k2_off298 k (f_laneW (F := F) (f_ldIdx R (k2_off275 t k) (k2_off275_inb t k)) 11 slices_S16_o11_S1 h2)) i11_0)) (f_ldRow d L (Memref.whole cc2_scratch4 : Memref sig .scVector .vmem S100x128 .f32) g (k2_off300 k (f_laneW (F := F) (f_ldIdx R (k2_off275 t k) (k2_off275_inb t k)) 12 slices_S16_o12_S1 h2)) i12_0)) (f_ldRow d L (Memref.whole cc2_scratch4 : Memref sig .scVector .vmem S100x128 .f32) g (k2_off302 k (f_laneW (F := F) (f_ldIdx R (k2_off275 t k) (k2_off275_inb t k)) 13 slices_S16_o13_S1 h2)) i13_0)) (f_ldRow d L (Memref.whole cc2_scratch4 : Memref sig .scVector .vmem S100x128 .f32) g (k2_off304 k (f_laneW (F := F) (f_ldIdx R (k2_off275 t k) (k2_off275_inb t k)) 14 slices_S16_o14_S1 h2)) i14_0)) (f_ldRow d L (Memref.whole cc2_scratch4 : Memref sig .scVector .vmem S100x128 .f32) g (k2_off306 k (f_laneW (F := F) (f_ldIdx R (k2_off275 t k) (k2_off275_inb t k)) 15 slices_S16_o15_S1 h2)) i15_0),
        addf (addf (addf (addf (addf (addf (addf (addf (addf (addf (addf (addf (addf (addf (addf (addf (acc.2.1) (f_ldRow d L (Memref.whole cc2_scratch4 : Memref sig .scVector .vmem S100x128 .f32) g (k2_off277 k (f_laneW (F := F) (f_ldIdx R (k2_off275 t k) (k2_off275_inb t k)) 0 slices_S16_o0_S1 h2) 16#32) i0_1)) (f_ldRow d L (Memref.whole cc2_scratch4 : Memref sig .scVector .vmem S100x128 .f32) g (k2_off279 k (f_laneW (F := F) (f_ldIdx R (k2_off275 t k) (k2_off275_inb t k)) 1 slices_S16_o1_S1 h2) 16#32) i1_1)) (f_ldRow d L (Memref.whole cc2_scratch4 : Memref sig .scVector .vmem S100x128 .f32) g (k2_off281 k (f_laneW (F := F) (f_ldIdx R (k2_off275 t k) (k2_off275_inb t k)) 2 slices_S16_o2_S1 h2) 16#32) i2_1)) (f_ldRow d L (Memref.whole cc2_scratch4 : Memref sig .scVector .vmem S100x128 .f32) g (k2_off283 k (f_laneW (F := F) (f_ldIdx R (k2_off275 t k) (k2_off275_inb t k)) 3 slices_S16_o3_S1 h2) 16#32) i3_1)) (f_ldRow d L (Memref.whole cc2_scratch4 : Memref sig .scVector .vmem S100x128 .f32) g (k2_off285 k (f_laneW (F := F) (f_ldIdx R (k2_off275 t k) (k2_off275_inb t k)) 4 slices_S16_o4_S1 h2) 16#32) i4_1)) (f_ldRow d L (Memref.whole cc2_scratch4 : Memref sig .scVector .vmem S100x128 .f32) g (k2_off287 k (f_laneW (F := F) (f_ldIdx R (k2_off275 t k) (k2_off275_inb t k)) 5 slices_S16_o5_S1 h2) 16#32) i5_1)) (f_ldRow d L (Memref.whole cc2_scratch4 : Memref sig .scVector .vmem S100x128 .f32) g (k2_off289 k (f_laneW (F := F) (f_ldIdx R (k2_off275 t k) (k2_off275_inb t k)) 6 slices_S16_o6_S1 h2) 16#32) i6_1)) (f_ldRow d L (Memref.whole cc2_scratch4 : Memref sig .scVector .vmem S100x128 .f32) g (k2_off291 k (f_laneW (F := F) (f_ldIdx R (k2_off275 t k) (k2_off275_inb t k)) 7 slices_S16_o7_S1 h2) 16#32) i7_1)) (f_ldRow d L (Memref.whole cc2_scratch4 : Memref sig .scVector .vmem S100x128 .f32) g (k2_off293 k (f_laneW (F := F) (f_ldIdx R (k2_off275 t k) (k2_off275_inb t k)) 8 slices_S16_o8_S1 h2) 16#32) i8_1)) (f_ldRow d L (Memref.whole cc2_scratch4 : Memref sig .scVector .vmem S100x128 .f32) g (k2_off295 k (f_laneW (F := F) (f_ldIdx R (k2_off275 t k) (k2_off275_inb t k)) 9 slices_S16_o9_S1 h2) 16#32) i9_1)) (f_ldRow d L (Memref.whole cc2_scratch4 : Memref sig .scVector .vmem S100x128 .f32) g (k2_off297 k (f_laneW (F := F) (f_ldIdx R (k2_off275 t k) (k2_off275_inb t k)) 10 slices_S16_o10_S1 h2) 16#32) i10_1)) (f_ldRow d L (Memref.whole cc2_scratch4 : Memref sig .scVector .vmem S100x128 .f32) g (k2_off299 k (f_laneW (F := F) (f_ldIdx R (k2_off275 t k) (k2_off275_inb t k)) 11 slices_S16_o11_S1 h2) 16#32) i11_1)) (f_ldRow d L (Memref.whole cc2_scratch4 : Memref sig .scVector .vmem S100x128 .f32) g (k2_off301 k (f_laneW (F := F) (f_ldIdx R (k2_off275 t k) (k2_off275_inb t k)) 12 slices_S16_o12_S1 h2) 16#32) i12_1)) (f_ldRow d L (Memref.whole cc2_scratch4 : Memref sig .scVector .vmem S100x128 .f32) g (k2_off303 k (f_laneW (F := F) (f_ldIdx R (k2_off275 t k) (k2_off275_inb t k)) 13 slices_S16_o13_S1 h2) 16#32) i13_1)) (f_ldRow d L (Memref.whole cc2_scratch4 : Memref sig .scVector .vmem S100x128 .f32) g (k2_off305 k (f_laneW (F := F) (f_ldIdx R (k2_off275 t k) (k2_off275_inb t k)) 14 slices_S16_o14_S1 h2) 16#32) i14_1)) (f_ldRow d L (Memref.whole cc2_scratch4 : Memref sig .scVector .vmem S100x128 .f32) g (k2_off307 k (f_laneW (F := F) (f_ldIdx R (k2_off275 t k) (k2_off275_inb t k)) 15 slices_S16_o15_S1 h2) 16#32) i15_1),
        addf (addf (addf (addf (addf (addf (addf (addf (addf (addf (addf (addf (addf (addf (addf (addf (acc.2.2.1) (f_ldRow d L (Memref.whole cc2_scratch4 : Memref sig .scVector .vmem S100x128 .f32) g (k2_off277 k (f_laneW (F := F) (f_ldIdx R (k2_off275 t k) (k2_off275_inb t k)) 0 slices_S16_o0_S1 h2) 32#32) i0_2)) (f_ldRow d L (Memref.whole cc2_scratch4 : Memref sig .scVector .vmem S100x128 .f32) g (k2_off279 k (f_laneW (F := F) (f_ldIdx R (k2_off275 t k) (k2_off275_inb t k)) 1 slices_S16_o1_S1 h2) 32#32) i1_2)) (f_ldRow d L (Memref.whole cc2_scratch4 : Memref sig .scVector .vmem S100x128 .f32) g (k2_off281 k (f_laneW (F := F) (f_ldIdx R (k2_off275 t k) (k2_off275_inb t k)) 2 slices_S16_o2_S1 h2) 32#32) i2_2)) (f_ldRow d L (Memref.whole cc2_scratch4 : Memref sig .scVector .vmem S100x128 .f32) g (k2_off283 k (f_laneW (F := F) (f_ldIdx R (k2_off275 t k) (k2_off275_inb t k)) 3 slices_S16_o3_S1 h2) 32#32) i3_2)) (f_ldRow d L (Memref.whole cc2_scratch4 : Memref sig .scVector .vmem S100x128 .f32) g (k2_off285 k (f_laneW (F := F) (f_ldIdx R (k2_off275 t k) (k2_off275_inb t k)) 4 slices_S16_o4_S1 h2) 32#32) i4_2)) (f_ldRow d L (Memref.whole cc2_scratch4 : Memref sig .scVector .vmem S100x128 .f32) g (k2_off287 k (f_laneW (F := F) (f_ldIdx R (k2_off275 t k) (k2_off275_inb t k)) 5 slices_S16_o5_S1 h2) 32#32) i5_2)) (f_ldRow d L (Memref.whole cc2_scratch4 : Memref sig .scVector .vmem S100x128 .f32) g (k2_off289 k (f_laneW (F := F) (f_ldIdx R (k2_off275 t k) (k2_off275_inb t k)) 6 slices_S16_o6_S1 h2) 32#32) i6_2)) (f_ldRow d L (Memref.whole cc2_scratch4 : Memref sig .scVector .vmem S100x128 .f32) g (k2_off291 k (f_laneW (F := F) (f_ldIdx R (k2_off275 t k) (k2_off275_inb t k)) 7 slices_S16_o7_S1 h2) 32#32) i7_2)) (f_ldRow d L (Memref.whole cc2_scratch4 : Memref sig .scVector .vmem S100x128 .f32) g (k2_off293 k (f_laneW (F := F) (f_ldIdx R (k2_off275 t k) (k2_off275_inb t k)) 8 slices_S16_o8_S1 h2) 32#32) i8_2)) (f_ldRow d L (Memref.whole cc2_scratch4 : Memref sig .scVector .vmem S100x128 .f32) g (k2_off295 k (f_laneW (F := F) (f_ldIdx R (k2_off275 t k) (k2_off275_inb t k)) 9 slices_S16_o9_S1 h2) 32#32) i9_2)) (f_ldRow d L (Memref.whole cc2_scratch4 : Memref sig .scVector .vmem S100x128 .f32) g (k2_off297 k (f_laneW (F := F) (f_ldIdx R (k2_off275 t k) (k2_off275_inb t k)) 10 slices_S16_o10_S1 h2) 32#32) i10_2)) (f_ldRow d L (Memref.whole cc2_scratch4 : Memref sig .scVector .vmem S100x128 .f32) g (k2_off299 k (f_laneW (F := F) (f_ldIdx R (k2_off275 t k) (k2_off275_inb t k)) 11 slices_S16_o11_S1 h2) 32#32) i11_2)) (f_ldRow d L (Memref.whole cc2_scratch4 : Memref sig .scVector .vmem S100x128 .f32) g (k2_off301 k (f_laneW (F := F) (f_ldIdx R (k2_off275 t k) (k2_off275_inb t k)) 12 slices_S16_o12_S1 h2) 32#32) i12_2)) (f_ldRow d L (Memref.whole cc2_scratch4 : Memref sig .scVector .vmem S100x128 .f32) g (k2_off303 k (f_laneW (F := F) (f_ldIdx R (k2_off275 t k) (k2_off275_inb t k)) 13 slices_S16_o13_S1 h2) 32#32) i13_2)) (f_ldRow d L (Memref.whole cc2_scratch4 : Memref sig .scVector .vmem S100x128 .f32) g (k2_off305 k (f_laneW (F := F) (f_ldIdx R (k2_off275 t k) (k2_off275_inb t k)) 14 slices_S16_o14_S1 h2) 32#32) i14_2)) (f_ldRow d L (Memref.whole cc2_scratch4 : Memref sig .scVector .vmem S100x128 .f32) g (k2_off307 k (f_laneW (F := F) (f_ldIdx R (k2_off275 t k) (k2_off275_inb t k)) 15 slices_S16_o15_S1 h2) 32#32) i15_2),
        addf (addf (addf (addf (addf (addf (addf (addf (addf (addf (addf (addf (addf (addf (addf (addf (acc.2.2.2) (f_ldRow d L (Memref.whole cc2_scratch4 : Memref sig .scVector .vmem S100x128 .f32) g (k2_off277 k (f_laneW (F := F) (f_ldIdx R (k2_off275 t k) (k2_off275_inb t k)) 0 slices_S16_o0_S1 h2) 48#32) i0_3)) (f_ldRow d L (Memref.whole cc2_scratch4 : Memref sig .scVector .vmem S100x128 .f32) g (k2_off279 k (f_laneW (F := F) (f_ldIdx R (k2_off275 t k) (k2_off275_inb t k)) 1 slices_S16_o1_S1 h2) 48#32) i1_3)) (f_ldRow d L (Memref.whole cc2_scratch4 : Memref sig .scVector .vmem S100x128 .f32) g (k2_off281 k (f_laneW (F := F) (f_ldIdx R (k2_off275 t k) (k2_off275_inb t k)) 2 slices_S16_o2_S1 h2) 48#32) i2_3)) (f_ldRow d L (Memref.whole cc2_scratch4 : Memref sig .scVector .vmem S100x128 .f32) g (k2_off283 k (f_laneW (F := F) (f_ldIdx R (k2_off275 t k) (k2_off275_inb t k)) 3 slices_S16_o3_S1 h2) 48#32) i3_3)) (f_ldRow d L (Memref.whole cc2_scratch4 : Memref sig .scVector .vmem S100x128 .f32) g (k2_off285 k (f_laneW (F := F) (f_ldIdx R (k2_off275 t k) (k2_off275_inb t k)) 4 slices_S16_o4_S1 h2) 48#32) i4_3)) (f_ldRow d L (Memref.whole cc2_scratch4 : Memref sig .scVector .vmem S100x128 .f32) g (k2_off287 k (f_laneW (F := F) (f_ldIdx R (k2_off275 t k) (k2_off275_inb t k)) 5 slices_S16_o5_S1 h2) 48#32) i5_3)) (f_ldRow d L (Memref.whole cc2_scratch4 : Memref sig .scVector .vmem S100x128 .f32) g (k2_off289 k (f_laneW (F := F) (f_ldIdx R (k2_off275 t k) (k2_off275_inb t k)) 6 slices_S16_o6_S1 h2) 48#32) i6_3)) (f_ldRow d L (Memref.whole cc2_scratch4 : Memref sig .scVector .vmem S100x128 .f32) g (k2_off291 k (f_laneW (F := F) (f_ldIdx R (k2_off275 t k) (k2_off275_inb t k)) 7 slices_S16_o7_S1 h2) 48#32) i7_3)) (f_ldRow d L (Memref.whole cc2_scratch4 : Memref sig .scVector .vmem S100x128 .f32) g (k2_off293 k (f_laneW (F := F) (f_ldIdx R (k2_off275 t k) (k2_off275_inb t k)) 8 slices_S16_o8_S1 h2) 48#32) i8_3)) (f_ldRow d L (Memref.whole cc2_scratch4 : Memref sig .scVector .vmem S100x128 .f32) g (k2_off295 k (f_laneW (F := F) (f_ldIdx R (k2_off275 t k) (k2_off275_inb t k)) 9 slices_S16_o9_S1 h2) 48#32) i9_3)) (f_ldRow d L (Memref.whole cc2_scratch4 : Memref sig .scVector .vmem S100x128 .f32) g (k2_off297 k (f_laneW (F := F) (f_ldIdx R (k2_off275 t k) (k2_off275_inb t k)) 10 slices_S16_o10_S1 h2) 48#32) i10_3)) (f_ldRow d L (Memref.whole cc2_scratch4 : Memref sig .scVector .vmem S100x128 .f32) g (k2_off299 k (f_laneW (F := F) (f_ldIdx R (k2_off275 t k) (k2_off275_inb t k)) 11 slices_S16_o11_S1 h2) 48#32) i11_3)) (f_ldRow d L (Memref.whole cc2_scratch4 : Memref sig .scVector .vmem S100x128 .f32) g (k2_off301 k (f_laneW (F := F) (f_ldIdx R (k2_off275 t k) (k2_off275_inb t k)) 12 slices_S16_o12_S1 h2) 48#32) i12_3)) (f_ldRow d L (Memref.whole cc2_scratch4 : Memref sig .scVector .vmem S100x128 .f32) g (k2_off303 k (f_laneW (F := F) (f_ldIdx R (k2_off275 t k) (k2_off275_inb t k)) 13 slices_S16_o13_S1 h2) 48#32) i13_3)) (f_ldRow d L (Memref.whole cc2_scratch4 : Memref sig .scVector .vmem S100x128 .f32) g (k2_off305 k (f_laneW (F := F) (f_ldIdx R (k2_off275 t k) (k2_off275_inb t k)) 14 slices_S16_o14_S1 h2) 48#32) i14_3)) (f_ldRow d L (Memref.whole cc2_scratch4 : Memref sig .scVector .vmem S100x128 .f32) g (k2_off307 k (f_laneW (F := F) (f_ldIdx R (k2_off275 t k) (k2_off275_inb t k)) 15 slices_S16_o15_S1 h2) 48#32) i15_3)) := by
  have hu : 2 * (64 + 2 * t.val + 1) + 0 = 130 + 4 * t.val := by omega
  have hrows' : BufRows ((Memref.whole cc2_scratch4 : Memref sig .scVector .vmem S100x128 .f32).view.read (Elt F) g) fT R (2 * (64 + 2 * t.val + 1) + 0) := by rw [hu]; exact hrows
  have hb := (bagAt_iff_bufAcc (by decide : 0 < 2) hrows' (by omega : 16 * k.val ≤ 100) acc).mp hP
  rw [hu] at hb
  have hs0 : BufAccAt (bufTerm ((Memref.whole cc2_scratch4 : Memref sig .scVector .vmem S100x128 .f32).view.read (Elt F) g) (tileWord R (130 + 4 * t.val))) (16 * k.val + 0) (bagInit R fT (64 + 2 * t.val + 1) 0)
      (acc.1, acc.2.1, acc.2.2.1, acc.2.2.2) := hb
  have hw0 := f_laneW_eq (F := F) (f_ldIdx R (k2_off275 t k) (k2_off275_inb t k)) (0 : Fin 16) slices_S16_o0_S1 h2 _ (f_idx_word10 t k R 0)
  have hs1 := hs0.f_row_kd d L (Memref.whole cc2_scratch4 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off275 t k) (k2_off275_inb t k)) (1 : Fin 16) slices_S16_o1_S1 h2 _ (f_idx_word10 t k R 1)
  have hs2 := hs1.f_row_kd d L (Memref.whole cc2_scratch4 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off275 t k) (k2_off275_inb t k)) (2 : Fin 16) slices_S16_o2_S1 h2 _ (f_idx_word10 t k R 2)
  have hs3 := hs2.f_row_kd d L (Memref.whole cc2_scratch4 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off275 t k) (k2_off275_inb t k)) (3 : Fin 16) slices_S16_o3_S1 h2 _ (f_idx_word10 t k R 3)
  have hs4 := hs3.f_row_kd d L (Memref.whole cc2_scratch4 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off275 t k) (k2_off275_inb t k)) (4 : Fin 16) slices_S16_o4_S1 h2 _ (f_idx_word10 t k R 4)
  have hs5 := hs4.f_row_kd d L (Memref.whole cc2_scratch4 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off275 t k) (k2_off275_inb t k)) (5 : Fin 16) slices_S16_o5_S1 h2 _ (f_idx_word10 t k R 5)
  have hs6 := hs5.f_row_kd d L (Memref.whole cc2_scratch4 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off275 t k) (k2_off275_inb t k)) (6 : Fin 16) slices_S16_o6_S1 h2 _ (f_idx_word10 t k R 6)
  have hs7 := hs6.f_row_kd d L (Memref.whole cc2_scratch4 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off275 t k) (k2_off275_inb t k)) (7 : Fin 16) slices_S16_o7_S1 h2 _ (f_idx_word10 t k R 7)
  have hs8 := hs7.f_row_kd d L (Memref.whole cc2_scratch4 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off275 t k) (k2_off275_inb t k)) (8 : Fin 16) slices_S16_o8_S1 h2 _ (f_idx_word10 t k R 8)
  have hs9 := hs8.f_row_kd d L (Memref.whole cc2_scratch4 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off275 t k) (k2_off275_inb t k)) (9 : Fin 16) slices_S16_o9_S1 h2 _ (f_idx_word10 t k R 9)
  have hs10 := hs9.f_row_kd d L (Memref.whole cc2_scratch4 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off275 t k) (k2_off275_inb t k)) (10 : Fin 16) slices_S16_o10_S1 h2 _ (f_idx_word10 t k R 10)
  have hs11 := hs10.f_row_kd d L (Memref.whole cc2_scratch4 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off275 t k) (k2_off275_inb t k)) (11 : Fin 16) slices_S16_o11_S1 h2 _ (f_idx_word10 t k R 11)
  have hs12 := hs11.f_row_kd d L (Memref.whole cc2_scratch4 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off275 t k) (k2_off275_inb t k)) (12 : Fin 16) slices_S16_o12_S1 h2 _ (f_idx_word10 t k R 12)
  have hs13 := hs12.f_row_kd d L (Memref.whole cc2_scratch4 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off275 t k) (k2_off275_inb t k)) (13 : Fin 16) slices_S16_o13_S1 h2 _ (f_idx_word10 t k R 13)
  have hs14 := hs13.f_row_kd d L (Memref.whole cc2_scratch4 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off275 t k) (k2_off275_inb t k)) (14 : Fin 16) slices_S16_o14_S1 h2 _ (f_idx_word10 t k R 14)
  have hs15 := hs14.f_row_kd d L (Memref.whole cc2_scratch4 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off275 t k) (k2_off275_inb t k)) (15 : Fin 16) slices_S16_o15_S1 h2 _ (f_idx_word10 t k R 15)
  have hs16 := hs15.f_row_kd d L (Memref.whole cc2_scratch4 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 0 < 2) hrows' (by omega : 16 * (k.val + 1) ≤ 100) _).mpr ?_
  rw [hu, show 16 * (k.val + 1) = 16 * k.val + (15 + 1) from by omega]
  exact hs16

/-- One trip of the fourth accumulate loop of trip `t` of the second outer loop: sixteen more rows of the second half of the trip's second bag. -/
theorem trip11_step (t : Fin k2_t7_loop.trips) (k : Fin k2_t11_loop.trips) (hk6 : k.val < 6) (R : IVec S128x224 32) (fT : FVec F S507904x128 .f32)
    (g : Buf (Elt F) ((Memref.whole cc2_scratch5 : Memref sig .scVector .vmem S100x128 .f32).view.loc (V d (cV L) (jV L)))) (acc : TileAcc F)
    (hrows : BufRows ((Memref.whole cc2_scratch5 : Memref sig .scVector .vmem S100x128 .f32).view.read (Elt F) g) fT R (131 + 4 * t.val))
    (hP : TileBagAt R fT (64 + 2 * t.val + 1) 1 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (64 + 2 * t.val + 1) 1 (16 * (k.val + 1))
      (addf (addf (addf (addf (addf (addf (addf (addf (addf (addf (addf (addf (addf (addf (addf (addf (acc.1) (f_ldRow d L (Memref.whole cc2_scratch5 : Memref sig .scVector .vmem S100x128 .f32) g (k2_off319 k (f_laneW (F := F) (f_ldIdx R (k2_off318 t k) (k2_off318_inb t k)) 0 slices_S16_o0_S1 h2)) i0_0)) (f_ldRow d L (Memref.whole cc2_scratch5 : Memref sig .scVector .vmem S100x128 .f32) g (k2_off321 k (f_laneW (F := F) (f_ldIdx R (k2_off318 t k) (k2_off318_inb t k)) 1 slices_S16_o1_S1 h2)) i1_0)) (f_ldRow d L (Memref.whole cc2_scratch5 : Memref sig .scVector .vmem S100x128 .f32) g (k2_off323 k (f_laneW (F := F) (f_ldIdx R (k2_off318 t k) (k2_off318_inb t k)) 2 slices_S16_o2_S1 h2)) i2_0)) (f_ldRow d L (Memref.whole cc2_scratch5 : Memref sig .scVector .vmem S100x128 .f32) g (k2_off325 k (f_laneW (F := F) (f_ldIdx R (k2_off318 t k) (k2_off318_inb t k)) 3 slices_S16_o3_S1 h2)) i3_0)) (f_ldRow d L (Memref.whole cc2_scratch5 : Memref sig .scVector .vmem S100x128 .f32) g (k2_off327 k (f_laneW (F := F) (f_ldIdx R (k2_off318 t k) (k2_off318_inb t k)) 4 slices_S16_o4_S1 h2)) i4_0)) (f_ldRow d L (Memref.whole cc2_scratch5 : Memref sig .scVector .vmem S100x128 .f32) g (k2_off329 k (f_laneW (F := F) (f_ldIdx R (k2_off318 t k) (k2_off318_inb t k)) 5 slices_S16_o5_S1 h2)) i5_0)) (f_ldRow d L (Memref.whole cc2_scratch5 : Memref sig .scVector .vmem S100x128 .f32) g (k2_off331 k (f_laneW (F := F) (f_ldIdx R (k2_off318 t k) (k2_off318_inb t k)) 6 slices_S16_o6_S1 h2)) i6_0)) (f_ldRow d L (Memref.whole cc2_scratch5 : Memref sig .scVector .vmem S100x128 .f32) g (k2_off333 k (f_laneW (F := F) (f_ldIdx R (k2_off318 t k) (k2_off318_inb t k)) 7 slices_S16_o7_S1 h2)) i7_0)) (f_ldRow d L (Memref.whole cc2_scratch5 : Memref sig .scVector .vmem S100x128 .f32) g (k2_off335 k (f_laneW (F := F) (f_ldIdx R (k2_off318 t k) (k2_off318_inb t k)) 8 slices_S16_o8_S1 h2)) i8_0)) (f_ldRow d L (Memref.whole cc2_scratch5 : Memref sig .scVector .vmem S100x128 .f32) g (k2_off337 k (f_laneW (F := F) (f_ldIdx R (k2_off318 t k) (k2_off318_inb t k)) 9 slices_S16_o9_S1 h2)) i9_0)) (f_ldRow d L (Memref.whole cc2_scratch5 : Memref sig .scVector .vmem S100x128 .f32) g (k2_off339 k (f_laneW (F := F) (f_ldIdx R (k2_off318 t k) (k2_off318_inb t k)) 10 slices_S16_o10_S1 h2)) i10_0)) (f_ldRow d L (Memref.whole cc2_scratch5 : Memref sig .scVector .vmem S100x128 .f32) g (k2_off341 k (f_laneW (F := F) (f_ldIdx R (k2_off318 t k) (k2_off318_inb t k)) 11 slices_S16_o11_S1 h2)) i11_0)) (f_ldRow d L (Memref.whole cc2_scratch5 : Memref sig .scVector .vmem S100x128 .f32) g (k2_off343 k (f_laneW (F := F) (f_ldIdx R (k2_off318 t k) (k2_off318_inb t k)) 12 slices_S16_o12_S1 h2)) i12_0)) (f_ldRow d L (Memref.whole cc2_scratch5 : Memref sig .scVector .vmem S100x128 .f32) g (k2_off345 k (f_laneW (F := F) (f_ldIdx R (k2_off318 t k) (k2_off318_inb t k)) 13 slices_S16_o13_S1 h2)) i13_0)) (f_ldRow d L (Memref.whole cc2_scratch5 : Memref sig .scVector .vmem S100x128 .f32) g (k2_off347 k (f_laneW (F := F) (f_ldIdx R (k2_off318 t k) (k2_off318_inb t k)) 14 slices_S16_o14_S1 h2)) i14_0)) (f_ldRow d L (Memref.whole cc2_scratch5 : Memref sig .scVector .vmem S100x128 .f32) g (k2_off349 k (f_laneW (F := F) (f_ldIdx R (k2_off318 t k) (k2_off318_inb t k)) 15 slices_S16_o15_S1 h2)) i15_0),
        addf (addf (addf (addf (addf (addf (addf (addf (addf (addf (addf (addf (addf (addf (addf (addf (acc.2.1) (f_ldRow d L (Memref.whole cc2_scratch5 : Memref sig .scVector .vmem S100x128 .f32) g (k2_off320 k (f_laneW (F := F) (f_ldIdx R (k2_off318 t k) (k2_off318_inb t k)) 0 slices_S16_o0_S1 h2) 16#32) i0_1)) (f_ldRow d L (Memref.whole cc2_scratch5 : Memref sig .scVector .vmem S100x128 .f32) g (k2_off322 k (f_laneW (F := F) (f_ldIdx R (k2_off318 t k) (k2_off318_inb t k)) 1 slices_S16_o1_S1 h2) 16#32) i1_1)) (f_ldRow d L (Memref.whole cc2_scratch5 : Memref sig .scVector .vmem S100x128 .f32) g (k2_off324 k (f_laneW (F := F) (f_ldIdx R (k2_off318 t k) (k2_off318_inb t k)) 2 slices_S16_o2_S1 h2) 16#32) i2_1)) (f_ldRow d L (Memref.whole cc2_scratch5 : Memref sig .scVector .vmem S100x128 .f32) g (k2_off326 k (f_laneW (F := F) (f_ldIdx R (k2_off318 t k) (k2_off318_inb t k)) 3 slices_S16_o3_S1 h2) 16#32) i3_1)) (f_ldRow d L (Memref.whole cc2_scratch5 : Memref sig .scVector .vmem S100x128 .f32) g (k2_off328 k (f_laneW (F := F) (f_ldIdx R (k2_off318 t k) (k2_off318_inb t k)) 4 slices_S16_o4_S1 h2) 16#32) i4_1)) (f_ldRow d L (Memref.whole cc2_scratch5 : Memref sig .scVector .vmem S100x128 .f32) g (k2_off330 k (f_laneW (F := F) (f_ldIdx R (k2_off318 t k) (k2_off318_inb t k)) 5 slices_S16_o5_S1 h2) 16#32) i5_1)) (f_ldRow d L (Memref.whole cc2_scratch5 : Memref sig .scVector .vmem S100x128 .f32) g (k2_off332 k (f_laneW (F := F) (f_ldIdx R (k2_off318 t k) (k2_off318_inb t k)) 6 slices_S16_o6_S1 h2) 16#32) i6_1)) (f_ldRow d L (Memref.whole cc2_scratch5 : Memref sig .scVector .vmem S100x128 .f32) g (k2_off334 k (f_laneW (F := F) (f_ldIdx R (k2_off318 t k) (k2_off318_inb t k)) 7 slices_S16_o7_S1 h2) 16#32) i7_1)) (f_ldRow d L (Memref.whole cc2_scratch5 : Memref sig .scVector .vmem S100x128 .f32) g (k2_off336 k (f_laneW (F := F) (f_ldIdx R (k2_off318 t k) (k2_off318_inb t k)) 8 slices_S16_o8_S1 h2) 16#32) i8_1)) (f_ldRow d L (Memref.whole cc2_scratch5 : Memref sig .scVector .vmem S100x128 .f32) g (k2_off338 k (f_laneW (F := F) (f_ldIdx R (k2_off318 t k) (k2_off318_inb t k)) 9 slices_S16_o9_S1 h2) 16#32) i9_1)) (f_ldRow d L (Memref.whole cc2_scratch5 : Memref sig .scVector .vmem S100x128 .f32) g (k2_off340 k (f_laneW (F := F) (f_ldIdx R (k2_off318 t k) (k2_off318_inb t k)) 10 slices_S16_o10_S1 h2) 16#32) i10_1)) (f_ldRow d L (Memref.whole cc2_scratch5 : Memref sig .scVector .vmem S100x128 .f32) g (k2_off342 k (f_laneW (F := F) (f_ldIdx R (k2_off318 t k) (k2_off318_inb t k)) 11 slices_S16_o11_S1 h2) 16#32) i11_1)) (f_ldRow d L (Memref.whole cc2_scratch5 : Memref sig .scVector .vmem S100x128 .f32) g (k2_off344 k (f_laneW (F := F) (f_ldIdx R (k2_off318 t k) (k2_off318_inb t k)) 12 slices_S16_o12_S1 h2) 16#32) i12_1)) (f_ldRow d L (Memref.whole cc2_scratch5 : Memref sig .scVector .vmem S100x128 .f32) g (k2_off346 k (f_laneW (F := F) (f_ldIdx R (k2_off318 t k) (k2_off318_inb t k)) 13 slices_S16_o13_S1 h2) 16#32) i13_1)) (f_ldRow d L (Memref.whole cc2_scratch5 : Memref sig .scVector .vmem S100x128 .f32) g (k2_off348 k (f_laneW (F := F) (f_ldIdx R (k2_off318 t k) (k2_off318_inb t k)) 14 slices_S16_o14_S1 h2) 16#32) i14_1)) (f_ldRow d L (Memref.whole cc2_scratch5 : Memref sig .scVector .vmem S100x128 .f32) g (k2_off350 k (f_laneW (F := F) (f_ldIdx R (k2_off318 t k) (k2_off318_inb t k)) 15 slices_S16_o15_S1 h2) 16#32) i15_1),
        addf (addf (addf (addf (addf (addf (addf (addf (addf (addf (addf (addf (addf (addf (addf (addf (acc.2.2.1) (f_ldRow d L (Memref.whole cc2_scratch5 : Memref sig .scVector .vmem S100x128 .f32) g (k2_off320 k (f_laneW (F := F) (f_ldIdx R (k2_off318 t k) (k2_off318_inb t k)) 0 slices_S16_o0_S1 h2) 32#32) i0_2)) (f_ldRow d L (Memref.whole cc2_scratch5 : Memref sig .scVector .vmem S100x128 .f32) g (k2_off322 k (f_laneW (F := F) (f_ldIdx R (k2_off318 t k) (k2_off318_inb t k)) 1 slices_S16_o1_S1 h2) 32#32) i1_2)) (f_ldRow d L (Memref.whole cc2_scratch5 : Memref sig .scVector .vmem S100x128 .f32) g (k2_off324 k (f_laneW (F := F) (f_ldIdx R (k2_off318 t k) (k2_off318_inb t k)) 2 slices_S16_o2_S1 h2) 32#32) i2_2)) (f_ldRow d L (Memref.whole cc2_scratch5 : Memref sig .scVector .vmem S100x128 .f32) g (k2_off326 k (f_laneW (F := F) (f_ldIdx R (k2_off318 t k) (k2_off318_inb t k)) 3 slices_S16_o3_S1 h2) 32#32) i3_2)) (f_ldRow d L (Memref.whole cc2_scratch5 : Memref sig .scVector .vmem S100x128 .f32) g (k2_off328 k (f_laneW (F := F) (f_ldIdx R (k2_off318 t k) (k2_off318_inb t k)) 4 slices_S16_o4_S1 h2) 32#32) i4_2)) (f_ldRow d L (Memref.whole cc2_scratch5 : Memref sig .scVector .vmem S100x128 .f32) g (k2_off330 k (f_laneW (F := F) (f_ldIdx R (k2_off318 t k) (k2_off318_inb t k)) 5 slices_S16_o5_S1 h2) 32#32) i5_2)) (f_ldRow d L (Memref.whole cc2_scratch5 : Memref sig .scVector .vmem S100x128 .f32) g (k2_off332 k (f_laneW (F := F) (f_ldIdx R (k2_off318 t k) (k2_off318_inb t k)) 6 slices_S16_o6_S1 h2) 32#32) i6_2)) (f_ldRow d L (Memref.whole cc2_scratch5 : Memref sig .scVector .vmem S100x128 .f32) g (k2_off334 k (f_laneW (F := F) (f_ldIdx R (k2_off318 t k) (k2_off318_inb t k)) 7 slices_S16_o7_S1 h2) 32#32) i7_2)) (f_ldRow d L (Memref.whole cc2_scratch5 : Memref sig .scVector .vmem S100x128 .f32) g (k2_off336 k (f_laneW (F := F) (f_ldIdx R (k2_off318 t k) (k2_off318_inb t k)) 8 slices_S16_o8_S1 h2) 32#32) i8_2)) (f_ldRow d L (Memref.whole cc2_scratch5 : Memref sig .scVector .vmem S100x128 .f32) g (k2_off338 k (f_laneW (F := F) (f_ldIdx R (k2_off318 t k) (k2_off318_inb t k)) 9 slices_S16_o9_S1 h2) 32#32) i9_2)) (f_ldRow d L (Memref.whole cc2_scratch5 : Memref sig .scVector .vmem S100x128 .f32) g (k2_off340 k (f_laneW (F := F) (f_ldIdx R (k2_off318 t k) (k2_off318_inb t k)) 10 slices_S16_o10_S1 h2) 32#32) i10_2)) (f_ldRow d L (Memref.whole cc2_scratch5 : Memref sig .scVector .vmem S100x128 .f32) g (k2_off342 k (f_laneW (F := F) (f_ldIdx R (k2_off318 t k) (k2_off318_inb t k)) 11 slices_S16_o11_S1 h2) 32#32) i11_2)) (f_ldRow d L (Memref.whole cc2_scratch5 : Memref sig .scVector .vmem S100x128 .f32) g (k2_off344 k (f_laneW (F := F) (f_ldIdx R (k2_off318 t k) (k2_off318_inb t k)) 12 slices_S16_o12_S1 h2) 32#32) i12_2)) (f_ldRow d L (Memref.whole cc2_scratch5 : Memref sig .scVector .vmem S100x128 .f32) g (k2_off346 k (f_laneW (F := F) (f_ldIdx R (k2_off318 t k) (k2_off318_inb t k)) 13 slices_S16_o13_S1 h2) 32#32) i13_2)) (f_ldRow d L (Memref.whole cc2_scratch5 : Memref sig .scVector .vmem S100x128 .f32) g (k2_off348 k (f_laneW (F := F) (f_ldIdx R (k2_off318 t k) (k2_off318_inb t k)) 14 slices_S16_o14_S1 h2) 32#32) i14_2)) (f_ldRow d L (Memref.whole cc2_scratch5 : Memref sig .scVector .vmem S100x128 .f32) g (k2_off350 k (f_laneW (F := F) (f_ldIdx R (k2_off318 t k) (k2_off318_inb t k)) 15 slices_S16_o15_S1 h2) 32#32) i15_2),
        addf (addf (addf (addf (addf (addf (addf (addf (addf (addf (addf (addf (addf (addf (addf (addf (acc.2.2.2) (f_ldRow d L (Memref.whole cc2_scratch5 : Memref sig .scVector .vmem S100x128 .f32) g (k2_off320 k (f_laneW (F := F) (f_ldIdx R (k2_off318 t k) (k2_off318_inb t k)) 0 slices_S16_o0_S1 h2) 48#32) i0_3)) (f_ldRow d L (Memref.whole cc2_scratch5 : Memref sig .scVector .vmem S100x128 .f32) g (k2_off322 k (f_laneW (F := F) (f_ldIdx R (k2_off318 t k) (k2_off318_inb t k)) 1 slices_S16_o1_S1 h2) 48#32) i1_3)) (f_ldRow d L (Memref.whole cc2_scratch5 : Memref sig .scVector .vmem S100x128 .f32) g (k2_off324 k (f_laneW (F := F) (f_ldIdx R (k2_off318 t k) (k2_off318_inb t k)) 2 slices_S16_o2_S1 h2) 48#32) i2_3)) (f_ldRow d L (Memref.whole cc2_scratch5 : Memref sig .scVector .vmem S100x128 .f32) g (k2_off326 k (f_laneW (F := F) (f_ldIdx R (k2_off318 t k) (k2_off318_inb t k)) 3 slices_S16_o3_S1 h2) 48#32) i3_3)) (f_ldRow d L (Memref.whole cc2_scratch5 : Memref sig .scVector .vmem S100x128 .f32) g (k2_off328 k (f_laneW (F := F) (f_ldIdx R (k2_off318 t k) (k2_off318_inb t k)) 4 slices_S16_o4_S1 h2) 48#32) i4_3)) (f_ldRow d L (Memref.whole cc2_scratch5 : Memref sig .scVector .vmem S100x128 .f32) g (k2_off330 k (f_laneW (F := F) (f_ldIdx R (k2_off318 t k) (k2_off318_inb t k)) 5 slices_S16_o5_S1 h2) 48#32) i5_3)) (f_ldRow d L (Memref.whole cc2_scratch5 : Memref sig .scVector .vmem S100x128 .f32) g (k2_off332 k (f_laneW (F := F) (f_ldIdx R (k2_off318 t k) (k2_off318_inb t k)) 6 slices_S16_o6_S1 h2) 48#32) i6_3)) (f_ldRow d L (Memref.whole cc2_scratch5 : Memref sig .scVector .vmem S100x128 .f32) g (k2_off334 k (f_laneW (F := F) (f_ldIdx R (k2_off318 t k) (k2_off318_inb t k)) 7 slices_S16_o7_S1 h2) 48#32) i7_3)) (f_ldRow d L (Memref.whole cc2_scratch5 : Memref sig .scVector .vmem S100x128 .f32) g (k2_off336 k (f_laneW (F := F) (f_ldIdx R (k2_off318 t k) (k2_off318_inb t k)) 8 slices_S16_o8_S1 h2) 48#32) i8_3)) (f_ldRow d L (Memref.whole cc2_scratch5 : Memref sig .scVector .vmem S100x128 .f32) g (k2_off338 k (f_laneW (F := F) (f_ldIdx R (k2_off318 t k) (k2_off318_inb t k)) 9 slices_S16_o9_S1 h2) 48#32) i9_3)) (f_ldRow d L (Memref.whole cc2_scratch5 : Memref sig .scVector .vmem S100x128 .f32) g (k2_off340 k (f_laneW (F := F) (f_ldIdx R (k2_off318 t k) (k2_off318_inb t k)) 10 slices_S16_o10_S1 h2) 48#32) i10_3)) (f_ldRow d L (Memref.whole cc2_scratch5 : Memref sig .scVector .vmem S100x128 .f32) g (k2_off342 k (f_laneW (F := F) (f_ldIdx R (k2_off318 t k) (k2_off318_inb t k)) 11 slices_S16_o11_S1 h2) 48#32) i11_3)) (f_ldRow d L (Memref.whole cc2_scratch5 : Memref sig .scVector .vmem S100x128 .f32) g (k2_off344 k (f_laneW (F := F) (f_ldIdx R (k2_off318 t k) (k2_off318_inb t k)) 12 slices_S16_o12_S1 h2) 48#32) i12_3)) (f_ldRow d L (Memref.whole cc2_scratch5 : Memref sig .scVector .vmem S100x128 .f32) g (k2_off346 k (f_laneW (F := F) (f_ldIdx R (k2_off318 t k) (k2_off318_inb t k)) 13 slices_S16_o13_S1 h2) 48#32) i13_3)) (f_ldRow d L (Memref.whole cc2_scratch5 : Memref sig .scVector .vmem S100x128 .f32) g (k2_off348 k (f_laneW (F := F) (f_ldIdx R (k2_off318 t k) (k2_off318_inb t k)) 14 slices_S16_o14_S1 h2) 48#32) i14_3)) (f_ldRow d L (Memref.whole cc2_scratch5 : Memref sig .scVector .vmem S100x128 .f32) g (k2_off350 k (f_laneW (F := F) (f_ldIdx R (k2_off318 t k) (k2_off318_inb t k)) 15 slices_S16_o15_S1 h2) 48#32) i15_3)) := by
  have hu : 2 * (64 + 2 * t.val + 1) + 1 = 131 + 4 * t.val := by omega
  have hrows' : BufRows ((Memref.whole cc2_scratch5 : Memref sig .scVector .vmem S100x128 .f32).view.read (Elt F) g) fT R (2 * (64 + 2 * t.val + 1) + 1) := by rw [hu]; exact hrows
  have hb := (bagAt_iff_bufAcc (by decide : 1 < 2) hrows' (by omega : 16 * k.val ≤ 100) acc).mp hP
  rw [hu] at hb
  have hs0 : BufAccAt (bufTerm ((Memref.whole cc2_scratch5 : Memref sig .scVector .vmem S100x128 .f32).view.read (Elt F) g) (tileWord R (131 + 4 * t.val))) (16 * k.val + 0) (bagInit R fT (64 + 2 * t.val + 1) 1)
      (acc.1, acc.2.1, acc.2.2.1, acc.2.2.2) := hb
  have hw0 := f_laneW_eq (F := F) (f_ldIdx R (k2_off318 t k) (k2_off318_inb t k)) (0 : Fin 16) slices_S16_o0_S1 h2 _ (f_idx_word11 t k R 0)
  have hs1 := hs0.f_row_kd d L (Memref.whole cc2_scratch5 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off318 t k) (k2_off318_inb t k)) (1 : Fin 16) slices_S16_o1_S1 h2 _ (f_idx_word11 t k R 1)
  have hs2 := hs1.f_row_kd d L (Memref.whole cc2_scratch5 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off318 t k) (k2_off318_inb t k)) (2 : Fin 16) slices_S16_o2_S1 h2 _ (f_idx_word11 t k R 2)
  have hs3 := hs2.f_row_kd d L (Memref.whole cc2_scratch5 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off318 t k) (k2_off318_inb t k)) (3 : Fin 16) slices_S16_o3_S1 h2 _ (f_idx_word11 t k R 3)
  have hs4 := hs3.f_row_kd d L (Memref.whole cc2_scratch5 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off318 t k) (k2_off318_inb t k)) (4 : Fin 16) slices_S16_o4_S1 h2 _ (f_idx_word11 t k R 4)
  have hs5 := hs4.f_row_kd d L (Memref.whole cc2_scratch5 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off318 t k) (k2_off318_inb t k)) (5 : Fin 16) slices_S16_o5_S1 h2 _ (f_idx_word11 t k R 5)
  have hs6 := hs5.f_row_kd d L (Memref.whole cc2_scratch5 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off318 t k) (k2_off318_inb t k)) (6 : Fin 16) slices_S16_o6_S1 h2 _ (f_idx_word11 t k R 6)
  have hs7 := hs6.f_row_kd d L (Memref.whole cc2_scratch5 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off318 t k) (k2_off318_inb t k)) (7 : Fin 16) slices_S16_o7_S1 h2 _ (f_idx_word11 t k R 7)
  have hs8 := hs7.f_row_kd d L (Memref.whole cc2_scratch5 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off318 t k) (k2_off318_inb t k)) (8 : Fin 16) slices_S16_o8_S1 h2 _ (f_idx_word11 t k R 8)
  have hs9 := hs8.f_row_kd d L (Memref.whole cc2_scratch5 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off318 t k) (k2_off318_inb t k)) (9 : Fin 16) slices_S16_o9_S1 h2 _ (f_idx_word11 t k R 9)
  have hs10 := hs9.f_row_kd d L (Memref.whole cc2_scratch5 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off318 t k) (k2_off318_inb t k)) (10 : Fin 16) slices_S16_o10_S1 h2 _ (f_idx_word11 t k R 10)
  have hs11 := hs10.f_row_kd d L (Memref.whole cc2_scratch5 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off318 t k) (k2_off318_inb t k)) (11 : Fin 16) slices_S16_o11_S1 h2 _ (f_idx_word11 t k R 11)
  have hs12 := hs11.f_row_kd d L (Memref.whole cc2_scratch5 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off318 t k) (k2_off318_inb t k)) (12 : Fin 16) slices_S16_o12_S1 h2 _ (f_idx_word11 t k R 12)
  have hs13 := hs12.f_row_kd d L (Memref.whole cc2_scratch5 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off318 t k) (k2_off318_inb t k)) (13 : Fin 16) slices_S16_o13_S1 h2 _ (f_idx_word11 t k R 13)
  have hs14 := hs13.f_row_kd d L (Memref.whole cc2_scratch5 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off318 t k) (k2_off318_inb t k)) (14 : Fin 16) slices_S16_o14_S1 h2 _ (f_idx_word11 t k R 14)
  have hs15 := hs14.f_row_kd d L (Memref.whole cc2_scratch5 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off318 t k) (k2_off318_inb t k)) (15 : Fin 16) slices_S16_o15_S1 h2 _ (f_idx_word11 t k R 15)
  have hs16 := hs15.f_row_kd d L (Memref.whole cc2_scratch5 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 1 < 2) hrows' (by omega : 16 * (k.val + 1) ≤ 100) _).mpr ?_
  rw [hu, show 16 * (k.val + 1) = 16 * k.val + (15 + 1) from by omega]
  exact hs16

/-- The four-row remainder of the first half of the second bag of trip `t` of the second outer loop: rows 96 to 99 make the whole first half, where the second half starts. -/
theorem rem10_step (t : Fin k2_t7_loop.trips) (R : IVec S128x224 32) (fT : FVec F S507904x128 .f32)
    (g : Buf (Elt F) ((Memref.whole cc2_scratch4 : Memref sig .scVector .vmem S100x128 .f32).view.loc (V d (cV L) (jV L)))) (acc0 : TileAcc F)
    (hrows : BufRows ((Memref.whole cc2_scratch4 : Memref sig .scVector .vmem S100x128 .f32).view.read (Elt F) g) fT R (130 + 4 * t.val))
    (hacc0 : TileBagAt R fT (64 + 2 * t.val + 1) 0 (16 * 6) acc0)
    {h2 : ∀ a, (![0] : Fin 1 → ℕ) a < S1.size a}
    {i0_0 i0_1 i0_2 i0_3 i1_0 i1_1 i1_2 i1_3 i2_0 i2_1 i2_2 i2_3 i3_0 i3_1 i3_2 i3_3} :
    TileBagAt R fT (64 + 2 * t.val + 1) 1 (16 * 0)
      (addf (addf (addf (addf (acc0.1) (f_ldRow d L (Memref.whole cc2_scratch4 : Memref sig .scVector .vmem S100x128 .f32) g (k2_off309 (f_laneW (F := F) (f_ldIdx R (k2_off308 t) (k2_off308_inb t)) 0 slices_S16_o0_S1 h2)) i0_0)) (f_ldRow d L (Memref.whole cc2_scratch4 : Memref sig .scVector .vmem S100x128 .f32) g (k2_off311 (f_laneW (F := F) (f_ldIdx R (k2_off308 t) (k2_off308_inb t)) 1 slices_S16_o1_S1 h2)) i1_0)) (f_ldRow d L (Memref.whole cc2_scratch4 : Memref sig .scVector .vmem S100x128 .f32) g (k2_off313 (f_laneW (F := F) (f_ldIdx R (k2_off308 t) (k2_off308_inb t)) 2 slices_S16_o2_S1 h2)) i2_0)) (f_ldRow d L (Memref.whole cc2_scratch4 : Memref sig .scVector .vmem S100x128 .f32) g (k2_off315 (f_laneW (F := F) (f_ldIdx R (k2_off308 t) (k2_off308_inb t)) 3 slices_S16_o3_S1 h2)) i3_0),
        addf (addf (addf (addf (acc0.2.1) (f_ldRow d L (Memref.whole cc2_scratch4 : Memref sig .scVector .vmem S100x128 .f32) g (k2_off310 (f_laneW (F := F) (f_ldIdx R (k2_off308 t) (k2_off308_inb t)) 0 slices_S16_o0_S1 h2) 16#32) i0_1)) (f_ldRow d L (Memref.whole cc2_scratch4 : Memref sig .scVector .vmem S100x128 .f32) g (k2_off312 (f_laneW (F := F) (f_ldIdx R (k2_off308 t) (k2_off308_inb t)) 1 slices_S16_o1_S1 h2) 16#32) i1_1)) (f_ldRow d L (Memref.whole cc2_scratch4 : Memref sig .scVector .vmem S100x128 .f32) g (k2_off314 (f_laneW (F := F) (f_ldIdx R (k2_off308 t) (k2_off308_inb t)) 2 slices_S16_o2_S1 h2) 16#32) i2_1)) (f_ldRow d L (Memref.whole cc2_scratch4 : Memref sig .scVector .vmem S100x128 .f32) g (k2_off316 (f_laneW (F := F) (f_ldIdx R (k2_off308 t) (k2_off308_inb t)) 3 slices_S16_o3_S1 h2) 16#32) i3_1),
        addf (addf (addf (addf (acc0.2.2.1) (f_ldRow d L (Memref.whole cc2_scratch4 : Memref sig .scVector .vmem S100x128 .f32) g (k2_off310 (f_laneW (F := F) (f_ldIdx R (k2_off308 t) (k2_off308_inb t)) 0 slices_S16_o0_S1 h2) 32#32) i0_2)) (f_ldRow d L (Memref.whole cc2_scratch4 : Memref sig .scVector .vmem S100x128 .f32) g (k2_off312 (f_laneW (F := F) (f_ldIdx R (k2_off308 t) (k2_off308_inb t)) 1 slices_S16_o1_S1 h2) 32#32) i1_2)) (f_ldRow d L (Memref.whole cc2_scratch4 : Memref sig .scVector .vmem S100x128 .f32) g (k2_off314 (f_laneW (F := F) (f_ldIdx R (k2_off308 t) (k2_off308_inb t)) 2 slices_S16_o2_S1 h2) 32#32) i2_2)) (f_ldRow d L (Memref.whole cc2_scratch4 : Memref sig .scVector .vmem S100x128 .f32) g (k2_off316 (f_laneW (F := F) (f_ldIdx R (k2_off308 t) (k2_off308_inb t)) 3 slices_S16_o3_S1 h2) 32#32) i3_2),
        addf (addf (addf (addf (acc0.2.2.2) (f_ldRow d L (Memref.whole cc2_scratch4 : Memref sig .scVector .vmem S100x128 .f32) g (k2_off310 (f_laneW (F := F) (f_ldIdx R (k2_off308 t) (k2_off308_inb t)) 0 slices_S16_o0_S1 h2) 48#32) i0_3)) (f_ldRow d L (Memref.whole cc2_scratch4 : Memref sig .scVector .vmem S100x128 .f32) g (k2_off312 (f_laneW (F := F) (f_ldIdx R (k2_off308 t) (k2_off308_inb t)) 1 slices_S16_o1_S1 h2) 48#32) i1_3)) (f_ldRow d L (Memref.whole cc2_scratch4 : Memref sig .scVector .vmem S100x128 .f32) g (k2_off314 (f_laneW (F := F) (f_ldIdx R (k2_off308 t) (k2_off308_inb t)) 2 slices_S16_o2_S1 h2) 48#32) i2_3)) (f_ldRow d L (Memref.whole cc2_scratch4 : Memref sig .scVector .vmem S100x128 .f32) g (k2_off316 (f_laneW (F := F) (f_ldIdx R (k2_off308 t) (k2_off308_inb t)) 3 slices_S16_o3_S1 h2) 48#32) i3_3)) := by
  have hu : 2 * (64 + 2 * t.val + 1) + 0 = 130 + 4 * t.val := by omega
  have hrows' : BufRows ((Memref.whole cc2_scratch4 : Memref sig .scVector .vmem S100x128 .f32).view.read (Elt F) g) fT R (2 * (64 + 2 * t.val + 1) + 0) := by rw [hu]; exact hrows
  have hb := (bagAt_iff_bufAcc (by decide : 0 < 2) hrows' (by decide : 16 * 6 ≤ 100) acc0).mp hacc0
  rw [hu] at hb
  have hs0 : BufAccAt (bufTerm ((Memref.whole cc2_scratch4 : Memref sig .scVector .vmem S100x128 .f32).view.read (Elt F) g) (tileWord R (130 + 4 * t.val))) (16 * 6 + 0) (bagInit R fT (64 + 2 * t.val + 1) 0)
      (acc0.1, acc0.2.1, acc0.2.2.1, acc0.2.2.2) := hb
  have hw0 := f_laneW_eq (F := F) (f_ldIdx R (k2_off308 t) (k2_off308_inb t)) (0 : Fin 16) slices_S16_o0_S1 h2 _ (f_idx_word10r t R 0)
  have hs1 := hs0.f_row_rd4 d L (Memref.whole cc2_scratch4 : Memref sig .scVector .vmem S100x128 .f32) g (by decide : 16 * 6 + 0 < 100) _ hw0 _ _ _ _ (inb0 := i0_0) (inb1 := i0_1) (inb2 := i0_2) (inb3 := i0_3) rfl rfl rfl rfl
  have hw1 := f_laneW_eq (F := F) (f_ldIdx R (k2_off308 t) (k2_off308_inb t)) (1 : Fin 16) slices_S16_o1_S1 h2 _ (f_idx_word10r t R 1)
  have hs2 := hs1.f_row_rd4 d L (Memref.whole cc2_scratch4 : Memref sig .scVector .vmem S100x128 .f32) g (by decide : 16 * 6 + 1 < 100) _ hw1 _ _ _ _ (inb0 := i1_0) (inb1 := i1_1) (inb2 := i1_2) (inb3 := i1_3) rfl rfl rfl rfl
  have hw2 := f_laneW_eq (F := F) (f_ldIdx R (k2_off308 t) (k2_off308_inb t)) (2 : Fin 16) slices_S16_o2_S1 h2 _ (f_idx_word10r t R 2)
  have hs3 := hs2.f_row_rd4 d L (Memref.whole cc2_scratch4 : Memref sig .scVector .vmem S100x128 .f32) g (by decide : 16 * 6 + 2 < 100) _ hw2 _ _ _ _ (inb0 := i2_0) (inb1 := i2_1) (inb2 := i2_2) (inb3 := i2_3) rfl rfl rfl rfl
  have hw3 := f_laneW_eq (F := F) (f_ldIdx R (k2_off308 t) (k2_off308_inb t)) (3 : Fin 16) slices_S16_o3_S1 h2 _ (f_idx_word10r t R 3)
  have hs4 := hs3.f_row_rd4 d L (Memref.whole cc2_scratch4 : Memref sig .scVector .vmem S100x128 .f32) g (by decide : 16 * 6 + 3 < 100) _ hw3 _ _ _ _ (inb0 := i3_0) (inb1 := i3_1) (inb2 := i3_2) (inb3 := i3_3) rfl rfl rfl rfl
  suffices hfin : TileBagAt R fT (64 + 2 * t.val + 1) 0 100 _ from fun q l => (hfin q l).trans (by
    unfold tileHalfV; rw [if_pos rfl, if_neg (by decide)]; rfl)
  refine (bagAt_iff_bufAcc (by decide : 0 < 2) hrows' (le_refl 100) _).mpr ?_
  rw [hu]
  exact hs4

/-- One trip of the third accumulate loop of trip `t` of the first outer loop: sixteen more rows of the first half of the trip's second bag. -/
theorem trip5_step (t : Fin k2_t2_loop.trips) (k : Fin k2_t5_loop.trips) (hk6 : k.val < 6) (R : IVec S128x224 32) (fT : FVec F S507904x128 .f32)
    (g : Buf (Elt F) ((Memref.whole cc2_scratch4 : Memref sig .scVector .vmem S100x128 .f32).view.loc (V d (cV L) (jV L)))) (acc : TileAcc F)
    (hrows : BufRows ((Memref.whole cc2_scratch4 : Memref sig .scVector .vmem S100x128 .f32).view.read (Elt F) g) fT R (4 * t.val + 2))
    (hP : TileBagAt R fT (2 * t.val + 1) 0 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (2 * t.val + 1) 0 (16 * (k.val + 1))
      (addf (addf (addf (addf (addf (addf (addf (addf (addf (addf (addf (addf (addf (addf (addf (addf (acc.1) (f_ldRow d L (Memref.whole cc2_scratch4 : Memref sig .scVector .vmem S100x128 .f32) g (k2_off95 k (f_laneW (F := F) (f_ldIdx R (k2_off94 t k) (k2_off94_inb t k)) 0 slices_S16_o0_S1 h2)) i0_0)) (f_ldRow d L (Memref.whole cc2_scratch4 : Memref sig .scVector .vmem S100x128 .f32) g (k2_off97 k (f_laneW (F := F) (f_ldIdx R (k2_off94 t k) (k2_off94_inb t k)) 1 slices_S16_o1_S1 h2)) i1_0)) (f_ldRow d L (Memref.whole cc2_scratch4 : Memref sig .scVector .vmem S100x128 .f32) g (k2_off99 k (f_laneW (F := F) (f_ldIdx R (k2_off94 t k) (k2_off94_inb t k)) 2 slices_S16_o2_S1 h2)) i2_0)) (f_ldRow d L (Memref.whole cc2_scratch4 : Memref sig .scVector .vmem S100x128 .f32) g (k2_off101 k (f_laneW (F := F) (f_ldIdx R (k2_off94 t k) (k2_off94_inb t k)) 3 slices_S16_o3_S1 h2)) i3_0)) (f_ldRow d L (Memref.whole cc2_scratch4 : Memref sig .scVector .vmem S100x128 .f32) g (k2_off103 k (f_laneW (F := F) (f_ldIdx R (k2_off94 t k) (k2_off94_inb t k)) 4 slices_S16_o4_S1 h2)) i4_0)) (f_ldRow d L (Memref.whole cc2_scratch4 : Memref sig .scVector .vmem S100x128 .f32) g (k2_off105 k (f_laneW (F := F) (f_ldIdx R (k2_off94 t k) (k2_off94_inb t k)) 5 slices_S16_o5_S1 h2)) i5_0)) (f_ldRow d L (Memref.whole cc2_scratch4 : Memref sig .scVector .vmem S100x128 .f32) g (k2_off107 k (f_laneW (F := F) (f_ldIdx R (k2_off94 t k) (k2_off94_inb t k)) 6 slices_S16_o6_S1 h2)) i6_0)) (f_ldRow d L (Memref.whole cc2_scratch4 : Memref sig .scVector .vmem S100x128 .f32) g (k2_off109 k (f_laneW (F := F) (f_ldIdx R (k2_off94 t k) (k2_off94_inb t k)) 7 slices_S16_o7_S1 h2)) i7_0)) (f_ldRow d L (Memref.whole cc2_scratch4 : Memref sig .scVector .vmem S100x128 .f32) g (k2_off111 k (f_laneW (F := F) (f_ldIdx R (k2_off94 t k) (k2_off94_inb t k)) 8 slices_S16_o8_S1 h2)) i8_0)) (f_ldRow d L (Memref.whole cc2_scratch4 : Memref sig .scVector .vmem S100x128 .f32) g (k2_off113 k (f_laneW (F := F) (f_ldIdx R (k2_off94 t k) (k2_off94_inb t k)) 9 slices_S16_o9_S1 h2)) i9_0)) (f_ldRow d L (Memref.whole cc2_scratch4 : Memref sig .scVector .vmem S100x128 .f32) g (k2_off115 k (f_laneW (F := F) (f_ldIdx R (k2_off94 t k) (k2_off94_inb t k)) 10 slices_S16_o10_S1 h2)) i10_0)) (f_ldRow d L (Memref.whole cc2_scratch4 : Memref sig .scVector .vmem S100x128 .f32) g (k2_off117 k (f_laneW (F := F) (f_ldIdx R (k2_off94 t k) (k2_off94_inb t k)) 11 slices_S16_o11_S1 h2)) i11_0)) (f_ldRow d L (Memref.whole cc2_scratch4 : Memref sig .scVector .vmem S100x128 .f32) g (k2_off119 k (f_laneW (F := F) (f_ldIdx R (k2_off94 t k) (k2_off94_inb t k)) 12 slices_S16_o12_S1 h2)) i12_0)) (f_ldRow d L (Memref.whole cc2_scratch4 : Memref sig .scVector .vmem S100x128 .f32) g (k2_off121 k (f_laneW (F := F) (f_ldIdx R (k2_off94 t k) (k2_off94_inb t k)) 13 slices_S16_o13_S1 h2)) i13_0)) (f_ldRow d L (Memref.whole cc2_scratch4 : Memref sig .scVector .vmem S100x128 .f32) g (k2_off123 k (f_laneW (F := F) (f_ldIdx R (k2_off94 t k) (k2_off94_inb t k)) 14 slices_S16_o14_S1 h2)) i14_0)) (f_ldRow d L (Memref.whole cc2_scratch4 : Memref sig .scVector .vmem S100x128 .f32) g (k2_off125 k (f_laneW (F := F) (f_ldIdx R (k2_off94 t k) (k2_off94_inb t k)) 15 slices_S16_o15_S1 h2)) i15_0),
        addf (addf (addf (addf (addf (addf (addf (addf (addf (addf (addf (addf (addf (addf (addf (addf (acc.2.1) (f_ldRow d L (Memref.whole cc2_scratch4 : Memref sig .scVector .vmem S100x128 .f32) g (k2_off96 k (f_laneW (F := F) (f_ldIdx R (k2_off94 t k) (k2_off94_inb t k)) 0 slices_S16_o0_S1 h2) 16#32) i0_1)) (f_ldRow d L (Memref.whole cc2_scratch4 : Memref sig .scVector .vmem S100x128 .f32) g (k2_off98 k (f_laneW (F := F) (f_ldIdx R (k2_off94 t k) (k2_off94_inb t k)) 1 slices_S16_o1_S1 h2) 16#32) i1_1)) (f_ldRow d L (Memref.whole cc2_scratch4 : Memref sig .scVector .vmem S100x128 .f32) g (k2_off100 k (f_laneW (F := F) (f_ldIdx R (k2_off94 t k) (k2_off94_inb t k)) 2 slices_S16_o2_S1 h2) 16#32) i2_1)) (f_ldRow d L (Memref.whole cc2_scratch4 : Memref sig .scVector .vmem S100x128 .f32) g (k2_off102 k (f_laneW (F := F) (f_ldIdx R (k2_off94 t k) (k2_off94_inb t k)) 3 slices_S16_o3_S1 h2) 16#32) i3_1)) (f_ldRow d L (Memref.whole cc2_scratch4 : Memref sig .scVector .vmem S100x128 .f32) g (k2_off104 k (f_laneW (F := F) (f_ldIdx R (k2_off94 t k) (k2_off94_inb t k)) 4 slices_S16_o4_S1 h2) 16#32) i4_1)) (f_ldRow d L (Memref.whole cc2_scratch4 : Memref sig .scVector .vmem S100x128 .f32) g (k2_off106 k (f_laneW (F := F) (f_ldIdx R (k2_off94 t k) (k2_off94_inb t k)) 5 slices_S16_o5_S1 h2) 16#32) i5_1)) (f_ldRow d L (Memref.whole cc2_scratch4 : Memref sig .scVector .vmem S100x128 .f32) g (k2_off108 k (f_laneW (F := F) (f_ldIdx R (k2_off94 t k) (k2_off94_inb t k)) 6 slices_S16_o6_S1 h2) 16#32) i6_1)) (f_ldRow d L (Memref.whole cc2_scratch4 : Memref sig .scVector .vmem S100x128 .f32) g (k2_off110 k (f_laneW (F := F) (f_ldIdx R (k2_off94 t k) (k2_off94_inb t k)) 7 slices_S16_o7_S1 h2) 16#32) i7_1)) (f_ldRow d L (Memref.whole cc2_scratch4 : Memref sig .scVector .vmem S100x128 .f32) g (k2_off112 k (f_laneW (F := F) (f_ldIdx R (k2_off94 t k) (k2_off94_inb t k)) 8 slices_S16_o8_S1 h2) 16#32) i8_1)) (f_ldRow d L (Memref.whole cc2_scratch4 : Memref sig .scVector .vmem S100x128 .f32) g (k2_off114 k (f_laneW (F := F) (f_ldIdx R (k2_off94 t k) (k2_off94_inb t k)) 9 slices_S16_o9_S1 h2) 16#32) i9_1)) (f_ldRow d L (Memref.whole cc2_scratch4 : Memref sig .scVector .vmem S100x128 .f32) g (k2_off116 k (f_laneW (F := F) (f_ldIdx R (k2_off94 t k) (k2_off94_inb t k)) 10 slices_S16_o10_S1 h2) 16#32) i10_1)) (f_ldRow d L (Memref.whole cc2_scratch4 : Memref sig .scVector .vmem S100x128 .f32) g (k2_off118 k (f_laneW (F := F) (f_ldIdx R (k2_off94 t k) (k2_off94_inb t k)) 11 slices_S16_o11_S1 h2) 16#32) i11_1)) (f_ldRow d L (Memref.whole cc2_scratch4 : Memref sig .scVector .vmem S100x128 .f32) g (k2_off120 k (f_laneW (F := F) (f_ldIdx R (k2_off94 t k) (k2_off94_inb t k)) 12 slices_S16_o12_S1 h2) 16#32) i12_1)) (f_ldRow d L (Memref.whole cc2_scratch4 : Memref sig .scVector .vmem S100x128 .f32) g (k2_off122 k (f_laneW (F := F) (f_ldIdx R (k2_off94 t k) (k2_off94_inb t k)) 13 slices_S16_o13_S1 h2) 16#32) i13_1)) (f_ldRow d L (Memref.whole cc2_scratch4 : Memref sig .scVector .vmem S100x128 .f32) g (k2_off124 k (f_laneW (F := F) (f_ldIdx R (k2_off94 t k) (k2_off94_inb t k)) 14 slices_S16_o14_S1 h2) 16#32) i14_1)) (f_ldRow d L (Memref.whole cc2_scratch4 : Memref sig .scVector .vmem S100x128 .f32) g (k2_off126 k (f_laneW (F := F) (f_ldIdx R (k2_off94 t k) (k2_off94_inb t k)) 15 slices_S16_o15_S1 h2) 16#32) i15_1),
        addf (addf (addf (addf (addf (addf (addf (addf (addf (addf (addf (addf (addf (addf (addf (addf (acc.2.2.1) (f_ldRow d L (Memref.whole cc2_scratch4 : Memref sig .scVector .vmem S100x128 .f32) g (k2_off96 k (f_laneW (F := F) (f_ldIdx R (k2_off94 t k) (k2_off94_inb t k)) 0 slices_S16_o0_S1 h2) 32#32) i0_2)) (f_ldRow d L (Memref.whole cc2_scratch4 : Memref sig .scVector .vmem S100x128 .f32) g (k2_off98 k (f_laneW (F := F) (f_ldIdx R (k2_off94 t k) (k2_off94_inb t k)) 1 slices_S16_o1_S1 h2) 32#32) i1_2)) (f_ldRow d L (Memref.whole cc2_scratch4 : Memref sig .scVector .vmem S100x128 .f32) g (k2_off100 k (f_laneW (F := F) (f_ldIdx R (k2_off94 t k) (k2_off94_inb t k)) 2 slices_S16_o2_S1 h2) 32#32) i2_2)) (f_ldRow d L (Memref.whole cc2_scratch4 : Memref sig .scVector .vmem S100x128 .f32) g (k2_off102 k (f_laneW (F := F) (f_ldIdx R (k2_off94 t k) (k2_off94_inb t k)) 3 slices_S16_o3_S1 h2) 32#32) i3_2)) (f_ldRow d L (Memref.whole cc2_scratch4 : Memref sig .scVector .vmem S100x128 .f32) g (k2_off104 k (f_laneW (F := F) (f_ldIdx R (k2_off94 t k) (k2_off94_inb t k)) 4 slices_S16_o4_S1 h2) 32#32) i4_2)) (f_ldRow d L (Memref.whole cc2_scratch4 : Memref sig .scVector .vmem S100x128 .f32) g (k2_off106 k (f_laneW (F := F) (f_ldIdx R (k2_off94 t k) (k2_off94_inb t k)) 5 slices_S16_o5_S1 h2) 32#32) i5_2)) (f_ldRow d L (Memref.whole cc2_scratch4 : Memref sig .scVector .vmem S100x128 .f32) g (k2_off108 k (f_laneW (F := F) (f_ldIdx R (k2_off94 t k) (k2_off94_inb t k)) 6 slices_S16_o6_S1 h2) 32#32) i6_2)) (f_ldRow d L (Memref.whole cc2_scratch4 : Memref sig .scVector .vmem S100x128 .f32) g (k2_off110 k (f_laneW (F := F) (f_ldIdx R (k2_off94 t k) (k2_off94_inb t k)) 7 slices_S16_o7_S1 h2) 32#32) i7_2)) (f_ldRow d L (Memref.whole cc2_scratch4 : Memref sig .scVector .vmem S100x128 .f32) g (k2_off112 k (f_laneW (F := F) (f_ldIdx R (k2_off94 t k) (k2_off94_inb t k)) 8 slices_S16_o8_S1 h2) 32#32) i8_2)) (f_ldRow d L (Memref.whole cc2_scratch4 : Memref sig .scVector .vmem S100x128 .f32) g (k2_off114 k (f_laneW (F := F) (f_ldIdx R (k2_off94 t k) (k2_off94_inb t k)) 9 slices_S16_o9_S1 h2) 32#32) i9_2)) (f_ldRow d L (Memref.whole cc2_scratch4 : Memref sig .scVector .vmem S100x128 .f32) g (k2_off116 k (f_laneW (F := F) (f_ldIdx R (k2_off94 t k) (k2_off94_inb t k)) 10 slices_S16_o10_S1 h2) 32#32) i10_2)) (f_ldRow d L (Memref.whole cc2_scratch4 : Memref sig .scVector .vmem S100x128 .f32) g (k2_off118 k (f_laneW (F := F) (f_ldIdx R (k2_off94 t k) (k2_off94_inb t k)) 11 slices_S16_o11_S1 h2) 32#32) i11_2)) (f_ldRow d L (Memref.whole cc2_scratch4 : Memref sig .scVector .vmem S100x128 .f32) g (k2_off120 k (f_laneW (F := F) (f_ldIdx R (k2_off94 t k) (k2_off94_inb t k)) 12 slices_S16_o12_S1 h2) 32#32) i12_2)) (f_ldRow d L (Memref.whole cc2_scratch4 : Memref sig .scVector .vmem S100x128 .f32) g (k2_off122 k (f_laneW (F := F) (f_ldIdx R (k2_off94 t k) (k2_off94_inb t k)) 13 slices_S16_o13_S1 h2) 32#32) i13_2)) (f_ldRow d L (Memref.whole cc2_scratch4 : Memref sig .scVector .vmem S100x128 .f32) g (k2_off124 k (f_laneW (F := F) (f_ldIdx R (k2_off94 t k) (k2_off94_inb t k)) 14 slices_S16_o14_S1 h2) 32#32) i14_2)) (f_ldRow d L (Memref.whole cc2_scratch4 : Memref sig .scVector .vmem S100x128 .f32) g (k2_off126 k (f_laneW (F := F) (f_ldIdx R (k2_off94 t k) (k2_off94_inb t k)) 15 slices_S16_o15_S1 h2) 32#32) i15_2),
        addf (addf (addf (addf (addf (addf (addf (addf (addf (addf (addf (addf (addf (addf (addf (addf (acc.2.2.2) (f_ldRow d L (Memref.whole cc2_scratch4 : Memref sig .scVector .vmem S100x128 .f32) g (k2_off96 k (f_laneW (F := F) (f_ldIdx R (k2_off94 t k) (k2_off94_inb t k)) 0 slices_S16_o0_S1 h2) 48#32) i0_3)) (f_ldRow d L (Memref.whole cc2_scratch4 : Memref sig .scVector .vmem S100x128 .f32) g (k2_off98 k (f_laneW (F := F) (f_ldIdx R (k2_off94 t k) (k2_off94_inb t k)) 1 slices_S16_o1_S1 h2) 48#32) i1_3)) (f_ldRow d L (Memref.whole cc2_scratch4 : Memref sig .scVector .vmem S100x128 .f32) g (k2_off100 k (f_laneW (F := F) (f_ldIdx R (k2_off94 t k) (k2_off94_inb t k)) 2 slices_S16_o2_S1 h2) 48#32) i2_3)) (f_ldRow d L (Memref.whole cc2_scratch4 : Memref sig .scVector .vmem S100x128 .f32) g (k2_off102 k (f_laneW (F := F) (f_ldIdx R (k2_off94 t k) (k2_off94_inb t k)) 3 slices_S16_o3_S1 h2) 48#32) i3_3)) (f_ldRow d L (Memref.whole cc2_scratch4 : Memref sig .scVector .vmem S100x128 .f32) g (k2_off104 k (f_laneW (F := F) (f_ldIdx R (k2_off94 t k) (k2_off94_inb t k)) 4 slices_S16_o4_S1 h2) 48#32) i4_3)) (f_ldRow d L (Memref.whole cc2_scratch4 : Memref sig .scVector .vmem S100x128 .f32) g (k2_off106 k (f_laneW (F := F) (f_ldIdx R (k2_off94 t k) (k2_off94_inb t k)) 5 slices_S16_o5_S1 h2) 48#32) i5_3)) (f_ldRow d L (Memref.whole cc2_scratch4 : Memref sig .scVector .vmem S100x128 .f32) g (k2_off108 k (f_laneW (F := F) (f_ldIdx R (k2_off94 t k) (k2_off94_inb t k)) 6 slices_S16_o6_S1 h2) 48#32) i6_3)) (f_ldRow d L (Memref.whole cc2_scratch4 : Memref sig .scVector .vmem S100x128 .f32) g (k2_off110 k (f_laneW (F := F) (f_ldIdx R (k2_off94 t k) (k2_off94_inb t k)) 7 slices_S16_o7_S1 h2) 48#32) i7_3)) (f_ldRow d L (Memref.whole cc2_scratch4 : Memref sig .scVector .vmem S100x128 .f32) g (k2_off112 k (f_laneW (F := F) (f_ldIdx R (k2_off94 t k) (k2_off94_inb t k)) 8 slices_S16_o8_S1 h2) 48#32) i8_3)) (f_ldRow d L (Memref.whole cc2_scratch4 : Memref sig .scVector .vmem S100x128 .f32) g (k2_off114 k (f_laneW (F := F) (f_ldIdx R (k2_off94 t k) (k2_off94_inb t k)) 9 slices_S16_o9_S1 h2) 48#32) i9_3)) (f_ldRow d L (Memref.whole cc2_scratch4 : Memref sig .scVector .vmem S100x128 .f32) g (k2_off116 k (f_laneW (F := F) (f_ldIdx R (k2_off94 t k) (k2_off94_inb t k)) 10 slices_S16_o10_S1 h2) 48#32) i10_3)) (f_ldRow d L (Memref.whole cc2_scratch4 : Memref sig .scVector .vmem S100x128 .f32) g (k2_off118 k (f_laneW (F := F) (f_ldIdx R (k2_off94 t k) (k2_off94_inb t k)) 11 slices_S16_o11_S1 h2) 48#32) i11_3)) (f_ldRow d L (Memref.whole cc2_scratch4 : Memref sig .scVector .vmem S100x128 .f32) g (k2_off120 k (f_laneW (F := F) (f_ldIdx R (k2_off94 t k) (k2_off94_inb t k)) 12 slices_S16_o12_S1 h2) 48#32) i12_3)) (f_ldRow d L (Memref.whole cc2_scratch4 : Memref sig .scVector .vmem S100x128 .f32) g (k2_off122 k (f_laneW (F := F) (f_ldIdx R (k2_off94 t k) (k2_off94_inb t k)) 13 slices_S16_o13_S1 h2) 48#32) i13_3)) (f_ldRow d L (Memref.whole cc2_scratch4 : Memref sig .scVector .vmem S100x128 .f32) g (k2_off124 k (f_laneW (F := F) (f_ldIdx R (k2_off94 t k) (k2_off94_inb t k)) 14 slices_S16_o14_S1 h2) 48#32) i14_3)) (f_ldRow d L (Memref.whole cc2_scratch4 : Memref sig .scVector .vmem S100x128 .f32) g (k2_off126 k (f_laneW (F := F) (f_ldIdx R (k2_off94 t k) (k2_off94_inb t k)) 15 slices_S16_o15_S1 h2) 48#32) i15_3)) := by
  have hu : 2 * (2 * t.val + 1) + 0 = 4 * t.val + 2 := by omega
  have hrows' : BufRows ((Memref.whole cc2_scratch4 : Memref sig .scVector .vmem S100x128 .f32).view.read (Elt F) g) fT R (2 * (2 * t.val + 1) + 0) := by rw [hu]; exact hrows
  have hb := (bagAt_iff_bufAcc (by decide : 0 < 2) hrows' (by omega : 16 * k.val ≤ 100) acc).mp hP
  rw [hu] at hb
  have hs0 : BufAccAt (bufTerm ((Memref.whole cc2_scratch4 : Memref sig .scVector .vmem S100x128 .f32).view.read (Elt F) g) (tileWord R (4 * t.val + 2))) (16 * k.val + 0) (bagInit R fT (2 * t.val + 1) 0)
      (acc.1, acc.2.1, acc.2.2.1, acc.2.2.2) := hb
  have hw0 := f_laneW_eq (F := F) (f_ldIdx R (k2_off94 t k) (k2_off94_inb t k)) (0 : Fin 16) slices_S16_o0_S1 h2 _ (f_idx_word5 t k R 0)
  have hs1 := hs0.f_row_kd d L (Memref.whole cc2_scratch4 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off94 t k) (k2_off94_inb t k)) (1 : Fin 16) slices_S16_o1_S1 h2 _ (f_idx_word5 t k R 1)
  have hs2 := hs1.f_row_kd d L (Memref.whole cc2_scratch4 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off94 t k) (k2_off94_inb t k)) (2 : Fin 16) slices_S16_o2_S1 h2 _ (f_idx_word5 t k R 2)
  have hs3 := hs2.f_row_kd d L (Memref.whole cc2_scratch4 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off94 t k) (k2_off94_inb t k)) (3 : Fin 16) slices_S16_o3_S1 h2 _ (f_idx_word5 t k R 3)
  have hs4 := hs3.f_row_kd d L (Memref.whole cc2_scratch4 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off94 t k) (k2_off94_inb t k)) (4 : Fin 16) slices_S16_o4_S1 h2 _ (f_idx_word5 t k R 4)
  have hs5 := hs4.f_row_kd d L (Memref.whole cc2_scratch4 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off94 t k) (k2_off94_inb t k)) (5 : Fin 16) slices_S16_o5_S1 h2 _ (f_idx_word5 t k R 5)
  have hs6 := hs5.f_row_kd d L (Memref.whole cc2_scratch4 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off94 t k) (k2_off94_inb t k)) (6 : Fin 16) slices_S16_o6_S1 h2 _ (f_idx_word5 t k R 6)
  have hs7 := hs6.f_row_kd d L (Memref.whole cc2_scratch4 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off94 t k) (k2_off94_inb t k)) (7 : Fin 16) slices_S16_o7_S1 h2 _ (f_idx_word5 t k R 7)
  have hs8 := hs7.f_row_kd d L (Memref.whole cc2_scratch4 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off94 t k) (k2_off94_inb t k)) (8 : Fin 16) slices_S16_o8_S1 h2 _ (f_idx_word5 t k R 8)
  have hs9 := hs8.f_row_kd d L (Memref.whole cc2_scratch4 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off94 t k) (k2_off94_inb t k)) (9 : Fin 16) slices_S16_o9_S1 h2 _ (f_idx_word5 t k R 9)
  have hs10 := hs9.f_row_kd d L (Memref.whole cc2_scratch4 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off94 t k) (k2_off94_inb t k)) (10 : Fin 16) slices_S16_o10_S1 h2 _ (f_idx_word5 t k R 10)
  have hs11 := hs10.f_row_kd d L (Memref.whole cc2_scratch4 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off94 t k) (k2_off94_inb t k)) (11 : Fin 16) slices_S16_o11_S1 h2 _ (f_idx_word5 t k R 11)
  have hs12 := hs11.f_row_kd d L (Memref.whole cc2_scratch4 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off94 t k) (k2_off94_inb t k)) (12 : Fin 16) slices_S16_o12_S1 h2 _ (f_idx_word5 t k R 12)
  have hs13 := hs12.f_row_kd d L (Memref.whole cc2_scratch4 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off94 t k) (k2_off94_inb t k)) (13 : Fin 16) slices_S16_o13_S1 h2 _ (f_idx_word5 t k R 13)
  have hs14 := hs13.f_row_kd d L (Memref.whole cc2_scratch4 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off94 t k) (k2_off94_inb t k)) (14 : Fin 16) slices_S16_o14_S1 h2 _ (f_idx_word5 t k R 14)
  have hs15 := hs14.f_row_kd d L (Memref.whole cc2_scratch4 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off94 t k) (k2_off94_inb t k)) (15 : Fin 16) slices_S16_o15_S1 h2 _ (f_idx_word5 t k R 15)
  have hs16 := hs15.f_row_kd d L (Memref.whole cc2_scratch4 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 0 < 2) hrows' (by omega : 16 * (k.val + 1) ≤ 100) _).mpr ?_
  rw [hu, show 16 * (k.val + 1) = 16 * k.val + (15 + 1) from by omega]
  exact hs16

/-- One trip of the fourth accumulate loop of trip `t` of the first outer loop: sixteen more rows of the second half of the trip's second bag. -/
theorem trip6_step (t : Fin k2_t2_loop.trips) (k : Fin k2_t6_loop.trips) (hk6 : k.val < 6) (R : IVec S128x224 32) (fT : FVec F S507904x128 .f32)
    (g : Buf (Elt F) ((Memref.whole cc2_scratch5 : Memref sig .scVector .vmem S100x128 .f32).view.loc (V d (cV L) (jV L)))) (acc : TileAcc F)
    (hrows : BufRows ((Memref.whole cc2_scratch5 : Memref sig .scVector .vmem S100x128 .f32).view.read (Elt F) g) fT R (4 * t.val + 3))
    (hP : TileBagAt R fT (2 * t.val + 1) 1 (16 * k.val) acc)
    {h2 : ∀ a, (![0] : Fin 1 → ℕ) a < S1.size a}
    {i0_0 i0_1 i0_2 i0_3 i1_0 i1_1 i1_2 i1_3 i2_0 i2_1 i2_2 i2_3 i3_0 i3_1 i3_2 i3_3 i4_0 i4_1 i4_2 i4_3 i5_0 i5_1 i5_2 i5_3 i6_0 i6_1 i6_2 i6_3 i7_0 i7_1 i7_2 i7_3 i8_0 i8_1 i8_2 i8_3 i9_0 i9_1 i9_2 i9_3 i10_0 i10_1 i10_2 i10_3 i11_0 i11_1 i11_2 i11_3 i12_0 i12_1 i12_2 i12_3 i13_0 i13_1 i13_2 i13_3 i14_0 i14_1 i14_2 i14_3 i15_0 i15_1 i15_2 i15_3} :
    TileBagAt R fT (2 * t.val + 1) 1 (16 * (k.val + 1))
      (addf (addf (addf (addf (addf (addf (addf (addf (addf (addf (addf (addf (addf (addf (addf (addf (acc.1) (f_ldRow d L (Memref.whole cc2_scratch5 : Memref sig .scVector .vmem S100x128 .f32) g (k2_off138 k (f_laneW (F := F) (f_ldIdx R (k2_off137 t k) (k2_off137_inb t k)) 0 slices_S16_o0_S1 h2)) i0_0)) (f_ldRow d L (Memref.whole cc2_scratch5 : Memref sig .scVector .vmem S100x128 .f32) g (k2_off140 k (f_laneW (F := F) (f_ldIdx R (k2_off137 t k) (k2_off137_inb t k)) 1 slices_S16_o1_S1 h2)) i1_0)) (f_ldRow d L (Memref.whole cc2_scratch5 : Memref sig .scVector .vmem S100x128 .f32) g (k2_off142 k (f_laneW (F := F) (f_ldIdx R (k2_off137 t k) (k2_off137_inb t k)) 2 slices_S16_o2_S1 h2)) i2_0)) (f_ldRow d L (Memref.whole cc2_scratch5 : Memref sig .scVector .vmem S100x128 .f32) g (k2_off144 k (f_laneW (F := F) (f_ldIdx R (k2_off137 t k) (k2_off137_inb t k)) 3 slices_S16_o3_S1 h2)) i3_0)) (f_ldRow d L (Memref.whole cc2_scratch5 : Memref sig .scVector .vmem S100x128 .f32) g (k2_off146 k (f_laneW (F := F) (f_ldIdx R (k2_off137 t k) (k2_off137_inb t k)) 4 slices_S16_o4_S1 h2)) i4_0)) (f_ldRow d L (Memref.whole cc2_scratch5 : Memref sig .scVector .vmem S100x128 .f32) g (k2_off148 k (f_laneW (F := F) (f_ldIdx R (k2_off137 t k) (k2_off137_inb t k)) 5 slices_S16_o5_S1 h2)) i5_0)) (f_ldRow d L (Memref.whole cc2_scratch5 : Memref sig .scVector .vmem S100x128 .f32) g (k2_off150 k (f_laneW (F := F) (f_ldIdx R (k2_off137 t k) (k2_off137_inb t k)) 6 slices_S16_o6_S1 h2)) i6_0)) (f_ldRow d L (Memref.whole cc2_scratch5 : Memref sig .scVector .vmem S100x128 .f32) g (k2_off152 k (f_laneW (F := F) (f_ldIdx R (k2_off137 t k) (k2_off137_inb t k)) 7 slices_S16_o7_S1 h2)) i7_0)) (f_ldRow d L (Memref.whole cc2_scratch5 : Memref sig .scVector .vmem S100x128 .f32) g (k2_off154 k (f_laneW (F := F) (f_ldIdx R (k2_off137 t k) (k2_off137_inb t k)) 8 slices_S16_o8_S1 h2)) i8_0)) (f_ldRow d L (Memref.whole cc2_scratch5 : Memref sig .scVector .vmem S100x128 .f32) g (k2_off156 k (f_laneW (F := F) (f_ldIdx R (k2_off137 t k) (k2_off137_inb t k)) 9 slices_S16_o9_S1 h2)) i9_0)) (f_ldRow d L (Memref.whole cc2_scratch5 : Memref sig .scVector .vmem S100x128 .f32) g (k2_off158 k (f_laneW (F := F) (f_ldIdx R (k2_off137 t k) (k2_off137_inb t k)) 10 slices_S16_o10_S1 h2)) i10_0)) (f_ldRow d L (Memref.whole cc2_scratch5 : Memref sig .scVector .vmem S100x128 .f32) g (k2_off160 k (f_laneW (F := F) (f_ldIdx R (k2_off137 t k) (k2_off137_inb t k)) 11 slices_S16_o11_S1 h2)) i11_0)) (f_ldRow d L (Memref.whole cc2_scratch5 : Memref sig .scVector .vmem S100x128 .f32) g (k2_off162 k (f_laneW (F := F) (f_ldIdx R (k2_off137 t k) (k2_off137_inb t k)) 12 slices_S16_o12_S1 h2)) i12_0)) (f_ldRow d L (Memref.whole cc2_scratch5 : Memref sig .scVector .vmem S100x128 .f32) g (k2_off164 k (f_laneW (F := F) (f_ldIdx R (k2_off137 t k) (k2_off137_inb t k)) 13 slices_S16_o13_S1 h2)) i13_0)) (f_ldRow d L (Memref.whole cc2_scratch5 : Memref sig .scVector .vmem S100x128 .f32) g (k2_off166 k (f_laneW (F := F) (f_ldIdx R (k2_off137 t k) (k2_off137_inb t k)) 14 slices_S16_o14_S1 h2)) i14_0)) (f_ldRow d L (Memref.whole cc2_scratch5 : Memref sig .scVector .vmem S100x128 .f32) g (k2_off168 k (f_laneW (F := F) (f_ldIdx R (k2_off137 t k) (k2_off137_inb t k)) 15 slices_S16_o15_S1 h2)) i15_0),
        addf (addf (addf (addf (addf (addf (addf (addf (addf (addf (addf (addf (addf (addf (addf (addf (acc.2.1) (f_ldRow d L (Memref.whole cc2_scratch5 : Memref sig .scVector .vmem S100x128 .f32) g (k2_off139 k (f_laneW (F := F) (f_ldIdx R (k2_off137 t k) (k2_off137_inb t k)) 0 slices_S16_o0_S1 h2) 16#32) i0_1)) (f_ldRow d L (Memref.whole cc2_scratch5 : Memref sig .scVector .vmem S100x128 .f32) g (k2_off141 k (f_laneW (F := F) (f_ldIdx R (k2_off137 t k) (k2_off137_inb t k)) 1 slices_S16_o1_S1 h2) 16#32) i1_1)) (f_ldRow d L (Memref.whole cc2_scratch5 : Memref sig .scVector .vmem S100x128 .f32) g (k2_off143 k (f_laneW (F := F) (f_ldIdx R (k2_off137 t k) (k2_off137_inb t k)) 2 slices_S16_o2_S1 h2) 16#32) i2_1)) (f_ldRow d L (Memref.whole cc2_scratch5 : Memref sig .scVector .vmem S100x128 .f32) g (k2_off145 k (f_laneW (F := F) (f_ldIdx R (k2_off137 t k) (k2_off137_inb t k)) 3 slices_S16_o3_S1 h2) 16#32) i3_1)) (f_ldRow d L (Memref.whole cc2_scratch5 : Memref sig .scVector .vmem S100x128 .f32) g (k2_off147 k (f_laneW (F := F) (f_ldIdx R (k2_off137 t k) (k2_off137_inb t k)) 4 slices_S16_o4_S1 h2) 16#32) i4_1)) (f_ldRow d L (Memref.whole cc2_scratch5 : Memref sig .scVector .vmem S100x128 .f32) g (k2_off149 k (f_laneW (F := F) (f_ldIdx R (k2_off137 t k) (k2_off137_inb t k)) 5 slices_S16_o5_S1 h2) 16#32) i5_1)) (f_ldRow d L (Memref.whole cc2_scratch5 : Memref sig .scVector .vmem S100x128 .f32) g (k2_off151 k (f_laneW (F := F) (f_ldIdx R (k2_off137 t k) (k2_off137_inb t k)) 6 slices_S16_o6_S1 h2) 16#32) i6_1)) (f_ldRow d L (Memref.whole cc2_scratch5 : Memref sig .scVector .vmem S100x128 .f32) g (k2_off153 k (f_laneW (F := F) (f_ldIdx R (k2_off137 t k) (k2_off137_inb t k)) 7 slices_S16_o7_S1 h2) 16#32) i7_1)) (f_ldRow d L (Memref.whole cc2_scratch5 : Memref sig .scVector .vmem S100x128 .f32) g (k2_off155 k (f_laneW (F := F) (f_ldIdx R (k2_off137 t k) (k2_off137_inb t k)) 8 slices_S16_o8_S1 h2) 16#32) i8_1)) (f_ldRow d L (Memref.whole cc2_scratch5 : Memref sig .scVector .vmem S100x128 .f32) g (k2_off157 k (f_laneW (F := F) (f_ldIdx R (k2_off137 t k) (k2_off137_inb t k)) 9 slices_S16_o9_S1 h2) 16#32) i9_1)) (f_ldRow d L (Memref.whole cc2_scratch5 : Memref sig .scVector .vmem S100x128 .f32) g (k2_off159 k (f_laneW (F := F) (f_ldIdx R (k2_off137 t k) (k2_off137_inb t k)) 10 slices_S16_o10_S1 h2) 16#32) i10_1)) (f_ldRow d L (Memref.whole cc2_scratch5 : Memref sig .scVector .vmem S100x128 .f32) g (k2_off161 k (f_laneW (F := F) (f_ldIdx R (k2_off137 t k) (k2_off137_inb t k)) 11 slices_S16_o11_S1 h2) 16#32) i11_1)) (f_ldRow d L (Memref.whole cc2_scratch5 : Memref sig .scVector .vmem S100x128 .f32) g (k2_off163 k (f_laneW (F := F) (f_ldIdx R (k2_off137 t k) (k2_off137_inb t k)) 12 slices_S16_o12_S1 h2) 16#32) i12_1)) (f_ldRow d L (Memref.whole cc2_scratch5 : Memref sig .scVector .vmem S100x128 .f32) g (k2_off165 k (f_laneW (F := F) (f_ldIdx R (k2_off137 t k) (k2_off137_inb t k)) 13 slices_S16_o13_S1 h2) 16#32) i13_1)) (f_ldRow d L (Memref.whole cc2_scratch5 : Memref sig .scVector .vmem S100x128 .f32) g (k2_off167 k (f_laneW (F := F) (f_ldIdx R (k2_off137 t k) (k2_off137_inb t k)) 14 slices_S16_o14_S1 h2) 16#32) i14_1)) (f_ldRow d L (Memref.whole cc2_scratch5 : Memref sig .scVector .vmem S100x128 .f32) g (k2_off169 k (f_laneW (F := F) (f_ldIdx R (k2_off137 t k) (k2_off137_inb t k)) 15 slices_S16_o15_S1 h2) 16#32) i15_1),
        addf (addf (addf (addf (addf (addf (addf (addf (addf (addf (addf (addf (addf (addf (addf (addf (acc.2.2.1) (f_ldRow d L (Memref.whole cc2_scratch5 : Memref sig .scVector .vmem S100x128 .f32) g (k2_off139 k (f_laneW (F := F) (f_ldIdx R (k2_off137 t k) (k2_off137_inb t k)) 0 slices_S16_o0_S1 h2) 32#32) i0_2)) (f_ldRow d L (Memref.whole cc2_scratch5 : Memref sig .scVector .vmem S100x128 .f32) g (k2_off141 k (f_laneW (F := F) (f_ldIdx R (k2_off137 t k) (k2_off137_inb t k)) 1 slices_S16_o1_S1 h2) 32#32) i1_2)) (f_ldRow d L (Memref.whole cc2_scratch5 : Memref sig .scVector .vmem S100x128 .f32) g (k2_off143 k (f_laneW (F := F) (f_ldIdx R (k2_off137 t k) (k2_off137_inb t k)) 2 slices_S16_o2_S1 h2) 32#32) i2_2)) (f_ldRow d L (Memref.whole cc2_scratch5 : Memref sig .scVector .vmem S100x128 .f32) g (k2_off145 k (f_laneW (F := F) (f_ldIdx R (k2_off137 t k) (k2_off137_inb t k)) 3 slices_S16_o3_S1 h2) 32#32) i3_2)) (f_ldRow d L (Memref.whole cc2_scratch5 : Memref sig .scVector .vmem S100x128 .f32) g (k2_off147 k (f_laneW (F := F) (f_ldIdx R (k2_off137 t k) (k2_off137_inb t k)) 4 slices_S16_o4_S1 h2) 32#32) i4_2)) (f_ldRow d L (Memref.whole cc2_scratch5 : Memref sig .scVector .vmem S100x128 .f32) g (k2_off149 k (f_laneW (F := F) (f_ldIdx R (k2_off137 t k) (k2_off137_inb t k)) 5 slices_S16_o5_S1 h2) 32#32) i5_2)) (f_ldRow d L (Memref.whole cc2_scratch5 : Memref sig .scVector .vmem S100x128 .f32) g (k2_off151 k (f_laneW (F := F) (f_ldIdx R (k2_off137 t k) (k2_off137_inb t k)) 6 slices_S16_o6_S1 h2) 32#32) i6_2)) (f_ldRow d L (Memref.whole cc2_scratch5 : Memref sig .scVector .vmem S100x128 .f32) g (k2_off153 k (f_laneW (F := F) (f_ldIdx R (k2_off137 t k) (k2_off137_inb t k)) 7 slices_S16_o7_S1 h2) 32#32) i7_2)) (f_ldRow d L (Memref.whole cc2_scratch5 : Memref sig .scVector .vmem S100x128 .f32) g (k2_off155 k (f_laneW (F := F) (f_ldIdx R (k2_off137 t k) (k2_off137_inb t k)) 8 slices_S16_o8_S1 h2) 32#32) i8_2)) (f_ldRow d L (Memref.whole cc2_scratch5 : Memref sig .scVector .vmem S100x128 .f32) g (k2_off157 k (f_laneW (F := F) (f_ldIdx R (k2_off137 t k) (k2_off137_inb t k)) 9 slices_S16_o9_S1 h2) 32#32) i9_2)) (f_ldRow d L (Memref.whole cc2_scratch5 : Memref sig .scVector .vmem S100x128 .f32) g (k2_off159 k (f_laneW (F := F) (f_ldIdx R (k2_off137 t k) (k2_off137_inb t k)) 10 slices_S16_o10_S1 h2) 32#32) i10_2)) (f_ldRow d L (Memref.whole cc2_scratch5 : Memref sig .scVector .vmem S100x128 .f32) g (k2_off161 k (f_laneW (F := F) (f_ldIdx R (k2_off137 t k) (k2_off137_inb t k)) 11 slices_S16_o11_S1 h2) 32#32) i11_2)) (f_ldRow d L (Memref.whole cc2_scratch5 : Memref sig .scVector .vmem S100x128 .f32) g (k2_off163 k (f_laneW (F := F) (f_ldIdx R (k2_off137 t k) (k2_off137_inb t k)) 12 slices_S16_o12_S1 h2) 32#32) i12_2)) (f_ldRow d L (Memref.whole cc2_scratch5 : Memref sig .scVector .vmem S100x128 .f32) g (k2_off165 k (f_laneW (F := F) (f_ldIdx R (k2_off137 t k) (k2_off137_inb t k)) 13 slices_S16_o13_S1 h2) 32#32) i13_2)) (f_ldRow d L (Memref.whole cc2_scratch5 : Memref sig .scVector .vmem S100x128 .f32) g (k2_off167 k (f_laneW (F := F) (f_ldIdx R (k2_off137 t k) (k2_off137_inb t k)) 14 slices_S16_o14_S1 h2) 32#32) i14_2)) (f_ldRow d L (Memref.whole cc2_scratch5 : Memref sig .scVector .vmem S100x128 .f32) g (k2_off169 k (f_laneW (F := F) (f_ldIdx R (k2_off137 t k) (k2_off137_inb t k)) 15 slices_S16_o15_S1 h2) 32#32) i15_2),
        addf (addf (addf (addf (addf (addf (addf (addf (addf (addf (addf (addf (addf (addf (addf (addf (acc.2.2.2) (f_ldRow d L (Memref.whole cc2_scratch5 : Memref sig .scVector .vmem S100x128 .f32) g (k2_off139 k (f_laneW (F := F) (f_ldIdx R (k2_off137 t k) (k2_off137_inb t k)) 0 slices_S16_o0_S1 h2) 48#32) i0_3)) (f_ldRow d L (Memref.whole cc2_scratch5 : Memref sig .scVector .vmem S100x128 .f32) g (k2_off141 k (f_laneW (F := F) (f_ldIdx R (k2_off137 t k) (k2_off137_inb t k)) 1 slices_S16_o1_S1 h2) 48#32) i1_3)) (f_ldRow d L (Memref.whole cc2_scratch5 : Memref sig .scVector .vmem S100x128 .f32) g (k2_off143 k (f_laneW (F := F) (f_ldIdx R (k2_off137 t k) (k2_off137_inb t k)) 2 slices_S16_o2_S1 h2) 48#32) i2_3)) (f_ldRow d L (Memref.whole cc2_scratch5 : Memref sig .scVector .vmem S100x128 .f32) g (k2_off145 k (f_laneW (F := F) (f_ldIdx R (k2_off137 t k) (k2_off137_inb t k)) 3 slices_S16_o3_S1 h2) 48#32) i3_3)) (f_ldRow d L (Memref.whole cc2_scratch5 : Memref sig .scVector .vmem S100x128 .f32) g (k2_off147 k (f_laneW (F := F) (f_ldIdx R (k2_off137 t k) (k2_off137_inb t k)) 4 slices_S16_o4_S1 h2) 48#32) i4_3)) (f_ldRow d L (Memref.whole cc2_scratch5 : Memref sig .scVector .vmem S100x128 .f32) g (k2_off149 k (f_laneW (F := F) (f_ldIdx R (k2_off137 t k) (k2_off137_inb t k)) 5 slices_S16_o5_S1 h2) 48#32) i5_3)) (f_ldRow d L (Memref.whole cc2_scratch5 : Memref sig .scVector .vmem S100x128 .f32) g (k2_off151 k (f_laneW (F := F) (f_ldIdx R (k2_off137 t k) (k2_off137_inb t k)) 6 slices_S16_o6_S1 h2) 48#32) i6_3)) (f_ldRow d L (Memref.whole cc2_scratch5 : Memref sig .scVector .vmem S100x128 .f32) g (k2_off153 k (f_laneW (F := F) (f_ldIdx R (k2_off137 t k) (k2_off137_inb t k)) 7 slices_S16_o7_S1 h2) 48#32) i7_3)) (f_ldRow d L (Memref.whole cc2_scratch5 : Memref sig .scVector .vmem S100x128 .f32) g (k2_off155 k (f_laneW (F := F) (f_ldIdx R (k2_off137 t k) (k2_off137_inb t k)) 8 slices_S16_o8_S1 h2) 48#32) i8_3)) (f_ldRow d L (Memref.whole cc2_scratch5 : Memref sig .scVector .vmem S100x128 .f32) g (k2_off157 k (f_laneW (F := F) (f_ldIdx R (k2_off137 t k) (k2_off137_inb t k)) 9 slices_S16_o9_S1 h2) 48#32) i9_3)) (f_ldRow d L (Memref.whole cc2_scratch5 : Memref sig .scVector .vmem S100x128 .f32) g (k2_off159 k (f_laneW (F := F) (f_ldIdx R (k2_off137 t k) (k2_off137_inb t k)) 10 slices_S16_o10_S1 h2) 48#32) i10_3)) (f_ldRow d L (Memref.whole cc2_scratch5 : Memref sig .scVector .vmem S100x128 .f32) g (k2_off161 k (f_laneW (F := F) (f_ldIdx R (k2_off137 t k) (k2_off137_inb t k)) 11 slices_S16_o11_S1 h2) 48#32) i11_3)) (f_ldRow d L (Memref.whole cc2_scratch5 : Memref sig .scVector .vmem S100x128 .f32) g (k2_off163 k (f_laneW (F := F) (f_ldIdx R (k2_off137 t k) (k2_off137_inb t k)) 12 slices_S16_o12_S1 h2) 48#32) i12_3)) (f_ldRow d L (Memref.whole cc2_scratch5 : Memref sig .scVector .vmem S100x128 .f32) g (k2_off165 k (f_laneW (F := F) (f_ldIdx R (k2_off137 t k) (k2_off137_inb t k)) 13 slices_S16_o13_S1 h2) 48#32) i13_3)) (f_ldRow d L (Memref.whole cc2_scratch5 : Memref sig .scVector .vmem S100x128 .f32) g (k2_off167 k (f_laneW (F := F) (f_ldIdx R (k2_off137 t k) (k2_off137_inb t k)) 14 slices_S16_o14_S1 h2) 48#32) i14_3)) (f_ldRow d L (Memref.whole cc2_scratch5 : Memref sig .scVector .vmem S100x128 .f32) g (k2_off169 k (f_laneW (F := F) (f_ldIdx R (k2_off137 t k) (k2_off137_inb t k)) 15 slices_S16_o15_S1 h2) 48#32) i15_3)) := by
  have hu : 2 * (2 * t.val + 1) + 1 = 4 * t.val + 3 := by omega
  have hrows' : BufRows ((Memref.whole cc2_scratch5 : Memref sig .scVector .vmem S100x128 .f32).view.read (Elt F) g) fT R (2 * (2 * t.val + 1) + 1) := by rw [hu]; exact hrows
  have hb := (bagAt_iff_bufAcc (by decide : 1 < 2) hrows' (by omega : 16 * k.val ≤ 100) acc).mp hP
  rw [hu] at hb
  have hs0 : BufAccAt (bufTerm ((Memref.whole cc2_scratch5 : Memref sig .scVector .vmem S100x128 .f32).view.read (Elt F) g) (tileWord R (4 * t.val + 3))) (16 * k.val + 0) (bagInit R fT (2 * t.val + 1) 1)
      (acc.1, acc.2.1, acc.2.2.1, acc.2.2.2) := hb
  have hw0 := f_laneW_eq (F := F) (f_ldIdx R (k2_off137 t k) (k2_off137_inb t k)) (0 : Fin 16) slices_S16_o0_S1 h2 _ (f_idx_word6 t k R 0)
  have hs1 := hs0.f_row_kd d L (Memref.whole cc2_scratch5 : Memref sig .scVector .vmem S100x128 .f32) g hk6 (by decide : 0 < 16) _ hw0 _ _ _ _ (inb0 := i0_0) (inb1 := i0_1) (inb2 := i0_2) (inb3 := i0_3) rfl rfl rfl rfl
  clear hs0 hw0
  have hw1 := f_laneW_eq (F := F) (f_ldIdx R (k2_off137 t k) (k2_off137_inb t k)) (1 : Fin 16) slices_S16_o1_S1 h2 _ (f_idx_word6 t k R 1)
  have hs2 := hs1.f_row_kd d L (Memref.whole cc2_scratch5 : Memref sig .scVector .vmem S100x128 .f32) g hk6 (by decide : 1 < 16) _ hw1 _ _ _ _ (inb0 := i1_0) (inb1 := i1_1) (inb2 := i1_2) (inb3 := i1_3) rfl rfl rfl rfl
  clear hs1 hw1
  have hw2 := f_laneW_eq (F := F) (f_ldIdx R (k2_off137 t k) (k2_off137_inb t k)) (2 : Fin 16) slices_S16_o2_S1 h2 _ (f_idx_word6 t k R 2)
  have hs3 := hs2.f_row_kd d L (Memref.whole cc2_scratch5 : Memref sig .scVector .vmem S100x128 .f32) g hk6 (by decide : 2 < 16) _ hw2 _ _ _ _ (inb0 := i2_0) (inb1 := i2_1) (inb2 := i2_2) (inb3 := i2_3) rfl rfl rfl rfl
  clear hs2 hw2
  have hw3 := f_laneW_eq (F := F) (f_ldIdx R (k2_off137 t k) (k2_off137_inb t k)) (3 : Fin 16) slices_S16_o3_S1 h2 _ (f_idx_word6 t k R 3)
  have hs4 := hs3.f_row_kd d L (Memref.whole cc2_scratch5 : Memref sig .scVector .vmem S100x128 .f32) g hk6 (by decide : 3 < 16) _ hw3 _ _ _ _ (inb0 := i3_0) (inb1 := i3_1) (inb2 := i3_2) (inb3 := i3_3) rfl rfl rfl rfl
  clear hs3 hw3
  have hw4 := f_laneW_eq (F := F) (f_ldIdx R (k2_off137 t k) (k2_off137_inb t k)) (4 : Fin 16) slices_S16_o4_S1 h2 _ (f_idx_word6 t k R 4)
  have hs5 := hs4.f_row_kd d L (Memref.whole cc2_scratch5 : Memref sig .scVector .vmem S100x128 .f32) g hk6 (by decide : 4 < 16) _ hw4 _ _ _ _ (inb0 := i4_0) (inb1 := i4_1) (inb2 := i4_2) (inb3 := i4_3) rfl rfl rfl rfl
  clear hs4 hw4
  have hw5 := f_laneW_eq (F := F) (f_ldIdx R (k2_off137 t k) (k2_off137_inb t k)) (5 : Fin 16) slices_S16_o5_S1 h2 _ (f_idx_word6 t k R 5)
  have hs6 := hs5.f_row_kd d L (Memref.whole cc2_scratch5 : Memref sig .scVector .vmem S100x128 .f32) g hk6 (by decide : 5 < 16) _ hw5 _ _ _ _ (inb0 := i5_0) (inb1 := i5_1) (inb2 := i5_2) (inb3 := i5_3) rfl rfl rfl rfl
  clear hs5 hw5
  have hw6 := f_laneW_eq (F := F) (f_ldIdx R (k2_off137 t k) (k2_off137_inb t k)) (6 : Fin 16) slices_S16_o6_S1 h2 _ (f_idx_word6 t k R 6)
  have hs7 := hs6.f_row_kd d L (Memref.whole cc2_scratch5 : Memref sig .scVector .vmem S100x128 .f32) g hk6 (by decide : 6 < 16) _ hw6 _ _ _ _ (inb0 := i6_0) (inb1 := i6_1) (inb2 := i6_2) (inb3 := i6_3) rfl rfl rfl rfl
  clear hs6 hw6
  have hw7 := f_laneW_eq (F := F) (f_ldIdx R (k2_off137 t k) (k2_off137_inb t k)) (7 : Fin 16) slices_S16_o7_S1 h2 _ (f_idx_word6 t k R 7)
  have hs8 := hs7.f_row_kd d L (Memref.whole cc2_scratch5 : Memref sig .scVector .vmem S100x128 .f32) g hk6 (by decide : 7 < 16) _ hw7 _ _ _ _ (inb0 := i7_0) (inb1 := i7_1) (inb2 := i7_2) (inb3 := i7_3) rfl rfl rfl rfl
  clear hs7 hw7
  have hw8 := f_laneW_eq (F := F) (f_ldIdx R (k2_off137 t k) (k2_off137_inb t k)) (8 : Fin 16) slices_S16_o8_S1 h2 _ (f_idx_word6 t k R 8)
  have hs9 := hs8.f_row_kd d L (Memref.whole cc2_scratch5 : Memref sig .scVector .vmem S100x128 .f32) g hk6 (by decide : 8 < 16) _ hw8 _ _ _ _ (inb0 := i8_0) (inb1 := i8_1) (inb2 := i8_2) (inb3 := i8_3) rfl rfl rfl rfl
  clear hs8 hw8
  have hw9 := f_laneW_eq (F := F) (f_ldIdx R (k2_off137 t k) (k2_off137_inb t k)) (9 : Fin 16) slices_S16_o9_S1 h2 _ (f_idx_word6 t k R 9)
  have hs10 := hs9.f_row_kd d L (Memref.whole cc2_scratch5 : Memref sig .scVector .vmem S100x128 .f32) g hk6 (by decide : 9 < 16) _ hw9 _ _ _ _ (inb0 := i9_0) (inb1 := i9_1) (inb2 := i9_2) (inb3 := i9_3) rfl rfl rfl rfl
  clear hs9 hw9
  have hw10 := f_laneW_eq (F := F) (f_ldIdx R (k2_off137 t k) (k2_off137_inb t k)) (10 : Fin 16) slices_S16_o10_S1 h2 _ (f_idx_word6 t k R 10)
  have hs11 := hs10.f_row_kd d L (Memref.whole cc2_scratch5 : Memref sig .scVector .vmem S100x128 .f32) g hk6 (by decide : 10 < 16) _ hw10 _ _ _ _ (inb0 := i10_0) (inb1 := i10_1) (inb2 := i10_2) (inb3 := i10_3) rfl rfl rfl rfl
  clear hs10 hw10
  have hw11 := f_laneW_eq (F := F) (f_ldIdx R (k2_off137 t k) (k2_off137_inb t k)) (11 : Fin 16) slices_S16_o11_S1 h2 _ (f_idx_word6 t k R 11)
  have hs12 := hs11.f_row_kd d L (Memref.whole cc2_scratch5 : Memref sig .scVector .vmem S100x128 .f32) g hk6 (by decide : 11 < 16) _ hw11 _ _ _ _ (inb0 := i11_0) (inb1 := i11_1) (inb2 := i11_2) (inb3 := i11_3) rfl rfl rfl rfl
  clear hs11 hw11
  have hw12 := f_laneW_eq (F := F) (f_ldIdx R (k2_off137 t k) (k2_off137_inb t k)) (12 : Fin 16) slices_S16_o12_S1 h2 _ (f_idx_word6 t k R 12)
  have hs13 := hs12.f_row_kd d L (Memref.whole cc2_scratch5 : Memref sig .scVector .vmem S100x128 .f32) g hk6 (by decide : 12 < 16) _ hw12 _ _ _ _ (inb0 := i12_0) (inb1 := i12_1) (inb2 := i12_2) (inb3 := i12_3) rfl rfl rfl rfl
  clear hs12 hw12
  have hw13 := f_laneW_eq (F := F) (f_ldIdx R (k2_off137 t k) (k2_off137_inb t k)) (13 : Fin 16) slices_S16_o13_S1 h2 _ (f_idx_word6 t k R 13)
  have hs14 := hs13.f_row_kd d L (Memref.whole cc2_scratch5 : Memref sig .scVector .vmem S100x128 .f32) g hk6 (by decide : 13 < 16) _ hw13 _ _ _ _ (inb0 := i13_0) (inb1 := i13_1) (inb2 := i13_2) (inb3 := i13_3) rfl rfl rfl rfl
  clear hs13 hw13
  have hw14 := f_laneW_eq (F := F) (f_ldIdx R (k2_off137 t k) (k2_off137_inb t k)) (14 : Fin 16) slices_S16_o14_S1 h2 _ (f_idx_word6 t k R 14)
  have hs15 := hs14.f_row_kd d L (Memref.whole cc2_scratch5 : Memref sig .scVector .vmem S100x128 .f32) g hk6 (by decide : 14 < 16) _ hw14 _ _ _ _ (inb0 := i14_0) (inb1 := i14_1) (inb2 := i14_2) (inb3 := i14_3) rfl rfl rfl rfl
  clear hs14 hw14
  have hw15 := f_laneW_eq (F := F) (f_ldIdx R (k2_off137 t k) (k2_off137_inb t k)) (15 : Fin 16) slices_S16_o15_S1 h2 _ (f_idx_word6 t k R 15)
  have hs16 := hs15.f_row_kd d L (Memref.whole cc2_scratch5 : Memref sig .scVector .vmem S100x128 .f32) g hk6 (by decide : 15 < 16) _ hw15 _ _ _ _ (inb0 := i15_0) (inb1 := i15_1) (inb2 := i15_2) (inb3 := i15_3) rfl rfl rfl rfl
  refine (bagAt_iff_bufAcc (by decide : 1 < 2) hrows' (by omega : 16 * (k.val + 1) ≤ 100) _).mpr ?_
  rw [hu, show 16 * (k.val + 1) = 16 * k.val + (15 + 1) from by omega]
  exact hs16

end Steps2

end Cert.Proof.KI

end
-- ==== Proof.KITileStep_f4.lean ====
/-
  The staged step of the second outer loop: the two finished bags' sums, times the constant, written to the staging rows: the index words a trip of sixteen rows loads are
  the half bag's, and one trip (and the four-row remainder) adds the half bag's next rows onto the four carried sums.
-/
import proofs.«207435_g27118423507386_cont_sun_m_668_27_alg».proof.Proof.KITileValAcc
import proofs.«207435_g27118423507386_cont_sun_m_668_27_alg».proof.Proof.KITileGather
import proofs.«207435_g27118423507386_cont_sun_m_668_27_alg».proof.Proof.KITileStep_f2
import Idealize.ShloMosaic.Lib.ValueLayout

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

theorem k2_off261_eq : ∀ (t : Fin k2_t7_loop.trips), k2_off261 t = ![64 + 2 * t.val, 208] := by decide +kernel

theorem f_idx_word9r (t : Fin k2_t7_loop.trips) (R : IVec S128x224 32) (r : Fin 16) :
    View.ld (Val := Elt F) (e' := .i32) R (Rect.unit (s := S128x224) (k2_off261 t) S1x16.size (k2_off261_inb t)) (Fin.cons ⟨0, Nat.one_pos⟩ (ix1 r))
      = tileWord R (128 + 4 * t.val + 1) (96 + r.val) := by
  have ht : t.val < 32 := lt_of_lt_of_eq t.isLt (by decide)
  have h0 : k2_off261 t 0 = 64 + 2 * t.val := by rw [k2_off261_eq]; rfl
  have h1 : k2_off261 t 1 = 208 := by rw [k2_off261_eq]; rfl
  have hr := r.isLt
  unfold tileWord
  show R ((Rect.unit (s := S128x224) (k2_off261 t) S1x16.size (k2_off261_inb t)).idx (Fin.cons ⟨0, Nat.one_pos⟩ (ix1 r))) = _
  refine congrArg R (funext fun a => Fin.ext ?_)
  match a with
  | ⟨0, _⟩ => show k2_off261 t 0 + 1 * 0 = (128 + 4 * t.val + 1) / 2 % 128; omega
  | ⟨1, _⟩ => show k2_off261 t 1 + 1 * r.val = (112 * ((128 + 4 * t.val + 1) % 2) + (96 + r.val)) % 224; omega

theorem k2_off351_eq : ∀ (t : Fin k2_t7_loop.trips), k2_off351 t = ![65 + 2 * t.val, 208] := by decide +kernel

theorem f_idx_word11r (t : Fin k2_t7_loop.trips) (R : IVec S128x224 32) (r : Fin 16) :
    View.ld (Val := Elt F) (e' := .i32) R (Rect.unit (s := S128x224) (k2_off351 t) S1x16.size (k2_off351_inb t)) (Fin.cons ⟨0, Nat.one_pos⟩ (ix1 r))
      = tileWord R (131 + 4 * t.val) (96 + r.val) := by
  have ht : t.val < 32 := lt_of_lt_of_eq t.isLt (by decide)
  have h0 : k2_off351 t 0 = 65 + 2 * t.val := by rw [k2_off351_eq]; rfl
  have h1 : k2_off351 t 1 = 208 := by rw [k2_off351_eq]; rfl
  have hr := r.isLt
  unfold tileWord
  show R ((Rect.unit (s := S128x224) (k2_off351 t) S1x16.size (k2_off351_inb t)).idx (Fin.cons ⟨0, Nat.one_pos⟩ (ix1 r))) = _
  refine congrArg R (funext fun a => Fin.ext ?_)
  match a with
  | ⟨0, _⟩ => show k2_off351 t 0 + 1 * 0 = (131 + 4 * t.val) / 2 % 128; omega
  | ⟨1, _⟩ => show k2_off351 t 1 + 1 * r.val = (112 * ((131 + 4 * t.val) % 2) + (96 + r.val)) % 224; omega

/-- A staged piece read at an index: lane group `q` of the four finished sums of bag `b`, times the constant, cast to a
    one-row block and written at row `tn`, columns `16 q` on, holds the bag's pooled entries. -/
theorem f_piece_val (R : IVec S128x224 32) (fT : FVec F S507904x128 .f32) (b : ℕ) (q : Fin 4) (A : TileAcc F)
    (hA : TileBagAt R fT b 1 100 A) (cst : F .f32) (hcst : cst = Named.named κ "inv_200" 0x3BA3D70A#32)
    (off : Fin 2 → ℕ) (inb : ∀ a, off a + S1x16.size a ≤ S64x64.size a) (tn : ℕ) (hoff : off = ![tn, 16 * q.val])
    (boff : ℕ) (hb : boff + tn = b) (x : (Rect.unit (s := S64x64) off S1x16.size inb).shape.Idx) :
    shapeCast S1x16 (mulf (tileLane A q) (broadcast S16 cst)) shapeCasts_S16_S1x16 x
      = tileBagV R fT (boff + ((Rect.unit (s := S64x64) off S1x16.size inb).emb x 0).val) ((Rect.unit (s := S64x64) off S1x16.size inb).emb x 1) := by
  subst hoff
  have hx : x = ix2 (n0 := 1) (n1 := 16) (x 0) (x 1) := eq_ix2 (n0 := 1) (n1 := 16) x
  have hq := q.isLt
  have hl : (x 1).val < 16 := (x 1).isLt
  have hu : (x 0).val = 0 := by have h : (x 0).val < 1 := (x 0).isLt; omega
  have e0 : boff + ((Rect.unit (s := S64x64) ![tn, 16 * q.val] S1x16.size inb).emb x 0).val = b := by
    show boff + (tn + 1 * (x 0).val) = b; omega
  have e1 : (Rect.unit (s := S64x64) ![tn, 16 * q.val] S1x16.size inb).emb x 1 = (⟨16 * q.val + (x 1).val, by omega⟩ : Fin 64) :=
    Fin.ext (show 16 * q.val + 1 * (x 1).val = 16 * q.val + (x 1).val by omega)
  rw [e0, e1]
  have h1 := hA q (x 1)
  have hsc : shapeCast S1x16 (mulf (tileLane A q) (broadcast S16 cst)) shapeCasts_S16_S1x16 x
      = (mulf (tileLane A q) (broadcast S16 cst)) (ix1 (x 1)) :=
    (congrArg (shapeCast S1x16 (mulf (tileLane A q) (broadcast S16 cst)) shapeCasts_S16_S1x16) hx).trans
      (shapeCast_a_1a_apply (mulf (tileLane A q) (broadcast S16 cst)) shapeCasts_S16_S1x16 (x 0) (x 1))
  rw [hsc]
  show FloatOps.mulf (tileLane A q (ix1 (x 1))) cst = _
  rw [h1, hcst]
  unfold tileBagV tileHalfV
  rw [if_neg (by decide)]

section Steps4

variable (d : Dev nD) (L : grid2.Coords)

/-- The first staged row of trip `t` of the second outer loop: the second half's last four rows finish the trip's first bag, and its four lane groups, times the constant, are the bag's pooled entries. -/
theorem staged14a (t : Fin k2_t7_loop.trips) (R : IVec S128x224 32) (fT : FVec F S507904x128 .f32)
    (g : Buf (Elt F) ((Memref.whole cc2_scratch3 : Memref sig .scVector .vmem S100x128 .f32).view.loc (V d (cV L) (jV L)))) (acc : TileAcc F)
    (hrows : BufRows ((Memref.whole cc2_scratch3 : Memref sig .scVector .vmem S100x128 .f32).view.read (Elt F) g) fT R (128 + 4 * t.val + 1))
    (hacc : TileBagAt R fT (64 + 2 * t.val + 0) 1 (16 * 6) acc)
    {cst : F .f32} (hcst : cst = Named.named κ "inv_200" 0x3BA3D70A#32)
    {h2 : ∀ a, (![0] : Fin 1 → ℕ) a < S1.size a}
    {i0_0 i0_1 i0_2 i0_3 i1_0 i1_1 i1_2 i1_3 i2_0 i2_1 i2_2 i2_3 i3_0 i3_1 i3_2 i3_3} {j0 j1 j2 j3} :
    ∀ p ∈ ([⟨Rect.unit (s := S64x64) (k2_off273 t) S1x16.size j3, shapeCast S1x16 (mulf (addf (addf (addf (addf (acc.2.2.2) (f_ldRow d L (Memref.whole cc2_scratch3 : Memref sig .scVector .vmem S100x128 .f32) g (k2_off263 (f_laneW (F := F) (f_ldIdx R (k2_off261 t) (k2_off261_inb t)) 0 slices_S16_o0_S1 h2) 48#32) i0_3)) (f_ldRow d L (Memref.whole cc2_scratch3 : Memref sig .scVector .vmem S100x128 .f32) g (k2_off265 (f_laneW (F := F) (f_ldIdx R (k2_off261 t) (k2_off261_inb t)) 1 slices_S16_o1_S1 h2) 48#32) i1_3)) (f_ldRow d L (Memref.whole cc2_scratch3 : Memref sig .scVector .vmem S100x128 .f32) g (k2_off267 (f_laneW (F := F) (f_ldIdx R (k2_off261 t) (k2_off261_inb t)) 2 slices_S16_o2_S1 h2) 48#32) i2_3)) (f_ldRow d L (Memref.whole cc2_scratch3 : Memref sig .scVector .vmem S100x128 .f32) g (k2_off269 (f_laneW (F := F) (f_ldIdx R (k2_off261 t) (k2_off261_inb t)) 3 slices_S16_o3_S1 h2) 48#32) i3_3)) (broadcast S16 cst)) shapeCasts_S16_S1x16⟩,
        ⟨Rect.unit (s := S64x64) (k2_off272 t) S1x16.size j2, shapeCast S1x16 (mulf (addf (addf (addf (addf (acc.2.2.1) (f_ldRow d L (Memref.whole cc2_scratch3 : Memref sig .scVector .vmem S100x128 .f32) g (k2_off263 (f_laneW (F := F) (f_ldIdx R (k2_off261 t) (k2_off261_inb t)) 0 slices_S16_o0_S1 h2) 32#32) i0_2)) (f_ldRow d L (Memref.whole cc2_scratch3 : Memref sig .scVector .vmem S100x128 .f32) g (k2_off265 (f_laneW (F := F) (f_ldIdx R (k2_off261 t) (k2_off261_inb t)) 1 slices_S16_o1_S1 h2) 32#32) i1_2)) (f_ldRow d L (Memref.whole cc2_scratch3 : Memref sig .scVector .vmem S100x128 .f32) g (k2_off267 (f_laneW (F := F) (f_ldIdx R (k2_off261 t) (k2_off261_inb t)) 2 slices_S16_o2_S1 h2) 32#32) i2_2)) (f_ldRow d L (Memref.whole cc2_scratch3 : Memref sig .scVector .vmem S100x128 .f32) g (k2_off269 (f_laneW (F := F) (f_ldIdx R (k2_off261 t) (k2_off261_inb t)) 3 slices_S16_o3_S1 h2) 32#32) i3_2)) (broadcast S16 cst)) shapeCasts_S16_S1x16⟩,
        ⟨Rect.unit (s := S64x64) (k2_off271 t) S1x16.size j1, shapeCast S1x16 (mulf (addf (addf (addf (addf (acc.2.1) (f_ldRow d L (Memref.whole cc2_scratch3 : Memref sig .scVector .vmem S100x128 .f32) g (k2_off263 (f_laneW (F := F) (f_ldIdx R (k2_off261 t) (k2_off261_inb t)) 0 slices_S16_o0_S1 h2) 16#32) i0_1)) (f_ldRow d L (Memref.whole cc2_scratch3 : Memref sig .scVector .vmem S100x128 .f32) g (k2_off265 (f_laneW (F := F) (f_ldIdx R (k2_off261 t) (k2_off261_inb t)) 1 slices_S16_o1_S1 h2) 16#32) i1_1)) (f_ldRow d L (Memref.whole cc2_scratch3 : Memref sig .scVector .vmem S100x128 .f32) g (k2_off267 (f_laneW (F := F) (f_ldIdx R (k2_off261 t) (k2_off261_inb t)) 2 slices_S16_o2_S1 h2) 16#32) i2_1)) (f_ldRow d L (Memref.whole cc2_scratch3 : Memref sig .scVector .vmem S100x128 .f32) g (k2_off269 (f_laneW (F := F) (f_ldIdx R (k2_off261 t) (k2_off261_inb t)) 3 slices_S16_o3_S1 h2) 16#32) i3_1)) (broadcast S16 cst)) shapeCasts_S16_S1x16⟩,
        ⟨Rect.unit (s := S64x64) (k2_off270 t) S1x16.size j0, shapeCast S1x16 (mulf (addf (addf (addf (addf (acc.1) (f_ldRow d L (Memref.whole cc2_scratch3 : Memref sig .scVector .vmem S100x128 .f32) g (k2_off262 (f_laneW (F := F) (f_ldIdx R (k2_off261 t) (k2_off261_inb t)) 0 slices_S16_o0_S1 h2)) i0_0)) (f_ldRow d L (Memref.whole cc2_scratch3 : Memref sig .scVector .vmem S100x128 .f32) g (k2_off264 (f_laneW (F := F) (f_ldIdx R (k2_off261 t) (k2_off261_inb t)) 1 slices_S16_o1_S1 h2)) i1_0)) (f_ldRow d L (Memref.whole cc2_scratch3 : Memref sig .scVector .vmem S100x128 .f32) g (k2_off266 (f_laneW (F := F) (f_ldIdx R (k2_off261 t) (k2_off261_inb t)) 2 slices_S16_o2_S1 h2)) i2_0)) (f_ldRow d L (Memref.whole cc2_scratch3 : Memref sig .scVector .vmem S100x128 .f32) g (k2_off268 (f_laneW (F := F) (f_ldIdx R (k2_off261 t) (k2_off261_inb t)) 3 slices_S16_o3_S1 h2)) i3_0)) (broadcast S16 cst)) shapeCasts_S16_S1x16⟩] : List (View.Piece (Elt F) S64x64 .f32)),
      ∀ x : p.1.shape.Idx, p.2 x = tileBagV R fT (64 + (p.1.emb x 0).val) (p.1.emb x 1) := by
  have hu : 2 * (64 + 2 * t.val + 0) + 1 = 128 + 4 * t.val + 1 := by omega
  have hrows' : BufRows ((Memref.whole cc2_scratch3 : Memref sig .scVector .vmem S100x128 .f32).view.read (Elt F) g) fT R (2 * (64 + 2 * t.val + 0) + 1) := by rw [hu]; exact hrows
  have hb := (bagAt_iff_bufAcc (by decide : 1 < 2) hrows' (by decide : 16 * 6 ≤ 100) acc).mp hacc
  have hs0 : BufAccAt (bufTerm ((Memref.whole cc2_scratch3 : Memref sig .scVector .vmem S100x128 .f32).view.read (Elt F) g) (tileWord R (2 * (64 + 2 * t.val + 0) + 1))) (16 * 6 + 0) (bagInit R fT (64 + 2 * t.val + 0) 1)
      (acc.1, acc.2.1, acc.2.2.1, acc.2.2.2) := hb
  have hw0 : (f_laneW (F := F) (f_ldIdx R (k2_off261 t) (k2_off261_inb t)) 0 slices_S16_o0_S1 h2) = offW (tileWord R (2 * (64 + 2 * t.val + 0) + 1) (16 * 6 + 0)) := by
    rw [hu]; exact f_laneW_eq (F := F) (f_ldIdx R (k2_off261 t) (k2_off261_inb t)) (0 : Fin 16) slices_S16_o0_S1 h2 _ (f_idx_word9r t R 0)
  have hs1 := hs0.f_row_rd4 d L (Memref.whole cc2_scratch3 : Memref sig .scVector .vmem S100x128 .f32) g (by decide : 16 * 6 + 0 < 100) _ hw0 _ _ _ _ (inb0 := i0_0) (inb1 := i0_1) (inb2 := i0_2) (inb3 := i0_3) rfl rfl rfl rfl
  have hw1 : (f_laneW (F := F) (f_ldIdx R (k2_off261 t) (k2_off261_inb t)) 1 slices_S16_o1_S1 h2) = offW (tileWord R (2 * (64 + 2 * t.val + 0) + 1) (16 * 6 + 1)) := by
    rw [hu]; exact f_laneW_eq (F := F) (f_ldIdx R (k2_off261 t) (k2_off261_inb t)) (1 : Fin 16) slices_S16_o1_S1 h2 _ (f_idx_word9r t R 1)
  have hs2 := hs1.f_row_rd4 d L (Memref.whole cc2_scratch3 : Memref sig .scVector .vmem S100x128 .f32) g (by decide : 16 * 6 + 1 < 100) _ hw1 _ _ _ _ (inb0 := i1_0) (inb1 := i1_1) (inb2 := i1_2) (inb3 := i1_3) rfl rfl rfl rfl
  have hw2 : (f_laneW (F := F) (f_ldIdx R (k2_off261 t) (k2_off261_inb t)) 2 slices_S16_o2_S1 h2) = offW (tileWord R (2 * (64 + 2 * t.val + 0) + 1) (16 * 6 + 2)) := by
    rw [hu]; exact f_laneW_eq (F := F) (f_ldIdx R (k2_off261 t) (k2_off261_inb t)) (2 : Fin 16) slices_S16_o2_S1 h2 _ (f_idx_word9r t R 2)
  have hs3 := hs2.f_row_rd4 d L (Memref.whole cc2_scratch3 : Memref sig .scVector .vmem S100x128 .f32) g (by decide : 16 * 6 + 2 < 100) _ hw2 _ _ _ _ (inb0 := i2_0) (inb1 := i2_1) (inb2 := i2_2) (inb3 := i2_3) rfl rfl rfl rfl
  have hw3 : (f_laneW (F := F) (f_ldIdx R (k2_off261 t) (k2_off261_inb t)) 3 slices_S16_o3_S1 h2) = offW (tileWord R (2 * (64 + 2 * t.val + 0) + 1) (16 * 6 + 3)) := by
    rw [hu]; exact f_laneW_eq (F := F) (f_ldIdx R (k2_off261 t) (k2_off261_inb t)) (3 : Fin 16) slices_S16_o3_S1 h2 _ (f_idx_word9r t R 3)
  have hs4 := hs3.f_row_rd4 d L (Memref.whole cc2_scratch3 : Memref sig .scVector .vmem S100x128 .f32) g (by decide : 16 * 6 + 3 < 100) _ hw3 _ _ _ _ (inb0 := i3_0) (inb1 := i3_1) (inb2 := i3_2) (inb3 := i3_3) rfl rfl rfl rfl
  have hfin := (bagAt_iff_bufAcc (by decide : 1 < 2) hrows' (le_refl 100) _).mpr hs4
  intro p hp
  simp only [List.mem_cons, List.mem_singleton, List.not_mem_nil, or_false] at hp
  rcases hp with rfl | rfl | rfl | rfl <;> intro x
  · exact f_piece_val R fT _ 3 _ hfin cst hcst _ j3 (2 * t.val) (k2_off273_eq t) 64 (by omega) x
  · exact f_piece_val R fT _ 2 _ hfin cst hcst _ j2 (2 * t.val) (k2_off272_eq t) 64 (by omega) x
  · exact f_piece_val R fT _ 1 _ hfin cst hcst _ j1 (2 * t.val) (k2_off271_eq t) 64 (by omega) x
  · exact f_piece_val R fT _ 0 _ hfin cst hcst _ j0 (2 * t.val) (k2_off270_eq t) 64 (by omega) x

/-- The second staged row of trip `t` of the second outer loop: the same for the trip's second bag. -/
theorem staged14b (t : Fin k2_t7_loop.trips) (R : IVec S128x224 32) (fT : FVec F S507904x128 .f32)
    (g : Buf (Elt F) ((Memref.whole cc2_scratch5 : Memref sig .scVector .vmem S100x128 .f32).view.loc (V d (cV L) (jV L)))) (acc : TileAcc F)
    (hrows : BufRows ((Memref.whole cc2_scratch5 : Memref sig .scVector .vmem S100x128 .f32).view.read (Elt F) g) fT R (131 + 4 * t.val))
    (hacc : TileBagAt R fT (64 + 2 * t.val + 1) 1 (16 * 6) acc)
    {cst : F .f32} (hcst : cst = Named.named κ "inv_200" 0x3BA3D70A#32)
    {h2 : ∀ a, (![0] : Fin 1 → ℕ) a < S1.size a}
    {i0_0 i0_1 i0_2 i0_3 i1_0 i1_1 i1_2 i1_3 i2_0 i2_1 i2_2 i2_3 i3_0 i3_1 i3_2 i3_3} {j0 j1 j2 j3} :
    ∀ p ∈ ([⟨Rect.unit (s := S64x64) (k2_off363 t) S1x16.size j3, shapeCast S1x16 (mulf (addf (addf (addf (addf (acc.2.2.2) (f_ldRow d L (Memref.whole cc2_scratch5 : Memref sig .scVector .vmem S100x128 .f32) g (k2_off353 (f_laneW (F := F) (f_ldIdx R (k2_off351 t) (k2_off351_inb t)) 0 slices_S16_o0_S1 h2) 48#32) i0_3)) (f_ldRow d L (Memref.whole cc2_scratch5 : Memref sig .scVector .vmem S100x128 .f32) g (k2_off355 (f_laneW (F := F) (f_ldIdx R (k2_off351 t) (k2_off351_inb t)) 1 slices_S16_o1_S1 h2) 48#32) i1_3)) (f_ldRow d L (Memref.whole cc2_scratch5 : Memref sig .scVector .vmem S100x128 .f32) g (k2_off357 (f_laneW (F := F) (f_ldIdx R (k2_off351 t) (k2_off351_inb t)) 2 slices_S16_o2_S1 h2) 48#32) i2_3)) (f_ldRow d L (Memref.whole cc2_scratch5 : Memref sig .scVector .vmem S100x128 .f32) g (k2_off359 (f_laneW (F := F) (f_ldIdx R (k2_off351 t) (k2_off351_inb t)) 3 slices_S16_o3_S1 h2) 48#32) i3_3)) (broadcast S16 cst)) shapeCasts_S16_S1x16⟩,
        ⟨Rect.unit (s := S64x64) (k2_off362 t) S1x16.size j2, shapeCast S1x16 (mulf (addf (addf (addf (addf (acc.2.2.1) (f_ldRow d L (Memref.whole cc2_scratch5 : Memref sig .scVector .vmem S100x128 .f32) g (k2_off353 (f_laneW (F := F) (f_ldIdx R (k2_off351 t) (k2_off351_inb t)) 0 slices_S16_o0_S1 h2) 32#32) i0_2)) (f_ldRow d L (Memref.whole cc2_scratch5 : Memref sig .scVector .vmem S100x128 .f32) g (k2_off355 (f_laneW (F := F) (f_ldIdx R (k2_off351 t) (k2_off351_inb t)) 1 slices_S16_o1_S1 h2) 32#32) i1_2)) (f_ldRow d L (Memref.whole cc2_scratch5 : Memref sig .scVector .vmem S100x128 .f32) g (k2_off357 (f_laneW (F := F) (f_ldIdx R (k2_off351 t) (k2_off351_inb t)) 2 slices_S16_o2_S1 h2) 32#32) i2_2)) (f_ldRow d L (Memref.whole cc2_scratch5 : Memref sig .scVector .vmem S100x128 .f32) g (k2_off359 (f_laneW (F := F) (f_ldIdx R (k2_off351 t) (k2_off351_inb t)) 3 slices_S16_o3_S1 h2) 32#32) i3_2)) (broadcast S16 cst)) shapeCasts_S16_S1x16⟩,
        ⟨Rect.unit (s := S64x64) (k2_off361 t) S1x16.size j1, shapeCast S1x16 (mulf (addf (addf (addf (addf (acc.2.1) (f_ldRow d L (Memref.whole cc2_scratch5 : Memref sig .scVector .vmem S100x128 .f32) g (k2_off353 (f_laneW (F := F) (f_ldIdx R (k2_off351 t) (k2_off351_inb t)) 0 slices_S16_o0_S1 h2) 16#32) i0_1)) (f_ldRow d L (Memref.whole cc2_scratch5 : Memref sig .scVector .vmem S100x128 .f32) g (k2_off355 (f_laneW (F := F) (f_ldIdx R (k2_off351 t) (k2_off351_inb t)) 1 slices_S16_o1_S1 h2) 16#32) i1_1)) (f_ldRow d L (Memref.whole cc2_scratch5 : Memref sig .scVector .vmem S100x128 .f32) g (k2_off357 (f_laneW (F := F) (f_ldIdx R (k2_off351 t) (k2_off351_inb t)) 2 slices_S16_o2_S1 h2) 16#32) i2_1)) (f_ldRow d L (Memref.whole cc2_scratch5 : Memref sig .scVector .vmem S100x128 .f32) g (k2_off359 (f_laneW (F := F) (f_ldIdx R (k2_off351 t) (k2_off351_inb t)) 3 slices_S16_o3_S1 h2) 16#32) i3_1)) (broadcast S16 cst)) shapeCasts_S16_S1x16⟩,
        ⟨Rect.unit (s := S64x64) (k2_off360 t) S1x16.size j0, shapeCast S1x16 (mulf (addf (addf (addf (addf (acc.1) (f_ldRow d L (Memref.whole cc2_scratch5 : Memref sig .scVector .vmem S100x128 .f32) g (k2_off352 (f_laneW (F := F) (f_ldIdx R (k2_off351 t) (k2_off351_inb t)) 0 slices_S16_o0_S1 h2)) i0_0)) (f_ldRow d L (Memref.whole cc2_scratch5 : Memref sig .scVector .vmem S100x128 .f32) g (k2_off354 (f_laneW (F := F) (f_ldIdx R (k2_off351 t) (k2_off351_inb t)) 1 slices_S16_o1_S1 h2)) i1_0)) (f_ldRow d L (Memref.whole cc2_scratch5 : Memref sig .scVector .vmem S100x128 .f32) g (k2_off356 (f_laneW (F := F) (f_ldIdx R (k2_off351 t) (k2_off351_inb t)) 2 slices_S16_o2_S1 h2)) i2_0)) (f_ldRow d L (Memref.whole cc2_scratch5 : Memref sig .scVector .vmem S100x128 .f32) g (k2_off358 (f_laneW (F := F) (f_ldIdx R (k2_off351 t) (k2_off351_inb t)) 3 slices_S16_o3_S1 h2)) i3_0)) (broadcast S16 cst)) shapeCasts_S16_S1x16⟩] : List (View.Piece (Elt F) S64x64 .f32)),
      ∀ x : p.1.shape.Idx, p.2 x = tileBagV R fT (64 + (p.1.emb x 0).val) (p.1.emb x 1) := by
  have hu : 2 * (64 + 2 * t.val + 1) + 1 = 131 + 4 * t.val := by omega
  have hrows' : BufRows ((Memref.whole cc2_scratch5 : Memref sig .scVector .vmem S100x128 .f32).view.read (Elt F) g) fT R (2 * (64 + 2 * t.val + 1) + 1) := by rw [hu]; exact hrows
  have hb := (bagAt_iff_bufAcc (by decide : 1 < 2) hrows' (by decide : 16 * 6 ≤ 100) acc).mp hacc
  have hs0 : BufAccAt (bufTerm ((Memref.whole cc2_scratch5 : Memref sig .scVector .vmem S100x128 .f32).view.read (Elt F) g) (tileWord R (2 * (64 + 2 * t.val + 1) + 1))) (16 * 6 + 0) (bagInit R fT (64 + 2 * t.val + 1) 1)
      (acc.1, acc.2.1, acc.2.2.1, acc.2.2.2) := hb
  have hw0 : (f_laneW (F := F) (f_ldIdx R (k2_off351 t) (k2_off351_inb t)) 0 slices_S16_o0_S1 h2) = offW (tileWord R (2 * (64 + 2 * t.val + 1) + 1) (16 * 6 + 0)) := by
    rw [hu]; exact f_laneW_eq (F := F) (f_ldIdx R (k2_off351 t) (k2_off351_inb t)) (0 : Fin 16) slices_S16_o0_S1 h2 _ (f_idx_word11r t R 0)
  have hs1 := hs0.f_row_rd4 d L (Memref.whole cc2_scratch5 : Memref sig .scVector .vmem S100x128 .f32) g (by decide : 16 * 6 + 0 < 100) _ hw0 _ _ _ _ (inb0 := i0_0) (inb1 := i0_1) (inb2 := i0_2) (inb3 := i0_3) rfl rfl rfl rfl
  have hw1 : (f_laneW (F := F) (f_ldIdx R (k2_off351 t) (k2_off351_inb t)) 1 slices_S16_o1_S1 h2) = offW (tileWord R (2 * (64 + 2 * t.val + 1) + 1) (16 * 6 + 1)) := by
    rw [hu]; exact f_laneW_eq (F := F) (f_ldIdx R (k2_off351 t) (k2_off351_inb t)) (1 : Fin 16) slices_S16_o1_S1 h2 _ (f_idx_word11r t R 1)
  have hs2 := hs1.f_row_rd4 d L (Memref.whole cc2_scratch5 : Memref sig .scVector .vmem S100x128 .f32) g (by decide : 16 * 6 + 1 < 100) _ hw1 _ _ _ _ (inb0 := i1_0) (inb1 := i1_1) (inb2 := i1_2) (inb3 := i1_3) rfl rfl rfl rfl
  have hw2 : (f_laneW (F := F) (f_ldIdx R (k2_off351 t) (k2_off351_inb t)) 2 slices_S16_o2_S1 h2) = offW (tileWord R (2 * (64 + 2 * t.val + 1) + 1) (16 * 6 + 2)) := by
    rw [hu]; exact f_laneW_eq (F := F) (f_ldIdx R (k2_off351 t) (k2_off351_inb t)) (2 : Fin 16) slices_S16_o2_S1 h2 _ (f_idx_word11r t R 2)
  have hs3 := hs2.f_row_rd4 d L (Memref.whole cc2_scratch5 : Memref sig .scVector .vmem S100x128 .f32) g (by decide : 16 * 6 + 2 < 100) _ hw2 _ _ _ _ (inb0 := i2_0) (inb1 := i2_1) (inb2 := i2_2) (inb3 := i2_3) rfl rfl rfl rfl
  have hw3 : (f_laneW (F := F) (f_ldIdx R (k2_off351 t) (k2_off351_inb t)) 3 slices_S16_o3_S1 h2) = offW (tileWord R (2 * (64 + 2 * t.val + 1) + 1) (16 * 6 + 3)) := by
    rw [hu]; exact f_laneW_eq (F := F) (f_ldIdx R (k2_off351 t) (k2_off351_inb t)) (3 : Fin 16) slices_S16_o3_S1 h2 _ (f_idx_word11r t R 3)
  have hs4 := hs3.f_row_rd4 d L (Memref.whole cc2_scratch5 : Memref sig .scVector .vmem S100x128 .f32) g (by decide : 16 * 6 + 3 < 100) _ hw3 _ _ _ _ (inb0 := i3_0) (inb1 := i3_1) (inb2 := i3_2) (inb3 := i3_3) rfl rfl rfl rfl
  have hfin := (bagAt_iff_bufAcc (by decide : 1 < 2) hrows' (le_refl 100) _).mpr hs4
  intro p hp
  simp only [List.mem_cons, List.mem_singleton, List.not_mem_nil, or_false] at hp
  rcases hp with rfl | rfl | rfl | rfl <;> intro x
  · exact f_piece_val R fT _ 3 _ hfin cst hcst _ j3 (2 * t.val + 1) (k2_off363_eq t) 64 (by omega) x
  · exact f_piece_val R fT _ 2 _ hfin cst hcst _ j2 (2 * t.val + 1) (k2_off362_eq t) 64 (by omega) x
  · exact f_piece_val R fT _ 1 _ hfin cst hcst _ j1 (2 * t.val + 1) (k2_off361_eq t) 64 (by omega) x
  · exact f_piece_val R fT _ 0 _ hfin cst hcst _ j0 (2 * t.val + 1) (k2_off360_eq t) 64 (by omega) x

end Steps4

end Cert.Proof.KI

end
-- ==== Proof.KITileStep_f5.lean ====
/-
  The staged step of the first outer loop: the two finished bags' sums, times the constant, written to the staging rows: the index words a trip of sixteen rows loads are
  the half bag's, and one trip (and the four-row remainder) adds the half bag's next rows onto the four carried sums.
-/
import proofs.«207435_g27118423507386_cont_sun_m_668_27_alg».proof.Proof.KITileValAcc
import proofs.«207435_g27118423507386_cont_sun_m_668_27_alg».proof.Proof.KITileGather
import proofs.«207435_g27118423507386_cont_sun_m_668_27_alg».proof.Proof.KITileStep_f4
import Idealize.ShloMosaic.Lib.ValueLayout

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type} [FloatOps F] [Named F]

theorem k2_off80_eq : ∀ (t : Fin k2_t2_loop.trips), k2_off80 t = ![2 * t.val, 208] := by decide +kernel

theorem f_idx_word4r (t : Fin k2_t2_loop.trips) (R : IVec S128x224 32) (r : Fin 16) :
    View.ld (Val := Elt F) (e' := .i32) R (Rect.unit (s := S128x224) (k2_off80 t) S1x16.size (k2_off80_inb t)) (Fin.cons ⟨0, Nat.one_pos⟩ (ix1 r))
      = tileWord R (4 * t.val + 1) (96 + r.val) := by
  have ht : t.val < 32 := lt_of_lt_of_eq t.isLt (by decide)
  have h0 : k2_off80 t 0 = 2 * t.val := by rw [k2_off80_eq]; rfl
  have h1 : k2_off80 t 1 = 208 := by rw [k2_off80_eq]; rfl
  have hr := r.isLt
  unfold tileWord
  show R ((Rect.unit (s := S128x224) (k2_off80 t) S1x16.size (k2_off80_inb t)).idx (Fin.cons ⟨0, Nat.one_pos⟩ (ix1 r))) = _
  refine congrArg R (funext fun a => Fin.ext ?_)
  match a with
  | ⟨0, _⟩ => show k2_off80 t 0 + 1 * 0 = (4 * t.val + 1) / 2 % 128; omega
  | ⟨1, _⟩ => show k2_off80 t 1 + 1 * r.val = (112 * ((4 * t.val + 1) % 2) + (96 + r.val)) % 224; omega

theorem k2_off170_eq : ∀ (t : Fin k2_t2_loop.trips), k2_off170 t = ![2 * t.val + 1, 208] := by decide +kernel

theorem f_idx_word6r (t : Fin k2_t2_loop.trips) (R : IVec S128x224 32) (r : Fin 16) :
    View.ld (Val := Elt F) (e' := .i32) R (Rect.unit (s := S128x224) (k2_off170 t) S1x16.size (k2_off170_inb t)) (Fin.cons ⟨0, Nat.one_pos⟩ (ix1 r))
      = tileWord R (4 * t.val + 3) (96 + r.val) := by
  have ht : t.val < 32 := lt_of_lt_of_eq t.isLt (by decide)
  have h0 : k2_off170 t 0 = 2 * t.val + 1 := by rw [k2_off170_eq]; rfl
  have h1 : k2_off170 t 1 = 208 := by rw [k2_off170_eq]; rfl
  have hr := r.isLt
  unfold tileWord
  show R ((Rect.unit (s := S128x224) (k2_off170 t) S1x16.size (k2_off170_inb t)).idx (Fin.cons ⟨0, Nat.one_pos⟩ (ix1 r))) = _
  refine congrArg R (funext fun a => Fin.ext ?_)
  match a with
  | ⟨0, _⟩ => show k2_off170 t 0 + 1 * 0 = (4 * t.val + 3) / 2 % 128; omega
  | ⟨1, _⟩ => show k2_off170 t 1 + 1 * r.val = (112 * ((4 * t.val + 3) % 2) + (96 + r.val)) % 224; omega

section Steps5

variable (d : Dev nD) (L : grid2.Coords)

/-- The first staged row of trip `t` of the first outer loop: the second half's last four rows finish the trip's first bag, and its four lane groups, times the constant, are the bag's pooled entries. -/
theorem staged7a (t : Fin k2_t2_loop.trips) (R : IVec S128x224 32) (fT : FVec F S507904x128 .f32)
    (g : Buf (Elt F) ((Memref.whole cc2_scratch3 : Memref sig .scVector .vmem S100x128 .f32).view.loc (V d (cV L) (jV L)))) (acc : TileAcc F)
    (hrows : BufRows ((Memref.whole cc2_scratch3 : Memref sig .scVector .vmem S100x128 .f32).view.read (Elt F) g) fT R (4 * t.val + 1))
    (hacc : TileBagAt R fT (2 * t.val + 0) 1 (16 * 6) acc)
    {cst : F .f32} (hcst : cst = Named.named κ "inv_200" 0x3BA3D70A#32)
    {h2 : ∀ a, (![0] : Fin 1 → ℕ) a < S1.size a}
    {i0_0 i0_1 i0_2 i0_3 i1_0 i1_1 i1_2 i1_3 i2_0 i2_1 i2_2 i2_3 i3_0 i3_1 i3_2 i3_3} {j0 j1 j2 j3} :
    ∀ p ∈ ([⟨Rect.unit (s := S64x64) (k2_off92 t) S1x16.size j3, shapeCast S1x16 (mulf (addf (addf (addf (addf (acc.2.2.2) (f_ldRow d L (Memref.whole cc2_scratch3 : Memref sig .scVector .vmem S100x128 .f32) g (k2_off82 (f_laneW (F := F) (f_ldIdx R (k2_off80 t) (k2_off80_inb t)) 0 slices_S16_o0_S1 h2) 48#32) i0_3)) (f_ldRow d L (Memref.whole cc2_scratch3 : Memref sig .scVector .vmem S100x128 .f32) g (k2_off84 (f_laneW (F := F) (f_ldIdx R (k2_off80 t) (k2_off80_inb t)) 1 slices_S16_o1_S1 h2) 48#32) i1_3)) (f_ldRow d L (Memref.whole cc2_scratch3 : Memref sig .scVector .vmem S100x128 .f32) g (k2_off86 (f_laneW (F := F) (f_ldIdx R (k2_off80 t) (k2_off80_inb t)) 2 slices_S16_o2_S1 h2) 48#32) i2_3)) (f_ldRow d L (Memref.whole cc2_scratch3 : Memref sig .scVector .vmem S100x128 .f32) g (k2_off88 (f_laneW (F := F) (f_ldIdx R (k2_off80 t) (k2_off80_inb t)) 3 slices_S16_o3_S1 h2) 48#32) i3_3)) (broadcast S16 cst)) shapeCasts_S16_S1x16⟩,
        ⟨Rect.unit (s := S64x64) (k2_off91 t) S1x16.size j2, shapeCast S1x16 (mulf (addf (addf (addf (addf (acc.2.2.1) (f_ldRow d L (Memref.whole cc2_scratch3 : Memref sig .scVector .vmem S100x128 .f32) g (k2_off82 (f_laneW (F := F) (f_ldIdx R (k2_off80 t) (k2_off80_inb t)) 0 slices_S16_o0_S1 h2) 32#32) i0_2)) (f_ldRow d L (Memref.whole cc2_scratch3 : Memref sig .scVector .vmem S100x128 .f32) g (k2_off84 (f_laneW (F := F) (f_ldIdx R (k2_off80 t) (k2_off80_inb t)) 1 slices_S16_o1_S1 h2) 32#32) i1_2)) (f_ldRow d L (Memref.whole cc2_scratch3 : Memref sig .scVector .vmem S100x128 .f32) g (k2_off86 (f_laneW (F := F) (f_ldIdx R (k2_off80 t) (k2_off80_inb t)) 2 slices_S16_o2_S1 h2) 32#32) i2_2)) (f_ldRow d L (Memref.whole cc2_scratch3 : Memref sig .scVector .vmem S100x128 .f32) g (k2_off88 (f_laneW (F := F) (f_ldIdx R (k2_off80 t) (k2_off80_inb t)) 3 slices_S16_o3_S1 h2) 32#32) i3_2)) (broadcast S16 cst)) shapeCasts_S16_S1x16⟩,
        ⟨Rect.unit (s := S64x64) (k2_off90 t) S1x16.size j1, shapeCast S1x16 (mulf (addf (addf (addf (addf (acc.2.1) (f_ldRow d L (Memref.whole cc2_scratch3 : Memref sig .scVector .vmem S100x128 .f32) g (k2_off82 (f_laneW (F := F) (f_ldIdx R (k2_off80 t) (k2_off80_inb t)) 0 slices_S16_o0_S1 h2) 16#32) i0_1)) (f_ldRow d L (Memref.whole cc2_scratch3 : Memref sig .scVector .vmem S100x128 .f32) g (k2_off84 (f_laneW (F := F) (f_ldIdx R (k2_off80 t) (k2_off80_inb t)) 1 slices_S16_o1_S1 h2) 16#32) i1_1)) (f_ldRow d L (Memref.whole cc2_scratch3 : Memref sig .scVector .vmem S100x128 .f32) g (k2_off86 (f_laneW (F := F) (f_ldIdx R (k2_off80 t) (k2_off80_inb t)) 2 slices_S16_o2_S1 h2) 16#32) i2_1)) (f_ldRow d L (Memref.whole cc2_scratch3 : Memref sig .scVector .vmem S100x128 .f32) g (k2_off88 (f_laneW (F := F) (f_ldIdx R (k2_off80 t) (k2_off80_inb t)) 3 slices_S16_o3_S1 h2) 16#32) i3_1)) (broadcast S16 cst)) shapeCasts_S16_S1x16⟩,
        ⟨Rect.unit (s := S64x64) (k2_off89 t) S1x16.size j0, shapeCast S1x16 (mulf (addf (addf (addf (addf (acc.1) (f_ldRow d L (Memref.whole cc2_scratch3 : Memref sig .scVector .vmem S100x128 .f32) g (k2_off81 (f_laneW (F := F) (f_ldIdx R (k2_off80 t) (k2_off80_inb t)) 0 slices_S16_o0_S1 h2)) i0_0)) (f_ldRow d L (Memref.whole cc2_scratch3 : Memref sig .scVector .vmem S100x128 .f32) g (k2_off83 (f_laneW (F := F) (f_ldIdx R (k2_off80 t) (k2_off80_inb t)) 1 slices_S16_o1_S1 h2)) i1_0)) (f_ldRow d L (Memref.whole cc2_scratch3 : Memref sig .scVector .vmem S100x128 .f32) g (k2_off85 (f_laneW (F := F) (f_ldIdx R (k2_off80 t) (k2_off80_inb t)) 2 slices_S16_o2_S1 h2)) i2_0)) (f_ldRow d L (Memref.whole cc2_scratch3 : Memref sig .scVector .vmem S100x128 .f32) g (k2_off87 (f_laneW (F := F) (f_ldIdx R (k2_off80 t) (k2_off80_inb t)) 3 slices_S16_o3_S1 h2)) i3_0)) (broadcast S16 cst)) shapeCasts_S16_S1x16⟩] : List (View.Piece (Elt F) S64x64 .f32)),
      ∀ x : p.1.shape.Idx, p.2 x = tileBagV R fT (0 + (p.1.emb x 0).val) (p.1.emb x 1) := by
  have hu : 2 * (2 * t.val + 0) + 1 = 4 * t.val + 1 := by omega
  have hrows' : BufRows ((Memref.whole cc2_scratch3 : Memref sig .scVector .vmem S100x128 .f32).view.read (Elt F) g) fT R (2 * (2 * t.val + 0) + 1) := by rw [hu]; exact hrows
  have hb := (bagAt_iff_bufAcc (by decide : 1 < 2) hrows' (by decide : 16 * 6 ≤ 100) acc).mp hacc
  have hs0 : BufAccAt (bufTerm ((Memref.whole cc2_scratch3 : Memref sig .scVector .vmem S100x128 .f32).view.read (Elt F) g) (tileWord R (2 * (2 * t.val + 0) + 1))) (16 * 6 + 0) (bagInit R fT (2 * t.val + 0) 1)
      (acc.1, acc.2.1, acc.2.2.1, acc.2.2.2) := hb
  have hw0 : (f_laneW (F := F) (f_ldIdx R (k2_off80 t) (k2_off80_inb t)) 0 slices_S16_o0_S1 h2) = offW (tileWord R (2 * (2 * t.val + 0) + 1) (16 * 6 + 0)) := by
    rw [hu]; exact f_laneW_eq (F := F) (f_ldIdx R (k2_off80 t) (k2_off80_inb t)) (0 : Fin 16) slices_S16_o0_S1 h2 _ (f_idx_word4r t R 0)
  have hs1 := hs0.f_row_rd4 d L (Memref.whole cc2_scratch3 : Memref sig .scVector .vmem S100x128 .f32) g (by decide : 16 * 6 + 0 < 100) _ hw0 _ _ _ _ (inb0 := i0_0) (inb1 := i0_1) (inb2 := i0_2) (inb3 := i0_3) rfl rfl rfl rfl
  have hw1 : (f_laneW (F := F) (f_ldIdx R (k2_off80 t) (k2_off80_inb t)) 1 slices_S16_o1_S1 h2) = offW (tileWord R (2 * (2 * t.val + 0) + 1) (16 * 6 + 1)) := by
    rw [hu]; exact f_laneW_eq (F := F) (f_ldIdx R (k2_off80 t) (k2_off80_inb t)) (1 : Fin 16) slices_S16_o1_S1 h2 _ (f_idx_word4r t R 1)
  have hs2 := hs1.f_row_rd4 d L (Memref.whole cc2_scratch3 : Memref sig .scVector .vmem S100x128 .f32) g (by decide : 16 * 6 + 1 < 100) _ hw1 _ _ _ _ (inb0 := i1_0) (inb1 := i1_1) (inb2 := i1_2) (inb3 := i1_3) rfl rfl rfl rfl
  have hw2 : (f_laneW (F := F) (f_ldIdx R (k2_off80 t) (k2_off80_inb t)) 2 slices_S16_o2_S1 h2) = offW (tileWord R (2 * (2 * t.val + 0) + 1) (16 * 6 + 2)) := by
    rw [hu]; exact f_laneW_eq (F := F) (f_ldIdx R (k2_off80 t) (k2_off80_inb t)) (2 : Fin 16) slices_S16_o2_S1 h2 _ (f_idx_word4r t R 2)
  have hs3 := hs2.f_row_rd4 d L (Memref.whole cc2_scratch3 : Memref sig .scVector .vmem S100x128 .f32) g (by decide : 16 * 6 + 2 < 100) _ hw2 _ _ _ _ (inb0 := i2_0) (inb1 := i2_1) (inb2 := i2_2) (inb3 := i2_3) rfl rfl rfl rfl
  have hw3 : (f_laneW (F := F) (f_ldIdx R (k2_off80 t) (k2_off80_inb t)) 3 slices_S16_o3_S1 h2) = offW (tileWord R (2 * (2 * t.val + 0) + 1) (16 * 6 + 3)) := by
    rw [hu]; exact f_laneW_eq (F := F) (f_ldIdx R (k2_off80 t) (k2_off80_inb t)) (3 : Fin 16) slices_S16_o3_S1 h2 _ (f_idx_word4r t R 3)
  have hs4 := hs3.f_row_rd4 d L (Memref.whole cc2_scratch3 : Memref sig .scVector .vmem S100x128 .f32) g (by decide : 16 * 6 + 3 < 100) _ hw3 _ _ _ _ (inb0 := i3_0) (inb1 := i3_1) (inb2 := i3_2) (inb3 := i3_3) rfl rfl rfl rfl
  have hfin := (bagAt_iff_bufAcc (by decide : 1 < 2) hrows' (le_refl 100) _).mpr hs4
  intro p hp
  simp only [List.mem_cons, List.mem_singleton, List.not_mem_nil, or_false] at hp
  rcases hp with rfl | rfl | rfl | rfl <;> intro x
  · exact f_piece_val R fT _ 3 _ hfin cst hcst _ j3 (2 * t.val) (k2_off92_eq t) 0 (by omega) x
  · exact f_piece_val R fT _ 2 _ hfin cst hcst _ j2 (2 * t.val) (k2_off91_eq t) 0 (by omega) x
  · exact f_piece_val R fT _ 1 _ hfin cst hcst _ j1 (2 * t.val) (k2_off90_eq t) 0 (by omega) x
  · exact f_piece_val R fT _ 0 _ hfin cst hcst _ j0 (2 * t.val) (k2_off89_eq t) 0 (by omega) x

/-- The second staged row of trip `t` of the first outer loop: the same for the trip's second bag. -/
theorem staged7b (t : Fin k2_t2_loop.trips) (R : IVec S128x224 32) (fT : FVec F S507904x128 .f32)
    (g : Buf (Elt F) ((Memref.whole cc2_scratch5 : Memref sig .scVector .vmem S100x128 .f32).view.loc (V d (cV L) (jV L)))) (acc : TileAcc F)
    (hrows : BufRows ((Memref.whole cc2_scratch5 : Memref sig .scVector .vmem S100x128 .f32).view.read (Elt F) g) fT R (4 * t.val + 3))
    (hacc : TileBagAt R fT (2 * t.val + 1) 1 (16 * 6) acc)
    {cst : F .f32} (hcst : cst = Named.named κ "inv_200" 0x3BA3D70A#32)
    {h2 : ∀ a, (![0] : Fin 1 → ℕ) a < S1.size a}
    {i0_0 i0_1 i0_2 i0_3 i1_0 i1_1 i1_2 i1_3 i2_0 i2_1 i2_2 i2_3 i3_0 i3_1 i3_2 i3_3} {j0 j1 j2 j3} :
    ∀ p ∈ ([⟨Rect.unit (s := S64x64) (k2_off182 t) S1x16.size j3, shapeCast S1x16 (mulf (addf (addf (addf (addf (acc.2.2.2) (f_ldRow d L (Memref.whole cc2_scratch5 : Memref sig .scVector .vmem S100x128 .f32) g (k2_off172 (f_laneW (F := F) (f_ldIdx R (k2_off170 t) (k2_off170_inb t)) 0 slices_S16_o0_S1 h2) 48#32) i0_3)) (f_ldRow d L (Memref.whole cc2_scratch5 : Memref sig .scVector .vmem S100x128 .f32) g (k2_off174 (f_laneW (F := F) (f_ldIdx R (k2_off170 t) (k2_off170_inb t)) 1 slices_S16_o1_S1 h2) 48#32) i1_3)) (f_ldRow d L (Memref.whole cc2_scratch5 : Memref sig .scVector .vmem S100x128 .f32) g (k2_off176 (f_laneW (F := F) (f_ldIdx R (k2_off170 t) (k2_off170_inb t)) 2 slices_S16_o2_S1 h2) 48#32) i2_3)) (f_ldRow d L (Memref.whole cc2_scratch5 : Memref sig .scVector .vmem S100x128 .f32) g (k2_off178 (f_laneW (F := F) (f_ldIdx R (k2_off170 t) (k2_off170_inb t)) 3 slices_S16_o3_S1 h2) 48#32) i3_3)) (broadcast S16 cst)) shapeCasts_S16_S1x16⟩,
        ⟨Rect.unit (s := S64x64) (k2_off181 t) S1x16.size j2, shapeCast S1x16 (mulf (addf (addf (addf (addf (acc.2.2.1) (f_ldRow d L (Memref.whole cc2_scratch5 : Memref sig .scVector .vmem S100x128 .f32) g (k2_off172 (f_laneW (F := F) (f_ldIdx R (k2_off170 t) (k2_off170_inb t)) 0 slices_S16_o0_S1 h2) 32#32) i0_2)) (f_ldRow d L (Memref.whole cc2_scratch5 : Memref sig .scVector .vmem S100x128 .f32) g (k2_off174 (f_laneW (F := F) (f_ldIdx R (k2_off170 t) (k2_off170_inb t)) 1 slices_S16_o1_S1 h2) 32#32) i1_2)) (f_ldRow d L (Memref.whole cc2_scratch5 : Memref sig .scVector .vmem S100x128 .f32) g (k2_off176 (f_laneW (F := F) (f_ldIdx R (k2_off170 t) (k2_off170_inb t)) 2 slices_S16_o2_S1 h2) 32#32) i2_2)) (f_ldRow d L (Memref.whole cc2_scratch5 : Memref sig .scVector .vmem S100x128 .f32) g (k2_off178 (f_laneW (F := F) (f_ldIdx R (k2_off170 t) (k2_off170_inb t)) 3 slices_S16_o3_S1 h2) 32#32) i3_2)) (broadcast S16 cst)) shapeCasts_S16_S1x16⟩,
        ⟨Rect.unit (s := S64x64) (k2_off180 t) S1x16.size j1, shapeCast S1x16 (mulf (addf (addf (addf (addf (acc.2.1) (f_ldRow d L (Memref.whole cc2_scratch5 : Memref sig .scVector .vmem S100x128 .f32) g (k2_off172 (f_laneW (F := F) (f_ldIdx R (k2_off170 t) (k2_off170_inb t)) 0 slices_S16_o0_S1 h2) 16#32) i0_1)) (f_ldRow d L (Memref.whole cc2_scratch5 : Memref sig .scVector .vmem S100x128 .f32) g (k2_off174 (f_laneW (F := F) (f_ldIdx R (k2_off170 t) (k2_off170_inb t)) 1 slices_S16_o1_S1 h2) 16#32) i1_1)) (f_ldRow d L (Memref.whole cc2_scratch5 : Memref sig .scVector .vmem S100x128 .f32) g (k2_off176 (f_laneW (F := F) (f_ldIdx R (k2_off170 t) (k2_off170_inb t)) 2 slices_S16_o2_S1 h2) 16#32) i2_1)) (f_ldRow d L (Memref.whole cc2_scratch5 : Memref sig .scVector .vmem S100x128 .f32) g (k2_off178 (f_laneW (F := F) (f_ldIdx R (k2_off170 t) (k2_off170_inb t)) 3 slices_S16_o3_S1 h2) 16#32) i3_1)) (broadcast S16 cst)) shapeCasts_S16_S1x16⟩,
        ⟨Rect.unit (s := S64x64) (k2_off179 t) S1x16.size j0, shapeCast S1x16 (mulf (addf (addf (addf (addf (acc.1) (f_ldRow d L (Memref.whole cc2_scratch5 : Memref sig .scVector .vmem S100x128 .f32) g (k2_off171 (f_laneW (F := F) (f_ldIdx R (k2_off170 t) (k2_off170_inb t)) 0 slices_S16_o0_S1 h2)) i0_0)) (f_ldRow d L (Memref.whole cc2_scratch5 : Memref sig .scVector .vmem S100x128 .f32) g (k2_off173 (f_laneW (F := F) (f_ldIdx R (k2_off170 t) (k2_off170_inb t)) 1 slices_S16_o1_S1 h2)) i1_0)) (f_ldRow d L (Memref.whole cc2_scratch5 : Memref sig .scVector .vmem S100x128 .f32) g (k2_off175 (f_laneW (F := F) (f_ldIdx R (k2_off170 t) (k2_off170_inb t)) 2 slices_S16_o2_S1 h2)) i2_0)) (f_ldRow d L (Memref.whole cc2_scratch5 : Memref sig .scVector .vmem S100x128 .f32) g (k2_off177 (f_laneW (F := F) (f_ldIdx R (k2_off170 t) (k2_off170_inb t)) 3 slices_S16_o3_S1 h2)) i3_0)) (broadcast S16 cst)) shapeCasts_S16_S1x16⟩] : List (View.Piece (Elt F) S64x64 .f32)),
      ∀ x : p.1.shape.Idx, p.2 x = tileBagV R fT (0 + (p.1.emb x 0).val) (p.1.emb x 1) := by
  have hu : 2 * (2 * t.val + 1) + 1 = 4 * t.val + 3 := by omega
  have hrows' : BufRows ((Memref.whole cc2_scratch5 : Memref sig .scVector .vmem S100x128 .f32).view.read (Elt F) g) fT R (2 * (2 * t.val + 1) + 1) := by rw [hu]; exact hrows
  have hb := (bagAt_iff_bufAcc (by decide : 1 < 2) hrows' (by decide : 16 * 6 ≤ 100) acc).mp hacc
  have hs0 : BufAccAt (bufTerm ((Memref.whole cc2_scratch5 : Memref sig .scVector .vmem S100x128 .f32).view.read (Elt F) g) (tileWord R (2 * (2 * t.val + 1) + 1))) (16 * 6 + 0) (bagInit R fT (2 * t.val + 1) 1)
      (acc.1, acc.2.1, acc.2.2.1, acc.2.2.2) := hb
  have hw0 : (f_laneW (F := F) (f_ldIdx R (k2_off170 t) (k2_off170_inb t)) 0 slices_S16_o0_S1 h2) = offW (tileWord R (2 * (2 * t.val + 1) + 1) (16 * 6 + 0)) := by
    rw [hu]; exact f_laneW_eq (F := F) (f_ldIdx R (k2_off170 t) (k2_off170_inb t)) (0 : Fin 16) slices_S16_o0_S1 h2 _ (f_idx_word6r t R 0)
  have hs1 := hs0.f_row_rd4 d L (Memref.whole cc2_scratch5 : Memref sig .scVector .vmem S100x128 .f32) g (by decide : 16 * 6 + 0 < 100) _ hw0 _ _ _ _ (inb0 := i0_0) (inb1 := i0_1) (inb2 := i0_2) (inb3 := i0_3) rfl rfl rfl rfl
  have hw1 : (f_laneW (F := F) (f_ldIdx R (k2_off170 t) (k2_off170_inb t)) 1 slices_S16_o1_S1 h2) = offW (tileWord R (2 * (2 * t.val + 1) + 1) (16 * 6 + 1)) := by
    rw [hu]; exact f_laneW_eq (F := F) (f_ldIdx R (k2_off170 t) (k2_off170_inb t)) (1 : Fin 16) slices_S16_o1_S1 h2 _ (f_idx_word6r t R 1)
  have hs2 := hs1.f_row_rd4 d L (Memref.whole cc2_scratch5 : Memref sig .scVector .vmem S100x128 .f32) g (by decide : 16 * 6 + 1 < 100) _ hw1 _ _ _ _ (inb0 := i1_0) (inb1 := i1_1) (inb2 := i1_2) (inb3 := i1_3) rfl rfl rfl rfl
  have hw2 : (f_laneW (F := F) (f_ldIdx R (k2_off170 t) (k2_off170_inb t)) 2 slices_S16_o2_S1 h2) = offW (tileWord R (2 * (2 * t.val + 1) + 1) (16 * 6 + 2)) := by
    rw [hu]; exact f_laneW_eq (F := F) (f_ldIdx R (k2_off170 t) (k2_off170_inb t)) (2 : Fin 16) slices_S16_o2_S1 h2 _ (f_idx_word6r t R 2)
  have hs3 := hs2.f_row_rd4 d L (Memref.whole cc2_scratch5 : Memref sig .scVector .vmem S100x128 .f32) g (by decide : 16 * 6 + 2 < 100) _ hw2 _ _ _ _ (inb0 := i2_0) (inb1 := i2_1) (inb2 := i2_2) (inb3 := i2_3) rfl rfl rfl rfl
  have hw3 : (f_laneW (F := F) (f_ldIdx R (k2_off170 t) (k2_off170_inb t)) 3 slices_S16_o3_S1 h2) = offW (tileWord R (2 * (2 * t.val + 1) + 1) (16 * 6 + 3)) := by
    rw [hu]; exact f_laneW_eq (F := F) (f_ldIdx R (k2_off170 t) (k2_off170_inb t)) (3 : Fin 16) slices_S16_o3_S1 h2 _ (f_idx_word6r t R 3)
  have hs4 := hs3.f_row_rd4 d L (Memref.whole cc2_scratch5 : Memref sig .scVector .vmem S100x128 .f32) g (by decide : 16 * 6 + 3 < 100) _ hw3 _ _ _ _ (inb0 := i3_0) (inb1 := i3_1) (inb2 := i3_2) (inb3 := i3_3) rfl rfl rfl rfl
  have hfin := (bagAt_iff_bufAcc (by decide : 1 < 2) hrows' (le_refl 100) _).mpr hs4
  intro p hp
  simp only [List.mem_cons, List.mem_singleton, List.not_mem_nil, or_false] at hp
  rcases hp with rfl | rfl | rfl | rfl <;> intro x
  · exact f_piece_val R fT _ 3 _ hfin cst hcst _ j3 (2 * t.val + 1) (k2_off182_eq t) 0 (by omega) x
  · exact f_piece_val R fT _ 2 _ hfin cst hcst _ j2 (2 * t.val + 1) (k2_off181_eq t) 0 (by omega) x
  · exact f_piece_val R fT _ 1 _ hfin cst hcst _ j1 (2 * t.val + 1) (k2_off180_eq t) 0 (by omega) x
  · exact f_piece_val R fT _ 0 _ hfin cst hcst _ j0 (2 * t.val + 1) (k2_off179_eq t) 0 (by omega) x

end Steps5

end Cert.Proof.KI

end
-- ==== Proof.KITileStep_c.lean ====
/-
  The four remainder rows of a half bag (rows 96–99, after the six trips of sixteen) and the passage from a bag's first
  half to its second: each remainder row is added as a trip's row is, at a literal row number; after row 99 the four
  sums hold the whole first half, which is what the second half starts from.
-/
import proofs.«207435_g27118423507386_cont_sun_m_668_27_alg».proof.Proof.KITileValAcc

noncomputable section

namespace Cert.Proof.KI

open Cert.KernelIdeal Cert.KernelIdeal.Gen
open Idealize.ShloMosaic Idealize.ShloMosaic.ValueIdx
open Idealize.SL.Sem

variable {F : FTy → Type} [FloatOps F] [Named F]

/-- A remainder row, as the kernel adds it: the four loads at the literal row `n` and at the lane offset `s` of the
    row's index word plus 0, 16, 32, 48. -/
theorem BufAccAt.row_c {g : FVec F S100x128 .f32} {xs : ℕ → BitVec 32} {init : Fin 4 → Fin 16 → F .f32} {A : Acc4 F} {n : ℕ}
    (h : BufAccAt (bufTerm g xs) n init A) (hn : n < 100)
    (s : BitVec 32) (hs : s = offW (xs n))
    (off0 off1 off2 off3 : Fin 2 → ℕ)
    (inb0 : ∀ a, off0 a + S1x16.size a ≤ S100x128.size a) (inb1 : ∀ a, off1 a + S1x16.size a ≤ S100x128.size a)
    (inb2 : ∀ a, off2 a + S1x16.size a ≤ S100x128.size a) (inb3 : ∀ a, off3 a + S1x16.size a ≤ S100x128.size a)
    (e0 : off0 = ![n, (Scalar.indexCast s).toNat])
    (e1 : off1 = ![n, (Scalar.indexCast (Scalar.addi s 16#32)).toNat])
    (e2 : off2 = ![n, (Scalar.indexCast (Scalar.addi s 32#32)).toNat])
    (e3 : off3 = ![n, (Scalar.indexCast (Scalar.addi s 48#32)).toNat]) :
    BufAccAt (bufTerm g xs) (n + 1) init
      (addf A.1 (shapeCast S16 (View.ld (Val := Elt F) (e' := .f32) g (Rect.unit (s := S100x128) off0 S1x16.size inb0)) shapeCasts_S1x16_S16),
        addf A.2.1 (shapeCast S16 (View.ld (Val := Elt F) (e' := .f32) g (Rect.unit (s := S100x128) off1 S1x16.size inb1)) shapeCasts_S1x16_S16),
        addf A.2.2.1 (shapeCast S16 (View.ld (Val := Elt F) (e' := .f32) g (Rect.unit (s := S100x128) off2 S1x16.size inb2)) shapeCasts_S1x16_S16),
        addf A.2.2.2 (shapeCast S16 (View.ld (Val := Elt F) (e' := .f32) g (Rect.unit (s := S100x128) off3 S1x16.size inb3)) shapeCasts_S1x16_S16)) := by
  subst hs
  refine h.row_ld hn off0 off1 off2 off3 inb0 inb1 inb2 inb3 ?_ ?_ ?_ ?_ ?_ ?_ ?_ ?_
  · rw [e0]; rfl
  · rw [e1]; rfl
  · rw [e2]; rfl
  · rw [e3]; rfl
  · rw [e0]; rfl
  · rw [e1]; exact lane_val _ 16#32 (by decide)
  · rw [e2]; exact lane_val _ 32#32 (by decide)
  · rw [e3]; exact lane_val _ 48#32 (by decide)

/-- The whole first half over the row buffer is what the second half starts from. -/
theorem bagAt_half_of_bufAcc {g : FVec F S100x128 .f32} {fT : FVec F S507904x128 .f32} {R : IVec S128x224 32} {b : ℕ}
    (hrows : BufRows g fT R (2 * b + 0)) (acc : Acc4 F)
    (h : BufAccAt (bufTerm g (tileWord R (2 * b + 0))) 100 (bagInit R fT b 0) acc) : TileBagAt R fT b 1 (16 * 0) acc := by
  intro q l
  have hget : tileLane acc q = acc.get q := by
    match q with
    | ⟨0, _⟩ => rfl
    | ⟨1, _⟩ => rfl
    | ⟨2, _⟩ => rfl
    | ⟨3, _⟩ => rfl
  have e1 : bagInit R fT b 0 q l = Scalar.ofBits .f32 0x00000000#32 := if_pos rfl
  have e2 : tileHalfV R fT b 1 (⟨16 * q.val + l.val, by have := q.isLt; have := l.isLt; omega⟩ : Fin 64) (16 * 0)
      = tileAccV R fT (2 * b + 1) (⟨16 * q.val + l.val, by have := q.isLt; have := l.isLt; omega⟩ : Fin 64)
          (tileAccV R fT (2 * b) (⟨16 * q.val + l.val, by have := q.isLt; have := l.isLt; omega⟩ : Fin 64) (Scalar.ofBits .f32 0x00000000#32) 100) (16 * 0) :=
    if_neg (by decide)
  rw [hget, h q l, accN_bufTerm hrows _ _ 100 le_rfl, e1, e2]
  rfl

/-- A stored vector of a bag's pooled row: lane block `q` of the four sums after the bag's 200 rows, times the named
    constant, stored at row `off 0` and lanes `off 1 = 16 q` on of the staging buffer, is the bag's pooled entries. -/
theorem piece_val (R : IVec S128x224 32) (fT : FVec F S507904x128 .f32) (b : ℕ) (q : Fin 4) (A : Acc4 F)
    (hA : TileBagAt R fT b 1 100 A) (boff : ℕ) (off : Fin 2 → ℕ) (inb : ∀ a, off a + S1x16.size a ≤ S64x64.size a)
    (h0 : boff + off 0 = b) (h1 : off 1 = 16 * q.val)
    (x : (Rect.unit (s := S64x64) off S1x16.size inb).shape.Idx) :
    shapeCast S1x16 (mulf (A.get q) (broadcast S16 (Named.named κ "inv_200" 0x3BA3D70A#32))) shapeCasts_S16_S1x16 x
      = tileBagV R fT (boff + ((Rect.unit (s := S64x64) off S1x16.size inb).emb x 0).val) ((Rect.unit (s := S64x64) off S1x16.size inb).emb x 1) := by
  have hx0 : (x 0).val = 0 := by have := (x 0).isLt; simp [S1x16] at this; omega
  have hx1 : (x 1).val < 16 := (x 1).isLt
  have hq := q.isLt
  rw [shapeCast_addUnit_apply ![16] _ shapeCasts_S16_S1x16 x]
  have hl : (fun a : Fin 1 => x a.succ) = ix1 (⟨(x 1).val, hx1⟩ : Fin 16) := funext fun a => by
    match a with
    | ⟨0, _⟩ => rfl
  show FloatOps.mulf (A.get q (fun a : Fin 1 => x a.succ)) (Named.named κ "inv_200" 0x3BA3D70A#32) = _
  have hget : tileLane A q = A.get q := by
    match q with
    | ⟨0, _⟩ => rfl
    | ⟨1, _⟩ => rfl
    | ⟨2, _⟩ => rfl
    | ⟨3, _⟩ => rfl
  have hv := hA q ⟨(x 1).val, hx1⟩
  rw [hget] at hv
  rw [hl, hv]
  unfold tileBagV tileHalfV
  rw [if_neg (by decide)]
  have hrow : boff + ((Rect.unit (s := S64x64) off S1x16.size inb).emb x 0).val = b := by
    show boff + (off 0 + 1 * (x 0).val) = b
    omega
  rw [hrow]
  have hcol : (Rect.unit (s := S64x64) off S1x16.size inb).emb x 1 = (⟨16 * q.val + (x 1).val, by omega⟩ : Fin 64) := Fin.ext (by
    show off 1 + 1 * (x 1).val = 16 * q.val + (x 1).val
    omega)
  rw [hcol]

/-- The remainder's index words are loaded from bag row `2 t`, columns 96 on (first cell of the first outer loop). -/
theorem k2_off37_eq : ∀ t : Fin k2_t2_loop.trips, k2_off37 t = ![2 * t.val, 96] := by decide +kernel
/-- and, for the second half (cell 1), columns 112 + 96 on. -/
theorem k2_off80_eq : ∀ t : Fin k2_t2_loop.trips, k2_off80 t = ![2 * t.val, 208] := by decide +kernel
/-- and for the second bag of the trip (cell 3). -/
theorem k2_off170_eq : ∀ t : Fin k2_t2_loop.trips, k2_off170 t = ![2 * t.val + 1, 208] := by decide +kernel

end Cert.Proof.KI

end
-- ==== Proof.KITileWork.lean ====
/-
  One vector subcore's task with the values: the run of the task's body again, its invariants now carrying what the
  buffers hold — scratch 1 the packed row numbers of the subcore's index words, each row buffer in flight the rows of
  the packed table its hundred row numbers name.
-/
import proofs.«207435_g27118423507386_cont_sun_m_668_27_alg».proof.Proof.KITile
import proofs.«207435_g27118423507386_cont_sun_m_668_27_alg».proof.Proof.KITileSpec
import proofs.«207435_g27118423507386_cont_sun_m_668_27_alg».proof.Proof.KITileValPack
import proofs.«207435_g27118423507386_cont_sun_m_668_27_alg».proof.Proof.KITileGather
import proofs.«207435_g27118423507386_cont_sun_m_668_27_alg».proof.Proof.KITileAccDefs
import proofs.«207435_g27118423507386_cont_sun_m_668_27_alg».proof.Proof.KITileFinal
import proofs.«207435_g27118423507386_cont_sun_m_668_27_alg».proof.Proof.KITileStep_b
import proofs.«207435_g27118423507386_cont_sun_m_668_27_alg».proof.Proof.KITileStep_f
import proofs.«207435_g27118423507386_cont_sun_m_668_27_alg».proof.Proof.KITileStep_f2
import proofs.«207435_g27118423507386_cont_sun_m_668_27_alg».proof.Proof.KITileStep_f5
import proofs.«207435_g27118423507386_cont_sun_m_668_27_alg».proof.Proof.KITileValAcc
import proofs.«207435_g27118423507386_cont_sun_m_668_27_alg».proof.Proof.KITileStep_c

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "vIW" => (Memref.whole Cert.KernelIdeal.main_v1_scv : Memref Cert.KernelIdeal.sig Kind.scVector Space.hbm Cert.KernelIdeal.S4096x224 EltTy.i32)
local notation "vTW" => (Memref.whole Cert.KernelIdeal.main_v3_scv : Memref Cert.KernelIdeal.sig Kind.scVector Space.hbm Cert.KernelIdeal.S507904x128 EltTy.f32)
local notation "vOW" => (Memref.whole Cert.KernelIdeal.main_v4_scv : Memref Cert.KernelIdeal.sig Kind.scVector Space.hbm Cert.KernelIdeal.S4096x64 EltTy.f32)
local notation "sRawW" => (Memref.whole Cert.KernelIdeal.cc2_scratch0 : Memref Cert.KernelIdeal.sig Kind.scVector Space.vmem Cert.KernelIdeal.S128x224 EltTy.i32)
local notation "sPW" => (Memref.whole Cert.KernelIdeal.cc2_scratch1 : Memref Cert.KernelIdeal.sig Kind.scVector Space.vmem Cert.KernelIdeal.S28672 EltTy.i32)
local notation "sR0W" => (Memref.whole Cert.KernelIdeal.cc2_scratch2 : Memref Cert.KernelIdeal.sig Kind.scVector Space.vmem Cert.KernelIdeal.S100x128 EltTy.f32)
local notation "sR1W" => (Memref.whole Cert.KernelIdeal.cc2_scratch3 : Memref Cert.KernelIdeal.sig Kind.scVector Space.vmem Cert.KernelIdeal.S100x128 EltTy.f32)
local notation "sR2W" => (Memref.whole Cert.KernelIdeal.cc2_scratch4 : Memref Cert.KernelIdeal.sig Kind.scVector Space.vmem Cert.KernelIdeal.S100x128 EltTy.f32)
local notation "sR3W" => (Memref.whole Cert.KernelIdeal.cc2_scratch5 : Memref Cert.KernelIdeal.sig Kind.scVector Space.vmem Cert.KernelIdeal.S100x128 EltTy.f32)
local notation "sOutW" => (Memref.whole Cert.KernelIdeal.cc2_scratch6 : Memref Cert.KernelIdeal.sig Kind.scVector Space.vmem Cert.KernelIdeal.S64x64 EltTy.f32)

section Tile

variable (d : Dev nD) (L : grid2.Coords)

/-- The unit (half bag) in flight on cell `k` at the head of trip `t` of the first outer loop, and of the second. -/
def tileU2 (t k : ℕ) : ℕ := 4 * t + k
def tileU7 (t k : ℕ) : ℕ := min (4 * t + 128 + k) (252 + k)

/-- A row buffer holds the rows of the packed table that the hundred row numbers of scratch 1 from place `o` name. -/
def TileRowsAt (rM : Memref sig .scVector .vmem S100x128 .f32) (fT : Buf (Elt F) (tLoc d))
    (fp : Buf (Elt F) ((sPW).view.loc (V d (cV L) (jV L)))) (o : ℕ) (g : Buf (Elt F) (rM.view.loc (V d (cV L) (jV L)))) : Prop :=
  ∀ (j : Fin 100) (c : Fin 128), rM.view.read (Elt F) g (ix2 j c)
    = fT (ix2 ⟨((sPW).view.read (Elt F) fp (ix1 ⟨((![o] : Fin 1 → ℕ) 0 + j.val) % 28672, Nat.mod_lt _ (by decide)⟩)).toNat % 507904,
        Nat.mod_lt _ (by decide)⟩ c)

/-- The packing loop's invariant with the values: every packed word the trips so far wrote is below 507904 and is the
    packed row number of the subcore's index word at its place. -/
def tileInv1V (R : IVec S128x224 32) (k : Nat) (_ : PUnit) : sProp 𝕄 :=
  iprop(((sRawW).view.loc (V d (cV L) (jV L)) ↦{fullShare} R)
    ∗ ∃ f, ((sPW).view.loc (V d (cV L) (jV L)) ↦{fullShare} f)
        ∗ ⌜(∀ y : S28672.Idx, (y 0).val < 16 * k → ((sPW).view.read (Elt F) f y).toNat < 507904)
            ∧ (∀ y : S28672.Idx, (y 0).val < 16 * k → (sPW).view.read (Elt F) f y = PVof R y)⌝)

/-- A cell between two trips, with the values: its gather in flight reads the row numbers from place `112 * u` of
    scratch 1, and what lands is those rows of the packed table. -/
def tileCellV (sem : DmaSem sig) (rM : Memref sig .scVector .vmem S100x128 .f32) (qp qt : PosShare TreeShare)
    (fp : Buf (Elt F) ((sPW).view.loc (V d (cV L) (jV L)))) (fT : Buf (Elt F) (tLoc d)) (u : ℕ) : sProp 𝕄 :=
  iprop(∃ (g : Buf (Elt F) (rM.view.loc (V d (cV L) (jV L)))) (o : ℕ) (h : ∀ a, (![o] : Fin 1 → ℕ) a + S100.size a ≤ S28672.size a),
    Transfers.Flight countersEmb (V d (cV L) (jV L)) (SemLoc.dma sem) (default : HIx 1) 409600
      iprop(((rM.view.loc (V d (cV L) (jV L)) ↦[rM.view.set]{fullShare} g)
          ∗ ((sPW).view.loc (V d (cV L) (jV L)) ↦[((sPW).slice (Rect.unit (s := S28672) ![o] S100.size h) (fun _ => rfl)).view.set]{qp} fp))
        ∗ ((vTW).view.loc (V d (cV L) (jV L)) ↦[(tblM).view.set]{qt} fT))
    ∗ ((vTW).view.loc (V d (cV L) (jV L)) ↦[Finset.univ \ (tblM).view.set]{qt} fT)
    ∗ (rM.view.loc (V d (cV L) (jV L)) ↦[Finset.univ \ rM.view.set]{fullShare} g)
    ∗ ((sPW).view.loc (V d (cV L) (jV L)) ↦[Finset.univ \ ((sPW).slice (Rect.unit (s := S28672) ![o] S100.size h) (fun _ => rfl)).view.set]{qp} fp)
    ∗ ⌜o = 112 * u ∧ TileRowsAt (F := F) d L rM fT fp o g⌝)

/-- An accumulation loop's invariant with the values: the subcore's indices and the row buffer stay, and the four
    sums carried satisfy `P` of the trip. -/
def tileInvIP {α : Type} (rM : Memref sig .scVector .vmem S100x128 .f32) (R : Buf (Elt F) ((V d (cV L) (jV L)).loc cc2_scratch0))
    (g : Buf (Elt F) (rM.view.loc (V d (cV L) (jV L)))) (P : Nat → α → Prop) (k : Nat) (acc : α) : sProp 𝕄 :=
  iprop(((sRawW).view.loc (V d (cV L) (jV L)) ↦{fullShare} R) ∗ (rM.view.loc (V d (cV L) (jV L)) ↦{fullShare} g) ∗ ⌜P k acc⌝)

/-- The two outer loops' invariant with the values; `uo t k` is the unit in flight on cell `k` at the head of trip `t`. -/
def tileInvOV (uo : ℕ → ℕ → ℕ) (boff : ℕ) (q3 : PosShare TreeShare) (O : CellTallies nD τ sig (HIx 1)) (W : Waits sig (HIx 1))
    (R : IVec S128x224 32)
    (fp : Buf (Elt F) ((sPW).view.loc (V d (cV L) (jV L)))) (fT : Buf (Elt F) (tLoc d)) (t : Nat) (_ : PUnit) : sProp 𝕄 :=
  iprop(levAts (K (F := F)).L (K (F := F)).lev
    ∗ ((sRawW).view.loc (V d (cV L) (jV L)) ↦{fullShare} R)
    ∗ (∃ g6, ((sOutW).view.loc (V d (cV L) (jV L)) ↦{fullShare} g6)
        ∗ ⌜TileStagedAt (F := F) R fT boff t ((sOutW).view.read (Elt F) g6)⌝)
    ∗ (∃ W', ⌜∀ p ∈ W', p ∈ W ∨ p.2 = none⌝ ∗ owes (V d (cV L) (jV L)) O W')
    ∗ tileCellV (F := F) d L ⟨8, by decide⟩ sR0W (Transfers.shareDrop fullShare 3) (Transfers.shareDrop q3 3) fp fT (uo t 0)
    ∗ tileCellV (F := F) d L ⟨9, by decide⟩ sR1W (Transfers.shareTok fullShare 3 0) (Transfers.shareTok q3 3 0) fp fT (uo t 1)
    ∗ tileCellV (F := F) d L ⟨10, by decide⟩ sR2W (Transfers.shareTok fullShare 3 1) (Transfers.shareTok q3 3 1) fp fT (uo t 2)
    ∗ tileCellV (F := F) d L ⟨11, by decide⟩ sR3W (Transfers.shareTok fullShare 3 2) (Transfers.shareTok q3 3 2) fp fT (uo t 3))

omit [FloatOps F] [Named F] in
/-- The two halves, each held at contents of its own, are both held at ONE function of the whole array that agrees
    with each half's contents on that half's elements. -/
theorem tile_out_joinV (GA GB : Buf (Elt F) (oLoc d)) :
    iprop(((outA L).view.loc (V d (cV L) (jV L)) ↦[(outA L).view.set]{fullShare} GA)
        ∗ ((outB L).view.loc (V d (cV L) (jV L)) ↦[(outB L).view.set]{fullShare} GB))
      ⊢ (iprop(∃ G : Buf (Elt F) (oLoc d), ⌜(∀ i ∈ (outA L).view.set, G i = GA i) ∧ (∀ i ∈ (outB L).view.set, G i = GB i)⌝
        ∗ ((outA L).view.loc (V d (cV L) (jV L)) ↦[(outA L).view.set]{fullShare} G)
        ∗ ((outB L).view.loc (V d (cV L) (jV L)) ↦[(outB L).view.set]{fullShare} G)) : sProp 𝕄) := by
  classical
  iintro ⟨HA, HB⟩
  iexists (fun i => if i ∈ (outA L).view.set then GA i else GB i)
  isplitr [HA HB]
  · ipureintro
    exact ⟨fun i hi => if_pos hi, fun i hi => if_neg (Finset.disjoint_right.mp (tile_outAB_disjoint L) hi)⟩
  isplitl [HA]
  · iapply (Entails.of_eq (pointsTo_congr (fun i hi => (if_pos hi).symm)))
    iexact HA
  · iapply (Entails.of_eq (pointsTo_congr (fun i hi => (if_neg (Finset.disjoint_right.mp (tile_outAB_disjoint L) hi)).symm)))
    iexact HB

set_option maxHeartbeats 8000000 in
theorem tile_body_work (hF : (K (F := F)).Facts) (O : CellTallies nD τ sig (HIx 1)) (W : Waits sig (HIx 1)) (hO : ∀ g, O g none = 0)
    (q1 q3 : PosShare TreeShare)
    (fI : Buf (Elt F) (iLoc d)) (fT : Buf (Elt F) (tLoc d)) (fO : Buf (Elt F) (oLoc d)) (hI : ∀ i, (fI i).toNat ≤ 999999) :
    iprop(levAts (K (F := F)).L (K (F := F)).lev
        ∗ (iLoc d ↦{q1} fI)
        ∗ (tLoc d ↦{q3} fT)
        ∗ ((outA L).view.loc (V d (cV L) (jV L)) ↦[(outA L).view.set]{fullShare} fO)
        ∗ ((outB L).view.loc (V d (cV L) (jV L)) ↦[(outB L).view.set]{fullShare} fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__embbag_mean L vIW (Memref.isWhole_whole _) vTW (Memref.isWhole_whole _) vOW (Memref.isWhole_whole _) sRawW (Memref.isWhole_whole _) sPW (Memref.isWhole_whole _) sR0W (Memref.isWhole_whole _) sR1W (Memref.isWhole_whole _) sR2W (Memref.isWhole_whole _) sR3W (Memref.isWhole_whole _) sOutW (Memref.isWhole_whole _) cc2_scratch7 cc2_scratch8 cc2_scratch9 cc2_scratch10 cc2_scoped0 cc2_scoped1 cc2_scoped2)
          fun _ => (iprop((iLoc d ↦{q1} fI) ∗ (tLoc d ↦{q3} fT)
            ∗ (∃ G, ⌜TileSpec (F := F) d L fI fT G⌝
                ∗ ((outA L).view.loc (V d (cV L) (jV L)) ↦[(outA L).view.set]{fullShare} G)
                ∗ ((outB L).view.loc (V d (cV L) (jV L)) ↦[(outB L).view.set]{fullShare} G))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc2__embbag_mean_eq_skeleton]; unfold cc2__embbag_mean_skel
  rw [(K (F := F)).scopedBufs_V hF d (cV L) (jV L), SparseCore.Cfg.scopedSems0_V (Val := Elt F) d (cV L) (jV L), ownSems0_V, ownBufs_V]
  iintro ⟨#Hlv, HvI, HvT, HoA, HoB, ⟨⟨%f0, Hb0⟩, ⟨%f1, Hb1⟩, ⟨%f2, Hb2⟩, ⟨%f3, Hb3⟩, ⟨%f4, Hb4⟩, ⟨%f5, Hb5⟩, ⟨%f6, Hb6⟩, Hbufs⟩,
    ⟨Hs0, Hs1, Hs2, Hs3, Hs4, Hs5, Hs6, Hsems⟩, HO⟩
  ihave Hmw := ((K (F := F)).mayWaits_none (thr := (V d (cV L) (jV L))) hO) $$ Hlv
  ihave HvI' := (Entails.of_eq (pts_vI (F := F) d L _ _).symm) $$ HvI
  ihave HvT' := (Entails.of_eq (pts_vT (F := F) d L _ _).symm) $$ HvT
  ihave Hb0' := (Entails.of_eq (pts_sRawW (F := F) d L _).symm) $$ Hb0
  ihave Hb1' := (Entails.of_eq (pts_sPW (F := F) d L _).symm) $$ Hb1
  ihave Hb2' := (Entails.of_eq (pts_sR0W (F := F) d L _).symm) $$ Hb2
  ihave Hb3' := (Entails.of_eq (pts_sR1W (F := F) d L _).symm) $$ Hb3
  ihave Hb4' := (Entails.of_eq (pts_sR2W (F := F) d L _).symm) $$ Hb4
  ihave Hb5' := (Entails.of_eq (pts_sR3W (F := F) d L _).symm) $$ Hb5
  ihave Hb6' := (Entails.of_eq (pts_sOutW (F := F) d L _).symm) $$ Hb6
  ihave HoA' : ((outA L).view.loc (V d (cV L) (jV L)) ↦[(outA L).view.set]{fullShare} fO) $$ [HoA]
  · iexact HoA
  ihave HoB' : ((outB L).view.loc (V d (cV L) (jV L)) ↦[(outB L).view.set]{fullShare} fO) $$ [HoB]
  · iexact HoB
  sl_exec
  have hR : View.write (Elt F) (sRawW).view f0 (tile_body_work.sl.dma0 d L fI) Finset.univ = (idxRows L).view.read (Elt F) fI := by
    rw [View.write_whole_univ]; rfl
  rw [hR]
  sl_for (tileInv1V (F := F) d L ((idxRows L).view.read (Elt F) fI)) $$ [Hb0' Hb1']
  case region =>
    intro k _
    unfold tileInv1V
    iintro ⟨Hraw, %f, Hp, %hf⟩
    sl_exec
    sl_step
    isplitl [Hraw]; · iexact Hraw
    iexists _
    isplitl [Hp]; · iexact Hp
    ipureintro
    refine ⟨packed_step (F := F) d L k f _ (fun x => ?_) hf.1,
      packed_step_val (F := F) (sPW).view k (PVof ((idxRows L).view.read (Elt F) fI)) f _ (fun x => ?_) hf.2⟩
    · exact pack_lt _ (idxRows_le (F := F) d L fI hI _)
    · exact pack_trip_val (F := F) k ((idxRows L).view.read (Elt F) fI) x
  · unfold tileInv1V
    isplitl [Hb0']; · iexact Hb0'
    iexists _
    isplitl [Hb1']; · iexact Hb1'
    ipureintro
    exact ⟨fun y hy => absurd hy (by omega), fun y hy => absurd hy (by omega)⟩
  iintro %_ HI
  unfold tileInv1V
  icases HI with ⟨Hraw, %fp, Hp, %hfpv⟩
  have hfp := hfpv.1
  have hPV := hfpv.2
  -- the packed table and the packed row numbers are read by four gathers at once: a read share per semaphore cell
  ihave HvT4 := ((Transfers.pointsTo_toks_split (Ix := HIx 1) (Name := ℕ) (U := UU) (Lvl := ℕ) q3 3).trans
    (show _ ⊢ iprop(((vTW).view.loc (V d (cV L) (jV L)) ↦{Transfers.shareDrop q3 3} fT)
        ∗ ((vTW).view.loc (V d (cV L) (jV L)) ↦{Transfers.shareTok q3 3 0} fT) ∗ ((vTW).view.loc (V d (cV L) (jV L)) ↦{Transfers.shareTok q3 3 1} fT)
        ∗ ((vTW).view.loc (V d (cV L) (jV L)) ↦{Transfers.shareTok q3 3 2} fT))
      from Entails.of_eq (by rw [bigSep_fin3']))) $$ HvT'
  icases HvT4 with ⟨HTr, HT0, HT1, HT2⟩
  ihave Hp4 := ((Transfers.pointsTo_toks_split (Ix := HIx 1) (Name := ℕ) (U := UU) (Lvl := ℕ) fullShare 3).trans
    (show _ ⊢ iprop(((sPW).view.loc (V d (cV L) (jV L)) ↦{Transfers.shareDrop fullShare 3} fp)
        ∗ ((sPW).view.loc (V d (cV L) (jV L)) ↦{Transfers.shareTok fullShare 3 0} fp) ∗ ((sPW).view.loc (V d (cV L) (jV L)) ↦{Transfers.shareTok fullShare 3 1} fp)
        ∗ ((sPW).view.loc (V d (cV L) (jV L)) ↦{Transfers.shareTok fullShare 3 2} fp))
      from Entails.of_eq (by rw [bigSep_fin3']))) $$ Hp
  icases Hp4 with ⟨HPr, HP0, HP1, HP2⟩
  sl_exec
  sl_for (tileInvOV (F := F) d L tileU2 0 q3 O W ((idxRows L).view.read (Elt F) fI) fp fT) $$ [Hlv Hraw Hb6' HO Hs0 HTr Hb2' HPr Hs1 HT0 Hb3' HP0 Hs2 HT1 Hb4' HP1 Hs3 HT2 Hb5' HP2]
  case region =>
    intro t _
    unfold tileInvOV tileCellV
    iintro ⟨#Hlv, Hraw, ⟨%g6, Hb6, %hst⟩, ⟨%W', %hW', HO⟩, ⟨%g0, %o0, %h0, Hs0, HTr, Hb2, HPr, %hc0⟩, ⟨%g1, %o1, %h1, Hs1, HT0, Hb3, HP0, %hc1⟩,
      ⟨%g2, %o2, %h2, Hs2, HT1, Hb4, HP1, %hc2⟩, ⟨%g3, %o3, %h3, Hs3, HT2, Hb5, HP2, %hc3⟩⟩
    ihave Hmw := ((K (F := F)).mayWaits_none (thr := (V d (cV L) (jV L))) hO) $$ Hlv
    have ht32 : t.val < 32 := lt_of_lt_of_eq t.isLt (by decide)
    have hr1 : BufRows ((Memref.whole cc2_scratch3 : Memref sig .scVector .vmem S100x128 .f32).view.read (Elt F) g1) fT
        ((idxRows L).view.read (Elt F) fI) (4 * t.val + 1) :=
      bufRows_of_rows_f d L _ ((idxRows L).view.read (Elt F) fI) fT fp o1 _ g1 _ (by decide) hPV (hc1.1.trans (by unfold tileU2; omega)) (by omega) hc1.2
    have hr2 : BufRows ((Memref.whole cc2_scratch4 : Memref sig .scVector .vmem S100x128 .f32).view.read (Elt F) g2) fT
        ((idxRows L).view.read (Elt F) fI) (4 * t.val + 2) :=
      bufRows_of_rows_f d L _ ((idxRows L).view.read (Elt F) fI) fT fp o2 _ g2 _ (by decide) hPV (hc2.1.trans (by unfold tileU2; omega)) (by omega) hc2.2
    have hr3 : BufRows ((Memref.whole cc2_scratch5 : Memref sig .scVector .vmem S100x128 .f32).view.read (Elt F) g3) fT
        ((idxRows L).view.read (Elt F) fI) (4 * t.val + 3) :=
      bufRows_of_rows_f d L _ ((idxRows L).view.read (Elt F) fI) fT fp o3 _ g3 _ (by decide) hPV (hc3.1.trans (by unfold tileU2; omega)) (by omega) hc3.2
    sl_exec
    sl_for (tileInvIP (F := F) d L sR0W ((idxRows L).view.read (Elt F) fI) g0
        (fun n (acc : TileAcc F) => TileBagAt (F := F) ((idxRows L).view.read (Elt F) fI) fT (2 * t.val + 0) 0 (16 * n) acc)) $$ [Hraw Hb2]
    case region =>
      intro k acc
      have hk6 : k.val < 6 := Nat.lt_of_lt_of_le k.isLt k2_t3_abs.2.1
      unfold tileInvIP
      iintro ⟨Hraw, Hb2, %hP⟩
      sl_exec (disch := chk_disch)
      sl_step
      isplitl [Hraw]; · iexact Hraw
      isplitl [Hb2]; · iexact Hb2
      ipureintro
      have ht32 : t.val < 32 := Nat.lt_of_lt_of_le t.isLt k2_t2_abs.2.1
      have hrows : BufRows g0 fT ((idxRows L).view.read (Elt F) fI) (2 * (2 * t.val + 0) + 0) :=
        bufRows_of ((sPW).view.read (Elt F) fp) (by omega) o0 (by rw [hc0.1]; unfold tileU2; omega) (fun j c => hc0.2 j c) _ (by decide) hPV
      have e40 : (k2_off4 t k) 0 = 2 * t.val := by rw [k2_off4_eq]; rfl
      have e41 : (k2_off4 t k) 1 = 16 * k.val := by rw [k2_off4_eq]; rfl
      have hb0 := (bagAt_iff_bufAcc (by decide : 0 < 2) hrows (by omega) acc).mp hP
      have hs0 : tile_body_work.sl.v768 d L fI t k = offW (tileWord ((idxRows L).view.read (Elt F) fI) (2 * (2 * t.val + 0) + 0) (16 * k.val + 0)) :=
        (pay2_lane (F := F) _ ⟨0, by decide⟩ _ _).trans (congrArg offW (idx_word_gen (F := F) (k2_off4 t k) (k2_off4_inb t k) ((idxRows L).view.read (Elt F) fI) (2 * (2 * t.val + 0) + 0) k.val ⟨0, by decide⟩ (by rw [e40]; omega) (by rw [e41]; show 16 * k.val + 0 = (112 * ((2 * (2 * t.val + 0) + 0) % 2) + (16 * k.val + 0)) % 224; omega)))
      have hs1 : tile_body_work.sl.v794 d L fI t k = offW (tileWord ((idxRows L).view.read (Elt F) fI) (2 * (2 * t.val + 0) + 0) (16 * k.val + 1)) :=
        (pay2_lane (F := F) _ ⟨1, by decide⟩ _ _).trans (congrArg offW (idx_word_gen (F := F) (k2_off4 t k) (k2_off4_inb t k) ((idxRows L).view.read (Elt F) fI) (2 * (2 * t.val + 0) + 0) k.val ⟨1, by decide⟩ (by rw [e40]; omega) (by rw [e41]; show 16 * k.val + 1 = (112 * ((2 * (2 * t.val + 0) + 0) % 2) + (16 * k.val + 1)) % 224; omega)))
      have hs2 : tile_body_work.sl.v820 d L fI t k = offW (tileWord ((idxRows L).view.read (Elt F) fI) (2 * (2 * t.val + 0) + 0) (16 * k.val + 2)) :=
        (pay2_lane (F := F) _ ⟨2, by decide⟩ _ _).trans (congrArg offW (idx_word_gen (F := F) (k2_off4 t k) (k2_off4_inb t k) ((idxRows L).view.read (Elt F) fI) (2 * (2 * t.val + 0) + 0) k.val ⟨2, by decide⟩ (by rw [e40]; omega) (by rw [e41]; show 16 * k.val + 2 = (112 * ((2 * (2 * t.val + 0) + 0) % 2) + (16 * k.val + 2)) % 224; omega)))
      have hs3 : tile_body_work.sl.v846 d L fI t k = offW (tileWord ((idxRows L).view.read (Elt F) fI) (2 * (2 * t.val + 0) + 0) (16 * k.val + 3)) :=
        (pay2_lane (F := F) _ ⟨3, by decide⟩ _ _).trans (congrArg offW (idx_word_gen (F := F) (k2_off4 t k) (k2_off4_inb t k) ((idxRows L).view.read (Elt F) fI) (2 * (2 * t.val + 0) + 0) k.val ⟨3, by decide⟩ (by rw [e40]; omega) (by rw [e41]; show 16 * k.val + 3 = (112 * ((2 * (2 * t.val + 0) + 0) % 2) + (16 * k.val + 3)) % 224; omega)))
      have hs4 : tile_body_work.sl.v872 d L fI t k = offW (tileWord ((idxRows L).view.read (Elt F) fI) (2 * (2 * t.val + 0) + 0) (16 * k.val + 4)) :=
        (pay2_lane (F := F) _ ⟨4, by decide⟩ _ _).trans (congrArg offW (idx_word_gen (F := F) (k2_off4 t k) (k2_off4_inb t k) ((idxRows L).view.read (Elt F) fI) (2 * (2 * t.val + 0) + 0) k.val ⟨4, by decide⟩ (by rw [e40]; omega) (by rw [e41]; show 16 * k.val + 4 = (112 * ((2 * (2 * t.val + 0) + 0) % 2) + (16 * k.val + 4)) % 224; omega)))
      have hs5 : tile_body_work.sl.v898 d L fI t k = offW (tileWord ((idxRows L).view.read (Elt F) fI) (2 * (2 * t.val + 0) + 0) (16 * k.val + 5)) :=
        (pay2_lane (F := F) _ ⟨5, by decide⟩ _ _).trans (congrArg offW (idx_word_gen (F := F) (k2_off4 t k) (k2_off4_inb t k) ((idxRows L).view.read (Elt F) fI) (2 * (2 * t.val + 0) + 0) k.val ⟨5, by decide⟩ (by rw [e40]; omega) (by rw [e41]; show 16 * k.val + 5 = (112 * ((2 * (2 * t.val + 0) + 0) % 2) + (16 * k.val + 5)) % 224; omega)))
      have hs6 : tile_body_work.sl.v924 d L fI t k = offW (tileWord ((idxRows L).view.read (Elt F) fI) (2 * (2 * t.val + 0) + 0) (16 * k.val + 6)) :=
        (pay2_lane (F := F) _ ⟨6, by decide⟩ _ _).trans (congrArg offW (idx_word_gen (F := F) (k2_off4 t k) (k2_off4_inb t k) ((idxRows L).view.read (Elt F) fI) (2 * (2 * t.val + 0) + 0) k.val ⟨6, by decide⟩ (by rw [e40]; omega) (by rw [e41]; show 16 * k.val + 6 = (112 * ((2 * (2 * t.val + 0) + 0) % 2) + (16 * k.val + 6)) % 224; omega)))
      have hs7 : tile_body_work.sl.v950 d L fI t k = offW (tileWord ((idxRows L).view.read (Elt F) fI) (2 * (2 * t.val + 0) + 0) (16 * k.val + 7)) :=
        (pay2_lane (F := F) _ ⟨7, by decide⟩ _ _).trans (congrArg offW (idx_word_gen (F := F) (k2_off4 t k) (k2_off4_inb t k) ((idxRows L).view.read (Elt F) fI) (2 * (2 * t.val + 0) + 0) k.val ⟨7, by decide⟩ (by rw [e40]; omega) (by rw [e41]; show 16 * k.val + 7 = (112 * ((2 * (2 * t.val + 0) + 0) % 2) + (16 * k.val + 7)) % 224; omega)))
      have hs8 : tile_body_work.sl.v976 d L fI t k = offW (tileWord ((idxRows L).view.read (Elt F) fI) (2 * (2 * t.val + 0) + 0) (16 * k.val + 8)) :=
        (pay2_lane (F := F) _ ⟨8, by decide⟩ _ _).trans (congrArg offW (idx_word_gen (F := F) (k2_off4 t k) (k2_off4_inb t k) ((idxRows L).view.read (Elt F) fI) (2 * (2 * t.val + 0) + 0) k.val ⟨8, by decide⟩ (by rw [e40]; omega) (by rw [e41]; show 16 * k.val + 8 = (112 * ((2 * (2 * t.val + 0) + 0) % 2) + (16 * k.val + 8)) % 224; omega)))
      have hs9 : tile_body_work.sl.v1002 d L fI t k = offW (tileWord ((idxRows L).view.read (Elt F) fI) (2 * (2 * t.val + 0) + 0) (16 * k.val + 9)) :=
        (pay2_lane (F := F) _ ⟨9, by decide⟩ _ _).trans (congrArg offW (idx_word_gen (F := F) (k2_off4 t k) (k2_off4_inb t k) ((idxRows L).view.read (Elt F) fI) (2 * (2 * t.val + 0) + 0) k.val ⟨9, by decide⟩ (by rw [e40]; omega) (by rw [e41]; show 16 * k.val + 9 = (112 * ((2 * (2 * t.val + 0) + 0) % 2) + (16 * k.val + 9)) % 224; omega)))
      have hs10 : tile_body_work.sl.v1028 d L fI t k = offW (tileWord ((idxRows L).view.read (Elt F) fI) (2 * (2 * t.val + 0) + 0) (16 * k.val + 10)) :=
        (pay2_lane (F := F) _ ⟨10, by decide⟩ _ _).trans (congrArg offW (idx_word_gen (F := F) (k2_off4 t k) (k2_off4_inb t k) ((idxRows L).view.read (Elt F) fI) (2 * (2 * t.val + 0) + 0) k.val ⟨10, by decide⟩ (by rw [e40]; omega) (by rw [e41]; show 16 * k.val + 10 = (112 * ((2 * (2 * t.val + 0) + 0) % 2) + (16 * k.val + 10)) % 224; omega)))
      have hs11 : tile_body_work.sl.v1054 d L fI t k = offW (tileWord ((idxRows L).view.read (Elt F) fI) (2 * (2 * t.val + 0) + 0) (16 * k.val + 11)) :=
        (pay2_lane (F := F) _ ⟨11, by decide⟩ _ _).trans (congrArg offW (idx_word_gen (F := F) (k2_off4 t k) (k2_off4_inb t k) ((idxRows L).view.read (Elt F) fI) (2 * (2 * t.val + 0) + 0) k.val ⟨11, by decide⟩ (by rw [e40]; omega) (by rw [e41]; show 16 * k.val + 11 = (112 * ((2 * (2 * t.val + 0) + 0) % 2) + (16 * k.val + 11)) % 224; omega)))
      have hs12 : tile_body_work.sl.v1080 d L fI t k = offW (tileWord ((idxRows L).view.read (Elt F) fI) (2 * (2 * t.val + 0) + 0) (16 * k.val + 12)) :=
        (pay2_lane (F := F) _ ⟨12, by decide⟩ _ _).trans (congrArg offW (idx_word_gen (F := F) (k2_off4 t k) (k2_off4_inb t k) ((idxRows L).view.read (Elt F) fI) (2 * (2 * t.val + 0) + 0) k.val ⟨12, by decide⟩ (by rw [e40]; omega) (by rw [e41]; show 16 * k.val + 12 = (112 * ((2 * (2 * t.val + 0) + 0) % 2) + (16 * k.val + 12)) % 224; omega)))
      have hs13 : tile_body_work.sl.v1106 d L fI t k = offW (tileWord ((idxRows L).view.read (Elt F) fI) (2 * (2 * t.val + 0) + 0) (16 * k.val + 13)) :=
        (pay2_lane (F := F) _ ⟨13, by decide⟩ _ _).trans (congrArg offW (idx_word_gen (F := F) (k2_off4 t k) (k2_off4_inb t k) ((idxRows L).view.read (Elt F) fI) (2 * (2 * t.val + 0) + 0) k.val ⟨13, by decide⟩ (by rw [e40]; omega) (by rw [e41]; show 16 * k.val + 13 = (112 * ((2 * (2 * t.val + 0) + 0) % 2) + (16 * k.val + 13)) % 224; omega)))
      have hs14 : tile_body_work.sl.v1132 d L fI t k = offW (tileWord ((idxRows L).view.read (Elt F) fI) (2 * (2 * t.val + 0) + 0) (16 * k.val + 14)) :=
        (pay2_lane (F := F) _ ⟨14, by decide⟩ _ _).trans (congrArg offW (idx_word_gen (F := F) (k2_off4 t k) (k2_off4_inb t k) ((idxRows L).view.read (Elt F) fI) (2 * (2 * t.val + 0) + 0) k.val ⟨14, by decide⟩ (by rw [e40]; omega) (by rw [e41]; show 16 * k.val + 14 = (112 * ((2 * (2 * t.val + 0) + 0) % 2) + (16 * k.val + 14)) % 224; omega)))
      have hs15 : tile_body_work.sl.v1158 d L fI t k = offW (tileWord ((idxRows L).view.read (Elt F) fI) (2 * (2 * t.val + 0) + 0) (16 * k.val + 15)) :=
        (pay2_lane (F := F) _ ⟨15, by decide⟩ _ _).trans (congrArg offW (idx_word_gen (F := F) (k2_off4 t k) (k2_off4_inb t k) ((idxRows L).view.read (Elt F) fI) (2 * (2 * t.val + 0) + 0) k.val ⟨15, by decide⟩ (by rw [e40]; omega) (by rw [e41]; show 16 * k.val + 15 = (112 * ((2 * (2 * t.val + 0) + 0) % 2) + (16 * k.val + 15)) % 224; omega)))
      have hb1 : BufAccAt (bufTerm g0 (tileWord ((idxRows L).view.read (Elt F) fI) (2 * (2 * t.val + 0) + 0))) (16 * k.val + (0 + 1)) (bagInit ((idxRows L).view.read (Elt F) fI) fT (2 * t.val + 0) 0) (tile_body_work.sl.v773 d L fI t g0 k acc hk6, tile_body_work.sl.v779 d L fI t g0 k acc hk6, tile_body_work.sl.v785 d L fI t g0 k acc hk6, tile_body_work.sl.v791 d L fI t g0 k acc hk6) :=
        hb0.row_k hk6 (by decide : 0 < 16) _ hs0 _ _ _ _ _ _ _ _ rfl rfl rfl rfl
      have hb2 : BufAccAt (bufTerm g0 (tileWord ((idxRows L).view.read (Elt F) fI) (2 * (2 * t.val + 0) + 0))) (16 * k.val + (1 + 1)) (bagInit ((idxRows L).view.read (Elt F) fI) fT (2 * t.val + 0) 0) (tile_body_work.sl.v799 d L fI t g0 k acc hk6, tile_body_work.sl.v805 d L fI t g0 k acc hk6, tile_body_work.sl.v811 d L fI t g0 k acc hk6, tile_body_work.sl.v817 d L fI t g0 k acc hk6) :=
        hb1.row_k hk6 (by decide : 1 < 16) _ hs1 _ _ _ _ _ _ _ _ rfl rfl rfl rfl
      have hb3 : BufAccAt (bufTerm g0 (tileWord ((idxRows L).view.read (Elt F) fI) (2 * (2 * t.val + 0) + 0))) (16 * k.val + (2 + 1)) (bagInit ((idxRows L).view.read (Elt F) fI) fT (2 * t.val + 0) 0) (tile_body_work.sl.v825 d L fI t g0 k acc hk6, tile_body_work.sl.v831 d L fI t g0 k acc hk6, tile_body_work.sl.v837 d L fI t g0 k acc hk6, tile_body_work.sl.v843 d L fI t g0 k acc hk6) :=
        hb2.row_k hk6 (by decide : 2 < 16) _ hs2 _ _ _ _ _ _ _ _ rfl rfl rfl rfl
      have hb4 : BufAccAt (bufTerm g0 (tileWord ((idxRows L).view.read (Elt F) fI) (2 * (2 * t.val + 0) + 0))) (16 * k.val + (3 + 1)) (bagInit ((idxRows L).view.read (Elt F) fI) fT (2 * t.val + 0) 0) (tile_body_work.sl.v851 d L fI t g0 k acc hk6, tile_body_work.sl.v857 d L fI t g0 k acc hk6, tile_body_work.sl.v863 d L fI t g0 k acc hk6, tile_body_work.sl.v869 d L fI t g0 k acc hk6) :=
        hb3.row_k hk6 (by decide : 3 < 16) _ hs3 _ _ _ _ _ _ _ _ rfl rfl rfl rfl
      have hb5 : BufAccAt (bufTerm g0 (tileWord ((idxRows L).view.read (Elt F) fI) (2 * (2 * t.val + 0) + 0))) (16 * k.val + (4 + 1)) (bagInit ((idxRows L).view.read (Elt F) fI) fT (2 * t.val + 0) 0) (tile_body_work.sl.v877 d L fI t g0 k acc hk6, tile_body_work.sl.v883 d L fI t g0 k acc hk6, tile_body_work.sl.v889 d L fI t g0 k acc hk6, tile_body_work.sl.v895 d L fI t g0 k acc hk6) :=
        hb4.row_k hk6 (by decide : 4 < 16) _ hs4 _ _ _ _ _ _ _ _ rfl rfl rfl rfl
      have hb6 : BufAccAt (bufTerm g0 (tileWord ((idxRows L).view.read (Elt F) fI) (2 * (2 * t.val + 0) + 0))) (16 * k.val + (5 + 1)) (bagInit ((idxRows L).view.read (Elt F) fI) fT (2 * t.val + 0) 0) (tile_body_work.sl.v903 d L fI t g0 k acc hk6, tile_body_work.sl.v909 d L fI t g0 k acc hk6, tile_body_work.sl.v915 d L fI t g0 k acc hk6, tile_body_work.sl.v921 d L fI t g0 k acc hk6) :=
        hb5.row_k hk6 (by decide : 5 < 16) _ hs5 _ _ _ _ _ _ _ _ rfl rfl rfl rfl
      have hb7 : BufAccAt (bufTerm g0 (tileWord ((idxRows L).view.read (Elt F) fI) (2 * (2 * t.val + 0) + 0))) (16 * k.val + (6 + 1)) (bagInit ((idxRows L).view.read (Elt F) fI) fT (2 * t.val + 0) 0) (tile_body_work.sl.v929 d L fI t g0 k acc hk6, tile_body_work.sl.v935 d L fI t g0 k acc hk6, tile_body_work.sl.v941 d L fI t g0 k acc hk6, tile_body_work.sl.v947 d L fI t g0 k acc hk6) :=
        hb6.row_k hk6 (by decide : 6 < 16) _ hs6 _ _ _ _ _ _ _ _ rfl rfl rfl rfl
      have hb8 : BufAccAt (bufTerm g0 (tileWord ((idxRows L).view.read (Elt F) fI) (2 * (2 * t.val + 0) + 0))) (16 * k.val + (7 + 1)) (bagInit ((idxRows L).view.read (Elt F) fI) fT (2 * t.val + 0) 0) (tile_body_work.sl.v955 d L fI t g0 k acc hk6, tile_body_work.sl.v961 d L fI t g0 k acc hk6, tile_body_work.sl.v967 d L fI t g0 k acc hk6, tile_body_work.sl.v973 d L fI t g0 k acc hk6) :=
        hb7.row_k hk6 (by decide : 7 < 16) _ hs7 _ _ _ _ _ _ _ _ rfl rfl rfl rfl
      have hb9 : BufAccAt (bufTerm g0 (tileWord ((idxRows L).view.read (Elt F) fI) (2 * (2 * t.val + 0) + 0))) (16 * k.val + (8 + 1)) (bagInit ((idxRows L).view.read (Elt F) fI) fT (2 * t.val + 0) 0) (tile_body_work.sl.v981 d L fI t g0 k acc hk6, tile_body_work.sl.v987 d L fI t g0 k acc hk6, tile_body_work.sl.v993 d L fI t g0 k acc hk6, tile_body_work.sl.v999 d L fI t g0 k acc hk6) :=
        hb8.row_k hk6 (by decide : 8 < 16) _ hs8 _ _ _ _ _ _ _ _ rfl rfl rfl rfl
      have hb10 : BufAccAt (bufTerm g0 (tileWord ((idxRows L).view.read (Elt F) fI) (2 * (2 * t.val + 0) + 0))) (16 * k.val + (9 + 1)) (bagInit ((idxRows L).view.read (Elt F) fI) fT (2 * t.val + 0) 0) (tile_body_work.sl.v1007 d L fI t g0 k acc hk6, tile_body_work.sl.v1013 d L fI t g0 k acc hk6, tile_body_work.sl.v1019 d L fI t g0 k acc hk6, tile_body_work.sl.v1025 d L fI t g0 k acc hk6) :=
        hb9.row_k hk6 (by decide : 9 < 16) _ hs9 _ _ _ _ _ _ _ _ rfl rfl rfl rfl
      have hb11 : BufAccAt (bufTerm g0 (tileWord ((idxRows L).view.read (Elt F) fI) (2 * (2 * t.val + 0) + 0))) (16 * k.val + (10 + 1)) (bagInit ((idxRows L).view.read (Elt F) fI) fT (2 * t.val + 0) 0) (tile_body_work.sl.v1033 d L fI t g0 k acc hk6, tile_body_work.sl.v1039 d L fI t g0 k acc hk6, tile_body_work.sl.v1045 d L fI t g0 k acc hk6, tile_body_work.sl.v1051 d L fI t g0 k acc hk6) :=
        hb10.row_k hk6 (by decide : 10 < 16) _ hs10 _ _ _ _ _ _ _ _ rfl rfl rfl rfl
      have hb12 : BufAccAt (bufTerm g0 (tileWord ((idxRows L).view.read (Elt F) fI) (2 * (2 * t.val + 0) + 0))) (16 * k.val + (11 + 1)) (bagInit ((idxRows L).view.read (Elt F) fI) fT (2 * t.val + 0) 0) (tile_body_work.sl.v1059 d L fI t g0 k acc hk6, tile_body_work.sl.v1065 d L fI t g0 k acc hk6, tile_body_work.sl.v1071 d L fI t g0 k acc hk6, tile_body_work.sl.v1077 d L fI t g0 k acc hk6) :=
        hb11.row_k hk6 (by decide : 11 < 16) _ hs11 _ _ _ _ _ _ _ _ rfl rfl rfl rfl
      have hb13 : BufAccAt (bufTerm g0 (tileWord ((idxRows L).view.read (Elt F) fI) (2 * (2 * t.val + 0) + 0))) (16 * k.val + (12 + 1)) (bagInit ((idxRows L).view.read (Elt F) fI) fT (2 * t.val + 0) 0) (tile_body_work.sl.v1085 d L fI t g0 k acc hk6, tile_body_work.sl.v1091 d L fI t g0 k acc hk6, tile_body_work.sl.v1097 d L fI t g0 k acc hk6, tile_body_work.sl.v1103 d L fI t g0 k acc hk6) :=
        hb12.row_k hk6 (by decide : 12 < 16) _ hs12 _ _ _ _ _ _ _ _ rfl rfl rfl rfl
      have hb14 : BufAccAt (bufTerm g0 (tileWord ((idxRows L).view.read (Elt F) fI) (2 * (2 * t.val + 0) + 0))) (16 * k.val + (13 + 1)) (bagInit ((idxRows L).view.read (Elt F) fI) fT (2 * t.val + 0) 0) (tile_body_work.sl.v1111 d L fI t g0 k acc hk6, tile_body_work.sl.v1117 d L fI t g0 k acc hk6, tile_body_work.sl.v1123 d L fI t g0 k acc hk6, tile_body_work.sl.v1129 d L fI t g0 k acc hk6) :=
        hb13.row_k hk6 (by decide : 13 < 16) _ hs13 _ _ _ _ _ _ _ _ rfl rfl rfl rfl
      have hb15 : BufAccAt (bufTerm g0 (tileWord ((idxRows L).view.read (Elt F) fI) (2 * (2 * t.val + 0) + 0))) (16 * k.val + (14 + 1)) (bagInit ((idxRows L).view.read (Elt F) fI) fT (2 * t.val + 0) 0) (tile_body_work.sl.v1137 d L fI t g0 k acc hk6, tile_body_work.sl.v1143 d L fI t g0 k acc hk6, tile_body_work.sl.v1149 d L fI t g0 k acc hk6, tile_body_work.sl.v1155 d L fI t g0 k acc hk6) :=
        hb14.row_k hk6 (by decide : 14 < 16) _ hs14 _ _ _ _ _ _ _ _ rfl rfl rfl rfl
      have hb16 : BufAccAt (bufTerm g0 (tileWord ((idxRows L).view.read (Elt F) fI) (2 * (2 * t.val + 0) + 0))) (16 * k.val + (15 + 1)) (bagInit ((idxRows L).view.read (Elt F) fI) fT (2 * t.val + 0) 0) (tile_body_work.sl.v1163 d L fI t g0 k acc hk6, tile_body_work.sl.v1169 d L fI t g0 k acc hk6, tile_body_work.sl.v1175 d L fI t g0 k acc hk6, tile_body_work.sl.v1181 d L fI t g0 k acc hk6) :=
        hb15.row_k hk6 (by decide : 15 < 16) _ hs15 _ _ _ _ _ _ _ _ rfl rfl rfl rfl
      exact (bagAt_iff_bufAcc (by decide : 0 < 2) hrows (by omega) _).mpr ((show 16 * (k.val + 1) = 16 * k.val + (15 + 1) by omega) ▸ hb16)
    · unfold tileInvIP
      isplitl [Hraw]; · iexact Hraw
      isplitl [Hb2]; · iexact Hb2
      ipureintro
      exact fun q l => by fin_cases q <;> rfl
    iintro %acc0 HI
    unfold tileInvIP
    icases HI with ⟨Hraw, Hb2, %hacc0⟩
    sl_exec (disch := chk_disch)
    sl_for (tileInvIP (F := F) d L sR1W ((idxRows L).view.read (Elt F) fI) g1
        (fun n (acc : TileAcc F) => TileBagAt (F := F) ((idxRows L).view.read (Elt F) fI) fT (2 * t.val + 0) 1 (16 * n) acc)) $$ [Hraw Hb3]
    case region =>
      intro k acc
      have hk6 : k.val < 6 := Nat.lt_of_lt_of_le k.isLt k2_t4_abs.2.1
      unfold tileInvIP
      iintro ⟨Hraw, Hb3, %hP⟩
      sl_exec (disch := chk_disch)
      sl_step
      isplitl [Hraw]; · iexact Hraw
      isplitl [Hb3]; · iexact Hb3
      ipureintro
      have ht32 : t.val < 32 := Nat.lt_of_lt_of_le t.isLt k2_t2_abs.2.1
      have hrows : BufRows g1 fT ((idxRows L).view.read (Elt F) fI) (2 * (2 * t.val + 0) + 1) :=
        bufRows_of ((sPW).view.read (Elt F) fp) (by omega) o1 (by rw [hc1.1]; unfold tileU2; omega) (fun j c => hc1.2 j c) _ (by decide) hPV
      have e40 : (k2_off47 t k) 0 = 2 * t.val := by rw [k2_off47_eq]; rfl
      have e41 : (k2_off47 t k) 1 = 112 + 16 * k.val := by rw [k2_off47_eq]; rfl
      have hb0 := (bagAt_iff_bufAcc (by decide : 1 < 2) hrows (by omega) acc).mp hP
      have hs0 : tile_body_work.sl.v768_1 d L fI t k = offW (tileWord ((idxRows L).view.read (Elt F) fI) (2 * (2 * t.val + 0) + 1) (16 * k.val + 0)) :=
        (pay2_lane (F := F) _ ⟨0, by decide⟩ _ _).trans (congrArg offW (idx_word_gen (F := F) (k2_off47 t k) (k2_off47_inb t k) ((idxRows L).view.read (Elt F) fI) (2 * (2 * t.val + 0) + 1) k.val ⟨0, by decide⟩ (by rw [e40]; omega) (by rw [e41]; show 112 + 16 * k.val + 0 = (112 * ((2 * (2 * t.val + 0) + 1) % 2) + (16 * k.val + 0)) % 224; omega)))
      have hs1 : tile_body_work.sl.v794_1 d L fI t k = offW (tileWord ((idxRows L).view.read (Elt F) fI) (2 * (2 * t.val + 0) + 1) (16 * k.val + 1)) :=
        (pay2_lane (F := F) _ ⟨1, by decide⟩ _ _).trans (congrArg offW (idx_word_gen (F := F) (k2_off47 t k) (k2_off47_inb t k) ((idxRows L).view.read (Elt F) fI) (2 * (2 * t.val + 0) + 1) k.val ⟨1, by decide⟩ (by rw [e40]; omega) (by rw [e41]; show 112 + 16 * k.val + 1 = (112 * ((2 * (2 * t.val + 0) + 1) % 2) + (16 * k.val + 1)) % 224; omega)))
      have hs2 : tile_body_work.sl.v820_1 d L fI t k = offW (tileWord ((idxRows L).view.read (Elt F) fI) (2 * (2 * t.val + 0) + 1) (16 * k.val + 2)) :=
        (pay2_lane (F := F) _ ⟨2, by decide⟩ _ _).trans (congrArg offW (idx_word_gen (F := F) (k2_off47 t k) (k2_off47_inb t k) ((idxRows L).view.read (Elt F) fI) (2 * (2 * t.val + 0) + 1) k.val ⟨2, by decide⟩ (by rw [e40]; omega) (by rw [e41]; show 112 + 16 * k.val + 2 = (112 * ((2 * (2 * t.val + 0) + 1) % 2) + (16 * k.val + 2)) % 224; omega)))
      have hs3 : tile_body_work.sl.v846_1 d L fI t k = offW (tileWord ((idxRows L).view.read (Elt F) fI) (2 * (2 * t.val + 0) + 1) (16 * k.val + 3)) :=
        (pay2_lane (F := F) _ ⟨3, by decide⟩ _ _).trans (congrArg offW (idx_word_gen (F := F) (k2_off47 t k) (k2_off47_inb t k) ((idxRows L).view.read (Elt F) fI) (2 * (2 * t.val + 0) + 1) k.val ⟨3, by decide⟩ (by rw [e40]; omega) (by rw [e41]; show 112 + 16 * k.val + 3 = (112 * ((2 * (2 * t.val + 0) + 1) % 2) + (16 * k.val + 3)) % 224; omega)))
      have hs4 : tile_body_work.sl.v872_1 d L fI t k = offW (tileWord ((idxRows L).view.read (Elt F) fI) (2 * (2 * t.val + 0) + 1) (16 * k.val + 4)) :=
        (pay2_lane (F := F) _ ⟨4, by decide⟩ _ _).trans (congrArg offW (idx_word_gen (F := F) (k2_off47 t k) (k2_off47_inb t k) ((idxRows L).view.read (Elt F) fI) (2 * (2 * t.val + 0) + 1) k.val ⟨4, by decide⟩ (by rw [e40]; omega) (by rw [e41]; show 112 + 16 * k.val + 4 = (112 * ((2 * (2 * t.val + 0) + 1) % 2) + (16 * k.val + 4)) % 224; omega)))
      have hs5 : tile_body_work.sl.v898_1 d L fI t k = offW (tileWord ((idxRows L).view.read (Elt F) fI) (2 * (2 * t.val + 0) + 1) (16 * k.val + 5)) :=
        (pay2_lane (F := F) _ ⟨5, by decide⟩ _ _).trans (congrArg offW (idx_word_gen (F := F) (k2_off47 t k) (k2_off47_inb t k) ((idxRows L).view.read (Elt F) fI) (2 * (2 * t.val + 0) + 1) k.val ⟨5, by decide⟩ (by rw [e40]; omega) (by rw [e41]; show 112 + 16 * k.val + 5 = (112 * ((2 * (2 * t.val + 0) + 1) % 2) + (16 * k.val + 5)) % 224; omega)))
      have hs6 : tile_body_work.sl.v924_1 d L fI t k = offW (tileWord ((idxRows L).view.read (Elt F) fI) (2 * (2 * t.val + 0) + 1) (16 * k.val + 6)) :=
        (pay2_lane (F := F) _ ⟨6, by decide⟩ _ _).trans (congrArg offW (idx_word_gen (F := F) (k2_off47 t k) (k2_off47_inb t k) ((idxRows L).view.read (Elt F) fI) (2 * (2 * t.val + 0) + 1) k.val ⟨6, by decide⟩ (by rw [e40]; omega) (by rw [e41]; show 112 + 16 * k.val + 6 = (112 * ((2 * (2 * t.val + 0) + 1) % 2) + (16 * k.val + 6)) % 224; omega)))
      have hs7 : tile_body_work.sl.v950_1 d L fI t k = offW (tileWord ((idxRows L).view.read (Elt F) fI) (2 * (2 * t.val + 0) + 1) (16 * k.val + 7)) :=
        (pay2_lane (F := F) _ ⟨7, by decide⟩ _ _).trans (congrArg offW (idx_word_gen (F := F) (k2_off47 t k) (k2_off47_inb t k) ((idxRows L).view.read (Elt F) fI) (2 * (2 * t.val + 0) + 1) k.val ⟨7, by decide⟩ (by rw [e40]; omega) (by rw [e41]; show 112 + 16 * k.val + 7 = (112 * ((2 * (2 * t.val + 0) + 1) % 2) + (16 * k.val + 7)) % 224; omega)))
      have hs8 : tile_body_work.sl.v976_1 d L fI t k = offW (tileWord ((idxRows L).view.read (Elt F) fI) (2 * (2 * t.val + 0) + 1) (16 * k.val + 8)) :=
        (pay2_lane (F := F) _ ⟨8, by decide⟩ _ _).trans (congrArg offW (idx_word_gen (F := F) (k2_off47 t k) (k2_off47_inb t k) ((idxRows L).view.read (Elt F) fI) (2 * (2 * t.val + 0) + 1) k.val ⟨8, by decide⟩ (by rw [e40]; omega) (by rw [e41]; show 112 + 16 * k.val + 8 = (112 * ((2 * (2 * t.val + 0) + 1) % 2) + (16 * k.val + 8)) % 224; omega)))
      have hs9 : tile_body_work.sl.v1002_1 d L fI t k = offW (tileWord ((idxRows L).view.read (Elt F) fI) (2 * (2 * t.val + 0) + 1) (16 * k.val + 9)) :=
        (pay2_lane (F := F) _ ⟨9, by decide⟩ _ _).trans (congrArg offW (idx_word_gen (F := F) (k2_off47 t k) (k2_off47_inb t k) ((idxRows L).view.read (Elt F) fI) (2 * (2 * t.val + 0) + 1) k.val ⟨9, by decide⟩ (by rw [e40]; omega) (by rw [e41]; show 112 + 16 * k.val + 9 = (112 * ((2 * (2 * t.val + 0) + 1) % 2) + (16 * k.val + 9)) % 224; omega)))
      have hs10 : tile_body_work.sl.v1028_1 d L fI t k = offW (tileWord ((idxRows L).view.read (Elt F) fI) (2 * (2 * t.val + 0) + 1) (16 * k.val + 10)) :=
        (pay2_lane (F := F) _ ⟨10, by decide⟩ _ _).trans (congrArg offW (idx_word_gen (F := F) (k2_off47 t k) (k2_off47_inb t k) ((idxRows L).view.read (Elt F) fI) (2 * (2 * t.val + 0) + 1) k.val ⟨10, by decide⟩ (by rw [e40]; omega) (by rw [e41]; show 112 + 16 * k.val + 10 = (112 * ((2 * (2 * t.val + 0) + 1) % 2) + (16 * k.val + 10)) % 224; omega)))
      have hs11 : tile_body_work.sl.v1054_1 d L fI t k = offW (tileWord ((idxRows L).view.read (Elt F) fI) (2 * (2 * t.val + 0) + 1) (16 * k.val + 11)) :=
        (pay2_lane (F := F) _ ⟨11, by decide⟩ _ _).trans (congrArg offW (idx_word_gen (F := F) (k2_off47 t k) (k2_off47_inb t k) ((idxRows L).view.read (Elt F) fI) (2 * (2 * t.val + 0) + 1) k.val ⟨11, by decide⟩ (by rw [e40]; omega) (by rw [e41]; show 112 + 16 * k.val + 11 = (112 * ((2 * (2 * t.val + 0) + 1) % 2) + (16 * k.val + 11)) % 224; omega)))
      have hs12 : tile_body_work.sl.v1080_1 d L fI t k = offW (tileWord ((idxRows L).view.read (Elt F) fI) (2 * (2 * t.val + 0) + 1) (16 * k.val + 12)) :=
        (pay2_lane (F := F) _ ⟨12, by decide⟩ _ _).trans (congrArg offW (idx_word_gen (F := F) (k2_off47 t k) (k2_off47_inb t k) ((idxRows L).view.read (Elt F) fI) (2 * (2 * t.val + 0) + 1) k.val ⟨12, by decide⟩ (by rw [e40]; omega) (by rw [e41]; show 112 + 16 * k.val + 12 = (112 * ((2 * (2 * t.val + 0) + 1) % 2) + (16 * k.val + 12)) % 224; omega)))
      have hs13 : tile_body_work.sl.v1106_1 d L fI t k = offW (tileWord ((idxRows L).view.read (Elt F) fI) (2 * (2 * t.val + 0) + 1) (16 * k.val + 13)) :=
        (pay2_lane (F := F) _ ⟨13, by decide⟩ _ _).trans (congrArg offW (idx_word_gen (F := F) (k2_off47 t k) (k2_off47_inb t k) ((idxRows L).view.read (Elt F) fI) (2 * (2 * t.val + 0) + 1) k.val ⟨13, by decide⟩ (by rw [e40]; omega) (by rw [e41]; show 112 + 16 * k.val + 13 = (112 * ((2 * (2 * t.val + 0) + 1) % 2) + (16 * k.val + 13)) % 224; omega)))
      have hs14 : tile_body_work.sl.v1132_1 d L fI t k = offW (tileWord ((idxRows L).view.read (Elt F) fI) (2 * (2 * t.val + 0) + 1) (16 * k.val + 14)) :=
        (pay2_lane (F := F) _ ⟨14, by decide⟩ _ _).trans (congrArg offW (idx_word_gen (F := F) (k2_off47 t k) (k2_off47_inb t k) ((idxRows L).view.read (Elt F) fI) (2 * (2 * t.val + 0) + 1) k.val ⟨14, by decide⟩ (by rw [e40]; omega) (by rw [e41]; show 112 + 16 * k.val + 14 = (112 * ((2 * (2 * t.val + 0) + 1) % 2) + (16 * k.val + 14)) % 224; omega)))
      have hs15 : tile_body_work.sl.v1158_1 d L fI t k = offW (tileWord ((idxRows L).view.read (Elt F) fI) (2 * (2 * t.val + 0) + 1) (16 * k.val + 15)) :=
        (pay2_lane (F := F) _ ⟨15, by decide⟩ _ _).trans (congrArg offW (idx_word_gen (F := F) (k2_off47 t k) (k2_off47_inb t k) ((idxRows L).view.read (Elt F) fI) (2 * (2 * t.val + 0) + 1) k.val ⟨15, by decide⟩ (by rw [e40]; omega) (by rw [e41]; show 112 + 16 * k.val + 15 = (112 * ((2 * (2 * t.val + 0) + 1) % 2) + (16 * k.val + 15)) % 224; omega)))
      have hb1 : BufAccAt (bufTerm g1 (tileWord ((idxRows L).view.read (Elt F) fI) (2 * (2 * t.val + 0) + 1))) (16 * k.val + (0 + 1)) (bagInit ((idxRows L).view.read (Elt F) fI) fT (2 * t.val + 0) 1) (tile_body_work.sl.v773_1 d L fI t g1 k acc hk6, tile_body_work.sl.v779_1 d L fI t g1 k acc hk6, tile_body_work.sl.v785_1 d L fI t g1 k acc hk6, tile_body_work.sl.v791_1 d L fI t g1 k acc hk6) :=
        hb0.row_k hk6 (by decide : 0 < 16) _ hs0 _ _ _ _ _ _ _ _ rfl rfl rfl rfl
      have hb2 : BufAccAt (bufTerm g1 (tileWord ((idxRows L).view.read (Elt F) fI) (2 * (2 * t.val + 0) + 1))) (16 * k.val + (1 + 1)) (bagInit ((idxRows L).view.read (Elt F) fI) fT (2 * t.val + 0) 1) (tile_body_work.sl.v799_1 d L fI t g1 k acc hk6, tile_body_work.sl.v805_1 d L fI t g1 k acc hk6, tile_body_work.sl.v811_1 d L fI t g1 k acc hk6, tile_body_work.sl.v817_1 d L fI t g1 k acc hk6) :=
        hb1.row_k hk6 (by decide : 1 < 16) _ hs1 _ _ _ _ _ _ _ _ rfl rfl rfl rfl
      have hb3 : BufAccAt (bufTerm g1 (tileWord ((idxRows L).view.read (Elt F) fI) (2 * (2 * t.val + 0) + 1))) (16 * k.val + (2 + 1)) (bagInit ((idxRows L).view.read (Elt F) fI) fT (2 * t.val + 0) 1) (tile_body_work.sl.v825_1 d L fI t g1 k acc hk6, tile_body_work.sl.v831_1 d L fI t g1 k acc hk6, tile_body_work.sl.v837_1 d L fI t g1 k acc hk6, tile_body_work.sl.v843_1 d L fI t g1 k acc hk6) :=
        hb2.row_k hk6 (by decide : 2 < 16) _ hs2 _ _ _ _ _ _ _ _ rfl rfl rfl rfl
      have hb4 : BufAccAt (bufTerm g1 (tileWord ((idxRows L).view.read (Elt F) fI) (2 * (2 * t.val + 0) + 1))) (16 * k.val + (3 + 1)) (bagInit ((idxRows L).view.read (Elt F) fI) fT (2 * t.val + 0) 1) (tile_body_work.sl.v851_1 d L fI t g1 k acc hk6, tile_body_work.sl.v857_1 d L fI t g1 k acc hk6, tile_body_work.sl.v863_1 d L fI t g1 k acc hk6, tile_body_work.sl.v869_1 d L fI t g1 k acc hk6) :=
        hb3.row_k hk6 (by decide : 3 < 16) _ hs3 _ _ _ _ _ _ _ _ rfl rfl rfl rfl
      have hb5 : BufAccAt (bufTerm g1 (tileWord ((idxRows L).view.read (Elt F) fI) (2 * (2 * t.val + 0) + 1))) (16 * k.val + (4 + 1)) (bagInit ((idxRows L).view.read (Elt F) fI) fT (2 * t.val + 0) 1) (tile_body_work.sl.v877_1 d L fI t g1 k acc hk6, tile_body_work.sl.v883_1 d L fI t g1 k acc hk6, tile_body_work.sl.v889_1 d L fI t g1 k acc hk6, tile_body_work.sl.v895_1 d L fI t g1 k acc hk6) :=
        hb4.row_k hk6 (by decide : 4 < 16) _ hs4 _ _ _ _ _ _ _ _ rfl rfl rfl rfl
      have hb6 : BufAccAt (bufTerm g1 (tileWord ((idxRows L).view.read (Elt F) fI) (2 * (2 * t.val + 0) + 1))) (16 * k.val + (5 + 1)) (bagInit ((idxRows L).view.read (Elt F) fI) fT (2 * t.val + 0) 1) (tile_body_work.sl.v903_1 d L fI t g1 k acc hk6, tile_body_work.sl.v909_1 d L fI t g1 k acc hk6, tile_body_work.sl.v915_1 d L fI t g1 k acc hk6, tile_body_work.sl.v921_1 d L fI t g1 k acc hk6) :=
        hb5.row_k hk6 (by decide : 5 < 16) _ hs5 _ _ _ _ _ _ _ _ rfl rfl rfl rfl
      have hb7 : BufAccAt (bufTerm g1 (tileWord ((idxRows L).view.read (Elt F) fI) (2 * (2 * t.val + 0) + 1))) (16 * k.val + (6 + 1)) (bagInit ((idxRows L).view.read (Elt F) fI) fT (2 * t.val + 0) 1) (tile_body_work.sl.v929_1 d L fI t g1 k acc hk6, tile_body_work.sl.v935_1 d L fI t g1 k acc hk6, tile_body_work.sl.v941_1 d L fI t g1 k acc hk6, tile_body_work.sl.v947_1 d L fI t g1 k acc hk6) :=
        hb6.row_k hk6 (by decide : 6 < 16) _ hs6 _ _ _ _ _ _ _ _ rfl rfl rfl rfl
      have hb8 : BufAccAt (bufTerm g1 (tileWord ((idxRows L).view.read (Elt F) fI) (2 * (2 * t.val + 0) + 1))) (16 * k.val + (7 + 1)) (bagInit ((idxRows L).view.read (Elt F) fI) fT (2 * t.val + 0) 1) (tile_body_work.sl.v955_1 d L fI t g1 k acc hk6, tile_body_work.sl.v961_1 d L fI t g1 k acc hk6, tile_body_work.sl.v967_1 d L fI t g1 k acc hk6, tile_body_work.sl.v973_1 d L fI t g1 k acc hk6) :=
        hb7.row_k hk6 (by decide : 7 < 16) _ hs7 _ _ _ _ _ _ _ _ rfl rfl rfl rfl
      have hb9 : BufAccAt (bufTerm g1 (tileWord ((idxRows L).view.read (Elt F) fI) (2 * (2 * t.val + 0) + 1))) (16 * k.val + (8 + 1)) (bagInit ((idxRows L).view.read (Elt F) fI) fT (2 * t.val + 0) 1) (tile_body_work.sl.v981_1 d L fI t g1 k acc hk6, tile_body_work.sl.v987_1 d L fI t g1 k acc hk6, tile_body_work.sl.v993_1 d L fI t g1 k acc hk6, tile_body_work.sl.v999_1 d L fI t g1 k acc hk6) :=
        hb8.row_k hk6 (by decide : 8 < 16) _ hs8 _ _ _ _ _ _ _ _ rfl rfl rfl rfl
      have hb10 : BufAccAt (bufTerm g1 (tileWord ((idxRows L).view.read (Elt F) fI) (2 * (2 * t.val + 0) + 1))) (16 * k.val + (9 + 1)) (bagInit ((idxRows L).view.read (Elt F) fI) fT (2 * t.val + 0) 1) (tile_body_work.sl.v1007_1 d L fI t g1 k acc hk6, tile_body_work.sl.v1013_1 d L fI t g1 k acc hk6, tile_body_work.sl.v1019_1 d L fI t g1 k acc hk6, tile_body_work.sl.v1025_1 d L fI t g1 k acc hk6) :=
        hb9.row_k hk6 (by decide : 9 < 16) _ hs9 _ _ _ _ _ _ _ _ rfl rfl rfl rfl
      have hb11 : BufAccAt (bufTerm g1 (tileWord ((idxRows L).view.read (Elt F) fI) (2 * (2 * t.val + 0) + 1))) (16 * k.val + (10 + 1)) (bagInit ((idxRows L).view.read (Elt F) fI) fT (2 * t.val + 0) 1) (tile_body_work.sl.v1033_1 d L fI t g1 k acc hk6, tile_body_work.sl.v1039_1 d L fI t g1 k acc hk6, tile_body_work.sl.v1045_1 d L fI t g1 k acc hk6, tile_body_work.sl.v1051_1 d L fI t g1 k acc hk6) :=
        hb10.row_k hk6 (by decide : 10 < 16) _ hs10 _ _ _ _ _ _ _ _ rfl rfl rfl rfl
      have hb12 : BufAccAt (bufTerm g1 (tileWord ((idxRows L).view.read (Elt F) fI) (2 * (2 * t.val + 0) + 1))) (16 * k.val + (11 + 1)) (bagInit ((idxRows L).view.read (Elt F) fI) fT (2 * t.val + 0) 1) (tile_body_work.sl.v1059_1 d L fI t g1 k acc hk6, tile_body_work.sl.v1065_1 d L fI t g1 k acc hk6, tile_body_work.sl.v1071_1 d L fI t g1 k acc hk6, tile_body_work.sl.v1077_1 d L fI t g1 k acc hk6) :=
        hb11.row_k hk6 (by decide : 11 < 16) _ hs11 _ _ _ _ _ _ _ _ rfl rfl rfl rfl
      have hb13 : BufAccAt (bufTerm g1 (tileWord ((idxRows L).view.read (Elt F) fI) (2 * (2 * t.val + 0) + 1))) (16 * k.val + (12 + 1)) (bagInit ((idxRows L).view.read (Elt F) fI) fT (2 * t.val + 0) 1) (tile_body_work.sl.v1085_1 d L fI t g1 k acc hk6, tile_body_work.sl.v1091_1 d L fI t g1 k acc hk6, tile_body_work.sl.v1097_1 d L fI t g1 k acc hk6, tile_body_work.sl.v1103_1 d L fI t g1 k acc hk6) :=
        hb12.row_k hk6 (by decide : 12 < 16) _ hs12 _ _ _ _ _ _ _ _ rfl rfl rfl rfl
      have hb14 : BufAccAt (bufTerm g1 (tileWord ((idxRows L).view.read (Elt F) fI) (2 * (2 * t.val + 0) + 1))) (16 * k.val + (13 + 1)) (bagInit ((idxRows L).view.read (Elt F) fI) fT (2 * t.val + 0) 1) (tile_body_work.sl.v1111_1 d L fI t g1 k acc hk6, tile_body_work.sl.v1117_1 d L fI t g1 k acc hk6, tile_body_work.sl.v1123_1 d L fI t g1 k acc hk6, tile_body_work.sl.v1129_1 d L fI t g1 k acc hk6) :=
        hb13.row_k hk6 (by decide : 13 < 16) _ hs13 _ _ _ _ _ _ _ _ rfl rfl rfl rfl
      have hb15 : BufAccAt (bufTerm g1 (tileWord ((idxRows L).view.read (Elt F) fI) (2 * (2 * t.val + 0) + 1))) (16 * k.val + (14 + 1)) (bagInit ((idxRows L).view.read (Elt F) fI) fT (2 * t.val + 0) 1) (tile_body_work.sl.v1137_1 d L fI t g1 k acc hk6, tile_body_work.sl.v1143_1 d L fI t g1 k acc hk6, tile_body_work.sl.v1149_1 d L fI t g1 k acc hk6, tile_body_work.sl.v1155_1 d L fI t g1 k acc hk6) :=
        hb14.row_k hk6 (by decide : 14 < 16) _ hs14 _ _ _ _ _ _ _ _ rfl rfl rfl rfl
      have hb16 : BufAccAt (bufTerm g1 (tileWord ((idxRows L).view.read (Elt F) fI) (2 * (2 * t.val + 0) + 1))) (16 * k.val + (15 + 1)) (bagInit ((idxRows L).view.read (Elt F) fI) fT (2 * t.val + 0) 1) (tile_body_work.sl.v1163_1 d L fI t g1 k acc hk6, tile_body_work.sl.v1169_1 d L fI t g1 k acc hk6, tile_body_work.sl.v1175_1 d L fI t g1 k acc hk6, tile_body_work.sl.v1181_1 d L fI t g1 k acc hk6) :=
        hb15.row_k hk6 (by decide : 15 < 16) _ hs15 _ _ _ _ _ _ _ _ rfl rfl rfl rfl
      exact (bagAt_iff_bufAcc (by decide : 1 < 2) hrows (by omega) _).mpr ((show 16 * (k.val + 1) = 16 * k.val + (15 + 1) by omega) ▸ hb16)
    · unfold tileInvIP
      isplitl [Hraw]; · iexact Hraw
      isplitl [Hb3]; · iexact Hb3
      ipureintro
      have ht32 : t.val < 32 := Nat.lt_of_lt_of_le t.isLt k2_t2_abs.2.1
      have hrows : BufRows g0 fT ((idxRows L).view.read (Elt F) fI) (2 * (2 * t.val + 0) + 0) :=
        bufRows_of ((sPW).view.read (Elt F) fp) (by omega) o0 (by rw [hc0.1]; unfold tileU2; omega) (fun j c => hc0.2 j c) _ (by decide) hPV
      have htr3 : Scf.trips k2_t3_loop.lb k2_t3_loop.ub k2_t3_loop.st = 6 := by decide
      have e370 : (k2_off37 t) 0 = 2 * t.val := by rw [k2_off37_eq]; rfl
      have e371 : (k2_off37 t) 1 = 96 := by rw [k2_off37_eq]; rfl
      have hacc0' : TileBagAt ((idxRows L).view.read (Elt F) fI) fT (2 * t.val + 0) 0 96 acc0 := by have h := hacc0; rw [htr3] at h; exact h
      have hb0 := (bagAt_iff_bufAcc (by decide : 0 < 2) hrows (by decide : 96 ≤ 100) acc0).mp hacc0'
      have hs0 : tile_body_work.sl.v70 d L fI t = offW (tileWord ((idxRows L).view.read (Elt F) fI) (2 * (2 * t.val + 0) + 0) (96)) :=
        (pay2_lane (F := F) _ ⟨0, by decide⟩ _ _).trans (congrArg offW (idx_word_gen (F := F) (k2_off37 t) (k2_off37_inb t) ((idxRows L).view.read (Elt F) fI) (2 * (2 * t.val + 0) + 0) 6 ⟨0, by decide⟩ (by rw [e370]; omega) (by rw [e371]; show 96 + 0 = (112 * ((2 * (2 * t.val + 0) + 0) % 2) + (16 * 6 + 0)) % 224; omega)))
      have hs1 : tile_body_work.sl.v95 d L fI t = offW (tileWord ((idxRows L).view.read (Elt F) fI) (2 * (2 * t.val + 0) + 0) (97)) :=
        (pay2_lane (F := F) _ ⟨1, by decide⟩ _ _).trans (congrArg offW (idx_word_gen (F := F) (k2_off37 t) (k2_off37_inb t) ((idxRows L).view.read (Elt F) fI) (2 * (2 * t.val + 0) + 0) 6 ⟨1, by decide⟩ (by rw [e370]; omega) (by rw [e371]; show 96 + 1 = (112 * ((2 * (2 * t.val + 0) + 0) % 2) + (16 * 6 + 1)) % 224; omega)))
      have hs2 : tile_body_work.sl.v120 d L fI t = offW (tileWord ((idxRows L).view.read (Elt F) fI) (2 * (2 * t.val + 0) + 0) (98)) :=
        (pay2_lane (F := F) _ ⟨2, by decide⟩ _ _).trans (congrArg offW (idx_word_gen (F := F) (k2_off37 t) (k2_off37_inb t) ((idxRows L).view.read (Elt F) fI) (2 * (2 * t.val + 0) + 0) 6 ⟨2, by decide⟩ (by rw [e370]; omega) (by rw [e371]; show 96 + 2 = (112 * ((2 * (2 * t.val + 0) + 0) % 2) + (16 * 6 + 2)) % 224; omega)))
      have hs3 : tile_body_work.sl.v145 d L fI t = offW (tileWord ((idxRows L).view.read (Elt F) fI) (2 * (2 * t.val + 0) + 0) (99)) :=
        (pay2_lane (F := F) _ ⟨3, by decide⟩ _ _).trans (congrArg offW (idx_word_gen (F := F) (k2_off37 t) (k2_off37_inb t) ((idxRows L).view.read (Elt F) fI) (2 * (2 * t.val + 0) + 0) 6 ⟨3, by decide⟩ (by rw [e370]; omega) (by rw [e371]; show 96 + 3 = (112 * ((2 * (2 * t.val + 0) + 0) % 2) + (16 * 6 + 3)) % 224; omega)))
      have hb1 : BufAccAt (bufTerm g0 (tileWord ((idxRows L).view.read (Elt F) fI) (2 * (2 * t.val + 0) + 0))) (96 + 1) (bagInit ((idxRows L).view.read (Elt F) fI) fT (2 * t.val + 0) 0) (tile_body_work.sl.v75 d L fI t g0 acc0, tile_body_work.sl.v81 d L fI t g0 acc0, tile_body_work.sl.v87 d L fI t g0 acc0, tile_body_work.sl.v93 d L fI t g0 acc0) :=
        hb0.row_c (by decide : 96 < 100) _ hs0 _ _ _ _ _ _ _ _ rfl rfl rfl rfl
      have hb2 : BufAccAt (bufTerm g0 (tileWord ((idxRows L).view.read (Elt F) fI) (2 * (2 * t.val + 0) + 0))) (97 + 1) (bagInit ((idxRows L).view.read (Elt F) fI) fT (2 * t.val + 0) 0) (tile_body_work.sl.v100 d L fI t g0 acc0, tile_body_work.sl.v106 d L fI t g0 acc0, tile_body_work.sl.v112 d L fI t g0 acc0, tile_body_work.sl.v118 d L fI t g0 acc0) :=
        hb1.row_c (by decide : 97 < 100) _ hs1 _ _ _ _ _ _ _ _ rfl rfl rfl rfl
      have hb3 : BufAccAt (bufTerm g0 (tileWord ((idxRows L).view.read (Elt F) fI) (2 * (2 * t.val + 0) + 0))) (98 + 1) (bagInit ((idxRows L).view.read (Elt F) fI) fT (2 * t.val + 0) 0) (tile_body_work.sl.v125 d L fI t g0 acc0, tile_body_work.sl.v131 d L fI t g0 acc0, tile_body_work.sl.v137 d L fI t g0 acc0, tile_body_work.sl.v143 d L fI t g0 acc0) :=
        hb2.row_c (by decide : 98 < 100) _ hs2 _ _ _ _ _ _ _ _ rfl rfl rfl rfl
      have hb4 : BufAccAt (bufTerm g0 (tileWord ((idxRows L).view.read (Elt F) fI) (2 * (2 * t.val + 0) + 0))) (99 + 1) (bagInit ((idxRows L).view.read (Elt F) fI) fT (2 * t.val + 0) 0) (tile_body_work.sl.v150 d L fI t g0 acc0, tile_body_work.sl.v156 d L fI t g0 acc0, tile_body_work.sl.v162 d L fI t g0 acc0, tile_body_work.sl.v168 d L fI t g0 acc0) :=
        hb3.row_c (by decide : 99 < 100) _ hs3 _ _ _ _ _ _ _ _ rfl rfl rfl rfl
      exact bagAt_half_of_bufAcc hrows _ hb4
    iintro %acc1 HI
    unfold tileInvIP
    icases HI with ⟨Hraw, Hb3, %hacc1⟩
    sl_exec (disch := chk_disch)
    sl_for (tileInvIP (F := F) d L sR2W ((idxRows L).view.read (Elt F) fI) g2
        (fun n (acc : TileAcc F) => TileBagAt (F := F) ((idxRows L).view.read (Elt F) fI) fT (2 * t.val + 1) 0 (16 * n) acc)) $$ [Hraw Hb4]
    case region =>
      intro k acc
      have hk6 : k.val < 6 := Nat.lt_of_lt_of_le k.isLt k2_t5_abs.2.1
      unfold tileInvIP
      iintro ⟨Hraw, Hb4, %hP⟩
      sl_exec (disch := chk_disch)
      sl_step
      isplitl [Hraw]; · iexact Hraw
      isplitl [Hb4]; · iexact Hb4
      ipureintro
      exact trip5_step d L t k hk6 _ fT g2 acc hr2 hP
    · unfold tileInvIP
      isplitl [Hraw]; · iexact Hraw
      isplitl [Hb4]; · iexact Hb4
      ipureintro
      exact fun q l => by fin_cases q <;> rfl
    iintro %acc2 HI
    unfold tileInvIP
    icases HI with ⟨Hraw, Hb4, %hacc2⟩
    sl_exec (disch := chk_disch)
    sl_for (tileInvIP (F := F) d L sR3W ((idxRows L).view.read (Elt F) fI) g3
        (fun n (acc : TileAcc F) => TileBagAt (F := F) ((idxRows L).view.read (Elt F) fI) fT (2 * t.val + 1) 1 (16 * n) acc)) $$ [Hraw Hb5]
    case region =>
      intro k acc
      have hk6 : k.val < 6 := Nat.lt_of_lt_of_le k.isLt k2_t6_abs.2.1
      unfold tileInvIP
      iintro ⟨Hraw, Hb5, %hP⟩
      sl_exec (disch := chk_disch)
      sl_step
      isplitl [Hraw]; · iexact Hraw
      isplitl [Hb5]; · iexact Hb5
      ipureintro
      exact trip6_step d L t k hk6 _ fT g3 acc hr3 hP
    · unfold tileInvIP
      isplitl [Hraw]; · iexact Hraw
      isplitl [Hb5]; · iexact Hb5
      ipureintro
      exact rem5_step t g2 (bufRows_of_rows (4 * t.val + 2) o2 (by have ht : t.val < 32 := lt_of_lt_of_eq t.isLt (by decide); omega) hc2.1 (by decide) hc2.2 hPV) acc2 hacc2
    iintro %acc3 HI
    unfold tileInvIP
    icases HI with ⟨Hraw, Hb5, %hacc3⟩
    sl_exec (disch := chk_disch)
    sl_step
    isplitr; · iexact Hlv
    isplitl [Hraw]; · iexact Hraw
    isplitl [Hb6]
    · iexists _
      isplitl [Hb6]; · iexact Hb6
      ipureintro
      refine tile_staged_two (F := F) (sOutW).view g6 ((idxRows L).view.read (Elt F) fI) fT 0 t.val
        _ _ _ _ _ _ _ _ _ _ _ _ _ _ _ _
        (k2_off89_eq t) (k2_off90_eq t) (k2_off91_eq t) (k2_off92_eq t)
        (k2_off179_eq t) (k2_off180_eq t) (k2_off181_eq t) (k2_off182_eq t)
        _ _ _ _ _ _ _ _ ?_ ?_ hst
      · exact staged7a d L t _ fT g1 acc1 hr1 hacc1 rfl
      · exact staged7b d L t _ fT g3 acc3 hr3 hacc3 rfl
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      isplitl [HPr]; · iexact HPr
      ipureintro
      exact ⟨(congrFun (k2_off46_eq t) 0).trans (by show 448 * t.val + 448 = 112 * (4 * (t.val + 1) + 0); omega), fun j c => tile_gather_read (F := F) d L sR0W _ fT fp _ _ _ _ j c⟩
    isplitl [Hs1 HT0 Hb3 HP0]
    · iexists _, _, _
      isplitl [Hs1]; · iexact Hs1
      isplitl [HT0]; · iexact HT0
      isplitl [Hb3]; · iexact Hb3
      isplitl [HP0]; · iexact HP0
      ipureintro
      exact ⟨(congrFun (k2_off93_eq t) 0).trans (by show 448 * t.val + 560 = 112 * (4 * (t.val + 1) + 1); omega), fun j c => tile_gather_read (F := F) d L sR1W _ fT fp _ _ _ _ j c⟩
    isplitl [Hs2 HT1 Hb4 HP1]
    · iexists _, _, _
      isplitl [Hs2]; · iexact Hs2
      isplitl [HT1]; · iexact HT1
      isplitl [Hb4]; · iexact Hb4
      isplitl [HP1]; · iexact HP1
      ipureintro
      exact ⟨(congrFun (k2_off136_eq t) 0).trans (by show 448 * t.val + 672 = 112 * (4 * (t.val + 1) + 2); omega), fun j c => tile_gather_read (F := F) d L sR2W _ fT fp _ _ _ _ j c⟩
    · iexists _, _, _
      isplitl [Hs3]; · iexact Hs3
      isplitl [HT2]; · iexact HT2
      isplitl [Hb5]; · iexact Hb5
      isplitl [HP2]; · iexact HP2
      ipureintro
      exact ⟨(congrFun (k2_off183_eq t) 0).trans (by show 448 * t.val + 784 = 112 * (4 * (t.val + 1) + 3); omega), fun j c => tile_gather_read (F := F) d L sR3W _ fT fp _ _ _ _ j c⟩
  · unfold tileInvOV tileCellV
    isplitr; · iexact Hlv
    isplitl [Hraw]; · iexact Hraw
    isplitl [Hb6']
    · iexists _
      isplitl [Hb6']; · iexact Hb6'
      ipureintro
      exact fun r e hr => absurd hr (by omega)
    isplitl [HO]
    · iexists _
      isplitr [HO]
      swap
      · iexact HO
      · ipureintro; intro p hp
        rcases Finset.mem_insert.mp hp with h | h
        · right; rw [h]; rfl
        · left; exact h
    isplitl [Hs0 HTr Hb2' HPr]
    · iexists _, 0, inb_S28672_S100_0
      isplitl [Hs0]; · iexact Hs0
      isplitl [HTr]; · iexact HTr
      isplitl [Hb2']; · iexact Hb2'
      isplitl [HPr]; · iexact HPr
      ipureintro
      exact ⟨by show 0 = 112 * (4 * 0 + 0); omega, fun j c => tile_gather_read (F := F) d L sR0W _ fT fp _ _ _ _ j c⟩
    isplitl [Hs1 HT0 Hb3' HP0]
    · iexists _, 112, inb_S28672_S100_112
      isplitl [Hs1]; · iexact Hs1
      isplitl [HT0]; · iexact HT0
      isplitl [Hb3']; · iexact Hb3'
      isplitl [HP0]; · iexact HP0
      ipureintro
      exact ⟨by show 112 = 112 * (4 * 0 + 1); omega, fun j c => tile_gather_read (F := F) d L sR1W _ fT fp _ _ _ _ j c⟩
    isplitl [Hs2 HT1 Hb4' HP1]
    · iexists _, 224, inb_S28672_S100_224
      isplitl [Hs2]; · iexact Hs2
      isplitl [HT1]; · iexact HT1
      isplitl [Hb4']; · iexact Hb4'
      isplitl [HP1]; · iexact HP1
      ipureintro
      exact ⟨by show 224 = 112 * (4 * 0 + 2); omega, fun j c => tile_gather_read (F := F) d L sR2W _ fT fp _ _ _ _ j c⟩
    · iexists _, 336, inb_S28672_S100_336
      isplitl [Hs3]; · iexact Hs3
      isplitl [HT2]; · iexact HT2
      isplitl [Hb5']; · iexact Hb5'
      isplitl [HP2]; · iexact HP2
      ipureintro
      exact ⟨by show 336 = 112 * (4 * 0 + 3); omega, fun j c => tile_gather_read (F := F) d L sR3W _ fT fp _ _ _ _ j c⟩
  iintro %_ HI
  unfold tileInvOV tileCellV
  icases HI with ⟨-, Hraw, ⟨%g6, Hb6, %hst⟩, ⟨%W1, %hW1, HO⟩, ⟨%g0, %o0, %h0, Hs0, HTr, Hb2, HPr, %hc0⟩, ⟨%g1, %o1, %h1, Hs1, HT0, Hb3, HP0, %hc1⟩,
    ⟨%g2, %o2, %h2, Hs2, HT1, Hb4, HP1, %hc2⟩, ⟨%g3, %o3, %h3, Hs3, HT2, Hb5, HP2, %hc3⟩⟩
  have htr : Scf.trips k2_t2_loop.lb k2_t2_loop.ub k2_t2_loop.st = 32 := by decide
  sl_exec
  sl_for (tileInvOV (F := F) d L tileU7 64 q3 O W ((idxRows L).view.read (Elt F) fI) fp fT) $$ [Hlv Hraw Hb6 HO Hs0 HTr Hb2 HPr Hs1 HT0 Hb3 HP0 Hs2 HT1 Hb4 HP1 Hs3 HT2 Hb5 HP2]
  case region =>
    intro t _
    unfold tileInvOV tileCellV
    iintro ⟨#Hlv, Hraw, ⟨%g6, Hb6, %hst⟩, ⟨%W', %hW', HO⟩, ⟨%g0, %o0, %h0, Hs0, HTr, Hb2, HPr, %hc0⟩, ⟨%g1, %o1, %h1, Hs1, HT0, Hb3, HP0, %hc1⟩,
      ⟨%g2, %o2, %h2, Hs2, HT1, Hb4, HP1, %hc2⟩, ⟨%g3, %o3, %h3, Hs3, HT2, Hb5, HP2, %hc3⟩⟩
    ihave Hmw := ((K (F := F)).mayWaits_none (thr := (V d (cV L) (jV L))) hO) $$ Hlv
    have ht32 : t.val < 32 := lt_of_lt_of_eq t.isLt (by decide)
    have hr0 : BufRows ((Memref.whole cc2_scratch2 : Memref sig .scVector .vmem S100x128 .f32).view.read (Elt F) g0) fT
        ((idxRows L).view.read (Elt F) fI) (128 + 4 * t.val) :=
      bufRows_of_rows_f d L _ ((idxRows L).view.read (Elt F) fI) fT fp o0 _ g0 _ (by decide) hPV (hc0.1.trans (by unfold tileU7; omega)) (by omega) hc0.2
    have hr1 : BufRows ((Memref.whole cc2_scratch3 : Memref sig .scVector .vmem S100x128 .f32).view.read (Elt F) g1) fT
        ((idxRows L).view.read (Elt F) fI) (128 + 4 * t.val + 1) :=
      bufRows_of_rows_f d L _ ((idxRows L).view.read (Elt F) fI) fT fp o1 _ g1 _ (by decide) hPV (hc1.1.trans (by unfold tileU7; omega)) (by omega) hc1.2
    have hr2 : BufRows ((Memref.whole cc2_scratch4 : Memref sig .scVector .vmem S100x128 .f32).view.read (Elt F) g2) fT
        ((idxRows L).view.read (Elt F) fI) (130 + 4 * t.val) :=
      bufRows_of_rows_f d L _ ((idxRows L).view.read (Elt F) fI) fT fp o2 _ g2 _ (by decide) hPV (hc2.1.trans (by unfold tileU7; omega)) (by omega) hc2.2
    have hr3 : BufRows ((Memref.whole cc2_scratch5 : Memref sig .scVector .vmem S100x128 .f32).view.read (Elt F) g3) fT
        ((idxRows L).view.read (Elt F) fI) (131 + 4 * t.val) :=
      bufRows_of_rows_f d L _ ((idxRows L).view.read (Elt F) fI) fT fp o3 _ g3 _ (by decide) hPV (hc3.1.trans (by unfold tileU7; omega)) (by omega) hc3.2
    sl_exec
    sl_for (tileInvIP (F := F) d L sR0W ((idxRows L).view.read (Elt F) fI) g0
        (fun n (acc : TileAcc F) => TileBagAt (F := F) ((idxRows L).view.read (Elt F) fI) fT (64 + 2 * t.val + 0) 0 (16 * n) acc)) $$ [Hraw Hb2]
    case region =>
      intro k acc
      have hk6 : k.val < 6 := Nat.lt_of_lt_of_le k.isLt k2_t8_abs.2.1
      unfold tileInvIP
      iintro ⟨Hraw, Hb2, %hP⟩
      sl_exec (disch := chk_disch)
      sl_step
      isplitl [Hraw]; · iexact Hraw
      isplitl [Hb2]; · iexact Hb2
      ipureintro
      exact trip8_step d L t k hk6 _ fT g0 acc hr0 hP
    · unfold tileInvIP
      isplitl [Hraw]; · iexact Hraw
      isplitl [Hb2]; · iexact Hb2
      ipureintro
      exact fun q l => by fin_cases q <;> rfl
    iintro %acc0 HI
    unfold tileInvIP
    icases HI with ⟨Hraw, Hb2, %hacc0⟩
    sl_exec (disch := chk_disch)
    sl_for (tileInvIP (F := F) d L sR1W ((idxRows L).view.read (Elt F) fI) g1
        (fun n (acc : TileAcc F) => TileBagAt (F := F) ((idxRows L).view.read (Elt F) fI) fT (64 + 2 * t.val + 0) 1 (16 * n) acc)) $$ [Hraw Hb3]
    case region =>
      intro k acc
      have hk6 : k.val < 6 := Nat.lt_of_lt_of_le k.isLt k2_t9_abs.2.1
      unfold tileInvIP
      iintro ⟨Hraw, Hb3, %hP⟩
      sl_exec (disch := chk_disch)
      sl_step
      isplitl [Hraw]; · iexact Hraw
      isplitl [Hb3]; · iexact Hb3
      ipureintro
      exact trip9_step d L t k hk6 _ fT g1 acc hr1 hP
    · unfold tileInvIP
      isplitl [Hraw]; · iexact Hraw
      isplitl [Hb3]; · iexact Hb3
      ipureintro
      exact rem8_step d L t _ fT g0 acc0 hr0 hacc0
    iintro %acc1 HI
    unfold tileInvIP
    icases HI with ⟨Hraw, Hb3, %hacc1⟩
    sl_exec (disch := chk_disch)
    sl_for (tileInvIP (F := F) d L sR2W ((idxRows L).view.read (Elt F) fI) g2
        (fun n (acc : TileAcc F) => TileBagAt (F := F) ((idxRows L).view.read (Elt F) fI) fT (64 + 2 * t.val + 1) 0 (16 * n) acc)) $$ [Hraw Hb4]
    case region =>
      intro k acc
      have hk6 : k.val < 6 := Nat.lt_of_lt_of_le k.isLt k2_t10_abs.2.1
      unfold tileInvIP
      iintro ⟨Hraw, Hb4, %hP⟩
      sl_exec (disch := chk_disch)
      sl_step
      isplitl [Hraw]; · iexact Hraw
      isplitl [Hb4]; · iexact Hb4
      ipureintro
      exact trip10_step d L t k hk6 _ fT g2 acc hr2 hP
    · unfold tileInvIP
      isplitl [Hraw]; · iexact Hraw
      isplitl [Hb4]; · iexact Hb4
      ipureintro
      exact fun q l => by fin_cases q <;> rfl
    iintro %acc2 HI
    unfold tileInvIP
    icases HI with ⟨Hraw, Hb4, %hacc2⟩
    sl_exec (disch := chk_disch)
    sl_for (tileInvIP (F := F) d L sR3W ((idxRows L).view.read (Elt F) fI) g3
        (fun n (acc : TileAcc F) => TileBagAt (F := F) ((idxRows L).view.read (Elt F) fI) fT (64 + 2 * t.val + 1) 1 (16 * n) acc)) $$ [Hraw Hb5]
    case region =>
      intro k acc
      have hk6 : k.val < 6 := Nat.lt_of_lt_of_le k.isLt k2_t11_abs.2.1
      unfold tileInvIP
      iintro ⟨Hraw, Hb5, %hP⟩
      sl_exec (disch := chk_disch)
      sl_step
      isplitl [Hraw]; · iexact Hraw
      isplitl [Hb5]; · iexact Hb5
      ipureintro
      exact trip11_step d L t k hk6 _ fT g3 acc hr3 hP
    · unfold tileInvIP
      isplitl [Hraw]; · iexact Hraw
      isplitl [Hb5]; · iexact Hb5
      ipureintro
      exact rem10_step d L t _ fT g2 acc2 hr2 hacc2
    iintro %acc3 HI
    unfold tileInvIP
    icases HI with ⟨Hraw, Hb5, %hacc3⟩
    sl_exec (disch := chk_disch)
    sl_step
    isplitr; · iexact Hlv
    isplitl [Hraw]; · iexact Hraw
    isplitl [Hb6]
    · iexists _
      isplitl [Hb6]; · iexact Hb6
      ipureintro
      refine tile_staged_two (F := F) (sOutW).view g6 ((idxRows L).view.read (Elt F) fI) fT 64 t.val
        _ _ _ _ _ _ _ _ _ _ _ _ _ _ _ _
        (k2_off270_eq t) (k2_off271_eq t) (k2_off272_eq t) (k2_off273_eq t)
        (k2_off360_eq t) (k2_off361_eq t) (k2_off362_eq t) (k2_off363_eq t)
        _ _ _ _ _ _ _ _ ?_ ?_ hst
      · exact staged14a d L t _ fT g1 acc1 hr1 hacc1 rfl
      · exact staged14b d L t _ fT g3 acc3 hr3 hacc3 rfl
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      isplitl [HPr]; · iexact HPr
      ipureintro
      exact ⟨(congrFun (k2_off227_eq t) 0).trans (by show 112 * (min (4 * t.val + 132) 252) = 112 * (min (4 * (t.val + 1) + 128 + 0) (252 + 0)); omega), fun j c => tile_gather_read (F := F) d L sR0W _ fT fp _ _ _ _ j c⟩
    isplitl [Hs1 HT0 Hb3 HP0]
    · iexists _, _, _
      isplitl [Hs1]; · iexact Hs1
      isplitl [HT0]; · iexact HT0
      isplitl [Hb3]; · iexact Hb3
      isplitl [HP0]; · iexact HP0
      ipureintro
      exact ⟨(congrFun (k2_off274_eq t) 0).trans (by show 112 * (min (4 * t.val + 133) 253) = 112 * (min (4 * (t.val + 1) + 128 + 1) (252 + 1)); omega), fun j c => tile_gather_read (F := F) d L sR1W _ fT fp _ _ _ _ j c⟩
    isplitl [Hs2 HT1 Hb4 HP1]
    · iexists _, _, _
      isplitl [Hs2]; · iexact Hs2
      isplitl [HT1]; · iexact HT1
      isplitl [Hb4]; · iexact Hb4
      isplitl [HP1]; · iexact HP1
      ipureintro
      exact ⟨(congrFun (k2_off317_eq t) 0).trans (by show 112 * (min (4 * t.val + 134) 254) = 112 * (min (4 * (t.val + 1) + 128 + 2) (252 + 2)); omega), fun j c => tile_gather_read (F := F) d L sR2W _ fT fp _ _ _ _ j c⟩
    · iexists _, _, _
      isplitl [Hs3]; · iexact Hs3
      isplitl [HT2]; · iexact HT2
      isplitl [Hb5]; · iexact Hb5
      isplitl [HP2]; · iexact HP2
      ipureintro
      exact ⟨(congrFun (k2_off364_eq t) 0).trans (by show 112 * (min (4 * t.val + 135) 255) = 112 * (min (4 * (t.val + 1) + 128 + 3) (252 + 3)); omega), fun j c => tile_gather_read (F := F) d L sR3W _ fT fp _ _ _ _ j c⟩
  · unfold tileInvOV tileCellV
    isplitr; · iexact Hlv
    isplitl [Hraw]; · iexact Hraw
    isplitl [Hb6]
    · iexists _
      isplitl [Hb6]; · iexact Hb6
      ipureintro
      exact fun r e hr => absurd hr (by omega)
    isplitl [HO]
    · iexists _
      isplitr [HO]
      swap
      · iexact HO
      · ipureintro
        exact tile_waits_insert _ hW1
    isplitl [Hs0 HTr Hb2 HPr]
    · iexists _, _, _
      isplitl [Hs0]; · iexact Hs0
      isplitl [HTr]; · iexact HTr
      isplitl [Hb2]; · iexact Hb2
      isplitl [HPr]; · iexact HPr
      ipureintro
      exact ⟨by have e := hc0.1; show _ = 112 * (min (4 * 0 + 128 + 0) (252 + 0)); rw [e]; show 112 * (4 * Scf.trips k2_t2_loop.lb k2_t2_loop.ub k2_t2_loop.st + 0) = _; rw [htr]; omega, hc0.2⟩
    isplitl [Hs1 HT0 Hb3 HP0]
    · iexists _, _, _
      isplitl [Hs1]; · iexact Hs1
      isplitl [HT0]; · iexact HT0
      isplitl [Hb3]; · iexact Hb3
      isplitl [HP0]; · iexact HP0
      ipureintro
      exact ⟨by have e := hc1.1; show _ = 112 * (min (4 * 0 + 128 + 1) (252 + 1)); rw [e]; show 112 * (4 * Scf.trips k2_t2_loop.lb k2_t2_loop.ub k2_t2_loop.st + 1) = _; rw [htr]; omega, hc1.2⟩
    isplitl [Hs2 HT1 Hb4 HP1]
    · iexists _, _, _
      isplitl [Hs2]; · iexact Hs2
      isplitl [HT1]; · iexact HT1
      isplitl [Hb4]; · iexact Hb4
      isplitl [HP1]; · iexact HP1
      ipureintro
      exact ⟨by have e := hc2.1; show _ = 112 * (min (4 * 0 + 128 + 2) (252 + 2)); rw [e]; show 112 * (4 * Scf.trips k2_t2_loop.lb k2_t2_loop.ub k2_t2_loop.st + 2) = _; rw [htr]; omega, hc2.2⟩
    · iexists _, _, _
      isplitl [Hs3]; · iexact Hs3
      isplitl [HT2]; · iexact HT2
      isplitl [Hb5]; · iexact Hb5
      isplitl [HP2]; · iexact HP2
      ipureintro
      exact ⟨by have e := hc3.1; show _ = 112 * (min (4 * 0 + 128 + 3) (252 + 3)); rw [e]; show 112 * (4 * Scf.trips k2_t2_loop.lb k2_t2_loop.ub k2_t2_loop.st + 3) = _; rw [htr]; omega, hc3.2⟩
  iintro %_ HI
  unfold tileInvOV tileCellV
  icases HI with ⟨-, Hraw, ⟨%g6', Hb6, %hst'⟩, ⟨%W2, %hW2, HO⟩, ⟨%g0', %o0', %h0', Hs0, HTr, Hb2, HPr, %hc0⟩, ⟨%g1', %o1', %h1', Hs1, HT0, Hb3, HP0, %hc1⟩,
    ⟨%g2', %o2', %h2', Hs2, HT1, Hb4, HP1, %hc2⟩, ⟨%g3', %o3', %h3', Hs3, HT2, Hb5, HP2, %hc3⟩⟩
  sl_exec
  sl_step
  -- the operands back: the indices, the table (its four read shares joined), the output rows at one function
  isplitl [HvI']
  · iapply (Entails.of_eq (pts_vI (F := F) d L _ _)); iexact HvI'
  isplitl [HTr HT0 HT1 HT2]
  · iapply (Entails.of_eq (pts_vT (F := F) d L _ _))
    iapply ((show iprop(((vTW).view.loc (V d (cV L) (jV L)) ↦{Transfers.shareDrop q3 3} fT)
          ∗ ((vTW).view.loc (V d (cV L) (jV L)) ↦{Transfers.shareTok q3 3 0} fT) ∗ ((vTW).view.loc (V d (cV L) (jV L)) ↦{Transfers.shareTok q3 3 1} fT)
          ∗ ((vTW).view.loc (V d (cV L) (jV L)) ↦{Transfers.shareTok q3 3 2} fT)) ⊢ _ from Entails.of_eq (by rw [bigSep_fin3'])).trans
        (Transfers.pointsTo_toks_join (Ix := HIx 1) (Name := ℕ) (U := UU) (Lvl := ℕ) q3 3))
    isplitl [HTr]; · iexact HTr
    isplitl [HT0]; · iexact HT0
    isplitl [HT1]; · iexact HT1
    iexact HT2
  isplitl [HoA' HoB']
  · ihave HG := (tile_out_joinV (F := F) d L _ _) $$ [HoA' HoB']
    · isplitl [HoA']; · iexact HoA'
      iexact HoB'
    icases HG with ⟨%G, %hG, HA, HB⟩
    iexists G
    isplitr [HA HB]
    · ipureintro
      have htr7 : Scf.trips k2_t7_loop.lb k2_t7_loop.ub k2_t7_loop.st = 32 := by decide
      refine tile_spec_of_staged (F := F) L d fI fT G ((sOutW).view.read (Elt F) g6) ((sOutW).view.read (Elt F) g6')
        (fun x => ?_) (fun x => ?_) (htr ▸ hst) (htr7 ▸ hst')
      · refine (hG.1 _ (Finset.mem_map_of_mem _ (Finset.mem_univ x))).trans ?_
        exact (tile_outA_read (F := F) L d _ _ x).trans rfl
      · refine (hG.2 _ (Finset.mem_map_of_mem _ (Finset.mem_univ x))).trans ?_
        exact (tile_outB_read (F := F) L d _ _ x).trans rfl
    isplitl [HA]; · iexact HA
    iexact HB
  -- the scoped storage back: the seven scratch buffers at some contents, the seven cells at zero
  isplitl [Hraw HPr HP0 HP1 HP2 Hb2 Hb3 Hb4 Hb5 Hb6 Hbufs]
  · isplitl [Hraw]; · iexists _; iapply (Entails.of_eq (pts_sRawW (F := F) d L _)); iexact Hraw
    isplitl [HPr HP0 HP1 HP2]
    · iexists fp
      iapply (Entails.of_eq (pts_sPW (F := F) d L _))
      iapply ((show iprop(((sPW).view.loc (V d (cV L) (jV L)) ↦{Transfers.shareDrop fullShare 3} fp)
            ∗ ((sPW).view.loc (V d (cV L) (jV L)) ↦{Transfers.shareTok fullShare 3 0} fp) ∗ ((sPW).view.loc (V d (cV L) (jV L)) ↦{Transfers.shareTok fullShare 3 1} fp)
            ∗ ((sPW).view.loc (V d (cV L) (jV L)) ↦{Transfers.shareTok fullShare 3 2} fp)) ⊢ _ from Entails.of_eq (by rw [bigSep_fin3'])).trans
          (Transfers.pointsTo_toks_join (Ix := HIx 1) (Name := ℕ) (U := UU) (Lvl := ℕ) fullShare 3))
      isplitl [HPr]; · iexact HPr
      isplitl [HP0]; · iexact HP0
      isplitl [HP1]; · iexact HP1
      iexact HP2
    isplitl [Hb2]; · iexists _; iapply (Entails.of_eq (pts_sR0W (F := F) d L _)); iexact Hb2
    isplitl [Hb3]; · iexists _; iapply (Entails.of_eq (pts_sR1W (F := F) d L _)); iexact Hb3
    isplitl [Hb4]; · iexists _; iapply (Entails.of_eq (pts_sR2W (F := F) d L _)); iexact Hb4
    isplitl [Hb5]; · iexists _; iapply (Entails.of_eq (pts_sR3W (F := F) d L _)); iexact Hb5
    isplitl [Hb6]; · iexists _; iapply (Entails.of_eq (pts_sOutW (F := F) d L _)); iexact Hb6
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists _
  isplitr [HO]
  swap
  · iexact HO
  · ipureintro
    exact tile_waits_insert _ (tile_waits_insert _ (tile_waits_insert _ (tile_waits_insert _ (tile_waits_insert _ hW2))))

end Tile

end Cert.Proof.KI

end
-- ==== Proof.KITileFull.lean ====
/-
  One vector subcore's task with the values: the task's body leaves the subcore's 128 output rows at the kernel's own
  fold of the padded indices and the packed table.
-/
import proofs.«207435_g27118423507386_cont_sun_m_668_27_alg».proof.Proof.KITile
import proofs.«207435_g27118423507386_cont_sun_m_668_27_alg».proof.Proof.KITileSpec
import proofs.«207435_g27118423507386_cont_sun_m_668_27_alg».proof.Proof.KITileWork

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "vIW" => (Memref.whole Cert.KernelIdeal.main_v1_scv : Memref Cert.KernelIdeal.sig Kind.scVector Space.hbm Cert.KernelIdeal.S4096x224 EltTy.i32)
local notation "vTW" => (Memref.whole Cert.KernelIdeal.main_v3_scv : Memref Cert.KernelIdeal.sig Kind.scVector Space.hbm Cert.KernelIdeal.S507904x128 EltTy.f32)
local notation "vOW" => (Memref.whole Cert.KernelIdeal.main_v4_scv : Memref Cert.KernelIdeal.sig Kind.scVector Space.hbm Cert.KernelIdeal.S4096x64 EltTy.f32)
local notation "sRawW" => (Memref.whole Cert.KernelIdeal.cc2_scratch0 : Memref Cert.KernelIdeal.sig Kind.scVector Space.vmem Cert.KernelIdeal.S128x224 EltTy.i32)
local notation "sPW" => (Memref.whole Cert.KernelIdeal.cc2_scratch1 : Memref Cert.KernelIdeal.sig Kind.scVector Space.vmem Cert.KernelIdeal.S28672 EltTy.i32)
local notation "sR0W" => (Memref.whole Cert.KernelIdeal.cc2_scratch2 : Memref Cert.KernelIdeal.sig Kind.scVector Space.vmem Cert.KernelIdeal.S100x128 EltTy.f32)
local notation "sR1W" => (Memref.whole Cert.KernelIdeal.cc2_scratch3 : Memref Cert.KernelIdeal.sig Kind.scVector Space.vmem Cert.KernelIdeal.S100x128 EltTy.f32)
local notation "sR2W" => (Memref.whole Cert.KernelIdeal.cc2_scratch4 : Memref Cert.KernelIdeal.sig Kind.scVector Space.vmem Cert.KernelIdeal.S100x128 EltTy.f32)
local notation "sR3W" => (Memref.whole Cert.KernelIdeal.cc2_scratch5 : Memref Cert.KernelIdeal.sig Kind.scVector Space.vmem Cert.KernelIdeal.S100x128 EltTy.f32)
local notation "sOutW" => (Memref.whole Cert.KernelIdeal.cc2_scratch6 : Memref Cert.KernelIdeal.sig Kind.scVector Space.vmem Cert.KernelIdeal.S64x64 EltTy.f32)

section Tile

variable (d : Dev nD) (L : grid2.Coords)

set_option maxHeartbeats 4000000 in
theorem tile_body (hF : (K (F := F)).Facts) (O : CellTallies nD τ sig (HIx 1)) (W : Waits sig (HIx 1)) (hO : ∀ g, O g none = 0)
    (q1 q3 : PosShare TreeShare)
    (fI : Buf (Elt F) (iLoc d)) (fT : Buf (Elt F) (tLoc d)) (fO : Buf (Elt F) (oLoc d)) (hI : ∀ i, (fI i).toNat ≤ 999999) :
    iprop(levAts (K (F := F)).L (K (F := F)).lev
        ∗ (iLoc d ↦{q1} fI)
        ∗ (tLoc d ↦{q3} fT)
        ∗ ((outA L).view.loc (V d (cV L) (jV L)) ↦[(outA L).view.set]{fullShare} fO)
        ∗ ((outB L).view.loc (V d (cV L) (jV L)) ↦[(outB L).view.set]{fullShare} fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__embbag_mean L vIW (Memref.isWhole_whole _) vTW (Memref.isWhole_whole _) vOW (Memref.isWhole_whole _) sRawW (Memref.isWhole_whole _) sPW (Memref.isWhole_whole _) sR0W (Memref.isWhole_whole _) sR1W (Memref.isWhole_whole _) sR2W (Memref.isWhole_whole _) sR3W (Memref.isWhole_whole _) sOutW (Memref.isWhole_whole _) cc2_scratch7 cc2_scratch8 cc2_scratch9 cc2_scratch10 cc2_scoped0 cc2_scoped1 cc2_scoped2)
          fun _ => (iprop((iLoc d ↦{q1} fI) ∗ (tLoc d ↦{q3} fT)
            ∗ (∃ G, ⌜TileSpec (F := F) d L fI fT G⌝
                ∗ ((outA L).view.loc (V d (cV L) (jV L)) ↦[(outA L).view.set]{fullShare} G)
                ∗ ((outB L).view.loc (V d (cV L) (jV L)) ↦[(outB L).view.set]{fullShare} G))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) :=
  tile_body_work (F := F) d L hF O W hO q1 q3 fI fT fO hI

end Tile

end Cert.Proof.KI

end
-- ==== Proof.KILaunchF.lean ====
/-
  The vector-subcore kernel's obligation to the launch theorem: the task of subcore `i` of SparseCore `c` is the body
  at that place of the grid, run from the read tokens and the output rows the sequencer's go hands it.
-/
import proofs.«207435_g27118423507386_cont_sun_m_668_27_alg».proof.Proof.KILaunchC
import proofs.«207435_g27118423507386_cont_sun_m_668_27_alg».proof.Proof.KITileFull

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ)
variable (I1v : (d : Dev nD) → Buf (Elt F) (iLoc d)) (O4 : (d : Dev nD) → Buf (Elt F) (oLoc d))
  (TabOK : (d : Dev nD) → Buf (Elt F) (tLoc d) → Prop)

theorem defs₀_vector (c : Fin τ.nSC) (s : Fin τ.nSub) :
    defs₀ (F := F) (.scVector c s) 2 ()
      = SparseCore.onTile hcore2 hsub2 (fun c s => cc2__embbag_mean (coordsV c s) (Memref.whole main_v1_scv : Memref sig .scVector .hbm S4096x224 .i32) (Memref.isWhole_whole _) (Memref.whole main_v3_scv : Memref sig .scVector .hbm S507904x128 .f32) (Memref.isWhole_whole _) (Memref.whole main_v4_scv : Memref sig .scVector .hbm S4096x64 .f32) (Memref.isWhole_whole _) (Memref.whole cc2_scratch0 : Memref sig .scVector .vmem S128x224 .i32) (Memref.isWhole_whole _) (Memref.whole cc2_scratch1 : Memref sig .scVector .vmem S28672 .i32) (Memref.isWhole_whole _) (Memref.whole cc2_scratch2 : Memref sig .scVector .vmem S100x128 .f32) (Memref.isWhole_whole _) (Memref.whole cc2_scratch3 : Memref sig .scVector .vmem S100x128 .f32) (Memref.isWhole_whole _) (Memref.whole cc2_scratch4 : Memref sig .scVector .vmem S100x128 .f32) (Memref.isWhole_whole _) (Memref.whole cc2_scratch5 : Memref sig .scVector .vmem S100x128 .f32) (Memref.isWhole_whole _) (Memref.whole cc2_scratch6 : Memref sig .scVector .vmem S64x64 .f32) (Memref.isWhole_whole _) cc2_scratch7 cc2_scratch8 cc2_scratch9 cc2_scratch10 cc2_scoped0 cc2_scoped1 cc2_scoped2) ⟨⟩ c s := rfl

theorem tileObl (hF : (K (F := F)).Facts) (hI : ∀ d i, (I1v d i).toNat ≤ 999999)
    (hpool : ∀ (d : Dev nD) (c : Fin 2) (i : Fin 16) (Tb : Buf (Elt F) (tLoc d)) (G : Buf (Elt F) (oLoc d)),
      TabOK d Tb → TileSpec (F := F) d (LL c i) (I1v d) Tb G → PoolOK O4 d (LL c i) G) :
    (K (F := F)).TileObl (D (F := F)) 𝒱 (PP m I1v TabOK (PoolOK O4)) v₀ 0 := by
  intro d c i O W hO _ _
  simp only [show (PP m I1v TabOK (PoolOK O4)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  show iprop(_ ∗ _ ∗ goP I1v (fun d => mT m d main_v4) TabOK d (Fin.cast nCore_zero c) (Fin.cast nSub_zero i) ∗ _) ⊢
    wp _ _ _ _ (fun _ => iprop(tdP I1v TabOK (PoolOK O4) d (Fin.cast nCore_zero c) (Fin.cast nSub_zero i) ∗ _))
  unfold goP tdP tabPts outPts
  iintro ⟨#Hlv, -, ⟨Hi, ⟨%Tb, %hTb, Ht⟩, HoA, HoB⟩, Hsb, Hss, HO⟩
  iapply (wp_wand_r frame _ Set.univ)
  isplitl [Hi Ht HoA HoB Hsb Hss HO]
  · iapply (tile_body (F := F) d (LL (Fin.cast nCore_zero c) (Fin.cast nSub_zero i)) hF O W hO _ _ (I1v d) Tb (mT m d main_v4) (hI d))
    isplitr; · iexact Hlv
    isplitl [Hi]; · iexact Hi
    isplitl [Ht]; · iexact Ht
    isplitl [HoA]; · iexact HoA
    isplitl [HoB]; · iexact HoB
    isplitl [Hsb]; · iexact Hsb
    isplitl [Hss]; · iexact Hss
    iexact HO
  · iintro %_ Hpost
    icases Hpost with ⟨Hi, Ht, ⟨%G, %hG, HoA, HoB⟩, Hsb, Hss, %W', %hW', HO⟩
    isplitl [Hi Ht HoA HoB]
    · isplitl [Hi]; · iexact Hi
      isplitl [Ht]
      · iexists Tb; isplitr; · ipureintro; exact hTb
        iexact Ht
      iexists G; isplitr; · ipureintro; exact hpool d _ _ Tb G hTb hG
      isplitl [HoA]; · iexact HoA
      iexact HoB
    isplitl [Hsb]; · iexact Hsb
    isplitl [Hss]; · iexact Hss
    iexists W'; isplitr
    · ipureintro; exact fun p hp => (hW' p hp).imp_right Or.inl
    · iexact HO

end Cert.Proof.KI

end
-- ==== Proof.KITileValue.lean ====
/-
  The value of the SparseCore call. A subcore's pooled rows, as the kernel's own fold over the padded indices and the
  packed table, read only the packed table's entries whose source column lies inside the table: an index word
  `x ≤ 999999` names packed row `16384 (x / 32768) + x % 16384` and the 64 lanes from `64 ((x / 16384) % 2)`, whose
  source column is `x` itself. So the fold is the same on any two tables that agree on those entries; on the packed
  table it is the sum of the table's rows the bag's 200 indices name, times the named constant.
-/
import proofs.«207435_g27118423507386_cont_sun_m_668_27_alg».proof.Proof.KITileSpec
import proofs.«207435_g27118423507386_cont_sun_m_668_27_alg».proof.Proof.KIRdats
import proofs.«207435_g27118423507386_cont_sun_m_668_27_alg».proof.Proof.KII1
import proofs.«207435_g27118423507386_cont_sun_m_668_27_alg».proof.Proof.KILaunchC
import proofs.«207435_g27118423507386_cont_sun_m_668_27_alg».proof.Proof.KernelSpec
import proofs.«207435_g27118423507386_cont_sun_m_668_27_alg».proof.Proof.KIOutSplit
import Idealize.ShloMosaic.PureOps.Ideal.Laws

noncomputable section

namespace Cert.Proof.KI

open Cert.KernelIdeal Cert.KernelIdeal.Gen
open Idealize.ShloMosaic Idealize.ShloMosaic.TcCoe Idealize.ShloMosaic.ValueIdx
open Idealize.ShloMosaic.SparseCore (S V T)
open Idealize.SL.Sem

/-! ## The packed row and lane an index word names -/

/-- The packed row: the word's bits 15 and up moved down one place, over its low 14 bits. -/
theorem packW_toNat (x : BitVec 32) : (packW x).toNat = 16384 * (x.toNat / 32768) + x.toNat % 16384 := by
  have hx := x.isLt
  unfold packW
  rw [BitVec.toNat_or, BitVec.toNat_shiftLeft, BitVec.toNat_ushiftRight, BitVec.toNat_and]
  have h1 : (16383#32 : BitVec 32).toNat = 2 ^ 14 - 1 := by decide
  rw [h1, Nat.and_two_pow_sub_one_eq_mod, Nat.shiftRight_eq_div_pow, Nat.shiftLeft_eq]
  have h2 : x.toNat / 2 ^ 15 * 2 ^ 14 % 2 ^ 32 = 2 ^ 14 * (x.toNat / 2 ^ 15) := by
    rw [Nat.mod_eq_of_lt (by omega)]; omega
  rw [h2, ← Nat.two_pow_add_eq_or_of_lt (Nat.mod_lt _ (by decide))]
  norm_num

/-- The first lane: 64 times the word's bit 14. -/
theorem offW_toNat (x : BitVec 32) : (offW x).toNat = 64 * (x.toNat / 16384 % 2) := by
  have hx := x.isLt
  unfold offW
  rw [BitVec.toNat_mul, BitVec.toNat_and, BitVec.toNat_ushiftRight]
  have h1 : (1#32 : BitVec 32).toNat = 2 ^ 1 - 1 := by decide
  have h64 : (64#32 : BitVec 32).toNat = 64 := by decide
  rw [h1, h64, Nat.and_two_pow_sub_one_eq_mod, Nat.shiftRight_eq_div_pow]
  have : x.toNat / 2 ^ 14 % 2 ^ 1 < 2 := Nat.mod_lt _ (by decide)
  rw [Nat.mod_eq_of_lt (by omega)]
  norm_num; omega

/-! ## The fold reads only entries whose source column is inside the table -/

section Congr

variable {F : FTy → Type} [FloatOps F] [Named F]

/-- Two packed tables that agree wherever the source column is inside the table. -/
def AgreeValid (T T' : FVec F S507904x128 .f32) : Prop :=
  ∀ (r : Fin 507904) (h : Fin 2) (e' : Fin 64), 32768 * (r.val / 16384) + 16384 * h.val + r.val % 16384 < 1000000 →
    T (ix2 r ⟨64 * h.val + e'.val, by have := h.isLt; have := e'.isLt; omega⟩) = T' (ix2 r ⟨64 * h.val + e'.val, by have := h.isLt; have := e'.isLt; omega⟩)

/-- The entry an index word `x ≤ 999999` names has source column `x`: the two tables agree on it. -/
theorem rowVal_congr (T T' : FVec F S507904x128 .f32) (hTT' : AgreeValid T T') (x : BitVec 32) (hx : x.toNat ≤ 999999) (e : Fin 64) :
    rowVal T x e = rowVal T' x e := by
  unfold rowVal
  have hp := packW_toNat x
  have ho := offW_toNat x
  have he := e.isLt
  have hr : (packW x).toNat % 507904 = 16384 * (x.toNat / 32768) + x.toNat % 16384 := by rw [hp]; exact Nat.mod_eq_of_lt (by omega)
  have hc : ((offW x).toNat + e.val) % 128 = 64 * (x.toNat / 16384 % 2) + e.val := by rw [ho]; exact Nat.mod_eq_of_lt (by omega)
  have key := hTT' ⟨(packW x).toNat % 507904, Nat.mod_lt _ (by decide)⟩ ⟨x.toNat / 16384 % 2, Nat.mod_lt _ (by decide)⟩ e
    (by simp only [hr]; omega)
  have hcol : (⟨((offW x).toNat + e.val) % 128, Nat.mod_lt _ (by decide)⟩ : Fin 128) = ⟨64 * (x.toNat / 16384 % 2) + e.val, by omega⟩ := Fin.ext hc
  rw [hcol]; exact key

theorem halfFold_congr (fI : IVec S4096x224 32) (T T' : FVec F S507904x128 .f32) (hI : ∀ i, (fI i).toNat ≤ 999999) (hTT' : AgreeValid T T')
    (row : Fin 4096) (c0 : ℕ) (hc0 : c0 + 100 ≤ 224) (e : Fin 64) (acc : F .f32) :
    halfFold fI T row c0 hc0 e acc = halfFold fI T' row c0 hc0 e acc := by
  unfold halfFold
  congr 1
  funext a j
  rw [rowVal_congr T T' hTT' _ (hI _) e]

/-- A bag's pooled entry is the same on two packed tables that agree wherever the source column is inside the table. -/
theorem tileAt_congr (fI : IVec S4096x224 32) (T T' : FVec F S507904x128 .f32) (row : Fin 4096) (e : Fin 64)
    (hI : ∀ i, (fI i).toNat ≤ 999999)
    (hTT' : ∀ (r : Fin 507904) (h : Fin 2) (e' : Fin 64), 32768 * (r.val / 16384) + 16384 * h.val + r.val % 16384 < 1000000 →
      T (ix2 r ⟨64 * h.val + e'.val, by have := h.isLt; have := e'.isLt; omega⟩) = T' (ix2 r ⟨64 * h.val + e'.val, by have := h.isLt; have := e'.isLt; omega⟩)) :
    tileAt fI T row e = tileAt fI T' row e := by
  unfold tileAt
  rw [halfFold_congr fI T T' hI hTT' row 0 _ e _, halfFold_congr fI T T' hI hTT' row 112 _ e _]

end Congr

/-! ## A packed table all of whose entries are determined, and the call's value on it -/

section Canon

variable {F : FTy → Type} [FloatOps F] [Named F]
variable [∀ e, Nonempty (Elt F e)] (m : (ℓ : Loc nD τ sig) → Buf (Elt F) ℓ)

/-- The source column of the packed table's entry `(r, c)`, kept inside the table. -/
def srcCol (i : S507904x128.Idx) : Fin 1000000 :=
  ⟨min (32768 * ((i 0).val / 16384) + 16384 * ((i 1).val / 64) + (i 0).val % 16384) 999999, by omega⟩

/-- The packed table with every entry the transposed table's at its source column (the last block's overhang reads the
    table's last column): a table all of whose valid entries are the packed table's. -/
def Tcan (d : Dev nD) : Buf (Elt F) (tLoc d) := fun i =>
  V2c m d (ix2 (⟨(i 1).val % 64, Nat.mod_lt _ (by decide)⟩ : Fin 64) (srcCol i))

theorem tabOK_Tcan (d : Dev nD) : TabOKm m d (Tcan m d) := by
  intro r h e hv
  have hh := h.isLt
  have he := e.isLt
  unfold Tcan
  refine congrArg (V2c m d) ?_
  funext a
  match a with
  | ⟨0, _⟩ => exact Fin.ext (show (64 * h.val + e.val) % 64 = e.val by omega)
  | ⟨1, _⟩ =>
    refine Fin.ext ?_
    show min (32768 * (r.val / 16384) + 16384 * ((64 * h.val + e.val) / 64) + r.val % 16384) 999999
      = 32768 * (r.val / 16384) + 16384 * h.val + r.val % 16384
    have : (64 * h.val + e.val) / 64 = h.val := by omega
    rw [this]; omega

/-- The pooled rows as the kernel's fold over the padded indices and that table. -/
def O4g (d : Dev nD) : Buf (Elt F) (oLoc d) := tileFold (I1 m d) (Tcan m d)

/-- A subcore's pooled rows are that fold's, whatever the packed table holds on its undetermined entries. -/
theorem tile_pool_gen (hidx : ∀ d i, 0 ≤ (mT m d main_arg0 i).toInt ∧ (mT m d main_arg0 i).toInt ≤ 999999) :
    ∀ (d : Dev nD) (c : Fin 2) (i : Fin 16) (Tb : Buf (Elt F) (tLoc d)) (G : Buf (Elt F) (oLoc d)),
      TabOKm m d Tb → TileSpec d (LL c i) (I1 m d) Tb G → PoolOK (O4g m) d (LL c i) G := by
  intro d c i Tb G hTb hG x hx
  obtain ⟨row, e, rfl⟩ : ∃ (row : Fin 4096) (e : Fin 64), x = ix2 row e := ⟨x 0, x 1, eq_ix2 x⟩
  rw [hG row e hx]
  show tileAt (I1 m d) Tb row e = tileAt (I1 m d) (Tcan m d) row e
  exact tileAt_congr (I1 m d) Tb (Tcan m d) row e (I1_le m hidx d) fun r h e' hv =>
    (hTb r h e' hv).trans (tabOK_Tcan m d r h e' hv).symm

end Canon

/-! ## At the ideal instance the fold is the sum of the table's rows, times the named constant -/

section Transposed

variable {F : FTy → Type} [FloatOps F] [Named F]
variable [∀ e, Nonempty (Elt F e)] (m : (ℓ : Loc nD τ sig) → Buf (Elt F) ℓ)

/-- The transposed table, entry by entry. -/
theorem V2c_apply (d : Dev nD) (e : Fin 64) (n : Fin 1000000) : V2c m d (ix2 e n) = mT m d main_arg2 (ix2 n e) := by
  unfold V2c; exact transpose_ix2_apply _ _ _ _

/-- On the determined table, the entry an index word `x ≤ 999999` and a column name is the table's, at the row the
    word names. -/
theorem rowVal_Tcan (d : Dev nD) (x : BitVec 32) (hx : x.toNat ≤ 999999) (e : Fin 64) :
    rowVal (Tcan m d) x e = mT m d main_arg2 (ix2 (Cert.KernelIdeal.Spec.rowOf x) e) := by
  have hp := packW_toNat x
  have ho := offW_toNat x
  have he := e.isLt
  have hr : (packW x).toNat % 507904 = 16384 * (x.toNat / 32768) + x.toNat % 16384 := by rw [hp]; exact Nat.mod_eq_of_lt (by omega)
  have hc : ((offW x).toNat + e.val) % 128 = 64 * (x.toNat / 16384 % 2) + e.val := by rw [ho]; exact Nat.mod_eq_of_lt (by omega)
  unfold rowVal Tcan
  rw [V2c_apply]
  refine congrArg (mT m d main_arg2) ?_
  funext a
  match a with
  | ⟨0, _⟩ =>
    refine Fin.ext ?_
    show min (32768 * ((packW x).toNat % 507904 / 16384) + 16384 * (((offW x).toNat + e.val) % 128 / 64) + (packW x).toNat % 507904 % 16384) 999999
      = min x.toNat 999999
    rw [hr, hc]; omega
  | ⟨1, _⟩ =>
    refine Fin.ext ?_
    show ((offW x).toNat + e.val) % 128 % 64 = e.val
    rw [hc]; omega

end Transposed

section IdealValue

open Cert.KernelIdeal.Spec

variable (m : (ℓ : Loc nD τ sig) → Buf (Elt Ideal) ℓ)

/-- The pooled rows the idealized kernel's specification names. -/
def O4i (d : Dev nD) : Buf (Elt Ideal) (oLoc d) := pooledSpec (mT m d main_arg0) (mT m d main_arg2)

/-- A left fold of additions from `acc` is `acc` plus the sum (addition is commutative and associative). -/
theorem foldl_add_eq_sum {M : Type} [AddCommMonoid M] : ∀ (n : ℕ) (g : Fin n → M) (acc : M),
    Fin.foldl n (fun a j => a + g j) acc = acc + ∑ j, g j
  | 0, g, acc => by simp [Fin.foldl_zero]
  | n + 1, g, acc => by
    rw [Fin.foldl_succ_last, foldl_add_eq_sum n (fun j => g j.castSucc) acc, Fin.sum_univ_castSucc, add_assoc]

/-- The kernel's named reciprocal denotes the rational 1/200. -/
theorem inv_200 : Named.named (F := Ideal) κ "inv_200" (φ := .f32) 0x3BA3D70A#32 = ((1 / 200 : ℝ) : EReal) :=
  IdealRules.named_const.ideal_named_scalar _ _ _ _ rfl

/-- Position `k` of bag `row`, column `e`: the table's entry the bag's sum reads. -/
def term (d : Dev nD) (row : Fin 4096) (e : Fin 64) (k : Fin 200) : EReal :=
  mT m d main_arg2 (ix2 (rowOf (mT m d main_arg0 (ix2 row k))) e)

variable (hidx : ∀ d i, 0 ≤ (mT m d main_arg0 i).toInt ∧ (mT m d main_arg0 i).toInt ≤ 999999)

include hidx in
/-- The first half's words are the bag's first hundred indices, -/
theorem termA (d : Dev nD) (row : Fin 4096) (e : Fin 64) (j : Fin 100) :
    rowVal (F := Ideal) (Tcan m d) (I1 m d (ix2 row ⟨0 + j.val, by omega⟩)) e = term m d row e ⟨j.val, by omega⟩ := by
  rw [rowVal_Tcan m d _ (I1_le m hidx d _) e, I1_apply, dif_pos (show (0 + j.val) < 100 by omega)]
  unfold term
  exact congrArg (fun k => mT m d main_arg2 (ix2 (rowOf (mT m d main_arg0 (ix2 row k))) e)) (Fin.ext (by show 0 + j.val = j.val; omega))

include hidx in
/-- the second half's its second hundred. -/
theorem termB (d : Dev nD) (row : Fin 4096) (e : Fin 64) (j : Fin 100) :
    rowVal (F := Ideal) (Tcan m d) (I1 m d (ix2 row ⟨112 + j.val, by omega⟩)) e = term m d row e ⟨100 + j.val, by omega⟩ := by
  rw [rowVal_Tcan m d _ (I1_le m hidx d _) e, I1_apply, dif_neg (show ¬ (112 + j.val) < 100 by omega),
    if_neg (show ¬ (112 + j.val) < 112 by omega), dif_pos (show (112 + j.val) < 212 by omega)]
  unfold term
  exact congrArg (fun k => mT m d main_arg2 (ix2 (rowOf (mT m d main_arg0 (ix2 row k))) e)) (Fin.ext (by show 112 + j.val - 12 = 100 + j.val; omega))

include hidx in
/-- The kernel's fold on the determined table is the specification's pooled entry. -/
theorem tileAt_Tcan_ideal (d : Dev nD) (row : Fin 4096) (e : Fin 64) :
    tileAt (F := Ideal) (I1 m d) (Tcan m d) row e = O4i m d (ix2 row e) := by
  unfold tileAt halfFold
  simp only [Ideal.addf_def, Ideal.mulf_def]
  rw [foldl_add_eq_sum, foldl_add_eq_sum, inv_200]
  show (Ideal.ofBits .f32 0x00000000#32 + _ + _) * _ = (∑ k : Fin (100 + 100), term m d row e k) * _
  rw [Ideal.ofBits_zero_f32, zero_add, Fin.sum_univ_add]
  refine congrArg (· * (((1 / 200 : ℝ)) : EReal)) ?_
  refine congrArg₂ (· + ·) (Finset.sum_congr rfl fun j _ => ?_) (Finset.sum_congr rfl fun j _ => ?_)
  · exact termA m hidx d row e j
  · exact termB m hidx d row e j

include hidx in
/-- A subcore's pooled rows are the specification's, whatever the packed table holds on its undetermined entries. -/
theorem tile_pool_ideal : ∀ (d : Dev nD) (c : Fin 2) (i : Fin 16) (Tb : Buf (Elt Ideal) (tLoc d)) (G : Buf (Elt Ideal) (oLoc d)),
    TabOKm m d Tb → TileSpec (F := Ideal) d (LL c i) (I1 m d) Tb G → PoolOK (O4i m) d (LL c i) G := by
  intro d c i Tb G hTb hG x hx
  obtain ⟨row, e, rfl⟩ : ∃ (row : Fin 4096) (e : Fin 64), x = ix2 row e := ⟨x 0, x 1, eq_ix2 x⟩
  rw [tile_pool_gen m hidx d c i Tb G hTb hG (ix2 row e) hx]
  exact tileAt_Tcan_ideal m hidx d row e

end IdealValue

end Cert.Proof.KI

end
-- ==== Proof.BridgePre.lean ====
/-
  The precondition read back at the bags' indices. The predicate is a conjunction of all-reductions, one of them over
  the pointwise conjunction of "index ≥ 0" and "index ≤ 999999" (both comparisons signed); a reduction by "and" that
  came out 1 met only 1s, so both comparisons hold at every position of every bag.
-/
import proofs.«207435_g27118423507386_cont_sun_m_668_27_alg».proof.Defs
import proofs.«207435_g27118423507386_cont_sun_m_668_27_alg».proof.Proof.Gen.Pre_input_domain
import proofs.«207435_g27118423507386_cont_sun_m_668_27_alg».proof.Proof.Gen.KernelIdeal
import Idealize.ShloMosaic.Lib.ReduceAll

noncomputable section

namespace Cert.Proof.Bridge

open Idealize.ShloMosaic Idealize.SL.Sem

/-- What the precondition says of the bags' indices. -/
def IdxOK (idx : IVec Cert.KernelIdeal.S4096x200 32) : Prop := ∀ i, 0 ≤ (idx i).toInt ∧ (idx i).toInt ≤ 999999

/-- The rank-0 shape has one index. -/
local instance : Subsingleton Cert.Pre_input_domain.S_.Idx := ⟨fun _ _ => funext fun d => d.elim0⟩

theorem idx_ok_of_pre (m : (ℓ : Loc Cert.KernelIdeal.nD Cert.KernelIdeal.τ Cert.KernelIdeal.sig) → Buf (Elt Ideal) ℓ)
    (hpre : Cert.Pre_KernelIdeal m) (c : Dev Cert.KernelIdeal.nD) : IdxOK (m ((c.tc : Thread Cert.KernelIdeal.nD Cert.KernelIdeal.τ).loc Cert.KernelIdeal.main_arg0)) := by
  intro i
  -- the predicate's one word
  have e := congrFun (hpre c) (fun d => d.elim0)
  unfold Cert.Pre_input_domain.fn Cert.Pre_input_domain.fn_part1 Cert.Pre_input_domain.fn_part2 at e
  simp only [andi, IntOp.andi_eq_one] at e
  -- its conjunct about the bags' indices, at position i
  obtain ⟨⟨-, h⟩, -⟩ := e
  have hi := Host.reduce_andi_all _ _ _ _ _ h i
  simp only [andi, cmpi, broadcastInDim, constantI, IntOp.andi_eq_one, IntOp.cmpi_sge, IntOp.cmpi_sle] at hi
  rw [show (0#32 : BitVec 32).toInt = 0 from by decide, show (999999#32 : BitVec 32).toInt = 999999 from by decide] at hi
  exact hi

end Cert.Proof.Bridge

end
-- ==== Proof.KIFinal.lean ====
/-
  The idealized kernel's run with its result named: under the precondition the subcores' pooled rows are the
  specification's `pooledSpec` of the arguments (each subcore's rows by its task's value, the subcores' rows covering the
  array), and the last region's payload of them is `kernelOut`.
-/
import proofs.«207435_g27118423507386_cont_sun_m_668_27_alg».proof.Proof.KISteps
import proofs.«207435_g27118423507386_cont_sun_m_668_27_alg».proof.Proof.KILaunchF
import proofs.«207435_g27118423507386_cont_sun_m_668_27_alg».proof.Proof.KITileValue
import proofs.«207435_g27118423507386_cont_sun_m_668_27_alg».proof.Proof.KernelSpec
import proofs.«207435_g27118423507386_cont_sun_m_668_27_alg».proof.Proof.BridgePre

noncomputable section

namespace Cert.Proof.KI

open Cert.KernelIdeal Cert.KernelIdeal.Gen
open Idealize.ShloMosaic Idealize.ShloMosaic.TcCoe
open Idealize.ShloMosaic.SparseCore (S V T)
open Idealize.SL.Sem

variable (m : (ℓ : Loc nD τ sig) → Buf (Elt Ideal) ℓ) (ρ : Dev nD → PrngReg)

/-- The last region's result at the specification's pooled rows is the specification's `kernelOut` of the arguments. -/
theorem R9f_eq (d : Dev nD) :
    R9f m d (O4i m d) = Cert.KernelIdeal.Spec.kernelOut (mT m d main_arg0) (mT m d main_arg2) (mT m d main_arg3) (mT m d main_arg4) (mT m d main_arg5) (mT m d main_arg6) := by
  unfold R9f R9
  rw [arr3_out]
  show Cert.KernelIdeal.Gen.k3_pay1 (F := Ideal) (O4u m d (O4i m d) d) _ _ _ _ = _
  rw [O4u_self]
  rfl

/-- Pooled rows that are the specification's on every subcore's rows are the specification's. -/
theorem pooled_eq (d : Dev nD) (g : Buf (Elt Ideal) (oLoc d)) (h : Pooled (PoolOK (O4i m)) d g) : g = O4i m d :=
  funext fun x => by
    obtain ⟨c, i, hx⟩ := out_cover x
    obtain ⟨G, hG, hag⟩ := h c i
    rw [hag x hx, hG x hx]

theorem run_value (hpre : Cert.Pre_KernelIdeal m) :
    θ_run (Cert.KernelIdeal.defs (F := Ideal)) (Cert.KernelIdeal.threads (F := Ideal)) ⟨m, fun _ => 0, ρ⟩ (fun r => ∀ c : Dev nD,
      r.2.mem (bLoc c main_v9) = Cert.KernelIdeal.Spec.kernelOut (mT m c main_arg0) (mT m c main_arg2) (mT m c main_arg3) (mT m c main_arg4) (mT m c main_arg5) (mT m c main_arg6)
      ∧ r.2.mem (bLoc c main_arg0) = mT m c main_arg0
      ∧ r.2.mem (bLoc c main_arg1) = mT m c main_arg1
      ∧ r.2.mem (bLoc c main_arg2) = mT m c main_arg2
      ∧ r.2.mem (bLoc c main_arg3) = mT m c main_arg3
      ∧ r.2.mem (bLoc c main_arg4) = mT m c main_arg4
      ∧ r.2.mem (bLoc c main_arg5) = mT m c main_arg5
      ∧ r.2.mem (bLoc c main_arg6) = mT m c main_arg6) := by
  have hidx : ∀ d i, 0 ≤ (mT m d main_arg0 i).toInt ∧ (mT m d main_arg0 i).toInt ≤ 999999 := fun d => Cert.Proof.Bridge.idx_ok_of_pre m hpre d
  refine (θ_run (Cert.KernelIdeal.defs (F := Ideal)) _ _).mono (fun r h c => ?_)
    (run (F := Ideal) m ρ (I1 m) (R9f m) (TabOKm m) (PoolOK (O4i m)) (steps m)
      (tileObl m (I1 m) (O4i m) (TabOKm m) facts (I1_le m hidx) (tile_pool_ideal m hidx)))
  obtain ⟨h0, h1, h2, h3, h4, h5, h6, g, hg, h9⟩ := h c
  rw [pooled_eq m c g hg] at h9
  exact ⟨h9.trans (R9f_eq m c), h0, h1, h2, h3, h4, h5, h6⟩

theorem run_frame (hpre : Cert.Pre_KernelIdeal m) :
    θ_run (Cert.KernelIdeal.defs (F := Ideal)) (Cert.KernelIdeal.threads (F := Ideal)) ⟨m, fun _ => 0, ρ⟩ (fun r => ∀ c : Dev nD,
      r.2.mem (bLoc c main_arg0) = mT m c main_arg0
      ∧ r.2.mem (bLoc c main_arg1) = mT m c main_arg1
      ∧ r.2.mem (bLoc c main_arg2) = mT m c main_arg2
      ∧ r.2.mem (bLoc c main_arg3) = mT m c main_arg3
      ∧ r.2.mem (bLoc c main_arg4) = mT m c main_arg4
      ∧ r.2.mem (bLoc c main_arg5) = mT m c main_arg5
      ∧ r.2.mem (bLoc c main_arg6) = mT m c main_arg6) :=
  run_frame_gen m ρ (fun d => Cert.Proof.Bridge.idx_ok_of_pre m hpre d)

end Cert.Proof.KI

end
-- ==== Proof.KBSetup.lean ====
/-
  The word-level kernel's program as the SparseCore launch theorem sees it: the SparseCore configuration, the body table of
  the three TensorCore pipelines and the vector-subcore kernel, the configuration's stated side conditions, and the
  resource algebra of the certificate's ghost state — the launch handshakes' rounds, the rounds of the three pipelines'
  staging semaphores, and the counters of the kernel's own copies and gathers (each waited for by the subcore that
  issued it: no schedule is needed for them).
-/
import proofs.«207435_g27118423507386_cont_sun_m_668_27_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Tactic
import Idealize.ShloMosaic.Lib.Pipeline.Kit
import Idealize.ShloMosaic.Lib.Transfers
import proofs.«207435_g27118423507386_cont_sun_m_668_27_alg».proof.Proof.Gen.Kernel
import proofs.«207435_g27118423507386_cont_sun_m_668_27_alg».proof.Proof.Gen.Kernel.Launch
import proofs.«207435_g27118423507386_cont_sun_m_668_27_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging rounds, the transfers' counters -/

abbrev UH : Type := URounds (GSem nD τ sig) ℕ
abbrev UPp : Type := URounds (GSem nD τ sig) Unit
abbrev UU : Type := UH × (UPp × Counters)

local notation "𝕄" => MT nD τ sig (HIx 1) (Elt F) ℕ UU ℕ

/-- The handshakes' rounds: the left factor. The kernel's own copies and gathers run under the schedule-free
    counters, found by instance in the right factor's right factor. -/
abbrev EH : Emb UH (MT nD τ sig (HIx 1) (Elt F) ℕ UU ℕ) := embL
/-- The three pipelines' staging cells' rounds: the right factor's left factor. -/
def EP : Emb UPp (MT nD τ sig (HIx 1) (Elt F) ℕ UU ℕ) :=
  (Emb.inl : Emb UPp (UPp × Counters)).trans (embR : Emb (UPp × Counters) (MT nD τ sig (HIx 1) (Elt F) ℕ UU ℕ))

instance EP_landsIn : (EP : Emb UPp 𝕄).LandsIn (upEmb : UEmb _ 𝕄) := by unfold EP embR; infer_instance

end Cert.Proof.KB

end
-- ==== Proof.KBShared.lean ====
/-
  Names shared by the subcore's task and the launch: the three arrays of the SparseCore call as locations of a device, a
  place of the kernel's grid as its SparseCore and vector subcore, and the two halves of a subcore's 128 output rows as
  the two write-outs slice them.
-/
import proofs.«207435_g27118423507386_cont_sun_m_668_27_alg».proof.Proof.KBSetup

noncomputable section

namespace Cert.Proof.KB

open Cert.Kernel Cert.Kernel.Gen
open Idealize.ShloMosaic
open Idealize.ShloMosaic.SparseCore (S V T)
open Idealize.SL.Sem

/-- The padded indices, the packed table, the pooled rows: as locations of device `d`. -/
abbrev iLoc (d : Dev nD) : Loc nD τ sig := (SparseCore.T d).loc main_v1
abbrev tLoc (d : Dev nD) : Loc nD τ sig := (SparseCore.T d).loc main_v3
abbrev oLoc (d : Dev nD) : Loc nD τ sig := (SparseCore.T d).loc main_v4

abbrev cV (L : grid2.Coords) : Fin τ.nSC := (L 0).castLE hcore2
abbrev jV (L : grid2.Coords) : Fin τ.nSub := (L 1).castLE hsub2

/-- The place of the grid at SparseCore `c`, vector subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- The first half of the subcore's output rows, and the second, as the two write-outs slice them. -/
abbrev outA (L : grid2.Coords) : Memref sig .scVector .hbm S64x64 .f32 :=
  (Memref.whole main_v4_scv : Memref sig .scVector .hbm S4096x64 .f32).slice (Rect.unit (s := S4096x64) (k2_off184 L) S64x64.size (k2_off184_inb L)) (fun _ => rfl)
abbrev outB (L : grid2.Coords) : Memref sig .scVector .hbm S64x64 .f32 :=
  (Memref.whole main_v4_scv : Memref sig .scVector .hbm S4096x64 .f32).slice (Rect.unit (s := S4096x64) (k2_off365 L) S64x64.size (k2_off365_inb L)) (fun _ => rfl)

end Cert.Proof.KB

end
-- ==== Proof.KBLaunchA.lean ====
/-
  The launch element of the certificate's ghost state: the launch handshakes' rounds and, for the three pipelined
  kernels of @main, their staging cells' rounds and duty tokens, dealt to each device's TensorCore for the regions it
  will enter; the kernel's own copies and gathers need nothing from the launch.
-/
import proofs.«207435_g27118423507386_cont_sun_m_668_27_alg».proof.Proof.KBSetup

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

abbrev adm : (p : Fin 3) → (pcfgs (F := F) p).Adm := fun p => (cfgs p).toPCfg_adm

/-- What the launch leaves each device's TensorCore for its three regions: per pipeline the staging cells' ghost
    state and the duty tokens. -/
def G (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀_core : (ownU (u₀ (F := F)) : sProp 𝕄)
    ⊢ |={Set.univ}=> iprop(BI.own (EH (initOf (K (F := F)).hsCells (K (F := F)).hsToks)) ∗ bigSep Finset.univ (G (F := F))) := by
  unfold u₀
  iintro Hu
  ihave H := (ownU_pair _ _) $$ Hu
  icases H with ⟨HH, HR⟩
  ihave HP := (show (BI.own (embR (A := UH) ((initOf (Pipeline.cells (Pipeline.pin (pcfgs (F := F)) adm) cellOf_inj) (Pipeline.launchToks (Pipeline.pin (pcfgs (F := F)) adm) cellOf_inj), (1 : Counters)) : UPp × Counters)) : sProp 𝕄)
      ⊢ BI.own (EP (initOf (Pipeline.cells (Pipeline.pin (pcfgs (F := F)) adm) cellOf_inj) (Pipeline.launchToks (Pipeline.pin (pcfgs (F := F)) adm) cellOf_inj))) from BI.Entails.refl _) $$ HR
  imod (Pipeline.fund_ghost (Pipeline.pin (pcfgs (F := F)) adm) EP cellOf_inj) $$ HP with ⟨Hg, Ht⟩
  imodintro
  isplitl [HH]; · iexact HH
  unfold G
  rw [bigSep_congr fun d _ => bigSep_sep' (s := (Finset.univ : Finset (Fin 3))) _ _, bigSep_sep']
  isplitl [Hg]; · iexact Hg
  iexact Ht

end Cert.Proof.KB

end
-- ==== Proof.KBLaunchB.lean ====
/-
  What the launch handshakes carry for the one SparseCore call. The TensorCore hands each of the two SparseCores a half
  share of the padded indices and of the packed table (both only read) and the output rows of its sixteen subcores; the
  sequencer hands each subcore a read token of each and its own 128 output rows (two slices of 64), and gets them back
  with the rows at what the subcore's task left.
-/
import proofs.«207435_g27118423507386_cont_sun_m_668_27_alg».proof.Proof.KBShared
import proofs.«207435_g27118423507386_cont_sun_m_668_27_alg».proof.Proof.KBLaunchA

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (I1 : (d : Dev nD) → Buf (Elt F) (iLoc d)) (O0 : (d : Dev nD) → Buf (Elt F) (oLoc d))
-- what is known of the packed table's contents (its rows past the table's height are not determined by the launch
-- memory), and of a subcore's pooled rows
variable (TabOK : (d : Dev nD) → Buf (Elt F) (tLoc d) → Prop) (PoolOK : (d : Dev nD) → grid2.Coords → Buf (Elt F) (oLoc d) → Prop)

/-- A SparseCore's half of a read-only array, and a subcore's read token of that half. -/
def half (c : Fin 2) : PosShare TreeShare := if c = 0 then (fullShare : PosShare TreeShare).left else (fullShare : PosShare TreeShare).right
abbrev tok (c : Fin 2) (i : Fin 16) : PosShare TreeShare := Transfers.shareTok (half c) 16 i

theorem bound_zero : grid2.bound 0 = 2 := rfl
theorem bound_one : grid2.bound 1 = 16 := rfl
/-- The place of SparseCore `c`'s subcore `i`. -/
abbrev LL (c : Fin 2) (i : Fin 16) : grid2.Coords := coordsV (Fin.cast bound_zero.symm c) (Fin.cast bound_one.symm i)

/-- A subcore's two slices of the pooled rows, whole, at `f`. -/
def outPts (d : Dev nD) (c : Fin 2) (i : Fin 16) (f : Buf (Elt F) (oLoc d)) : sProp 𝕄 :=
  iprop((oLoc d ↦[(outA (LL c i)).view.set]{fullShare} f) ∗ (oLoc d ↦[(outB (LL c i)).view.set]{fullShare} f))

/-- A share of the packed table at contents of which `TabOK` holds. -/
def tabPts (d : Dev nD) (q : PosShare TreeShare) : sProp 𝕄 := iprop(∃ Tb, ⌜TabOK d Tb⌝ ∗ tLoc d ↦{q} Tb)

def goP (d : Dev nD) (c : Fin 2) (i : Fin 16) : sProp 𝕄 :=
  iprop((iLoc d ↦{tok c i} I1 d) ∗ tabPts TabOK d (tok c i) ∗ outPts d c i (O0 d))
def tdP (d : Dev nD) (c : Fin 2) (i : Fin 16) : sProp 𝕄 :=
  iprop((iLoc d ↦{tok c i} I1 d) ∗ tabPts TabOK d (tok c i) ∗ ∃ G, ⌜PoolOK d (LL c i) G⌝ ∗ outPts d c i G)
def stP (d : Dev nD) (c : Fin 2) : sProp 𝕄 :=
  iprop((iLoc d ↦{half c} I1 d) ∗ tabPts TabOK d (half c) ∗ bigSep Finset.univ fun i : Fin 16 => outPts d c i (O0 d))
/-- What comes back: the indices' half whole again; the table's half as its remainder and its sixteen tokens (their
    contents are not needed again); each subcore's rows at pooled values. -/
def dnP (d : Dev nD) (c : Fin 2) : sProp 𝕄 :=
  iprop((iLoc d ↦{half c} I1 d) ∗ tabPts TabOK d (Transfers.shareDrop (half c) 16)
    ∗ (bigSep Finset.univ fun i : Fin 16 => tabPts TabOK d (tok c i))
    ∗ bigSep Finset.univ fun i : Fin 16 => iprop(∃ G, ⌜PoolOK d (LL c i) G⌝ ∗ outPts d c i G))

def P : (K (F := F)).Pay (nD := nD) (Val := Elt F) (Name := ℕ) (U := UU) where
  st := fun q d c => match q with | 0 => stP I1 O0 TabOK d (Fin.cast nCore_zero c)
  dn := fun q d c => match q with | 0 => dnP I1 TabOK PoolOK d (Fin.cast nCore_zero c)
  go := fun q d c i => match q with | 0 => goP I1 O0 TabOK d (Fin.cast nCore_zero c) (Fin.cast nSub_zero i)
  td := fun q d c i => match q with | 0 => tdP I1 TabOK PoolOK d (Fin.cast nCore_zero c) (Fin.cast nSub_zero i)
  x := fun _ _ => iprop(emp)

instance P_storable : (P (F := F) I1 O0 TabOK PoolOK).IsStorable where
  st q d c := match q with | 0 => by unfold P stP tabPts outPts; infer_instance
  dn q d c := match q with | 0 => by unfold P dnP tabPts outPts; infer_instance
  go q d c i := match q with | 0 => by unfold P goP tabPts outPts; infer_instance
  td q d c i := match q with | 0 => by unfold P tdP tabPts outPts; infer_instance

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P I1 O0 TabOK PoolOK) 0 := by
  intro d c
  show stP I1 O0 TabOK d (Fin.cast nCore_zero c) ⊢ |={Set.univ}=> iprop(
      (bigSep Finset.univ fun i : Fin ((K (F := F)).nSub 0) => goP I1 O0 TabOK d (Fin.cast nCore_zero c) (Fin.cast nSub_zero i))
      ∗ ((bigSep Finset.univ fun i : Fin ((K (F := F)).nSub 0) => tdP I1 TabOK PoolOK d (Fin.cast nCore_zero c) (Fin.cast nSub_zero i))
          -∗ dnP I1 TabOK PoolOK d (Fin.cast nCore_zero c)))
  rw [bigSep_tasks (F := F) (fun i => goP I1 O0 TabOK d (Fin.cast nCore_zero c) i), bigSep_tasks (F := F) (fun i => tdP I1 TabOK PoolOK d (Fin.cast nCore_zero c) i)]
  generalize Fin.cast nCore_zero c = c'
  unfold stP goP tdP dnP tabPts
  rw [bigSep_sep', bigSep_sep', bigSep_sep', bigSep_sep']
  iintro ⟨Hi, ⟨%Tb, %hTb, Ht⟩, Ho⟩
  have hmono : (bigSep Finset.univ fun i : Fin 16 => (tLoc d ↦{tok c' i} Tb : sProp 𝕄))
      ⊢ bigSep Finset.univ fun i : Fin 16 => (iprop(∃ Tb, ⌜TabOK d Tb⌝ ∗ tLoc d ↦{tok c' i} Tb) : sProp 𝕄) :=
    bigSep_mono fun i _ => show (tLoc d ↦{tok c' i} Tb : sProp 𝕄) ⊢ iprop(∃ Tb, ⌜TabOK d Tb⌝ ∗ tLoc d ↦{tok c' i} Tb) from by
      iintro H; iexists Tb; isplitr; · ipureintro; exact hTb
      iexact H
  ihave Hi' := (Transfers.pointsTo_toks (half c') 16).1 $$ Hi
  ihave Ht' := (Transfers.pointsTo_toks (half c') 16).1 $$ Ht
  icases Hi' with ⟨Hid, Hit⟩
  icases Ht' with ⟨Htd, Htt⟩
  imodintro
  isplitl [Hit Htt Ho]
  · isplitl [Hit]; · iexact Hit
    isplitl [Htt]
    · iapply hmono
      iexact Htt
    iexact Ho
  iintro ⟨Hit, Htt, Ho⟩
  isplitl [Hid Hit]
  · iapply (Transfers.pointsTo_toks (half c') 16).2
    isplitl [Hid]; · iexact Hid
    iexact Hit
  isplitl [Htd]
  · iexists Tb; isplitr; · ipureintro; exact hTb
    iexact Htd
  isplitl [Htt]; · iexact Htt
  iexact Ho

end Cert.Proof.KB

end
-- ==== Proof.KBTc.lean ====
/-
  The TensorCore's side of the launch handshakes around the pipelined regions: what it owes (the start signals of the
  calls still to come) is owed at a call's index, never at the kernels' own index `none`, so a region's staging waits —
  at index `none`, level 0 — are admissible under it; and the pairs a region's waits record keep the bound the
  handshake state asks of the recorded pairs.
-/
import proofs.«207435_g27118423507386_cont_sun_m_668_27_alg».proof.Proof.KBLaunchA

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- What the TensorCore owes before call `n` is owed at calls' indices only. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The (own cell, index) pairs at or below the level the handshake state allows before call `n`. -/
def RcOf (d : Dev nD) (n : ℕ) : Set (SemLoc sig × HIx 1) := {p | (K (F := F)).lev (SparseCore.T d, p.1) p.2 ≤ 8 * n}

theorem wBelow_of_sub (d : Dev nD) (n : ℕ) (W : Waits sig (HIx 1)) (h : ∀ p ∈ W, p ∈ RcOf (F := F) d n ∨ p.2 = none) :
    (K (F := F)).WBelow (SparseCore.T d) W (8 * n) := by
  intro p hp
  rcases h p hp with h | h
  · exact h
  · rw [h, SparseCore.Cfg.lev_none]; exact Nat.zero_le _

theorem mem_RcOf_of_wBelow (d : Dev nD) (n : ℕ) (W : Waits sig (HIx 1)) (h : (K (F := F)).WBelow (SparseCore.T d) W (8 * n)) :
    ∀ p ∈ W, p ∈ RcOf (F := F) d n := fun p hp => h p hp

/-- What the TensorCore owes before call `n`, its recorded pairs within the handshake state's bound. -/
def owesP (d : Dev nD) (n : ℕ) : sProp 𝕄 :=
  iprop(∃ W, ⌜(K (F := F)).WBelow (SparseCore.T d) W (8 * n)⌝ ∗ owes (SparseCore.T d) ((K (F := F)).Otc d n) W)

/-- A region's share of the launch's ghost state. -/
abbrev ghostP (p : Fin 3) (d : Dev nD) : sProp 𝕄 :=
  iprop(Pipeline.cellsGhost (Pipeline.pin (pcfgs (F := F)) adm) EP p d ∗ Pipeline.toksInit (Pipeline.pin (pcfgs (F := F)) adm) EP p d)

theorem G_eq (d : Dev nD) : (G (F := F) d : sProp 𝕄) = iprop(ghostP 0 d ∗ ghostP 1 d ∗ ghostP 2 d) := by
  unfold G
  exact bigSep_univ_eq_bigSepL [(0 : Fin 3), (1 : Fin 3), (2 : Fin 3)] (by decide) (by decide) _

end Cert.Proof.KB

end
-- ==== Proof.KBVals.lean ====
/-
  The contents the host operations of @main leave in their buffers, as functions of the launch memory: the transposed
  indices, the transposed table, the two weight matrices transposed and the two bias vectors as one-row matrices.
-/
import proofs.«207435_g27118423507386_cont_sun_m_668_27_alg».proof.Proof.KBShared
import proofs.«207435_g27118423507386_cont_sun_m_668_27_alg».proof.Proof.KBTc

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

/-- A TensorCore buffer of device `d` as a location, and its launch contents. -/
abbrev bLoc (d : Dev nD) (b : Ref sig .tc) : Loc nD τ sig := (SparseCore.T d).loc b
abbrev mT (d : Dev nD) (b : Ref sig .tc) : Buf (Elt F) (bLoc d b) := m (bLoc d b)

/-- The transposed indices (`%0`) and the transposed table (`%2`). -/
def V0c (d : Dev nD) : Buf (Elt F) (bLoc d main_v0) := transpose S200x4096 [1, 0] (mT m d main_arg0) transposes_S4096x200_S200x4096_1_0
def V2c (d : Dev nD) : Buf (Elt F) (bLoc d main_v2) := transpose S64x1000000 [1, 0] (mT m d main_arg2) transposes_S1000000x64_S64x1000000_1_0
/-- The host's re-laid weights (`%5` … `%8`). -/
def V5c (d : Dev nD) : Buf (Elt F) (bLoc d main_v5) := transpose S64x128 [1, 0] (mT m d main_arg3) transposes_S128x64_S64x128_1_0
def V6c (d : Dev nD) : Buf (Elt F) (bLoc d main_v6) := shapeCast S1x128 (mT m d main_arg4) shapeCasts_S128_S1x128
def V7c (d : Dev nD) : Buf (Elt F) (bLoc d main_v7) := transpose S128x2 [1, 0] (mT m d main_arg5) transposes_S2x128_S128x2_1_0
def V8c (d : Dev nD) : Buf (Elt F) (bLoc d main_v8) := shapeCast S1x2 (mT m d main_arg6) shapeCasts_S2_S1x2

end Cert.Proof.KB

end
-- ==== Proof.KBLaunchC.lean ====
/-
  @main on a device's TensorCore, step by step: the transposition of the indices, the first pipelined region (their
  padded re-layout), the transposition of the table, the second region (its packed re-layout), the SparseCore call (each
  SparseCore handed a half share of the padded indices and of the packed table and its subcores' output rows; the pooled
  rows put together again from the subcores' pieces), the four re-layouts of the weights, the third region (the
  perceptron and the softmax). The arguments are only ever read.
-/
import proofs.«207435_g27118423507386_cont_sun_m_668_27_alg».proof.Proof.KBLaunchB
import proofs.«207435_g27118423507386_cont_sun_m_668_27_alg».proof.Proof.KBVals

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The steps of @main, one statement each: the six host operations (each over its operand and result buffers) and the
    three pipelined regions (each over its windows' arrays, what the TensorCore owes, and its share of the launch's ghost
    state). -/
structure Steps (I1v : (d : Dev nD) → Buf (Elt F) (iLoc d))
    (R9f : (d : Dev nD) → Buf (Elt F) (oLoc d) → Buf (Elt F) (bLoc d main_v9)) (TabOK : (d : Dev nD) → Buf (Elt F) (tLoc d) → Prop) : Prop where
  v0 : ∀ (d : Dev nD) (a : Buf (Elt F) (bLoc d main_v0)) (Q : PUnit → sProp 𝕄),
      iprop(boundary (SparseCore.T d) ∗ (bLoc d main_arg0 ↦{fullShare} mT m d main_arg0) ∗ (bLoc d main_v0 ↦{fullShare} a)
          ∗ (iprop(boundary (SparseCore.T d) ∗ (bLoc d main_arg0 ↦{fullShare} mT m d main_arg0) ∗ (bLoc d main_v0 ↦{fullShare} V0c m d)) -∗ Q ⟨⟩))
        ⊢ wp frame (wpE ((K (F := F)).defs (D (F := F))) 𝒱 (SparseCore.T d) none) Set.univ (hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)) Q
  v2 : ∀ (d : Dev nD) (a : Buf (Elt F) (bLoc d main_v2)) (Q : PUnit → sProp 𝕄),
      iprop(boundary (SparseCore.T d) ∗ (bLoc d main_arg2 ↦{fullShare} mT m d main_arg2) ∗ (bLoc d main_v2 ↦{fullShare} a)
          ∗ (iprop(boundary (SparseCore.T d) ∗ (bLoc d main_arg2 ↦{fullShare} mT m d main_arg2) ∗ (bLoc d main_v2 ↦{fullShare} V2c m d)) -∗ Q ⟨⟩))
        ⊢ wp frame (wpE ((K (F := F)).defs (D (F := F))) 𝒱 (SparseCore.T d) none) Set.univ (hlo rfl (StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F))) (fun _ => .ret ⟨⟩)) Q
  v5 : ∀ (d : Dev nD) (a : Buf (Elt F) (bLoc d main_v5)) (Q : PUnit → sProp 𝕄),
      iprop(boundary (SparseCore.T d) ∗ (bLoc d main_arg3 ↦{fullShare} mT m d main_arg3) ∗ (bLoc d main_v5 ↦{fullShare} a)
          ∗ (iprop(boundary (SparseCore.T d) ∗ (bLoc d main_arg3 ↦{fullShare} mT m d main_arg3) ∗ (bLoc d main_v5 ↦{fullShare} V5c m d)) -∗ Q ⟨⟩))
        ⊢ wp frame (wpE ((K (F := F)).defs (D (F := F))) 𝒱 (SparseCore.T d) none) Set.univ (hlo rfl (StableHlo.unary main_arg3 main_v5 ((transpose S64x128 [1, 0] · transposes_S128x64_S64x128_1_0) : (⟨S128x64, .f32⟩ : BufTy).Contents (Elt F) → (⟨S64x128, .f32⟩ : BufTy).Contents (Elt F))) (fun _ => .ret ⟨⟩)) Q
  v6 : ∀ (d : Dev nD) (a : Buf (Elt F) (bLoc d main_v6)) (Q : PUnit → sProp 𝕄),
      iprop(boundary (SparseCore.T d) ∗ (bLoc d main_arg4 ↦{fullShare} mT m d main_arg4) ∗ (bLoc d main_v6 ↦{fullShare} a)
          ∗ (iprop(boundary (SparseCore.T d) ∗ (bLoc d main_arg4 ↦{fullShare} mT m d main_arg4) ∗ (bLoc d main_v6 ↦{fullShare} V6c m d)) -∗ Q ⟨⟩))
        ⊢ wp frame (wpE ((K (F := F)).defs (D (F := F))) 𝒱 (SparseCore.T d) none) Set.univ (hlo rfl (StableHlo.reshape main_arg4 main_v6 rfl shapeCasts_S128_S1x128) (fun _ => .ret ⟨⟩)) Q
  v7 : ∀ (d : Dev nD) (a : Buf (Elt F) (bLoc d main_v7)) (Q : PUnit → sProp 𝕄),
      iprop(boundary (SparseCore.T d) ∗ (bLoc d main_arg5 ↦{fullShare} mT m d main_arg5) ∗ (bLoc d main_v7 ↦{fullShare} a)
          ∗ (iprop(boundary (SparseCore.T d) ∗ (bLoc d main_arg5 ↦{fullShare} mT m d main_arg5) ∗ (bLoc d main_v7 ↦{fullShare} V7c m d)) -∗ Q ⟨⟩))
        ⊢ wp frame (wpE ((K (F := F)).defs (D (F := F))) 𝒱 (SparseCore.T d) none) Set.univ (hlo rfl (StableHlo.unary main_arg5 main_v7 ((transpose S128x2 [1, 0] · transposes_S2x128_S128x2_1_0) : (⟨S2x128, .f32⟩ : BufTy).Contents (Elt F) → (⟨S128x2, .f32⟩ : BufTy).Contents (Elt F))) (fun _ => .ret ⟨⟩)) Q
  v8 : ∀ (d : Dev nD) (a : Buf (Elt F) (bLoc d main_v8)) (Q : PUnit → sProp 𝕄),
      iprop(boundary (SparseCore.T d) ∗ (bLoc d main_arg6 ↦{fullShare} mT m d main_arg6) ∗ (bLoc d main_v8 ↦{fullShare} a)
          ∗ (iprop(boundary (SparseCore.T d) ∗ (bLoc d main_arg6 ↦{fullShare} mT m d main_arg6) ∗ (bLoc d main_v8 ↦{fullShare} V8c m d)) -∗ Q ⟨⟩))
        ⊢ wp frame (wpE ((K (F := F)).defs (D (F := F))) 𝒱 (SparseCore.T d) none) Set.univ (hlo rfl (StableHlo.reshape main_arg6 main_v8 rfl shapeCasts_S2_S1x2) (fun _ => .ret ⟨⟩)) Q
  r0 : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1v d) ∗ owesP d 0) -∗ Q ⟨⟩))
        ⊢ wp frame (wpE ((K (F := F)).defs (D (F := F))) 𝒱 (SparseCore.T d) none) Set.univ (Prog.lift (.customCall (SparseCore.inner (Pipeline.entry 0)) ())) Q
  r1 : ∀ (d : Dev nD) (Q : PUnit → sProp 𝕄),
      iprop(levAts (K (F := F)).L (K (F := F)).lev ∗ boundary (SparseCore.T d) ∗ (bLoc d main_v2 ↦{fullShare} V2c m d) ∗ (bLoc d main_v3 ↦{fullShare} mT m d main_v3) ∗ owesP d 0 ∗ ghostP 1 d
          ∗ (iprop(boundary (SparseCore.T d) ∗ (∃ a2, (bLoc d main_v2 ↦{fullShare} a2)) ∗ (∃ Tb, ⌜TabOK d Tb⌝ ∗ tLoc d ↦{fullShare} Tb) ∗ owesP d 0) -∗ Q ⟨⟩))
        ⊢ wp frame (wpE ((K (F := F)).defs (D (F := F))) 𝒱 (SparseCore.T d) none) Set.univ (Prog.lift (.customCall (SparseCore.inner (Pipeline.entry 1)) ())) Q
  r3 : ∀ (d : Dev nD) (g : Buf (Elt F) (oLoc d)) (Q : PUnit → sProp 𝕄),
      iprop(levAts (K (F := F)).L (K (F := F)).lev ∗ boundary (SparseCore.T d) ∗ (oLoc d ↦{fullShare} g) ∗ (bLoc d main_v5 ↦{fullShare} V5c m d) ∗ (bLoc d main_v6 ↦{fullShare} V6c m d) ∗ (bLoc d main_v7 ↦{fullShare} V7c m d) ∗ (bLoc d main_v8 ↦{fullShare} V8c m d) ∗ (bLoc d main_v9 ↦{fullShare} mT m d main_v9) ∗ owesP d 1 ∗ ghostP 2 d
          ∗ (iprop(boundary (SparseCore.T d) ∗ (bLoc d main_v9 ↦{fullShare} R9f d g) ∗ owesP d 1) -∗ Q ⟨⟩))
        ⊢ wp frame (wpE ((K (F := F)).defs (D (F := F))) 𝒱 (SparseCore.T d) none) Set.univ (Prog.lift (.customCall (SparseCore.inner (Pipeline.entry 2)) ())) Q

omit [FloatOps F] in
/-- The TensorCore's unscoped buffers, one by one. -/
theorem unscopedBufs_eq (d : Dev nD) (W : (b : Ref sig .tc) → Buf (Elt F) ((d.tc : Thread nD τ).loc b)) :
    (unscopedBufs d W : sProp 𝕄) = iprop((bLoc d main_arg0 ↦{fullShare} W main_arg0) ∗ (bLoc d main_arg1 ↦{fullShare} W main_arg1) ∗ (bLoc d main_arg2 ↦{fullShare} W main_arg2) ∗ (bLoc d main_arg3 ↦{fullShare} W main_arg3) ∗ (bLoc d main_arg4 ↦{fullShare} W main_arg4) ∗ (bLoc d main_arg5 ↦{fullShare} W main_arg5) ∗ (bLoc d main_arg6 ↦{fullShare} W main_arg6) ∗ (bLoc d main_v0 ↦{fullShare} W main_v0) ∗ (bLoc d main_v1 ↦{fullShare} W main_v1) ∗ (bLoc d main_v2 ↦{fullShare} W main_v2) ∗ (bLoc d main_v3 ↦{fullShare} W main_v3) ∗ (bLoc d main_v4 ↦{fullShare} W main_v4) ∗ (bLoc d main_v5 ↦{fullShare} W main_v5) ∗ (bLoc d main_v6 ↦{fullShare} W main_v6) ∗ (bLoc d main_v7 ↦{fullShare} W main_v7) ∗ (bLoc d main_v8 ↦{fullShare} W main_v8) ∗ (bLoc d main_v9 ↦{fullShare} W main_v9)) := by
  unfold unscopedBufs
  rw [show (Finset.univ.filter fun b : Ref sig .tc => ¬ b.isScoped) = {main_arg0, main_arg1, main_arg2, main_arg3, main_arg4, main_arg5, main_arg6, main_v0, main_v1, main_v2, main_v3, main_v4, main_v5, main_v6, main_v7, main_v8, main_v9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

/-- A subcore's pooled rows are the claimed ones: the instance of `PoolOKp` for a claim that names them. -/
def PoolOK (O4 : (d : Dev nD) → Buf (Elt F) (oLoc d)) (d : Dev nD) (L : grid2.Coords) (G : Buf (Elt F) (oLoc d)) : Prop :=
  ∀ x ∈ (outA L).view.set ∪ (outB L).view.set, G x = O4 d x

/-- The handshakes' payloads at this program's contents. -/
abbrev PP : (K (F := F)).Pay (nD := nD) (Val := Elt F) (Name := ℕ) (U := UU) :=
  P I1v (fun d => mT m d main_v4) TabOK PoolOKp

/-- The pooled rows put together from the subcores' pieces: on each subcore's rows they are rows of which `PoolOKp` holds. -/
def Pooled (d : Dev nD) (g : Buf (Elt F) (oLoc d)) : Prop :=
  ∀ (c : Fin 2) (i : Fin 16), ∃ G, PoolOKp d (LL c i) G ∧ ∀ x ∈ (outA (LL c i)).view.set ∪ (outB (LL c i)).view.set, g x = G x

/-- What @main leaves the claim: the seven arguments at their launch contents, the result at the last region's
    function of the pooled rows. -/
def FIN (d : Dev nD) : sProp 𝕄 :=
  iprop((bLoc d main_arg0 ↦{fullShare} mT m d main_arg0) ∗ (bLoc d main_arg1 ↦{fullShare} mT m d main_arg1) ∗ (bLoc d main_arg2 ↦{fullShare} mT m d main_arg2) ∗ (bLoc d main_arg3 ↦{fullShare} mT m d main_arg3) ∗ (bLoc d main_arg4 ↦{fullShare} mT m d main_arg4) ∗ (bLoc d main_arg5 ↦{fullShare} mT m d main_arg5) ∗ (bLoc d main_arg6 ↦{fullShare} mT m d main_arg6)
    ∗ ∃ g, ⌜Pooled PoolOKp d g⌝ ∗ (bLoc d main_v9 ↦{fullShare} R9f d g))

end Cert.Proof.KB

end
-- ==== Proof.KBLaunchD.lean ====
/-
  @main's run on a device's TensorCore, assembled from its steps.
-/
import proofs.«207435_g27118423507386_cont_sun_m_668_27_alg».proof.Proof.KBLaunchC

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem half_zero : half 0 = (fullShare : PosShare TreeShare).left := if_pos rfl
theorem half_one : half 1 = (fullShare : PosShare TreeShare).right := if_neg (by decide)

theorem st0_eq (d : Dev nD) :
    (bigSep Finset.univ fun c : Fin ((K (F := F)).nCore 0) => (PP m I1v TabOK PoolOKp).st 0 d c)
      = iprop(stP I1v (fun d => mT m d main_v4) TabOK d 0 ∗ stP I1v (fun d => mT m d main_v4) TabOK d 1) := by
  show (bigSep (Finset.univ : Finset (Fin 2)) fun c => stP I1v (fun d => mT m d main_v4) TabOK d c) = _
  exact bigSep_fin2 _
theorem dn0_eq (d : Dev nD) :
    (bigSep Finset.univ fun c : Fin ((K (F := F)).nCore 0) => (PP m I1v TabOK PoolOKp).dn 0 d c)
      = iprop(dnP I1v TabOK PoolOKp d 0 ∗ dnP I1v TabOK PoolOKp d 1) := by
  show (bigSep (Finset.univ : Finset (Fin 2)) fun c => dnP I1v TabOK PoolOKp d c) = _
  exact bigSep_fin2 _

set_option maxHeartbeats 1600000 in
theorem hmain (hS : Steps m I1v R9f TabOK)
    (hsplit : ∀ (d : Dev nD) (f : Buf (Elt F) (oLoc d)), (oLoc d ↦{fullShare} f : sProp 𝕄) = bigSep Finset.univ fun c : Fin 2 => bigSep Finset.univ fun i : Fin 16 => outPts d c i f)
    (hjoin : ∀ (d : Dev nD) (Φ : Fin 2 → Fin 16 → Buf (Elt F) (oLoc d) → Prop),
      (bigSep Finset.univ fun c : Fin 2 => bigSep Finset.univ fun i : Fin 16 => iprop(∃ G, ⌜Φ c i G⌝ ∗ outPts d c i G) : sProp 𝕄)
        ⊢ iprop(∃ g, ⌜∀ (c : Fin 2) (i : Fin 16), ∃ G, Φ c i G ∧ ∀ x ∈ (outA (LL c i)).view.set ∪ (outB (LL c i)).view.set, g x = G x⌝ ∗ (oLoc d ↦{fullShare} g)))
    (κ : GSem nD τ sig → ℕ) (d : Dev nD) :
    iprop((K (F := F)).ctx EH (PP m I1v TabOK PoolOKp) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R9f PoolOKp d) := by
  unfold SparseCore.Cfg.tcRes
  rw [unscopedBufs_eq, G_eq]
  unfold SparseCore.Cfg.tcSt
  simp only [main, wp_bind, wp_pure]
  iintro ⟨#Hctx, ⟨⟨%Wt, %hWt, HO⟩, Hat, Hrd, Hrs, Htoks⟩, ⟨Hb, ⟨Ha0, Ha1, Ha2, Ha3, Ha4, Ha5, Ha6, Hv0, Hv1, Hv2, Hv3, Hv4, Hv5, Hv6, Hv7, Hv8, Hv9⟩, Hts, Hpr⟩, ⟨Hg0, Hg1, Hg2⟩⟩
  ihave Hlv := (SparseCore.Cfg.ctx_levAts κ) $$ Hctx
  -- %0: the indices transposed
  iapply (hS.v0 d _ _)
  isplitl [Hb]; · iexact Hb
  isplitl [Ha0]; · iexact Ha0
  isplitl [Hv0]; · iexact Hv0
  iintro ⟨Hb, Ha0, Hv0⟩
  -- region 0: the padded re-layout
  iapply (hS.r0 d _)
  isplitr; · iexact Hlv
  isplitl [Hb]; · iexact Hb
  isplitl [Hv0]; · iexact Hv0
  isplitl [Hv1]; · iexact Hv1
  isplitl [HO]
  · unfold owesP; iexists Wt; isplitr; · ipureintro; exact hWt
    iexact HO
  isplitl [Hg0]; · iexact Hg0
  iintro ⟨Hb, Hv0, Hv1, HO⟩
  -- %2: the table transposed
  iapply (hS.v2 d _ _)
  isplitl [Hb]; · iexact Hb
  isplitl [Ha2]; · iexact Ha2
  isplitl [Hv2]; · iexact Hv2
  iintro ⟨Hb, Ha2, Hv2⟩
  -- region 1: the packed re-layout
  iapply (hS.r1 d _)
  isplitr; · iexact Hlv
  isplitl [Hb]; · iexact Hb
  isplitl [Hv2]; · iexact Hv2
  isplitl [Hv3]; · iexact Hv3
  isplitl [HO]; · iexact HO
  isplitl [Hg1]; · iexact Hg1
  iintro ⟨Hb, -, ⟨%Tb, %hTb, Hv3⟩, HO⟩
  -- the SparseCore call: halves of the indices and of the table, the output rows by subcore
  ihave Hi2 := (pointsTo_share (PosShare.mem_left_op_right (fullShare : PosShare TreeShare))).1 $$ Hv1
  icases Hi2 with ⟨HiL, HiR⟩
  ihave Ht2 := (pointsTo_share (PosShare.mem_left_op_right (fullShare : PosShare TreeShare))).1 $$ Hv3
  icases Ht2 with ⟨HtL, HtR⟩
  ihave Ho := (Entails.of_eq ((hsplit d _).trans (bigSep_fin2 _))) $$ Hv4
  icases Ho with ⟨Ho0, Ho1⟩
  iapply ((K (F := F)).wp_run (D (F := F)) 𝒱 (EH := EH) (P := PP m I1v TabOK PoolOKp) κ d 0)
  isplitr; · iexact Hctx
  isplitl [HO Hat Hrd Hrs Htoks]
  · unfold SparseCore.Cfg.tcSt owesP
    isplitl [HO]; · iexact HO
    isplitl [Hat]; · iexact Hat
    isplitl [Hrd]; · iexact Hrd
    isplitl [Hrs]; · iexact Hrs
    iexact Htoks
  isplitl [HiL HiR HtL HtR Ho0 Ho1]
  · rw [st0_eq]
    unfold stP tabPts
    rw [half_zero, half_one]
    isplitl [HiL HtL Ho0]
    · isplitl [HiL]; · iexact HiL
      isplitl [HtL]
      · iexists Tb; isplitr; · ipureintro; exact hTb
        iexact HtL
      iexact Ho0
    · isplitl [HiR]; · iexact HiR
      isplitl [HtR]
      · iexists Tb; isplitr; · ipureintro; exact hTb
        iexact HtR
      iexact Ho1
  iintro ⟨Hst, Hdn⟩
  ihave Hdn' := (Entails.of_eq (dn0_eq m I1v TabOK PoolOKp d)) $$ Hdn
  unfold dnP
  icases Hdn' with ⟨⟨HiL, -, -, Hp0⟩, ⟨HiR, -, -, Hp1⟩⟩
  -- the pooled rows put together again: they are the claimed ones
  ihave Hpj := (hjoin d (fun c i G => PoolOKp d (LL c i) G)) $$ [Hp0 Hp1]
  · rw [bigSep_fin2]; isplitl [Hp0]; · iexact Hp0
    iexact Hp1
  icases Hpj with ⟨%g, %hg, Hv4⟩
  -- what the TensorCore owes now: nothing at this call any more
  unfold SparseCore.Cfg.tcSt
  icases Hst with ⟨HO, Hat, Hrd, Hrs, Htoks⟩
  -- %5 … %8: the weights re-laid
  iapply (hS.v5 d _ _)
  isplitl [Hb]; · iexact Hb
  isplitl [Ha3]; · iexact Ha3
  isplitl [Hv5]; · iexact Hv5
  iintro ⟨Hb, Ha3, Hv5⟩
  iapply (hS.v6 d _ _)
  isplitl [Hb]; · iexact Hb
  isplitl [Ha4]; · iexact Ha4
  isplitl [Hv6]; · iexact Hv6
  iintro ⟨Hb, Ha4, Hv6⟩
  iapply (hS.v7 d _ _)
  isplitl [Hb]; · iexact Hb
  isplitl [Ha5]; · iexact Ha5
  isplitl [Hv7]; · iexact Hv7
  iintro ⟨Hb, Ha5, Hv7⟩
  iapply (hS.v8 d _ _)
  isplitl [Hb]; · iexact Hb
  isplitl [Ha6]; · iexact Ha6
  isplitl [Hv8]; · iexact Hv8
  iintro ⟨Hb, Ha6, Hv8⟩
  -- region 2: the perceptron and the softmax
  iapply (hS.r3 d g _)
  isplitr; · iexact Hlv
  isplitl [Hb]; · iexact Hb
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [HO]; · unfold owesP; iexact HO
  isplitl [Hg2]; · iexact Hg2
  iintro ⟨Hb, Hv9, HO⟩
  imodintro
  isplitl [HO Hat Hrd Hrs Htoks]
  · unfold owesP
    isplitl [HO]; · iexact HO
    isplitl [Hat]; · iexact Hat
    isplitl [Hrd]; · iexact Hrd
    isplitl [Hrs]; · iexact Hrs
    iexact Htoks
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexists g; isplitr; · ipureintro; exact hg
  iexact Hv9

end Cert.Proof.KB

end
-- ==== Proof.KBOutSplit.lean ====
/-
  The pooled rows taken apart and put together again. The array of 4096 rows of 64 is handed over as 64 blocks of 64
  rows: the subcore at SparseCore `c`, place `i` owns rows `256 i + 128 c` to `256 i + 128 c + 127`, as a first slice of
  64 rows and a second. The 64 blocks are pairwise disjoint (two different blocks start at different multiples of 64) and
  cover the array (a row `r` lies in the block numbered `r / 64`), so the whole array at full share is the separating
  conjunction of the blocks, and blocks held at different contents join to the whole array at contents agreeing with each
  on its rows.
-/
import proofs.«207435_g27118423507386_cont_sun_m_668_27_alg».proof.Proof.KBLaunchB
import Idealize.ShloMosaic.Lib.ValueIdx

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- The two slices as rectangles of the array. -/
theorem set_outA (L : grid2.Coords) :
    (outA L).view.set = (Rect.unit (s := S4096x64) (k2_off184 L) S64x64.size (k2_off184_inb L)).set :=
  View.set_slice_whole main_v4_scv _
theorem set_outB (L : grid2.Coords) :
    (outB L).view.set = (Rect.unit (s := S4096x64) (k2_off365 L) S64x64.size (k2_off365_inb L)).set :=
  View.set_slice_whole main_v4_scv _

/-- The first slice of a subcore's rows, by row number: rows `256 i + 128 c` up to 64 more (every column). -/
theorem mem_outA (c : Fin 2) (i : Fin 16) (x : S4096x64.Idx) :
    x ∈ (outA (LL c i)).view.set ↔ 256 * i.val + 128 * c.val ≤ (x 0).val ∧ (x 0).val < 256 * i.val + 128 * c.val + 64 := by
  rw [set_outA, Rect.mem_set_unit, Gen.k2_off184_eq]
  have h1 : (x 1).val < 64 := (x 1).isLt
  refine ⟨fun h => h 0, fun h => Fin.forall_fin_two.mpr ⟨h, ?_⟩⟩
  show 0 ≤ (x 1).val ∧ (x 1).val < 0 + 64
  omega

/-- The second slice: the 64 rows after the first's. -/
theorem mem_outB (c : Fin 2) (i : Fin 16) (x : S4096x64.Idx) :
    x ∈ (outB (LL c i)).view.set ↔ 256 * i.val + 128 * c.val + 64 ≤ (x 0).val ∧ (x 0).val < 256 * i.val + 128 * c.val + 64 + 64 := by
  rw [set_outB, Rect.mem_set_unit, Gen.k2_off365_eq]
  have h1 : (x 1).val < 64 := (x 1).isLt
  refine ⟨fun h => h 0, fun h => Fin.forall_fin_two.mpr ⟨h, ?_⟩⟩
  show 0 ≤ (x 1).val ∧ (x 1).val < 0 + 64
  omega

theorem out_row_mem (c : Fin 2) (i : Fin 16) (r : Fin 4096) (e : Fin 64)
    (hr : 256 * i.val + 128 * c.val ≤ r.val ∧ r.val < 256 * i.val + 128 * c.val + 128) :
    ValueIdx.ix2 r e ∈ (outA (LL c i)).view.set ∪ (outB (LL c i)).view.set := by
  rw [Finset.mem_union, mem_outA, mem_outB]
  show (256 * i.val + 128 * c.val ≤ r.val ∧ r.val < 256 * i.val + 128 * c.val + 64)
    ∨ (256 * i.val + 128 * c.val + 64 ≤ r.val ∧ r.val < 256 * i.val + 128 * c.val + 64 + 64)
  omega

/-- Every index of the pooled rows lies in some subcore's rows: row `r` in those of place `r / 256` of SparseCore `(r % 256) / 128`. -/
theorem out_cover (x : S4096x64.Idx) : ∃ (c : Fin 2) (i : Fin 16), x ∈ (outA (LL c i)).view.set ∪ (outB (LL c i)).view.set := by
  have hx : (x 0).val < 4096 := (x 0).isLt
  refine ⟨⟨(x 0).val % 256 / 128, by omega⟩, ⟨(x 0).val / 256, by omega⟩, ?_⟩
  rw [Finset.mem_union, mem_outA, mem_outB]
  show (256 * ((x 0).val / 256) + 128 * ((x 0).val % 256 / 128) ≤ (x 0).val
      ∧ (x 0).val < 256 * ((x 0).val / 256) + 128 * ((x 0).val % 256 / 128) + 64)
    ∨ (256 * ((x 0).val / 256) + 128 * ((x 0).val % 256 / 128) + 64 ≤ (x 0).val
      ∧ (x 0).val < 256 * ((x 0).val / 256) + 128 * ((x 0).val % 256 / 128) + 64 + 64)
  omega

/-- The 64 blocks: SparseCore `c`, place `i`, first or second slice. -/
def blk (t : (Fin 2 × Fin 16) × Fin 2) : Finset S4096x64.Idx :=
  if t.2 = 0 then (outA (LL t.1.1 t.1.2)).view.set else (outB (LL t.1.1 t.1.2)).view.set

theorem blk_zero (c : Fin 2) (i : Fin 16) : blk ((c, i), 0) = (outA (LL c i)).view.set := if_pos rfl
theorem blk_one (c : Fin 2) (i : Fin 16) : blk ((c, i), 1) = (outB (LL c i)).view.set := if_neg (show ¬ ((1 : Fin 2) = 0) by decide)

/-- Block `(c, i, b)` is the rows `64 (4 i + 2 c + b)` up to 64 more. -/
theorem mem_blk (t : (Fin 2 × Fin 16) × Fin 2) (x : S4096x64.Idx) :
    x ∈ blk t ↔ 256 * t.1.2.val + 128 * t.1.1.val + 64 * t.2.val ≤ (x 0).val
      ∧ (x 0).val < 256 * t.1.2.val + 128 * t.1.1.val + 64 * t.2.val + 64 := by
  obtain ⟨⟨c, i⟩, b⟩ := t
  have hb : b = 0 ∨ b = 1 := by omega
  rcases hb with rfl | rfl
  · rw [blk_zero, mem_outA]; exact Iff.rfl
  · rw [blk_one, mem_outB]; exact Iff.rfl

/-- Two different blocks start at different multiples of 64, so share no row. -/
theorem blk_disjoint : ∀ t ∈ (Finset.univ : Finset ((Fin 2 × Fin 16) × Fin 2)), ∀ t' ∈ (Finset.univ : Finset ((Fin 2 × Fin 16) × Fin 2)),
    t ≠ t' → Disjoint (blk t) (blk t') := by
  intro t _ t' _ hne
  refine Finset.disjoint_left.mpr fun x hx hx' => hne ?_
  rw [mem_blk] at hx hx'
  obtain ⟨⟨c, i⟩, b⟩ := t
  obtain ⟨⟨c', i'⟩, b'⟩ := t'
  have hc := c.isLt; have hc' := c'.isLt; have hb := b.isLt; have hb' := b'.isLt
  simp only at hx hx'
  have e1 : i = i' := Fin.ext (by omega)
  have e2 : c = c' := Fin.ext (by omega)
  have e3 : b = b' := Fin.ext (by omega)
  rw [e1, e2, e3]

/-- Row `r` lies in the block numbered `r / 64`. -/
theorem blk_cover : (Finset.univ : Finset ((Fin 2 × Fin 16) × Fin 2)).biUnion blk = Finset.univ := by
  ext x
  simp only [Finset.mem_biUnion, Finset.mem_univ, true_and, iff_true]
  have hx : (x 0).val < 4096 := (x 0).isLt
  refine ⟨((⟨(x 0).val % 256 / 128, by omega⟩, ⟨(x 0).val / 256, by omega⟩), ⟨(x 0).val % 128 / 64, by omega⟩), ?_⟩
  rw [mem_blk]
  show 256 * ((x 0).val / 256) + 128 * ((x 0).val % 256 / 128) + 64 * ((x 0).val % 128 / 64) ≤ (x 0).val
    ∧ (x 0).val < 256 * ((x 0).val / 256) + 128 * ((x 0).val % 256 / 128) + 64 * ((x 0).val % 128 / 64) + 64
  omega

/-- The whole array is the 64 blocks. -/
theorem out_blocks (d : Dev nD) (f : Buf (Elt F) (oLoc d)) :
    (oLoc d ↦{fullShare} f : sProp 𝕄) = bigSep Finset.univ fun t : (Fin 2 × Fin 16) × Fin 2 => oLoc d ↦[blk t]{fullShare} f := by
  rw [← pointsTo_biUnion Finset.univ (ℓ := oLoc d) blk blk_disjoint, blk_cover]; try rfl

/-- A subcore's rows are its two blocks. -/
theorem outPts_blocks (d : Dev nD) (c : Fin 2) (i : Fin 16) (f : Buf (Elt F) (oLoc d)) :
    (outPts d c i f : sProp 𝕄) = bigSep Finset.univ fun b : Fin 2 => oLoc d ↦[blk ((c, i), b)]{fullShare} f := by
  rw [bigSep_univ_two, blk_zero, blk_one]; rfl

theorem out_split (d : Dev nD) (f : Buf (Elt F) (oLoc d)) :
    (oLoc d ↦{fullShare} f : sProp 𝕄) = bigSep Finset.univ fun c : Fin 2 => bigSep Finset.univ fun i : Fin 16 => outPts d c i f := by
  rw [out_blocks, bigSep_univ_prod, bigSep_univ_prod]
  exact bigSep_congr fun c _ => bigSep_congr fun i _ => (outPts_blocks d c i f).symm

/-- Blocks held subcore by subcore at contents `Gs` join to the whole array at contents agreeing with `Gs` block by block. -/
theorem blocks_join (d : Dev nD) (Gs : Fin 2 × Fin 16 → Buf (Elt F) (oLoc d)) :
    (bigSep Finset.univ fun p : Fin 2 × Fin 16 => (outPts d p.1 p.2 (Gs p) : sProp 𝕄))
      ⊢ iprop(∃ g, ⌜∀ t ∈ (Finset.univ : Finset ((Fin 2 × Fin 16) × Fin 2)), ∀ x ∈ blk t, g x = Gs t.1 x⌝ ∗ (oLoc d ↦{fullShare} g)) := by
  have e2 : (bigSep Finset.univ fun p : Fin 2 × Fin 16 => (outPts d p.1 p.2 (Gs p) : sProp 𝕄))
      = bigSep Finset.univ fun t : (Fin 2 × Fin 16) × Fin 2 => oLoc d ↦[blk t]{fullShare} Gs t.1 :=
    (bigSep_congr fun p _ => outPts_blocks d p.1 p.2 (Gs p)).trans
      (bigSep_univ_prod (fun t : (Fin 2 × Fin 16) × Fin 2 => (oLoc d ↦[blk t]{fullShare} Gs t.1 : sProp 𝕄))).symm
  have h : (bigSep Finset.univ fun t : (Fin 2 × Fin 16) × Fin 2 => (oLoc d ↦[blk t]{fullShare} Gs t.1 : sProp 𝕄))
      ⊢ iprop(∃ g, ⌜∀ t ∈ (Finset.univ : Finset ((Fin 2 × Fin 16) × Fin 2)), ∀ x ∈ blk t, g x = Gs t.1 x⌝
          ∗ (oLoc d ↦[(Finset.univ : Finset ((Fin 2 × Fin 16) × Fin 2)).biUnion blk]{fullShare} g)) :=
    pointsTo_biUnion_join (ℓ := oLoc d) Finset.univ blk (fun t => Gs t.1) (Gs (0, 0)) blk_disjoint
  rw [blk_cover] at h
  rw [e2]
  exact h

theorem out_join (d : Dev nD) (Φ : Fin 2 → Fin 16 → Buf (Elt F) (oLoc d) → Prop) :
    (bigSep Finset.univ fun c : Fin 2 => bigSep Finset.univ fun i : Fin 16 => iprop(∃ G, ⌜Φ c i G⌝ ∗ outPts d c i G) : sProp 𝕄)
      ⊢ iprop(∃ g, ⌜∀ (c : Fin 2) (i : Fin 16), ∃ G, Φ c i G ∧ ∀ x ∈ (outA (LL c i)).view.set ∪ (outB (LL c i)).view.set, g x = G x⌝ ∗ (oLoc d ↦{fullShare} g)) := by
  -- the subcores' contents chosen all at once
  have e1 : (bigSep Finset.univ fun c : Fin 2 => bigSep Finset.univ fun i : Fin 16 => iprop(∃ G, ⌜Φ c i G⌝ ∗ outPts d c i G) : sProp 𝕄)
      = bigSep Finset.univ fun p : Fin 2 × Fin 16 => iprop(∃ G, ⌜Φ p.1 p.2 G⌝ ∗ outPts d p.1 p.2 G) :=
    (bigSep_univ_prod (fun p : Fin 2 × Fin 16 => (iprop(∃ G, ⌜Φ p.1 p.2 G⌝ ∗ outPts d p.1 p.2 G) : sProp 𝕄))).symm
  rw [e1]
  refine (bigSep_exists_pi Finset.univ (fun (p : Fin 2 × Fin 16) (G : Buf (Elt F) (oLoc d)) => (iprop(⌜Φ p.1 p.2 G⌝ ∗ outPts d p.1 p.2 G) : sProp 𝕄))).trans ?_
  iintro ⟨%Gs, H⟩
  ihave H1 := (bigSep_pure_sep Finset.univ (fun p : Fin 2 × Fin 16 => Φ p.1 p.2 (Gs p)) (fun p => (outPts d p.1 p.2 (Gs p) : sProp 𝕄))) $$ H
  icases H1 with ⟨%hΦ, H2⟩
  -- each subcore's rows as its two blocks, then all 64 blocks joined
  ihave H3 := (blocks_join d Gs) $$ H2
  icases H3 with ⟨%g, %hg, Hg⟩
  iexists g
  isplitr
  · ipureintro
    intro c i
    refine ⟨Gs (c, i), hΦ (c, i) (Finset.mem_univ _), fun x hx => ?_⟩
    rcases Finset.mem_union.mp hx with hA | hB
    · exact hg ((c, i), 0) (Finset.mem_univ _) x (by rw [blk_zero]; exact hA)
    · exact hg ((c, i), 1) (Finset.mem_univ _) x (by rw [blk_one]; exact hB)
  iexact Hg

end Cert.Proof.KB

end
-- ==== Proof.KBLaunchE.lean ====
/-
  The program's run from its steps: the launch element of the ghost state (the handshakes' rounds, the pipelines'
  staging rounds dealt to the TensorCore; nothing for the subcores, whose copies and gathers run on the counters), how
  the TensorCore's final assertion reads the claim off the final memory, and the SparseCore launch theorem applied.
-/
import proofs.«207435_g27118423507386_cont_sun_m_668_27_alg».proof.Proof.KBLaunchD
import proofs.«207435_g27118423507386_cont_sun_m_668_27_alg».proof.Proof.KBOutSplit

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (I1v : (d : Dev nD) → Buf (Elt F) (iLoc d))
  (R9f : (d : Dev nD) → Buf (Elt F) (oLoc d) → Buf (Elt F) (bLoc d main_v9)) (TabOK : (d : Dev nD) → Buf (Elt F) (tLoc d) → Prop)
  (PoolOKp : (d : Dev nD) → grid2.Coords → Buf (Elt F) (oLoc d) → Prop)

theorem hu₀ : iprop((ownU (u₀ (F := F)) : sProp 𝕄) ∗ (PP m I1v TabOK PoolOKp).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m I1v TabOK PoolOKp).x q thr) := by
  iintro ⟨Hu, -, -⟩
  imod (hu₀_core (F := F)) $$ Hu with ⟨HH, HG⟩
  imodintro
  isplitl [HH]; · iexact HH
  isplitl [HG]; · iexact HG
  rw [show (bigSep Finset.univ fun thr : Thread nD τ => bigSep Finset.univ fun q : Fin 1 => (PP m I1v TabOK PoolOKp).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-- What the claim reads of a final state on device `d`. -/
def fq (d : Dev nD) (s' : Phys nD τ sig (Elt F)) : Prop :=
  s'.mem.mem (bLoc d main_arg0) = mT m d main_arg0 ∧ s'.mem.mem (bLoc d main_arg1) = mT m d main_arg1 ∧ s'.mem.mem (bLoc d main_arg2) = mT m d main_arg2 ∧ s'.mem.mem (bLoc d main_arg3) = mT m d main_arg3 ∧ s'.mem.mem (bLoc d main_arg4) = mT m d main_arg4 ∧ s'.mem.mem (bLoc d main_arg5) = mT m d main_arg5 ∧ s'.mem.mem (bLoc d main_arg6) = mT m d main_arg6 ∧ ∃ g, Pooled PoolOKp d g ∧ s'.mem.mem (bLoc d main_v9) = R9f d g

theorem hfin (d : Dev nD) (s' : Phys nD τ sig (Elt F)) : iprop(FIN m R9f PoolOKp d ∗ SI s') ⊢ (⌜fq m R9f PoolOKp d s'⌝ : sProp 𝕄) := by
  unfold FIN
  iintro ⟨⟨H0, H1, H2, H3, H4, H5, H6, %g, %hg, H9⟩, HSI⟩
  ihave H := (persistent_entails_right (SI_pointsTo_agree (st := s') (ℓ := bLoc d main_arg0) (I := Finset.univ) (q := fullShare) (f := mT m d main_arg0))) $$ [HSI H0]
  · isplitl [HSI] <;> iassumption
  icases H with ⟨%h0, HSI, -⟩
  ihave H := (persistent_entails_right (SI_pointsTo_agree (st := s') (ℓ := bLoc d main_arg1) (I := Finset.univ) (q := fullShare) (f := mT m d main_arg1))) $$ [HSI H1]
  · isplitl [HSI] <;> iassumption
  icases H with ⟨%h1, HSI, -⟩
  ihave H := (persistent_entails_right (SI_pointsTo_agree (st := s') (ℓ := bLoc d main_arg2) (I := Finset.univ) (q := fullShare) (f := mT m d main_arg2))) $$ [HSI H2]
  · isplitl [HSI] <;> iassumption
  icases H with ⟨%h2, HSI, -⟩
  ihave H := (persistent_entails_right (SI_pointsTo_agree (st := s') (ℓ := bLoc d main_arg3) (I := Finset.univ) (q := fullShare) (f := mT m d main_arg3))) $$ [HSI H3]
  · isplitl [HSI] <;> iassumption
  icases H with ⟨%h3, HSI, -⟩
  ihave H := (persistent_entails_right (SI_pointsTo_agree (st := s') (ℓ := bLoc d main_arg4) (I := Finset.univ) (q := fullShare) (f := mT m d main_arg4))) $$ [HSI H4]
  · isplitl [HSI] <;> iassumption
  icases H with ⟨%h4, HSI, -⟩
  ihave H := (persistent_entails_right (SI_pointsTo_agree (st := s') (ℓ := bLoc d main_arg5) (I := Finset.univ) (q := fullShare) (f := mT m d main_arg5))) $$ [HSI H5]
  · isplitl [HSI] <;> iassumption
  icases H with ⟨%h5, HSI, -⟩
  ihave H := (persistent_entails_right (SI_pointsTo_agree (st := s') (ℓ := bLoc d main_arg6) (I := Finset.univ) (q := fullShare) (f := mT m d main_arg6))) $$ [HSI H6]
  · isplitl [HSI] <;> iassumption
  icases H with ⟨%h6, HSI, -⟩
  ihave H := (SI_pointsTo_agree (st := s') (ℓ := bLoc d main_v9) (I := Finset.univ) (q := fullShare) (f := R9f d g)) $$ [HSI H9]
  · isplitl [HSI] <;> iassumption
  icases H with %h9
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), g, hg, funext fun i => h9 i (Finset.mem_univ i)⟩

/-- The claim of the run: on every device the arguments unchanged and the result at the last region's function of pooled rows of which `PoolOKp` holds subcore by subcore. -/
def QC : PUnit × MemSt nD τ sig (Elt F) → Prop := fun r => ∀ c : Dev nD,
  r.2.mem (bLoc c main_arg0) = mT m c main_arg0 ∧ r.2.mem (bLoc c main_arg1) = mT m c main_arg1 ∧ r.2.mem (bLoc c main_arg2) = mT m c main_arg2 ∧ r.2.mem (bLoc c main_arg3) = mT m c main_arg3 ∧ r.2.mem (bLoc c main_arg4) = mT m c main_arg4 ∧ r.2.mem (bLoc c main_arg5) = mT m c main_arg5 ∧ r.2.mem (bLoc c main_arg6) = mT m c main_arg6 ∧ ∃ g, Pooled PoolOKp c g ∧ r.2.mem (bLoc c main_v9) = R9f c g

theorem run [∀ e, Nonempty (Elt F e)] (hS : Steps m I1v R9f TabOK)
    (htile : (K (F := F)).TileObl (D (F := F)) 𝒱 (PP m I1v TabOK PoolOKp) v₀ 0) :
    θ_run (Cert.Kernel.defs (F := F)) (Cert.Kernel.threads (F := F)) ⟨m, fun _ => 0, ρ⟩ (QC m R9f PoolOKp) :=
  SparseCore.Cfg.θ_run_sc (K := K (F := F)) (D := D (F := F)) (𝒱 := 𝒱) (EH := EH) (P := PP m I1v TabOK PoolOKp) facts v₀
    (fun q hq => match q with | 0 => nomatch hq)
    (fun q _ => match q with | 0 => htile)
    (fun q _ => match q with | 0 => SparseCore.Cfg.VecSplit.of_plain (vecSplit I1v (fun d => mT m d main_v4) TabOK PoolOKp))
    m ρ main (G (F := F)) (FIN m R9f PoolOKp) (u₀ (F := F)) (hu₀ m I1v TabOK PoolOKp)
    (hmain m ρ I1v R9f TabOK PoolOKp hS out_split out_join) (fq m R9f PoolOKp) (hfin m R9f PoolOKp) (QC m R9f PoolOKp) (fun _ h => h)

end Cert.Proof.KB

end
-- ==== Proof.KBTileArith.lean ====
/-
  Word arithmetic of the embedding-bag kernel: a padded index word at most 999999 packs to a row number of the
  packed table below 507904, and the lane offset of its half is 0 or 64.
-/
import Idealize.ShloMosaic.PureOps.Float
import Idealize.ShloMosaic.PureOps.Vector
import Idealize.ShloMosaic.Lib.Scf

namespace Cert.Proof.KB

open Idealize.ShloMosaic

/-- The packed row number of a vocabulary word: `(v >>> 15) <<< 14 ||| (v &&& 16383)`. For `v ≤ 999999` the high part
    is at most 30, so the row number is at most `30 * 16384 + 16383 = 507903`. -/
theorem pack_lt (v : BitVec 32) (hv : v.toNat ≤ 999999) :
    (IntOp.ori (IntOp.shli .vector (IntOp.shrui .vector v 15#32) 14#32) (IntOp.andi v 16383#32)).toNat < 507904 := by
  have h1 : (15#32 : BitVec 32).toNat < 32 := by decide
  have h2 : (14#32 : BitVec 32).toNat < 32 := by decide
  simp only [IntOp.ori, IntOp.shli, IntOp.shrui, IntOp.andi, h1, h2, if_true]
  rw [BitVec.toNat_or, BitVec.shiftLeft_eq', BitVec.toNat_shiftLeft, BitVec.ushiftRight_eq', BitVec.toNat_ushiftRight, BitVec.toNat_and]
  have e15 : (15#32 : BitVec 32).toNat = 15 := by decide
  have e14 : (14#32 : BitVec 32).toNat = 14 := by decide
  have e16383 : (16383#32 : BitVec 32).toNat = 2 ^ 14 - 1 := by decide
  rw [e15, e14, e16383, Nat.and_two_pow_sub_one_eq_mod, Nat.shiftRight_eq_div_pow, Nat.shiftLeft_eq]
  have ha : v.toNat / 2 ^ 15 ≤ 30 := by omega
  have hm : v.toNat / 2 ^ 15 * 2 ^ 14 % 2 ^ 32 = v.toNat / 2 ^ 15 * 2 ^ 14 := Nat.mod_eq_of_lt (by omega)
  rw [hm, ← Nat.shiftLeft_eq, ← Nat.shiftLeft_add_eq_or_of_lt (Nat.mod_lt _ (by decide)), Nat.shiftLeft_eq]
  omega

/-- The lowest bit of a word is 0 or 1. -/
theorem and_one_or (y : BitVec 32) : y &&& 1#32 = 0#32 ∨ y &&& 1#32 = 1#32 := by
  have h : (y &&& 1#32).toNat = y.toNat % 2 := by
    rw [BitVec.toNat_and]; exact Nat.and_one_is_mod _
  rcases Nat.mod_two_eq_zero_or_one y.toNat with h0 | h1
  · left; apply BitVec.eq_of_toNat_eq; rw [h, h0]; rfl
  · right; apply BitVec.eq_of_toNat_eq; rw [h, h1]; rfl

/-- The lane offset of a word's half of a packed row, `((x >>> 14) &&& 1) * 64`, is 0 or 64 whatever the word is. -/
theorem half_or (x : BitVec 32) :
    IntOp.muli (IntOp.andi (IntOp.shrui .vector x 14#32) 1#32) 64#32 = 0#32
      ∨ IntOp.muli (IntOp.andi (IntOp.shrui .vector x 14#32) 1#32) 64#32 = 64#32 := by
  have h2 : (14#32 : BitVec 32).toNat < 32 := by decide
  simp only [IntOp.muli, IntOp.andi, IntOp.shrui, h2, if_true]
  rcases and_one_or (x >>> 14#32) with h | h
  · left; rw [h]; rfl
  · right; rw [h]; rfl

/-- Row `16 * k + c` of a row buffer, for a trip `k < 6` of an accumulation loop and `c < 16`, is one of its hundred rows. -/
theorem row_ok (kv : ℕ) (hk : kv < 6) (c : BitVec 32) (hc : c.toNat < 16) :
    (Scalar.indexCast (Scalar.addi (Scalar.muli (Scf.iv 0#32 1#32 kv) 16#32) c)).toNat + 1 ≤ 100 := by
  simp only [Scalar.indexCast, Scalar.addi, Scalar.muli, IntOp.addi, IntOp.muli, Scf.iv]
  simp only [BitVec.toNat_add, BitVec.toNat_mul, BitVec.toNat_ofNat]
  omega

/-- The side condition of a sixteen-lane load of a gathered row at a lane offset that is 0 or 64: the load at the
    offset and the three at 16, 32, 48 lanes further lie in the row's 128 lanes. Stated over any two offset
    functions of the printed shape — the row and the word, the row and the word plus a constant. -/
theorem chk_of {offA : Fin 2 → ℕ} {offB : BitVec 32 → Fin 2 → ℕ} {szA szB : Fin 2 → ℕ} (v : BitVec 32) (row : ℕ)
    (hA : offA = ![row, v.toNat]) (hB : ∀ c, offB c = ![row, (v + c).toNat])
    (hszA : szA = ![1, 16]) (hszB : szB = ![100, 128])
    (hrow : row + 1 ≤ 100) (hv : v = 0#32 ∨ v = 64#32) :
    (∀ a, offA a + szA a ≤ szB a) ∧ (∀ (r : Fin 3), ∀ a, offB (BitVec.ofNat 32 (16 + 16 * r.val)) a + szA a ≤ szB a) := by
  subst hA hszA hszB
  refine ⟨fun a => ?_, fun r a => ?_⟩
  · fin_cases a
    · show row + 1 ≤ 100; exact hrow
    · show v.toNat + 16 ≤ 128; rcases hv with rfl | rfl <;> decide
  · rw [hB]
    fin_cases a
    · show row + 1 ≤ 100; exact hrow
    · show (v + BitVec.ofNat 32 (16 + 16 * r.val)).toNat + 16 ≤ 128
      rcases hv with rfl | rfl <;> fin_cases r <;> decide

end Cert.Proof.KB
-- ==== Proof.KBTileOff.lean ====
/-
  Closed forms of the offsets at which the two outer loops store a bag's mean into the staging buffer: the bag's row of
  the sixty-four (two bags a trip) and the sixteen-lane column.
-/
import proofs.«207435_g27118423507386_cont_sun_m_668_27_alg».proof.Proof.KBShared

namespace Cert.Proof.KB

open Cert.Kernel Cert.Kernel.Gen
open Idealize.ShloMosaic

theorem k2_off89_eq : ∀ t : Fin k2_t2_loop.trips, k2_off89 t = ![2 * t.val, 0] := by decide +kernel
instance closedOff_k2_off89 (t : Fin k2_t2_loop.trips) : ClosedOff (k2_off89 t) := ⟨![2 * t.val, 0], k2_off89_eq t⟩
theorem k2_off90_eq : ∀ t : Fin k2_t2_loop.trips, k2_off90 t = ![2 * t.val, 16] := by decide +kernel
instance closedOff_k2_off90 (t : Fin k2_t2_loop.trips) : ClosedOff (k2_off90 t) := ⟨![2 * t.val, 16], k2_off90_eq t⟩
theorem k2_off91_eq : ∀ t : Fin k2_t2_loop.trips, k2_off91 t = ![2 * t.val, 32] := by decide +kernel
instance closedOff_k2_off91 (t : Fin k2_t2_loop.trips) : ClosedOff (k2_off91 t) := ⟨![2 * t.val, 32], k2_off91_eq t⟩
theorem k2_off92_eq : ∀ t : Fin k2_t2_loop.trips, k2_off92 t = ![2 * t.val, 48] := by decide +kernel
instance closedOff_k2_off92 (t : Fin k2_t2_loop.trips) : ClosedOff (k2_off92 t) := ⟨![2 * t.val, 48], k2_off92_eq t⟩
theorem k2_off179_eq : ∀ t : Fin k2_t2_loop.trips, k2_off179 t = ![2 * t.val + 1, 0] := by decide +kernel
instance closedOff_k2_off179 (t : Fin k2_t2_loop.trips) : ClosedOff (k2_off179 t) := ⟨![2 * t.val + 1, 0], k2_off179_eq t⟩
theorem k2_off180_eq : ∀ t : Fin k2_t2_loop.trips, k2_off180 t = ![2 * t.val + 1, 16] := by decide +kernel
instance closedOff_k2_off180 (t : Fin k2_t2_loop.trips) : ClosedOff (k2_off180 t) := ⟨![2 * t.val + 1, 16], k2_off180_eq t⟩
theorem k2_off181_eq : ∀ t : Fin k2_t2_loop.trips, k2_off181 t = ![2 * t.val + 1, 32] := by decide +kernel
instance closedOff_k2_off181 (t : Fin k2_t2_loop.trips) : ClosedOff (k2_off181 t) := ⟨![2 * t.val + 1, 32], k2_off181_eq t⟩
theorem k2_off182_eq : ∀ t : Fin k2_t2_loop.trips, k2_off182 t = ![2 * t.val + 1, 48] := by decide +kernel
instance closedOff_k2_off182 (t : Fin k2_t2_loop.trips) : ClosedOff (k2_off182 t) := ⟨![2 * t.val + 1, 48], k2_off182_eq t⟩
theorem k2_off270_eq : ∀ t : Fin k2_t7_loop.trips, k2_off270 t = ![2 * t.val, 0] := by decide +kernel
instance closedOff_k2_off270 (t : Fin k2_t7_loop.trips) : ClosedOff (k2_off270 t) := ⟨![2 * t.val, 0], k2_off270_eq t⟩
theorem k2_off271_eq : ∀ t : Fin k2_t7_loop.trips, k2_off271 t = ![2 * t.val, 16] := by decide +kernel
instance closedOff_k2_off271 (t : Fin k2_t7_loop.trips) : ClosedOff (k2_off271 t) := ⟨![2 * t.val, 16], k2_off271_eq t⟩
theorem k2_off272_eq : ∀ t : Fin k2_t7_loop.trips, k2_off272 t = ![2 * t.val, 32] := by decide +kernel
instance closedOff_k2_off272 (t : Fin k2_t7_loop.trips) : ClosedOff (k2_off272 t) := ⟨![2 * t.val, 32], k2_off272_eq t⟩
theorem k2_off273_eq : ∀ t : Fin k2_t7_loop.trips, k2_off273 t = ![2 * t.val, 48] := by decide +kernel
instance closedOff_k2_off273 (t : Fin k2_t7_loop.trips) : ClosedOff (k2_off273 t) := ⟨![2 * t.val, 48], k2_off273_eq t⟩
theorem k2_off360_eq : ∀ t : Fin k2_t7_loop.trips, k2_off360 t = ![2 * t.val + 1, 0] := by decide +kernel
instance closedOff_k2_off360 (t : Fin k2_t7_loop.trips) : ClosedOff (k2_off360 t) := ⟨![2 * t.val + 1, 0], k2_off360_eq t⟩
theorem k2_off361_eq : ∀ t : Fin k2_t7_loop.trips, k2_off361 t = ![2 * t.val + 1, 16] := by decide +kernel
instance closedOff_k2_off361 (t : Fin k2_t7_loop.trips) : ClosedOff (k2_off361 t) := ⟨![2 * t.val + 1, 16], k2_off361_eq t⟩
theorem k2_off362_eq : ∀ t : Fin k2_t7_loop.trips, k2_off362 t = ![2 * t.val + 1, 32] := by decide +kernel
instance closedOff_k2_off362 (t : Fin k2_t7_loop.trips) : ClosedOff (k2_off362 t) := ⟨![2 * t.val + 1, 32], k2_off362_eq t⟩
theorem k2_off363_eq : ∀ t : Fin k2_t7_loop.trips, k2_off363 t = ![2 * t.val + 1, 48] := by decide +kernel
instance closedOff_k2_off363 (t : Fin k2_t7_loop.trips) : ClosedOff (k2_off363 t) := ⟨![2 * t.val + 1, 48], k2_off363_eq t⟩

end Cert.Proof.KB
-- ==== Proof.KBTile.lean ====
/-
  One vector subcore's task, at a symbolic place `L` of the kernel's grid: the subcore's scratch buffers and DMA
  semaphores named one by one, and the task's body run from the operands the launch hands it.
-/
import proofs.«207435_g27118423507386_cont_sun_m_668_27_alg».proof.Proof.KBShared
import proofs.«207435_g27118423507386_cont_sun_m_668_27_alg».proof.Proof.KBTileArith
import proofs.«207435_g27118423507386_cont_sun_m_668_27_alg».proof.Proof.KBTileOff
import proofs.«207435_g27118423507386_cont_sun_m_668_27_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "vIW" => (Memref.whole Cert.Kernel.main_v1_scv : Memref Cert.Kernel.sig Kind.scVector Space.hbm Cert.Kernel.S4096x224 EltTy.i32)
local notation "vTW" => (Memref.whole Cert.Kernel.main_v3_scv : Memref Cert.Kernel.sig Kind.scVector Space.hbm Cert.Kernel.S507904x128 EltTy.f32)
local notation "vOW" => (Memref.whole Cert.Kernel.main_v4_scv : Memref Cert.Kernel.sig Kind.scVector Space.hbm Cert.Kernel.S4096x64 EltTy.f32)
local notation "sRawW" => (Memref.whole Cert.Kernel.cc2_scratch0 : Memref Cert.Kernel.sig Kind.scVector Space.vmem Cert.Kernel.S128x224 EltTy.i32)
local notation "sPW" => (Memref.whole Cert.Kernel.cc2_scratch1 : Memref Cert.Kernel.sig Kind.scVector Space.vmem Cert.Kernel.S28672 EltTy.i32)
local notation "sR0W" => (Memref.whole Cert.Kernel.cc2_scratch2 : Memref Cert.Kernel.sig Kind.scVector Space.vmem Cert.Kernel.S100x128 EltTy.f32)
local notation "sR1W" => (Memref.whole Cert.Kernel.cc2_scratch3 : Memref Cert.Kernel.sig Kind.scVector Space.vmem Cert.Kernel.S100x128 EltTy.f32)
local notation "sR2W" => (Memref.whole Cert.Kernel.cc2_scratch4 : Memref Cert.Kernel.sig Kind.scVector Space.vmem Cert.Kernel.S100x128 EltTy.f32)
local notation "sR3W" => (Memref.whole Cert.Kernel.cc2_scratch5 : Memref Cert.Kernel.sig Kind.scVector Space.vmem Cert.Kernel.S100x128 EltTy.f32)
local notation "sOutW" => (Memref.whole Cert.Kernel.cc2_scratch6 : Memref Cert.Kernel.sig Kind.scVector Space.vmem Cert.Kernel.S64x64 EltTy.f32)

section Tile

variable (d : Dev nD) (L : grid2.Coords)

abbrev cell0 (d : Dev nD) (L : grid2.Coords) : GSem nD τ sig := ((V d (cV L) (jV L)), SemLoc.dma cc2_scratch7.sem)
abbrev cell1 (d : Dev nD) (L : grid2.Coords) : GSem nD τ sig := ((V d (cV L) (jV L)), SemLoc.dma cc2_scratch8.sem)
abbrev cell2 (d : Dev nD) (L : grid2.Coords) : GSem nD τ sig := ((V d (cV L) (jV L)), SemLoc.dma cc2_scratch9.sem)
abbrev cell3 (d : Dev nD) (L : grid2.Coords) : GSem nD τ sig := ((V d (cV L) (jV L)), SemLoc.dma cc2_scratch10.sem)
abbrev cell4 (d : Dev nD) (L : grid2.Coords) : GSem nD τ sig := ((V d (cV L) (jV L)), SemLoc.dma cc2_scoped0.sem)
abbrev cell5 (d : Dev nD) (L : grid2.Coords) : GSem nD τ sig := ((V d (cV L) (jV L)), SemLoc.dma cc2_scoped1.sem)
abbrev cell6 (d : Dev nD) (L : grid2.Coords) : GSem nD τ sig := ((V d (cV L) (jV L)), SemLoc.dma cc2_scoped2.sem)

omit [FloatOps F] in
theorem cell_ne_1_0 (d : Dev nD) (L : grid2.Coords) : cell1 d L ≠ cell0 d L := by
  intro e; exact absurd (Prod.mk.inj e).2 (show (SemLoc.dma cc2_scratch8.sem : SemLoc sig) ≠ SemLoc.dma cc2_scratch7.sem by decide)
omit [FloatOps F] in
theorem cell_ne_2_0 (d : Dev nD) (L : grid2.Coords) : cell2 d L ≠ cell0 d L := by
  intro e; exact absurd (Prod.mk.inj e).2 (show (SemLoc.dma cc2_scratch9.sem : SemLoc sig) ≠ SemLoc.dma cc2_scratch7.sem by decide)
omit [FloatOps F] in
theorem cell_ne_2_1 (d : Dev nD) (L : grid2.Coords) : cell2 d L ≠ cell1 d L := by
  intro e; exact absurd (Prod.mk.inj e).2 (show (SemLoc.dma cc2_scratch9.sem : SemLoc sig) ≠ SemLoc.dma cc2_scratch8.sem by decide)
omit [FloatOps F] in
theorem cell_ne_3_0 (d : Dev nD) (L : grid2.Coords) : cell3 d L ≠ cell0 d L := by
  intro e; exact absurd (Prod.mk.inj e).2 (show (SemLoc.dma cc2_scratch10.sem : SemLoc sig) ≠ SemLoc.dma cc2_scratch7.sem by decide)
omit [FloatOps F] in
theorem cell_ne_3_1 (d : Dev nD) (L : grid2.Coords) : cell3 d L ≠ cell1 d L := by
  intro e; exact absurd (Prod.mk.inj e).2 (show (SemLoc.dma cc2_scratch10.sem : SemLoc sig) ≠ SemLoc.dma cc2_scratch8.sem by decide)
omit [FloatOps F] in
theorem cell_ne_3_2 (d : Dev nD) (L : grid2.Coords) : cell3 d L ≠ cell2 d L := by
  intro e; exact absurd (Prod.mk.inj e).2 (show (SemLoc.dma cc2_scratch10.sem : SemLoc sig) ≠ SemLoc.dma cc2_scratch9.sem by decide)
omit [FloatOps F] in
theorem cell_ne_4_0 (d : Dev nD) (L : grid2.Coords) : cell4 d L ≠ cell0 d L := by
  intro e; exact absurd (Prod.mk.inj e).2 (show (SemLoc.dma cc2_scoped0.sem : SemLoc sig) ≠ SemLoc.dma cc2_scratch7.sem by decide)
omit [FloatOps F] in
theorem cell_ne_4_1 (d : Dev nD) (L : grid2.Coords) : cell4 d L ≠ cell1 d L := by
  intro e; exact absurd (Prod.mk.inj e).2 (show (SemLoc.dma cc2_scoped0.sem : SemLoc sig) ≠ SemLoc.dma cc2_scratch8.sem by decide)
omit [FloatOps F] in
theorem cell_ne_4_2 (d : Dev nD) (L : grid2.Coords) : cell4 d L ≠ cell2 d L := by
  intro e; exact absurd (Prod.mk.inj e).2 (show (SemLoc.dma cc2_scoped0.sem : SemLoc sig) ≠ SemLoc.dma cc2_scratch9.sem by decide)
omit [FloatOps F] in
theorem cell_ne_4_3 (d : Dev nD) (L : grid2.Coords) : cell4 d L ≠ cell3 d L := by
  intro e; exact absurd (Prod.mk.inj e).2 (show (SemLoc.dma cc2_scoped0.sem : SemLoc sig) ≠ SemLoc.dma cc2_scratch10.sem by decide)
omit [FloatOps F] in
theorem cell_ne_5_0 (d : Dev nD) (L : grid2.Coords) : cell5 d L ≠ cell0 d L := by
  intro e; exact absurd (Prod.mk.inj e).2 (show (SemLoc.dma cc2_scoped1.sem : SemLoc sig) ≠ SemLoc.dma cc2_scratch7.sem by decide)
omit [FloatOps F] in
theorem cell_ne_5_1 (d : Dev nD) (L : grid2.Coords) : cell5 d L ≠ cell1 d L := by
  intro e; exact absurd (Prod.mk.inj e).2 (show (SemLoc.dma cc2_scoped1.sem : SemLoc sig) ≠ SemLoc.dma cc2_scratch8.sem by decide)
omit [FloatOps F] in
theorem cell_ne_5_2 (d : Dev nD) (L : grid2.Coords) : cell5 d L ≠ cell2 d L := by
  intro e; exact absurd (Prod.mk.inj e).2 (show (SemLoc.dma cc2_scoped1.sem : SemLoc sig) ≠ SemLoc.dma cc2_scratch9.sem by decide)
omit [FloatOps F] in
theorem cell_ne_5_3 (d : Dev nD) (L : grid2.Coords) : cell5 d L ≠ cell3 d L := by
  intro e; exact absurd (Prod.mk.inj e).2 (show (SemLoc.dma cc2_scoped1.sem : SemLoc sig) ≠ SemLoc.dma cc2_scratch10.sem by decide)
omit [FloatOps F] in
theorem cell_ne_5_4 (d : Dev nD) (L : grid2.Coords) : cell5 d L ≠ cell4 d L := by
  intro e; exact absurd (Prod.mk.inj e).2 (show (SemLoc.dma cc2_scoped1.sem : SemLoc sig) ≠ SemLoc.dma cc2_scoped0.sem by decide)
omit [FloatOps F] in
theorem cell_ne_6_0 (d : Dev nD) (L : grid2.Coords) : cell6 d L ≠ cell0 d L := by
  intro e; exact absurd (Prod.mk.inj e).2 (show (SemLoc.dma cc2_scoped2.sem : SemLoc sig) ≠ SemLoc.dma cc2_scratch7.sem by decide)
omit [FloatOps F] in
theorem cell_ne_6_1 (d : Dev nD) (L : grid2.Coords) : cell6 d L ≠ cell1 d L := by
  intro e; exact absurd (Prod.mk.inj e).2 (show (SemLoc.dma cc2_scoped2.sem : SemLoc sig) ≠ SemLoc.dma cc2_scratch8.sem by decide)
omit [FloatOps F] in
theorem cell_ne_6_2 (d : Dev nD) (L : grid2.Coords) : cell6 d L ≠ cell2 d L := by
  intro e; exact absurd (Prod.mk.inj e).2 (show (SemLoc.dma cc2_scoped2.sem : SemLoc sig) ≠ SemLoc.dma cc2_scratch9.sem by decide)
omit [FloatOps F] in
theorem cell_ne_6_3 (d : Dev nD) (L : grid2.Coords) : cell6 d L ≠ cell3 d L := by
  intro e; exact absurd (Prod.mk.inj e).2 (show (SemLoc.dma cc2_scoped2.sem : SemLoc sig) ≠ SemLoc.dma cc2_scratch10.sem by decide)
omit [FloatOps F] in
theorem cell_ne_6_4 (d : Dev nD) (L : grid2.Coords) : cell6 d L ≠ cell4 d L := by
  intro e; exact absurd (Prod.mk.inj e).2 (show (SemLoc.dma cc2_scoped2.sem : SemLoc sig) ≠ SemLoc.dma cc2_scoped0.sem by decide)
omit [FloatOps F] in
theorem cell_ne_6_5 (d : Dev nD) (L : grid2.Coords) : cell6 d L ≠ cell5 d L := by
  intro e; exact absurd (Prod.mk.inj e).2 (show (SemLoc.dma cc2_scoped2.sem : SemLoc sig) ≠ SemLoc.dma cc2_scoped1.sem by decide)

omit [FloatOps F] in
theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0
          ∗ bigSep ((((((((ownCells (V d (cV L) (jV L))).erase (cell0 d L)).erase (cell1 d L)).erase (cell2 d L)).erase (cell3 d L)).erase (cell4 d L)).erase (cell5 d L)).erase (cell6 d L)) fun g => semVal g 0) := by
  unfold SparseCore.Cfg.ownSems0
  rw [SparseCore.bigSep_erase' ((mem_ownCells (g := cell0 d L)).mpr ⟨rfl, by show (SemLoc.dma cc2_scratch7.sem : SemLoc sig).isScoped .scVector = true; decide⟩),
    SparseCore.bigSep_erase' (Finset.mem_erase.mpr ⟨cell_ne_1_0 d L, (mem_ownCells (g := cell1 d L)).mpr ⟨rfl, by show (SemLoc.dma cc2_scratch8.sem : SemLoc sig).isScoped .scVector = true; decide⟩⟩),
    SparseCore.bigSep_erase' (Finset.mem_erase.mpr ⟨cell_ne_2_1 d L, Finset.mem_erase.mpr ⟨cell_ne_2_0 d L, (mem_ownCells (g := cell2 d L)).mpr ⟨rfl, by show (SemLoc.dma cc2_scratch9.sem : SemLoc sig).isScoped .scVector = true; decide⟩⟩⟩),
    SparseCore.bigSep_erase' (Finset.mem_erase.mpr ⟨cell_ne_3_2 d L, Finset.mem_erase.mpr ⟨cell_ne_3_1 d L, Finset.mem_erase.mpr ⟨cell_ne_3_0 d L, (mem_ownCells (g := cell3 d L)).mpr ⟨rfl, by show (SemLoc.dma cc2_scratch10.sem : SemLoc sig).isScoped .scVector = true; decide⟩⟩⟩⟩),
    SparseCore.bigSep_erase' (Finset.mem_erase.mpr ⟨cell_ne_4_3 d L, Finset.mem_erase.mpr ⟨cell_ne_4_2 d L, Finset.mem_erase.mpr ⟨cell_ne_4_1 d L, Finset.mem_erase.mpr ⟨cell_ne_4_0 d L, (mem_ownCells (g := cell4 d L)).mpr ⟨rfl, by show (SemLoc.dma cc2_scoped0.sem : SemLoc sig).isScoped .scVector = true; decide⟩⟩⟩⟩⟩),
    SparseCore.bigSep_erase' (Finset.mem_erase.mpr ⟨cell_ne_5_4 d L, Finset.mem_erase.mpr ⟨cell_ne_5_3 d L, Finset.mem_erase.mpr ⟨cell_ne_5_2 d L, Finset.mem_erase.mpr ⟨cell_ne_5_1 d L, Finset.mem_erase.mpr ⟨cell_ne_5_0 d L, (mem_ownCells (g := cell5 d L)).mpr ⟨rfl, by show (SemLoc.dma cc2_scoped1.sem : SemLoc sig).isScoped .scVector = true; decide⟩⟩⟩⟩⟩⟩),
    SparseCore.bigSep_erase' (Finset.mem_erase.mpr ⟨cell_ne_6_5 d L, Finset.mem_erase.mpr ⟨cell_ne_6_4 d L, Finset.mem_erase.mpr ⟨cell_ne_6_3 d L, Finset.mem_erase.mpr ⟨cell_ne_6_2 d L, Finset.mem_erase.mpr ⟨cell_ne_6_1 d L, Finset.mem_erase.mpr ⟨cell_ne_6_0 d L, (mem_ownCells (g := cell6 d L)).mpr ⟨rfl, by show (SemLoc.dma cc2_scoped2.sem : SemLoc sig).isScoped .scVector = true; decide⟩⟩⟩⟩⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f) ∗ (∃ f, (V d (cV L) (jV L)).loc cc2_scratch5 ↦{fullShare} f) ∗ (∃ f, (V d (cV L) (jV L)).loc cc2_scratch6 ↦{fullShare} f)
          ∗ bigSep ((((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := (Proc.scVector (cV L) (jV L)).devRef cc2_scratch4) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (jV L)) (b := (Proc.scVector (cV L) (jV L)).devRef cc2_scratch5) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (jV L)) (b := (Proc.scVector (cV L) (jV L)).devRef cc2_scratch6) rfl⟩⟩⟩⟩⟩⟩)]

omit [FloatOps F] in
theorem pts_vI (q : PosShare TreeShare) (f : Buf (Elt F) (iLoc d)) : ((vIW).view.loc (V d (cV L) (jV L)) ↦{q} f : sProp 𝕄) = iLoc d ↦{q} f := by
  simp only [Memref.view_whole, View.set_whole]
omit [FloatOps F] in
theorem pts_vT (q : PosShare TreeShare) (f : Buf (Elt F) (tLoc d)) : ((vTW).view.loc (V d (cV L) (jV L)) ↦{q} f : sProp 𝕄) = tLoc d ↦{q} f := by
  simp only [Memref.view_whole, View.set_whole]
omit [FloatOps F] in
theorem pts_sRawW (f : Buf (Elt F) ((V d (cV L) (jV L)).loc cc2_scratch0)) : ((sRawW).view.loc (V d (cV L) (jV L)) ↦{fullShare} f : sProp 𝕄) = (V d (cV L) (jV L)).loc cc2_scratch0 ↦{fullShare} f := rfl
omit [FloatOps F] in
theorem pts_sPW (f : Buf (Elt F) ((V d (cV L) (jV L)).loc cc2_scratch1)) : ((sPW).view.loc (V d (cV L) (jV L)) ↦{fullShare} f : sProp 𝕄) = (V d (cV L) (jV L)).loc cc2_scratch1 ↦{fullShare} f := rfl
omit [FloatOps F] in
theorem pts_sR0W (f : Buf (Elt F) ((V d (cV L) (jV L)).loc cc2_scratch2)) : ((sR0W).view.loc (V d (cV L) (jV L)) ↦{fullShare} f : sProp 𝕄) = (V d (cV L) (jV L)).loc cc2_scratch2 ↦{fullShare} f := rfl
omit [FloatOps F] in
theorem pts_sR1W (f : Buf (Elt F) ((V d (cV L) (jV L)).loc cc2_scratch3)) : ((sR1W).view.loc (V d (cV L) (jV L)) ↦{fullShare} f : sProp 𝕄) = (V d (cV L) (jV L)).loc cc2_scratch3 ↦{fullShare} f := rfl
omit [FloatOps F] in
theorem pts_sR2W (f : Buf (Elt F) ((V d (cV L) (jV L)).loc cc2_scratch4)) : ((sR2W).view.loc (V d (cV L) (jV L)) ↦{fullShare} f : sProp 𝕄) = (V d (cV L) (jV L)).loc cc2_scratch4 ↦{fullShare} f := rfl
omit [FloatOps F] in
theorem pts_sR3W (f : Buf (Elt F) ((V d (cV L) (jV L)).loc cc2_scratch5)) : ((sR3W).view.loc (V d (cV L) (jV L)) ↦{fullShare} f : sProp 𝕄) = (V d (cV L) (jV L)).loc cc2_scratch5 ↦{fullShare} f := rfl
omit [FloatOps F] in
theorem pts_sOutW (f : Buf (Elt F) ((V d (cV L) (jV L)).loc cc2_scratch6)) : ((sOutW).view.loc (V d (cV L) (jV L)) ↦{fullShare} f : sProp 𝕄) = (V d (cV L) (jV L)).loc cc2_scratch6 ↦{fullShare} f := rfl

/-- The subcore's 128 rows of the padded indices, as the first copy slices them. -/
abbrev idxRows (L : grid2.Coords) : Memref sig .scVector .hbm S128x224 .i32 :=
  (vIW).slice (Rect.unit (s := S4096x224) (k2_off1 L) S128x224.size (k2_off1_inb L)) (fun _ => rfl)

omit [FloatOps F] in
theorem bigSep_fin3' (Φ : Fin 3 → sProp 𝕄) : bigSep Finset.univ Φ = iprop(Φ 0 ∗ Φ 1 ∗ Φ 2) := by
  rw [show (Finset.univ : Finset (Fin 3)) = {0, 1, 2} from by decide,
    bigSep_insert (by decide), bigSep_insert (by decide), bigSep_singleton]
  rfl

/-- Every word of the padded indices the first copy lands in scratch 0 is a word of the index array. -/
theorem idxRows_le (fI : Buf (Elt F) (iLoc d)) (hI : ∀ i, (fI i).toNat ≤ 999999) (y : S128x224.Idx) :
    ((idxRows L).view.read (Elt F) fI y).toNat ≤ 999999 := by
  rw [show (idxRows L).view.read (Elt F) fI y = fI ((idxRows L).view.emb y) from (View.read_apply _ _).trans (cast_eq _ _)]
  exact hI _

/-- One trip of the packing loop keeps "every word written so far is a row number of the packed table": the sixteen
    words the trip stores are packed row numbers, the words below them are the earlier trips'. -/
theorem packed_step (k : Fin k2_t1_loop.trips) (f : Buf (Elt F) ((sPW).view.loc (V d (cV L) (jV L))))
    (w : (Rect.unit (s := S28672) (k2_off3 k) S16.size (k2_off3_inb k)).shape.Idx → Elt F .i32)
    (hw : ∀ x, (w x).toNat < 507904)
    (hf : ∀ y : S28672.Idx, (y 0).val < 16 * k.val → ((sPW).view.read (Elt F) f y).toNat < 507904) :
    ∀ y : S28672.Idx, (y 0).val < 16 * (k.val + 1) →
      ((sPW).view.read (Elt F) ((sPW).view.writes (Elt F) f [⟨Rect.unit (s := S28672) (k2_off3 k) S16.size (k2_off3_inb k), w⟩]) y).toNat < 507904 := by
  intro y hy
  by_cases hm : y ∈ (Rect.unit (s := S28672) (k2_off3 k) S16.size (k2_off3_inb k)).set
  · rw [← Rect.map_emb_univ] at hm
    obtain ⟨x, -, rfl⟩ := Finset.mem_map.mp hm
    rw [View.read_writes_cons_emb]; exact hw x
  · rw [View.read_writes_apply_of_forall_not_mem _ _ _ _ (by intro p hp; rw [List.mem_singleton.mp hp]; exact hm)]
    apply hf
    rw [Rect.mem_set_unit] at hm
    by_contra hc
    refine hm (Fin.forall_fin_one.mpr ⟨?_, ?_⟩)
    · rw [k2_off3_eq]; show 16 * k.val ≤ (y 0).val; omega
    · rw [k2_off3_eq]; show (y 0).val < 16 * k.val + 16; omega

/-- The packing loop's invariant: the subcore's indices stay, and every packed word the trips so far wrote is a row
    number of the packed table. -/
def inv1 (R : Buf (Elt F) ((V d (cV L) (jV L)).loc cc2_scratch0)) (k : Nat) (_ : PUnit) : sProp 𝕄 :=
  iprop(((sRawW).view.loc (V d (cV L) (jV L)) ↦{fullShare} R)
    ∗ ∃ f, ((sPW).view.loc (V d (cV L) (jV L)) ↦{fullShare} f)
        ∗ ⌜∀ y : S28672.Idx, (y 0).val < 16 * k → ((sPW).view.read (Elt F) f y).toNat < 507904⌝)

/-- The packed table as every gather slices it: all of it. -/
abbrev tblM : Memref sig .scVector .hbm S507904x128 .f32 :=
  (vTW).slice (Rect.unit (s := S507904x128) ![0, 0] S507904x128.size inb_S507904x128_S507904x128_0_0) (fun _ => rfl)

/-- What one DMA semaphore cell of the four holds between two trips: its gather in flight — the row buffer, a hundred
    packed row numbers from some place `o` of scratch 1 and the table, at the cell's read shares — and what the gather
    left behind of the three. -/
def cellRes (sem : DmaSem sig) (rM : Memref sig .scVector .vmem S100x128 .f32) (qp qt : PosShare TreeShare)
    (fp : Buf (Elt F) ((sPW).view.loc (V d (cV L) (jV L)))) (fT : Buf (Elt F) (tLoc d)) : sProp 𝕄 :=
  iprop(∃ (g : Buf (Elt F) (rM.view.loc (V d (cV L) (jV L)))) (o : ℕ) (h : ∀ a, (![o] : Fin 1 → ℕ) a + S100.size a ≤ S28672.size a),
    Transfers.Flight countersEmb (V d (cV L) (jV L)) (SemLoc.dma sem) (default : HIx 1) 409600
      iprop(((rM.view.loc (V d (cV L) (jV L)) ↦[rM.view.set]{fullShare} g)
          ∗ ((sPW).view.loc (V d (cV L) (jV L)) ↦[((sPW).slice (Rect.unit (s := S28672) ![o] S100.size h) (fun _ => rfl)).view.set]{qp} fp))
        ∗ ((vTW).view.loc (V d (cV L) (jV L)) ↦[(tblM).view.set]{qt} fT))
    ∗ ((vTW).view.loc (V d (cV L) (jV L)) ↦[Finset.univ \ (tblM).view.set]{qt} fT)
    ∗ (rM.view.loc (V d (cV L) (jV L)) ↦[Finset.univ \ rM.view.set]{fullShare} g)
    ∗ ((sPW).view.loc (V d (cV L) (jV L)) ↦[Finset.univ \ ((sPW).slice (Rect.unit (s := S28672) ![o] S100.size h) (fun _ => rfl)).view.set]{qp} fp))

/-- The two outer loops' invariant: the subcore's indices, the staged means at some contents, what the thread owes,
    and the four cells each with its gather in flight. -/
def invO (q3 : PosShare TreeShare) (O : CellTallies nD τ sig (HIx 1)) (W : Waits sig (HIx 1))
    (R : Buf (Elt F) ((V d (cV L) (jV L)).loc cc2_scratch0))
    (fp : Buf (Elt F) ((sPW).view.loc (V d (cV L) (jV L)))) (fT : Buf (Elt F) (tLoc d)) (_ : Nat) (_ : PUnit) : sProp 𝕄 :=
  iprop(levAts (K (F := F)).L (K (F := F)).lev
    ∗ ((sRawW).view.loc (V d (cV L) (jV L)) ↦{fullShare} R)
    ∗ (∃ g6, (sOutW).view.loc (V d (cV L) (jV L)) ↦{fullShare} g6)
    ∗ (∃ W', ⌜∀ p ∈ W', p ∈ W ∨ p.2 = none⌝ ∗ owes (V d (cV L) (jV L)) O W')
    ∗ cellRes (F := F) d L ⟨8, by decide⟩ sR0W (Transfers.shareDrop fullShare 3) (Transfers.shareDrop q3 3) fp fT
    ∗ cellRes (F := F) d L ⟨9, by decide⟩ sR1W (Transfers.shareTok fullShare 3 0) (Transfers.shareTok q3 3 0) fp fT
    ∗ cellRes (F := F) d L ⟨10, by decide⟩ sR2W (Transfers.shareTok fullShare 3 1) (Transfers.shareTok q3 3 1) fp fT
    ∗ cellRes (F := F) d L ⟨11, by decide⟩ sR3W (Transfers.shareTok fullShare 3 2) (Transfers.shareTok q3 3 2) fp fT)

/-- An accumulation loop's invariant: the subcore's indices and the row buffer it reads stay as they are, whatever
    the four sums carried. -/
def invI {α : Type} (rM : Memref sig .scVector .vmem S100x128 .f32) (R : Buf (Elt F) ((V d (cV L) (jV L)).loc cc2_scratch0))
    (g : Buf (Elt F) (rM.view.loc (V d (cV L) (jV L)))) (_ : Nat) (_ : α) : sProp 𝕄 :=
  iprop(((sRawW).view.loc (V d (cV L) (jV L)) ↦{fullShare} R) ∗ (rM.view.loc (V d (cV L) (jV L)) ↦{fullShare} g))

/-- Discharges the side condition of a sixteen-lane load of a gathered row: the row by the trip's bound (or a literal),
    the lane offset 0 or 64 whatever the index word is. -/
macro "chk_disch" : tactic => `(tactic|
  first
  | exact chk_of _ _ rfl (fun _ => rfl) rfl rfl (row_ok _ (by assumption) _ (by decide)) (half_or _)
  | exact chk_of _ _ rfl (fun _ => rfl) rfl rfl (by decide) (half_or _))

omit [FloatOps F] in
/-- A wait at no level keeps "every recorded wait is the launch's or at no level". -/
theorem tile_waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with e | e
  · right; rw [e]; rfl
  · exact h p e

omit [FloatOps F] in
/-- The two halves of the subcore's output rows are apart: the second starts 64 rows after the first. -/
theorem tile_outAB_disjoint : Disjoint (outA L).view.set (outB L).view.set := by
  show Disjoint ((View.whole main_v4_scv).slice (Rect.unit (s := S4096x64) (k2_off184 L) S64x64.size (k2_off184_inb L))).set
    ((View.whole main_v4_scv).slice (Rect.unit (s := S4096x64) (k2_off365 L) S64x64.size (k2_off365_inb L))).set
  rw [View.set_slice_whole, View.set_slice_whole]
  exact Rect.unit_disjoint 0 (Or.inl (by rw [k2_off184_eq, k2_off365_eq]; exact Nat.le_refl _))

omit [FloatOps F] in
/-- The two halves, each held at contents of its own, are both held at ONE function of the whole array: the first
    half's contents on the first half's elements, the second's elsewhere. -/
theorem tile_out_join (GA GB : Buf (Elt F) (oLoc d)) :
    iprop(((outA L).view.loc (V d (cV L) (jV L)) ↦[(outA L).view.set]{fullShare} GA)
        ∗ ((outB L).view.loc (V d (cV L) (jV L)) ↦[(outB L).view.set]{fullShare} GB))
      ⊢ (iprop(∃ G : Buf (Elt F) (oLoc d), ((outA L).view.loc (V d (cV L) (jV L)) ↦[(outA L).view.set]{fullShare} G)
        ∗ ((outB L).view.loc (V d (cV L) (jV L)) ↦[(outB L).view.set]{fullShare} G)) : sProp 𝕄) := by
  classical
  iintro ⟨HA, HB⟩
  iexists (fun i => if i ∈ (outA L).view.set then GA i else GB i)
  isplitl [HA]
  · iapply (Entails.of_eq (pointsTo_congr (fun i hi => (if_pos hi).symm)))
    iexact HA
  · iapply (Entails.of_eq (pointsTo_congr (fun i hi => (if_neg (Finset.disjoint_right.mp (tile_outAB_disjoint L) hi)).symm)))
    iexact HB

set_option maxHeartbeats 4000000 in
theorem tile_body_frame (hF : (K (F := F)).Facts) (O : CellTallies nD τ sig (HIx 1)) (W : Waits sig (HIx 1)) (hO : ∀ g, O g none = 0)
    (q1 q3 : PosShare TreeShare)
    (fI : Buf (Elt F) (iLoc d)) (fT : Buf (Elt F) (tLoc d)) (fO : Buf (Elt F) (oLoc d)) (hI : ∀ i, (fI i).toNat ≤ 999999) :
    iprop(levAts (K (F := F)).L (K (F := F)).lev
        ∗ (iLoc d ↦{q1} fI)
        ∗ (tLoc d ↦{q3} fT)
        ∗ ((outA L).view.loc (V d (cV L) (jV L)) ↦[(outA L).view.set]{fullShare} fO)
        ∗ ((outB L).view.loc (V d (cV L) (jV L)) ↦[(outB L).view.set]{fullShare} fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__embbag_mean L vIW (Memref.isWhole_whole _) vTW (Memref.isWhole_whole _) vOW (Memref.isWhole_whole _) sRawW (Memref.isWhole_whole _) sPW (Memref.isWhole_whole _) sR0W (Memref.isWhole_whole _) sR1W (Memref.isWhole_whole _) sR2W (Memref.isWhole_whole _) sR3W (Memref.isWhole_whole _) sOutW (Memref.isWhole_whole _) cc2_scratch7 cc2_scratch8 cc2_scratch9 cc2_scratch10 cc2_scoped0 cc2_scoped1 cc2_scoped2)
          fun _ => (iprop((iLoc d ↦{q1} fI) ∗ (tLoc d ↦{q3} fT)
            ∗ (∃ G, ⌜True⌝
                ∗ ((outA L).view.loc (V d (cV L) (jV L)) ↦[(outA L).view.set]{fullShare} G)
                ∗ ((outB L).view.loc (V d (cV L) (jV L)) ↦[(outB L).view.set]{fullShare} G))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc2__embbag_mean_eq_skeleton]; unfold cc2__embbag_mean_skel
  rw [(K (F := F)).scopedBufs_V hF d (cV L) (jV L), SparseCore.Cfg.scopedSems0_V (Val := Elt F) d (cV L) (jV L), ownSems0_V, ownBufs_V]
  iintro ⟨#Hlv, HvI, HvT, HoA, HoB, ⟨⟨%f0, Hb0⟩, ⟨%f1, Hb1⟩, ⟨%f2, Hb2⟩, ⟨%f3, Hb3⟩, ⟨%f4, Hb4⟩, ⟨%f5, Hb5⟩, ⟨%f6, Hb6⟩, Hbufs⟩,
    ⟨Hs0, Hs1, Hs2, Hs3, Hs4, Hs5, Hs6, Hsems⟩, HO⟩
  ihave Hmw := ((K (F := F)).mayWaits_none (thr := (V d (cV L) (jV L))) hO) $$ Hlv
  ihave HvI' := (Entails.of_eq (pts_vI (F := F) d L _ _).symm) $$ HvI
  ihave HvT' := (Entails.of_eq (pts_vT (F := F) d L _ _).symm) $$ HvT
  ihave Hb0' := (Entails.of_eq (pts_sRawW (F := F) d L _).symm) $$ Hb0
  ihave Hb1' := (Entails.of_eq (pts_sPW (F := F) d L _).symm) $$ Hb1
  ihave Hb2' := (Entails.of_eq (pts_sR0W (F := F) d L _).symm) $$ Hb2
  ihave Hb3' := (Entails.of_eq (pts_sR1W (F := F) d L _).symm) $$ Hb3
  ihave Hb4' := (Entails.of_eq (pts_sR2W (F := F) d L _).symm) $$ Hb4
  ihave Hb5' := (Entails.of_eq (pts_sR3W (F := F) d L _).symm) $$ Hb5
  ihave Hb6' := (Entails.of_eq (pts_sOutW (F := F) d L _).symm) $$ Hb6
  ihave HoA' : ((outA L).view.loc (V d (cV L) (jV L)) ↦[(outA L).view.set]{fullShare} fO) $$ [HoA]
  · iexact HoA
  ihave HoB' : ((outB L).view.loc (V d (cV L) (jV L)) ↦[(outB L).view.set]{fullShare} fO) $$ [HoB]
  · iexact HoB
  sl_exec
  have hR : View.write (Elt F) (sRawW).view f0 (tile_body_frame.sl.dma0 d L fI) Finset.univ = (idxRows L).view.read (Elt F) fI := by
    rw [View.write_whole_univ]; rfl
  rw [hR]
  sl_for (inv1 d L ((idxRows L).view.read (Elt F) fI)) $$ [Hb0' Hb1']
  case region =>
    intro k _
    unfold inv1
    iintro ⟨Hraw, %f, Hp, %hf⟩
    sl_exec
    sl_step
    isplitl [Hraw]; · iexact Hraw
    iexists _
    isplitl [Hp]; · iexact Hp
    ipureintro
    refine packed_step (F := F) d L k f _ (fun x => ?_) hf
    exact pack_lt _ (idxRows_le (F := F) d L fI hI _)
  · unfold inv1
    isplitl [Hb0']; · iexact Hb0'
    iexists _
    isplitl [Hb1']; · iexact Hb1'
    ipureintro
    intro y hy; exact absurd hy (by omega)
  iintro %_ HI
  unfold inv1
  icases HI with ⟨Hraw, %fp, Hp, %hfp⟩
  -- the packed table and the packed row numbers are read by four gathers at once: a read share per semaphore cell
  ihave HvT4 := ((Transfers.pointsTo_toks_split (Ix := HIx 1) (Name := ℕ) (U := UU) (Lvl := ℕ) q3 3).trans
    (show _ ⊢ iprop(((vTW).view.loc (V d (cV L) (jV L)) ↦{Transfers.shareDrop q3 3} fT)
        ∗ ((vTW).view.loc (V d (cV L) (jV L)) ↦{Transfers.shareTok q3 3 0} fT) ∗ ((vTW).view.loc (V d (cV L) (jV L)) ↦{Transfers.shareTok q3 3 1} fT)
        ∗ ((vTW).view.loc (V d (cV L) (jV L)) ↦{Transfers.shareTok q3 3 2} fT))
      from Entails.of_eq (by rw [bigSep_fin3']))) $$ HvT'
  icases HvT4 with ⟨HTr, HT0, HT1, HT2⟩
  ihave Hp4 := ((Transfers.pointsTo_toks_split (Ix := HIx 1) (Name := ℕ) (U := UU) (Lvl := ℕ) fullShare 3).trans
    (show _ ⊢ iprop(((sPW).view.loc (V d (cV L) (jV L)) ↦{Transfers.shareDrop fullShare 3} fp)
        ∗ ((sPW).view.loc (V d (cV L) (jV L)) ↦{Transfers.shareTok fullShare 3 0} fp) ∗ ((sPW).view.loc (V d (cV L) (jV L)) ↦{Transfers.shareTok fullShare 3 1} fp)
        ∗ ((sPW).view.loc (V d (cV L) (jV L)) ↦{Transfers.shareTok fullShare 3 2} fp))
      from Entails.of_eq (by rw [bigSep_fin3']))) $$ Hp
  icases Hp4 with ⟨HPr, HP0, HP1, HP2⟩
  sl_exec
  sl_for (invO (F := F) d L q3 O W ((idxRows L).view.read (Elt F) fI) fp fT) $$ [Hlv Hraw Hb6' HO Hs0 HTr Hb2' HPr Hs1 HT0 Hb3' HP0 Hs2 HT1 Hb4' HP1 Hs3 HT2 Hb5' HP2]
  case region =>
    intro t _
    unfold invO cellRes
    iintro ⟨#Hlv, Hraw, ⟨%g6, Hb6⟩, ⟨%W', %hW', HO⟩, ⟨%g0, %o0, %h0, Hs0, HTr, Hb2, HPr⟩, ⟨%g1, %o1, %h1, Hs1, HT0, Hb3, HP0⟩,
      ⟨%g2, %o2, %h2, Hs2, HT1, Hb4, HP1⟩, ⟨%g3, %o3, %h3, Hs3, HT2, Hb5, HP2⟩⟩
    ihave Hmw := ((K (F := F)).mayWaits_none (thr := (V d (cV L) (jV L))) hO) $$ Hlv
    sl_exec
    sl_for (invI (F := F) d L sR0W ((idxRows L).view.read (Elt F) fI) g0) $$ [Hraw Hb2]
    case region =>
      intro k acc
      have hk6 : k.val < 6 := Nat.lt_of_lt_of_le k.isLt k2_t3_abs.2.1
      unfold invI
      iintro ⟨Hraw, Hb2⟩
      sl_exec (disch := chk_disch)
      sl_step
      isplitl [Hraw]; · iexact Hraw
      iexact Hb2
    · unfold invI
      isplitl [Hraw]; · iexact Hraw
      iexact Hb2
    iintro %acc0 HI
    unfold invI
    icases HI with ⟨Hraw, Hb2⟩
    sl_exec (disch := chk_disch)
    sl_for (invI (F := F) d L sR1W ((idxRows L).view.read (Elt F) fI) g1) $$ [Hraw Hb3]
    case region =>
      intro k acc
      have hk6 : k.val < 6 := Nat.lt_of_lt_of_le k.isLt k2_t4_abs.2.1
      unfold invI
      iintro ⟨Hraw, Hb3⟩
      sl_exec (disch := chk_disch)
      sl_step
      isplitl [Hraw]; · iexact Hraw
      iexact Hb3
    · unfold invI
      isplitl [Hraw]; · iexact Hraw
      iexact Hb3
    iintro %acc1 HI
    unfold invI
    icases HI with ⟨Hraw, Hb3⟩
    sl_exec (disch := chk_disch)
    sl_for (invI (F := F) d L sR2W ((idxRows L).view.read (Elt F) fI) g2) $$ [Hraw Hb4]
    case region =>
      intro k acc
      have hk6 : k.val < 6 := Nat.lt_of_lt_of_le k.isLt k2_t5_abs.2.1
      unfold invI
      iintro ⟨Hraw, Hb4⟩
      sl_exec (disch := chk_disch)
      sl_step
      isplitl [Hraw]; · iexact Hraw
      iexact Hb4
    · unfold invI
      isplitl [Hraw]; · iexact Hraw
      iexact Hb4
    iintro %acc2 HI
    unfold invI
    icases HI with ⟨Hraw, Hb4⟩
    sl_exec (disch := chk_disch)
    sl_for (invI (F := F) d L sR3W ((idxRows L).view.read (Elt F) fI) g3) $$ [Hraw Hb5]
    case region =>
      intro k acc
      have hk6 : k.val < 6 := Nat.lt_of_lt_of_le k.isLt k2_t6_abs.2.1
      unfold invI
      iintro ⟨Hraw, Hb5⟩
      sl_exec (disch := chk_disch)
      sl_step
      isplitl [Hraw]; · iexact Hraw
      iexact Hb5
    · unfold invI
      isplitl [Hraw]; · iexact Hraw
      iexact Hb5
    iintro %acc3 HI
    unfold invI
    icases HI with ⟨Hraw, Hb5⟩
    sl_exec (disch := chk_disch)
    sl_step
    isplitr; · iexact Hlv
    isplitl [Hraw]; · iexact Hraw
    isplitl [Hb6]; · iexists _; iexact Hb6
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  · unfold invO cellRes
    isplitr; · iexact Hlv
    isplitl [Hraw]; · iexact Hraw
    isplitl [Hb6']; · iexists _; iexact Hb6'
    isplitl [HO]
    · iexists _
      isplitr [HO]
      swap
      · iexact HO
      · ipureintro; intro p hp
        rcases Finset.mem_insert.mp hp with h | h
        · right; rw [h]; rfl
        · left; exact h
    isplitl [Hs0 HTr Hb2' HPr]
    · iexists _, 0, inb_S28672_S100_0
      isplitl [Hs0]; · iexact Hs0
      isplitl [HTr]; · iexact HTr
      isplitl [Hb2']; · iexact Hb2'
      iexact HPr
    isplitl [Hs1 HT0 Hb3' HP0]
    · iexists _, 112, inb_S28672_S100_112
      isplitl [Hs1]; · iexact Hs1
      isplitl [HT0]; · iexact HT0
      isplitl [Hb3']; · iexact Hb3'
      iexact HP0
    isplitl [Hs2 HT1 Hb4' HP1]
    · iexists _, 224, inb_S28672_S100_224
      isplitl [Hs2]; · iexact Hs2
      isplitl [HT1]; · iexact HT1
      isplitl [Hb4']; · iexact Hb4'
      iexact HP1
    · iexists _, 336, inb_S28672_S100_336
      isplitl [Hs3]; · iexact Hs3
      isplitl [HT2]; · iexact HT2
      isplitl [Hb5']; · iexact Hb5'
      iexact HP2
  iintro %_ HI
  unfold invO cellRes
  icases HI with ⟨-, Hraw, ⟨%g6, Hb6⟩, ⟨%W1, %hW1, HO⟩, ⟨%g0, %o0, %h0, Hs0, HTr, Hb2, HPr⟩, ⟨%g1, %o1, %h1, Hs1, HT0, Hb3, HP0⟩,
    ⟨%g2, %o2, %h2, Hs2, HT1, Hb4, HP1⟩, ⟨%g3, %o3, %h3, Hs3, HT2, Hb5, HP2⟩⟩
  sl_exec
  sl_for (invO (F := F) d L q3 O W ((idxRows L).view.read (Elt F) fI) fp fT) $$ [Hlv Hraw Hb6 HO Hs0 HTr Hb2 HPr Hs1 HT0 Hb3 HP0 Hs2 HT1 Hb4 HP1 Hs3 HT2 Hb5 HP2]
  case region =>
    intro t _
    unfold invO cellRes
    iintro ⟨#Hlv, Hraw, ⟨%g6, Hb6⟩, ⟨%W', %hW', HO⟩, ⟨%g0, %o0, %h0, Hs0, HTr, Hb2, HPr⟩, ⟨%g1, %o1, %h1, Hs1, HT0, Hb3, HP0⟩,
      ⟨%g2, %o2, %h2, Hs2, HT1, Hb4, HP1⟩, ⟨%g3, %o3, %h3, Hs3, HT2, Hb5, HP2⟩⟩
    ihave Hmw := ((K (F := F)).mayWaits_none (thr := (V d (cV L) (jV L))) hO) $$ Hlv
    sl_exec
    sl_for (invI (F := F) d L sR0W ((idxRows L).view.read (Elt F) fI) g0) $$ [Hraw Hb2]
    case region =>
      intro k acc
      have hk6 : k.val < 6 := Nat.lt_of_lt_of_le k.isLt k2_t8_abs.2.1
      unfold invI
      iintro ⟨Hraw, Hb2⟩
      sl_exec (disch := chk_disch)
      sl_step
      isplitl [Hraw]; · iexact Hraw
      iexact Hb2
    · unfold invI
      isplitl [Hraw]; · iexact Hraw
      iexact Hb2
    iintro %acc0 HI
    unfold invI
    icases HI with ⟨Hraw, Hb2⟩
    sl_exec (disch := chk_disch)
    sl_for (invI (F := F) d L sR1W ((idxRows L).view.read (Elt F) fI) g1) $$ [Hraw Hb3]
    case region =>
      intro k acc
      have hk6 : k.val < 6 := Nat.lt_of_lt_of_le k.isLt k2_t9_abs.2.1
      unfold invI
      iintro ⟨Hraw, Hb3⟩
      sl_exec (disch := chk_disch)
      sl_step
      isplitl [Hraw]; · iexact Hraw
      iexact Hb3
    · unfold invI
      isplitl [Hraw]; · iexact Hraw
      iexact Hb3
    iintro %acc1 HI
    unfold invI
    icases HI with ⟨Hraw, Hb3⟩
    sl_exec (disch := chk_disch)
    sl_for (invI (F := F) d L sR2W ((idxRows L).view.read (Elt F) fI) g2) $$ [Hraw Hb4]
    case region =>
      intro k acc
      have hk6 : k.val < 6 := Nat.lt_of_lt_of_le k.isLt k2_t10_abs.2.1
      unfold invI
      iintro ⟨Hraw, Hb4⟩
      sl_exec (disch := chk_disch)
      sl_step
      isplitl [Hraw]; · iexact Hraw
      iexact Hb4
    · unfold invI
      isplitl [Hraw]; · iexact Hraw
      iexact Hb4
    iintro %acc2 HI
    unfold invI
    icases HI with ⟨Hraw, Hb4⟩
    sl_exec (disch := chk_disch)
    sl_for (invI (F := F) d L sR3W ((idxRows L).view.read (Elt F) fI) g3) $$ [Hraw Hb5]
    case region =>
      intro k acc
      have hk6 : k.val < 6 := Nat.lt_of_lt_of_le k.isLt k2_t11_abs.2.1
      unfold invI
      iintro ⟨Hraw, Hb5⟩
      sl_exec (disch := chk_disch)
      sl_step
      isplitl [Hraw]; · iexact Hraw
      iexact Hb5
    · unfold invI
      isplitl [Hraw]; · iexact Hraw
      iexact Hb5
    iintro %acc3 HI
    unfold invI
    icases HI with ⟨Hraw, Hb5⟩
    sl_exec (disch := chk_disch)
    sl_step
    isplitr; · iexact Hlv
    isplitl [Hraw]; · iexact Hraw
    isplitl [Hb6]; · iexists _; iexact Hb6
    isplitl [HO]
    · iexists _
      isplitr [HO]
      swap
      · iexact HO
      · ipureintro
        exact tile_waits_insert _ (tile_waits_insert _ (tile_waits_insert _ (tile_waits_insert _ hW')))
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  · unfold invO cellRes
    isplitr; · iexact Hlv
    isplitl [Hraw]; · iexact Hraw
    isplitl [Hb6]; · iexists _; iexact Hb6
    isplitl [HO]
    · iexists _
      isplitr [HO]
      swap
      · iexact HO
      · ipureintro
        exact tile_waits_insert _ hW1
    isplitl [Hs0 HTr Hb2 HPr]
    · iexists _, _, _
      isplitl [Hs0]; · iexact Hs0
      isplitl [HTr]; · iexact HTr
      isplitl [Hb2]; · iexact Hb2
      iexact HPr
    isplitl [Hs1 HT0 Hb3 HP0]
    · iexists _, _, _
      isplitl [Hs1]; · iexact Hs1
      isplitl [HT0]; · iexact HT0
      isplitl [Hb3]; · iexact Hb3
      iexact HP0
    isplitl [Hs2 HT1 Hb4 HP1]
    · iexists _, _, _
      isplitl [Hs2]; · iexact Hs2
      isplitl [HT1]; · iexact HT1
      isplitl [Hb4]; · iexact Hb4
      iexact HP1
    · iexists _, _, _
      isplitl [Hs3]; · iexact Hs3
      isplitl [HT2]; · iexact HT2
      isplitl [Hb5]; · iexact Hb5
      iexact HP2
  iintro %_ HI
  unfold invO cellRes
  icases HI with ⟨-, Hraw, ⟨%g6', Hb6⟩, ⟨%W2, %hW2, HO⟩, ⟨%g0', %o0', %h0', Hs0, HTr, Hb2, HPr⟩, ⟨%g1', %o1', %h1', Hs1, HT0, Hb3, HP0⟩,
    ⟨%g2', %o2', %h2', Hs2, HT1, Hb4, HP1⟩, ⟨%g3', %o3', %h3', Hs3, HT2, Hb5, HP2⟩⟩
  sl_exec
  sl_step
  -- the operands back: the indices, the table (its four read shares joined), the output rows at one function
  isplitl [HvI']
  · iapply (Entails.of_eq (pts_vI (F := F) d L _ _)); iexact HvI'
  isplitl [HTr HT0 HT1 HT2]
  · iapply (Entails.of_eq (pts_vT (F := F) d L _ _))
    iapply ((show iprop(((vTW).view.loc (V d (cV L) (jV L)) ↦{Transfers.shareDrop q3 3} fT)
          ∗ ((vTW).view.loc (V d (cV L) (jV L)) ↦{Transfers.shareTok q3 3 0} fT) ∗ ((vTW).view.loc (V d (cV L) (jV L)) ↦{Transfers.shareTok q3 3 1} fT)
          ∗ ((vTW).view.loc (V d (cV L) (jV L)) ↦{Transfers.shareTok q3 3 2} fT)) ⊢ _ from Entails.of_eq (by rw [bigSep_fin3'])).trans
        (Transfers.pointsTo_toks_join (Ix := HIx 1) (Name := ℕ) (U := UU) (Lvl := ℕ) q3 3))
    isplitl [HTr]; · iexact HTr
    isplitl [HT0]; · iexact HT0
    isplitl [HT1]; · iexact HT1
    iexact HT2
  isplitl [HoA' HoB']
  · ihave HG := (tile_out_join (F := F) d L _ _) $$ [HoA' HoB']
    · isplitl [HoA']; · iexact HoA'
      iexact HoB'
    icases HG with ⟨%G, HA, HB⟩
    iexists G
    isplitr [HA HB]
    · ipureintro; trivial
    isplitl [HA]; · iexact HA
    iexact HB
  -- the scoped storage back: the seven scratch buffers at some contents, the seven cells at zero
  isplitl [Hraw HPr HP0 HP1 HP2 Hb2 Hb3 Hb4 Hb5 Hb6 Hbufs]
  · isplitl [Hraw]; · iexists _; iapply (Entails.of_eq (pts_sRawW (F := F) d L _)); iexact Hraw
    isplitl [HPr HP0 HP1 HP2]
    · iexists fp
      iapply (Entails.of_eq (pts_sPW (F := F) d L _))
      iapply ((show iprop(((sPW).view.loc (V d (cV L) (jV L)) ↦{Transfers.shareDrop fullShare 3} fp)
            ∗ ((sPW).view.loc (V d (cV L) (jV L)) ↦{Transfers.shareTok fullShare 3 0} fp) ∗ ((sPW).view.loc (V d (cV L) (jV L)) ↦{Transfers.shareTok fullShare 3 1} fp)
            ∗ ((sPW).view.loc (V d (cV L) (jV L)) ↦{Transfers.shareTok fullShare 3 2} fp)) ⊢ _ from Entails.of_eq (by rw [bigSep_fin3'])).trans
          (Transfers.pointsTo_toks_join (Ix := HIx 1) (Name := ℕ) (U := UU) (Lvl := ℕ) fullShare 3))
      isplitl [HPr]; · iexact HPr
      isplitl [HP0]; · iexact HP0
      isplitl [HP1]; · iexact HP1
      iexact HP2
    isplitl [Hb2]; · iexists _; iapply (Entails.of_eq (pts_sR0W (F := F) d L _)); iexact Hb2
    isplitl [Hb3]; · iexists _; iapply (Entails.of_eq (pts_sR1W (F := F) d L _)); iexact Hb3
    isplitl [Hb4]; · iexists _; iapply (Entails.of_eq (pts_sR2W (F := F) d L _)); iexact Hb4
    isplitl [Hb5]; · iexists _; iapply (Entails.of_eq (pts_sR3W (F := F) d L _)); iexact Hb5
    isplitl [Hb6]; · iexists _; iapply (Entails.of_eq (pts_sOutW (F := F) d L _)); iexact Hb6
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists _
  isplitr [HO]
  swap
  · iexact HO
  · ipureintro
    exact tile_waits_insert _ (tile_waits_insert _ (tile_waits_insert _ (tile_waits_insert _ (tile_waits_insert _ hW2))))

end Tile

end Cert.Proof.KB

end
-- ==== Proof.KBLaunchG.lean ====
/-
  The vector-subcore kernel's obligation to the launch theorem at the frame's strength: the task of subcore `i` of
  SparseCore `c` is the body at that place of the grid, run from the read tokens and the output rows the sequencer's go
  hands it; of the rows it leaves nothing is said.
-/
import proofs.«207435_g27118423507386_cont_sun_m_668_27_alg».proof.Proof.KBLaunchC
import proofs.«207435_g27118423507386_cont_sun_m_668_27_alg».proof.Proof.KBTile

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)
variable (I1v : (d : Dev nD) → Buf (Elt F) (iLoc d))
  (TabOK : (d : Dev nD) → Buf (Elt F) (tLoc d) → Prop)

theorem defs₀_vector' (c : Fin τ.nSC) (s : Fin τ.nSub) :
    defs₀ (F := F) (.scVector c s) 2 ()
      = SparseCore.onTile hcore2 hsub2 (fun c s => cc2__embbag_mean (coordsV c s) (Memref.whole main_v1_scv : Memref sig .scVector .hbm S4096x224 .i32) (Memref.isWhole_whole _) (Memref.whole main_v3_scv : Memref sig .scVector .hbm S507904x128 .f32) (Memref.isWhole_whole _) (Memref.whole main_v4_scv : Memref sig .scVector .hbm S4096x64 .f32) (Memref.isWhole_whole _) (Memref.whole cc2_scratch0 : Memref sig .scVector .vmem S128x224 .i32) (Memref.isWhole_whole _) (Memref.whole cc2_scratch1 : Memref sig .scVector .vmem S28672 .i32) (Memref.isWhole_whole _) (Memref.whole cc2_scratch2 : Memref sig .scVector .vmem S100x128 .f32) (Memref.isWhole_whole _) (Memref.whole cc2_scratch3 : Memref sig .scVector .vmem S100x128 .f32) (Memref.isWhole_whole _) (Memref.whole cc2_scratch4 : Memref sig .scVector .vmem S100x128 .f32) (Memref.isWhole_whole _) (Memref.whole cc2_scratch5 : Memref sig .scVector .vmem S100x128 .f32) (Memref.isWhole_whole _) (Memref.whole cc2_scratch6 : Memref sig .scVector .vmem S64x64 .f32) (Memref.isWhole_whole _) cc2_scratch7 cc2_scratch8 cc2_scratch9 cc2_scratch10 cc2_scoped0 cc2_scoped1 cc2_scoped2) ⟨⟩ c s := rfl

theorem tileObl_frame (hF : (K (F := F)).Facts) (hI : ∀ d i, (I1v d i).toNat ≤ 999999) :
    (K (F := F)).TileObl (D (F := F)) 𝒱 (PP m I1v TabOK (fun _ _ _ => True)) v₀ 0 := by
  intro d c i O W hO _ _
  simp only [show (PP m I1v TabOK (fun _ _ _ => True)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector']; simp only [SparseCore.onTile, hc, and_self, ↓reduceDIte]
  show iprop(_ ∗ _ ∗ goP I1v (fun d => mT m d main_v4) TabOK d (Fin.cast nCore_zero c) (Fin.cast nSub_zero i) ∗ _) ⊢
    wp _ _ _ _ (fun _ => iprop(tdP I1v TabOK (fun _ _ _ => True) d (Fin.cast nCore_zero c) (Fin.cast nSub_zero i) ∗ _))
  unfold goP tdP tabPts outPts
  iintro ⟨#Hlv, -, ⟨Hi, ⟨%Tb, %hTb, Ht⟩, HoA, HoB⟩, Hsb, Hss, HO⟩
  iapply (wp_wand_r frame _ Set.univ)
  isplitl [Hi Ht HoA HoB Hsb Hss HO]
  · iapply (tile_body_frame (F := F) d (LL (Fin.cast nCore_zero c) (Fin.cast nSub_zero i)) hF O W hO _ _ (I1v d) Tb (mT m d main_v4) (hI d))
    isplitr; · iexact Hlv
    isplitl [Hi]; · iexact Hi
    isplitl [Ht]; · iexact Ht
    isplitl [HoA]; · iexact HoA
    isplitl [HoB]; · iexact HoB
    isplitl [Hsb]; · iexact Hsb
    isplitl [Hss]; · iexact Hss
    iexact HO
  · iintro %_ Hpost
    icases Hpost with ⟨Hi, Ht, ⟨%G, %hG, HoA, HoB⟩, Hsb, Hss, %W', %hW', HO⟩
    isplitl [Hi Ht HoA HoB]
    · isplitl [Hi]; · iexact Hi
      isplitl [Ht]
      · iexists Tb; isplitr; · ipureintro; exact hTb
        iexact Ht
      iexists G; isplitr; · ipureintro; trivial
      isplitl [HoA]; · iexact HoA
      iexact HoB
    isplitl [Hsb]; · iexact Hsb
    isplitl [Hss]; · iexact Hss
    iexists W'; isplitr
    · ipureintro; exact fun p hp => (hW' p hp).imp_right Or.inl
    · iexact HO

end Cert.Proof.KB

end
-- ==== Proof.KBRegion0.lean ====
/-
  Pipeline 0 of the word-level kernel (the index-layout region): each 200x1024 block of the transposed index array is
  transposed and its two halves of 100 columns are padded with zeros to 112 columns each, giving a 1024x224 block of
  the padded index array. The proof data of the region, the body obligation at a symbolic grid point, and what the two
  arrays hold after the region, element by element.
-/
import proofs.«207435_g27118423507386_cont_sun_m_668_27_alg».proof.Proof.KBSetup
import proofs.«207435_g27118423507386_cont_sun_m_668_27_alg».proof.Proof.Gen.Kernel.Skeleton
import proofs.«207435_g27118423507386_cont_sun_m_668_27_alg».proof.Proof.Gen.Kernel.Launch
import proofs.«207435_g27118423507386_cont_sun_m_668_27_alg».proof.Proof.Gen.Kernel.Points
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body's accesses and what it leaves in the output block -/

/-- The whole input block, as the rectangle the body loads. -/
abbrev rIn0 : Rect S200x1024 := Rect.unit (s := S200x1024) ![0, 0] S200x1024.size inb_S200x1024_S200x1024_0_0
/-- The whole output block, as the rectangle the body stores. -/
abbrev rOut0 : Rect S1024x224 := Rect.unit (s := S1024x224) ![0, 0] S1024x224.size inb_S1024x224_S1024x224_0_0

/-- The output block after the body, from the input block: its one store, of the payload of the loaded input block. -/
def out0_1 (x0 : Vec F S200x1024 .i32) : Vec F S1024x224 .i32 :=
  View.canon [⟨rOut0, k0_pay1 (View.ld x0 rIn0)⟩]

/-- The one store covers the output block. -/
theorem cover0_1 (p0 : Vec F S1024x224 .i32) (y : S1024x224.Idx) :
    ∃ pc ∈ ([⟨rOut0, p0⟩] : List (View.Piece (Elt F) S1024x224 .i32)), y ∈ pc.1.set :=
  View.cover_of_tiled [⟨rOut0, p0⟩] S1024x224.size (by rfl) y

/-! ## The body's triple -/

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S200x1024 .i32) (harg1 : arg1.IsWhole)
    (arg2 : Memref sig .tc .vmem S1024x224 .i32) (harg2 : arg2.IsWhole) (x0 : Vec F S200x1024 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__idx_body i arg1 harg1 arg2 harg2) K := by
  simp only [cc0__idx_body_eq_skeleton]; unfold cc0__idx_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- Window `w`'s block at point `t`, read off the arrays' contents `A` at the region's entry: what the fetch stages. -/
def blk0 {c : Dev nD} (A : (w : Fin cfg0.W) → Buf (Elt F) ((cfg0.win w).arr.view.loc ((c : Dev nD) : Thread nD τ))) (w : Fin cfg0.W) (t : Fin cfg0.N) :
    ((cfg0.win w).xblock (cfg0.grid.coords t)).Idx → Elt F (cfg0.win w).elt :=
  ((cfg0.win w).blk t).view.read (Elt F) (A w)

/-- The region's proof data on core `c`: the arrays at their entry contents `A`; after the body at point `t` the input's
    buffer at its block and the output's at `out0_1` of the input block; as its invariant the scoped buffers that are not this region's, untouched; full shares; owing
    the tallies `O` throughout (the body pays nothing), its recorded pairs within `Rc` throughout (the body waits on
    nothing). -/
def dat0 (c : Dev nD) (A : (w : Fin cfg0.W) → Buf (Elt F) ((cfg0.win w).arr.view.loc ((c : Dev nD) : Thread nD τ)))
    (O : CellTallies nD τ sig (HIx 1)) (Rc : Set (SemLoc sig × HIx 1)) : Pipeline.Dat τ (Elt F) (HIx 1) ℕ UU ℕ cfg0 c where
  A := A
  after w t := match w with
    | ⟨0, _⟩ => blk0 A 0 t
    | ⟨1, _⟩ => out0_1 (blk0 A 0 t)
  Φ _ := Pipeline.scopedRest (Ix := HIx 1) (Name := ℕ) (U := UU) (Lvl := ℕ) (Val := Elt F) spec0 c
  q _ := fullShare
  owed _ := O
  recorded _ := Rc

variable (c : Dev nD) (A : (w : Fin cfg0.W) → Buf (Elt F) ((cfg0.win w).arr.view.loc ((c : Dev nD) : Thread nD τ))) (O : CellTallies nD τ sig (HIx 1))
  (Rc : Set (SemLoc sig × HIx 1))

theorem A0_eq (w : Fin cfg0.W) : (dat0 c A O Rc).A w = A w := by dsimp only [dat0]
theorem after0_0 (t : Fin cfg0.N) : (dat0 c A O Rc).after 0 t = blk0 A 0 t := by dsimp only [dat0]
theorem after0_1 (t : Fin cfg0.N) : (dat0 c A O Rc).after 1 t = out0_1 (blk0 A 0 t) := by dsimp only [dat0]

/-- The input's current staging buffer holds its block at every point: it is fetched at every point. -/
theorem before0_0 (t : Fin cfg0.N) (d) : (dat0 c A O Rc).before 0 t d = blk0 A 0 t :=
  ((dat0 c A O Rc).before_fetched 0 t (fetch0_0 t) d).trans (by unfold Dat.fetched Dat.blockOf blk0; rw [A0_eq]; try rfl)

/-! ## The body obligation, at a generic point -/

/-- The body at any point: the input's memref holds its block, so `sound_kernel0` applies; the invariant and the core's dues pass
    through unread. -/
theorem body_obligation0 : BodyObligation (dat0 (F := F) c A O Rc) (defs₀ (F := F)) 𝒱₀ (none : HIx 1) Set.univ := fun t => by
  rw [bigSep_W0, bigSep_W0]
  simp only [before0_0]
  rw [show (dat0 c A O Rc).Φ t.succ = (dat0 c A O Rc).Φ t.castSucc from rfl,
    show (dat0 c A O Rc).owesAt none t.succ = (dat0 c A O Rc).owesAt none t.castSucc from rfl,
    after0_0, after0_1]
  show _ ⊢ wp frame (wpE (defs₀ (F := F)) Variants.none c none) Set.univ (bodyAt0 t) _
  unfold bodyAt0
  iintro ⟨HΦ, Ho, ⟨%d0, H0⟩, ⟨%d1, H1⟩⟩
  iapply (sound_kernel0 c Set.univ (grid0.coords t) _ _ _ _ (blk0 A 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## The payload, element by element -/

open Idealize.ShloMosaic.ValueIdx

/-- The body's payload at row `r`, column `col` of the output block: the input block transposed on the first hundred
    columns of each half, zero on the twelve padding columns after each. -/
theorem k0_pay1_apply (X : Vec F S200x1024 .i32) (r : Fin 1024) (col : Fin 224) :
    k0_pay1 X (ix2 r col) =
      if h : col.val < 100 then X (ix2 ⟨col.val, by omega⟩ r)
      else if col.val < 112 then (0#32 : BitVec 32)
      else if h2 : col.val < 212 then X (ix2 ⟨col.val - 12, by omega⟩ r)
      else (0#32 : BitVec 32) := by
  have hcol : col.val < 224 := col.isLt
  unfold k0_pay1
  dsimp only
  rw [shapeCast_self]
  by_cases h : col.val < 100
  · -- the first half's hundred columns: piece 0, the transposed block's columns 0 to 99
    rw [dif_pos h]
    refine Eq.trans (concatenate_apply_piece (1 : Fin 2) _ _ (ix2 r col) 0 ?hk1 S1024x100
      (extractStridedSlice S1024x100 ![0, 0] (transpose S1024x200 [1, 0] X transposes_S200x1024_p1_0_S1024x200) slices_S1024x200_o0_0_S1024x100)
      ?hxk1 rfl 0 ?hpre1 (ix2 r ⟨col.val, h⟩) ?hi1 ?ha1) ?rest1
    case hk1 => show (0 : ℕ) < 4; omega
    case hxk1 => rfl
    case hpre1 => rfl
    case hi1 =>
      intro b hb
      match b with
      | ⟨0, _⟩ => rfl
      | ⟨1, _⟩ => exact absurd rfl hb
    case ha1 => show 0 + col.val = col.val; omega
    refine (extractStridedSlice_apply _ _ _ (ix2 r ⟨col.val, h⟩) (ix2 r ⟨col.val, by omega⟩) (fun a => ?_)).trans ?_
    · match a with
      | ⟨0, _⟩ => show r.val = 0 + r.val; omega
      | ⟨1, _⟩ => show col.val = 0 + col.val; omega
    exact transpose_ix2_apply X _ r ⟨col.val, by omega⟩
  rw [dif_neg h]
  by_cases h1 : col.val < 112
  · -- the first padding: piece 1, zeros
    rw [if_pos h1]
    refine Eq.trans (concatenate_apply_piece (1 : Fin 2) _ _ (ix2 r col) 1 ?hk2 S1024x12 (broadcast S1024x12 0#32)
      ?hxk2 rfl 100 ?hpre2 (ix2 r ⟨col.val - 100, by omega⟩) ?hi2 ?ha2) ?rest2
    case hk2 => show (1 : ℕ) < 4; omega
    case hxk2 => rfl
    case hpre2 => rfl
    case hi2 =>
      intro b hb
      match b with
      | ⟨0, _⟩ => rfl
      | ⟨1, _⟩ => exact absurd rfl hb
    case ha2 => show 100 + (col.val - 100) = col.val; omega
    rfl
  rw [if_neg h1]
  by_cases h2 : col.val < 212
  · -- the second half's hundred columns: piece 2, the transposed block's columns 100 to 199
    rw [dif_pos h2]
    refine Eq.trans (concatenate_apply_piece (1 : Fin 2) _ _ (ix2 r col) 2 ?hk3 S1024x100
      (extractStridedSlice S1024x100 ![0, 100] (transpose S1024x200 [1, 0] X transposes_S200x1024_p1_0_S1024x200) slices_S1024x200_o0_100_S1024x100)
      ?hxk3 rfl 112 ?hpre3 (ix2 r ⟨col.val - 112, by omega⟩) ?hi3 ?ha3) ?rest3
    case hk3 => show (2 : ℕ) < 4; omega
    case hxk3 => rfl
    case hpre3 => rfl
    case hi3 =>
      intro b hb
      match b with
      | ⟨0, _⟩ => rfl
      | ⟨1, _⟩ => exact absurd rfl hb
    case ha3 => show 112 + (col.val - 112) = col.val; omega
    refine (extractStridedSlice_apply _ _ _ (ix2 r ⟨col.val - 112, by omega⟩) (ix2 r ⟨col.val - 12, by omega⟩) (fun a => ?_)).trans ?_
    · match a with
      | ⟨0, _⟩ => show r.val = 0 + r.val; omega
      | ⟨1, _⟩ => show col.val - 12 = 100 + (col.val - 112); omega
    exact transpose_ix2_apply X _ r ⟨col.val - 12, by omega⟩
  · -- the second padding: piece 3, zeros
    rw [dif_neg h2]
    refine Eq.trans (concatenate_apply_piece (1 : Fin 2) _ _ (ix2 r col) 3 ?hk4 S1024x12 (broadcast S1024x12 0#32)
      ?hxk4 rfl 212 ?hpre4 (ix2 r ⟨col.val - 212, by omega⟩) ?hi4 ?ha4) ?rest4
    case hk4 => show (3 : ℕ) < 4; omega
    case hxk4 => rfl
    case hpre4 => rfl
    case hi4 =>
      intro b hb
      match b with
      | ⟨0, _⟩ => rfl
      | ⟨1, _⟩ => exact absurd rfl hb
    case ha4 => show 212 + (col.val - 212) = col.val; omega
    rfl

/-! ## The arrays after the region -/

/-- The input array is never written. -/
theorem arr0_in : (dat0 (F := F) c A O Rc).arrAt 0 cfg0.N = A 0 :=
  ((dat0 c A O Rc).arrAt_in 0 rfl _).trans (A0_eq c A O Rc 0)

theorem hz0 : (![0, 0] : Fin 2 → Nat) = fun _ => 0 := funext fun a => by fin_cases a <;> rfl

/-- The padded index array's entry at row `b`, column `col`, from the transposed index array `a0`: its entry at
    (`col`, `b`) on the first hundred columns, zero on the next twelve, its entry at (`col - 12`, `b`) on the next
    hundred, zero on the last twelve. -/
def G0 (a0 : S200x4096.Idx → BitVec 32) (b : Fin 4096) (col : Fin 224) : BitVec 32 :=
  if h : col.val < 100 then a0 (ix2 ⟨col.val, by omega⟩ b)
  else if col.val < 112 then (0#32 : BitVec 32)
  else if h2 : col.val < 212 then a0 (ix2 ⟨col.val - 12, by omega⟩ b)
  else (0#32 : BitVec 32)

/-- The same as one function of the array index. -/
def G0' (a0 : S200x4096.Idx → BitVec 32) : S4096x224.Idx → BitVec 32 := fun i => G0 a0 (i 0) (i 1)

/-- The printed index maps, decided over the grid: the input's block moves along its columns as the output's moves
    along its rows, and neither moves on its other axis. -/
theorem idx_facts0 : ∀ t : Fin cfg0.N, win0_0.index t (0 : Fin 2) = 0
    ∧ win0_0.index t (1 : Fin 2) = win0_1.index t (0 : Fin 2)
    ∧ win0_1.index t (1 : Fin 2) = 0
    ∧ win0_1.index t (0 : Fin 2) ≤ 3 :=
  (by decide +kernel : ∀ t : Fin grid0.N, _)

/-- Every block of rows is some point's. -/
theorem idx_onto0 : ∀ q : Fin 4, ∃ t : Fin cfg0.N, win0_1.index t = ![q.val, 0] :=
  (by decide +kernel : ∀ q : Fin 4, ∃ t : Fin grid0.N, win0_1.index t = ![q.val, 0])

/-- What point `t` writes back is block `t` of `G0'` of the input array. -/
theorem flushed0_1_eq (t : Fin cfg0.N) :
    (dat0 c A O Rc).flushed 1 t = ((cfg0.win 1).blk t).view.read (Elt F) (G0' (A 0)) := by
  show (cfg0.win 1).cut (grid0.coords t) ((dat0 c A O Rc).after 1 t) = _
  rw [after0_1]
  unfold out0_1
  rw [View.canon_unit_zero hz0]
  simp only [View.ld_unit_zero (S := S200x1024) hz0]
  obtain ⟨e0, e1, e2, e3⟩ := idx_facts0 t
  funext j
  obtain ⟨r, col, rfl⟩ : ∃ (r : Fin 1024) (col : Fin 224), j = ix2 r col := ⟨j 0, j 1, eq_ix2 j⟩
  have hr : r.val < 1024 := r.isLt
  have hcol : col.val < 224 := col.isLt
  show k0_pay1 (blk0 A 0 t) (ix2 r col) = G0 (A 0) (((cfg0.win 1).blk t).view.emb (ix2 r col) 0) (((cfg0.win 1).blk t).view.emb (ix2 r col) 1)
  have hb : ((cfg0.win 1).blk t).view.emb (ix2 r col) 0 = (⟨win0_1.index t (0 : Fin 2) * 1024 + r.val, by omega⟩ : Fin 4096) := by
    apply Fin.ext
    show win0_1.index t (0 : Fin 2) * 1024 + 1 * r.val = win0_1.index t (0 : Fin 2) * 1024 + r.val; omega
  have hc : ((cfg0.win 1).blk t).view.emb (ix2 r col) 1 = col := by
    apply Fin.ext
    show win0_1.index t (1 : Fin 2) * 224 + 1 * col.val = col.val; omega
  rw [hb, hc, k0_pay1_apply]
  unfold G0
  have hX : ∀ (k : Fin 200), blk0 A 0 t (ix2 k r) = A 0 (ix2 k ⟨win0_1.index t (0 : Fin 2) * 1024 + r.val, by omega⟩) := by
    intro k
    show A 0 (((cfg0.win 0).blk t).view.emb (ix2 k r)) = _
    congr 1
    funext a; apply Fin.ext
    match a with
    | ⟨0, _⟩ => show win0_0.index t (0 : Fin 2) * 200 + 1 * k.val = k.val; omega
    | ⟨1, _⟩ => show win0_0.index t (1 : Fin 2) * 1024 + 1 * r.val = win0_1.index t (0 : Fin 2) * 1024 + r.val; omega
  simp only [hX]

/-- An index of the output array is in point `t`'s block iff each coordinate is in the block's range on its axis. -/
theorem mem_blk0_1 (t : Fin cfg0.N) (i : S4096x224.Idx) :
    i ∈ ((cfg0.win 1).blk t).view.set ↔ ∀ a : Fin 2, win0_1.index t a * S1024x224.size a ≤ (i a).val ∧ (i a).val < win0_1.index t a * S1024x224.size a + S1024x224.size a := by
  show i ∈ ((View.whole main_v1).slice (win0_1.rect t)).set ↔ _
  rw [View.set_slice_whole, Rect.mem_set_unit]
  exact Iff.rfl

/-- The four blocks of rows cover the output array. -/
theorem cover0_arr (i : S4096x224.Idx) : ∃ t : Fin cfg0.N, (cfg0.win 1).flush t = true ∧ i ∈ ((cfg0.win 1).blk t).view.set := by
  have hi0 : (i 0).val < 4096 := (i 0).isLt
  have hi1 : (i 1).val < 224 := (i 1).isLt
  obtain ⟨t, ht⟩ := idx_onto0 ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 224 ≤ (i 1).val ∧ (i 1).val < win0_1.index t (1 : Fin 2) * 224 + 224; omega

/-- The output array after the region is `G0'` of the input array. -/
theorem arr0_out : (dat0 (F := F) c A O Rc).arrAt 1 cfg0.N = G0' (A 0) :=
  (dat0 c A O Rc).arrAt_eq_of_cover 1 (G0' (A 0)) (fun t _ => flushed0_1_eq c A O Rc t) cover0_arr

/-- The output array after the region, entry by entry. -/
theorem arr0_out_apply (b : Fin 4096) (col : Fin 224) :
    (dat0 (F := F) c A O Rc).arrAt 1 cfg0.N (ix2 b col) =
      if h : col.val < 100 then A 0 (ix2 ⟨col.val, by omega⟩ b)
      else if col.val < 112 then (0#32 : BitVec 32)
      else if h2 : col.val < 212 then A 0 (ix2 ⟨col.val - 12, by omega⟩ b)
      else (0#32 : BitVec 32) := by
  rw [arr0_out]; rfl

theorem arr0_out_lo (b : Fin 4096) (col : Fin 224) (h : col.val < 100) :
    (dat0 (F := F) c A O Rc).arrAt 1 cfg0.N (ix2 b col) = A 0 (ix2 ⟨col.val, by omega⟩ b) := by
  rw [arr0_out_apply, dif_pos h]
theorem arr0_out_pad1 (b : Fin 4096) (col : Fin 224) (h : 100 ≤ col.val) (h' : col.val < 112) :
    (dat0 (F := F) c A O Rc).arrAt 1 cfg0.N (ix2 b col) = (0#32 : BitVec 32) := by
  rw [arr0_out_apply, dif_neg (by omega), if_pos h']
theorem arr0_out_hi (b : Fin 4096) (col : Fin 224) (h : 112 ≤ col.val) (h' : col.val < 212) :
    (dat0 (F := F) c A O Rc).arrAt 1 cfg0.N (ix2 b col) = A 0 (ix2 ⟨col.val - 12, by omega⟩ b) := by
  rw [arr0_out_apply, dif_neg (by omega), if_neg (by omega), dif_pos h']
theorem arr0_out_pad2 (b : Fin 4096) (col : Fin 224) (h : 212 ≤ col.val) :
    (dat0 (F := F) c A O Rc).arrAt 1 cfg0.N (ix2 b col) = (0#32 : BitVec 32) := by
  rw [arr0_out_apply, dif_neg (by omega), if_neg (by omega), dif_neg (by omega)]

end Cert.Proof.KB

end
-- ==== Proof.KBRegion1.lean ====
/-
  Pipeline 1 of the word-level kernel (the table-packing region): each 64x32768 block of the transposed table is
  transposed to 32768x64 and its two halves of 16384 rows are laid side by side, giving a 16384x128 block of the packed
  table: entry (r, 64 h + e) of packed block j is entry (e, 32768 j + 16384 h + r) of the transposed table. The last of
  the 31 input blocks overhangs the table (1000000 columns): its fetch fills only the 16960 columns inside the table,
  and what the staging buffer holds beyond them is whatever the machine left there. The body copies that into the
  uncut output block, so the packed table after the region is NOT a function of the arrays at entry: it is determined
  exactly on the entries whose source column lies inside the table, and nothing is said of the others. The proof data
  is therefore relational: the input's buffer is left as found, the output's buffer agrees with the packing of the
  table's block wherever the source column is inside the table.
-/
import proofs.«207435_g27118423507386_cont_sun_m_668_27_alg».proof.Proof.KBSetup
import proofs.«207435_g27118423507386_cont_sun_m_668_27_alg».proof.Proof.Gen.Kernel.Skeleton
import proofs.«207435_g27118423507386_cont_sun_m_668_27_alg».proof.Proof.Gen.Kernel.Launch
import proofs.«207435_g27118423507386_cont_sun_m_668_27_alg».proof.Proof.Gen.Kernel.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat Cfg Window)

variable {F : FTy → Type} [FloatOps F]

local notation "𝕄" => MT nD τ sig (HIx 1) (Elt F) ℕ UU ℕ

/-! ## The body's accesses and what it leaves in the output block -/

/-- The whole input block, as the rectangle the body loads. -/
abbrev rIn1 : Rect S64x32768 := Rect.unit (s := S64x32768) ![0, 0] S64x32768.size inb_S64x32768_S64x32768_0_0
/-- The whole output block, as the rectangle the body stores. -/
abbrev rOut1 : Rect S16384x128 := Rect.unit (s := S16384x128) ![0, 0] S16384x128.size inb_S16384x128_S16384x128_0_0

/-- The output block after the body, from the input block: its one store, of the payload of the loaded input block. -/
def out1_1 (x0 : Vec F S64x32768 .f32) : Vec F S16384x128 .f32 :=
  View.canon [⟨rOut1, k1_pay1 (View.ld x0 rIn1)⟩]

/-- The one store covers the output block. -/
theorem cover1_1 (p0 : Vec F S16384x128 .f32) (y : S16384x128.Idx) :
    ∃ pc ∈ ([⟨rOut1, p0⟩] : List (View.Piece (Elt F) S16384x128 .f32)), y ∈ pc.1.set :=
  View.cover_of_tiled [⟨rOut1, p0⟩] S16384x128.size (by rfl) y

/-! ## The body's triple -/

set_option maxHeartbeats 1000000 in
/-- The body on whole staging memrefs, the input's at read contents `x0` and the output's at anything, runs to the
    continuation holding the input's as it was and the output's at `out1_1 x0`. -/
theorem sound_kernel1 (c : Dev nD) (E : Set ℕ) (i : grid1.Coords) (arg1 : Memref sig .tc .vmem S64x32768 .f32) (harg1 : arg1.IsWhole)
    (arg2 : Memref sig .tc .vmem S16384x128 .f32) (harg2 : arg2.IsWhole) (x0 : Vec F S64x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pack_body i arg1 harg1 arg2 harg2) K := by
  simp only [cc1__pack_body_eq_skeleton]; unfold cc1__pack_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The payload, entry by entry -/

theorem offsets_zero1 : (![0, 0] : Fin 2 → Nat) = fun _ => 0 := funext fun a => by fin_cases a <;> rfl

/-- The output block is the payload of the input block: the body loads and stores its whole buffers. -/
theorem out1_1_eq (x0 : Vec F S64x32768 .f32) : out1_1 x0 = k1_pay1 x0 := by
  unfold out1_1
  rw [View.canon_unit_zero (Val := Elt F) offsets_zero1 inb_S16384x128_S16384x128_0_0,
    View.ld_unit_zero (Val := Elt F) offsets_zero1 inb_S64x32768_S64x32768_0_0 x0]

/-- The payload at row `r`, column `64 h + e`: the input block's row `e`, column `16384 h + r`. -/
theorem k1_pay1_apply (x0 : Vec F S64x32768 .f32) (r : Fin 16384) (h : Fin 2) (e : Fin 64) :
    k1_pay1 x0 (ix2 r (⟨64 * h.val + e.val, by omega⟩ : Fin 128)) = x0 (ix2 e (⟨16384 * h.val + r.val, by omega⟩ : Fin 32768)) := by
  unfold k1_pay1
  dsimp only
  rw [shapeCast_self]
  match h with
  | ⟨0, _⟩ =>
    rw [concatenate_pair_apply_left (t := S16384x128) (s₁ := S16384x64) (s₂ := S16384x64) 1 _ _ _ _ rfl (ix2 r e)
      (fun b => by match b with | ⟨0, _⟩ => rfl | ⟨1, _⟩ => show e.val = 64 * 0 + e.val; omega)]
    rw [extractStridedSlice_apply (s := S32768x64) (t := S16384x64) ![0, 0] _ _ (ix2 r e) (ix2 (⟨r.val, by omega⟩ : Fin 32768) e)
      (fun a => by match a with | ⟨0, _⟩ => show r.val = 0 + r.val; omega | ⟨1, _⟩ => show e.val = 0 + e.val; omega)]
    rw [transpose_apply (s := S64x32768) (t := S32768x64) [1, 0] _ _ (ix2 (⟨r.val, by omega⟩ : Fin 32768) e) (ix2 e (⟨r.val, by omega⟩ : Fin 32768))
      (fun b => by match b with | ⟨0, _⟩ => rfl | ⟨1, _⟩ => rfl)]
    exact congrArg x0 (congrArg (ix2 e) (Fin.ext (by show r.val = 16384 * 0 + r.val; omega)))
  | ⟨1, _⟩ =>
    rw [concatenate_pair_apply_right (t := S16384x128) (s₁ := S16384x64) (s₂ := S16384x64) 1 _ _ _ _ rfl rfl (ix2 r e)
      (fun b hb => by match b with | ⟨0, _⟩ => rfl | ⟨1, _⟩ => exact absurd rfl hb)
      (by show e.val + 64 = 64 * 1 + e.val; omega)]
    rw [extractStridedSlice_apply (s := S32768x64) (t := S16384x64) ![16384, 0] _ _ (ix2 r e) (ix2 (⟨16384 + r.val, by omega⟩ : Fin 32768) e)
      (fun a => by match a with | ⟨0, _⟩ => rfl | ⟨1, _⟩ => show e.val = 0 + e.val; omega)]
    rw [transpose_apply (s := S64x32768) (t := S32768x64) [1, 0] _ _ (ix2 (⟨16384 + r.val, by omega⟩ : Fin 32768) e) (ix2 e (⟨16384 + r.val, by omega⟩ : Fin 32768))
      (fun b => by match b with | ⟨0, _⟩ => rfl | ⟨1, _⟩ => rfl)]
    exact congrArg x0 (congrArg (ix2 e) (Fin.ext (by show 16384 + r.val = 16384 * 1 + r.val; omega)))

/-! ## The proof data -/

/-- The table's array and the packed table's array at the region's entry, as the region's windows name them. -/
abbrev Arr1 (c : Dev nD) : Type := (w : Fin cfg1.W) → Buf (Elt F) ((cfg1.win w).arr.view.loc ((c : Dev nD) : Thread nD τ))

/-- What the body's output block must hold at point `t`, given the arrays `A` at entry: entry `(r, 64 h + e)` is the
    table's entry `(e, 32768 t + 16384 h + r)` wherever that column is inside the table. -/
def Packed1 {c : Dev nD} (A : Arr1 (F := F) c) (t : Fin cfg1.N) (X : (cfg1.win 1).block.Idx → Elt F (cfg1.win 1).elt) : Prop :=
  ∀ (r : Fin 16384) (h : Fin 2) (e : Fin 64) (hv : 32768 * t.val + 16384 * h.val + r.val < 1000000),
    X (ix2 r ⟨64 * h.val + e.val, by omega⟩) = A 0 (ix2 e ⟨32768 * t.val + 16384 * h.val + r.val, hv⟩)

/-- The region's proof data on core `c`, relational: the arrays at their entry contents `A`; the body leaves the
    input's buffer as it found it, and the output's buffer packed from the table's block wherever the source column is
    inside the table; its invariant the core's scoped buffers that are no staging buffer of this region (the other
    regions' staging buffers, which the call hands in and takes back, untouched by the body); full shares; owing the
    tallies `O` throughout (the body pays nothing),
    the pairs its waits recorded within `Rc` throughout (the body waits for nothing). -/
def rdat1 (c : Dev nD) (A : Arr1 (F := F) c) (O : CellTallies nD τ sig (HIx 1)) (Rc : Set (SemLoc sig × HIx 1)) :
    Pipeline.RDat τ (Elt F) (HIx 1) ℕ UU ℕ cfg1 c where
  A := A
  after w t := match w with
    | ⟨0, _⟩ => fun Y X => X = Y
    | ⟨1, _⟩ => fun _ X => Packed1 A t X
  Φ _ := Pipeline.scopedRest cfg1.spec c
  q _ := fullShare
  owed _ := O
  recorded _ := Rc

variable (c : Dev nD) (A : Arr1 (F := F) c) (O : CellTallies nD τ sig (HIx 1)) (Rc : Set (SemLoc sig × HIx 1))

theorem A1_eq (w : Fin cfg1.W) : (rdat1 c A O Rc).A w = A w := by dsimp only [rdat1]
theorem after1_0 (t : Fin cfg1.N) (Y X) : (rdat1 c A O Rc).after 0 t Y X = (X = Y) := by dsimp only [rdat1]
theorem after1_1 (t : Fin cfg1.N) (Y X) : (rdat1 c A O Rc).after 1 t Y X = Packed1 A t X := by dsimp only [rdat1]

/-! ## The schedule in closed form, at a symbolic point -/

/-- A coordinate of a block is moved by a cut transfer if it lies inside the array. -/
theorem r1_clip_extent_gt (ix k d j : Nat) (hj : j < k) (h : ix * k + j < d) : j < (Pipeline.Clip.of ix k d).extent k := by
  unfold Pipeline.Clip.of
  split
  · exact hj
  · show j < d - ix * k; omega

/-- The grid has one axis: a point's coordinate is the point. -/
theorem coords1_val (t : Fin cfg1.N) : ((cfg1.grid.coords t) 0).val = t.val := by
  have ht : t.val < 31 := lt_of_lt_of_eq t.isLt N_1
  show t.val / grid1.stride 0 % grid1.bound 0 = t.val
  rw [show grid1.stride 0 = 1 from by decide, show grid1.bound 0 = 31 from rfl, Nat.div_one, Nat.mod_eq_of_lt ht]

/-- The input's block index: column block `t`. -/
theorem transform1_0_1 (i : grid1.Coords) : cc1_transform_0 i 1 = (i 0).val := by
  have hi : (i 0).val < 31 := (i 0).isLt
  show (BitVec.ofNat 32 (i 0).val).toNat = (i 0).val
  rw [BitVec.toNat_ofNat]; exact Nat.mod_eq_of_lt (by omega)
/-- The output's block index: row block `t`. -/
theorem transform1_1_0 (i : grid1.Coords) : cc1_transform_1 i 0 = (i 0).val := by
  have hi : (i 0).val < 31 := (i 0).isLt
  show (BitVec.ofNat 32 (i 0).val).toNat = (i 0).val
  rw [BitVec.toNat_ofNat]; exact Nat.mod_eq_of_lt (by omega)

/-- A just-fetched input block holds, at a column inside the table, the table's entry. -/
theorem fetched1_apply (t : Fin cfg1.N) (d) (e : Fin 64) (k : Fin 32768) (n : Fin 1000000) (hn : n.val = 32768 * t.val + k.val) :
    (rdat1 c A O Rc).fetched 0 t d (ix2 e k) = A 0 (ix2 e n) := by
  have hm : (cfg1.win 0).moved (cfg1.grid.coords t) (ix2 e k) = true := by
    rw [Window.moved_iff]
    intro a
    match a with
    | ⟨0, _⟩ => exact r1_clip_extent_gt (cc1_transform_0 (cfg1.grid.coords t) 0) 64 64 e.val e.isLt (by show 0 * 64 + e.val < 64; omega)
    | ⟨1, _⟩ =>
      exact r1_clip_extent_gt (cc1_transform_0 (cfg1.grid.coords t) 1) 32768 1000000 k.val k.isLt
        (by rw [transform1_0_1, coords1_val]; have := n.isLt; omega)
  unfold RDat.fetched Window.fill
  rw [dif_pos hm]
  unfold RDat.blockOf
  rw [View.read_apply]
  show _root_.cast _ ((rdat1 c A O Rc).A 0 ((cfg1.win 0).arr.view.emb (((cfg1.win 0).rect t).emb _))) = _
  rw [A1_eq]
  refine (cast_eq _ _).trans (congrArg (A 0) (funext fun a => Fin.ext ?_))
  match a with
  | ⟨0, _⟩ => show 0 * 64 + 1 * e.val = e.val; omega
  | ⟨1, _⟩ =>
    show cc1_transform_0 (cfg1.grid.coords t) 1 * 32768 + 1 * k.val = n.val
    rw [transform1_0_1, coords1_val, hn]; omega

/-- The packing of a just-fetched input block: wherever the source column is inside the table, the body's output block
    holds the table's entry. -/
theorem packed_of_fetched (t : Fin cfg1.N) (d) : Packed1 A t (out1_1 ((rdat1 c A O Rc).fetched 0 t d)) := by
  intro r h e hv
  rw [out1_1_eq, k1_pay1_apply]
  exact fetched1_apply c A O Rc t d e _ _ (by show 32768 * t.val + 16384 * h.val + r.val = 32768 * t.val + (16384 * h.val + r.val); omega)

/-! ## The body obligation, at a generic point -/

/-- The body at any point: the input's memref holds a just-fetched block, so `sound_kernel1` applies; the core's dues
    pass through unread. -/
theorem body_obligation1 : (rdat1 (F := F) c A O Rc).BodyObligation (defs₀ (F := F)) 𝒱₀ (none : HIx 1) Set.univ := fun t Y hY => by
  obtain ⟨d, hd⟩ := ((rdat1 c A O Rc).finds_of_fetch (fetch1_0 t) (Y 0)).mp (hY 0)
  rw [bigSep_W1, bigSep_W1]
  rw [show (rdat1 c A O Rc).Φ t.succ = (rdat1 c A O Rc).Φ t.castSucc from rfl,
    show (rdat1 c A O Rc).owesAt none t.succ = (rdat1 c A O Rc).owesAt none t.castSucc from rfl]
  simp only [after1_0, after1_1]
  show _ ⊢ wp frame (wpE (defs₀ (F := F)) Variants.none c none) Set.univ (bodyAt1 t) _
  unfold bodyAt1
  iintro ⟨HΦ, Ho, H0, H1⟩
  iapply (sound_kernel1 c Set.univ (grid1.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr; · ipureintro; rfl
    iexact H0
  iexists (out1_1 (Y 0)); isplitr
  · ipureintro; rw [hd]; exact packed_of_fetched c A O Rc t d
  iexact H1

/-! ## The arrays after the region -/

/-- The output's block index: row block `t`; its blocks are never cut. -/
theorem index1_1_0 (u : Fin cfg1.N) : (cfg1.win 1).index u 0 = u.val := by
  show cc1_transform_1 (cfg1.grid.coords u) 0 = u.val; rw [transform1_1_0, coords1_val]

/-- The packed table on its first `n` row blocks: entry `(r, 64 h + e)` is the table's entry
    `(e, 32768 (r / 16384) + 16384 h + r % 16384)` wherever that column is inside the table. -/
def PackedUpTo {c : Dev nD} (A : Arr1 (F := F) c) (n : Nat) (G : Buf (Elt F) ((cfg1.win 1).arr.view.loc ((c : Dev nD) : Thread nD τ))) : Prop :=
  ∀ (r : Fin 507904) (h : Fin 2) (e : Fin 64), r.val < 16384 * n →
    ∀ hv : 32768 * (r.val / 16384) + 16384 * h.val + r.val % 16384 < 1000000,
      G (ix2 r ⟨64 * h.val + e.val, by omega⟩) = A 0 (ix2 e ⟨32768 * (r.val / 16384) + 16384 * h.val + r.val % 16384, hv⟩)

/-- A write through a rectangle of a whole buffer: an element of the rectangle takes the payload, -/
theorem r1_whole_slice_write_emb {κ : Kind} (b : Ref sig κ) (r : Rect b.ty.shape) (f : b.ty.Contents (Elt F)) (w : r.shape.Idx → Elt F b.ty.elt)
    (x : r.shape.Idx) : ((View.whole b).slice r).write (Elt F) f w Finset.univ (r.emb x) = w x :=
  View.read_slice_write_emb (v := View.whole b) (Val := Elt F) r f w (Finset.mem_univ x)
/-- and every other element keeps what it held. -/
theorem r1_whole_slice_write_of_not_mem {κ : Kind} (b : Ref sig κ) (r : Rect b.ty.shape) (f : b.ty.Contents (Elt F)) (w : r.shape.Idx → Elt F b.ty.elt)
    {y : b.ty.shape.Idx} (h : y ∉ r.set) : ((View.whole b).slice r).write (Elt F) f w Finset.univ y = f y :=
  View.read_slice_write_of_not_mem (v := View.whole b) (Val := Elt F) r f w Finset.univ (by rwa [Rect.map_emb_univ])

/-- Whatever the packed table's array holds after the write-backs of the points below `n`, its first `n` row blocks
    are packed: the write-back of point `n` writes row block `n` whole, from a buffer the body left packed, and leaves
    the row blocks before it as they were. -/
theorem arrAt1_packed : ∀ (n : Nat), n ≤ 31 → ∀ G, (rdat1 c A O Rc).ArrAt 1 n G → PackedUpTo A n G
  | 0, _, G, _ => fun r h e hr => absurd hr (by omega)
  | n + 1, hn, G, hG => by
    have hlt : n < cfg1.N := lt_of_lt_of_eq (by omega : n < 31) N_1.symm
    change (if h : n < cfg1.N then (if (cfg1.win 1).flush ⟨n, h⟩ then (rdat1 c A O Rc).ArrStep 1 ⟨n, h⟩ ((rdat1 c A O Rc).ArrAt 1 n)
      else (rdat1 c A O Rc).ArrAt 1 n) else (rdat1 c A O Rc).ArrAt 1 n) G at hG
    rw [dif_pos hlt, if_pos (flush1_1 _)] at hG
    obtain ⟨G₀, X, hG₀, ⟨Y, -, hX⟩, hGeq⟩ := hG
    rw [after1_1] at hX
    have hw : G = ((View.whole main_v3).slice ((cfg1.win 1).rect ⟨n, hlt⟩)).write (Elt F) G₀ ((cfg1.win 1).cut (cfg1.grid.coords ⟨n, hlt⟩) X) Finset.univ := hGeq
    intro r h e hr hv
    by_cases hlo : r.val < 16384 * n
    · have hnot : (ix2 r (⟨64 * h.val + e.val, by omega⟩ : Fin 128) : S507904x128.Idx) ∉ ((cfg1.win 1).rect ⟨n, hlt⟩).set := by
        rw [Rect.mem_set_unit]
        intro hmem
        have h0 := (hmem 0).1
        change (cfg1.win 1).index ⟨n, hlt⟩ 0 * 16384 ≤ r.val at h0
        rw [index1_1_0] at h0
        change n * 16384 ≤ r.val at h0
        omega
      have e1 := r1_whole_slice_write_of_not_mem (F := F) main_v3 ((cfg1.win 1).rect ⟨n, hlt⟩) G₀ ((cfg1.win 1).cut (cfg1.grid.coords ⟨n, hlt⟩) X) hnot
      rw [hw]
      exact e1.trans (arrAt1_packed n (by omega) G₀ hG₀ r h e hlo hv)
    · have hr' : r.val - 16384 * n < 16384 := by omega
      have hx : (ix2 r (⟨64 * h.val + e.val, by omega⟩ : Fin 128) : S507904x128.Idx)
          = ((cfg1.win 1).rect ⟨n, hlt⟩).emb (ix2 (⟨r.val - 16384 * n, hr'⟩ : Fin 16384) (⟨64 * h.val + e.val, by omega⟩ : Fin 128)) := by
        funext a
        apply Fin.ext
        match a with
        | ⟨0, _⟩ =>
          show r.val = (cfg1.win 1).index ⟨n, hlt⟩ 0 * 16384 + 1 * (r.val - 16384 * n)
          rw [index1_1_0]; show r.val = n * 16384 + 1 * (r.val - 16384 * n); omega
        | ⟨1, _⟩ => show 64 * h.val + e.val = 0 * 128 + 1 * (64 * h.val + e.val); omega
      have e1 := r1_whole_slice_write_emb (F := F) main_v3 ((cfg1.win 1).rect ⟨n, hlt⟩) G₀ ((cfg1.win 1).cut (cfg1.grid.coords ⟨n, hlt⟩) X)
        (ix2 (⟨r.val - 16384 * n, hr'⟩ : Fin 16384) (⟨64 * h.val + e.val, by omega⟩ : Fin 128))
      have hp := hX ⟨r.val - 16384 * n, hr'⟩ h e (by show 32768 * n + 16384 * h.val + (r.val - 16384 * n) < 1000000; omega)
      rw [hw, hx]
      refine e1.trans (hp.trans (congrArg (A 0) (congrArg (ix2 e) (Fin.ext ?_))))
      show 32768 * n + 16384 * h.val + (r.val - 16384 * n) = 32768 * (r.val / 16384) + 16384 * h.val + r.val % 16384
      omega

/-- The table's array is never written: after the region it holds what it held at entry. -/
theorem arr1_in (G) (hG : (rdat1 c A O Rc).ArrAt 0 cfg1.N G) : G = A 0 := by
  rw [Pipeline.RDat.ArrAt_in (rd := rdat1 c A O Rc) 0 rfl cfg1.N] at hG
  exact hG

/-- The packed table after the region, whatever it holds: entry `(r, 64 h + e)` is the table's entry
    `(e, 32768 (r / 16384) + 16384 h + r % 16384)` wherever that column is inside the table. Of the other entries (the
    last row block's, from row 576 on of its right half) nothing is said: they are what the last, cut fetch left in the
    staging buffer beyond the table's end. -/
theorem arr1_out_apply (G) (hG : (rdat1 c A O Rc).ArrAt 1 cfg1.N G) (r : Fin 507904) (h : Fin 2) (e : Fin 64)
    (hv : 32768 * (r.val / 16384) + 16384 * h.val + r.val % 16384 < 1000000) :
    G (ix2 r ⟨64 * h.val + e.val, by omega⟩) = A 0 (ix2 e ⟨32768 * (r.val / 16384) + 16384 * h.val + r.val % 16384, hv⟩) := by
  have h31 : cfg1.N = 31 := N_1
  rw [h31] at hG
  exact arrAt1_packed c A O Rc 31 le_rfl G hG r h e (by have := r.isLt; omega) hv

end Cert.Proof.KB

end
-- ==== Proof.KBRegion3.lean ====
/-
  Pipeline 2 of @main (custom_call 3, the two-layer perceptron with a softmax over two classes, gridless): its proof data
  and body obligation, and what its six windowed arrays hold after the region.

  The pipeline has one point. Its five input windows are whole arrays, each fetched once into its single staging buffer;
  its output window is a whole array, written back once. The body loads the five staged inputs whole, loads the output's
  staging buffer, and stores the payload (a function of the five loaded values only) over all of it. So after the body
  the input staging buffers hold what the fetch staged, the output's staging buffer holds the payload of the five staged
  blocks, and after the region the five input arrays are as they were and the output array is the payload of the five
  input arrays.
-/
import proofs.«207435_g27118423507386_cont_sun_m_668_27_alg».proof.Proof.KBSetup
import proofs.«207435_g27118423507386_cont_sun_m_668_27_alg».proof.Proof.Gen.Kernel.Skeleton
import proofs.«207435_g27118423507386_cont_sun_m_668_27_alg».proof.Proof.Gen.Kernel.Launch
import proofs.«207435_g27118423507386_cont_sun_m_668_27_alg».proof.Proof.Gen.Kernel.Points
import Idealize.ShloMosaic.Lib.Pipeline.Dat
import Idealize.ShloMosaic.Lib.Pipeline.FrameBody
import Idealize.ShloMosaic.Lib.Pipeline.Value

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (BodyObligation)

variable {F : FTy → Type} [FloatOps F]

local notation "𝕄" => MT nD τ sig (HIx 1) (Elt F) ℕ UU ℕ

/-- Memref `M`'s buffer on core `c` held whole at `f`. -/
abbrev ptM3 (c : Dev nD) {sp : Space} {Sh : Shape} {e : EltTy} (M : Memref sig .tc sp Sh e) (f : Buf (Elt F) (M.view.loc (c : Thread nD τ))) : sProp 𝕄 :=
  M.view.loc (c : Thread nD τ) ↦{fullShare} f

/-- The body run from its six staging buffers held whole, the inputs' at `f0` … `f4`, WITH the payload it finds: what the
    output's buffer holds afterwards (whatever it held before is overwritten). -/
def mlpRun (c : Dev nD) (M0 : Memref sig .tc .vmem S4096x64 .f32) (h0 : M0.IsWhole) (M1 : Memref sig .tc .vmem S64x128 .f32) (h1 : M1.IsWhole)
    (M2 : Memref sig .tc .vmem S1x128 .f32) (h2 : M2.IsWhole) (M3 : Memref sig .tc .vmem S128x2 .f32) (h3 : M3.IsWhole)
    (M4 : Memref sig .tc .vmem S1x2 .f32) (h4 : M4.IsWhole) (M5 : Memref sig .tc .vmem S4096x2 .f32) (h5 : M5.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    { pay : Buf (Elt F) (M5.view.loc (c : Thread nD τ)) //
      ∀ (f5 : Buf (Elt F) (M5.view.loc (c : Thread nD τ))) (Q : PUnit → sProp 𝕄),
        iprop(ptM3 c M0 f0 ∗ ptM3 c M1 f1 ∗ ptM3 c M2 f2 ∗ ptM3 c M3 f3 ∗ ptM3 c M4 f4 ∗ ptM3 c M5 f5
            ∗ (iprop(ptM3 c M0 f0 ∗ ptM3 c M1 f1 ∗ ptM3 c M2 f2 ∗ ptM3 c M3 f3 ∗ ptM3 c M4 f4 ∗ ptM3 c M5 pay) -∗ Q ⟨⟩))
          ⊢ wp frame (wpE (defs₀ (F := F)) Variants.none (c : Thread nD τ) none) Set.univ
              (cc3__mlp_body (F := F) M0 h0 M1 h1 M2 h2 M3 h3 M4 h4 M5 h5) Q } := by
  refine ⟨?_, fun f5 Q => ?run⟩
  case run =>
    iintro ⟨H0, H1, H2, H3, H4, H5, Hk⟩
    simp only [cc3__mlp_body_eq_skeleton]; unfold cc3__mlp_body_skel
    sl_exec!
    sl_step
    iapply Hk
    isplitl [H0]; · iexact H0
    isplitl [H1]; · iexact H1
    isplitl [H2]; · iexact H2
    isplitl [H3]; · iexact H3
    isplitl [H4]; · iexact H4
    iexact H5

/-! ## The proof data -/

/-- The block of window `w`'s array the one fetch stages: read off the array's contents `A w` at region entry. -/
abbrev xstg3 (c : Dev nD) (A : (w : Fin cfg3.W) → Buf (Elt F) ((cfg3.win w).arr.view.loc (c : Thread nD τ))) (w : Fin cfg3.W) :
    ((cfg3.win w).xblock (cfg3.grid.coords t3_0)).Idx → Elt F (cfg3.win w).elt :=
  ((cfg3.win w).blk t3_0).view.read (Elt F) (A w)

/-- What the output window's staging buffer holds after the body: the body's payload of the five staged blocks. -/
def mlpOut (c : Dev nD) (A : (w : Fin cfg3.W) → Buf (Elt F) ((cfg3.win w).arr.view.loc (c : Thread nD τ))) :
    (cfg3.win 5).block.Idx → Elt F (cfg3.win 5).elt :=
  (mlpRun c (Memref.whole cc3_stg0_0) (Memref.isWhole_whole _) (Memref.whole cc3_stg1_0) (Memref.isWhole_whole _)
    (Memref.whole cc3_stg2_0) (Memref.isWhole_whole _) (Memref.whole cc3_stg3_0) (Memref.isWhole_whole _)
    (Memref.whole cc3_stg4_0) (Memref.isWhole_whole _) (Memref.whole cc3_stg5_0) (Memref.isWhole_whole _)
    (xstg3 c A 0) (xstg3 c A 1) (xstg3 c A 2) (xstg3 c A 3) (xstg3 c A 4)).1

/-- The region's proof data: the six arrays at their entry contents `A`; after the body each input's staging buffer as
    fetched, the output's at the payload; its invariant the core's scoped buffers that are no staging buffer of this pipeline (the other
    pipelines'), each whole at some contents, which the body never touches; owing the tallies `O` throughout (the body pays
    nothing and takes on nothing). -/
def dat3 (c : Dev nD) (A : (w : Fin cfg3.W) → Buf (Elt F) ((cfg3.win w).arr.view.loc (c : Thread nD τ))) (O : CellTallies nD τ sig (HIx 1)) (Rc : Set (SemLoc sig × HIx 1)) :
    Pipeline.Dat τ (Elt F) (HIx 1) ℕ UU ℕ cfg3 c where
  A := A
  after w _ := match w with
    | ⟨0, _⟩ => xstg3 c A 0
    | ⟨1, _⟩ => xstg3 c A 1
    | ⟨2, _⟩ => xstg3 c A 2
    | ⟨3, _⟩ => xstg3 c A 3
    | ⟨4, _⟩ => xstg3 c A 4
    | ⟨5, _⟩ => mlpOut c A
  Φ _ := Pipeline.scopedRest (Ix := HIx 1) (Name := ℕ) (U := UU) (Lvl := ℕ) (Val := Elt F) spec3 c
  q _ := fullShare
  owed _ := O
  recorded _ := Rc

/-! ## The body obligation -/

/-- Each input window's staging buffer holds, when the body runs, the block the fetch staged: the one point fetches it,
    and the fetch fills the whole buffer. -/
theorem before3_0 (c : Dev nD) (A : (w : Fin cfg3.W) → Buf (Elt F) ((cfg3.win w).arr.view.loc (c : Thread nD τ))) (O : CellTallies nD τ sig (HIx 1)) (Rc : Set (SemLoc sig × HIx 1))
    (d : (cfg3.win 0).block.Idx → Elt F (cfg3.win 0).elt) : (dat3 c A O Rc).before 0 t3_0 d = xstg3 c A 0 := by
  unfold Pipeline.Dat.before; rw [if_pos (fetch3_0 _)]; rfl
theorem before3_1 (c : Dev nD) (A : (w : Fin cfg3.W) → Buf (Elt F) ((cfg3.win w).arr.view.loc (c : Thread nD τ))) (O : CellTallies nD τ sig (HIx 1)) (Rc : Set (SemLoc sig × HIx 1))
    (d : (cfg3.win 1).block.Idx → Elt F (cfg3.win 1).elt) : (dat3 c A O Rc).before 1 t3_0 d = xstg3 c A 1 := by
  unfold Pipeline.Dat.before; rw [if_pos (fetch3_1 _)]; rfl
theorem before3_2 (c : Dev nD) (A : (w : Fin cfg3.W) → Buf (Elt F) ((cfg3.win w).arr.view.loc (c : Thread nD τ))) (O : CellTallies nD τ sig (HIx 1)) (Rc : Set (SemLoc sig × HIx 1))
    (d : (cfg3.win 2).block.Idx → Elt F (cfg3.win 2).elt) : (dat3 c A O Rc).before 2 t3_0 d = xstg3 c A 2 := by
  unfold Pipeline.Dat.before; rw [if_pos (fetch3_2 _)]; rfl
theorem before3_3 (c : Dev nD) (A : (w : Fin cfg3.W) → Buf (Elt F) ((cfg3.win w).arr.view.loc (c : Thread nD τ))) (O : CellTallies nD τ sig (HIx 1)) (Rc : Set (SemLoc sig × HIx 1))
    (d : (cfg3.win 3).block.Idx → Elt F (cfg3.win 3).elt) : (dat3 c A O Rc).before 3 t3_0 d = xstg3 c A 3 := by
  unfold Pipeline.Dat.before; rw [if_pos (fetch3_3 _)]; rfl
theorem before3_4 (c : Dev nD) (A : (w : Fin cfg3.W) → Buf (Elt F) ((cfg3.win w).arr.view.loc (c : Thread nD τ))) (O : CellTallies nD τ sig (HIx 1)) (Rc : Set (SemLoc sig × HIx 1))
    (d : (cfg3.win 4).block.Idx → Elt F (cfg3.win 4).elt) : (dat3 c A O Rc).before 4 t3_0 d = xstg3 c A 4 := by
  unfold Pipeline.Dat.before; rw [if_pos (fetch3_4 _)]; rfl

omit [FloatOps F] in
/-- A whole buffer owned at contents `X` is the buffer held at some contents equal to `X`. -/
theorem owns_whole_eq3 (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on core `c`: the six staging buffers taken apart, the body's run applied. -/
theorem body_obligation3 (c : Dev nD) (A : (w : Fin cfg3.W) → Buf (Elt F) ((cfg3.win w).arr.view.loc (c : Thread nD τ))) (O : CellTallies nD τ sig (HIx 1)) (Rc : Set (SemLoc sig × HIx 1)) :
    BodyObligation (dat3 (F := F) c A O Rc) (defs₀ (F := F)) 𝒱₀ (none : HIx 1) Set.univ := fun t => by
  obtain rfl := fin_N3 t
  rw [bigSep_W3, bigSep_W3]
  simp only [owns_whole_eq3]
  rw [show (dat3 c A O Rc).Φ t3_0.succ = (dat3 c A O Rc).Φ t3_0.castSucc from rfl,
    show (dat3 c A O Rc).owesAt none t3_0.succ = (dat3 c A O Rc).owesAt none t3_0.castSucc from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before3_0] at hf0
  rw [before3_1] at hf1
  rw [before3_2] at hf2
  rw [before3_3] at hf3
  rw [before3_4] at hf4
  subst hf0 hf1 hf2 hf3 hf4
  iapply ((mlpRun c (Memref.whole cc3_stg0_0) (Memref.isWhole_whole _) (Memref.whole cc3_stg1_0) (Memref.isWhole_whole _)
    (Memref.whole cc3_stg2_0) (Memref.isWhole_whole _) (Memref.whole cc3_stg3_0) (Memref.isWhole_whole _)
    (Memref.whole cc3_stg4_0) (Memref.isWhole_whole _) (Memref.whole cc3_stg5_0) (Memref.isWhole_whole _)
    (xstg3 c A 0) (xstg3 c A 1) (xstg3 c A 2) (xstg3 c A 3) (xstg3 c A 4)).2 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; dsimp only [dat3, mlpOut]

/-! ## The arrays after the region -/

theorem hz2_3 : (![0, 0] : Fin 2 → Nat) = fun _ => 0 := funext fun a => by fin_cases a <;> rfl

/-- The block the one fetch stages is the whole array: each window's block is its array, at block index zero. -/
theorem xstg3_0 (c : Dev nD) (A : (w : Fin cfg3.W) → Buf (Elt F) ((cfg3.win w).arr.view.loc (c : Thread nD τ))) : xstg3 c A 0 = A 0 :=
  View.ld_unit_zero (S := S4096x64) (off := fun a => (cfg3.win 0).index t3_0 a * (cfg3.win 0).size a) (funext fun _ => Nat.zero_mul _) _ (A 0)
theorem xstg3_1 (c : Dev nD) (A : (w : Fin cfg3.W) → Buf (Elt F) ((cfg3.win w).arr.view.loc (c : Thread nD τ))) : xstg3 c A 1 = A 1 :=
  View.ld_unit_zero (S := S64x128) (off := fun a => (cfg3.win 1).index t3_0 a * (cfg3.win 1).size a) (funext fun _ => Nat.zero_mul _) _ (A 1)
theorem xstg3_2 (c : Dev nD) (A : (w : Fin cfg3.W) → Buf (Elt F) ((cfg3.win w).arr.view.loc (c : Thread nD τ))) : xstg3 c A 2 = A 2 :=
  View.ld_unit_zero (S := S1x128) (off := fun a => (cfg3.win 2).index t3_0 a * (cfg3.win 2).size a) (funext fun _ => Nat.zero_mul _) _ (A 2)
theorem xstg3_3 (c : Dev nD) (A : (w : Fin cfg3.W) → Buf (Elt F) ((cfg3.win w).arr.view.loc (c : Thread nD τ))) : xstg3 c A 3 = A 3 :=
  View.ld_unit_zero (S := S128x2) (off := fun a => (cfg3.win 3).index t3_0 a * (cfg3.win 3).size a) (funext fun _ => Nat.zero_mul _) _ (A 3)
theorem xstg3_4 (c : Dev nD) (A : (w : Fin cfg3.W) → Buf (Elt F) ((cfg3.win w).arr.view.loc (c : Thread nD τ))) : xstg3 c A 4 = A 4 :=
  View.ld_unit_zero (S := S1x2) (off := fun a => (cfg3.win 4).index t3_0 a * (cfg3.win 4).size a) (funext fun _ => Nat.zero_mul _) _ (A 4)

/-- The output window's staging buffer after the body holds the payload of the five input arrays. -/
theorem mlpOut_eq (c : Dev nD) (A : (w : Fin cfg3.W) → Buf (Elt F) ((cfg3.win w).arr.view.loc (c : Thread nD τ))) : mlpOut c A = k3_pay1 (F := F) (A 0) (A 1) (A 2) (A 3) (A 4) := by
  have e : mlpOut c A = (View.whole cc3_stg5_0).read (Elt F) (mlpOut c A) := rfl
  rw [e]
  unfold mlpOut mlpRun
  dsimp only [Memref.view_whole]
  rw [View.read_writes_junk_eq_canon]
  unfold mlpRun.sl.H5_1
  rw [View.canon_unit_zero (S := S4096x2) hz2_3]
  simp only [View.readAt_eq_ld, View.read_whole]
  rw [View.ld_unit_zero (S := S4096x64) hz2_3, View.ld_unit_zero (S := S64x128) hz2_3, View.ld_unit_zero (S := S1x128) hz2_3,
    View.ld_unit_zero (S := S128x2) hz2_3, View.ld_unit_zero (S := S1x2) hz2_3]
  rw [xstg3_0, xstg3_1, xstg3_2, xstg3_3, xstg3_4]

omit [FloatOps F] in
/-- The output window's one block is its whole array: read through the block, contents of the array are themselves. -/
theorem blk3_5_read (X : S4096x2.Idx → Elt F .f32) :
    ((cfg3.win 5).blk t3_0).view.read (Elt F) X = (cfg3.win 5).cut (grid3.coords t3_0) X :=
  View.ld_unit_zero (S := S4096x2) (off := fun a => (cfg3.win 5).index t3_0 a * (cfg3.win 5).size a) (funext fun _ => Nat.zero_mul _) _ X

/-- An input window's array is never written back: it ends the region as it entered it. -/
theorem arr3_in (c : Dev nD) (A : (w : Fin cfg3.W) → Buf (Elt F) ((cfg3.win w).arr.view.loc (c : Thread nD τ))) (O : CellTallies nD τ sig (HIx 1)) (Rc : Set (SemLoc sig × HIx 1)) (w : Fin cfg3.W) (hw : w.val < 5) :
    (dat3 (F := F) c A O Rc).arrAt w cfg3.N = A w :=
  (dat3 (F := F) c A O Rc).arrAt_in w ((by decide : ∀ w : Fin 6, w.val < 5 → (cfg3.win w).isOut = false) w hw) _

/-- The output window's array ends the region at the body's payload of the five input arrays: the one point writes its
    staging buffer back over the whole array. -/
theorem arr3_out (c : Dev nD) (A : (w : Fin cfg3.W) → Buf (Elt F) ((cfg3.win w).arr.view.loc (c : Thread nD τ))) (O : CellTallies nD τ sig (HIx 1)) (Rc : Set (SemLoc sig × HIx 1)) :
    (dat3 (F := F) c A O Rc).arrAt 5 cfg3.N = k3_pay1 (F := F) (A 0) (A 1) (A 2) (A 3) (A 4) := by
  refine (dat3 (F := F) c A O Rc).arrAt_eq_of_cover 5 _ (fun t _ => ?_) (fun i => ⟨t3_0, flush3_5 _, ?_⟩)
  · obtain rfl := fin_N3 t
    have h5 : (dat3 (F := F) c A O Rc).after 5 t3_0 = mlpOut c A := by dsimp only [dat3]
    show (cfg3.win 5).cut (grid3.coords t3_0) ((dat3 (F := F) c A O Rc).after 5 t3_0) = _
    rw [h5, mlpOut_eq, blk3_5_read]
  · show i ∈ ((View.whole main_v9).slice ((cfg3.win 5).rect t3_0)).set
    rw [View.set_slice_whole]
    exact View.mem_set_unit_zero (S := S4096x2) (off := fun a => (cfg3.win 5).index t3_0 a * (cfg3.win 5).size a) (funext fun _ => Nat.zero_mul _) _ i

end Cert.Proof.KB

end
-- ==== Proof.KBRdats.lean ====
/-
  The contents of @main's buffers along its run, as functions of the launch memory, and the proof data of its three
  pipelined regions as ONE family: the transposed indices and their padded re-layout (region 0), the transposed table and
  its packed re-layout (region 1: relational, the rows past the table's height are not determined), the pooled rows (a
  parameter here: what the SparseCore call leaves), the host's re-laid weights, and the perceptron's result (region 2).
-/
import proofs.«207435_g27118423507386_cont_sun_m_668_27_alg».proof.Proof.KBShared
import proofs.«207435_g27118423507386_cont_sun_m_668_27_alg».proof.Proof.KBTc
import proofs.«207435_g27118423507386_cont_sun_m_668_27_alg».proof.Proof.KBVals
import proofs.«207435_g27118423507386_cont_sun_m_668_27_alg».proof.Proof.KBRegion0
import proofs.«207435_g27118423507386_cont_sun_m_668_27_alg».proof.Proof.KBRegion1
import proofs.«207435_g27118423507386_cont_sun_m_668_27_alg».proof.Proof.KBRegion3

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable [∀ e, Nonempty (Elt F e)]
variable (m : (ℓ : Loc nD τ sig) → Buf (Elt F) ℓ)
-- the pooled rows the SparseCore call leaves, as a function of the launch memory (what it is, is the task's business)
variable (O4 : (d : Dev nD) → Buf (Elt F) (oLoc d))

/-- The arrays region 0 finds, region 1, region 2. -/
def A0 (d : Dev nD) : (w : Fin cfg0.W) → Buf (Elt F) ((cfg0.win w).arr.view.loc ((d : Dev nD) : Thread nD τ)) := fun w =>
  match w with
  | ⟨0, _⟩ => V0c m d
  | ⟨1, _⟩ => mT m d main_v1
def A1 (d : Dev nD) : (w : Fin cfg1.W) → Buf (Elt F) ((cfg1.win w).arr.view.loc ((d : Dev nD) : Thread nD τ)) := fun w =>
  match w with
  | ⟨0, _⟩ => V2c m d
  | ⟨1, _⟩ => mT m d main_v3
def A3 (d : Dev nD) : (w : Fin cfg3.W) → Buf (Elt F) ((cfg3.win w).arr.view.loc ((d : Dev nD) : Thread nD τ)) := fun w =>
  match w with
  | ⟨0, _⟩ => O4 d
  | ⟨1, _⟩ => V5c m d
  | ⟨2, _⟩ => V6c m d
  | ⟨3, _⟩ => V7c m d
  | ⟨4, _⟩ => V8c m d
  | ⟨5, _⟩ => mT m d main_v9

/-- The three regions' proof data. The TensorCore owes the start signal of the SparseCore call through the first two
    regions and nothing after it. -/
def rdats : (p : Fin 3) → (c : Dev nD) → Pipeline.RDat τ (Elt F) (HIx 1) ℕ UU ℕ (Pipeline.pin (pcfgs (F := F)) adm p) c
  | ⟨0, _⟩ => fun c => (dat0 c (A0 m c) ((K (F := F)).Otc c 0) (RcOf (F := F) c 0)).toR
  | ⟨1, _⟩ => fun c => rdat1 c (A1 m c) ((K (F := F)).Otc c 0) (RcOf (F := F) c 0)
  | ⟨2, _⟩ => fun c => (dat3 c (A3 m O4 c) ((K (F := F)).Otc c 1) (RcOf (F := F) c 1)).toR

/-- The padded indices (`%1`) after region 0 and the perceptron's result (`%9`) after region 2. -/
def I1 (d : Dev nD) : Buf (Elt F) (iLoc d) := (dat0 d (A0 m d) ((K (F := F)).Otc d 0) (RcOf (F := F) d 0)).arrAt 1 cfg0.N
def R9 (d : Dev nD) : Buf (Elt F) (bLoc d main_v9) := (dat3 d (A3 m O4 d) ((K (F := F)).Otc d 1) (RcOf (F := F) d 1)).arrAt 5 cfg3.N

/-- What is known of the packed table (`%3`) after region 1: its entries whose source column lies inside the table are
    the transposed table's; the others (the last block's overhang) are not determined by the launch memory. -/
def TabOKm (d : Dev nD) (Tb : Buf (Elt F) (tLoc d)) : Prop :=
  ∀ (r : Fin 507904) (h : Fin 2) (e : Fin 64) (hv : 32768 * (r.val / 16384) + 16384 * h.val + r.val % 16384 < 1000000),
    Tb (Idealize.ShloMosaic.ValueIdx.ix2 r ⟨64 * h.val + e.val, by have := h.isLt; have := e.isLt; omega⟩)
      = V2c m d (Idealize.ShloMosaic.ValueIdx.ix2 e ⟨32768 * (r.val / 16384) + 16384 * h.val + r.val % 16384, hv⟩)

end Cert.Proof.KB

end
-- ==== Proof.KBHost.lean ====
/-
  The six host operations of @main — four transposes and two reshapes — each as one step on a device's TensorCore thread
  under the program's extended body table, holding only the operation's two buffers: the operand keeps its contents and
  the result ends at the operation's value of them.
-/
import proofs.«207435_g27118423507386_cont_sun_m_668_27_alg».proof.Proof.KBVals
import Idealize.ShloMosaic.Lib.StableHlo.Run

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## One operation over its two buffers -/

/-- The valuation that is `vx` at `x`, `a` at `y` and `V₀` elsewhere. -/
def val2 (V₀ : Valuation τ sig (Elt F)) (x y : Ref sig .tc) (vx : x.ty.Contents (Elt F)) (a : y.ty.Contents (Elt F)) : Valuation τ sig (Elt F) :=
  Function.update (Function.update V₀ (Proc.devRef .tc x) vx) (Proc.devRef .tc y) a

theorem val2_x (V₀ : Valuation τ sig (Elt F)) (x y : Ref sig .tc) (hne : (Proc.devRef .tc x : DevRef τ sig) ≠ Proc.devRef .tc y)
    (vx : x.ty.Contents (Elt F)) (a : y.ty.Contents (Elt F)) : val2 V₀ x y vx a (Proc.devRef .tc x) = vx := by
  unfold val2; rw [Function.update_of_ne hne, Function.update_self]
theorem val2_y (V₀ : Valuation τ sig (Elt F)) (x y : Ref sig .tc)
    (vx : x.ty.Contents (Elt F)) (a : y.ty.Contents (Elt F)) : val2 V₀ x y vx a (Proc.devRef .tc y) = a := by
  unfold val2; rw [Function.update_self]

/-- Two distinct buffers held are the two buffers, each held. -/
theorem held_pair (d : Dev nD) (x y : Ref sig .tc) (hne : (Proc.devRef .tc x : DevRef τ sig) ≠ Proc.devRef .tc y) (W : Valuation τ sig (Elt F)) :
    (held (T d) ({Proc.devRef .tc x, Proc.devRef .tc y} : Finset (DevRef τ sig)) W : sProp 𝕄)
      = iprop((bLoc d x ↦{fullShare} W (Proc.devRef .tc x)) ∗ (bLoc d y ↦{fullShare} W (Proc.devRef .tc y))) := by
  unfold held
  rw [SparseCore.bigSep_insert' (by rw [Finset.mem_singleton]; exact hne), bigSep_singleton]

/-- After a one-operand operation the two buffers hold the operand as it was and the operation's value of it. -/
theorem held_pair_unary (V₀ : Valuation τ sig (Elt F)) (d : Dev nD) (x y : Ref sig .tc) (hne : (Proc.devRef .tc x : DevRef τ sig) ≠ Proc.devRef .tc y)
    (f : x.ty.Contents (Elt F) → y.ty.Contents (Elt F)) (hx) (hy) (vx : x.ty.Contents (Elt F)) (a : y.ty.Contents (Elt F)) :
    (held (T d) ({Proc.devRef .tc x, Proc.devRef .tc y} : Finset (DevRef τ sig)) ((StableHlo.unary x y f hx hy).result (val2 V₀ x y vx a)) : sProp 𝕄)
      = iprop((bLoc d x ↦{fullShare} vx) ∗ (bLoc d y ↦{fullShare} f vx)) := by
  rw [held_pair d x y hne, StableHlo.unary_result,
    (StableHlo.unary x y f hx hy).result_of_not_mem (val2 V₀ x y vx a) (b := Proc.devRef .tc x)
      (by show _ ∉ ({Proc.devRef .tc y} : Finset (DevRef τ sig)); rw [Finset.mem_singleton]; exact hne),
    val2_x V₀ x y hne]

/-- After a reshape the two buffers hold the operand as it was and its elements at the result's shape. -/
theorem held_pair_reshape (V₀ : Valuation τ sig (Elt F)) (d : Dev nD) (x y : Ref sig .tc) (hne : (Proc.devRef .tc x : DevRef τ sig) ≠ Proc.devRef .tc y)
    (he : x.ty.elt = y.ty.elt) (hn : x.ty.shape.ShapeCasts y.ty.shape) (hx) (hy) (vx : x.ty.Contents (Elt F)) (a : y.ty.Contents (Elt F)) :
    (held (T d) ({Proc.devRef .tc x, Proc.devRef .tc y} : Finset (DevRef τ sig)) ((StableHlo.reshape x y he hn hx hy).result (val2 V₀ x y vx a)) : sProp 𝕄)
      = iprop((bLoc d x ↦{fullShare} vx) ∗ (bLoc d y ↦{fullShare} (fun i => he ▸ shapeCast y.ty.shape vx hn i : y.ty.Contents (Elt F)))) := by
  rw [held_pair d x y hne, StableHlo.reshape_result,
    (StableHlo.reshape x y he hn hx hy).result_of_not_mem (val2 V₀ x y vx a) (b := Proc.devRef .tc x)
      (by show _ ∉ ({Proc.devRef .tc y} : Finset (DevRef τ sig)); rw [Finset.mem_singleton]; exact hne),
    val2_x V₀ x y hne]

/-- A host operation of one operand, as a step: from the region boundary and its two buffers, the operand at `vx` and
    the result at anything, to the boundary, the operand as it was and the result at the operation's value of `vx`. -/
theorem host_unary_step (V₀ : Valuation τ sig (Elt F)) (d : Dev nD) (x y : Ref sig .tc) (hne : (Proc.devRef .tc x : DevRef τ sig) ≠ Proc.devRef .tc y)
    (f : x.ty.Contents (Elt F) → y.ty.Contents (Elt F)) (hx) (hy)
    (vx : x.ty.Contents (Elt F)) (a : y.ty.Contents (Elt F)) (Q : PUnit → sProp 𝕄) :
    iprop(boundary (SparseCore.T d) ∗ (bLoc d x ↦{fullShare} vx) ∗ (bLoc d y ↦{fullShare} a)
        ∗ (iprop(boundary (SparseCore.T d) ∗ (bLoc d x ↦{fullShare} vx) ∗ (bLoc d y ↦{fullShare} f vx)) -∗ Q ⟨⟩))
      ⊢ wp frame (wpE ((K (F := F)).defs (D (F := F))) 𝒱 (SparseCore.T d) none) Set.univ
          (hlo rfl (StableHlo.unary x y f hx hy) (fun _ => .ret ⟨⟩)) Q := by
  iintro ⟨Hb, Hx, Hy, Hk⟩
  iapply (wp_hlo_within 𝒱 (SparseCore.T d) none Set.univ (op := StableHlo.unary x y f hx hy)
    (S := {Proc.devRef .tc x, Proc.devRef .tc y}) (fun _ h => h) (V := val2 V₀ x y vx a)) $$ [Hb Hx Hy]
  · isplitl [Hb]; · iexact Hb
    rw [held_pair d x y hne, val2_x V₀ x y hne, val2_y]
    isplitl [Hx]; · iexact Hx
    iexact Hy
  iintro ⟨Hb, Hheld⟩
  ihave Hh := (Entails.of_eq (held_pair_unary V₀ d x y hne f hx hy vx a)) $$ Hheld
  icases Hh with ⟨Hx, Hy⟩
  rw [wp_ret]; imodintro
  iapply Hk
  isplitl [Hb]; · iexact Hb
  isplitl [Hx]; · iexact Hx
  iexact Hy

/-- A host reshape, as a step: the result ends at the operand's elements in row-major order at the result's shape. -/
theorem host_reshape_step (V₀ : Valuation τ sig (Elt F)) (d : Dev nD) (x y : Ref sig .tc) (hne : (Proc.devRef .tc x : DevRef τ sig) ≠ Proc.devRef .tc y)
    (he : x.ty.elt = y.ty.elt) (hn : x.ty.shape.ShapeCasts y.ty.shape) (hx) (hy)
    (vx : x.ty.Contents (Elt F)) (a : y.ty.Contents (Elt F)) (Q : PUnit → sProp 𝕄) :
    iprop(boundary (SparseCore.T d) ∗ (bLoc d x ↦{fullShare} vx) ∗ (bLoc d y ↦{fullShare} a)
        ∗ (iprop(boundary (SparseCore.T d) ∗ (bLoc d x ↦{fullShare} vx)
            ∗ (bLoc d y ↦{fullShare} (fun i => he ▸ shapeCast y.ty.shape vx hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  iintro ⟨Hb, Hx, Hy, Hk⟩
  iapply (wp_hlo_within 𝒱 (SparseCore.T d) none Set.univ (op := StableHlo.reshape x y he hn hx hy)
    (S := {Proc.devRef .tc x, Proc.devRef .tc y}) (fun _ h => h) (V := val2 V₀ x y vx a)) $$ [Hb Hx Hy]
  · isplitl [Hb]; · iexact Hb
    rw [held_pair d x y hne, val2_x V₀ x y hne, val2_y]
    isplitl [Hx]; · iexact Hx
    iexact Hy
  iintro ⟨Hb, Hheld⟩
  ihave Hh := (Entails.of_eq (held_pair_reshape V₀ d x y hne he hn hx hy vx a)) $$ Hheld
  icases Hh with ⟨Hx, Hy⟩
  rw [wp_ret]; imodintro
  iapply Hk
  isplitl [Hb]; · iexact Hb
  isplitl [Hx]; · iexact Hx
  iexact Hy

/-! ## The six operations of @main -/

variable (m : (ℓ : Loc nD τ sig) → Buf (Elt F) ℓ)

/-- The launch memory of device `d` as a valuation. -/
abbrev valOf (d : Dev nD) : Valuation τ sig (Elt F) := fun b => m (d, b)

/-- `%0`: the indices transposed. -/
theorem host_v0 (d : Dev nD) (a : Buf (Elt F) (bLoc d main_v0)) (Q : PUnit → sProp 𝕄) :
    iprop(boundary (SparseCore.T d) ∗ (bLoc d main_arg0 ↦{fullShare} mT m d main_arg0) ∗ (bLoc d main_v0 ↦{fullShare} a)
        ∗ (iprop(boundary (SparseCore.T d) ∗ (bLoc d main_arg0 ↦{fullShare} mT m d main_arg0) ∗ (bLoc d main_v0 ↦{fullShare} V0c m d)) -∗ Q ⟨⟩))
      ⊢ wp frame (wpE ((K (F := F)).defs (D (F := F))) 𝒱 (SparseCore.T d) none) Set.univ
          (hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)) Q :=
  host_unary_step (valOf m d) d main_arg0 main_v0 (by decide)
    ((transpose S200x4096 [1, 0] · transposes_S4096x200_S200x4096_1_0) : (⟨S4096x200, .i32⟩ : BufTy).Contents (Elt F) → (⟨S200x4096, .i32⟩ : BufTy).Contents (Elt F))
    ⟨by decide, rfl⟩ ⟨by decide, rfl⟩ (mT m d main_arg0) a Q

/-- `%2`: the table transposed. -/
theorem host_v2 (d : Dev nD) (a : Buf (Elt F) (bLoc d main_v2)) (Q : PUnit → sProp 𝕄) :
    iprop(boundary (SparseCore.T d) ∗ (bLoc d main_arg2 ↦{fullShare} mT m d main_arg2) ∗ (bLoc d main_v2 ↦{fullShare} a)
        ∗ (iprop(boundary (SparseCore.T d) ∗ (bLoc d main_arg2 ↦{fullShare} mT m d main_arg2) ∗ (bLoc d main_v2 ↦{fullShare} V2c m d)) -∗ Q ⟨⟩))
      ⊢ wp frame (wpE ((K (F := F)).defs (D (F := F))) 𝒱 (SparseCore.T d) none) Set.univ
          (hlo rfl (StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F))) (fun _ => .ret ⟨⟩)) Q :=
  host_unary_step (valOf m d) d main_arg2 main_v2 (by decide)
    ((transpose S64x1000000 [1, 0] · transposes_S1000000x64_S64x1000000_1_0) : (⟨S1000000x64, .f32⟩ : BufTy).Contents (Elt F) → (⟨S64x1000000, .f32⟩ : BufTy).Contents (Elt F))
    ⟨by decide, rfl⟩ ⟨by decide, rfl⟩ (mT m d main_arg2) a Q

/-- `%5`: the first weight matrix transposed. -/
theorem host_v5 (d : Dev nD) (a : Buf (Elt F) (bLoc d main_v5)) (Q : PUnit → sProp 𝕄) :
    iprop(boundary (SparseCore.T d) ∗ (bLoc d main_arg3 ↦{fullShare} mT m d main_arg3) ∗ (bLoc d main_v5 ↦{fullShare} a)
        ∗ (iprop(boundary (SparseCore.T d) ∗ (bLoc d main_arg3 ↦{fullShare} mT m d main_arg3) ∗ (bLoc d main_v5 ↦{fullShare} V5c m d)) -∗ Q ⟨⟩))
      ⊢ wp frame (wpE ((K (F := F)).defs (D (F := F))) 𝒱 (SparseCore.T d) none) Set.univ
          (hlo rfl (StableHlo.unary main_arg3 main_v5 ((transpose S64x128 [1, 0] · transposes_S128x64_S64x128_1_0) : (⟨S128x64, .f32⟩ : BufTy).Contents (Elt F) → (⟨S64x128, .f32⟩ : BufTy).Contents (Elt F))) (fun _ => .ret ⟨⟩)) Q :=
  host_unary_step (valOf m d) d main_arg3 main_v5 (by decide)
    ((transpose S64x128 [1, 0] · transposes_S128x64_S64x128_1_0) : (⟨S128x64, .f32⟩ : BufTy).Contents (Elt F) → (⟨S64x128, .f32⟩ : BufTy).Contents (Elt F))
    ⟨by decide, rfl⟩ ⟨by decide, rfl⟩ (mT m d main_arg3) a Q

/-- `%6`: the first bias vector as a one-row matrix. -/
theorem host_v6 (d : Dev nD) (a : Buf (Elt F) (bLoc d main_v6)) (Q : PUnit → sProp 𝕄) :
    iprop(boundary (SparseCore.T d) ∗ (bLoc d main_arg4 ↦{fullShare} mT m d main_arg4) ∗ (bLoc d main_v6 ↦{fullShare} a)
        ∗ (iprop(boundary (SparseCore.T d) ∗ (bLoc d main_arg4 ↦{fullShare} mT m d main_arg4) ∗ (bLoc d main_v6 ↦{fullShare} V6c m d)) -∗ Q ⟨⟩))
      ⊢ wp frame (wpE ((K (F := F)).defs (D (F := F))) 𝒱 (SparseCore.T d) none) Set.univ
          (hlo rfl (StableHlo.reshape main_arg4 main_v6 rfl shapeCasts_S128_S1x128) (fun _ => .ret ⟨⟩)) Q :=
  host_reshape_step (valOf m d) d main_arg4 main_v6 (by decide) rfl shapeCasts_S128_S1x128 ⟨by decide, rfl⟩ ⟨by decide, rfl⟩ (mT m d main_arg4) a Q

/-- `%7`: the second weight matrix transposed. -/
theorem host_v7 (d : Dev nD) (a : Buf (Elt F) (bLoc d main_v7)) (Q : PUnit → sProp 𝕄) :
    iprop(boundary (SparseCore.T d) ∗ (bLoc d main_arg5 ↦{fullShare} mT m d main_arg5) ∗ (bLoc d main_v7 ↦{fullShare} a)
        ∗ (iprop(boundary (SparseCore.T d) ∗ (bLoc d main_arg5 ↦{fullShare} mT m d main_arg5) ∗ (bLoc d main_v7 ↦{fullShare} V7c m d)) -∗ Q ⟨⟩))
      ⊢ wp frame (wpE ((K (F := F)).defs (D (F := F))) 𝒱 (SparseCore.T d) none) Set.univ
          (hlo rfl (StableHlo.unary main_arg5 main_v7 ((transpose S128x2 [1, 0] · transposes_S2x128_S128x2_1_0) : (⟨S2x128, .f32⟩ : BufTy).Contents (Elt F) → (⟨S128x2, .f32⟩ : BufTy).Contents (Elt F))) (fun _ => .ret ⟨⟩)) Q :=
  host_unary_step (valOf m d) d main_arg5 main_v7 (by decide)
    ((transpose S128x2 [1, 0] · transposes_S2x128_S128x2_1_0) : (⟨S2x128, .f32⟩ : BufTy).Contents (Elt F) → (⟨S128x2, .f32⟩ : BufTy).Contents (Elt F))
    ⟨by decide, rfl⟩ ⟨by decide, rfl⟩ (mT m d main_arg5) a Q

/-- `%8`: the second bias vector as a one-row matrix. -/
theorem host_v8 (d : Dev nD) (a : Buf (Elt F) (bLoc d main_v8)) (Q : PUnit → sProp 𝕄) :
    iprop(boundary (SparseCore.T d) ∗ (bLoc d main_arg6 ↦{fullShare} mT m d main_arg6) ∗ (bLoc d main_v8 ↦{fullShare} a)
        ∗ (iprop(boundary (SparseCore.T d) ∗ (bLoc d main_arg6 ↦{fullShare} mT m d main_arg6) ∗ (bLoc d main_v8 ↦{fullShare} V8c m d)) -∗ Q ⟨⟩))
      ⊢ wp frame (wpE ((K (F := F)).defs (D (F := F))) 𝒱 (SparseCore.T d) none) Set.univ
          (hlo rfl (StableHlo.reshape main_arg6 main_v8 rfl shapeCasts_S2_S1x2) (fun _ => .ret ⟨⟩)) Q :=
  host_reshape_step (valOf m d) d main_arg6 main_v8 (by decide) rfl shapeCasts_S2_S1x2 ⟨by decide, rfl⟩ ⟨by decide, rfl⟩ (mT m d main_arg6) a Q

end Cert.Proof.KB

end
-- ==== Proof.KBStep0.lean ====
/-
  The step of pipeline 0 inside @main: the custom call of the index-layout region, run on the TensorCore from the
  transposed indices and the padded-index array at its launch contents, leaves the padded-index array at the region's
  final contents. The region's record for the segment rule: its two arrays enter as explicit points-tos, the scoped
  buffers that are no staging buffer of the region ride in the invariant, the core owes the start signal of the
  SparseCore call throughout (at a call's index, so the region's own waits at index `none` are admissible), and the
  pairs its waits record stay within the bound the handshake state asks.
-/
import proofs.«207435_g27118423507386_cont_sun_m_668_27_alg».proof.Proof.KBRdats
import Idealize.ShloMosaic.Lib.Pipeline.Regions
import Idealize.ShloMosaic.Lib.SparseCore.Threads

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

theorem spec0_eq : (cfg0.spec : Fin cfg0.W → Pipeline.WinSpec sig cfg0.grid.rank) = (Pipeline.pin (pcfgs (F := F)) adm 0).spec := rfl

theorem Phi0_raw (c : Dev nD) (t) : (rdats (F := F) m O4 0 c).Φ t
    = Pipeline.scopedRest (Ix := HIx 1) (Name := ℕ) (U := UU) (Lvl := ℕ) (Val := Elt F) cfg0.spec c := rfl

/-- The region's invariant: the core's scoped buffers that are no staging buffer of the region. -/
theorem Phi0_eq (c : Dev nD) (t) : (rdats (F := F) m O4 0 c).Φ t
    = (Pipeline.scopedRest (Ix := HIx 1) (Name := ℕ) (U := UU) (Lvl := ℕ) (Val := Elt F) (Pipeline.pin (pcfgs (F := F)) adm 0).spec c : sProp 𝕄) := by
  rw [Phi0_raw]
  exact congrArg (fun s => Pipeline.scopedRest (Ix := HIx 1) (Name := ℕ) (U := UU) (Lvl := ℕ) (Val := Elt F) s c) (spec0_eq (F := F))

/-- The region's two arrays at contents `Fa`: the transposed indices and the padded-index array, each whole. -/
theorem arrays0_eq (c : Dev nD) (Fa) :
    ((rdats (F := F) m O4 0 c).arrays Fa : sProp 𝕄) = iprop((bLoc c main_v0 ↦{fullShare} Fa 0) ∗ (bLoc c main_v1 ↦{fullShare} Fa 1)) := by
  rw [Pipeline.RDat.arrays_eq (pcfgs (F := F)) adm (rdats m O4) 0 c launch0.arr_whole ((rdats m O4 0 c).share_full fun _ => rfl) Fa, bigSep_W0]
  rfl

set_option backward.isDefEq.respectTransparency.types false in
/-- The region's record. -/
def reg0 : Pipeline.RDat.RegionSeg (pcfgs (F := F)) adm (rdats m O4) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 c (A0 m c) ((K (F := F)).Otc c 0) (RcOf (F := F) c 0)).loose.toR
  hwaits c := Pipeline.RDat.cellsWaits_intro (Pipeline.pin (pcfgs (F := F)) adm) (rdats m O4) (none : HIx 1) 0 c
    fun w s t => (K (F := F)).mayWait_none _ (Otc_none c 0)
  pre d := iprop((bLoc d main_v0 ↦{fullShare} V0c m d) ∗ (bLoc d main_v1 ↦{fullShare} mT m d main_v1) ∗ owesP d 0)
  post d := iprop((bLoc d main_v0 ↦{fullShare} V0c m d) ∗ (iLoc d ↦{fullShare} I1 m d) ∗ owesP d 0)
  X _ := iprop(emp)
  Y _ := iprop(emp)
  Z _ := iprop(emp)
  hentry c := by
    rw [Pipeline.ownSems0_none, arrays0_eq]
    iintro ⟨⟨H0, H1, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.RDat.owesAt Pipeline.owesWithin owesP
      icases HO with ⟨%W, %hW, HO⟩
      iexists W; isplitr
      · ipureintro; exact fun p hp => Or.inl (mem_RcOf_of_wBelow c 0 W hW p hp)
      iexact HO
    isplitr <;> iempintro
  hin c := by
    rw [Phi0_eq m O4 c 0]
    iintro ⟨-, -, Hr⟩; iexact Hr
  hout c := by
    rw [Pipeline.ownSems0_none, Phi0_eq m O4 c (Fin.last _)]
    iintro Hr
    isplitr; · iempintro
    isplitr; · iempintro
    iexact Hr
  hexit c := by
    have e : (rdats (F := F) m O4 0 c).arraysAt (Pipeline.pin (pcfgs (F := F)) adm 0).N
        = ((rdats (F := F) m O4 0 c).arrays (fun w => (dat0 c (A0 m c) ((K (F := F)).Otc c 0) (RcOf (F := F) c 0)).arrAt w cfg0.N) : sProp 𝕄) :=
      (dat0 c (A0 m c) ((K (F := F)).Otc c 0) (RcOf (F := F) c 0)).toR_arraysAt_eq _
    rw [e, arrays0_eq, arr0_in]
    iintro ⟨⟨H0, H1⟩, HO, -, -⟩
    imodintro
    isplitl [H0]; · iexact H0
    isplitl [H1]; · iexact H1
    unfold Pipeline.RDat.owesAt Pipeline.owesWithin owesP
    icases HO with ⟨%W, %hW, HO⟩
    iexists W; isplitr
    · ipureintro
      refine wBelow_of_sub c 0 W fun p hp => ?_
      rcases hW hp with h | ⟨w, s, h⟩
      · exact Or.inl h
      · exact Or.inr (by rw [h])
    iexact HO

theorem reg0_pre (d : Dev nD) : (reg0 (F := F) m O4).pre d
    = iprop((bLoc d main_v0 ↦{fullShare} V0c m d) ∗ (bLoc d main_v1 ↦{fullShare} mT m d main_v1) ∗ owesP d 0) := rfl
theorem reg0_post (d : Dev nD) : (reg0 (F := F) m O4).post d
    = iprop((bLoc d main_v0 ↦{fullShare} V0c m d) ∗ (iLoc d ↦{fullShare} I1 m d) ∗ owesP d 0) := rfl

include O4 in
set_option backward.isDefEq.respectTransparency.types false in
/-- The step of pipeline 0 inside @main, for the family of region data at any pooled rows `O4`. -/
theorem region0_step_at : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1 m d) ∗ owesP d 0) -∗ Q ⟨⟩))
        ⊢ wp frame (wpE ((K (F := F)).defs (D (F := F))) 𝒱 (SparseCore.T d) none) Set.univ (Prog.lift (.customCall (SparseCore.inner (Pipeline.entry 0)) ())) Q := by
  intro d Q
  let p : Prog (TpuEff nD τ sig (Elt F) (ΛP (F := F)) .tc) PUnit := .op (.customCall (Pipeline.entry 0) ()) (fun _ => .ret ⟨⟩)
  have h1 : wp frame (wpE (D (F := F)) 𝒱 (SparseCore.T d) none) Set.univ p Q
      ⊢ wp frame (wpE ((K (F := F)).defs (D (F := F))) 𝒱 (SparseCore.T d) none) Set.univ (SparseCore.liftProg p) Q :=
    (K (F := F)).wp_liftProg (D (F := F)) 𝒱 (SparseCore.T d) Set.univ none p Q
  have e : (Prog.lift (.customCall (SparseCore.inner (Pipeline.entry 0)) ()) : Prog (TpuEff nD τ sig (Elt F) (SparseCore.Sig (ΛP (F := F)) 1) .tc) PUnit) = SparseCore.liftProg p := rfl
  rw [e]
  refine BIBase.Entails.trans ?_ h1
  have h2 := Pipeline.RDat.RegionSeg.wp (pcfgs (F := F)) adm (rdats m O4) (none : HIx 1) cellOf_inj EP defs₀ 𝒱₀ (K (F := F)).L (K (F := F)).lev (reg0 m O4) d none (by simp) (fun _ => .ret ⟨⟩) Q
  refine BIBase.Entails.trans ?_ h2
  rw [reg0_pre, reg0_post]
  iintro ⟨HL, Hb, H0, H1, HO, ⟨Hg, Ht⟩, HQ⟩
  isplitl [HQ]
  · iintro ⟨Hb, H0, H1, HO⟩
    rw [wp_ret]; imodintro
    iapply HQ
    isplitl [Hb]; · iexact Hb
    isplitl [H0]; · iexact H0
    isplitl [H1]; · iexact H1
    iexact HO
  isplitl [Hb]; · iexact Hb
  isplitl [H0 H1 HO]
  · isplitl [H0]; · iexact H0
    isplitl [H1]; · iexact H1
    iexact HO
  isplitl [HL]; · iexact HL
  isplitl [Hg]; · iexact Hg
  iexact Ht

/-- The same with no mention of the pooled rows: region 0 does not touch them. -/
theorem region0_step : ∀ (d : Dev nD) (Q : PUnit → sProp 𝕄),
      iprop(levAts (K (F := F)).L (K (F := F)).lev ∗ boundary (SparseCore.T d) ∗ (bLoc d main_v0 ↦{fullShare} V0c m d) ∗ (bLoc d main_v1 ↦{fullShare} mT m d main_v1) ∗ owesP d 0 ∗ ghostP 0 d
          ∗ (iprop(boundary (SparseCore.T d) ∗ (bLoc d main_v0 ↦{fullShare} V0c m d) ∗ (iLoc d ↦{fullShare} I1 m d) ∗ owesP d 0) -∗ Q ⟨⟩))
        ⊢ wp frame (wpE ((K (F := F)).defs (D (F := F))) 𝒱 (SparseCore.T d) none) Set.univ (Prog.lift (.customCall (SparseCore.inner (Pipeline.entry 0)) ())) Q :=
  region0_step_at m (fun d => m (oLoc d))

end Cert.Proof.KB

end
-- ==== Proof.KBStep1.lean ====
/-
  The table-packing region as a step of @main on a device's TensorCore: entered holding the transposed table and the
  packed table's buffer whole and owing the first call's start signal, the region's custom call runs to the transposed
  table's buffer held at some contents, the packed table's buffer held at contents that are the packing of the
  transposed table wherever the source column lies inside the table, and the same debt.
-/
import proofs.«207435_g27118423507386_cont_sun_m_668_27_alg».proof.Proof.KBRdats
import Idealize.ShloMosaic.Lib.Pipeline.Regions
import Idealize.ShloMosaic.Lib.SparseCore.Threads

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

/-- What the region is entered from: the transposed table and the packed table's buffer, whole, and the debt. -/
def pre1 (d : Dev nD) : sProp 𝕄 :=
  iprop((bLoc d main_v2 ↦{fullShare} V2c m d) ∗ (bLoc d main_v3 ↦{fullShare} mT m d main_v3) ∗ owesP d 0)
/-- What it leaves: the two buffers, the packed table's at contents packed wherever determined, and the debt. -/
def post1 (d : Dev nD) : sProp 𝕄 :=
  iprop((∃ a2, (bLoc d main_v2 ↦{fullShare} a2)) ∗ (∃ Tb, ⌜TabOKm m d Tb⌝ ∗ tLoc d ↦{fullShare} Tb) ∗ owesP d 0)

theorem share1 (c : Dev nD) (w : Fin 2) : (rdats m O4 1 c).share w = fullShare :=
  (rdats m O4 1 c).share_full (fun _ => rfl) w

/-- The region's windows, as the pipeline's configuration and as the pinned one name them. -/
theorem spec1_eq : (cfg1.spec : Fin cfg1.W → Pipeline.WinSpec sig cfg1.grid.rank) = (Pipeline.pin (pcfgs (F := F)) adm 1).spec := rfl

theorem Phi1_raw (c : Dev nD) (t) : (rdats m O4 1 c).Φ t = Pipeline.scopedRest (Ix := HIx 1) (Name := ℕ) (U := UU) (Lvl := ℕ) (Val := Elt F) cfg1.spec c := rfl

/-- The region's invariant: the core's scoped buffers that are no staging buffer of the region. -/
theorem Phi1_eq (c : Dev nD) (t) : (rdats m O4 1 c).Φ t
    = Pipeline.scopedRest (Ix := HIx 1) (Name := ℕ) (U := UU) (Lvl := ℕ) (Val := Elt F) (Pipeline.pin (pcfgs (F := F)) adm 1).spec c := by
  rw [Phi1_raw]
  exact congrArg (fun s => Pipeline.scopedRest (Ix := HIx 1) (Name := ℕ) (U := UU) (Lvl := ℕ) (Val := Elt F) s c) (spec1_eq (F := F))

set_option backward.isDefEq.respectTransparency.types false in
/-- The region's record. -/
def reg1 : Pipeline.RDat.RegionSeg (pcfgs (F := F)) adm (rdats m O4) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := body_obligation1 c (A1 m c) ((K (F := F)).Otc c 0) (RcOf (F := F) c 0)
  hwaits c := Pipeline.RDat.cellsWaits_intro (Pipeline.pin (pcfgs (F := F)) adm) (rdats m O4) (none : HIx 1) 1 c
    fun w s t => (K (F := F)).mayWait_none _ (Otc_none c 0)
  pre := pre1 m
  post := post1 m
  X _ := iprop(emp)
  Y _ := iprop(emp)
  Z _ := iprop(emp)
  hentry c := by
    rw [Pipeline.ownSems0_none]
    unfold pre1
    iintro ⟨⟨H2, H3, HO⟩, -, -⟩
    imodintro
    isplitl [H2 H3]
    · rw [Pipeline.RDat.arrays_eq (pcfgs (F := F)) adm (rdats m O4) 1 c launch1.arr_whole (share1 m O4 c), bigSep_W1]
      isplitl [H2]; · iexact H2
      iexact H3
    isplitr; · unfold Pipeline.prefHeld; rw [show (Finset.univ : Finset (Fin 0)) = ∅ from rfl, BI.bigSep_empty]; iempintro
    isplitl [HO]
    · unfold owesP
      icases HO with ⟨%W, %hW, HO⟩
      iexists W; isplitr
      · ipureintro; exact fun p hp => Or.inl (mem_RcOf_of_wBelow c 0 W hW p (Finset.mem_coe.mp hp))
      iexact HO
    isplitr <;> iempintro
  hin c := by
    rw [Phi1_eq m O4 c 0]
    iintro ⟨-, -, H⟩; iexact H
  hout c := by
    rw [Pipeline.ownSems0_none, Phi1_eq m O4 c (Fin.last _)]
    iintro H
    isplitr; · iempintro
    isplitr; · iempintro
    iexact H
  hexit c := by
    have ha : ∀ w : Fin 2, ((Pipeline.pin (pcfgs (F := F)) adm 1).win w).arr.IsWhole := launch1.arr_whole
    unfold Pipeline.RDat.arraysAt post1
    rw [bigSep_W1, (ha 0).set_eq_univ, (ha 1).set_eq_univ, share1 m O4 c 0, share1 m O4 c 1]
    iintro ⟨⟨⟨%a2, %h2, H2⟩, ⟨%Tb, %h3, H3⟩⟩, HO, -, -⟩
    imodintro
    isplitl [H2]; · iexists a2; iexact H2
    isplitl [H3]
    · iexists Tb; isplitr
      · ipureintro; exact fun r h e hv => arr1_out_apply c (A1 m c) _ _ Tb h3 r h e hv
      iexact H3
    icases HO with ⟨%W, %hW, HO⟩
    unfold owesP
    iexists W; isplitr
    · ipureintro
      refine wBelow_of_sub c 0 W fun p hp => ?_
      rcases hW (Finset.mem_coe.mpr hp) with h | ⟨w, s, rfl⟩
      · exact Or.inl h
      · exact Or.inr rfl
    iexact HO

include O4 in
set_option backward.isDefEq.respectTransparency.types false in
/-- The region as a step of @main on device `d`'s TensorCore. -/
theorem region1_step : ∀ (d : Dev nD) (Q : PUnit → sProp 𝕄),
      iprop(levAts (K (F := F)).L (K (F := F)).lev ∗ boundary (SparseCore.T d) ∗ (bLoc d main_v2 ↦{fullShare} V2c m d) ∗ (bLoc d main_v3 ↦{fullShare} mT m d main_v3) ∗ owesP d 0 ∗ ghostP 1 d
          ∗ (iprop(boundary (SparseCore.T d) ∗ (∃ a2, (bLoc d main_v2 ↦{fullShare} a2)) ∗ (∃ Tb, ⌜TabOKm m d Tb⌝ ∗ tLoc d ↦{fullShare} Tb) ∗ owesP d 0) -∗ Q ⟨⟩))
        ⊢ wp frame (wpE ((K (F := F)).defs (D (F := F))) 𝒱 (SparseCore.T d) none) Set.univ (Prog.lift (.customCall (SparseCore.inner (Pipeline.entry 1)) ())) Q := by
  intro d Q
  have hl := (K (F := F)).wp_liftProg (D (F := F)) 𝒱 (SparseCore.T d) Set.univ none
    (.op (.customCall (Pipeline.entry 1) ()) fun _ => .ret ⟨⟩) Q
  refine BI.Entails.trans ?_ hl
  have hr := Pipeline.RDat.RegionSeg.wp (pcfgs (F := F)) adm (rdats m O4) (none : HIx 1) cellOf_inj EP defs₀ 𝒱₀ (K (F := F)).L (K (F := F)).lev
    (reg1 m O4) d none (by simp) (fun _ => .ret ⟨⟩) Q
  refine BI.Entails.trans ?_ hr
  show _ ⊢ iprop((iprop(boundary (SparseCore.T d) ∗ post1 m d) -∗ _) ∗ boundary (SparseCore.T d) ∗ pre1 m d ∗ _ ∗ _ ∗ _)
  unfold pre1 post1
  iintro ⟨Hlev, Hb, H2, H3, HO, ⟨Hg, Ht⟩, Hk⟩
  isplitl [Hk]
  · iintro ⟨Hb, Hp⟩
    rw [wp_ret]
    imodintro
    iapply Hk
    isplitl [Hb]; · iexact Hb
    iexact Hp
  isplitl [Hb]; · iexact Hb
  isplitl [H2 H3 HO]
  · isplitl [H2]; · iexact H2
    isplitl [H3]; · iexact H3
    iexact HO
  isplitl [Hlev]; · iexact Hlev
  isplitl [Hg]; · iexact Hg
  iexact Ht

end Cert.Proof.KB

end
-- ==== Proof.KBStep3.lean ====
/-
  The third pipelined region of @main (the perceptron) as one step of the TensorCore's program: from the region's six
  arrays held whole at the contents the run has left in them, the core's debt of launch handshakes and the region's share
  of the launch's ghost state, the custom call runs to the result array at the perceptron's value of the five inputs, the
  debt unchanged.
-/
import proofs.«207435_g27118423507386_cont_sun_m_668_27_alg».proof.Proof.KBRdats
import Idealize.ShloMosaic.Lib.Pipeline.Regions
import Idealize.ShloMosaic.Lib.SparseCore.Threads

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable [∀ e, Nonempty (Elt F e)]
variable (m : (ℓ : Loc nD τ sig) → Buf (Elt F) ℓ)
variable (O4 : (d : Dev nD) → Buf (Elt F) (oLoc d))

/-- The region's arrays as the step holds them: the pooled rows, the four re-laid weights, the result at its launch contents. -/
abbrev arrs3 (d : Dev nD) : sProp 𝕄 :=
  iprop((oLoc d ↦{fullShare} O4 d) ∗ (bLoc d main_v5 ↦{fullShare} V5c m d) ∗ (bLoc d main_v6 ↦{fullShare} V6c m d) ∗ (bLoc d main_v7 ↦{fullShare} V7c m d)
    ∗ (bLoc d main_v8 ↦{fullShare} V8c m d) ∗ (bLoc d main_v9 ↦{fullShare} mT m d main_v9))

/-- The region's six arrays at contents `Fa`, one by one. -/
theorem arrays3_eq (c : Dev nD) (Fa) : ((rdats m O4 2 c).arrays Fa : sProp 𝕄)
    = iprop((oLoc c ↦{fullShare} Fa 0) ∗ (bLoc c main_v5 ↦{fullShare} Fa 1) ∗ (bLoc c main_v6 ↦{fullShare} Fa 2) ∗ (bLoc c main_v7 ↦{fullShare} Fa 3)
      ∗ (bLoc c main_v8 ↦{fullShare} Fa 4) ∗ (bLoc c main_v9 ↦{fullShare} Fa 5)) := by
  rw [Pipeline.RDat.arrays_eq (pcfgs (F := F)) adm (rdats m O4) 2 c launch3.arr_whole ((rdats m O4 2 c).share_full fun _ => rfl) Fa, bigSep_W3]
  rfl

/-- The region's invariant at every point: the core's scoped buffers that are no staging buffer of this pipeline. -/
theorem Φ3_eq (c : Dev nD) (t : Fin ((Pipeline.pin (pcfgs (F := F)) adm 2).N + 1)) :
    (rdats m O4 2 c).Φ t = (Pipeline.scopedRest (Pipeline.pin (pcfgs (F := F)) adm 2).spec c : sProp 𝕄) :=
  (show (rdats m O4 2 c).Φ t = (dat3 c (A3 m O4 c) ((K (F := F)).Otc c 1) (RcOf (F := F) c 1)).Φ t from rfl).trans
    ((show (dat3 c (A3 m O4 c) ((K (F := F)).Otc c 1) (RcOf (F := F) c 1)).Φ t = (Pipeline.scopedRest spec3 c : sProp 𝕄) from rfl).trans
      (show (Pipeline.scopedRest spec3 c : sProp 𝕄) = Pipeline.scopedRest (Pipeline.pin (pcfgs (F := F)) adm 2).spec c from rfl))

set_option backward.isDefEq.respectTransparency.types false in
def reg3 : Pipeline.RDat.RegionSeg (pcfgs (F := F)) adm (rdats m O4) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 c (A3 m O4 c) ((K (F := F)).Otc c 1) (RcOf (F := F) c 1)).toR
  hwaits c := Pipeline.RDat.cellsWaits_intro (Pipeline.pin (pcfgs (F := F)) adm) (rdats m O4) none 2 c
    fun _ _ _ => (K (F := F)).mayWait_none _ (Otc_none c 1)
  pre d := iprop(arrs3 m O4 d ∗ owesP d 1)
  post d := iprop((bLoc d main_v9 ↦{fullShare} R9 m O4 d) ∗ owesP d 1)
  X _ := iprop(emp)
  Y _ := iprop(emp)
  Z _ := iprop(emp)
  hentry c := by
    rw [Pipeline.ownSems0_none, arrays3_eq]
    iintro ⟨⟨⟨H4, H5, H6, H7, H8, H9⟩, HO⟩, -, -⟩
    imodintro
    isplitl [H4 H5 H6 H7 H8 H9]
    · isplitl [H4]; · iexact H4
      isplitl [H5]; · iexact H5
      isplitl [H6]; · iexact H6
      isplitl [H7]; · iexact H7
      isplitl [H8]; · iexact H8
      iexact H9
    isplitr; · unfold Pipeline.prefHeld; rw [show (Finset.univ : Finset (Fin 0)) = ∅ from rfl, BI.bigSep_empty]; iempintro
    isplitl [HO]
    · unfold owesP
      icases HO with ⟨%W, %hW, HO⟩
      iexists W; isplitr; · ipureintro; exact fun p hp => Or.inl (mem_RcOf_of_wBelow c 1 W hW p (Finset.mem_coe.mp hp))
      iexact HO
    isplitr <;> iempintro
  hin c := by
    rw [Φ3_eq]
    iintro ⟨-, -, H⟩; iexact H
  hout c := by
    rw [Pipeline.ownSems0_none, Φ3_eq]
    iintro H; isplitr; · iempintro
    isplitr; · iempintro
    iexact H
  hexit c := by
    rw [show (rdats m O4 2 c).arraysAt (Pipeline.pin (pcfgs (F := F)) adm 2).N = (rdats m O4 2 c).arrays (fun w => (dat3 c (A3 m O4 c) ((K (F := F)).Otc c 1) (RcOf (F := F) c 1)).arrAt w cfg3.N)
      from (dat3 c (A3 m O4 c) ((K (F := F)).Otc c 1) (RcOf (F := F) c 1)).toR_arraysAt_eq cfg3.N, arrays3_eq]
    iintro ⟨⟨-, -, -, -, -, H9⟩, HO, -, -⟩
    imodintro
    isplitl [H9]; · iexact H9
    unfold owesP
    icases HO with ⟨%W, %hW, HO⟩
    iexists W; isplitr; swap; · iexact HO
    ipureintro
    refine wBelow_of_sub c 1 W fun p hp => ?_
    rcases hW (Finset.mem_coe.mpr hp) with h | ⟨w, s, rfl⟩
    · exact Or.inl h
    · exact Or.inr rfl

set_option backward.isDefEq.respectTransparency.types false in
/-- THE STEP: the custom call of the third pipeline, as @main prints it, from its six arrays, the debt and the ghost
    state to the result array at the perceptron's value, the debt as it was. -/
theorem region3_step : ∀ (d : Dev nD) (Q : PUnit → sProp 𝕄),
      iprop(levAts (K (F := F)).L (K (F := F)).lev ∗ boundary (SparseCore.T d) ∗ (oLoc d ↦{fullShare} O4 d) ∗ (bLoc d main_v5 ↦{fullShare} V5c m d) ∗ (bLoc d main_v6 ↦{fullShare} V6c m d) ∗ (bLoc d main_v7 ↦{fullShare} V7c m d) ∗ (bLoc d main_v8 ↦{fullShare} V8c m d) ∗ (bLoc d main_v9 ↦{fullShare} mT m d main_v9) ∗ owesP d 1 ∗ ghostP 2 d
          ∗ (iprop(boundary (SparseCore.T d) ∗ (bLoc d main_v9 ↦{fullShare} R9 m O4 d) ∗ owesP d 1) -∗ Q ⟨⟩))
        ⊢ wp frame (wpE ((K (F := F)).defs (D (F := F))) 𝒱 (SparseCore.T d) none) Set.univ (Prog.lift (.customCall (SparseCore.inner (Pipeline.entry 2)) ())) Q := by
  intro d Q
  iintro ⟨HL, Hb, H4, H5, H6, H7, H8, H9, HO, ⟨Hg, Ht⟩, Hk⟩
  iapply ((K (F := F)).wp_liftProg (D (F := F)) 𝒱 (SparseCore.T d) Set.univ none (.op (.customCall (Pipeline.entry 2) ()) fun _ => .ret ⟨⟩) Q)
  have hwp := Pipeline.RDat.RegionSeg.wp (pcfgs (F := F)) adm (rdats m O4) (none : HIx 1) cellOf_inj EP defs₀ 𝒱₀ (K (F := F)).L (K (F := F)).lev
    (reg3 m O4) d none (by simp) (fun _ => .ret ⟨⟩) Q
  rw [show (reg3 m O4).post d = iprop((bLoc d main_v9 ↦{fullShare} R9 m O4 d) ∗ owesP d 1) from rfl,
    show (reg3 m O4).pre d = iprop(arrs3 m O4 d ∗ owesP d 1) from rfl] at hwp
  iapply hwp
  isplitl [Hk]
  · iintro ⟨Hb, H9, HO⟩
    rw [wp_ret]
    imodintro
    iapply Hk
    isplitl [Hb]; · iexact Hb
    isplitl [H9]; · iexact H9
    iexact HO
  isplitl [Hb]; · iexact Hb
  isplitl [H4 H5 H6 H7 H8 H9 HO]
  · isplitr [HO]; swap; · iexact HO
    isplitl [H4]; · iexact H4
    isplitl [H5]; · iexact H5
    isplitl [H6]; · iexact H6
    isplitl [H7]; · iexact H7
    isplitl [H8]; · iexact H8
    iexact H9
  isplitl [HL]; · iexact HL
  isplitl [Hg]; · iexact Hg
  iexact Ht

end Cert.Proof.KB

end
-- ==== Proof.KBI1.lean ====
/-
  The padded indices after the first region, entry by entry: row `b` holds the bag's first hundred indices, twelve
  zeros, its second hundred, twelve zeros. With every index of the bags in `[0, 999999]`, so is every word of it.
-/
import proofs.«207435_g27118423507386_cont_sun_m_668_27_alg».proof.Proof.KBRdats
import Idealize.ShloMosaic.Lib.ValueLayout

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
open Idealize.ShloMosaic.ValueIdx

variable [∀ e, Nonempty (Elt F e)] (m : (ℓ : Loc nD τ sig) → Buf (Elt F) ℓ)

theorem V0c_apply (d : Dev nD) (j : Fin 200) (b : Fin 4096) : V0c m d (ix2 j b) = mT m d main_arg0 (ix2 b j) := by
  unfold V0c; exact transpose_ix2_apply _ _ _ _

theorem I1_apply (d : Dev nD) (b : Fin 4096) (col : Fin 224) :
    I1 m d (ix2 b col) =
      if h : col.val < 100 then mT m d main_arg0 (ix2 b ⟨col.val, by omega⟩)
      else if col.val < 112 then (0#32 : BitVec 32)
      else if h2 : col.val < 212 then mT m d main_arg0 (ix2 b ⟨col.val - 12, by omega⟩)
      else (0#32 : BitVec 32) := by
  unfold I1
  rw [arr0_out_apply]
  simp only [show A0 m d 0 = V0c m d from rfl, V0c_apply]

theorem toNat_le_of_toInt (w : BitVec 32) (h0 : 0 ≤ w.toInt) (h1 : w.toInt ≤ 999999) : w.toNat ≤ 999999 := by
  have := w.isLt
  rw [BitVec.toInt_eq_toNat_cond] at h0 h1
  split at h0 <;> omega

theorem I1_le (hidx : ∀ d i, 0 ≤ (mT m d main_arg0 i).toInt ∧ (mT m d main_arg0 i).toInt ≤ 999999) (d : Dev nD) (i : S4096x224.Idx) :
    (I1 m d i).toNat ≤ 999999 := by
  obtain ⟨b, col, rfl⟩ : ∃ (b : Fin 4096) (col : Fin 224), i = ix2 b col := ⟨i 0, i 1, eq_ix2 i⟩
  rw [I1_apply]
  split_ifs
  · exact toNat_le_of_toInt _ (hidx d _).1 (hidx d _).2
  · decide
  · exact toNat_le_of_toInt _ (hidx d _).1 (hidx d _).2
  · decide

end Cert.Proof.KB

end
-- ==== Proof.KBSteps.lean ====
/-
  @main's steps at this program's contents, and its frame. The last region is entered at whatever pooled rows the
  SparseCore call left (its step holds at every contents of `%4`); so the frame — termination with the arguments
  unchanged — needs of the subcores' tasks only that they terminate and hand their rows back.
-/
import proofs.«207435_g27118423507386_cont_sun_m_668_27_alg».proof.Proof.KBLaunchE
import proofs.«207435_g27118423507386_cont_sun_m_668_27_alg».proof.Proof.KBLaunchG
import proofs.«207435_g27118423507386_cont_sun_m_668_27_alg».proof.Proof.KBRdats
import proofs.«207435_g27118423507386_cont_sun_m_668_27_alg».proof.Proof.KBHost
import proofs.«207435_g27118423507386_cont_sun_m_668_27_alg».proof.Proof.KBStep0
import proofs.«207435_g27118423507386_cont_sun_m_668_27_alg».proof.Proof.KBStep1
import proofs.«207435_g27118423507386_cont_sun_m_668_27_alg».proof.Proof.KBStep3
import proofs.«207435_g27118423507386_cont_sun_m_668_27_alg».proof.Proof.KBI1

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable [∀ e, Nonempty (Elt F e)] (m : (ℓ : Loc nD τ sig) → Buf (Elt F) ℓ) (ρ : Dev nD → PrngReg)

/-- The pooled rows' array at `g` on device `d` (elsewhere at its launch contents). -/
def O4u (d : Dev nD) (g : Buf (Elt F) (oLoc d)) : (d' : Dev nD) → Buf (Elt F) (oLoc d') :=
  Function.update (fun d' => mT m d' main_v4) d g
theorem O4u_self (d : Dev nD) (g : Buf (Elt F) (oLoc d)) : O4u m d g d = g := Function.update_self ..

/-- The last region's result as a function of the pooled rows it finds. -/
def R9f (d : Dev nD) (g : Buf (Elt F) (oLoc d)) : Buf (Elt F) (bLoc d main_v9) := R9 m (O4u m d g) d

theorem steps : Steps (F := F) m (I1 m) (R9f m) (TabOKm m) where
  v0 := host_v0 m
  v2 := host_v2 m
  v5 := host_v5 m
  v6 := host_v6 m
  v7 := host_v7 m
  v8 := host_v8 m
  r0 := region0_step m
  r1 := region1_step m (fun d' => mT m d' main_v4)
  r3 := fun d g Q => by
    have h := region3_step m (O4u m d g) d Q
    rw [O4u_self] at h
    exact h

/-- The frame, at any float instance: from any memory whose index words lie in `[0, 999999]`, every weakly fair
    execution terminates with the seven arguments unchanged. -/
theorem run_frame_gen (hidx : ∀ d i, 0 ≤ (mT m d main_arg0 i).toInt ∧ (mT m d main_arg0 i).toInt ≤ 999999) :
    θ_run (Cert.Kernel.defs (F := F)) (Cert.Kernel.threads (F := F)) ⟨m, fun _ => 0, ρ⟩ (fun r => ∀ c : Dev nD,
      r.2.mem (bLoc c main_arg0) = mT m c main_arg0
      ∧ r.2.mem (bLoc c main_arg1) = mT m c main_arg1
      ∧ r.2.mem (bLoc c main_arg2) = mT m c main_arg2
      ∧ r.2.mem (bLoc c main_arg3) = mT m c main_arg3
      ∧ r.2.mem (bLoc c main_arg4) = mT m c main_arg4
      ∧ r.2.mem (bLoc c main_arg5) = mT m c main_arg5
      ∧ r.2.mem (bLoc c main_arg6) = mT m c main_arg6) := by
  refine (θ_run (Cert.Kernel.defs (F := F)) _ _).mono (fun r h c => ?_)
    (run (F := F) m ρ (I1 m) (R9f m) (TabOKm m) (fun _ _ _ => True) (steps m)
      (tileObl_frame m (I1 m) (TabOKm m) facts (I1_le m hidx)))
  obtain ⟨h0, h1, h2, h3, h4, h5, h6, -⟩ := h c
  exact ⟨h0, h1, h2, h3, h4, h5, h6⟩

end Cert.Proof.KB

end
-- ==== Proof.KBPre.lean ====
/-
  The precondition read back at the bags' indices. The predicate is a conjunction of all-reductions, one of them over
  the pointwise conjunction of "index ≥ 0" and "index ≤ 999999" (both comparisons signed); a reduction by "and" that
  came out 1 met only 1s, so both comparisons hold at every position of every bag.
-/
import proofs.«207435_g27118423507386_cont_sun_m_668_27_alg».proof.Defs
import proofs.«207435_g27118423507386_cont_sun_m_668_27_alg».proof.Proof.Gen.Pre_input_domain
import proofs.«207435_g27118423507386_cont_sun_m_668_27_alg».proof.Proof.Gen.Kernel
import Idealize.ShloMosaic.Lib.ReduceAll

noncomputable section

namespace Cert.Proof.KBPre

open Idealize.ShloMosaic Idealize.SL.Sem

/-- What the precondition says of the bags' indices. -/
def IdxOK (idx : IVec Cert.Kernel.S4096x200 32) : Prop := ∀ i, 0 ≤ (idx i).toInt ∧ (idx i).toInt ≤ 999999

/-- The rank-0 shape has one index. -/
local instance : Subsingleton Cert.Pre_input_domain.S_.Idx := ⟨fun _ _ => funext fun d => d.elim0⟩

theorem idx_ok_of_pre (m : (ℓ : Loc Cert.Kernel.nD Cert.Kernel.τ Cert.Kernel.sig) → Buf (Elt Bits) ℓ)
    (hpre : Cert.Pre_Kernel m) (c : Dev Cert.Kernel.nD) : IdxOK (m ((c.tc : Thread Cert.Kernel.nD Cert.Kernel.τ).loc Cert.Kernel.main_arg0)) := by
  intro i
  -- the predicate's one word
  have e := congrFun (hpre c) (fun d => d.elim0)
  unfold Cert.Pre_input_domain.fn Cert.Pre_input_domain.fn_part1 Cert.Pre_input_domain.fn_part2 at e
  simp only [andi, IntOp.andi_eq_one] at e
  -- its conjunct about the bags' indices, at position i
  obtain ⟨⟨-, h⟩, -⟩ := e
  have hi := Host.reduce_andi_all _ _ _ _ _ h i
  simp only [andi, cmpi, broadcastInDim, constantI, IntOp.andi_eq_one, IntOp.cmpi_sge, IntOp.cmpi_sle] at hi
  rw [show (0#32 : BitVec 32).toInt = 0 from by decide, show (999999#32 : BitVec 32).toInt = 999999 from by decide] at hi
  exact hi

end Cert.Proof.KBPre

end
-- ==== Proof.KBFinal.lean ====
/-
  The word-level kernel's frame: the program's frame at the word-level float instance, under the precondition, which
  puts every index word in range.
-/
import proofs.«207435_g27118423507386_cont_sun_m_668_27_alg».proof.Proof.KBSteps
import proofs.«207435_g27118423507386_cont_sun_m_668_27_alg».proof.Proof.KBPre

noncomputable section

namespace Cert.Proof.KB

open Cert.Kernel Cert.Kernel.Gen
open Idealize.ShloMosaic Idealize.ShloMosaic.TcCoe
open Idealize.ShloMosaic.SparseCore (S V T)
open Idealize.SL.Sem

variable (m : (ℓ : Loc nD τ sig) → Buf (Elt Bits) ℓ) (ρ : Dev nD → PrngReg)

theorem run_frame (hpre : Cert.Pre_Kernel m) :
    θ_run (Cert.Kernel.defs (F := Bits)) (Cert.Kernel.threads (F := Bits)) ⟨m, fun _ => 0, ρ⟩ (fun r => ∀ c : Dev nD,
      r.2.mem (bLoc c main_arg0) = mT m c main_arg0
      ∧ r.2.mem (bLoc c main_arg1) = mT m c main_arg1
      ∧ r.2.mem (bLoc c main_arg2) = mT m c main_arg2
      ∧ r.2.mem (bLoc c main_arg3) = mT m c main_arg3
      ∧ r.2.mem (bLoc c main_arg4) = mT m c main_arg4
      ∧ r.2.mem (bLoc c main_arg5) = mT m c main_arg5
      ∧ r.2.mem (bLoc c main_arg6) = mT m c main_arg6) :=
  run_frame_gen m ρ (fun d => Cert.Proof.KBPre.idx_ok_of_pre m hpre d)

end Cert.Proof.KB

end
-- ==== Proof.KernelRun.lean ====
/-
  The runs of the kernel's program the claims rest on. `run_value`: under the precondition every weakly fair execution
  of the idealized kernel's threads terminates with the result array at `Spec.kernelOut` of the argument arrays and the
  argument arrays unchanged. `run_frame_ideal` / `run_frame`: termination with the argument arrays unchanged, for the
  idealized and for the word-level kernel.
-/
import proofs.«207435_g27118423507386_cont_sun_m_668_27_alg».proof.Defs
import proofs.«207435_g27118423507386_cont_sun_m_668_27_alg».proof.Proof.KernelSpec
import proofs.«207435_g27118423507386_cont_sun_m_668_27_alg».proof.Proof.KIFinal
import proofs.«207435_g27118423507386_cont_sun_m_668_27_alg».proof.Proof.KBFinal

noncomputable section

namespace Cert.Proof.KernelRun

open Idealize.ShloMosaic Idealize.SL.Sem

theorem run_value (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v9) = Cert.KernelIdeal.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  Cert.Proof.KI.run_value m g hpre

theorem run_frame_ideal (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  Cert.Proof.KI.run_frame m g hpre

theorem run_frame (m : (ℓ : Loc Cert.Kernel.nD Cert.Kernel.τ Cert.Kernel.sig) → Buf (Elt Bits) ℓ)
    (g : Dev Cert.Kernel.nD → PrngReg) (hpre : Cert.Pre_Kernel m) :
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) :=
  Cert.Proof.KB.run_frame m g hpre

end Cert.Proof.KernelRun

end
-- ==== Proof.BridgePool.lean ====
/-
  Under the precondition the reference's pooled rows are the kernel's. No index word is negative, so the wrap-around
  of negative indices leaves every word as it is; every word lies in [0, 999999], so the "names a row" mask is all
  ones and the lookup's fill value is never taken; the lookup then reads the table at the row the word names (its
  clamp into [0, 999999] is the identity on such a word) and the column asked for. The sum over a bag's 200
  positions starts from the zero word, which adds nothing, and the quotient by 200 is the product with the real
  1/200 on every extended real.
-/
import proofs.«207435_g27118423507386_cont_sun_m_668_27_alg».proof.Defs
import proofs.«207435_g27118423507386_cont_sun_m_668_27_alg».proof.Proof.KernelSpec
import proofs.«207435_g27118423507386_cont_sun_m_668_27_alg».proof.Proof.RefValue
import proofs.«207435_g27118423507386_cont_sun_m_668_27_alg».proof.Proof.BridgePre
import Idealize.ShloMosaic.Lib.ValueLayout
import Idealize.ShloMosaic.Lib.Pipeline.Value
import Idealize.ShloMosaic.Lib.ReduceAll
import Idealize.ShloMosaic.PureOps.Ideal.Laws

noncomputable section

namespace Cert.Proof.Bridge

open Idealize.ShloMosaic Idealize.ShloMosaic.ValueIdx Idealize.SL.Sem
open Cert.ReferenceIdeal Cert.ReferenceIdeal.Gen Cert.ReferenceIdeal.RefValue

/-- No index is negative, so none is wrapped. -/
theorem wrapIdx_eq (idx : IVec S4096x200 32) (hidx : IdxOK idx) : wrapIdx (F := Ideal) idx = idx := by
  funext k
  show Scalar.select (IntOp.cmpi .slt (idx k) 0#32) (IntOp.addi (idx k) 1000000#32) (idx k) = idx k
  have h0 : IntOp.cmpi .slt (idx k) 0#32 = 0#1 := by
    apply eq_zero_of_ne_one
    rw [IntOp.cmpi_slt, show (0#32 : BitVec 32).toInt = 0 from by decide]
    have := (hidx k).1
    omega
  rw [h0, select_zero]

/-- A fold by "and" from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self), show IntOp.andi 1#1 1#1 = 1#1 from by decide]
    exact ih fun n hn => h n (List.mem_cons_of_mem a hn)

/-- Every index names a row. -/
theorem inRange_eq (idx : IVec S4096x200 32) (hidx : IdxOK idx) (k : S4096x200.Idx) : inRange (F := Ideal) idx k = 1#1 := by
  unfold inRange
  rw [Host.reduce_eq_foldl]
  refine foldl_andi_one _ _ fun n _ => ?_
  rw [show startIdx (F := Ideal) idx = broadcastInDim S4096x200x1 ![0, 1] bcast_S4096x200_S4096x200x1_0_1 idx from by
    unfold startIdx; rw [wrapIdx_eq idx hidx]]
  simp only [andi, cmpi, broadcastInDim, constantI, IntOp.andi_eq_one, IntOp.cmpi_sge, IntOp.cmpi_sle]
  rw [show (0#32 : BitVec 32).toInt = 0 from by decide, show (999999#32 : BitVec 32).toInt = 999999 from by decide]
  exact hidx _

/-- The lookup's operand index at `(b, j, e)`: the row the index word names, the column `e`. -/
theorem operandIdx_eq (idx : IVec S4096x200 32) (hidx : IdxOK idx) (b : Fin 4096) (j : Fin 200) (e : Fin 64) :
    gather_S1000000x64_S4096x200x1_S4096x200x64_2_0_n_n_0_2_164.operandIdx (ix3 b j e)
        (broadcastInDim S4096x200x1 ![0, 1] bcast_S4096x200_S4096x200x1_0_1 idx)
      = ix2 (Cert.KernelIdeal.Spec.rowOf (idx (ix2 b j))) e := by
  funext a
  refine Fin.ext ?_
  match a with
  | ⟨0, _⟩ =>
    show gather_S1000000x64_S4096x200x1_S4096x200x64_2_0_n_n_0_2_164.start (ix3 b j e) _ 0
      + gather_S1000000x64_S4096x200x1_S4096x200x64_2_0_n_n_0_2_164.batchCoord (ix3 b j e) 0
      + gather_S1000000x64_S4096x200x1_S4096x200x64_2_0_n_n_0_2_164.offCoord (ix3 b j e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1000000x64.rank) ∈ gather_S1000000x64_S4096x200x1_S4096x200x64_2_0_n_n_0_2_164.startIndexMap from List.mem_singleton.mpr rfl)]
    have hsi : gather_S1000000x64_S4096x200x1_S4096x200x64_2_0_n_n_0_2_164.siIdx (ix3 b j e)
        ⟨List.idxOf (0 : Fin S1000000x64.rank) gather_S1000000x64_S4096x200x1_S4096x200x64_2_0_n_n_0_2_164.startIndexMap,
          List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi, broadcastInDim_apply ![0, 1] bcast_S4096x200_S4096x200x1_0_1 idx (ix3 b j (0 : Fin 1)) (ix2 b j) (fun ax => by
      match ax with
      | ⟨0, _⟩ => rfl
      | ⟨1, _⟩ => rfl)]
    show min (idx (ix2 b j)).toInt.toNat (1000000 - 1) = min (idx (ix2 b j)).toNat 999999
    have h0 := (hidx (ix2 b j)).1
    have hc := BitVec.toInt_eq_toNat_cond (idx (ix2 b j))
    have hlt := (idx (ix2 b j)).isLt
    split at hc <;> omega
  | ⟨1, _⟩ =>
    show gather_S1000000x64_S4096x200x1_S4096x200x64_2_0_n_n_0_2_164.start (ix3 b j e) _ 1
      + gather_S1000000x64_S4096x200x1_S4096x200x64_2_0_n_n_0_2_164.batchCoord (ix3 b j e) 1
      + gather_S1000000x64_S4096x200x1_S4096x200x64_2_0_n_n_0_2_164.offCoord (ix3 b j e) 1 = e.val
    rw [GatherDims.batchCoord_eq_zero _ _ _ List.not_mem_nil,
      show gather_S1000000x64_S4096x200x1_S4096x200x64_2_0_n_n_0_2_164.start (ix3 b j e) (broadcastInDim S4096x200x1 ![0, 1] bcast_S4096x200_S4096x200x1_0_1 idx)
        (1 : Fin S1000000x64.rank) = 0 from rfl,
      show gather_S1000000x64_S4096x200x1_S4096x200x64_2_0_n_n_0_2_164.offCoord (ix3 b j e) (1 : Fin S1000000x64.rank) = e.val from rfl,
      Nat.zero_add]

/-- THE LOOKUP READ AT `(b, j, e)`: the table at the row the index word names, column `e`. -/
theorem takeRows_apply (tbl : FVec Ideal S1000000x64 .f32) (idx : IVec S4096x200 32) (hidx : IdxOK idx)
    (b : Fin 4096) (j : Fin 200) (e : Fin 64) :
    takeRows (F := Ideal) tbl idx (ix3 b j e) = tbl (ix2 (Cert.KernelIdeal.Spec.rowOf (idx (ix2 b j))) e) := by
  unfold takeRows
  rw [select_apply, broadcastInDim_apply ![0, 1] bcast_S4096x200_S4096x200x64_0_1 _ (ix3 b j e) (ix2 b j) (fun ax => by
      match ax with
      | ⟨0, _⟩ => rfl
      | ⟨1, _⟩ => rfl),
    inRange_eq idx hidx, select_one]
  unfold Host.gather startIdx
  rw [wrapIdx_eq idx hidx, operandIdx_eq idx hidx]

/-- The word 0x43480000 is the real 200. -/
theorem ofBits_200 : Ideal.ofBits .f32 0x43480000#32 = ((200 : ℝ) : EReal) := by
  simp [Ideal.ofBits, Ideal.ieee, -EReal.coe_mul]; norm_num

/-- Position `k` of bag `b`, column `e`: the index the bag's sum reads. -/
theorem lift_eq (h : S4096x200x64.Reduces [1] S4096x64) (b : Fin 4096) (e : Fin 64) (k : Fin 200) :
    h.lift (ix2 b e) k = ix3 b k e := by
  funext a
  refine Fin.ext ?_
  match a with
  | ⟨0, _⟩ => rfl
  | ⟨1, _⟩ => rfl
  | ⟨2, _⟩ => rfl

/-- THE POOLED ROWS: the reference's mean over a bag is the kernel's sum times 1/200. -/
theorem pooled_eq (tbl : FVec Ideal S1000000x64 .f32) (idx : IVec S4096x200 32) (hidx : IdxOK idx) :
    pooled (F := Ideal) tbl idx = Cert.KernelIdeal.Spec.pooledSpec idx tbl := by
  funext i
  obtain ⟨b, e, rfl⟩ : ∃ (b : Fin 4096) (e : Fin 64), i = ix2 b e := ⟨i 0, i 1, eq_ix2 i⟩
  have hR : S4096x200x64.Reduces [1] S4096x64 := by decide
  show Ideal.div (Ideal.hostReduceAdd reducesTo_S4096x200x64_S4096x64_d1 (takeRows (F := Ideal) tbl idx)
      (Ideal.ofBits .f32 0x00000000#32) (ix2 b e)) (Ideal.ofBits .f32 0x43480000#32)
    = (∑ j : Fin 200, tbl (ix2 (Cert.KernelIdeal.Spec.rowOf (idx (ix2 b j))) e)) * (((1 / 200 : ℝ)) : EReal)
  rw [Ideal.hostReduceAdd_single _ hR, Ideal.ofBits_zero_f32, zero_add,
    ofBits_200, Ideal.div_coe (by norm_num : (200 : ℝ) ≠ 0)]
  refine congrArg (· * (((1 / 200 : ℝ)) : EReal)) ?_
  show ∑ k : Fin 200, takeRows (F := Ideal) tbl idx (hR.lift (ix2 b e) k) = _
  refine Finset.sum_congr rfl fun k _ => ?_
  rw [lift_eq, takeRows_apply tbl idx hidx]

end Cert.Proof.Bridge

end
-- ==== Proof.BridgeLayout.lean ====
/-
  Layout operations read at an index, for the shapes the two-layer perceptron and its softmax meet: a bias vector
  laid out as a row and repeated down the rows (the host's two broadcasts against a cast and a vector broadcast), a
  per-row scalar laid out as a column and repeated along the row, and a splat of a rank-0 constant. Each reads the
  operand at the evident coordinate; the side conditions "this axis has extent one" are settled by the coordinate's
  own bound.
-/
import Idealize.ShloMosaic.Lib.ValueLayout
import Idealize.ShloMosaic.Lib.Pipeline.Value
import Idealize.ShloMosaic.PureOps.Ideal.Laws

noncomputable section

namespace Cert.Proof.Bridge

open Idealize.ShloMosaic Idealize.ShloMosaic.ValueIdx

variable {α : Type}

/-- The host's row layout of a vector, `[b] → [1, b] → [a, b]`, reads the vector at the column. -/
theorem bcastRow_apply {a b : ℕ} (v : (⟨1, ![b]⟩ : Shape).Idx → α)
    (h1 : (⟨2, ![1, b]⟩ : Shape).BroadcastsInDim ⟨2, ![a, b]⟩ ![0, 1])
    (h2 : (⟨1, ![b]⟩ : Shape).BroadcastsInDim ⟨2, ![1, b]⟩ ![1]) (p : Fin a) (q : Fin b) :
    broadcastInDim ⟨2, ![a, b]⟩ ![0, 1] h1 (broadcastInDim ⟨2, ![1, b]⟩ ![1] h2 v) (ix2 p q) = v (ix1 q) := by
  rw [broadcastInDim_apply ![0, 1] h1 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply ![1] h2 v (ix2 (0 : Fin 1) q) (ix1 q) (fun ax => by
    match ax with
    | ⟨0, _⟩ =>
      show q.val = if b = 1 then 0 else q.val
      split
      · have := q.isLt; omega
      · rfl)

/-- The kernel's row layout of a vector, a cast `[b] → [1, b]` and a broadcast to `[a, b]`, reads the same. -/
theorem castRow_apply {a b : ℕ} (v : (⟨1, ![b]⟩ : Shape).Idx → α)
    (h1 : (⟨2, ![1, b]⟩ : Shape).Broadcasts ⟨2, ![a, b]⟩) (h2 : (⟨1, ![b]⟩ : Shape).ShapeCasts ⟨2, ![1, b]⟩)
    (p : Fin a) (q : Fin b) :
    broadcastTo ⟨2, ![a, b]⟩ (shapeCast ⟨2, ![1, b]⟩ v h2) h1 (ix2 p q) = v (ix1 q) := by
  rw [broadcastTo_1b_ab_apply, shapeCast_a_1a_apply]

/-- The host's column layout of a per-row scalar, `[a] → [a, 1] → [a, b]`, reads the scalar of the row. -/
theorem bcastCol_apply {a b : ℕ} (v : (⟨1, ![a]⟩ : Shape).Idx → α)
    (h1 : (⟨2, ![a, 1]⟩ : Shape).BroadcastsInDim ⟨2, ![a, b]⟩ ![0, 1])
    (h2 : (⟨1, ![a]⟩ : Shape).BroadcastsInDim ⟨2, ![a, 1]⟩ ![0]) (p : Fin a) (q : Fin b) :
    broadcastInDim ⟨2, ![a, b]⟩ ![0, 1] h1 (broadcastInDim ⟨2, ![a, 1]⟩ ![0] h2 v) (ix2 p q) = v (ix1 p) := by
  rw [broadcastInDim_apply ![0, 1] h1 _ (ix2 p q) (ix2 p (0 : Fin 1)) (fun ax => by
    match ax with
    | ⟨0, _⟩ =>
      show p.val = if a = 1 then 0 else p.val
      split
      · have := p.isLt; omega
      · rfl
    | ⟨1, _⟩ => rfl)]
  exact broadcastInDim_apply ![0] h2 v (ix2 p (0 : Fin 1)) (ix1 p) (fun ax => by
    match ax with
    | ⟨0, _⟩ =>
      show p.val = if a = 1 then 0 else p.val
      split
      · have := p.isLt; omega
      · rfl)

/-- The kernel's column layout, a cast `[a] → [a, 1]` and a broadcast to `[a, b]`, reads the same. -/
theorem castCol_apply {a b : ℕ} (v : (⟨1, ![a]⟩ : Shape).Idx → α)
    (h1 : (⟨2, ![a, 1]⟩ : Shape).Broadcasts ⟨2, ![a, b]⟩) (h2 : (⟨1, ![a]⟩ : Shape).ShapeCasts ⟨2, ![a, 1]⟩)
    (p : Fin a) (q : Fin b) :
    broadcastTo ⟨2, ![a, b]⟩ (shapeCast ⟨2, ![a, 1]⟩ v h2) h1 (ix2 p q) = v (ix1 p) := by
  rw [broadcastTo_apply _ h1 (ix2 p q) (ix2 p (0 : Fin 1)) (fun ax => by
    match ax with
    | ⟨0, _⟩ =>
      show p.val = if a = 1 then 0 else p.val
      split
      · have := p.isLt; omega
      · rfl
    | ⟨1, _⟩ => rfl)]
  exact shapeCast_apply v h2 (ix2 p (0 : Fin 1)) (ix1 p) (by
    rw [Shape.rowMajor_val_two, Shape.rowMajor_val_one]
    show p.val = p.val * 1 + 0
    omega)

/-- The host's contraction is the matrix product into a zero accumulator, at every index: both are the sum of the
    operands' products over the contraction index. -/
theorem dotGeneral_eq_matmul_zero {sl sr so : Shape} {φ₁ φ₂ : FTy} (d d' : DotDims sl sr so) (hd : d = d')
    (prec : Option ContractPrecision) (l : FVec Ideal sl φ₁) (r : FVec Ideal sr φ₂) (j : so.Idx) :
    FloatOps.dotGeneral d prec .single l r j = FloatOps.matmul d' prec l r (constant (F := Ideal) so .f32 0x00000000#32) j := by
  subst hd
  rw [Ideal.dotGeneral_apply, Ideal.matmul_constant_zero_apply]

end Cert.Proof.Bridge

end
-- ==== Proof.BridgeMlp.lean ====
/-
  The perceptron and the softmax are the same function on both sides, for every pooled array and all weights. The
  host's contraction and the matrix product into a zero accumulator are the same sum over the contraction index; a bias
  laid out as a row is read at the column on both sides; the rectifier is the maximum with the zero word on both; a row's
  maximum is the fold of the maximum from minus infinity over the row's two entries on both, and one more maximum with
  minus infinity changes nothing, the fold being at least its initial value; the exponential, the row's sum (the host's
  from the zero word, which adds nothing) and the quotient are the same pointwise operations.
-/
import proofs.«207435_g27118423507386_cont_sun_m_668_27_alg».proof.Defs
import proofs.«207435_g27118423507386_cont_sun_m_668_27_alg».proof.Proof.KernelSpec
import proofs.«207435_g27118423507386_cont_sun_m_668_27_alg».proof.Proof.RefValue
import proofs.«207435_g27118423507386_cont_sun_m_668_27_alg».proof.Proof.BridgeLayout

noncomputable section

namespace Cert.Proof.Bridge

open Idealize.ShloMosaic Idealize.ShloMosaic.ValueIdx Idealize.SL.Sem
open Cert.KernelIdeal Cert.KernelIdeal.Gen

/-- The kernel's first layer: the product into a zero accumulator, the bias row, the rectifier. -/
def hiddenK (x : FVec Ideal S4096x64 .f32) (A : FVec Ideal S64x128 .f32) (r : FVec Ideal S1x128 .f32) : FVec Ideal S4096x128 .f32 :=
  maximumf (addf (matmul dot_S4096x64_S64x128_S4096x128_1_0_0_1_n_n none x A (constant (F := Ideal) S4096x128 .f32 0x00000000#32))
    (broadcastTo S4096x128 r broadcasts_S1x128_S4096x128)) (broadcast S4096x128 (Scalar.ofBits (F := Ideal) .f32 0x00000000#32))

/-- The kernel's second layer. -/
def logitsK (h : FVec Ideal S4096x128 .f32) (C : FVec Ideal S128x2 .f32) (r : FVec Ideal S1x2 .f32) : FVec Ideal S4096x2 .f32 :=
  addf (matmul dot_S4096x128_S128x2_S4096x2_1_0_0_1_n_n none h C (constant (F := Ideal) S4096x2 .f32 0x00000000#32))
    (broadcastTo S4096x2 r broadcasts_S1x2_S4096x2)

/-- The kernel's shifted exponentials. -/
def expK (z : FVec Ideal S4096x2 .f32) : FVec Ideal S4096x2 .f32 :=
  exp (subf z (broadcastTo S4096x2 (shapeCast S4096x1
    (multiReduction (F := Ideal) .maximumf [1] S4096 z 0xFF800000#32 reduces_S4096x2_S4096 (.inl rfl) rfl) shapeCasts_S4096_S4096x1)
    broadcasts_S4096x1_S4096x2))

/-- The kernel's softmax. -/
def softmaxK (z : FVec Ideal S4096x2 .f32) : FVec Ideal S4096x2 .f32 :=
  divf (expK z) (broadcastTo S4096x2 (shapeCast S4096x1
    (multiReduction (F := Ideal) .add [1] S4096 (expK z) 0x00000000#32 reduces_S4096x2_S4096 (.inl rfl) rfl) shapeCasts_S4096_S4096x1)
    broadcasts_S4096x1_S4096x2)

/-- The payload is the composition of the three (its casts of an array to its own shape are the identity). -/
theorem k3_pay1_eq (x : FVec Ideal S4096x64 .f32) (A : FVec Ideal S64x128 .f32) (r1 : FVec Ideal S1x128 .f32)
    (C : FVec Ideal S128x2 .f32) (r2 : FVec Ideal S1x2 .f32) :
    k3_pay1 (F := Ideal) x A r1 C r2 = softmaxK (logitsK (hiddenK x A r1) C r2) := by
  unfold k3_pay1
  simp only [shapeCast_self]
  rfl

/-- The first layer is the same function. -/
theorem hidden_eq (x : FVec Ideal S4096x64 .f32) (W1 : FVec Ideal S128x64 .f32) (b1 : FVec Ideal S128 .f32) :
    Cert.ReferenceIdeal.RefValue.hidden (F := Ideal) x W1 b1
      = hiddenK x (transpose S64x128 [1, 0] W1 transposes_S128x64_S64x128_1_0) (shapeCast S1x128 b1 shapeCasts_S128_S1x128) := by
  funext i
  obtain ⟨p, q, rfl⟩ : ∃ (p : Fin 4096) (q : Fin 128), i = ix2 p q := ⟨i 0, i 1, eq_ix2 i⟩
  unfold hiddenK
  simp only [maximumf_apply, addf_apply, broadcast_apply]
  rw [show Host.dotGeneral (F := Ideal) Cert.ReferenceIdeal.dot_S4096x64_S64x128_S4096x128_1_0_0_1_n_n none x
        (transpose Cert.ReferenceIdeal.S64x128 [1, 0] W1 Cert.ReferenceIdeal.Gen.transposes_S128x64_S64x128_1_0) (ix2 p q)
      = matmul dot_S4096x64_S64x128_S4096x128_1_0_0_1_n_n none x
        (transpose S64x128 [1, 0] W1 transposes_S128x64_S64x128_1_0) (constant (F := Ideal) S4096x128 .f32 0x00000000#32) (ix2 p q)
      from dotGeneral_eq_matmul_zero _ _ rfl none _ _ _,
    bcastRow_apply, castRow_apply]
  rfl

/-- The second layer is the same function. -/
theorem logits_eq (h : FVec Ideal S4096x128 .f32) (W2 : FVec Ideal S2x128 .f32) (b2 : FVec Ideal S2 .f32) :
    Cert.ReferenceIdeal.RefValue.logits (F := Ideal) h W2 b2
      = logitsK h (transpose S128x2 [1, 0] W2 transposes_S2x128_S128x2_1_0) (shapeCast S1x2 b2 shapeCasts_S2_S1x2) := by
  funext i
  obtain ⟨p, q, rfl⟩ : ∃ (p : Fin 4096) (q : Fin 2), i = ix2 p q := ⟨i 0, i 1, eq_ix2 i⟩
  unfold logitsK
  simp only [addf_apply]
  rw [show Host.dotGeneral (F := Ideal) Cert.ReferenceIdeal.dot_S4096x128_S128x2_S4096x2_1_0_0_1_n_n none h
        (transpose Cert.ReferenceIdeal.S128x2 [1, 0] W2 Cert.ReferenceIdeal.Gen.transposes_S2x128_S128x2_1_0) (ix2 p q)
      = matmul dot_S4096x128_S128x2_S4096x2_1_0_0_1_n_n none h
        (transpose S128x2 [1, 0] W2 transposes_S2x128_S128x2_1_0) (constant (F := Ideal) S4096x2 .f32 0x00000000#32) (ix2 p q)
      from dotGeneral_eq_matmul_zero _ _ rfl none _ _ _,
    bcastRow_apply, castRow_apply]

/-- A row's maximum: the host's fold from minus infinity, and once more the maximum with minus infinity, is the
    vector reduction's fold. -/
theorem rowMax_eq (z : FVec Ideal S4096x2 .f32) (p : Fin 4096) :
    max (Ideal.ofBits .f32 0xFF800000#32)
        (Host.reduce (FloatOps.maximumf (F := Ideal) (φ := .f32)) z (constant (F := Ideal) Cert.ReferenceIdeal.S_ .f32 0xFF800000#32)
          Cert.ReferenceIdeal.Gen.reducesTo_S4096x2_S4096_d1 Cert.ReferenceIdeal.Gen.h_S_ (ix1 p))
      = multiReduction (F := Ideal) .maximumf [1] S4096 z 0xFF800000#32 reduces_S4096x2_S4096 (.inl rfl) rfl (ix1 p) := by
  refine Eq.trans ?_ (Ideal.multiReduction_maximumf_single z 0xFF800000#32 reduces_S4096x2_S4096 (.inl rfl) rfl (ix1 p)).symm
  rw [Host.reduce_eq_fold_single _ z _ Cert.ReferenceIdeal.Gen.reducesTo_S4096x2_S4096_d1 reduces_S4096x2_S4096]
  exact max_eq_right ((Finset.le_fold_max _).2 (Or.inl le_rfl))

/-- The shifted exponentials are the same function. -/
theorem expShifted_eq (z : FVec Ideal S4096x2 .f32) : Cert.ReferenceIdeal.RefValue.expShifted (F := Ideal) z = expK z := by
  funext i
  obtain ⟨p, q, rfl⟩ : ∃ (p : Fin 4096) (q : Fin 2), i = ix2 p q := ⟨i 0, i 1, eq_ix2 i⟩
  unfold expK
  show Ideal.exp (z (ix2 p q) - _) = Ideal.exp (z (ix2 p q) - _)
  rw [bcastCol_apply, castCol_apply, ← rowMax_eq]
  rfl

/-- A row's sum: the host's from the zero word is the vector reduction's. -/
theorem rowSum_eq (e : FVec Ideal S4096x2 .f32) (p : Fin 4096) :
    Host.reduceAdd (F := Ideal) e (constant (F := Ideal) Cert.ReferenceIdeal.S_ .f32 0x00000000#32)
        Cert.ReferenceIdeal.Gen.reducesTo_S4096x2_S4096_d1 Cert.ReferenceIdeal.Gen.h_S_ (ix1 p)
      = multiReduction (F := Ideal) .add [1] S4096 e 0x00000000#32 reduces_S4096x2_S4096 (.inl rfl) rfl (ix1 p) := by
  refine Eq.trans ?_ (Ideal.multiReduction_add_single e 0x00000000#32 reduces_S4096x2_S4096 (.inl rfl) rfl (ix1 p)).symm
  show Ideal.hostReduceAdd Cert.ReferenceIdeal.Gen.reducesTo_S4096x2_S4096_d1 e (Ideal.ofBits .f32 0x00000000#32) (ix1 p) = _
  rw [Ideal.hostReduceAdd_single _ reduces_S4096x2_S4096, Ideal.ofBits_zero_f32, zero_add]

/-- The softmax is the same function. -/
theorem softmax_eq (z : FVec Ideal S4096x2 .f32) : Cert.ReferenceIdeal.RefValue.softmaxRef (F := Ideal) z = softmaxK z := by
  funext i
  obtain ⟨p, q, rfl⟩ : ∃ (p : Fin 4096) (q : Fin 2), i = ix2 p q := ⟨i 0, i 1, eq_ix2 i⟩
  unfold softmaxK Cert.ReferenceIdeal.RefValue.softmaxRef
  rw [expShifted_eq]
  show Ideal.div (expK z (ix2 p q)) _ = Ideal.div (expK z (ix2 p q)) _
  rw [bcastCol_apply, castCol_apply, rowSum_eq]

/-- The perceptron with its softmax: the reference's composition is the kernel's payload, for all arguments. -/
theorem mlp_eq (x : FVec Ideal S4096x64 .f32) (W1 : FVec Ideal S128x64 .f32) (b1 : FVec Ideal S128 .f32)
    (W2 : FVec Ideal S2x128 .f32) (b2 : FVec Ideal S2 .f32) :
    Cert.ReferenceIdeal.RefValue.softmaxRef (F := Ideal)
        (Cert.ReferenceIdeal.RefValue.logits (Cert.ReferenceIdeal.RefValue.hidden x W1 b1) W2 b2)
      = k3_pay1 (F := Ideal) x (transpose S64x128 [1, 0] W1 transposes_S128x64_S64x128_1_0)
          (shapeCast S1x128 b1 shapeCasts_S128_S1x128) (transpose S128x2 [1, 0] W2 transposes_S2x128_S128x2_1_0)
          (shapeCast S1x2 b2 shapeCasts_S2_S1x2) := by
  rw [k3_pay1_eq, softmax_eq, logits_eq, hidden_eq]

end Cert.Proof.Bridge

end
-- ==== Proof.Bridge.lean ====
/-
  The two sides are one function. Under the precondition every index word of the bags lies in `[0, 999999]`, so the
  reference's lookup yields the table's rows (no wrapped index, no NaN row); its sum over a bag's 200 positions divided
  by 200 is the kernel's sum times the named constant 1/200 (a quotient by a nonzero real is the product with its
  inverse on every extended real); the two affine layers are the same sums (a matrix product into a zero accumulator
  against the host's contraction), the rectifier and the softmax the same pointwise and row-wise operations, the
  reference's extra maximum with minus infinity the identity.
-/
import proofs.«207435_g27118423507386_cont_sun_m_668_27_alg».proof.Defs
import proofs.«207435_g27118423507386_cont_sun_m_668_27_alg».proof.Proof.KernelSpec
import proofs.«207435_g27118423507386_cont_sun_m_668_27_alg».proof.Proof.RefValue
import proofs.«207435_g27118423507386_cont_sun_m_668_27_alg».proof.Proof.Gen.Pre_input_domain
import proofs.«207435_g27118423507386_cont_sun_m_668_27_alg».proof.Proof.BridgePre
import proofs.«207435_g27118423507386_cont_sun_m_668_27_alg».proof.Proof.BridgePool
import proofs.«207435_g27118423507386_cont_sun_m_668_27_alg».proof.Proof.BridgeMlp

noncomputable section

namespace Cert.Proof.Bridge

open Idealize.ShloMosaic Idealize.SL.Sem

/-- The reference's result is the kernel's: the pooled rows agree under the precondition, and the perceptron with its
    softmax is the same function of them and of the weights. -/
theorem ref_eq_kernel (idx : IVec Cert.KernelIdeal.S4096x200 32) (tbl : FVec Ideal Cert.KernelIdeal.S1000000x64 .f32)
    (W1 : FVec Ideal Cert.KernelIdeal.S128x64 .f32) (b1 : FVec Ideal Cert.KernelIdeal.S128 .f32)
    (W2 : FVec Ideal Cert.KernelIdeal.S2x128 .f32) (b2 : FVec Ideal Cert.KernelIdeal.S2 .f32) (hidx : IdxOK idx) :
    Cert.ReferenceIdeal.RefValue.refOut (F := Ideal) idx tbl W1 b1 W2 b2 = Cert.KernelIdeal.Spec.kernelOut idx tbl W1 b1 W2 b2 := by
  unfold Cert.KernelIdeal.Spec.kernelOut
  rw [← pooled_eq tbl idx hidx]
  exact mlp_eq _ W1 b1 W2 b2

end Cert.Proof.Bridge

end
-- ==== Proof.lean ====
/-
  The claim, assembled. The reference's frame is its run with the result dropped; `preserves` is the named
  constant's rule, twice; the kernel's two frames are the program's frame at the two float instances, and the algebraic claim rests
  on the idealized program's run with its result named (Proof/KernelRun.lean): it ends with the result at a pure function of
  the arguments, which under the precondition is the reference's function of the same arguments (Proof/Bridge.lean).
-/
import proofs.«207435_g27118423507386_cont_sun_m_668_27_alg».proof.Defs
import proofs.«207435_g27118423507386_cont_sun_m_668_27_alg».proof.Proof.Gen.Kernel
import proofs.«207435_g27118423507386_cont_sun_m_668_27_alg».proof.Proof.Gen.KernelIdeal
import proofs.«207435_g27118423507386_cont_sun_m_668_27_alg».proof.Proof.Gen.ReferenceIdeal
import proofs.«207435_g27118423507386_cont_sun_m_668_27_alg».proof.Proof.Gen.Pre_input_domain
import proofs.«207435_g27118423507386_cont_sun_m_668_27_alg».proof.Proof.Preserves
import proofs.«207435_g27118423507386_cont_sun_m_668_27_alg».proof.Proof.RefFrame
import proofs.«207435_g27118423507386_cont_sun_m_668_27_alg».proof.Proof.KernelRun
import proofs.«207435_g27118423507386_cont_sun_m_668_27_alg».proof.Proof.Bridge

noncomputable section

namespace Cert.Proof

open Idealize.ShloMosaic Idealize.SL.Sem

theorem frame_k : Cert.frame_Kernel := fun m g hpre => KernelRun.run_frame m g hpre

theorem frame_ki : Cert.frame_KernelIdeal := fun m g hpre => KernelRun.run_frame_ideal m g hpre

theorem algebraic : Cert.algebraic_KernelIdeal_ReferenceIdeal := by
  intro m g m' g' hpre hagree
  refine ⟨fun c => Cert.KernelIdeal.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    KernelRun.run_value m g hpre, ?_⟩
  refine (θ_run Cert.ReferenceIdeal.defs _ _).mono (fun _ h c => ⟨(h c).1.trans ?_, (h c).2⟩)
    (Cert.ReferenceIdeal.RefValue.run (F := Ideal) m' g')
  obtain ⟨h0, -, h2, h3, h4, h5, h6⟩ := hagree c
  rw [h0, h2, h3, h4, h5, h6]
  exact Bridge.ref_eq_kernel _ _ _ _ _ _ (Bridge.idx_ok_of_pre m hpre c)

theorem claim : Cert.Claim :=
  ⟨Cert.Kernel.Gen.facts, Cert.KernelIdeal.Gen.facts, Cert.ReferenceIdeal.Gen.facts, Cert.Pre_input_domain.Gen.facts,
    frame_k, frame_ki, RefFrame.frame, Preserves.preserves, algebraic⟩

end Cert.Proof

end
